-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v171)) (v1 : (c : Dev Cert.KernelIdeal.nD) → Buf (Elt Ideal) ((c.tc : Thread Cert.KernelIdeal.nD Cert.KernelIdeal.τ).loc Cert.KernelIdeal.main_v203)) (v2 : (c : Dev Cert.KernelIdeal.nD) → Buf (Elt Ideal) ((c.tc : Thread Cert.KernelIdeal.nD Cert.KernelIdeal.τ).loc Cert.KernelIdeal.main_v235)) (v3 : (c : Dev Cert.KernelIdeal.nD) → Buf (Elt Ideal) ((c.tc : Thread Cert.KernelIdeal.nD Cert.KernelIdeal.τ).loc Cert.KernelIdeal.main_v267)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_v203) = v1 c
          ∧ r.2.mem ((c.tc : Thread Cert.KernelIdeal.nD Cert.KernelIdeal.τ).loc Cert.KernelIdeal.main_v235) = v2 c
          ∧ r.2.mem ((c.tc : Thread Cert.KernelIdeal.nD Cert.KernelIdeal.τ).loc Cert.KernelIdeal.main_v267) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v271) = v1 c
          ∧ r.2.mem ((c.tc : Thread Cert.ReferenceIdeal.nD Cert.ReferenceIdeal.τ).loc Cert.ReferenceIdeal.main_v324) = v2 c
          ∧ r.2.mem ((c.tc : Thread Cert.ReferenceIdeal.nD Cert.ReferenceIdeal.τ).loc Cert.ReferenceIdeal.main_v377) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S7x128x128 : Shape := ⟨3, ![7, 128, 128]⟩
abbrev S7x128 : Shape := ⟨2, ![7, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_

variable [Facts]

def fn_part1 {F : FTy → Type} [FloatOps F] (main_arg6 : FVec F S7x128 .f32) (main_arg7 : FVec F S7x128 .f32) (main_arg8 : FVec F S7x128 .f32) (main_v13 : IVec S_ 1) (main_v16 : IVec S7x128x128 1) : IVec S_ 1 :=
  let main_c_5 : IVec S_ 1 := constantI S_ 1 1#1
  let main_v17 : IVec S_ 1 := (fun x v => Host.reduce IntOp.andi x v reducesTo_S7x128x128_S_d0_1_2 h_S_) main_v16 main_c_5
  let main_v18 : IVec S_ 1 := andi main_v13 main_v17
  let main_v19 : FVec F S7x128 .f32 := Host.absf main_arg6
  let main_cst_6 : FVec F S_ .f32 := constant S_ .f32 0x7F800000#32
  let main_v20 : FVec F S7x128 .f32 := broadcastInDim S7x128 ![] bcast_S_S7x128 main_cst_6
  let main_v21 : IVec S7x128 1 := cmpf .olt main_v19 main_v20
  let main_c_7 : IVec S_ 1 := constantI S_ 1 1#1
  let main_v22 : IVec S_ 1 := (fun x v => Host.reduce IntOp.andi x v reducesTo_S7x128_S_d0_1 h_S_) main_v21 main_c_7
  let main_v23 : IVec S_ 1 := andi main_v18 main_v22
  let main_v24 : FVec F S7x128 .f32 := Host.absf main_arg7
  let main_cst_8 : FVec F S_ .f32 := constant S_ .f32 0x7F800000#32
  let main_v25 : FVec F S7x128 .f32 := broadcastInDim S7x128 ![] bcast_S_S7x128 main_cst_8
  let main_v26 : IVec S7x128 1 := cmpf .olt main_v24 main_v25
  let main_c_9 : IVec S_ 1 := constantI S_ 1 1#1
  let main_v27 : IVec S_ 1 := (fun x v => Host.reduce IntOp.andi x v reducesTo_S7x128_S_d0_1 h_S_) main_v26 main_c_9
  let main_v28 : IVec S_ 1 := andi main_v23 main_v27
  let main_v29 : FVec F S7x128 .f32 := Host.absf main_arg8
  let main_cst_10 : FVec F S_ .f32 := constant S_ .f32 0x7F800000#32
  let main_v30 : FVec F S7x128 .f32 := broadcastInDim S7x128 ![] bcast_S_S7x128 main_cst_10
  let main_v31 : IVec S7x128 1 := cmpf .olt main_v29 main_v30
  let main_c_11 : IVec S_ 1 := constantI S_ 1 1#1
  let main_v32 : IVec S_ 1 := (fun x v => Host.reduce IntOp.andi x v reducesTo_S7x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : IVec S50000 32) (main_arg3 : FVec F S7x128x128 .f32) (main_arg4 : FVec F S7x128 .f32) (main_arg5 : FVec F S7x128x128 .f32) (main_arg6 : FVec F S7x128 .f32) (main_arg7 : FVec F S7x128 .f32) (main_arg8 : FVec F S7x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S7x128x128 .f32 := Host.absf main_arg3
  let main_cst_0 : FVec F S_ .f32 := constant S_ .f32 0x7F800000#32
  let main_v5 : FVec F S7x128x128 .f32 := broadcastInDim S7x128x128 ![] bcast_S_S7x128x128 main_cst_0
  let main_v6 : IVec S7x128x128 1 := cmpf .olt main_v4 main_v5
  let main_c_1 : IVec S_ 1 := constantI S_ 1 1#1
  let main_v7 : IVec S_ 1 := (fun x v => Host.reduce IntOp.andi x v reducesTo_S7x128x128_S_d0_1_2 h_S_) main_v6 main_c_1
  let main_v8 : IVec S_ 1 := andi main_v3 main_v7
  let main_v9 : FVec F S7x128 .f32 := Host.absf main_arg4
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  let main_v14 : FVec F S7x128x128 .f32 := Host.absf main_arg5
  let main_cst_4 : FVec F S_ .f32 := constant S_ .f32 0x7F800000#32
  let main_v15 : FVec F S7x128x128 .f32 := broadcastInDim S7x128x128 ![] bcast_S_S7x128x128 main_cst_4
  let main_v16 : IVec S7x128x128 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S7x128x128 : Shape := ⟨3, ![7, 128, 128]⟩
abbrev S7x128 : Shape := ⟨2, ![7, 128]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩

abbrev nBuf : Space → Nat
  | .hbm => 324
  | .vmem => 126
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S7x128x128, .f32⟩
  | 4 => ⟨S7x128, .f32⟩
  | 5 => ⟨S7x128x128, .f32⟩
  | 6 => ⟨S7x128, .f32⟩
  | 7 => ⟨S7x128, .f32⟩
  | 8 => ⟨S7x128, .f32⟩
  | 9 => ⟨S1x600000, .i32⟩
  | 10 => ⟨S600000, .i32⟩
  | 11 => ⟨S1x600000, .i32⟩
  | 12 => ⟨S600000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .f32⟩
  | 35 => ⟨S50000x128, .f32⟩
  | 36 => ⟨S600000x1, .i32⟩
  | 37 => ⟨S50000x128, .f32⟩
  | 38 => ⟨S1x128, .f32⟩
  | 39 => ⟨S1x128, .f32⟩
  | 40 => ⟨S50000x128, .f32⟩
  | 41 => ⟨S1x128, .f32⟩
  | 42 => ⟨S1x128, .f32⟩
  | 43 => ⟨S128, .f32⟩
  | 44 => ⟨S_, .f32⟩
  | 45 => ⟨S128, .f32⟩
  | 46 => ⟨S128, .f32⟩
  | 47 => ⟨S128, .f32⟩
  | 48 => ⟨S_, .f32⟩
  | 49 => ⟨S128, .f32⟩
  | 50 => ⟨S128, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S128, .f32⟩
  | 58 => ⟨S128, .f32⟩
  | 59 => ⟨S128, .f32⟩
  | 60 => ⟨S1x128, .f32⟩
  | 61 => ⟨S1x128, .f32⟩
  | 62 => ⟨S50000x128, .f32⟩
  | 63 => ⟨S1x128x128, .f32⟩
  | 64 => ⟨S128x128, .f32⟩
  | 65 => ⟨S1x128, .f32⟩
  | 66 => ⟨S128, .f32⟩
  | 67 => ⟨S1x128x128, .f32⟩
  | 68 => ⟨S128x128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000x128, .f32⟩
  | 84 => ⟨S_, .f32⟩
  | 85 => ⟨S50000x128, .f32⟩
  | 86 => ⟨S600000x1, .i32⟩
  | 87 => ⟨S50000x128, .f32⟩
  | 88 => ⟨S1x128, .f32⟩
  | 89 => ⟨S1x128, .f32⟩
  | 90 => ⟨S50000x128, .f32⟩
  | 91 => ⟨S1x128, .f32⟩
  | 92 => ⟨S1x128, .f32⟩
  | 93 => ⟨S128, .f32⟩
  | 94 => ⟨S_, .f32⟩
  | 95 => ⟨S128, .f32⟩
  | 96 => ⟨S128, .f32⟩
  | 97 => ⟨S128, .f32⟩
  | 98 => ⟨S_, .f32⟩
  | 99 => ⟨S128, .f32⟩
  | 100 => ⟨S128, .f32⟩
  | 101 => ⟨S128, .f32⟩
  | 102 => ⟨S128, .f32⟩
  | 103 => ⟨S_, .f32⟩
  | 104 => ⟨S128, .f32⟩
  | 105 => ⟨S128, .f32⟩
  | 106 => ⟨S128, .f32⟩
  | 107 => ⟨S128, .f32⟩
  | 108 => ⟨S128, .f32⟩
  | 109 => ⟨S128, .f32⟩
  | 110 => ⟨S1x128, .f32⟩
  | 111 => ⟨S1x128, .f32⟩
  | 112 => ⟨S50000x128, .f32⟩
  | 113 => ⟨S1x128x128, .f32⟩
  | 114 => ⟨S128x128, .f32⟩
  | 115 => ⟨S1x128, .f32⟩
  | 116 => ⟨S128, .f32⟩
  | 117 => ⟨S1x128x128, .f32⟩
  | 118 => ⟨S128x128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S_, .i32⟩
  | 126 => ⟨S600000, .i32⟩
  | 127 => ⟨S600000, .i1⟩
  | _ => ⟨S50000x128, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S_, .f32⟩
  | 7 => ⟨S50000x128, .f32⟩
  | 8 => ⟨S600000x1, .i32⟩
  | 9 => ⟨S50000x128, .f32⟩
  | 10 => ⟨S1x128, .f32⟩
  | 11 => ⟨S1x128, .f32⟩
  | 12 => ⟨S50000x128, .f32⟩
  | 13 => ⟨S1x128, .f32⟩
  | 14 => ⟨S1x128, .f32⟩
  | 15 => ⟨S128, .f32⟩
  | 16 => ⟨S_, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S128, .f32⟩
  | 24 => ⟨S128, .f32⟩
  | 25 => ⟨S_, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S1x128, .f32⟩
  | 33 => ⟨S1x128, .f32⟩
  | 34 => ⟨S50000x128, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S_, .f32⟩
  | 45 => ⟨S50000x128, .f32⟩
  | 46 => ⟨S600000x1, .i32⟩
  | 47 => ⟨S50000x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S1x128, .f32⟩
  | 62 => ⟨S50000x128, .f32⟩
  | 63 => ⟨S1x128, .f32⟩
  | 64 => ⟨S1x128, .f32⟩
  | 65 => ⟨S128, .f32⟩
  | 66 => ⟨S_, .f32⟩
  | 67 => ⟨S128, .f32⟩
  | 68 => ⟨S128, .f32⟩
  | 69 => ⟨S128, .f32⟩
  | 70 => ⟨S_, .f32⟩
  | 71 => ⟨S128, .f32⟩
  | 72 => ⟨S128, .f32⟩
  | 73 => ⟨S128, .f32⟩
  | 74 => ⟨S128, .f32⟩
  | 75 => ⟨S_, .f32⟩
  | 76 => ⟨S128, .f32⟩
  | 77 => ⟨S128, .f32⟩
  | 78 => ⟨S128, .f32⟩
  | 79 => ⟨S128, .f32⟩
  | 80 => ⟨S128, .f32⟩
  | 81 => ⟨S128, .f32⟩
  | 82 => ⟨S1x128, .f32⟩
  | 83 => ⟨S1x128, .f32⟩
  | 84 => ⟨S50000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S1x128, .f32⟩
  | 99 => ⟨S50000x128, .f32⟩
  | 100 => ⟨S1x128, .f32⟩
  | 101 => ⟨S1x128, .f32⟩
  | 102 => ⟨S128, .f32⟩
  | 103 => ⟨S_, .f32⟩
  | 104 => ⟨S128, .f32⟩
  | 105 => ⟨S128, .f32⟩
  | 106 => ⟨S128, .f32⟩
  | 107 => ⟨S_, .f32⟩
  | 108 => ⟨S128, .f32⟩
  | 109 => ⟨S128, .f32⟩
  | 110 => ⟨S128, .f32⟩
  | 111 => ⟨S128, .f32⟩
  | 112 => ⟨S_, .f32⟩
  | 113 => ⟨S128, .f32⟩
  | 114 => ⟨S128, .f32⟩
  | 115 => ⟨S128, .f32⟩
  | 116 => ⟨S128, .f32⟩
  | 117 => ⟨S128, .f32⟩
  | 118 => ⟨S128, .f32⟩
  | 119 => ⟨S1x128, .f32⟩
  | 120 => ⟨S1x128, .f32⟩
  | 121 => ⟨S50000x128, .f32⟩
  | 122 => ⟨S1x128x128, .f32⟩
  | 123 => ⟨S128x128, .f32⟩
  | 124 => ⟨S1x128, .f32⟩
  | 125 => ⟨S128, .f32⟩
  | 126 => ⟨S1x128x128, .f32⟩
  | 127 => ⟨S128x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S1x128, .f32⟩
  | 8 => ⟨S50000x128, .f32⟩
  | 9 => ⟨S1x128, .f32⟩
  | 10 => ⟨S1x128, .f32⟩
  | 11 => ⟨S128, .f32⟩
  | 12 => ⟨S_, .f32⟩
  | 13 => ⟨S128, .f32⟩
  | 14 => ⟨S128, .f32⟩
  | 15 => ⟨S128, .f32⟩
  | 16 => ⟨S_, .f32⟩
  | 17 => ⟨S128, .f32⟩
  | 18 => ⟨S128, .f32⟩
  | 19 => ⟨S128, .f32⟩
  | 20 => ⟨S128, .f32⟩
  | 21 => ⟨S_, .f32⟩
  | 22 => ⟨S128, .f32⟩
  | 23 => ⟨S128, .f32⟩
  | 24 => ⟨S128, .f32⟩
  | 25 => ⟨S128, .f32⟩
  | 26 => ⟨S128, .f32⟩
  | 27 => ⟨S128, .f32⟩
  | 28 => ⟨S1x128, .f32⟩
  | 29 => ⟨S1x128, .f32⟩
  | 30 => ⟨S50000x128, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S1x128, .f32⟩
  | 45 => ⟨S50000x128, .f32⟩
  | 46 => ⟨S1x128, .f32⟩
  | 47 => ⟨S1x128, .f32⟩
  | 48 => ⟨S128, .f32⟩
  | 49 => ⟨S_, .f32⟩
  | 50 => ⟨S128, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S128, .f32⟩
  | 64 => ⟨S128, .f32⟩
  | 65 => ⟨S1x128, .f32⟩
  | 66 => ⟨S1x128, .f32⟩
  | 67 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S1x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S128x128, .f32⟩
  | .local _ .vmem, ⟨77, _⟩ => ⟨S1x128, .f32⟩
  | .local _ .vmem, ⟨78, _⟩ => ⟨S128x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | .local _ .vmem, ⟨82, _⟩ => ⟨S1x128, .f32⟩
  | .local _ .vmem, ⟨83, _⟩ => ⟨S1x128, .f32⟩
  | .local _ .vmem, ⟨84, _⟩ => ⟨S5000x128, .f32⟩
  | .local _ .vmem, ⟨85, _⟩ => ⟨S5000x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S128x128, .f32⟩
  | .local _ .vmem, ⟨95, _⟩ => ⟨S1x128, .f32⟩
  | .local _ .vmem, ⟨96, _⟩ => ⟨S128x128, .f32⟩
  | .local _ .vmem, ⟨97, _⟩ => ⟨S1x128, .f32⟩
  | .local _ .vmem, ⟨98, _⟩ => ⟨S5000x128, .f32⟩
  | .local _ .vmem, ⟨99, _⟩ => ⟨S5000x128, .f32⟩
  | .local _ .vmem, ⟨100, _⟩ => ⟨S1x128, .f32⟩
  | .local _ .vmem, ⟨101, _⟩ => ⟨S1x128, .f32⟩
  | .local _ .vmem, ⟨102, _⟩ => ⟨S5000x128, .f32⟩
  | .local _ .vmem, ⟨103, _⟩ => ⟨S5000x128, .f32⟩
  | .local _ .vmem, ⟨104, _⟩ => ⟨S1x128, .f32⟩
  | .local _ .vmem, ⟨105, _⟩ => ⟨S1x128, .f32⟩
  | .local _ .vmem, ⟨106, _⟩ => ⟨S5000x128, .f32⟩
  | .local _ .vmem, ⟨107, _⟩ => ⟨S5000x128, .f32⟩
  | .local _ .vmem, ⟨108, _⟩ => ⟨S5000x128, .f32⟩
  | .local _ .vmem, ⟨109, _⟩ => ⟨S5000x128, .f32⟩
  | .local _ .vmem, ⟨110, _⟩ => ⟨S5000x128, .f32⟩
  | .local _ .vmem, ⟨111, _⟩ => ⟨S5000x128, .f32⟩
  | .local _ .vmem, ⟨112, _⟩ => ⟨S128x128, .f32⟩
  | .local _ .vmem, ⟨113, _⟩ => ⟨S1x128, .f32⟩
  | .local _ .vmem, ⟨114, _⟩ => ⟨S128x128, .f32⟩
  | .local _ .vmem, ⟨115, _⟩ => ⟨S1x128, .f32⟩
  | .local _ .vmem, ⟨116, _⟩ => ⟨S5000x128, .f32⟩
  | .local _ .vmem, ⟨117, _⟩ => ⟨S5000x128, .f32⟩
  | .local _ .vmem, ⟨118, _⟩ => ⟨S1x128, .f32⟩
  | .local _ .vmem, ⟨119, _⟩ => ⟨S1x128, .f32⟩
  | .local _ .vmem, ⟨120, _⟩ => ⟨S5000x128, .f32⟩
  | .local _ .vmem, ⟨121, _⟩ => ⟨S5000x128, .f32⟩
  | .local _ .vmem, ⟨122, _⟩ => ⟨S1x128, .f32⟩
  | .local _ .vmem, ⟨123, _⟩ => ⟨S1x128, .f32⟩
  | .local _ .vmem, ⟨124, _⟩ => ⟨S5000x128, .f32⟩
  | .local _ .vmem, ⟨125, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_4 : Ref sig .tc := ⟨.hbm, 75, rfl⟩
abbrev main_v58 : Ref sig .tc := ⟨.hbm, 76, rfl⟩
abbrev main_v59 : Ref sig .tc := ⟨.hbm, 77, rfl⟩
abbrev main_c_5 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_6 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70_0 : Ref sig .tc := ⟨.hbm, 90, rfl⟩
abbrev main_v70_1 : Ref sig .tc := ⟨.hbm, 91, rfl⟩
abbrev main_v70_2 : Ref sig .tc := ⟨.hbm, 92, rfl⟩
abbrev main_v71 : Ref sig .tc := ⟨.hbm, 93, rfl⟩
abbrev main_cst_7 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_8 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_9 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_c_10 : Ref sig .tc := ⟨.hbm, 125, rfl⟩
abbrev main_v100 : Ref sig .tc := ⟨.hbm, 126, rfl⟩
abbrev main_v101 : Ref sig .tc := ⟨.hbm, 127, rfl⟩
abbrev main_c_11 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_12 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112_0 : Ref sig .tc := ⟨.hbm, 140, rfl⟩
abbrev main_v112_1 : Ref sig .tc := ⟨.hbm, 141, rfl⟩
abbrev main_v112_2 : Ref sig .tc := ⟨.hbm, 142, rfl⟩
abbrev main_v113 : Ref sig .tc := ⟨.hbm, 143, rfl⟩
abbrev main_cst_13 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_14 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_15 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_c_16 : Ref sig .tc := ⟨.hbm, 163, rfl⟩
abbrev main_v130 : Ref sig .tc := ⟨.hbm, 164, rfl⟩
abbrev main_v131 : Ref sig .tc := ⟨.hbm, 165, rfl⟩
abbrev main_c_17 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_18 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154_0 : Ref sig .tc := ⟨.hbm, 190, rfl⟩
abbrev main_v154_1 : Ref sig .tc := ⟨.hbm, 191, rfl⟩
abbrev main_v154_2 : Ref sig .tc := ⟨.hbm, 192, rfl⟩
abbrev main_v155 : Ref sig .tc := ⟨.hbm, 193, rfl⟩
abbrev main_cst_19 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_20 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_21 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186_0 : Ref sig .tc := ⟨.hbm, 227, rfl⟩
abbrev main_v186_1 : Ref sig .tc := ⟨.hbm, 228, rfl⟩
abbrev main_v186_2 : Ref sig .tc := ⟨.hbm, 229, rfl⟩
abbrev main_v187 : Ref sig .tc := ⟨.hbm, 230, rfl⟩
abbrev main_cst_22 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_cst_23 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_cst_24 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218_0 : Ref sig .tc := ⟨.hbm, 264, rfl⟩
abbrev main_v218_1 : Ref sig .tc := ⟨.hbm, 265, rfl⟩
abbrev main_v218_2 : Ref sig .tc := ⟨.hbm, 266, rfl⟩
abbrev main_v219 : Ref sig .tc := ⟨.hbm, 267, rfl⟩
abbrev main_cst_25 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_cst_26 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_cst_27 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250_0 : Ref sig .tc := ⟨.hbm, 301, rfl⟩
abbrev main_v250_1 : Ref sig .tc := ⟨.hbm, 302, rfl⟩
abbrev main_v250_2 : Ref sig .tc := ⟨.hbm, 303, rfl⟩
abbrev main_v251 : Ref sig .tc := ⟨.hbm, 304, rfl⟩
abbrev main_cst_28 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_cst_29 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_cst_30 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg8_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg6_1 : Ref sig .tc := ⟨.vmem, 63, rfl⟩
abbrev cc6_stg7_0 : Ref sig .tc := ⟨.vmem, 64, rfl⟩
abbrev cc6_stg8_0 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg3_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg6_0 : Ref sig .tc := ⟨.vmem, 80, rfl⟩
abbrev cc8_stg6_1 : Ref sig .tc := ⟨.vmem, 81, rfl⟩
abbrev cc8_stg7_0 : Ref sig .tc := ⟨.vmem, 82, rfl⟩
abbrev cc8_stg8_0 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg2_0 : Ref sig .tc := ⟨.vmem, 87, rfl⟩
abbrev cc9_stg3_0 : Ref sig .tc := ⟨.vmem, 88, rfl⟩
abbrev cc9_stg3_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg1_1 : Ref sig .tc := ⟨.vmem, 93, rfl⟩
abbrev cc10_stg2_0 : Ref sig .tc := ⟨.vmem, 94, rfl⟩
abbrev cc10_stg3_0 : Ref sig .tc := ⟨.vmem, 95, rfl⟩
abbrev cc10_stg4_0 : Ref sig .tc := ⟨.vmem, 96, rfl⟩
abbrev cc10_stg5_0 : Ref sig .tc := ⟨.vmem, 97, rfl⟩
abbrev cc10_stg6_0 : Ref sig .tc := ⟨.vmem, 98, rfl⟩
abbrev cc10_stg6_1 : Ref sig .tc := ⟨.vmem, 99, rfl⟩
abbrev cc10_stg7_0 : Ref sig .tc := ⟨.vmem, 100, rfl⟩
abbrev cc10_stg8_0 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg3_1 : Ref sig .tc := ⟨.vmem, 107, rfl⟩
abbrev cc12_stg0_0 : Ref sig .tc := ⟨.vmem, 108, rfl⟩
abbrev cc12_stg0_1 : Ref sig .tc := ⟨.vmem, 109, rfl⟩
abbrev cc12_stg1_0 : Ref sig .tc := ⟨.vmem, 110, rfl⟩
abbrev cc12_stg1_1 : Ref sig .tc := ⟨.vmem, 111, rfl⟩
abbrev cc12_stg2_0 : Ref sig .tc := ⟨.vmem, 112, rfl⟩
abbrev cc12_stg3_0 : Ref sig .tc := ⟨.vmem, 113, rfl⟩
abbrev cc12_stg4_0 : Ref sig .tc := ⟨.vmem, 114, rfl⟩
abbrev cc12_stg5_0 : Ref sig .tc := ⟨.vmem, 115, rfl⟩
abbrev cc12_stg6_0 : Ref sig .tc := ⟨.vmem, 116, rfl⟩
abbrev cc12_stg6_1 : Ref sig .tc := ⟨.vmem, 117, rfl⟩
abbrev cc12_stg7_0 : Ref sig .tc := ⟨.vmem, 118, rfl⟩
abbrev cc12_stg8_0 : Ref sig .tc := ⟨.vmem, 119, rfl⟩
abbrev cc13_stg0_0 : Ref sig .tc := ⟨.vmem, 120, rfl⟩
abbrev cc13_stg0_1 : Ref sig .tc := ⟨.vmem, 121, rfl⟩
abbrev cc13_stg1_0 : Ref sig .tc := ⟨.vmem, 122, rfl⟩
abbrev cc13_stg2_0 : Ref sig .tc := ⟨.vmem, 123, rfl⟩
abbrev cc13_stg3_0 : Ref sig .tc := ⟨.vmem, 124, rfl⟩
abbrev cc13_stg3_1 : Ref sig .tc := ⟨.vmem, 125, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem8_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem6_1 : DmaSem sig := 63
abbrev cc6_sem7_0 : DmaSem sig := 64
abbrev cc6_sem8_0 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem3_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem6_0 : DmaSem sig := 80
abbrev cc8_sem6_1 : DmaSem sig := 81
abbrev cc8_sem7_0 : DmaSem sig := 82
abbrev cc8_sem8_0 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem3_0 : DmaSem sig := 88
abbrev cc9_sem3_1 : DmaSem sig := 89
abbrev cc10_sem0_0 : DmaSem sig := 90
abbrev cc10_sem0_1 : DmaSem sig := 91
abbrev cc10_sem1_0 : DmaSem sig := 92
abbrev cc10_sem1_1 : DmaSem sig := 93
abbrev cc10_sem2_0 : DmaSem sig := 94
abbrev cc10_sem3_0 : DmaSem sig := 95
abbrev cc10_sem4_0 : DmaSem sig := 96
abbrev cc10_sem5_0 : DmaSem sig := 97
abbrev cc10_sem6_0 : DmaSem sig := 98
abbrev cc10_sem6_1 : DmaSem sig := 99
abbrev cc10_sem7_0 : DmaSem sig := 100
abbrev cc10_sem8_0 : DmaSem sig := 101
abbrev cc11_sem0_0 : DmaSem sig := 102
abbrev cc11_sem0_1 : DmaSem sig := 103
abbrev cc11_sem1_0 : DmaSem sig := 104
abbrev cc11_sem2_0 : DmaSem sig := 105
abbrev cc11_sem3_0 : DmaSem sig := 106
abbrev cc11_sem3_1 : DmaSem sig := 107
abbrev cc12_sem0_0 : DmaSem sig := 108
abbrev cc12_sem0_1 : DmaSem sig := 109
abbrev cc12_sem1_0 : DmaSem sig := 110
abbrev cc12_sem1_1 : DmaSem sig := 111
abbrev cc12_sem2_0 : DmaSem sig := 112
abbrev cc12_sem3_0 : DmaSem sig := 113
abbrev cc12_sem4_0 : DmaSem sig := 114
abbrev cc12_sem5_0 : DmaSem sig := 115
abbrev cc12_sem6_0 : DmaSem sig := 116
abbrev cc12_sem6_1 : DmaSem sig := 117
abbrev cc12_sem7_0 : DmaSem sig := 118
abbrev cc12_sem8_0 : DmaSem sig := 119
abbrev cc13_sem0_0 : DmaSem sig := 120
abbrev cc13_sem0_1 : DmaSem sig := 121
abbrev cc13_sem1_0 : DmaSem sig := 122
abbrev cc13_sem2_0 : DmaSem sig := 123
abbrev cc13_sem3_0 : DmaSem sig := 124
abbrev cc13_sem3_1 : DmaSem sig := 125

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S5000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S128x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S5000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 1 → Memref sig .tc .vmem S1x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S5000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S128 : S_.BroadcastsInDim S128 (![] : Fin 0 → Fin S128.rank)
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128x128.size a ≤ S128x128.size a
  hwx10_4 : ∀ i : grid10.Coords, EltTy.bits .f32 = 32 ∨ (Rect.block (s := S128x128) S128x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x128.size a ≤ S50000x128.size a
  hwx10_6 : ∀ i : grid10.Coords, EltTy.bits .f32 = 32 ∨ (Rect.block (s := S50000x128) S5000x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S50000x128.size a
  hwx11_3 : ∀ i : grid11.Coords, EltTy.bits .f32 = 32 ∨ (Rect.block (s := S50000x128) S5000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S50000x128.size a
  hwx12_1 : ∀ i : grid12.Coords, EltTy.bits .f32 = 32 ∨ (Rect.block (s := S50000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128x128.size a ≤ S128x128.size a
  hwx12_4 : ∀ i : grid12.Coords, EltTy.bits .f32 = 32 ∨ (Rect.block (s := S128x128) S128x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x128.size a ≤ S50000x128.size a
  hwx12_6 : ∀ i : grid12.Coords, EltTy.bits .f32 = 32 ∨ (Rect.block (s := S50000x128) S5000x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x128.size a ≤ S1x128.size a
  hwx12_7 : ∀ i : grid12.Coords, EltTy.bits .f32 = 32 ∨ (Rect.block (s := S1x128) S1x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x128.size a ≤ S1x128.size a
  hwx12_8 : ∀ i : grid12.Coords, EltTy.bits .f32 = 32 ∨ (Rect.block (s := S1x128) S1x128.size (cc12_transform_8 i) (hinb12_8 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x128.size a ≤ S50000x128.size a
  hwx13_3 : ∀ i : grid13.Coords, EltTy.bits .f32 = 32 ∨ (Rect.block (s := S50000x128) S5000x128.size (cc13_transform_3 i) (hinb13_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v28_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v70_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v70_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v70_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v87) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v110) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v112_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v112_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v112_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v112_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v127) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v128) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v129) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v129) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v139) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v141) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v152) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v145) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v153) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v154_0) S5000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v154_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v154_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v154_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v169) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v170) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v171) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v129) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v139) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v173) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v184) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v177) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v185) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v186_0) S5000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v186_1) S1x128.size cc8_transform_7 reads8_7 true true 1 stage8_7 sem8_7
    hrank8 hreads8_7 hinb8_7 nbuf8_7 (Memref.isWhole_whole _) hwx8_7 hstage8_7

abbrev win8_8 : Pipeline.Window sig grid8 :=
  Pipeline.Window.ofSpec (Memref.whole main_v186_2) S1x128.size cc8_transform_8 reads8_8 true true 1 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v186_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v201) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v202) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v203) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v129) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v139) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v205) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v216) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v209) S128x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v217) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v218_0) S5000x128.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v218_1) S1x128.size cc10_transform_7 reads10_7 true true 1 stage10_7 sem10_7
    hrank10 hreads10_7 hinb10_7 nbuf10_7 (Memref.isWhole_whole _) hwx10_7 hstage10_7

abbrev win10_8 : Pipeline.Window sig grid10 :=
  Pipeline.Window.ofSpec (Memref.whole main_v218_2) S1x128.size cc10_transform_8 reads10_8 true true 1 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev win11_0 : Pipeline.Window sig grid11 :=
  Pipeline.Window.ofSpec (Memref.whole main_v218_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v233) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v234) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v235) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v129) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v139) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v237) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v248) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v241) S128x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v249) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v250_0) S5000x128.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v250_1) S1x128.size cc12_transform_7 reads12_7 true true 1 stage12_7 sem12_7
    hrank12 hreads12_7 hinb12_7 nbuf12_7 (Memref.isWhole_whole _) hwx12_7 hstage12_7

abbrev win12_8 : Pipeline.Window sig grid12 :=
  Pipeline.Window.ofSpec (Memref.whole main_v250_2) S1x128.size cc12_transform_8 reads12_8 true true 1 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev win13_0 : Pipeline.Window sig grid13 :=
  Pipeline.Window.ofSpec (Memref.whole main_v250_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v265) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v266) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v267) S5000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S7x128x128 : Shape := ⟨3, ![7, 128, 128]⟩
abbrev S7x128 : Shape := ⟨2, ![7, 128]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S600000x1 : Shape := ⟨2, ![600000, 1]⟩
abbrev S600000x128 : Shape := ⟨2, ![600000, 128]⟩

abbrev nBuf : Space → Nat
  | .hbm => 593
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S7x128x128, .f32⟩
  | 4 => ⟨S7x128, .f32⟩
  | 5 => ⟨S7x128x128, .f32⟩
  | 6 => ⟨S7x128, .f32⟩
  | 7 => ⟨S7x128, .f32⟩
  | 8 => ⟨S7x128, .f32⟩
  | 9 => ⟨S1x600000, .i32⟩
  | 10 => ⟨S600000, .i32⟩
  | 11 => ⟨S1x600000, .i32⟩
  | 12 => ⟨S600000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128x128, .f32⟩
  | 98 => ⟨S128x128, .f32⟩
  | 99 => ⟨S1x128, .f32⟩
  | 100 => ⟨S128, .f32⟩
  | 101 => ⟨S1x128x128, .f32⟩
  | 102 => ⟨S128x128, .f32⟩
  | 103 => ⟨S1x128, .f32⟩
  | 104 => ⟨S128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S_, .f32⟩
  | 115 => ⟨S50000x128, .f32⟩
  | 116 => ⟨S600000x1, .i32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S_, .f32⟩
  | 41 => ⟨S128, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S50000x128, .f32⟩
  | 106 => ⟨S50000x128, .f32⟩
  | 107 => ⟨S50000x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S128, .f32⟩
  | 127 => ⟨S128, .f32⟩
  | _ => ⟨S50000x128, .f32⟩

abbrev hbmTy0_2 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S1x128x128, .f32⟩
  | 10 => ⟨S128x128, .f32⟩
  | 11 => ⟨S1x128, .f32⟩
  | 12 => ⟨S128, .f32⟩
  | 13 => ⟨S1x128x128, .f32⟩
  | 14 => ⟨S128x128, .f32⟩
  | 15 => ⟨S1x128, .f32⟩
  | 16 => ⟨S128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S50000x128, .f32⟩
  | 43 => ⟨S1x128, .f32⟩
  | 44 => ⟨S128, .f32⟩
  | 45 => ⟨S1x128, .f32⟩
  | 46 => ⟨S128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128x128, .f32⟩
  | 92 => ⟨S128x128, .f32⟩
  | 93 => ⟨S1x128, .f32⟩
  | 94 => ⟨S128, .f32⟩
  | 95 => ⟨S1x128x128, .f32⟩
  | 96 => ⟨S128x128, .f32⟩
  | 97 => ⟨S1x128, .f32⟩
  | 98 => ⟨S128, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .f32⟩
  | 108 => ⟨S_, .f32⟩
  | 109 => ⟨S50000x128, .f32⟩
  | 110 => ⟨S600000x1, .i32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_3 (i : Nat) : BufTy := match i % 128 with
  | 0 => ⟨S128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128x128, .f32⟩
  | 46 => ⟨S128x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S50000x128, .f32⟩
  | 96 => ⟨S50000x128, .f32⟩
  | 97 => ⟨S50000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S1x128x128, .f32⟩
  | _ => ⟨S50000x128, .f32⟩

abbrev hbmTy0_4 (i : Nat) : BufTy := match i % 128 with
  | 0 => ⟨S128x128, .f32⟩
  | 1 => ⟨S1x128, .f32⟩
  | 2 => ⟨S128, .f32⟩
  | 3 => ⟨S1x128x128, .f32⟩
  | 4 => ⟨S128x128, .f32⟩
  | 5 => ⟨S1x128, .f32⟩
  | 6 => ⟨S128, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000x128, .f32⟩
  | 16 => ⟨S_, .f32⟩
  | 17 => ⟨S50000x128, .f32⟩
  | 18 => ⟨S600000x1, .i32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S50000x128, .f32⟩
  | 33 => ⟨S1x128, .f32⟩
  | 34 => ⟨S128, .f32⟩
  | 35 => ⟨S1x128, .f32⟩
  | 36 => ⟨S128, .f32⟩
  | 37 => ⟨S_, .f32⟩
  | 38 => ⟨S128, .f32⟩
  | 39 => ⟨S_, .f32⟩
  | 40 => ⟨S128, .f32⟩
  | 41 => ⟨S128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S_, .f32⟩
  | 54 => ⟨S_, .f32⟩
  | 55 => ⟨S_, .f32⟩
  | 56 => ⟨S128, .f32⟩
  | 57 => ⟨S128, .f32⟩
  | 58 => ⟨S128, .f32⟩
  | 59 => ⟨S_, .f32⟩
  | 60 => ⟨S_, .i1⟩
  | 61 => ⟨S_, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_6 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_7 : Ref sig .tc := ⟨.hbm, 105, rfl⟩
abbrev main_v66 : Ref sig .tc := ⟨.hbm, 106, rfl⟩
abbrev main_v67 : Ref sig .tc := ⟨.hbm, 107, rfl⟩
abbrev main_c_8 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_9 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_10 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_11 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_12 : Ref sig .tc := ⟨.hbm, 137, rfl⟩
abbrev main_v93 : Ref sig .tc := ⟨.hbm, 138, rfl⟩
abbrev main_cst_13 : Ref sig .tc := ⟨.hbm, 139, rfl⟩
abbrev main_v94 : Ref sig .tc := ⟨.hbm, 140, rfl⟩
abbrev main_v95 : Ref sig .tc := ⟨.hbm, 141, rfl⟩
abbrev main_c_14 : Ref sig .tc := ⟨.hbm, 142, rfl⟩
abbrev main_call1_cst : Ref sig .tc := ⟨.hbm, 143, rfl⟩
abbrev main_call1_v0 : Ref sig .tc := ⟨.hbm, 144, rfl⟩
abbrev main_call1_v1 : Ref sig .tc := ⟨.hbm, 145, rfl⟩
abbrev main_call1_cst_0 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_v5 : Ref sig .tc := ⟨.hbm, 150, rfl⟩
abbrev main_call1_v6 : Ref sig .tc := ⟨.hbm, 151, rfl⟩
abbrev main_call1_v7 : Ref sig .tc := ⟨.hbm, 152, rfl⟩
abbrev main_call1_cst_1 : Ref sig .tc := ⟨.hbm, 153, rfl⟩
abbrev main_call1_v8 : Ref sig .tc := ⟨.hbm, 154, rfl⟩
abbrev main_call1_cst_2 : Ref sig .tc := ⟨.hbm, 155, rfl⟩
abbrev main_call1_v9 : Ref sig .tc := ⟨.hbm, 156, rfl⟩
abbrev main_call1_v10 : Ref sig .tc := ⟨.hbm, 157, rfl⟩
abbrev main_call1_v11 : Ref sig .tc := ⟨.hbm, 158, rfl⟩
abbrev main_call1_cst_3 : Ref sig .tc := ⟨.hbm, 159, rfl⟩
abbrev main_call1_v12 : Ref sig .tc := ⟨.hbm, 160, rfl⟩
abbrev main_call1_cst_4 : Ref sig .tc := ⟨.hbm, 161, rfl⟩
abbrev main_call1_call0_v0 : Ref sig .tc := ⟨.hbm, 162, rfl⟩
abbrev main_call1_call0_v1 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_15 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_c_16 : Ref sig .tc := ⟨.hbm, 189, rfl⟩
abbrev main_v120 : Ref sig .tc := ⟨.hbm, 190, rfl⟩
abbrev main_v121 : Ref sig .tc := ⟨.hbm, 191, rfl⟩
abbrev main_c_17 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_18 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_cst_19 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_20 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_21 : Ref sig .tc := ⟨.hbm, 221, rfl⟩
abbrev main_v147 : Ref sig .tc := ⟨.hbm, 222, rfl⟩
abbrev main_cst_22 : Ref sig .tc := ⟨.hbm, 223, rfl⟩
abbrev main_v148 : Ref sig .tc := ⟨.hbm, 224, rfl⟩
abbrev main_v149 : Ref sig .tc := ⟨.hbm, 225, rfl⟩
abbrev main_c_23 : Ref sig .tc := ⟨.hbm, 226, rfl⟩
abbrev main_call2_cst : Ref sig .tc := ⟨.hbm, 227, rfl⟩
abbrev main_call2_v0 : Ref sig .tc := ⟨.hbm, 228, rfl⟩
abbrev main_call2_v1 : Ref sig .tc := ⟨.hbm, 229, rfl⟩
abbrev main_call2_cst_0 : Ref sig .tc := ⟨.hbm, 230, rfl⟩
abbrev main_call2_v2 : Ref sig .tc := ⟨.hbm, 231, rfl⟩
abbrev main_call2_v3 : Ref sig .tc := ⟨.hbm, 232, rfl⟩
abbrev main_call2_v4 : Ref sig .tc := ⟨.hbm, 233, rfl⟩
abbrev main_call2_v5 : Ref sig .tc := ⟨.hbm, 234, rfl⟩
abbrev main_call2_v6 : Ref sig .tc := ⟨.hbm, 235, rfl⟩
abbrev main_call2_v7 : Ref sig .tc := ⟨.hbm, 236, rfl⟩
abbrev main_call2_cst_1 : Ref sig .tc := ⟨.hbm, 237, rfl⟩
abbrev main_call2_v8 : Ref sig .tc := ⟨.hbm, 238, rfl⟩
abbrev main_call2_cst_2 : Ref sig .tc := ⟨.hbm, 239, rfl⟩
abbrev main_call2_v9 : Ref sig .tc := ⟨.hbm, 240, rfl⟩
abbrev main_call2_v10 : Ref sig .tc := ⟨.hbm, 241, rfl⟩
abbrev main_call2_v11 : Ref sig .tc := ⟨.hbm, 242, rfl⟩
abbrev main_call2_cst_3 : Ref sig .tc := ⟨.hbm, 243, rfl⟩
abbrev main_call2_v12 : Ref sig .tc := ⟨.hbm, 244, rfl⟩
abbrev main_call2_cst_4 : Ref sig .tc := ⟨.hbm, 245, rfl⟩
abbrev main_call2_call0_v0 : Ref sig .tc := ⟨.hbm, 246, rfl⟩
abbrev main_call2_call0_v1 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_cst_24 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_c_25 : Ref sig .tc := ⟨.hbm, 273, rfl⟩
abbrev main_v174 : Ref sig .tc := ⟨.hbm, 274, rfl⟩
abbrev main_v175 : Ref sig .tc := ⟨.hbm, 275, rfl⟩
abbrev main_c_26 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_cst_27 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_cst_28 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_cst_29 : Ref sig .tc := ⟨.hbm, 303, rfl⟩
abbrev main_v200 : Ref sig .tc := ⟨.hbm, 304, rfl⟩
abbrev main_cst_30 : Ref sig .tc := ⟨.hbm, 305, rfl⟩
abbrev main_v201 : Ref sig .tc := ⟨.hbm, 306, rfl⟩
abbrev main_v202 : Ref sig .tc := ⟨.hbm, 307, rfl⟩
abbrev main_c_31 : Ref sig .tc := ⟨.hbm, 308, rfl⟩
abbrev main_call3_cst : Ref sig .tc := ⟨.hbm, 309, rfl⟩
abbrev main_call3_v0 : Ref sig .tc := ⟨.hbm, 310, rfl⟩
abbrev main_call3_v1 : Ref sig .tc := ⟨.hbm, 311, rfl⟩
abbrev main_call3_cst_0 : Ref sig .tc := ⟨.hbm, 312, rfl⟩
abbrev main_call3_v2 : Ref sig .tc := ⟨.hbm, 313, rfl⟩
abbrev main_call3_v3 : Ref sig .tc := ⟨.hbm, 314, rfl⟩
abbrev main_call3_v4 : Ref sig .tc := ⟨.hbm, 315, rfl⟩
abbrev main_call3_v5 : Ref sig .tc := ⟨.hbm, 316, rfl⟩
abbrev main_call3_v6 : Ref sig .tc := ⟨.hbm, 317, rfl⟩
abbrev main_call3_v7 : Ref sig .tc := ⟨.hbm, 318, rfl⟩
abbrev main_call3_cst_1 : Ref sig .tc := ⟨.hbm, 319, rfl⟩
abbrev main_call3_v8 : Ref sig .tc := ⟨.hbm, 320, rfl⟩
abbrev main_call3_cst_2 : Ref sig .tc := ⟨.hbm, 321, rfl⟩
abbrev main_call3_v9 : Ref sig .tc := ⟨.hbm, 322, rfl⟩
abbrev main_call3_v10 : Ref sig .tc := ⟨.hbm, 323, rfl⟩
abbrev main_call3_v11 : Ref sig .tc := ⟨.hbm, 324, rfl⟩
abbrev main_call3_cst_3 : Ref sig .tc := ⟨.hbm, 325, rfl⟩
abbrev main_call3_v12 : Ref sig .tc := ⟨.hbm, 326, rfl⟩
abbrev main_call3_cst_4 : Ref sig .tc := ⟨.hbm, 327, rfl⟩
abbrev main_call3_call0_v0 : Ref sig .tc := ⟨.hbm, 328, rfl⟩
abbrev main_call3_call0_v1 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_cst_32 : Ref sig .tc := ⟨.hbm, 334, rfl⟩
abbrev main_v207 : Ref sig .tc := ⟨.hbm, 335, rfl⟩
abbrev main_v208 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_c_33 : Ref sig .tc := ⟨.hbm, 355, rfl⟩
abbrev main_v227 : Ref sig .tc := ⟨.hbm, 356, rfl⟩
abbrev main_v228 : Ref sig .tc := ⟨.hbm, 357, rfl⟩
abbrev main_c_34 : Ref sig .tc := ⟨.hbm, 358, rfl⟩
abbrev main_v229 : Ref sig .tc := ⟨.hbm, 359, rfl⟩
abbrev main_v230 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_cst_35 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_cst_36 : Ref sig .tc := ⟨.hbm, 373, rfl⟩
abbrev main_v242 : Ref sig .tc := ⟨.hbm, 374, rfl⟩
abbrev main_v243 : Ref sig .tc := ⟨.hbm, 375, rfl⟩
abbrev main_v244 : Ref sig .tc := ⟨.hbm, 376, rfl⟩
abbrev main_v245 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_v252 : Ref sig .tc := ⟨.hbm, 384, rfl⟩
abbrev main_cst_37 : Ref sig .tc := ⟨.hbm, 385, rfl⟩
abbrev main_v253 : Ref sig .tc := ⟨.hbm, 386, rfl⟩
abbrev main_cst_38 : Ref sig .tc := ⟨.hbm, 387, rfl⟩
abbrev main_v254 : Ref sig .tc := ⟨.hbm, 388, rfl⟩
abbrev main_v255 : Ref sig .tc := ⟨.hbm, 389, rfl⟩
abbrev main_c_39 : Ref sig .tc := ⟨.hbm, 390, rfl⟩
abbrev main_call4_cst : Ref sig .tc := ⟨.hbm, 391, rfl⟩
abbrev main_call4_v0 : Ref sig .tc := ⟨.hbm, 392, rfl⟩
abbrev main_call4_v1 : Ref sig .tc := ⟨.hbm, 393, rfl⟩
abbrev main_call4_cst_0 : Ref sig .tc := ⟨.hbm, 394, rfl⟩
abbrev main_call4_v2 : Ref sig .tc := ⟨.hbm, 395, rfl⟩
abbrev main_call4_v3 : Ref sig .tc := ⟨.hbm, 396, rfl⟩
abbrev main_call4_v4 : Ref sig .tc := ⟨.hbm, 397, rfl⟩
abbrev main_call4_v5 : Ref sig .tc := ⟨.hbm, 398, rfl⟩
abbrev main_call4_v6 : Ref sig .tc := ⟨.hbm, 399, rfl⟩
abbrev main_call4_v7 : Ref sig .tc := ⟨.hbm, 400, rfl⟩
abbrev main_call4_cst_1 : Ref sig .tc := ⟨.hbm, 401, rfl⟩
abbrev main_call4_v8 : Ref sig .tc := ⟨.hbm, 402, rfl⟩
abbrev main_call4_cst_2 : Ref sig .tc := ⟨.hbm, 403, rfl⟩
abbrev main_call4_v9 : Ref sig .tc := ⟨.hbm, 404, rfl⟩
abbrev main_call4_v10 : Ref sig .tc := ⟨.hbm, 405, rfl⟩
abbrev main_call4_v11 : Ref sig .tc := ⟨.hbm, 406, rfl⟩
abbrev main_call4_cst_3 : Ref sig .tc := ⟨.hbm, 407, rfl⟩
abbrev main_call4_v12 : Ref sig .tc := ⟨.hbm, 408, rfl⟩
abbrev main_call4_cst_4 : Ref sig .tc := ⟨.hbm, 409, rfl⟩
abbrev main_call4_call0_v0 : Ref sig .tc := ⟨.hbm, 410, rfl⟩
abbrev main_call4_call0_v1 : Ref sig .tc := ⟨.hbm, 411, rfl⟩
abbrev main_v256 : Ref sig .tc := ⟨.hbm, 412, rfl⟩
abbrev main_v257 : Ref sig .tc := ⟨.hbm, 413, rfl⟩
abbrev main_v258 : Ref sig .tc := ⟨.hbm, 414, rfl⟩
abbrev main_v259 : Ref sig .tc := ⟨.hbm, 415, rfl⟩
abbrev main_cst_40 : Ref sig .tc := ⟨.hbm, 416, rfl⟩
abbrev main_v260 : Ref sig .tc := ⟨.hbm, 417, rfl⟩
abbrev main_v261 : Ref sig .tc := ⟨.hbm, 418, rfl⟩
abbrev main_v262 : Ref sig .tc := ⟨.hbm, 419, rfl⟩
abbrev main_v263 : Ref sig .tc := ⟨.hbm, 420, rfl⟩
abbrev main_v264 : Ref sig .tc := ⟨.hbm, 421, rfl⟩
abbrev main_v265 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_v269 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_v276 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_c_41 : Ref sig .tc := ⟨.hbm, 437, rfl⟩
abbrev main_v280 : Ref sig .tc := ⟨.hbm, 438, rfl⟩
abbrev main_v281 : Ref sig .tc := ⟨.hbm, 439, rfl⟩
abbrev main_c_42 : Ref sig .tc := ⟨.hbm, 440, rfl⟩
abbrev main_v282 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_v286 : Ref sig .tc := ⟨.hbm, 445, rfl⟩
abbrev main_cst_43 : Ref sig .tc := ⟨.hbm, 446, rfl⟩
abbrev main_v287 : Ref sig .tc := ⟨.hbm, 447, rfl⟩
abbrev main_v288 : Ref sig .tc := ⟨.hbm, 448, rfl⟩
abbrev main_v289 : Ref sig .tc := ⟨.hbm, 449, rfl⟩
abbrev main_v290 : Ref sig .tc := ⟨.hbm, 450, rfl⟩
abbrev main_v291 : Ref sig .tc := ⟨.hbm, 451, rfl⟩
abbrev main_v292 : Ref sig .tc := ⟨.hbm, 452, rfl⟩
abbrev main_v293 : Ref sig .tc := ⟨.hbm, 453, rfl⟩
abbrev main_v294 : Ref sig .tc := ⟨.hbm, 454, rfl⟩
abbrev main_cst_44 : Ref sig .tc := ⟨.hbm, 455, rfl⟩
abbrev main_v295 : Ref sig .tc := ⟨.hbm, 456, rfl⟩
abbrev main_v296 : Ref sig .tc := ⟨.hbm, 457, rfl⟩
abbrev main_v297 : Ref sig .tc := ⟨.hbm, 458, rfl⟩
abbrev main_v298 : Ref sig .tc := ⟨.hbm, 459, rfl⟩
abbrev main_v299 : Ref sig .tc := ⟨.hbm, 460, rfl⟩
abbrev main_v300 : Ref sig .tc := ⟨.hbm, 461, rfl⟩
abbrev main_v301 : Ref sig .tc := ⟨.hbm, 462, rfl⟩
abbrev main_v302 : Ref sig .tc := ⟨.hbm, 463, rfl⟩
abbrev main_v303 : Ref sig .tc := ⟨.hbm, 464, rfl⟩
abbrev main_v304 : Ref sig .tc := ⟨.hbm, 465, rfl⟩
abbrev main_v305 : Ref sig .tc := ⟨.hbm, 466, rfl⟩
abbrev main_cst_45 : Ref sig .tc := ⟨.hbm, 467, rfl⟩
abbrev main_v306 : Ref sig .tc := ⟨.hbm, 468, rfl⟩
abbrev main_cst_46 : Ref sig .tc := ⟨.hbm, 469, rfl⟩
abbrev main_v307 : Ref sig .tc := ⟨.hbm, 470, rfl⟩
abbrev main_v308 : Ref sig .tc := ⟨.hbm, 471, rfl⟩
abbrev main_c_47 : Ref sig .tc := ⟨.hbm, 472, rfl⟩
abbrev main_call5_cst : Ref sig .tc := ⟨.hbm, 473, rfl⟩
abbrev main_call5_v0 : Ref sig .tc := ⟨.hbm, 474, rfl⟩
abbrev main_call5_v1 : Ref sig .tc := ⟨.hbm, 475, rfl⟩
abbrev main_call5_cst_0 : Ref sig .tc := ⟨.hbm, 476, rfl⟩
abbrev main_call5_v2 : Ref sig .tc := ⟨.hbm, 477, rfl⟩
abbrev main_call5_v3 : Ref sig .tc := ⟨.hbm, 478, rfl⟩
abbrev main_call5_v4 : Ref sig .tc := ⟨.hbm, 479, rfl⟩
abbrev main_call5_v5 : Ref sig .tc := ⟨.hbm, 480, rfl⟩
abbrev main_call5_v6 : Ref sig .tc := ⟨.hbm, 481, rfl⟩
abbrev main_call5_v7 : Ref sig .tc := ⟨.hbm, 482, rfl⟩
abbrev main_call5_cst_1 : Ref sig .tc := ⟨.hbm, 483, rfl⟩
abbrev main_call5_v8 : Ref sig .tc := ⟨.hbm, 484, rfl⟩
abbrev main_call5_cst_2 : Ref sig .tc := ⟨.hbm, 485, rfl⟩
abbrev main_call5_v9 : Ref sig .tc := ⟨.hbm, 486, rfl⟩
abbrev main_call5_v10 : Ref sig .tc := ⟨.hbm, 487, rfl⟩
abbrev main_call5_v11 : Ref sig .tc := ⟨.hbm, 488, rfl⟩
abbrev main_call5_cst_3 : Ref sig .tc := ⟨.hbm, 489, rfl⟩
abbrev main_call5_v12 : Ref sig .tc := ⟨.hbm, 490, rfl⟩
abbrev main_call5_cst_4 : Ref sig .tc := ⟨.hbm, 491, rfl⟩
abbrev main_call5_call0_v0 : Ref sig .tc := ⟨.hbm, 492, rfl⟩
abbrev main_call5_call0_v1 : Ref sig .tc := ⟨.hbm, 493, rfl⟩
abbrev main_v309 : Ref sig .tc := ⟨.hbm, 494, rfl⟩
abbrev main_v310 : Ref sig .tc := ⟨.hbm, 495, rfl⟩
abbrev main_v311 : Ref sig .tc := ⟨.hbm, 496, rfl⟩
abbrev main_v312 : Ref sig .tc := ⟨.hbm, 497, rfl⟩
abbrev main_cst_48 : Ref sig .tc := ⟨.hbm, 498, rfl⟩
abbrev main_v313 : Ref sig .tc := ⟨.hbm, 499, rfl⟩
abbrev main_v314 : Ref sig .tc := ⟨.hbm, 500, rfl⟩
abbrev main_v315 : Ref sig .tc := ⟨.hbm, 501, rfl⟩
abbrev main_v316 : Ref sig .tc := ⟨.hbm, 502, rfl⟩
abbrev main_v317 : Ref sig .tc := ⟨.hbm, 503, rfl⟩
abbrev main_v318 : Ref sig .tc := ⟨.hbm, 504, rfl⟩
abbrev main_v319 : Ref sig .tc := ⟨.hbm, 505, rfl⟩
abbrev main_v320 : Ref sig .tc := ⟨.hbm, 506, rfl⟩
abbrev main_v321 : Ref sig .tc := ⟨.hbm, 507, rfl⟩
abbrev main_v322 : Ref sig .tc := ⟨.hbm, 508, rfl⟩
abbrev main_v323 : Ref sig .tc := ⟨.hbm, 509, rfl⟩
abbrev main_v324 : Ref sig .tc := ⟨.hbm, 510, rfl⟩
abbrev main_v325 : Ref sig .tc := ⟨.hbm, 511, rfl⟩
abbrev main_v326 : Ref sig .tc := ⟨.hbm, 512, rfl⟩
abbrev main_v327 : Ref sig .tc := ⟨.hbm, 513, rfl⟩
abbrev main_v328 : Ref sig .tc := ⟨.hbm, 514, rfl⟩
abbrev main_v329 : Ref sig .tc := ⟨.hbm, 515, rfl⟩
abbrev main_v330 : Ref sig .tc := ⟨.hbm, 516, rfl⟩
abbrev main_v331 : Ref sig .tc := ⟨.hbm, 517, rfl⟩
abbrev main_v332 : Ref sig .tc := ⟨.hbm, 518, rfl⟩
abbrev main_c_49 : Ref sig .tc := ⟨.hbm, 519, rfl⟩
abbrev main_v333 : Ref sig .tc := ⟨.hbm, 520, rfl⟩
abbrev main_v334 : Ref sig .tc := ⟨.hbm, 521, rfl⟩
abbrev main_c_50 : Ref sig .tc := ⟨.hbm, 522, rfl⟩
abbrev main_v335 : Ref sig .tc := ⟨.hbm, 523, rfl⟩
abbrev main_v336 : Ref sig .tc := ⟨.hbm, 524, rfl⟩
abbrev main_v337 : Ref sig .tc := ⟨.hbm, 525, rfl⟩
abbrev main_v338 : Ref sig .tc := ⟨.hbm, 526, rfl⟩
abbrev main_v339 : Ref sig .tc := ⟨.hbm, 527, rfl⟩
abbrev main_cst_51 : Ref sig .tc := ⟨.hbm, 528, rfl⟩
abbrev main_v340 : Ref sig .tc := ⟨.hbm, 529, rfl⟩
abbrev main_v341 : Ref sig .tc := ⟨.hbm, 530, rfl⟩
abbrev main_v342 : Ref sig .tc := ⟨.hbm, 531, rfl⟩
abbrev main_v343 : Ref sig .tc := ⟨.hbm, 532, rfl⟩
abbrev main_v344 : Ref sig .tc := ⟨.hbm, 533, rfl⟩
abbrev main_v345 : Ref sig .tc := ⟨.hbm, 534, rfl⟩
abbrev main_v346 : Ref sig .tc := ⟨.hbm, 535, rfl⟩
abbrev main_v347 : Ref sig .tc := ⟨.hbm, 536, rfl⟩
abbrev main_cst_52 : Ref sig .tc := ⟨.hbm, 537, rfl⟩
abbrev main_v348 : Ref sig .tc := ⟨.hbm, 538, rfl⟩
abbrev main_v349 : Ref sig .tc := ⟨.hbm, 539, rfl⟩
abbrev main_v350 : Ref sig .tc := ⟨.hbm, 540, rfl⟩
abbrev main_v351 : Ref sig .tc := ⟨.hbm, 541, rfl⟩
abbrev main_v352 : Ref sig .tc := ⟨.hbm, 542, rfl⟩
abbrev main_v353 : Ref sig .tc := ⟨.hbm, 543, rfl⟩
abbrev main_v354 : Ref sig .tc := ⟨.hbm, 544, rfl⟩
abbrev main_v355 : Ref sig .tc := ⟨.hbm, 545, rfl⟩
abbrev main_v356 : Ref sig .tc := ⟨.hbm, 546, rfl⟩
abbrev main_v357 : Ref sig .tc := ⟨.hbm, 547, rfl⟩
abbrev main_v358 : Ref sig .tc := ⟨.hbm, 548, rfl⟩
abbrev main_cst_53 : Ref sig .tc := ⟨.hbm, 549, rfl⟩
abbrev main_v359 : Ref sig .tc := ⟨.hbm, 550, rfl⟩
abbrev main_cst_54 : Ref sig .tc := ⟨.hbm, 551, rfl⟩
abbrev main_v360 : Ref sig .tc := ⟨.hbm, 552, rfl⟩
abbrev main_v361 : Ref sig .tc := ⟨.hbm, 553, rfl⟩
abbrev main_c_55 : Ref sig .tc := ⟨.hbm, 554, rfl⟩
abbrev main_call6_cst : Ref sig .tc := ⟨.hbm, 555, rfl⟩
abbrev main_call6_v0 : Ref sig .tc := ⟨.hbm, 556, rfl⟩
abbrev main_call6_v1 : Ref sig .tc := ⟨.hbm, 557, rfl⟩
abbrev main_call6_cst_0 : Ref sig .tc := ⟨.hbm, 558, rfl⟩
abbrev main_call6_v2 : Ref sig .tc := ⟨.hbm, 559, rfl⟩
abbrev main_call6_v3 : Ref sig .tc := ⟨.hbm, 560, rfl⟩
abbrev main_call6_v4 : Ref sig .tc := ⟨.hbm, 561, rfl⟩
abbrev main_call6_v5 : Ref sig .tc := ⟨.hbm, 562, rfl⟩
abbrev main_call6_v6 : Ref sig .tc := ⟨.hbm, 563, rfl⟩
abbrev main_call6_v7 : Ref sig .tc := ⟨.hbm, 564, rfl⟩
abbrev main_call6_cst_1 : Ref sig .tc := ⟨.hbm, 565, rfl⟩
abbrev main_call6_v8 : Ref sig .tc := ⟨.hbm, 566, rfl⟩
abbrev main_call6_cst_2 : Ref sig .tc := ⟨.hbm, 567, rfl⟩
abbrev main_call6_v9 : Ref sig .tc := ⟨.hbm, 568, rfl⟩
abbrev main_call6_v10 : Ref sig .tc := ⟨.hbm, 569, rfl⟩
abbrev main_call6_v11 : Ref sig .tc := ⟨.hbm, 570, rfl⟩
abbrev main_call6_cst_3 : Ref sig .tc := ⟨.hbm, 571, rfl⟩
abbrev main_call6_v12 : Ref sig .tc := ⟨.hbm, 572, rfl⟩
abbrev main_call6_cst_4 : Ref sig .tc := ⟨.hbm, 573, rfl⟩
abbrev main_call6_call0_v0 : Ref sig .tc := ⟨.hbm, 574, rfl⟩
abbrev main_call6_call0_v1 : Ref sig .tc := ⟨.hbm, 575, rfl⟩
abbrev main_v362 : Ref sig .tc := ⟨.hbm, 576, rfl⟩
abbrev main_v363 : Ref sig .tc := ⟨.hbm, 577, rfl⟩
abbrev main_v364 : Ref sig .tc := ⟨.hbm, 578, rfl⟩
abbrev main_v365 : Ref sig .tc := ⟨.hbm, 579, rfl⟩
abbrev main_cst_56 : Ref sig .tc := ⟨.hbm, 580, rfl⟩
abbrev main_v366 : Ref sig .tc := ⟨.hbm, 581, rfl⟩
abbrev main_v367 : Ref sig .tc := ⟨.hbm, 582, rfl⟩
abbrev main_v368 : Ref sig .tc := ⟨.hbm, 583, rfl⟩
abbrev main_v369 : Ref sig .tc := ⟨.hbm, 584, rfl⟩
abbrev main_v370 : Ref sig .tc := ⟨.hbm, 585, rfl⟩
abbrev main_v371 : Ref sig .tc := ⟨.hbm, 586, rfl⟩
abbrev main_v372 : Ref sig .tc := ⟨.hbm, 587, rfl⟩
abbrev main_v373 : Ref sig .tc := ⟨.hbm, 588, rfl⟩
abbrev main_v374 : Ref sig .tc := ⟨.hbm, 589, rfl⟩
abbrev main_v375 : Ref sig .tc := ⟨.hbm, 590, rfl⟩
abbrev main_v376 : Ref sig .tc := ⟨.hbm, 591, rfl⟩
abbrev main_v377 : Ref sig .tc := ⟨.hbm, 592, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefOps.lean ====
/- The reference program's @main as lists of its 584 host operations, one list per printed window, each outlined
   function's operations written at its call over that call's buffer record; per list, the references it writes, and
   the three facts that hold operation by operation: every buffer touched is a TensorCore reference, every write
   lands in the listed references, no operation leaves a result undetermined. -/
import proofs.«121838_j70282844831870_1_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 81 of 584: window `main_part0`, its calls written out. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.unary main_arg3 main_v4 ((extractStridedSlice S1x128x128 ![0, 0, 0] · slices_S7x128x128_S1x128x128_0_0_0) : (⟨S7x128x128, .f32⟩ : BufTy).Contents (Elt F) → (⟨S1x128x128, .f32⟩ : BufTy).Contents (Elt F)),
    StableHlo.reshape main_v4 main_v5 rfl shapeCasts_S1x128x128_S128x128,
    StableHlo.unary main_arg4 main_v6 ((extractStridedSlice S1x128 ![0, 0] · slices_S7x128_S1x128_0_0) : (⟨S7x128, .f32⟩ : BufTy).Contents (Elt F) → (⟨S1x128, .f32⟩ : BufTy).Contents (Elt F)),
    StableHlo.reshape main_v6 main_v7 rfl shapeCasts_S1x128_S128,
    StableHlo.unary main_arg5 main_v8 ((extractStridedSlice S1x128x128 ![0, 0, 0] · slices_S7x128x128_S1x128x128_0_0_0) : (⟨S7x128x128, .f32⟩ : BufTy).Contents (Elt F) → (⟨S1x128x128, .f32⟩ : BufTy).Contents (Elt F)),
    StableHlo.reshape main_v8 main_v9 rfl shapeCasts_S1x128x128_S128x128,
    StableHlo.unary main_arg6 main_v10 ((extractStridedSlice S1x128 ![0, 0] · slices_S7x128_S1x128_0_0) : (⟨S7x128, .f32⟩ : BufTy).Contents (Elt F) → (⟨S1x128, .f32⟩ : BufTy).Contents (Elt F)),
    StableHlo.reshape main_v10 main_v11 rfl shapeCasts_S1x128_S128,
    StableHlo.nullary main_c (constantI S_ 32 0#32),
    StableHlo.unary main_c main_v12 (broadcastInDim S600000 ![] bcast_S_S600000 : (⟨S_, .i32⟩ : BufTy).Contents (Elt F) → (⟨S600000, .i32⟩ : BufTy).Contents (Elt F)),
    StableHlo.binary main_v1 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v14 (broadcastInDim S600000 ![] bcast_S_S600000 : (⟨S_, .i32⟩ : BufTy).Contents (Elt F) → (⟨S600000, .i32⟩ : BufTy).Contents (Elt F)),
    StableHlo.binary main_v1 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_arg0 main_v17 main_v18 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v19 (broadcastInDim S50000x128 ![] bcast_S_S50000x128 : (⟨S_, .f32⟩ : BufTy).Contents (Elt F) → (⟨S50000x128, .f32⟩ : BufTy).Contents (Elt F)),
    StableHlo.unary main_v3 main_v20 (broadcastInDim S600000x1 ![0] bcast_S600000_S600000x1_0 : (⟨S600000, .i32⟩ : BufTy).Contents (Elt F) → (⟨S600000x1, .i32⟩ : BufTy).Contents (Elt F)),
    StableHlo.ternary main_v19 main_v20 main_v18 main_v21 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v21 main_v22 (addf : (⟨S50000x128, .f32⟩ : BufTy).Contents (Elt F) → (⟨S50000x128, .f32⟩ : BufTy).Contents (Elt F) → (⟨S50000x128, .f32⟩ : BufTy).Contents (Elt F)),
    StableHlo.binary main_v22 main_v5 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v7 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.unary main_cst_1 main_v27 (broadcastInDim S50000x128 ![] bcast_S_S50000x128 : (⟨S_, .f32⟩ : BufTy).Contents (Elt F) → (⟨S50000x128, .f32⟩ : BufTy).Contents (Elt F)),
    StableHlo.binary main_v26 main_v27 main_v28 (maximumf : (⟨S50000x128, .f32⟩ : BufTy).Contents (Elt F) → (⟨S50000x128, .f32⟩ : BufTy).Contents (Elt F) → (⟨S50000x128, .f32⟩ : BufTy).Contents (Elt F)),
    StableHlo.binary main_v28 main_v9 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v11 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v31 main_v32 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x00000000#32),
    StableHlo.unary main_cst_2 main_v33 (broadcastInDim S50000x128 ![] bcast_S_S50000x128 : (⟨S_, .f32⟩ : BufTy).Contents (Elt F) → (⟨S50000x128, .f32⟩ : BufTy).Contents (Elt F)),
    StableHlo.binary main_v32 main_v33 main_v34 (maximumf : (⟨S50000x128, .f32⟩ : BufTy).Contents (Elt F) → (⟨S50000x128, .f32⟩ : BufTy).Contents (Elt F) → (⟨S50000x128, .f32⟩ : BufTy).Contents (Elt F)),
    StableHlo.unary main_arg7 main_v35 ((extractStridedSlice S1x128 ![0, 0] · slices_S7x128_S1x128_0_0) : (⟨S7x128, .f32⟩ : BufTy).Contents (Elt F) → (⟨S1x128, .f32⟩ : BufTy).Contents (Elt F)),
    StableHlo.reshape main_v35 main_v36 rfl shapeCasts_S1x128_S128,
    StableHlo.unary main_arg8 main_v37 ((extractStridedSlice S1x128 ![0, 0] · slices_S7x128_S1x128_0_0) : (⟨S7x128, .f32⟩ : BufTy).Contents (Elt F) → (⟨S1x128, .f32⟩ : BufTy).Contents (Elt F)),
    StableHlo.reshape main_v37 main_v38 rfl shapeCasts_S1x128_S128,
    StableHlo.nullary main_cst_3 (constant S_ .f32 0x00000000#32),
    StableHlo.binary main_v34 main_cst_3 main_v39 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_4 (constant S_ .f32 0x47435000#32),
    StableHlo.unary main_cst_4 main_v40 (broadcastInDim S128 ![] bcast_S_S128 : (⟨S_, .f32⟩ : BufTy).Contents (Elt F) → (⟨S128, .f32⟩ : BufTy).Contents (Elt F)),
    StableHlo.binary main_v39 main_v40 main_v41 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call0.cst (constant S_ .f32 0x00000000#32),
    StableHlo.TRef.binary (.of main_v34 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v34 : StableHlo.TRef sig ⟨S50000x128, .f32⟩) main_call0.v4 main_call0.v5 subf,
    StableHlo.TRef.binary main_call0.v5 main_call0.v5 main_call0.v6 mulf,
    StableHlo.TRef.unary (.of main_c_5 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v41 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v44 main_v45 (subf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3727C5AC#32),
    StableHlo.unary main_cst_6 main_v46 (broadcastInDim S128 ![] bcast_S_S128 : (⟨S_, .f32⟩ : BufTy).Contents (Elt F) → (⟨S128, .f32⟩ : BufTy).Contents (Elt F)),
    StableHlo.binary main_v42 main_v46 main_v47 (addf : (⟨S128, .f32⟩ : BufTy).Contents (Elt F) → (⟨S128, .f32⟩ : BufTy).Contents (Elt F) → (⟨S128, .f32⟩ : BufTy).Contents (Elt F)),
    StableHlo.unary main_v47 main_v48 (Host.rsqrt : (⟨S128, .f32⟩ : BufTy).Contents (Elt F) → (⟨S128, .f32⟩ : BufTy).Contents (Elt F)),
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)) ]

/-- The references `ops0`'s operations write, in order. -/
abbrev ops0_W : List (Ref sig .tc) := [main_v0, main_v1, main_v2, main_v3, main_v4, main_v5, main_v6, main_v7, main_v8, main_v9, main_v10, main_v11, main_c, main_v12, main_v13, main_c_0, main_v14, main_v15, main_v16, main_v17, main_v18, main_cst, main_v19, main_v20, main_v21, main_v22, main_v23, main_v24, main_v25, main_v26, main_cst_1, main_v27, main_v28, main_v29, main_v30, main_v31, main_v32, main_cst_2, main_v33, main_v34, main_v35, main_v36, main_v37, main_v38, main_cst_3, main_v39, main_cst_4, main_v40, main_v41, main_c_5, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v42, main_v43, main_v44, main_v45, main_cst_6, main_v46, main_v47, main_v48, main_v49, main_v50]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations 82 … 162 of 584: window `main_part1`, its calls written out. -/
abbrev ops1 : List (HloOp τ sig (Elt F)) :=
  [ StableHlo.binary main_v45 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_v36 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (mulf : (⟨S50000x128, .f32⟩ : BufTy).Contents (Elt F) → (⟨S50000x128, .f32⟩ : BufTy).Contents (Elt F) → (⟨S50000x128, .f32⟩ : BufTy).Contents (Elt F)),
    StableHlo.unary main_v38 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v56 main_v57 (addf : (⟨S50000x128, .f32⟩ : BufTy).Contents (Elt F) → (⟨S50000x128, .f32⟩ : BufTy).Contents (Elt F) → (⟨S50000x128, .f32⟩ : BufTy).Contents (Elt F)),
    StableHlo.unary main_arg3 main_v58 ((extractStridedSlice S1x128x128 ![1, 0, 0] · slices_S7x128x128_S1x128x128_1_0_0) : (⟨S7x128x128, .f32⟩ : BufTy).Contents (Elt F) → (⟨S1x128x128, .f32⟩ : BufTy).Contents (Elt F)),
    StableHlo.reshape main_v58 main_v59 rfl shapeCasts_S1x128x128_S128x128,
    StableHlo.unary main_arg4 main_v60 ((extractStridedSlice S1x128 ![1, 0] · slices_S7x128_S1x128_1_0) : (⟨S7x128, .f32⟩ : BufTy).Contents (Elt F) → (⟨S1x128, .f32⟩ : BufTy).Contents (Elt F)),
    StableHlo.reshape main_v60 main_v61 rfl shapeCasts_S1x128_S128,
    StableHlo.unary main_arg5 main_v62 ((extractStridedSlice S1x128x128 ![1, 0, 0] · slices_S7x128x128_S1x128x128_1_0_0) : (⟨S7x128x128, .f32⟩ : BufTy).Contents (Elt F) → (⟨S1x128x128, .f32⟩ : BufTy).Contents (Elt F)),
    StableHlo.reshape main_v62 main_v63 rfl shapeCasts_S1x128x128_S128x128,
    StableHlo.unary main_arg6 main_v64 ((extractStridedSlice S1x128 ![1, 0] · slices_S7x128_S1x128_1_0) : (⟨S7x128, .f32⟩ : BufTy).Contents (Elt F) → (⟨S1x128, .f32⟩ : BufTy).Contents (Elt F)),
    StableHlo.reshape main_v64 main_v65 rfl shapeCasts_S1x128_S128,
    StableHlo.nullary main_c_7 (constantI S_ 32 0#32),
    StableHlo.unary main_c_7 main_v66 (broadcastInDim S600000 ![] bcast_S_S600000 : (⟨S_, .i32⟩ : BufTy).Contents (Elt F) → (⟨S600000, .i32⟩ : BufTy).Contents (Elt F)),
    StableHlo.binary main_v1 main_v66 main_v67 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 50000#32),
    StableHlo.unary main_c_8 main_v68 (broadcastInDim S600000 ![] bcast_S_S600000 : (⟨S_, .i32⟩ : BufTy).Contents (Elt F) → (⟨S600000, .i32⟩ : BufTy).Contents (Elt F)),
    StableHlo.binary main_v1 main_v68 main_v69 (addi : (⟨S600000, .i32⟩ : BufTy).Contents (Elt F) → (⟨S600000, .i32⟩ : BufTy).Contents (Elt F) → (⟨S600000, .i32⟩ : BufTy).Contents (Elt F)),
    StableHlo.ternary main_v67 main_v69 main_v1 main_v70 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v70 main_v71 (broadcastInDim S600000x1 ![0] bcast_S600000_S600000x1_0 : (⟨S600000, .i32⟩ : BufTy).Contents (Elt F) → (⟨S600000x1, .i32⟩ : BufTy).Contents (Elt F)),
    StableHlo.binary main_v57 main_v71 main_v72 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_9 (constant S_ .f32 0x00000000#32),
    StableHlo.unary main_cst_9 main_v73 (broadcastInDim S50000x128 ![] bcast_S_S50000x128 : (⟨S_, .f32⟩ : BufTy).Contents (Elt F) → (⟨S50000x128, .f32⟩ : BufTy).Contents (Elt F)),
    StableHlo.unary main_v3 main_v74 (broadcastInDim S600000x1 ![0] bcast_S600000_S600000x1_0 : (⟨S600000, .i32⟩ : BufTy).Contents (Elt F) → (⟨S600000x1, .i32⟩ : BufTy).Contents (Elt F)),
    StableHlo.ternary main_v73 main_v74 main_v72 main_v75 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v57 main_v75 main_v76 (addf : (⟨S50000x128, .f32⟩ : BufTy).Contents (Elt F) → (⟨S50000x128, .f32⟩ : BufTy).Contents (Elt F) → (⟨S50000x128, .f32⟩ : BufTy).Contents (Elt F)),
    StableHlo.binary main_v76 main_v59 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v61 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.unary main_cst_10 main_v81 (broadcastInDim S50000x128 ![] bcast_S_S50000x128 : (⟨S_, .f32⟩ : BufTy).Contents (Elt F) → (⟨S50000x128, .f32⟩ : BufTy).Contents (Elt F)),
    StableHlo.binary main_v80 main_v81 main_v82 (maximumf : (⟨S50000x128, .f32⟩ : BufTy).Contents (Elt F) → (⟨S50000x128, .f32⟩ : BufTy).Contents (Elt F) → (⟨S50000x128, .f32⟩ : BufTy).Contents (Elt F)),
    StableHlo.binary main_v82 main_v63 main_v83 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v65 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v85 main_v86 (addf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.unary main_cst_11 main_v87 (broadcastInDim S50000x128 ![] bcast_S_S50000x128 : (⟨S_, .f32⟩ : BufTy).Contents (Elt F) → (⟨S50000x128, .f32⟩ : BufTy).Contents (Elt F)),
    StableHlo.binary main_v86 main_v87 main_v88 (maximumf : (⟨S50000x128, .f32⟩ : BufTy).Contents (Elt F) → (⟨S50000x128, .f32⟩ : BufTy).Contents (Elt F) → (⟨S50000x128, .f32⟩ : BufTy).Contents (Elt F)),
    StableHlo.unary main_arg7 main_v89 ((extractStridedSlice S1x128 ![1, 0] · slices_S7x128_S1x128_1_0) : (⟨S7x128, .f32⟩ : BufTy).Contents (Elt F) → (⟨S1x128, .f32⟩ : BufTy).Contents (Elt F)),
    StableHlo.reshape main_v89 main_v90 rfl shapeCasts_S1x128_S128,
    StableHlo.unary main_arg8 main_v91 ((extractStridedSlice S1x128 ![1, 0] · slices_S7x128_S1x128_1_0) : (⟨S7x128, .f32⟩ : BufTy).Contents (Elt F) → (⟨S1x128, .f32⟩ : BufTy).Contents (Elt F)),
    StableHlo.reshape main_v91 main_v92 rfl shapeCasts_S1x128_S128,
    StableHlo.nullary main_cst_12 (constant S_ .f32 0x00000000#32),
    StableHlo.binary main_v88 main_cst_12 main_v93 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v94 (broadcastInDim S128 ![] bcast_S_S128 : (⟨S_, .f32⟩ : BufTy).Contents (Elt F) → (⟨S128, .f32⟩ : BufTy).Contents (Elt F)),
    StableHlo.binary main_v93 main_v94 main_v95 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call1.cst (constant S_ .f32 0x00000000#32),
    StableHlo.TRef.binary (.of main_v88 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v88 : StableHlo.TRef sig ⟨S50000x128, .f32⟩) main_call1.v4 main_call1.v5 subf,
    StableHlo.TRef.binary main_call1.v5 main_call1.v5 main_call1.v6 mulf,
    StableHlo.TRef.unary (.of main_c_14 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v95 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v98 main_v99 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v100 (broadcastInDim S128 ![] bcast_S_S128 : (⟨S_, .f32⟩ : BufTy).Contents (Elt F) → (⟨S128, .f32⟩ : BufTy).Contents (Elt F)),
    StableHlo.binary main_v96 main_v100 main_v101 (addf : (⟨S128, .f32⟩ : BufTy).Contents (Elt F) → (⟨S128, .f32⟩ : BufTy).Contents (Elt F) → (⟨S128, .f32⟩ : BufTy).Contents (Elt F)) ]

/-- The references `ops1`'s operations write, in order. -/
abbrev ops1_W : List (Ref sig .tc) := [main_v51, main_v52, main_v53, main_v54, main_v55, main_v56, main_v57, main_v58, main_v59, main_v60, main_v61, main_v62, main_v63, main_v64, main_v65, main_c_7, main_v66, main_v67, main_c_8, main_v68, main_v69, main_v70, main_v71, main_v72, main_cst_9, main_v73, main_v74, main_v75, main_v76, main_v77, main_v78, main_v79, main_v80, main_cst_10, main_v81, main_v82, main_v83, main_v84, main_v85, main_v86, main_cst_11, main_v87, main_v88, main_v89, main_v90, main_v91, main_v92, main_cst_12, main_v93, main_cst_13, main_v94, main_v95, main_c_14, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v96, main_v97, main_v98, main_v99, main_cst_15, main_v100, main_v101]

set_option maxRecDepth 8192 in
theorem ops1_sub : (ops1 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations 163 … 243 of 584: window `main_part2`, its calls written out. -/
abbrev ops2 : List (HloOp τ sig (Elt F)) :=
  [ StableHlo.unary main_v101 main_v102 (Host.rsqrt : (⟨S128, .f32⟩ : BufTy).Contents (Elt F) → (⟨S128, .f32⟩ : BufTy).Contents (Elt F)),
    StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v104 main_v105 (mulf : (⟨S50000x128, .f32⟩ : BufTy).Contents (Elt F) → (⟨S50000x128, .f32⟩ : BufTy).Contents (Elt F) → (⟨S50000x128, .f32⟩ : BufTy).Contents (Elt F)),
    StableHlo.unary main_v90 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v107 main_v108 (mulf : (⟨S50000x128, .f32⟩ : BufTy).Contents (Elt F) → (⟨S50000x128, .f32⟩ : BufTy).Contents (Elt F) → (⟨S50000x128, .f32⟩ : BufTy).Contents (Elt F)),
    StableHlo.unary main_v92 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v110 main_v111 (addf : (⟨S50000x128, .f32⟩ : BufTy).Contents (Elt F) → (⟨S50000x128, .f32⟩ : BufTy).Contents (Elt F) → (⟨S50000x128, .f32⟩ : BufTy).Contents (Elt F)),
    StableHlo.unary main_arg3 main_v112 ((extractStridedSlice S1x128x128 ![2, 0, 0] · slices_S7x128x128_S1x128x128_2_0_0) : (⟨S7x128x128, .f32⟩ : BufTy).Contents (Elt F) → (⟨S1x128x128, .f32⟩ : BufTy).Contents (Elt F)),
    StableHlo.reshape main_v112 main_v113 rfl shapeCasts_S1x128x128_S128x128,
    StableHlo.unary main_arg4 main_v114 ((extractStridedSlice S1x128 ![2, 0] · slices_S7x128_S1x128_2_0) : (⟨S7x128, .f32⟩ : BufTy).Contents (Elt F) → (⟨S1x128, .f32⟩ : BufTy).Contents (Elt F)),
    StableHlo.reshape main_v114 main_v115 rfl shapeCasts_S1x128_S128,
    StableHlo.unary main_arg5 main_v116 ((extractStridedSlice S1x128x128 ![2, 0, 0] · slices_S7x128x128_S1x128x128_2_0_0) : (⟨S7x128x128, .f32⟩ : BufTy).Contents (Elt F) → (⟨S1x128x128, .f32⟩ : BufTy).Contents (Elt F)),
    StableHlo.reshape main_v116 main_v117 rfl shapeCasts_S1x128x128_S128x128,
    StableHlo.unary main_arg6 main_v118 ((extractStridedSlice S1x128 ![2, 0] · slices_S7x128_S1x128_2_0) : (⟨S7x128, .f32⟩ : BufTy).Contents (Elt F) → (⟨S1x128, .f32⟩ : BufTy).Contents (Elt F)),
    StableHlo.reshape main_v118 main_v119 rfl shapeCasts_S1x128_S128,
    StableHlo.nullary main_c_16 (constantI S_ 32 0#32),
    StableHlo.unary main_c_16 main_v120 (broadcastInDim S600000 ![] bcast_S_S600000 : (⟨S_, .i32⟩ : BufTy).Contents (Elt F) → (⟨S600000, .i32⟩ : BufTy).Contents (Elt F)),
    StableHlo.binary main_v1 main_v120 main_v121 (cmpi .slt : (⟨S600000, .i32⟩ : BufTy).Contents (Elt F) → (⟨S600000, .i32⟩ : BufTy).Contents (Elt F) → (⟨S600000, .i1⟩ : BufTy).Contents (Elt F)),
    StableHlo.nullary main_c_17 (constantI S_ 32 50000#32),
    StableHlo.unary main_c_17 main_v122 (broadcastInDim S600000 ![] bcast_S_S600000 : (⟨S_, .i32⟩ : BufTy).Contents (Elt F) → (⟨S600000, .i32⟩ : BufTy).Contents (Elt F)),
    StableHlo.binary main_v1 main_v122 main_v123 (addi : (⟨S600000, .i32⟩ : BufTy).Contents (Elt F) → (⟨S600000, .i32⟩ : BufTy).Contents (Elt F) → (⟨S600000, .i32⟩ : BufTy).Contents (Elt F)),
    StableHlo.ternary main_v121 main_v123 main_v1 main_v124 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v124 main_v125 (broadcastInDim S600000x1 ![0] bcast_S600000_S600000x1_0 : (⟨S600000, .i32⟩ : BufTy).Contents (Elt F) → (⟨S600000x1, .i32⟩ : BufTy).Contents (Elt F)),
    StableHlo.binary main_v111 main_v125 main_v126 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_18 (constant S_ .f32 0x00000000#32),
    StableHlo.unary main_cst_18 main_v127 (broadcastInDim S50000x128 ![] bcast_S_S50000x128 : (⟨S_, .f32⟩ : BufTy).Contents (Elt F) → (⟨S50000x128, .f32⟩ : BufTy).Contents (Elt F)),
    StableHlo.unary main_v3 main_v128 (broadcastInDim S600000x1 ![0] bcast_S600000_S600000x1_0 : (⟨S600000, .i32⟩ : BufTy).Contents (Elt F) → (⟨S600000x1, .i32⟩ : BufTy).Contents (Elt F)),
    StableHlo.ternary main_v127 main_v128 main_v126 main_v129 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v111 main_v129 main_v130 (addf : (⟨S50000x128, .f32⟩ : BufTy).Contents (Elt F) → (⟨S50000x128, .f32⟩ : BufTy).Contents (Elt F) → (⟨S50000x128, .f32⟩ : BufTy).Contents (Elt F)),
    StableHlo.binary main_v130 main_v113 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v115 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v133 main_v134 (addf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x00000000#32),
    StableHlo.unary main_cst_19 main_v135 (broadcastInDim S50000x128 ![] bcast_S_S50000x128 : (⟨S_, .f32⟩ : BufTy).Contents (Elt F) → (⟨S50000x128, .f32⟩ : BufTy).Contents (Elt F)),
    StableHlo.binary main_v134 main_v135 main_v136 (maximumf : (⟨S50000x128, .f32⟩ : BufTy).Contents (Elt F) → (⟨S50000x128, .f32⟩ : BufTy).Contents (Elt F) → (⟨S50000x128, .f32⟩ : BufTy).Contents (Elt F)),
    StableHlo.binary main_v136 main_v117 main_v137 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v119 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x00000000#32),
    StableHlo.unary main_cst_20 main_v141 (broadcastInDim S50000x128 ![] bcast_S_S50000x128 : (⟨S_, .f32⟩ : BufTy).Contents (Elt F) → (⟨S50000x128, .f32⟩ : BufTy).Contents (Elt F)),
    StableHlo.binary main_v140 main_v141 main_v142 (maximumf : (⟨S50000x128, .f32⟩ : BufTy).Contents (Elt F) → (⟨S50000x128, .f32⟩ : BufTy).Contents (Elt F) → (⟨S50000x128, .f32⟩ : BufTy).Contents (Elt F)),
    StableHlo.unary main_arg7 main_v143 ((extractStridedSlice S1x128 ![2, 0] · slices_S7x128_S1x128_2_0) : (⟨S7x128, .f32⟩ : BufTy).Contents (Elt F) → (⟨S1x128, .f32⟩ : BufTy).Contents (Elt F)),
    StableHlo.reshape main_v143 main_v144 rfl shapeCasts_S1x128_S128,
    StableHlo.unary main_arg8 main_v145 ((extractStridedSlice S1x128 ![2, 0] · slices_S7x128_S1x128_2_0) : (⟨S7x128, .f32⟩ : BufTy).Contents (Elt F) → (⟨S1x128, .f32⟩ : BufTy).Contents (Elt F)),
    StableHlo.reshape main_v145 main_v146 rfl shapeCasts_S1x128_S128,
    StableHlo.nullary main_cst_21 (constant S_ .f32 0x00000000#32),
    StableHlo.binary main_v142 main_cst_21 main_v147 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_22 (constant S_ .f32 0x47435000#32),
    StableHlo.unary main_cst_22 main_v148 (broadcastInDim S128 ![] bcast_S_S128 : (⟨S_, .f32⟩ : BufTy).Contents (Elt F) → (⟨S128, .f32⟩ : BufTy).Contents (Elt F)),
    StableHlo.binary main_v147 main_v148 main_v149 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call2.cst (constant S_ .f32 0x00000000#32),
    StableHlo.TRef.binary (.of main_v142 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v142 : StableHlo.TRef sig ⟨S50000x128, .f32⟩) main_call2.v4 main_call2.v5 subf,
    StableHlo.TRef.binary main_call2.v5 main_call2.v5 main_call2.v6 mulf,
    StableHlo.TRef.unary (.of main_c_23 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v149 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v152 main_v153 (subf : (⟨S50000x128, .f32⟩ : BufTy).Contents (Elt F) → (⟨S50000x128, .f32⟩ : BufTy).Contents (Elt F) → (⟨S50000x128, .f32⟩ : BufTy).Contents (Elt F)) ]

/-- The references `ops2`'s operations write, in order. -/
abbrev ops2_W : List (Ref sig .tc) := [main_v102, main_v103, main_v104, main_v105, main_v106, main_v107, main_v108, main_v109, main_v110, main_v111, main_v112, main_v113, main_v114, main_v115, main_v116, main_v117, main_v118, main_v119, main_c_16, main_v120, main_v121, main_c_17, main_v122, main_v123, main_v124, main_v125, main_v126, main_cst_18, main_v127, main_v128, main_v129, main_v130, main_v131, main_v132, main_v133, main_v134, main_cst_19, main_v135, main_v136, main_v137, main_v138, main_v139, main_v140, main_cst_20, main_v141, main_v142, main_v143, main_v144, main_v145, main_v146, main_cst_21, main_v147, main_cst_22, main_v148, main_v149, main_c_23, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v150, main_v151, main_v152, main_v153]

set_option maxRecDepth 8192 in
theorem ops2_sub : (ops2 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩

set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations 244 … 324 of 584: window `main_part3`, its calls written out. -/
abbrev ops3 : List (HloOp τ sig (Elt F)) :=
  [ StableHlo.nullary main_cst_24 (constant S_ .f32 0x3727C5AC#32),
    StableHlo.unary main_cst_24 main_v154 (broadcastInDim S128 ![] bcast_S_S128 : (⟨S_, .f32⟩ : BufTy).Contents (Elt F) → (⟨S128, .f32⟩ : BufTy).Contents (Elt F)),
    StableHlo.binary main_v150 main_v154 main_v155 (addf : (⟨S128, .f32⟩ : BufTy).Contents (Elt F) → (⟨S128, .f32⟩ : BufTy).Contents (Elt F) → (⟨S128, .f32⟩ : BufTy).Contents (Elt F)),
    StableHlo.unary main_v155 main_v156 (Host.rsqrt : (⟨S128, .f32⟩ : BufTy).Contents (Elt F) → (⟨S128, .f32⟩ : BufTy).Contents (Elt F)),
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_v144 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v161 main_v162 (mulf : (⟨S50000x128, .f32⟩ : BufTy).Contents (Elt F) → (⟨S50000x128, .f32⟩ : BufTy).Contents (Elt F) → (⟨S50000x128, .f32⟩ : BufTy).Contents (Elt F)),
    StableHlo.unary main_v146 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S50000x128 ![0, 1] bcast_S1x128_S50000x128_0_1 : (⟨S1x128, .f32⟩ : BufTy).Contents (Elt F) → (⟨S50000x128, .f32⟩ : BufTy).Contents (Elt F)),
    StableHlo.binary main_v162 main_v164 main_v165 (addf : (⟨S50000x128, .f32⟩ : BufTy).Contents (Elt F) → (⟨S50000x128, .f32⟩ : BufTy).Contents (Elt F) → (⟨S50000x128, .f32⟩ : BufTy).Contents (Elt F)),
    StableHlo.unary main_arg3 main_v166 ((extractStridedSlice S1x128x128 ![3, 0, 0] · slices_S7x128x128_S1x128x128_3_0_0) : (⟨S7x128x128, .f32⟩ : BufTy).Contents (Elt F) → (⟨S1x128x128, .f32⟩ : BufTy).Contents (Elt F)),
    StableHlo.reshape main_v166 main_v167 rfl shapeCasts_S1x128x128_S128x128,
    StableHlo.unary main_arg4 main_v168 ((extractStridedSlice S1x128 ![3, 0] · slices_S7x128_S1x128_3_0) : (⟨S7x128, .f32⟩ : BufTy).Contents (Elt F) → (⟨S1x128, .f32⟩ : BufTy).Contents (Elt F)),
    StableHlo.reshape main_v168 main_v169 rfl shapeCasts_S1x128_S128,
    StableHlo.unary main_arg5 main_v170 ((extractStridedSlice S1x128x128 ![3, 0, 0] · slices_S7x128x128_S1x128x128_3_0_0) : (⟨S7x128x128, .f32⟩ : BufTy).Contents (Elt F) → (⟨S1x128x128, .f32⟩ : BufTy).Contents (Elt F)),
    StableHlo.reshape main_v170 main_v171 rfl shapeCasts_S1x128x128_S128x128,
    StableHlo.unary main_arg6 main_v172 ((extractStridedSlice S1x128 ![3, 0] · slices_S7x128_S1x128_3_0) : (⟨S7x128, .f32⟩ : BufTy).Contents (Elt F) → (⟨S1x128, .f32⟩ : BufTy).Contents (Elt F)),
    StableHlo.reshape main_v172 main_v173 rfl shapeCasts_S1x128_S128,
    StableHlo.nullary main_c_25 (constantI S_ 32 0#32),
    StableHlo.unary main_c_25 main_v174 (broadcastInDim S600000 ![] bcast_S_S600000 : (⟨S_, .i32⟩ : BufTy).Contents (Elt F) → (⟨S600000, .i32⟩ : BufTy).Contents (Elt F)),
    StableHlo.binary main_v1 main_v174 main_v175 (cmpi .slt : (⟨S600000, .i32⟩ : BufTy).Contents (Elt F) → (⟨S600000, .i32⟩ : BufTy).Contents (Elt F) → (⟨S600000, .i1⟩ : BufTy).Contents (Elt F)),
    StableHlo.nullary main_c_26 (constantI S_ 32 50000#32),
    StableHlo.unary main_c_26 main_v176 (broadcastInDim S600000 ![] bcast_S_S600000 : (⟨S_, .i32⟩ : BufTy).Contents (Elt F) → (⟨S600000, .i32⟩ : BufTy).Contents (Elt F)),
    StableHlo.binary main_v1 main_v176 main_v177 (addi : (⟨S600000, .i32⟩ : BufTy).Contents (Elt F) → (⟨S600000, .i32⟩ : BufTy).Contents (Elt F) → (⟨S600000, .i32⟩ : BufTy).Contents (Elt F)),
    StableHlo.ternary main_v175 main_v177 main_v1 main_v178 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v178 main_v179 (broadcastInDim S600000x1 ![0] bcast_S600000_S600000x1_0 : (⟨S600000, .i32⟩ : BufTy).Contents (Elt F) → (⟨S600000x1, .i32⟩ : BufTy).Contents (Elt F)),
    StableHlo.binary main_v165 main_v179 main_v180 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_27 (constant S_ .f32 0x00000000#32),
    StableHlo.unary main_cst_27 main_v181 (broadcastInDim S50000x128 ![] bcast_S_S50000x128 : (⟨S_, .f32⟩ : BufTy).Contents (Elt F) → (⟨S50000x128, .f32⟩ : BufTy).Contents (Elt F)),
    StableHlo.unary main_v3 main_v182 (broadcastInDim S600000x1 ![0] bcast_S600000_S600000x1_0 : (⟨S600000, .i32⟩ : BufTy).Contents (Elt F) → (⟨S600000x1, .i32⟩ : BufTy).Contents (Elt F)),
    StableHlo.ternary main_v181 main_v182 main_v180 main_v183 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v165 main_v183 main_v184 (addf : (⟨S50000x128, .f32⟩ : BufTy).Contents (Elt F) → (⟨S50000x128, .f32⟩ : BufTy).Contents (Elt F) → (⟨S50000x128, .f32⟩ : BufTy).Contents (Elt F)),
    StableHlo.binary main_v184 main_v167 main_v185 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v169 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S50000x128 ![0, 1] bcast_S1x128_S50000x128_0_1 : (⟨S1x128, .f32⟩ : BufTy).Contents (Elt F) → (⟨S50000x128, .f32⟩ : BufTy).Contents (Elt F)),
    StableHlo.binary main_v185 main_v187 main_v188 (addf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x00000000#32),
    StableHlo.unary main_cst_28 main_v189 (broadcastInDim S50000x128 ![] bcast_S_S50000x128 : (⟨S_, .f32⟩ : BufTy).Contents (Elt F) → (⟨S50000x128, .f32⟩ : BufTy).Contents (Elt F)),
    StableHlo.binary main_v188 main_v189 main_v190 (maximumf : (⟨S50000x128, .f32⟩ : BufTy).Contents (Elt F) → (⟨S50000x128, .f32⟩ : BufTy).Contents (Elt F) → (⟨S50000x128, .f32⟩ : BufTy).Contents (Elt F)),
    StableHlo.binary main_v190 main_v171 main_v191 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v173 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v191 main_v193 main_v194 (addf : (⟨S50000x128, .f32⟩ : BufTy).Contents (Elt F) → (⟨S50000x128, .f32⟩ : BufTy).Contents (Elt F) → (⟨S50000x128, .f32⟩ : BufTy).Contents (Elt F)),
    StableHlo.unary main_v194 main_v195 (Host.tanh : (⟨S50000x128, .f32⟩ : BufTy).Contents (Elt F) → (⟨S50000x128, .f32⟩ : BufTy).Contents (Elt F)),
    StableHlo.unary main_arg7 main_v196 ((extractStridedSlice S1x128 ![3, 0] · slices_S7x128_S1x128_3_0) : (⟨S7x128, .f32⟩ : BufTy).Contents (Elt F) → (⟨S1x128, .f32⟩ : BufTy).Contents (Elt F)),
    StableHlo.reshape main_v196 main_v197 rfl shapeCasts_S1x128_S128,
    StableHlo.unary main_arg8 main_v198 ((extractStridedSlice S1x128 ![3, 0] · slices_S7x128_S1x128_3_0) : (⟨S7x128, .f32⟩ : BufTy).Contents (Elt F) → (⟨S1x128, .f32⟩ : BufTy).Contents (Elt F)),
    StableHlo.reshape main_v198 main_v199 rfl shapeCasts_S1x128_S128,
    StableHlo.nullary main_cst_29 (constant S_ .f32 0x00000000#32),
    StableHlo.binary main_v195 main_cst_29 main_v200 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_30 (constant S_ .f32 0x47435000#32),
    StableHlo.unary main_cst_30 main_v201 (broadcastInDim S128 ![] bcast_S_S128 : (⟨S_, .f32⟩ : BufTy).Contents (Elt F) → (⟨S128, .f32⟩ : BufTy).Contents (Elt F)),
    StableHlo.binary main_v200 main_v201 main_v202 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call3.cst (constant S_ .f32 0x00000000#32),
    StableHlo.TRef.binary (.of main_v195 : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v195 : StableHlo.TRef sig ⟨S50000x128, .f32⟩) main_call3.v4 main_call3.v5 subf,
    StableHlo.TRef.binary main_call3.v5 main_call3.v5 main_call3.v6 mulf,
    StableHlo.TRef.unary (.of main_c_31 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v202 main_v204 (broadcastInDim S1x128 ![1] bcast_S128_S1x128_1 : (⟨S128, .f32⟩ : BufTy).Contents (Elt F) → (⟨S1x128, .f32⟩ : BufTy).Contents (Elt F)),
    StableHlo.unary main_v204 main_v205 (broadcastInDim S50000x128 ![0, 1] bcast_S1x128_S50000x128_0_1 : (⟨S1x128, .f32⟩ : BufTy).Contents (Elt F) → (⟨S50000x128, .f32⟩ : BufTy).Contents (Elt F)) ]

/-- The references `ops3`'s operations write, in order. -/
abbrev ops3_W : List (Ref sig .tc) := [main_cst_24, main_v154, main_v155, main_v156, main_v157, main_v158, main_v159, main_v160, main_v161, main_v162, main_v163, main_v164, main_v165, main_v166, main_v167, main_v168, main_v169, main_v170, main_v171, main_v172, main_v173, main_c_25, main_v174, main_v175, main_c_26, main_v176, main_v177, main_v178, main_v179, main_v180, main_cst_27, main_v181, main_v182, main_v183, main_v184, main_v185, main_v186, main_v187, main_v188, main_cst_28, main_v189, main_v190, main_v191, main_v192, main_v193, main_v194, main_v195, main_v196, main_v197, main_v198, main_v199, main_cst_29, main_v200, main_cst_30, main_v201, main_v202, main_c_31, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v203, main_v204, main_v205]

set_option maxRecDepth 8192 in
theorem ops3_sub : (ops3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩

set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations 325 … 405 of 584: window `main_part4`, its calls written out. -/
abbrev ops4 : List (HloOp τ sig (Elt F)) :=
  [ StableHlo.binary main_v195 main_v205 main_v206 (subf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x3727C5AC#32),
    StableHlo.unary main_cst_32 main_v207 (broadcastInDim S128 ![] bcast_S_S128 : (⟨S_, .f32⟩ : BufTy).Contents (Elt F) → (⟨S128, .f32⟩ : BufTy).Contents (Elt F)),
    StableHlo.binary main_v203 main_v207 main_v208 (addf : (⟨S128, .f32⟩ : BufTy).Contents (Elt F) → (⟨S128, .f32⟩ : BufTy).Contents (Elt F) → (⟨S128, .f32⟩ : BufTy).Contents (Elt F)),
    StableHlo.unary main_v208 main_v209 (Host.rsqrt : (⟨S128, .f32⟩ : BufTy).Contents (Elt F) → (⟨S128, .f32⟩ : BufTy).Contents (Elt F)),
    StableHlo.unary main_v209 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S50000x128 ![0, 1] bcast_S1x128_S50000x128_0_1 : (⟨S1x128, .f32⟩ : BufTy).Contents (Elt F) → (⟨S50000x128, .f32⟩ : BufTy).Contents (Elt F)),
    StableHlo.binary main_v206 main_v211 main_v212 (mulf : (⟨S50000x128, .f32⟩ : BufTy).Contents (Elt F) → (⟨S50000x128, .f32⟩ : BufTy).Contents (Elt F) → (⟨S50000x128, .f32⟩ : BufTy).Contents (Elt F)),
    StableHlo.unary main_v197 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v212 main_v214 main_v215 (mulf : (⟨S50000x128, .f32⟩ : BufTy).Contents (Elt F) → (⟨S50000x128, .f32⟩ : BufTy).Contents (Elt F) → (⟨S50000x128, .f32⟩ : BufTy).Contents (Elt F)),
    StableHlo.unary main_v199 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v217 main_v218 (addf : (⟨S50000x128, .f32⟩ : BufTy).Contents (Elt F) → (⟨S50000x128, .f32⟩ : BufTy).Contents (Elt F) → (⟨S50000x128, .f32⟩ : BufTy).Contents (Elt F)),
    StableHlo.unary main_arg3 main_v219 ((extractStridedSlice S1x128x128 ![4, 0, 0] · slices_S7x128x128_S1x128x128_4_0_0) : (⟨S7x128x128, .f32⟩ : BufTy).Contents (Elt F) → (⟨S1x128x128, .f32⟩ : BufTy).Contents (Elt F)),
    StableHlo.reshape main_v219 main_v220 rfl shapeCasts_S1x128x128_S128x128,
    StableHlo.unary main_arg4 main_v221 ((extractStridedSlice S1x128 ![4, 0] · slices_S7x128_S1x128_4_0) : (⟨S7x128, .f32⟩ : BufTy).Contents (Elt F) → (⟨S1x128, .f32⟩ : BufTy).Contents (Elt F)),
    StableHlo.reshape main_v221 main_v222 rfl shapeCasts_S1x128_S128,
    StableHlo.unary main_arg5 main_v223 ((extractStridedSlice S1x128x128 ![4, 0, 0] · slices_S7x128x128_S1x128x128_4_0_0) : (⟨S7x128x128, .f32⟩ : BufTy).Contents (Elt F) → (⟨S1x128x128, .f32⟩ : BufTy).Contents (Elt F)),
    StableHlo.reshape main_v223 main_v224 rfl shapeCasts_S1x128x128_S128x128,
    StableHlo.unary main_arg6 main_v225 ((extractStridedSlice S1x128 ![4, 0] · slices_S7x128_S1x128_4_0) : (⟨S7x128, .f32⟩ : BufTy).Contents (Elt F) → (⟨S1x128, .f32⟩ : BufTy).Contents (Elt F)),
    StableHlo.reshape main_v225 main_v226 rfl shapeCasts_S1x128_S128,
    StableHlo.nullary main_c_33 (constantI S_ 32 0#32),
    StableHlo.unary main_c_33 main_v227 (broadcastInDim S600000 ![] bcast_S_S600000 : (⟨S_, .i32⟩ : BufTy).Contents (Elt F) → (⟨S600000, .i32⟩ : BufTy).Contents (Elt F)),
    StableHlo.binary main_v1 main_v227 main_v228 (cmpi .slt : (⟨S600000, .i32⟩ : BufTy).Contents (Elt F) → (⟨S600000, .i32⟩ : BufTy).Contents (Elt F) → (⟨S600000, .i1⟩ : BufTy).Contents (Elt F)),
    StableHlo.nullary main_c_34 (constantI S_ 32 50000#32),
    StableHlo.unary main_c_34 main_v229 (broadcastInDim S600000 ![] bcast_S_S600000 : (⟨S_, .i32⟩ : BufTy).Contents (Elt F) → (⟨S600000, .i32⟩ : BufTy).Contents (Elt F)),
    StableHlo.binary main_v1 main_v229 main_v230 (addi : (⟨S600000, .i32⟩ : BufTy).Contents (Elt F) → (⟨S600000, .i32⟩ : BufTy).Contents (Elt F) → (⟨S600000, .i32⟩ : BufTy).Contents (Elt F)),
    StableHlo.ternary main_v228 main_v230 main_v1 main_v231 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v231 main_v232 (broadcastInDim S600000x1 ![0] bcast_S600000_S600000x1_0 : (⟨S600000, .i32⟩ : BufTy).Contents (Elt F) → (⟨S600000x1, .i32⟩ : BufTy).Contents (Elt F)),
    StableHlo.binary main_v165 main_v232 main_v233 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_35 (constant S_ .f32 0x00000000#32),
    StableHlo.unary main_cst_35 main_v234 (broadcastInDim S50000x128 ![] bcast_S_S50000x128 : (⟨S_, .f32⟩ : BufTy).Contents (Elt F) → (⟨S50000x128, .f32⟩ : BufTy).Contents (Elt F)),
    StableHlo.unary main_v3 main_v235 (broadcastInDim S600000x1 ![0] bcast_S600000_S600000x1_0 : (⟨S600000, .i32⟩ : BufTy).Contents (Elt F) → (⟨S600000x1, .i32⟩ : BufTy).Contents (Elt F)),
    StableHlo.ternary main_v234 main_v235 main_v233 main_v236 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v165 main_v236 main_v237 (addf : (⟨S50000x128, .f32⟩ : BufTy).Contents (Elt F) → (⟨S50000x128, .f32⟩ : BufTy).Contents (Elt F) → (⟨S50000x128, .f32⟩ : BufTy).Contents (Elt F)),
    StableHlo.binary main_v237 main_v220 main_v238 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v222 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S50000x128 ![0, 1] bcast_S1x128_S50000x128_0_1 : (⟨S1x128, .f32⟩ : BufTy).Contents (Elt F) → (⟨S50000x128, .f32⟩ : BufTy).Contents (Elt F)),
    StableHlo.binary main_v238 main_v240 main_v241 (addf : (⟨S50000x128, .f32⟩ : BufTy).Contents (Elt F) → (⟨S50000x128, .f32⟩ : BufTy).Contents (Elt F) → (⟨S50000x128, .f32⟩ : BufTy).Contents (Elt F)),
    StableHlo.nullary main_cst_36 (constant S_ .f32 0x00000000#32),
    StableHlo.unary main_cst_36 main_v242 (broadcastInDim S50000x128 ![] bcast_S_S50000x128 : (⟨S_, .f32⟩ : BufTy).Contents (Elt F) → (⟨S50000x128, .f32⟩ : BufTy).Contents (Elt F)),
    StableHlo.binary main_v241 main_v242 main_v243 (maximumf : (⟨S50000x128, .f32⟩ : BufTy).Contents (Elt F) → (⟨S50000x128, .f32⟩ : BufTy).Contents (Elt F) → (⟨S50000x128, .f32⟩ : BufTy).Contents (Elt F)),
    StableHlo.binary main_v243 main_v224 main_v244 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v226 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S50000x128 ![0, 1] bcast_S1x128_S50000x128_0_1 : (⟨S1x128, .f32⟩ : BufTy).Contents (Elt F) → (⟨S50000x128, .f32⟩ : BufTy).Contents (Elt F)),
    StableHlo.binary main_v244 main_v246 main_v247 (addf : (⟨S50000x128, .f32⟩ : BufTy).Contents (Elt F) → (⟨S50000x128, .f32⟩ : BufTy).Contents (Elt F) → (⟨S50000x128, .f32⟩ : BufTy).Contents (Elt F)),
    StableHlo.unary main_v247 main_v248 (Host.tanh : (⟨S50000x128, .f32⟩ : BufTy).Contents (Elt F) → (⟨S50000x128, .f32⟩ : BufTy).Contents (Elt F)),
    StableHlo.unary main_arg7 main_v249 ((extractStridedSlice S1x128 ![4, 0] · slices_S7x128_S1x128_4_0) : (⟨S7x128, .f32⟩ : BufTy).Contents (Elt F) → (⟨S1x128, .f32⟩ : BufTy).Contents (Elt F)),
    StableHlo.reshape main_v249 main_v250 rfl shapeCasts_S1x128_S128,
    StableHlo.unary main_arg8 main_v251 ((extractStridedSlice S1x128 ![4, 0] · slices_S7x128_S1x128_4_0) : (⟨S7x128, .f32⟩ : BufTy).Contents (Elt F) → (⟨S1x128, .f32⟩ : BufTy).Contents (Elt F)),
    StableHlo.reshape main_v251 main_v252 rfl shapeCasts_S1x128_S128,
    StableHlo.nullary main_cst_37 (constant S_ .f32 0x00000000#32),
    StableHlo.binary main_v248 main_cst_37 main_v253 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_38 (constant S_ .f32 0x47435000#32),
    StableHlo.unary main_cst_38 main_v254 (broadcastInDim S128 ![] bcast_S_S128 : (⟨S_, .f32⟩ : BufTy).Contents (Elt F) → (⟨S128, .f32⟩ : BufTy).Contents (Elt F)),
    StableHlo.binary main_v253 main_v254 main_v255 (Host.divf : (⟨S128, .f32⟩ : BufTy).Contents (Elt F) → (⟨S128, .f32⟩ : BufTy).Contents (Elt F) → (⟨S128, .f32⟩ : BufTy).Contents (Elt F)),
    StableHlo.nullary main_c_39 (constantI S_ 32 0#32),
    StableHlo.TRef.nullary main_call4.cst (constant S_ .f32 0x00000000#32),
    StableHlo.TRef.binary (.of main_v248 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v248 : StableHlo.TRef sig ⟨S50000x128, .f32⟩) main_call4.v4 main_call4.v5 subf,
    StableHlo.TRef.binary main_call4.v5 main_call4.v5 main_call4.v6 mulf,
    StableHlo.TRef.unary (.of main_c_39 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v255 main_v257 (broadcastInDim S1x128 ![1] bcast_S128_S1x128_1 : (⟨S128, .f32⟩ : BufTy).Contents (Elt F) → (⟨S1x128, .f32⟩ : BufTy).Contents (Elt F)) ]

/-- The references `ops4`'s operations write, in order. -/
abbrev ops4_W : List (Ref sig .tc) := [main_v206, main_cst_32, main_v207, main_v208, main_v209, main_v210, main_v211, main_v212, main_v213, main_v214, main_v215, main_v216, main_v217, main_v218, main_v219, main_v220, main_v221, main_v222, main_v223, main_v224, main_v225, main_v226, main_c_33, main_v227, main_v228, main_c_34, main_v229, main_v230, main_v231, main_v232, main_v233, main_cst_35, main_v234, main_v235, main_v236, main_v237, main_v238, main_v239, main_v240, main_v241, main_cst_36, main_v242, main_v243, main_v244, main_v245, main_v246, main_v247, main_v248, main_v249, main_v250, main_v251, main_v252, main_cst_37, main_v253, main_cst_38, main_v254, main_v255, main_c_39, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v256, main_v257]

set_option maxRecDepth 8192 in
theorem ops4_sub : (ops4 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

set_option maxRecDepth 8192 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations 406 … 486 of 584: window `main_part5`, its calls written out. -/
abbrev ops5 : List (HloOp τ sig (Elt F)) :=
  [ StableHlo.unary main_v257 main_v258 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v258 main_v259 (subf : (⟨S50000x128, .f32⟩ : BufTy).Contents (Elt F) → (⟨S50000x128, .f32⟩ : BufTy).Contents (Elt F) → (⟨S50000x128, .f32⟩ : BufTy).Contents (Elt F)),
    StableHlo.nullary main_cst_40 (constant S_ .f32 0x3727C5AC#32),
    StableHlo.unary main_cst_40 main_v260 (broadcastInDim S128 ![] bcast_S_S128 : (⟨S_, .f32⟩ : BufTy).Contents (Elt F) → (⟨S128, .f32⟩ : BufTy).Contents (Elt F)),
    StableHlo.binary main_v256 main_v260 main_v261 (addf : (⟨S128, .f32⟩ : BufTy).Contents (Elt F) → (⟨S128, .f32⟩ : BufTy).Contents (Elt F) → (⟨S128, .f32⟩ : BufTy).Contents (Elt F)),
    StableHlo.unary main_v261 main_v262 (Host.rsqrt : (⟨S128, .f32⟩ : BufTy).Contents (Elt F) → (⟨S128, .f32⟩ : BufTy).Contents (Elt F)),
    StableHlo.unary main_v262 main_v263 (broadcastInDim S1x128 ![1] bcast_S128_S1x128_1 : (⟨S128, .f32⟩ : BufTy).Contents (Elt F) → (⟨S1x128, .f32⟩ : BufTy).Contents (Elt F)),
    StableHlo.unary main_v263 main_v264 (broadcastInDim S50000x128 ![0, 1] bcast_S1x128_S50000x128_0_1 : (⟨S1x128, .f32⟩ : BufTy).Contents (Elt F) → (⟨S50000x128, .f32⟩ : BufTy).Contents (Elt F)),
    StableHlo.binary main_v259 main_v264 main_v265 (mulf : (⟨S50000x128, .f32⟩ : BufTy).Contents (Elt F) → (⟨S50000x128, .f32⟩ : BufTy).Contents (Elt F) → (⟨S50000x128, .f32⟩ : BufTy).Contents (Elt F)),
    StableHlo.unary main_v250 main_v266 (broadcastInDim S1x128 ![1] bcast_S128_S1x128_1 : (⟨S128, .f32⟩ : BufTy).Contents (Elt F) → (⟨S1x128, .f32⟩ : BufTy).Contents (Elt F)),
    StableHlo.unary main_v266 main_v267 (broadcastInDim S50000x128 ![0, 1] bcast_S1x128_S50000x128_0_1 : (⟨S1x128, .f32⟩ : BufTy).Contents (Elt F) → (⟨S50000x128, .f32⟩ : BufTy).Contents (Elt F)),
    StableHlo.binary main_v265 main_v267 main_v268 (mulf : (⟨S50000x128, .f32⟩ : BufTy).Contents (Elt F) → (⟨S50000x128, .f32⟩ : BufTy).Contents (Elt F) → (⟨S50000x128, .f32⟩ : BufTy).Contents (Elt F)),
    StableHlo.unary main_v252 main_v269 (broadcastInDim S1x128 ![1] bcast_S128_S1x128_1 : (⟨S128, .f32⟩ : BufTy).Contents (Elt F) → (⟨S1x128, .f32⟩ : BufTy).Contents (Elt F)),
    StableHlo.unary main_v269 main_v270 (broadcastInDim S50000x128 ![0, 1] bcast_S1x128_S50000x128_0_1 : (⟨S1x128, .f32⟩ : BufTy).Contents (Elt F) → (⟨S50000x128, .f32⟩ : BufTy).Contents (Elt F)),
    StableHlo.binary main_v268 main_v270 main_v271 (addf : (⟨S50000x128, .f32⟩ : BufTy).Contents (Elt F) → (⟨S50000x128, .f32⟩ : BufTy).Contents (Elt F) → (⟨S50000x128, .f32⟩ : BufTy).Contents (Elt F)),
    StableHlo.unary main_arg3 main_v272 ((extractStridedSlice S1x128x128 ![5, 0, 0] · slices_S7x128x128_S1x128x128_5_0_0) : (⟨S7x128x128, .f32⟩ : BufTy).Contents (Elt F) → (⟨S1x128x128, .f32⟩ : BufTy).Contents (Elt F)),
    StableHlo.reshape main_v272 main_v273 rfl shapeCasts_S1x128x128_S128x128,
    StableHlo.unary main_arg4 main_v274 ((extractStridedSlice S1x128 ![5, 0] · slices_S7x128_S1x128_5_0) : (⟨S7x128, .f32⟩ : BufTy).Contents (Elt F) → (⟨S1x128, .f32⟩ : BufTy).Contents (Elt F)),
    StableHlo.reshape main_v274 main_v275 rfl shapeCasts_S1x128_S128,
    StableHlo.unary main_arg5 main_v276 ((extractStridedSlice S1x128x128 ![5, 0, 0] · slices_S7x128x128_S1x128x128_5_0_0) : (⟨S7x128x128, .f32⟩ : BufTy).Contents (Elt F) → (⟨S1x128x128, .f32⟩ : BufTy).Contents (Elt F)),
    StableHlo.reshape main_v276 main_v277 rfl shapeCasts_S1x128x128_S128x128,
    StableHlo.unary main_arg6 main_v278 ((extractStridedSlice S1x128 ![5, 0] · slices_S7x128_S1x128_5_0) : (⟨S7x128, .f32⟩ : BufTy).Contents (Elt F) → (⟨S1x128, .f32⟩ : BufTy).Contents (Elt F)),
    StableHlo.reshape main_v278 main_v279 rfl shapeCasts_S1x128_S128,
    StableHlo.nullary main_c_41 (constantI S_ 32 0#32),
    StableHlo.unary main_c_41 main_v280 (broadcastInDim S600000 ![] bcast_S_S600000 : (⟨S_, .i32⟩ : BufTy).Contents (Elt F) → (⟨S600000, .i32⟩ : BufTy).Contents (Elt F)),
    StableHlo.binary main_v1 main_v280 main_v281 (cmpi .slt : (⟨S600000, .i32⟩ : BufTy).Contents (Elt F) → (⟨S600000, .i32⟩ : BufTy).Contents (Elt F) → (⟨S600000, .i1⟩ : BufTy).Contents (Elt F)),
    StableHlo.nullary main_c_42 (constantI S_ 32 50000#32),
    StableHlo.unary main_c_42 main_v282 (broadcastInDim S600000 ![] bcast_S_S600000 : (⟨S_, .i32⟩ : BufTy).Contents (Elt F) → (⟨S600000, .i32⟩ : BufTy).Contents (Elt F)),
    StableHlo.binary main_v1 main_v282 main_v283 (addi : (⟨S600000, .i32⟩ : BufTy).Contents (Elt F) → (⟨S600000, .i32⟩ : BufTy).Contents (Elt F) → (⟨S600000, .i32⟩ : BufTy).Contents (Elt F)),
    StableHlo.ternary main_v281 main_v283 main_v1 main_v284 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v284 main_v285 (broadcastInDim S600000x1 ![0] bcast_S600000_S600000x1_0 : (⟨S600000, .i32⟩ : BufTy).Contents (Elt F) → (⟨S600000x1, .i32⟩ : BufTy).Contents (Elt F)),
    StableHlo.binary main_v165 main_v285 main_v286 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_43 (constant S_ .f32 0x00000000#32),
    StableHlo.unary main_cst_43 main_v287 (broadcastInDim S50000x128 ![] bcast_S_S50000x128 : (⟨S_, .f32⟩ : BufTy).Contents (Elt F) → (⟨S50000x128, .f32⟩ : BufTy).Contents (Elt F)),
    StableHlo.unary main_v3 main_v288 (broadcastInDim S600000x1 ![0] bcast_S600000_S600000x1_0 : (⟨S600000, .i32⟩ : BufTy).Contents (Elt F) → (⟨S600000x1, .i32⟩ : BufTy).Contents (Elt F)),
    StableHlo.ternary main_v287 main_v288 main_v286 main_v289 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v165 main_v289 main_v290 (addf : (⟨S50000x128, .f32⟩ : BufTy).Contents (Elt F) → (⟨S50000x128, .f32⟩ : BufTy).Contents (Elt F) → (⟨S50000x128, .f32⟩ : BufTy).Contents (Elt F)),
    StableHlo.binary main_v290 main_v273 main_v291 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v275 main_v292 (broadcastInDim S1x128 ![1] bcast_S128_S1x128_1 : (⟨S128, .f32⟩ : BufTy).Contents (Elt F) → (⟨S1x128, .f32⟩ : BufTy).Contents (Elt F)),
    StableHlo.unary main_v292 main_v293 (broadcastInDim S50000x128 ![0, 1] bcast_S1x128_S50000x128_0_1 : (⟨S1x128, .f32⟩ : BufTy).Contents (Elt F) → (⟨S50000x128, .f32⟩ : BufTy).Contents (Elt F)),
    StableHlo.binary main_v291 main_v293 main_v294 (addf : (⟨S50000x128, .f32⟩ : BufTy).Contents (Elt F) → (⟨S50000x128, .f32⟩ : BufTy).Contents (Elt F) → (⟨S50000x128, .f32⟩ : BufTy).Contents (Elt F)),
    StableHlo.nullary main_cst_44 (constant S_ .f32 0x00000000#32),
    StableHlo.unary main_cst_44 main_v295 (broadcastInDim S50000x128 ![] bcast_S_S50000x128 : (⟨S_, .f32⟩ : BufTy).Contents (Elt F) → (⟨S50000x128, .f32⟩ : BufTy).Contents (Elt F)),
    StableHlo.binary main_v294 main_v295 main_v296 (maximumf : (⟨S50000x128, .f32⟩ : BufTy).Contents (Elt F) → (⟨S50000x128, .f32⟩ : BufTy).Contents (Elt F) → (⟨S50000x128, .f32⟩ : BufTy).Contents (Elt F)),
    StableHlo.binary main_v296 main_v277 main_v297 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v279 main_v298 (broadcastInDim S1x128 ![1] bcast_S128_S1x128_1 : (⟨S128, .f32⟩ : BufTy).Contents (Elt F) → (⟨S1x128, .f32⟩ : BufTy).Contents (Elt F)),
    StableHlo.unary main_v298 main_v299 (broadcastInDim S50000x128 ![0, 1] bcast_S1x128_S50000x128_0_1 : (⟨S1x128, .f32⟩ : BufTy).Contents (Elt F) → (⟨S50000x128, .f32⟩ : BufTy).Contents (Elt F)),
    StableHlo.binary main_v297 main_v299 main_v300 (addf : (⟨S50000x128, .f32⟩ : BufTy).Contents (Elt F) → (⟨S50000x128, .f32⟩ : BufTy).Contents (Elt F) → (⟨S50000x128, .f32⟩ : BufTy).Contents (Elt F)),
    StableHlo.unary main_v300 main_v301 (Host.tanh : (⟨S50000x128, .f32⟩ : BufTy).Contents (Elt F) → (⟨S50000x128, .f32⟩ : BufTy).Contents (Elt F)),
    StableHlo.unary main_arg7 main_v302 ((extractStridedSlice S1x128 ![5, 0] · slices_S7x128_S1x128_5_0) : (⟨S7x128, .f32⟩ : BufTy).Contents (Elt F) → (⟨S1x128, .f32⟩ : BufTy).Contents (Elt F)),
    StableHlo.reshape main_v302 main_v303 rfl shapeCasts_S1x128_S128,
    StableHlo.unary main_arg8 main_v304 ((extractStridedSlice S1x128 ![5, 0] · slices_S7x128_S1x128_5_0) : (⟨S7x128, .f32⟩ : BufTy).Contents (Elt F) → (⟨S1x128, .f32⟩ : BufTy).Contents (Elt F)),
    StableHlo.reshape main_v304 main_v305 rfl shapeCasts_S1x128_S128,
    StableHlo.nullary main_cst_45 (constant S_ .f32 0x00000000#32),
    StableHlo.binary main_v301 main_cst_45 main_v306 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_46 (constant S_ .f32 0x47435000#32),
    StableHlo.unary main_cst_46 main_v307 (broadcastInDim S128 ![] bcast_S_S128 : (⟨S_, .f32⟩ : BufTy).Contents (Elt F) → (⟨S128, .f32⟩ : BufTy).Contents (Elt F)),
    StableHlo.binary main_v306 main_v307 main_v308 (Host.divf : (⟨S128, .f32⟩ : BufTy).Contents (Elt F) → (⟨S128, .f32⟩ : BufTy).Contents (Elt F) → (⟨S128, .f32⟩ : BufTy).Contents (Elt F)),
    StableHlo.nullary main_c_47 (constantI S_ 32 0#32),
    StableHlo.TRef.nullary main_call5.cst (constant S_ .f32 0x00000000#32),
    StableHlo.TRef.binary (.of main_v301 : StableHlo.TRef sig ⟨S50000x128, .f32⟩) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (.of main_v301 : StableHlo.TRef sig ⟨S50000x128, .f32⟩) main_call5.v4 main_call5.v5 subf,
    StableHlo.TRef.binary main_call5.v5 main_call5.v5 main_call5.v6 mulf,
    StableHlo.TRef.unary (.of main_c_47 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]

/-- The references `ops5`'s operations write, in order. -/
abbrev ops5_W : List (Ref sig .tc) := [main_v258, main_v259, main_cst_40, main_v260, main_v261, main_v262, main_v263, main_v264, main_v265, main_v266, main_v267, main_v268, main_v269, main_v270, main_v271, main_v272, main_v273, main_v274, main_v275, main_v276, main_v277, main_v278, main_v279, main_c_41, main_v280, main_v281, main_c_42, main_v282, main_v283, main_v284, main_v285, main_v286, main_cst_43, main_v287, main_v288, main_v289, main_v290, main_v291, main_v292, main_v293, main_v294, main_cst_44, main_v295, main_v296, main_v297, main_v298, main_v299, main_v300, main_v301, main_v302, main_v303, main_v304, main_v305, main_cst_45, main_v306, main_cst_46, main_v307, main_v308, main_c_47, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v309]

set_option maxRecDepth 8192 in
theorem ops5_sub : (ops5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations 487 … 546 of 584: window `main_part6`, its calls written out. -/
abbrev ops6 : List (HloOp τ sig (Elt F)) :=
  [ StableHlo.unary main_v308 main_v310 (broadcastInDim S1x128 ![1] bcast_S128_S1x128_1 : (⟨S128, .f32⟩ : BufTy).Contents (Elt F) → (⟨S1x128, .f32⟩ : BufTy).Contents (Elt F)),
    StableHlo.unary main_v310 main_v311 (broadcastInDim S50000x128 ![0, 1] bcast_S1x128_S50000x128_0_1 : (⟨S1x128, .f32⟩ : BufTy).Contents (Elt F) → (⟨S50000x128, .f32⟩ : BufTy).Contents (Elt F)),
    StableHlo.binary main_v301 main_v311 main_v312 (subf : (⟨S50000x128, .f32⟩ : BufTy).Contents (Elt F) → (⟨S50000x128, .f32⟩ : BufTy).Contents (Elt F) → (⟨S50000x128, .f32⟩ : BufTy).Contents (Elt F)),
    StableHlo.nullary main_cst_48 (constant S_ .f32 0x3727C5AC#32),
    StableHlo.unary main_cst_48 main_v313 (broadcastInDim S128 ![] bcast_S_S128 : (⟨S_, .f32⟩ : BufTy).Contents (Elt F) → (⟨S128, .f32⟩ : BufTy).Contents (Elt F)),
    StableHlo.binary main_v309 main_v313 main_v314 (addf : (⟨S128, .f32⟩ : BufTy).Contents (Elt F) → (⟨S128, .f32⟩ : BufTy).Contents (Elt F) → (⟨S128, .f32⟩ : BufTy).Contents (Elt F)),
    StableHlo.unary main_v314 main_v315 (Host.rsqrt : (⟨S128, .f32⟩ : BufTy).Contents (Elt F) → (⟨S128, .f32⟩ : BufTy).Contents (Elt F)),
    StableHlo.unary main_v315 main_v316 (broadcastInDim S1x128 ![1] bcast_S128_S1x128_1 : (⟨S128, .f32⟩ : BufTy).Contents (Elt F) → (⟨S1x128, .f32⟩ : BufTy).Contents (Elt F)),
    StableHlo.unary main_v316 main_v317 (broadcastInDim S50000x128 ![0, 1] bcast_S1x128_S50000x128_0_1 : (⟨S1x128, .f32⟩ : BufTy).Contents (Elt F) → (⟨S50000x128, .f32⟩ : BufTy).Contents (Elt F)),
    StableHlo.binary main_v312 main_v317 main_v318 (mulf : (⟨S50000x128, .f32⟩ : BufTy).Contents (Elt F) → (⟨S50000x128, .f32⟩ : BufTy).Contents (Elt F) → (⟨S50000x128, .f32⟩ : BufTy).Contents (Elt F)),
    StableHlo.unary main_v303 main_v319 (broadcastInDim S1x128 ![1] bcast_S128_S1x128_1 : (⟨S128, .f32⟩ : BufTy).Contents (Elt F) → (⟨S1x128, .f32⟩ : BufTy).Contents (Elt F)),
    StableHlo.unary main_v319 main_v320 (broadcastInDim S50000x128 ![0, 1] bcast_S1x128_S50000x128_0_1 : (⟨S1x128, .f32⟩ : BufTy).Contents (Elt F) → (⟨S50000x128, .f32⟩ : BufTy).Contents (Elt F)),
    StableHlo.binary main_v318 main_v320 main_v321 (mulf : (⟨S50000x128, .f32⟩ : BufTy).Contents (Elt F) → (⟨S50000x128, .f32⟩ : BufTy).Contents (Elt F) → (⟨S50000x128, .f32⟩ : BufTy).Contents (Elt F)),
    StableHlo.unary main_v305 main_v322 (broadcastInDim S1x128 ![1] bcast_S128_S1x128_1 : (⟨S128, .f32⟩ : BufTy).Contents (Elt F) → (⟨S1x128, .f32⟩ : BufTy).Contents (Elt F)),
    StableHlo.unary main_v322 main_v323 (broadcastInDim S50000x128 ![0, 1] bcast_S1x128_S50000x128_0_1 : (⟨S1x128, .f32⟩ : BufTy).Contents (Elt F) → (⟨S50000x128, .f32⟩ : BufTy).Contents (Elt F)),
    StableHlo.binary main_v321 main_v323 main_v324 (addf : (⟨S50000x128, .f32⟩ : BufTy).Contents (Elt F) → (⟨S50000x128, .f32⟩ : BufTy).Contents (Elt F) → (⟨S50000x128, .f32⟩ : BufTy).Contents (Elt F)),
    StableHlo.unary main_arg3 main_v325 ((extractStridedSlice S1x128x128 ![6, 0, 0] · slices_S7x128x128_S1x128x128_6_0_0) : (⟨S7x128x128, .f32⟩ : BufTy).Contents (Elt F) → (⟨S1x128x128, .f32⟩ : BufTy).Contents (Elt F)),
    StableHlo.reshape main_v325 main_v326 rfl shapeCasts_S1x128x128_S128x128,
    StableHlo.unary main_arg4 main_v327 ((extractStridedSlice S1x128 ![6, 0] · slices_S7x128_S1x128_6_0) : (⟨S7x128, .f32⟩ : BufTy).Contents (Elt F) → (⟨S1x128, .f32⟩ : BufTy).Contents (Elt F)),
    StableHlo.reshape main_v327 main_v328 rfl shapeCasts_S1x128_S128,
    StableHlo.unary main_arg5 main_v329 ((extractStridedSlice S1x128x128 ![6, 0, 0] · slices_S7x128x128_S1x128x128_6_0_0) : (⟨S7x128x128, .f32⟩ : BufTy).Contents (Elt F) → (⟨S1x128x128, .f32⟩ : BufTy).Contents (Elt F)),
    StableHlo.reshape main_v329 main_v330 rfl shapeCasts_S1x128x128_S128x128,
    StableHlo.unary main_arg6 main_v331 ((extractStridedSlice S1x128 ![6, 0] · slices_S7x128_S1x128_6_0) : (⟨S7x128, .f32⟩ : BufTy).Contents (Elt F) → (⟨S1x128, .f32⟩ : BufTy).Contents (Elt F)),
    StableHlo.reshape main_v331 main_v332 rfl shapeCasts_S1x128_S128,
    StableHlo.nullary main_c_49 (constantI S_ 32 0#32),
    StableHlo.unary main_c_49 main_v333 (broadcastInDim S600000 ![] bcast_S_S600000 : (⟨S_, .i32⟩ : BufTy).Contents (Elt F) → (⟨S600000, .i32⟩ : BufTy).Contents (Elt F)),
    StableHlo.binary main_v1 main_v333 main_v334 (cmpi .slt : (⟨S600000, .i32⟩ : BufTy).Contents (Elt F) → (⟨S600000, .i32⟩ : BufTy).Contents (Elt F) → (⟨S600000, .i1⟩ : BufTy).Contents (Elt F)),
    StableHlo.nullary main_c_50 (constantI S_ 32 50000#32),
    StableHlo.unary main_c_50 main_v335 (broadcastInDim S600000 ![] bcast_S_S600000 : (⟨S_, .i32⟩ : BufTy).Contents (Elt F) → (⟨S600000, .i32⟩ : BufTy).Contents (Elt F)),
    StableHlo.binary main_v1 main_v335 main_v336 (addi : (⟨S600000, .i32⟩ : BufTy).Contents (Elt F) → (⟨S600000, .i32⟩ : BufTy).Contents (Elt F) → (⟨S600000, .i32⟩ : BufTy).Contents (Elt F)),
    StableHlo.ternary main_v334 main_v336 main_v1 main_v337 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v337 main_v338 (broadcastInDim S600000x1 ![0] bcast_S600000_S600000x1_0 : (⟨S600000, .i32⟩ : BufTy).Contents (Elt F) → (⟨S600000x1, .i32⟩ : BufTy).Contents (Elt F)),
    StableHlo.binary main_v165 main_v338 main_v339 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_51 (constant S_ .f32 0x00000000#32),
    StableHlo.unary main_cst_51 main_v340 (broadcastInDim S50000x128 ![] bcast_S_S50000x128 : (⟨S_, .f32⟩ : BufTy).Contents (Elt F) → (⟨S50000x128, .f32⟩ : BufTy).Contents (Elt F)),
    StableHlo.unary main_v3 main_v341 (broadcastInDim S600000x1 ![0] bcast_S600000_S600000x1_0 : (⟨S600000, .i32⟩ : BufTy).Contents (Elt F) → (⟨S600000x1, .i32⟩ : BufTy).Contents (Elt F)),
    StableHlo.ternary main_v340 main_v341 main_v339 main_v342 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v165 main_v342 main_v343 (addf : (⟨S50000x128, .f32⟩ : BufTy).Contents (Elt F) → (⟨S50000x128, .f32⟩ : BufTy).Contents (Elt F) → (⟨S50000x128, .f32⟩ : BufTy).Contents (Elt F)),
    StableHlo.binary main_v343 main_v326 main_v344 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v328 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S50000x128 ![0, 1] bcast_S1x128_S50000x128_0_1 : (⟨S1x128, .f32⟩ : BufTy).Contents (Elt F) → (⟨S50000x128, .f32⟩ : BufTy).Contents (Elt F)),
    StableHlo.binary main_v344 main_v346 main_v347 (addf : (⟨S50000x128, .f32⟩ : BufTy).Contents (Elt F) → (⟨S50000x128, .f32⟩ : BufTy).Contents (Elt F) → (⟨S50000x128, .f32⟩ : BufTy).Contents (Elt F)),
    StableHlo.nullary main_cst_52 (constant S_ .f32 0x00000000#32),
    StableHlo.unary main_cst_52 main_v348 (broadcastInDim S50000x128 ![] bcast_S_S50000x128 : (⟨S_, .f32⟩ : BufTy).Contents (Elt F) → (⟨S50000x128, .f32⟩ : BufTy).Contents (Elt F)),
    StableHlo.binary main_v347 main_v348 main_v349 (maximumf : (⟨S50000x128, .f32⟩ : BufTy).Contents (Elt F) → (⟨S50000x128, .f32⟩ : BufTy).Contents (Elt F) → (⟨S50000x128, .f32⟩ : BufTy).Contents (Elt F)),
    StableHlo.binary main_v349 main_v330 main_v350 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v332 main_v351 (broadcastInDim S1x128 ![1] bcast_S128_S1x128_1 : (⟨S128, .f32⟩ : BufTy).Contents (Elt F) → (⟨S1x128, .f32⟩ : BufTy).Contents (Elt F)),
    StableHlo.unary main_v351 main_v352 (broadcastInDim S50000x128 ![0, 1] bcast_S1x128_S50000x128_0_1 : (⟨S1x128, .f32⟩ : BufTy).Contents (Elt F) → (⟨S50000x128, .f32⟩ : BufTy).Contents (Elt F)),
    StableHlo.binary main_v350 main_v352 main_v353 (addf : (⟨S50000x128, .f32⟩ : BufTy).Contents (Elt F) → (⟨S50000x128, .f32⟩ : BufTy).Contents (Elt F) → (⟨S50000x128, .f32⟩ : BufTy).Contents (Elt F)),
    StableHlo.unary main_v353 main_v354 (Host.tanh : (⟨S50000x128, .f32⟩ : BufTy).Contents (Elt F) → (⟨S50000x128, .f32⟩ : BufTy).Contents (Elt F)),
    StableHlo.unary main_arg7 main_v355 ((extractStridedSlice S1x128 ![6, 0] · slices_S7x128_S1x128_6_0) : (⟨S7x128, .f32⟩ : BufTy).Contents (Elt F) → (⟨S1x128, .f32⟩ : BufTy).Contents (Elt F)),
    StableHlo.reshape main_v355 main_v356 rfl shapeCasts_S1x128_S128,
    StableHlo.unary main_arg8 main_v357 ((extractStridedSlice S1x128 ![6, 0] · slices_S7x128_S1x128_6_0) : (⟨S7x128, .f32⟩ : BufTy).Contents (Elt F) → (⟨S1x128, .f32⟩ : BufTy).Contents (Elt F)),
    StableHlo.reshape main_v357 main_v358 rfl shapeCasts_S1x128_S128,
    StableHlo.nullary main_cst_53 (constant S_ .f32 0x00000000#32),
    StableHlo.binary main_v354 main_cst_53 main_v359 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_54 (constant S_ .f32 0x47435000#32),
    StableHlo.unary main_cst_54 main_v360 (broadcastInDim S128 ![] bcast_S_S128 : (⟨S_, .f32⟩ : BufTy).Contents (Elt F) → (⟨S128, .f32⟩ : BufTy).Contents (Elt F)),
    StableHlo.binary main_v359 main_v360 main_v361 (Host.divf : (⟨S128, .f32⟩ : BufTy).Contents (Elt F) → (⟨S128, .f32⟩ : BufTy).Contents (Elt F) → (⟨S128, .f32⟩ : BufTy).Contents (Elt F)),
    StableHlo.nullary main_c_55 (constantI S_ 32 0#32) ]

/-- The references `ops6`'s operations write, in order. -/
abbrev ops6_W : List (Ref sig .tc) := [main_v310, main_v311, main_v312, main_cst_48, main_v313, main_v314, main_v315, main_v316, main_v317, main_v318, main_v319, main_v320, main_v321, main_v322, main_v323, main_v324, main_v325, main_v326, main_v327, main_v328, main_v329, main_v330, main_v331, main_v332, main_c_49, main_v333, main_v334, main_c_50, main_v335, main_v336, main_v337, main_v338, main_v339, main_cst_51, main_v340, main_v341, main_v342, main_v343, main_v344, main_v345, main_v346, main_v347, main_cst_52, main_v348, main_v349, main_v350, main_v351, main_v352, main_v353, main_v354, main_v355, main_v356, main_v357, main_v358, main_cst_53, main_v359, main_cst_54, main_v360, main_v361, main_c_55]

set_option maxRecDepth 8192 in
theorem ops6_sub : (ops6 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., reshape_bufs_sub .., nullary_bufs_sub .., binary_bufs_sub .., nullary_bufs_sub .., unary_bufs_sub .., binary_bufs_sub .., nullary_bufs_sub ..⟩

set_option maxRecDepth 8192 in
theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations 547 … 584 of 584: window `main_part7`, its calls written out. -/
abbrev ops7 : List (HloOp τ sig (Elt F)) :=
  [ StableHlo.TRef.nullary main_call6.cst (constant S_ .f32 0x00000000#32),
    StableHlo.TRef.binary (.of main_v354 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v354 : StableHlo.TRef sig ⟨S50000x128, .f32⟩) main_call6.v4 main_call6.v5 subf,
    StableHlo.TRef.binary main_call6.v5 main_call6.v5 main_call6.v6 mulf,
    StableHlo.TRef.unary (.of main_c_55 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v361 main_v363 (broadcastInDim S1x128 ![1] bcast_S128_S1x128_1 : (⟨S128, .f32⟩ : BufTy).Contents (Elt F) → (⟨S1x128, .f32⟩ : BufTy).Contents (Elt F)),
    StableHlo.unary main_v363 main_v364 (broadcastInDim S50000x128 ![0, 1] bcast_S1x128_S50000x128_0_1 : (⟨S1x128, .f32⟩ : BufTy).Contents (Elt F) → (⟨S50000x128, .f32⟩ : BufTy).Contents (Elt F)),
    StableHlo.binary main_v354 main_v364 main_v365 (subf : (⟨S50000x128, .f32⟩ : BufTy).Contents (Elt F) → (⟨S50000x128, .f32⟩ : BufTy).Contents (Elt F) → (⟨S50000x128, .f32⟩ : BufTy).Contents (Elt F)),
    StableHlo.nullary main_cst_56 (constant S_ .f32 0x3727C5AC#32),
    StableHlo.unary main_cst_56 main_v366 (broadcastInDim S128 ![] bcast_S_S128 : (⟨S_, .f32⟩ : BufTy).Contents (Elt F) → (⟨S128, .f32⟩ : BufTy).Contents (Elt F)),
    StableHlo.binary main_v362 main_v366 main_v367 (addf : (⟨S128, .f32⟩ : BufTy).Contents (Elt F) → (⟨S128, .f32⟩ : BufTy).Contents (Elt F) → (⟨S128, .f32⟩ : BufTy).Contents (Elt F)),
    StableHlo.unary main_v367 main_v368 (Host.rsqrt : (⟨S128, .f32⟩ : BufTy).Contents (Elt F) → (⟨S128, .f32⟩ : BufTy).Contents (Elt F)),
    StableHlo.unary main_v368 main_v369 (broadcastInDim S1x128 ![1] bcast_S128_S1x128_1 : (⟨S128, .f32⟩ : BufTy).Contents (Elt F) → (⟨S1x128, .f32⟩ : BufTy).Contents (Elt F)),
    StableHlo.unary main_v369 main_v370 (broadcastInDim S50000x128 ![0, 1] bcast_S1x128_S50000x128_0_1 : (⟨S1x128, .f32⟩ : BufTy).Contents (Elt F) → (⟨S50000x128, .f32⟩ : BufTy).Contents (Elt F)),
    StableHlo.binary main_v365 main_v370 main_v371 (mulf : (⟨S50000x128, .f32⟩ : BufTy).Contents (Elt F) → (⟨S50000x128, .f32⟩ : BufTy).Contents (Elt F) → (⟨S50000x128, .f32⟩ : BufTy).Contents (Elt F)),
    StableHlo.unary main_v356 main_v372 (broadcastInDim S1x128 ![1] bcast_S128_S1x128_1 : (⟨S128, .f32⟩ : BufTy).Contents (Elt F) → (⟨S1x128, .f32⟩ : BufTy).Contents (Elt F)),
    StableHlo.unary main_v372 main_v373 (broadcastInDim S50000x128 ![0, 1] bcast_S1x128_S50000x128_0_1 : (⟨S1x128, .f32⟩ : BufTy).Contents (Elt F) → (⟨S50000x128, .f32⟩ : BufTy).Contents (Elt F)),
    StableHlo.binary main_v371 main_v373 main_v374 (mulf : (⟨S50000x128, .f32⟩ : BufTy).Contents (Elt F) → (⟨S50000x128, .f32⟩ : BufTy).Contents (Elt F) → (⟨S50000x128, .f32⟩ : BufTy).Contents (Elt F)),
    StableHlo.unary main_v358 main_v375 (broadcastInDim S1x128 ![1] bcast_S128_S1x128_1 : (⟨S128, .f32⟩ : BufTy).Contents (Elt F) → (⟨S1x128, .f32⟩ : BufTy).Contents (Elt F)),
    StableHlo.unary main_v375 main_v376 (broadcastInDim S50000x128 ![0, 1] bcast_S1x128_S50000x128_0_1 : (⟨S1x128, .f32⟩ : BufTy).Contents (Elt F) → (⟨S50000x128, .f32⟩ : BufTy).Contents (Elt F)),
    StableHlo.binary main_v374 main_v376 main_v377 (addf : (⟨S50000x128, .f32⟩ : BufTy).Contents (Elt F) → (⟨S50000x128, .f32⟩ : BufTy).Contents (Elt F) → (⟨S50000x128, .f32⟩ : BufTy).Contents (Elt F)) ]

/-- The references `ops7`'s operations write, in order. -/
abbrev ops7_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v362, main_v363, main_v364, main_v365, main_cst_56, main_v366, main_v367, main_v368, main_v369, main_v370, main_v371, main_v372, main_v373, main_v374, main_v375, main_v376, main_v377]

set_option maxRecDepth 8192 in
theorem ops7_sub : (ops7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem ops7_writes : (ops7 : List (HloOp τ sig (Elt F))).Forall fun op => op.writes ⊆ (ops7_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's 584 operations, in order, the outlined functions' operations in place of their calls. -/
abbrev ops : List (HloOp τ sig (Elt F)) :=
  ops0 ++ (ops1 ++ (ops2 ++ (ops3 ++ (ops4 ++ (ops5 ++ (ops6 ++ (ops7)))))))

end Cert.ReferenceIdeal.RefRun

end
-- ==== Proof.RefRun.lean ====
/- The idealized reference program's run, read back. Its @main is a straight line of host operations: the lists of
   the operation tables (one per printed window, the outlined functions' operations in place of their calls). Each window
   is the sequence of its list, @main the sequence of the concatenation; a straight line on a signature that scopes nothing
   runs to the end from any memory, and leaves every buffer at the fold of the operations' results over the launch
   contents. No operation writes an argument, so the arguments end as they began: the program's frame. -/
import proofs.«121838_j70282844831870_1_alg».proof.Proof.RefOps
import proofs.«121838_j70282844831870_1_alg».proof.Proof.Gen.Pre_finite_inputs
import proofs.«121838_j70282844831870_1_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the sequence of its operations

A window is a chain of binds of single operations; a call stands for the callee's own chain bound in front of the rest.
Sequencing is associative and a returned unit bound to a continuation is the continuation, both by computation on
the program's constructors, so each window equals the sequence of its flat list by unfolding. -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl
set_option maxRecDepth 8192 in
theorem main_part4_eq (c : Dev nD) : main_part4 (F := F) c = seq ops4 := rfl
set_option maxRecDepth 8192 in
theorem main_part5_eq (c : Dev nD) : main_part5 (F := F) c = seq ops5 := rfl
set_option maxRecDepth 8192 in
theorem main_part6_eq (c : Dev nD) : main_part6 (F := F) c = seq ops6 := rfl
set_option maxRecDepth 8192 in
theorem main_part7_eq (c : Dev nD) : main_part7 (F := F) c = seq ops7 := rfl

set_option maxRecDepth 8192 in
/-- @main runs its windows in order; the sequence of a concatenation is the sequences one after the other. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every buffer an operation of @main touches is a TensorCore reference: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]

/-- Every operation of @main determines its results. -/
theorem ops_fresh : ∀ op ∈ (ops : List (HloOp τ sig (Elt F))), op.fresh = ∅ := fun op h => by
  simp only [ops, List.mem_append] at h
  rcases h with h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h]

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What no operation writes is kept

The fold over a concatenation is the folds one after the other; through one window a reference outside the window's
written references keeps its contents. -/

theorem after_ops (V : Valuation τ sig (Elt F)) :
    after ops V = after ops7 (after ops6 (after ops5 (after ops4 (after ops3 (after ops2 (after ops1 (after ops0 V))))))) := by
  simp only [ops, after_append]

theorem keep0 (V : Valuation τ sig (Elt F)) (r : Ref sig .tc) (h : r ∉ ops0_W) :
    after ops0 V (Proc.devRef .tc r) = V (Proc.devRef .tc r) := after_of_writes_sub ops0 V ops0_writes h
theorem keep1 (V : Valuation τ sig (Elt F)) (r : Ref sig .tc) (h : r ∉ ops1_W) :
    after ops1 V (Proc.devRef .tc r) = V (Proc.devRef .tc r) := after_of_writes_sub ops1 V ops1_writes h
theorem keep2 (V : Valuation τ sig (Elt F)) (r : Ref sig .tc) (h : r ∉ ops2_W) :
    after ops2 V (Proc.devRef .tc r) = V (Proc.devRef .tc r) := after_of_writes_sub ops2 V ops2_writes h
theorem keep3 (V : Valuation τ sig (Elt F)) (r : Ref sig .tc) (h : r ∉ ops3_W) :
    after ops3 V (Proc.devRef .tc r) = V (Proc.devRef .tc r) := after_of_writes_sub ops3 V ops3_writes h
theorem keep4 (V : Valuation τ sig (Elt F)) (r : Ref sig .tc) (h : r ∉ ops4_W) :
    after ops4 V (Proc.devRef .tc r) = V (Proc.devRef .tc r) := after_of_writes_sub ops4 V ops4_writes h
theorem keep5 (V : Valuation τ sig (Elt F)) (r : Ref sig .tc) (h : r ∉ ops5_W) :
    after ops5 V (Proc.devRef .tc r) = V (Proc.devRef .tc r) := after_of_writes_sub ops5 V ops5_writes h
theorem keep6 (V : Valuation τ sig (Elt F)) (r : Ref sig .tc) (h : r ∉ ops6_W) :
    after ops6 V (Proc.devRef .tc r) = V (Proc.devRef .tc r) := after_of_writes_sub ops6 V ops6_writes h
theorem keep7 (V : Valuation τ sig (Elt F)) (r : Ref sig .tc) (h : r ∉ ops7_W) :
    after ops7 V (Proc.devRef .tc r) = V (Proc.devRef .tc r) := after_of_writes_sub ops7 V ops7_writes h

/-- A reference that no window writes holds after @main what it held before. -/
theorem kept (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) :
    after ops V (Proc.devRef .tc r) = V (Proc.devRef .tc r) := by
  rw [after_ops, keep7 _ r h7, keep6 _ r h6, keep5 _ r h5, keep4 _ r h4, keep3 _ r h3, keep2 _ r h2, keep1 _ r h1, keep0 _ r h0]

theorem arg0_eq (V : Valuation τ sig (Elt F)) : after ops V (main_arg0 : DevRef τ sig) = V (main_arg0 : DevRef τ sig) :=
  kept V main_arg0 (by decide) (by decide) (by decide) (by decide) (by decide) (by decide) (by decide) (by decide)
theorem arg1_eq (V : Valuation τ sig (Elt F)) : after ops V (main_arg1 : DevRef τ sig) = V (main_arg1 : DevRef τ sig) :=
  kept V main_arg1 (by decide) (by decide) (by decide) (by decide) (by decide) (by decide) (by decide) (by decide)
theorem arg2_eq (V : Valuation τ sig (Elt F)) : after ops V (main_arg2 : DevRef τ sig) = V (main_arg2 : DevRef τ sig) :=
  kept V main_arg2 (by decide) (by decide) (by decide) (by decide) (by decide) (by decide) (by decide) (by decide)
theorem arg3_eq (V : Valuation τ sig (Elt F)) : after ops V (main_arg3 : DevRef τ sig) = V (main_arg3 : DevRef τ sig) :=
  kept V main_arg3 (by decide) (by decide) (by decide) (by decide) (by decide) (by decide) (by decide) (by decide)
theorem arg4_eq (V : Valuation τ sig (Elt F)) : after ops V (main_arg4 : DevRef τ sig) = V (main_arg4 : DevRef τ sig) :=
  kept V main_arg4 (by decide) (by decide) (by decide) (by decide) (by decide) (by decide) (by decide) (by decide)
theorem arg5_eq (V : Valuation τ sig (Elt F)) : after ops V (main_arg5 : DevRef τ sig) = V (main_arg5 : DevRef τ sig) :=
  kept V main_arg5 (by decide) (by decide) (by decide) (by decide) (by decide) (by decide) (by decide) (by decide)
theorem arg6_eq (V : Valuation τ sig (Elt F)) : after ops V (main_arg6 : DevRef τ sig) = V (main_arg6 : DevRef τ sig) :=
  kept V main_arg6 (by decide) (by decide) (by decide) (by decide) (by decide) (by decide) (by decide) (by decide)
theorem arg7_eq (V : Valuation τ sig (Elt F)) : after ops V (main_arg7 : DevRef τ sig) = V (main_arg7 : DevRef τ sig) :=
  kept V main_arg7 (by decide) (by decide) (by decide) (by decide) (by decide) (by decide) (by decide) (by decide)
theorem arg8_eq (V : Valuation τ sig (Elt F)) : after ops V (main_arg8 : DevRef τ sig) = V (main_arg8 : DevRef τ sig) :=
  kept V main_arg8 (by decide) (by decide) (by decide) (by decide) (by decide) (by decide) (by decide) (by decide)

/-- The reference runs to the end from any memory and its nine argument arrays end unchanged (the precondition is not
    needed: a straight line of host operations cannot fault). -/
theorem frame_ri :
    Cert.frame_ReferenceIdeal (hReferenceIdeal := Cert.ReferenceIdeal.Gen.facts) (hPre_finite_inputs := Cert.Pre_finite_inputs.Gen.facts) :=
  fun m g _ =>
    (θ_run defs _ _).mono
      (fun _ h c => ⟨(h c main_arg0).trans (arg0_eq _),
        (h c main_arg1).trans (arg1_eq _),
        (h c main_arg2).trans (arg2_eq _),
        (h c main_arg3).trans (arg3_eq _),
        (h c main_arg4).trans (arg4_eq _),
        (h c main_arg5).trans (arg5_eq _),
        (h c main_arg6).trans (arg6_eq _),
        (h c main_arg7).trans (arg7_eq _),
        (h c main_arg8).trans (arg8_eq _)⟩)
      (run_main (F := Idealize.ShloMosaic.Ideal) m g)

end Cert.ReferenceIdeal.RefRun

end
-- ==== Proof.KerRun.lean ====
/-
  The idealized kernel's run with its four results NAMED. The program is fourteen kernel regions among stretches of host
  operations; the frame module folds the buffer contents through them: `W0` the launch memory, `W(2k+1)` after the
  k-th stretch of host operations, `W(2k+2)` after the k-th region (its arrays at what the region's write-backs leave).
  Every weakly fair execution terminates with every unscoped buffer at the last boundary's contents `W28`; read at the
  four result buffers (the outputs of the last four normalisation regions) and at the nine arguments this is the run
  the value claim needs: each result is `W28` at its buffer, each argument ends as launched.
-/
import proofs.«121838_j70282844831870_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; each of the four result buffers ends at
    the last boundary's contents, and the nine argument arrays end as launched. -/
theorem run_results : θ_run defs (onTc (τ := τ) (main (F := F))) ⟨m, fun _ => 0, ρ⟩ (fun r => ∀ c : Dev nD,
      r.2.mem ((c.tc : Thread nD τ).loc main_v171) = W28 m ρ c (Proc.devRef .tc main_v171)
      ∧ r.2.mem ((c.tc : Thread nD τ).loc main_v203) = W28 m ρ c (Proc.devRef .tc main_v203)
      ∧ r.2.mem ((c.tc : Thread nD τ).loc main_v235) = W28 m ρ c (Proc.devRef .tc main_v235)
      ∧ r.2.mem ((c.tc : Thread nD τ).loc main_v267) = W28 m ρ c (Proc.devRef .tc main_v267)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v171 (by decide)),
       h c _ (mem_uc main_v203 (by decide)),
       h c _ (mem_uc main_v235 (by decide)),
       h c _ (mem_uc main_v267 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c)⟩)

end Cert.KernelIdeal.KerRun

end
-- ==== Proof.KerHost.lean ====
/-
  The host operations of the kernel's program between its regions, as pure functions, and what they hold at an index.

  Before a layer's first region the program slices the layer's weights and biases out of the stacked arguments
  (`W[ℓ]`: one 128 × 128 slab of a 7 × 128 × 128 array; `b[ℓ]`: one row of a 7 × 128 array, kept as a vector of 128 or as
  a 1 × 128 row) and forms the neighbourhood sums (a gather of the source rows scattered-and-added into the target rows).
  Between a layer's two regions it turns the column sums `s` and the column sums of squares `q` into the affine
  normalisation's scale `γ · (q/N − (s/N)² + ε)^(−1/2)` and shift `β − (s/N) · scale`, `N = 50000`.
-/
import proofs.«121838_j70282844831870_1_alg».proof.Proof.Gen.KernelIdeal
import Idealize.ShloMosaic.PureOps.Ideal.Laws
import Idealize.ShloMosaic.Lib.Pipeline.Value
import Idealize.ShloMosaic.Lib.ValueIdx

set_option maxRecDepth 16384

noncomputable section

namespace Cert.KernelIdeal.KerHost

open Idealize.ShloMosaic Idealize.ShloMosaic.ValueIdx
open Cert.KernelIdeal Cert.KernelIdeal.Gen

/-- One 128 × 128 slab of the stacked weights. -/
def matOf (off : Fin 3 → Nat) (h : S7x128x128.Slices off S1x128x128) (w : FVec Ideal S7x128x128 .f32) :
    FVec Ideal S128x128 .f32 :=
  fun i => shapeCast S128x128 (extractStridedSlice S1x128x128 off w h) shapeCasts_S1x128x128_S128x128 i

/-- One row of the stacked vectors, as a vector of 128. -/
def vecOf (off : Fin 2 → Nat) (h : S7x128.Slices off S1x128) (v : FVec Ideal S7x128 .f32) : FVec Ideal S128 .f32 :=
  fun i => shapeCast S128 (extractStridedSlice S1x128 off v h) shapeCasts_S1x128_S128 i

/-- The same row as a 1 × 128 array. -/
def rowOf (off : Fin 2 → Nat) (h : S7x128.Slices off S1x128) (v : FVec Ideal S7x128 .f32) : FVec Ideal S1x128 .f32 :=
  fun i => shapeCast S1x128 (vecOf off h v) shapeCasts_S128_S1x128 i

/-- The edges' source nodes and target nodes: the two rows of the edge list, as vectors of 600000. -/
def srcOf (ei : IVec S2x600000 32) : IVec S600000 32 :=
  fun i => shapeCast S600000 (extractStridedSlice S1x600000 ![0, 0] ei slices_S2x600000_S1x600000_0_0) shapeCasts_S1x600000_S600000 i

def dstOf (ei : IVec S2x600000 32) : IVec S600000 32 :=
  fun i => shapeCast S600000 (extractStridedSlice S1x600000 ![1, 0] ei slices_S2x600000_S1x600000_1_0) shapeCasts_S1x600000_S600000 i

/-- The neighbourhood sums: row `src e` of `x` (a negative index wrapped by 50000) added into row `dst e`, over the edges. -/
def aggOf (x : FVec Ideal S50000x128 .f32) (src dst : IVec S600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A 1 × 128 array of column sums divided by the number of rows, as a vector of 128. -/
def meanK (s : FVec Ideal S1x128 .f32) : FVec Ideal S128 .f32 :=
  Host.divf (fun i => shapeCast S128 s shapeCasts_S1x128_S128 i)
    (broadcastInDim S128 ![] bcast_S_S128 (constant S_ .f32 0x47435000#32))

/-- The affine normalisation's scale, as a vector. -/
def scaleVec (s q : FVec Ideal S1x128 .f32) (gam : FVec Ideal S128 .f32) : FVec Ideal S128 .f32 :=
  mulf gam (Host.rsqrt (addf (subf (meanK q) (mulf (meanK s) (meanK s)))
    (broadcastInDim S128 ![] bcast_S_S128 (constant S_ .f32 0x3727C5AC#32))))

/-- The scale and the shift as the 1 × 128 arrays the normalisation region reads. -/
def scaleK (s q : FVec Ideal S1x128 .f32) (gam : FVec Ideal S128 .f32) : FVec Ideal S1x128 .f32 :=
  fun i => shapeCast S1x128 (scaleVec s q gam) shapeCasts_S128_S1x128 i

def shiftK (s q : FVec Ideal S1x128 .f32) (gam bet : FVec Ideal S128 .f32) : FVec Ideal S1x128 .f32 :=
  fun i => shapeCast S1x128 (subf bet (mulf (meanK s) (scaleVec s q gam))) shapeCasts_S128_S1x128 i

/-! ## Read at an index -/

/-- The float pattern of `50000.0` denotes the real 50000. -/
theorem ofBits_rows : Ideal.ofBits .f32 0x47435000#32 = ((50000 : ℝ) : EReal) := by
  simp [Ideal.ofBits, Ideal.ieee, -EReal.coe_mul]; norm_num

/-- A vector of 128 made a 1 × 128 row, read at column `q`. -/
theorem row_apply {α : Type} (v : S128.Idx → α) (u : Fin 1) (q : Fin 128) :
    shapeCast S1x128 v shapeCasts_S128_S1x128 (ix2 u q) = v (ix1 q) :=
  shapeCast_apply v shapeCasts_S128_S1x128 (ix2 u q) (ix1 q) (by
    rw [Shape.rowMajor_val_one, Shape.rowMajor_val_two]; have := u.isLt; show q.val = u.val * 128 + q.val; omega)

/-- A 1 × 128 row made a vector of 128, read at `q`. -/
theorem vec_apply {α : Type} (v : S1x128.Idx → α) (q : Fin 128) :
    shapeCast S128 v shapeCasts_S1x128_S128 (ix1 q) = v (ix2 (0 : Fin 1) q) :=
  shapeCast_apply v shapeCasts_S1x128_S128 (ix1 q) (ix2 (0 : Fin 1) q) (by
    rw [Shape.rowMajor_val_one, Shape.rowMajor_val_two]; show (0 : Nat) * 128 + q.val = q.val; omega)

/-- The column mean at `q`. -/
theorem meanK_apply (s : FVec Ideal S1x128 .f32) (q : Fin 128) :
    meanK s (ix1 q) = Ideal.div (s (ix2 (0 : Fin 1) q)) ((50000 : ℝ) : EReal) := by
  unfold meanK
  show Ideal.div (shapeCast S128 s shapeCasts_S1x128_S128 (ix1 q)) (Ideal.ofBits .f32 0x47435000#32) = _
  rw [vec_apply, ofBits_rows]

/-- The scale at column `q`. -/
theorem scaleVec_apply (s q' : FVec Ideal S1x128 .f32) (gam : FVec Ideal S128 .f32) (q : Fin 128) :
    scaleVec s q' gam (ix1 q) = gam (ix1 q) * Ideal.rsqrt
      (Ideal.div (q' (ix2 (0 : Fin 1) q)) ((50000 : ℝ) : EReal)
        - Ideal.div (s (ix2 (0 : Fin 1) q)) ((50000 : ℝ) : EReal) * Ideal.div (s (ix2 (0 : Fin 1) q)) ((50000 : ℝ) : EReal)
        + Ideal.ofBits .f32 0x3727C5AC#32) := by
  unfold scaleVec
  show gam (ix1 q) * Ideal.rsqrt ((meanK q' (ix1 q) - meanK s (ix1 q) * meanK s (ix1 q)) + Ideal.ofBits .f32 0x3727C5AC#32) = _
  rw [meanK_apply, meanK_apply]

theorem scaleK_apply (s q' : FVec Ideal S1x128 .f32) (gam : FVec Ideal S128 .f32) (u : Fin 1) (q : Fin 128) :
    scaleK s q' gam (ix2 u q) = scaleVec s q' gam (ix1 q) := by
  unfold scaleK; exact row_apply _ u q

theorem shiftK_apply (s q' : FVec Ideal S1x128 .f32) (gam bet : FVec Ideal S128 .f32) (u : Fin 1) (q : Fin 128) :
    shiftK s q' gam bet (ix2 u q)
      = bet (ix1 q) - Ideal.div (s (ix2 (0 : Fin 1) q)) ((50000 : ℝ) : EReal) * scaleVec s q' gam (ix1 q) := by
  unfold shiftK
  rw [row_apply]
  show bet (ix1 q) - meanK s (ix1 q) * scaleVec s q' gam (ix1 q) = _
  rw [meanK_apply]

end Cert.KernelIdeal.KerHost

end
-- ==== Proof.KerStretch0.lean ====
/-
  Layer 0: what its two stretches of host operations leave in the buffers its two regions read, from any contents
  `W` at the stretch's start. The first stretch slices the layer's weights, biases, `γ` and `β` out of the stacked
  arguments and forms the neighbourhood sums of the layer's input; the second turns the column sums and the column sums of squares into the
  normalisation's scale and shift and leaves the activations in place.
-/
import proofs.«121838_j70282844831870_1_alg».proof.Proof.Gen.KernelIdeal.Frame
import proofs.«121838_j70282844831870_1_alg».proof.Proof.KerHost
import Idealize.ShloMosaic.Lib.StableHlo.Run

set_option maxRecDepth 16384
set_option maxHeartbeats 4000000

noncomputable section

namespace Cert.KernelIdeal.Stretch0

open Idealize.ShloMosaic Idealize.ShloMosaic.TcCoe Idealize.SL.Sem Idealize.ShloMosaic.StableHlo
open Cert.KernelIdeal Cert.KernelIdeal.Gen Cert.KernelIdeal.KerHost

variable (W : Valuation τ sig (Elt Ideal))

theorem g_src : after (hostOps0 (F := Ideal)) W (Proc.devRef .tc main_v1) = srcOf (W (Proc.devRef .tc main_arg1)) := by
  after_results_simp; rfl

theorem g_dst : after (hostOps0 (F := Ideal)) W (Proc.devRef .tc main_v3) = dstOf (W (Proc.devRef .tc main_arg1)) := by
  after_results_simp; rfl

theorem g_agg : after (hostOps0 (F := Ideal)) W (Proc.devRef .tc main_v25)
    = aggOf (W (Proc.devRef .tc main_arg0)) (srcOf (W (Proc.devRef .tc main_arg1))) (dstOf (W (Proc.devRef .tc main_arg1))) := by
  after_results_simp; rfl

theorem g_x : after (hostOps0 (F := Ideal)) W (Proc.devRef .tc main_arg0) = W (Proc.devRef .tc main_arg0) := by
  after_results_simp

theorem g_w1 : after (hostOps0 (F := Ideal)) W (Proc.devRef .tc main_v5)
    = matOf ![0, 0, 0] slices_S7x128x128_S1x128x128_0_0_0 (W (Proc.devRef .tc main_arg3)) := by
  after_results_simp; rfl

theorem g_b1 : after (hostOps0 (F := Ideal)) W (Proc.devRef .tc main_v26)
    = rowOf ![0, 0] slices_S7x128_S1x128_0_0 (W (Proc.devRef .tc main_arg4)) := by
  after_results_simp; rfl

theorem g_w2 : after (hostOps0 (F := Ideal)) W (Proc.devRef .tc main_v9)
    = matOf ![0, 0, 0] slices_S7x128x128_S1x128x128_0_0_0 (W (Proc.devRef .tc main_arg5)) := by
  after_results_simp; rfl

theorem g_b2 : after (hostOps0 (F := Ideal)) W (Proc.devRef .tc main_v27)
    = rowOf ![0, 0] slices_S7x128_S1x128_0_0 (W (Proc.devRef .tc main_arg6)) := by
  after_results_simp; rfl

theorem g_gam : after (hostOps0 (F := Ideal)) W (Proc.devRef .tc main_v13)
    = vecOf ![0, 0] slices_S7x128_S1x128_0_0 (W (Proc.devRef .tc main_arg7)) := by
  after_results_simp; rfl

theorem g_bet : after (hostOps0 (F := Ideal)) W (Proc.devRef .tc main_v15)
    = vecOf ![0, 0] slices_S7x128_S1x128_0_0 (W (Proc.devRef .tc main_arg8)) := by
  after_results_simp; rfl

theorem b_scale : after (hostOps1 (F := Ideal)) W (Proc.devRef .tc main_v43)
    = scaleK (W (Proc.devRef .tc main_v28_1)) (W (Proc.devRef .tc main_v28_2)) (W (Proc.devRef .tc main_v13)) := by
  after_results_simp; rfl

theorem b_shift : after (hostOps1 (F := Ideal)) W (Proc.devRef .tc main_v44)
    = shiftK (W (Proc.devRef .tc main_v28_1)) (W (Proc.devRef .tc main_v28_2)) (W (Proc.devRef .tc main_v13)) (W (Proc.devRef .tc main_v15)) := by
  after_results_simp; rfl

theorem b_h : after (hostOps1 (F := Ideal)) W (Proc.devRef .tc main_v28_0) = W (Proc.devRef .tc main_v28_0) := by
  after_results_simp

end Cert.KernelIdeal.Stretch0

end
-- ==== Proof.GinBody.lean ====
/-
  One graph-isomorphism layer's body, read at an index on the extended reals.

  The body takes a block of 5000 node rows x and of their aggregated neighbour rows agg, and the layer's two weight
  matrices and two bias rows. It forms h = x + agg, the first linear map dot(h, W1) + b1 (the product accumulated into
  zero, contracting h's feature axis with W1's row axis), clamps it below at zero, applies the second linear map
  dot(·, W2) + b2, and the activation. Format changes are the identity on extended reals. So the stored activation at
  (r, q) depends on row r of x and agg only: it is the activation of `pre2` of those two rows at q. Beside it the body
  adds the block's column sums of the activation, and of its square, into two running rows, which the grid's first
  point sets to zero.

  This file has the operations read at one index (a product into zero as a sum over the contracted coordinate, a sum
  over the rows as a sum over the row coordinate, a vector viewed as one row, a row spread over all rows), the
  function `pre2`, and each value the first layer's body stores read at an index.
-/
import proofs.«121838_j70282844831870_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Gin

open Idealize.ShloMosaic Idealize.ShloMosaic.ValueIdx Cert.KernelIdeal Cert.KernelIdeal.Gen

/-- A 5000×128 by 128×128 product accumulated into zero, read at (r, q): the sum over the contracted coordinate l of
    the products of the entries (r, l) and (l, q). -/
theorem matmul_apply {φ₁ φ₂ : FTy} (A : FVec Ideal S5000x128 φ₁) (B : FVec Ideal S128x128 φ₂) (r : Fin 5000) (q : Fin 128) :
    matmul dot_S5000x128_S128x128_S5000x128_1_0_0_1_n_n none A B (constant (F := Ideal) S5000x128 .f32 0x00000000#32) (ix2 r q)
      = ∑ l : Fin 128, A (ix2 r l) * B (ix2 l q) := by
  show FloatOps.matmul _ none A B _ (ix2 r q) = _
  rw [Ideal.matmul_constant_zero_apply,
    ← Equiv.sum_comp (contrEquiv1 dot_S5000x128_S128x128_S5000x128_1_0_0_1_n_n 128 rfl rfl).symm]
  refine Finset.sum_congr rfl fun l _ => ?_
  have c2 := contrEquiv1_symm_val dot_S5000x128_S128x128_S5000x128_1_0_0_1_n_n 128 rfl rfl l
  have l2 : dot_S5000x128_S128x128_S5000x128_1_0_0_1_n_n.lhsIdx (ix2 r q)
      ((contrEquiv1 dot_S5000x128_S128x128_S5000x128_1_0_0_1_n_n 128 rfl rfl).symm l) = ix2 r l := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 r q)
      ((contrEquiv1 dot_S5000x128_S128x128_S5000x128_1_0_0_1_n_n 128 rfl rfl).symm l) = ix2 l q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The index a sum over the rows visits at column q and row r is (r, q). -/
theorem lift_rows (h : Shape.Reduces S5000x128 [0] S128) (q : Fin 128) (r : Fin 5000) :
    h.lift (ix1 q) r = ix2 r q := by
  funext ax; apply Fin.ext
  match ax with
  | ⟨0, _⟩ => rfl
  | ⟨1, _⟩ => rfl

/-- The sum over the rows, from zero, read at column q: the sum of the column's entries. -/
theorem colSum_apply (src : FVec Ideal S5000x128 .f32) (h : Shape.Reduces S5000x128 [0] S128)
    (hφ : FKind.Formats .f32) (hacc : (0x00000000#32 : BitVec 32) = 0x00000000#32) (q : Fin 128) :
    multiReduction .add [0] S128 src 0x00000000#32 h hφ hacc (ix1 q) = ∑ r : Fin 5000, src (ix2 r q) := by
  refine (Ideal.multiReduction_add_single src 0x00000000#32 h hφ hacc (ix1 q)).trans ?_
  exact Finset.sum_congr rfl fun r _ => congrArg src (lift_rows h q r)

/-- A vector of 128 entries viewed as a 1×128 row reads, at (u, q), the vector's entry q. -/
theorem cast_row_apply {α : Type} (v : S128.Idx → α) (h : S128.ShapeCasts S1x128) (u : Fin 1) (q : Fin 128) :
    shapeCast S1x128 v h (ix2 u q) = v (ix1 q) :=
  shapeCast_apply v h _ _ (by
    have hu : u.val = 0 := by omega
    rw [Shape.rowMajor_val_two, Shape.rowMajor_val_one]
    show q.val = u.val * 128 + q.val
    rw [hu]; omega)

/-- A 1×128 row spread over 5000 rows reads, at (r, q), the row's entry q. -/
theorem bcast_row_apply {α : Type} (v : S1x128.Idx → α) (h : S1x128.Broadcasts S5000x128) (r : Fin 5000) (q : Fin 128) :
    broadcastTo S5000x128 v h (ix2 r q) = v (ix2 (0 : Fin 1) q) := by
  refine broadcastTo_apply v h (ix2 r q) (ix2 (0 : Fin 1) q) fun ax => ?_
  match ax with
  | ⟨0, _⟩ => rfl
  | ⟨1, _⟩ => rfl

/-- The pre-activation of the layer's second linear map at output feature q, from one node's feature row xr and its
    aggregated neighbour row ar: the first linear map of xr + ar plus its bias, clamped below at zero, through the
    second linear map plus its bias. -/
def pre2 (xr ar : Fin 128 → EReal) (W1 : S128x128.Idx → EReal) (b1 : S1x128.Idx → EReal)
    (W2 : S128x128.Idx → EReal) (b2 : S1x128.Idx → EReal) (q : Fin 128) : EReal :=
  (∑ k : Fin 128, max ((∑ j : Fin 128, (xr j + ar j) * W1 (ix2 j k)) + b1 (ix2 (0 : Fin 1) k)) 0 * W2 (ix2 k q))
    + b2 (ix2 (0 : Fin 1) q)

/-- The zero word is the real number zero. -/
theorem zero_word : (FloatOps.ofBits FTy.f32 0x00000000#32 : Ideal .f32) = 0 := Ideal.ofBits_zero_f32

/-- The block the body stores as the activation, at row r and feature q: the clamped pre-activation of the block's row r. -/
theorem k0_pay5_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k0_pay5 (F := Ideal) x0 x1 x2 x3 x4 x5 (ix2 r q)
      = max (pre2 (fun j => x0 (ix2 r j)) (fun j => x1 (ix2 r j)) x2 x3 x4 x5 q) 0 := by
  unfold k0_pay5 pre2
  simp only [shapeCast_self, maximumf_apply, addf_apply, truncf_apply, broadcast_apply, matmul_apply, bcast_row_apply]
  rw [show (Scalar.ofBits FTy.f32 0x00000000#32 : Ideal .f32) = 0 from Ideal.ofBits_zero_f32]

/-- The block's column sums, as a row: at feature q the sum over the block's rows of the activation. -/
theorem k0_pay7_apply (x0 x1 : Vec Ideal S5000x128 .f32) (x2 : Vec Ideal S128x128 .f32) (x3 : Vec Ideal S1x128 .f32)
    (x4 : Vec Ideal S128x128 .f32) (x5 : Vec Ideal S1x128 .f32) (u : Fin 1) (q : Fin 128) :
    k0_pay7 (F := Ideal) x0 x1 x2 x3 x4 x5 (ix2 u q) = ∑ r : Fin 5000, k0_pay5 (F := Ideal) x0 x1 x2 x3 x4 x5 (ix2 r q) := by
  unfold k0_pay7
  exact (cast_row_apply _ _ u q).trans (colSum_apply _ _ _ _ q)

/-- The running sum of squares after a block: what was there plus the block's column sums of squares. -/
theorem k0_pay2_apply (a : FVec Ideal S5000x128 .f32) (s : Vec Ideal S1x128 .f32) (u : Fin 1) (q : Fin 128) :
    k0_pay2 (F := Ideal) a s (ix2 u q) = s (ix2 u q) + ∑ r : Fin 5000, a (ix2 r q) * a (ix2 r q) := by
  unfold k0_pay2
  rw [shapeCast_self]
  exact congrArg (s (ix2 u q) + ·) ((cast_row_apply _ _ u q).trans (colSum_apply _ _ _ _ q))

/-- The running sum after a block: what was there plus the block's column sums. -/
theorem k0_pay1_apply (s d : FVec Ideal S1x128 .f32) (j : S1x128.Idx) : k0_pay1 (F := Ideal) s d j = s j + d j := rfl

/-- The first point's reset stores zero (running sum). -/
theorem k0_pay3_apply (j : S1x128.Idx) : k0_pay3 (F := Ideal) j = 0 := Ideal.ofBits_zero_f32
/-- The first point's reset stores zero (running sum of squares). -/
theorem k0_pay4_apply (j : S1x128.Idx) : k0_pay4 (F := Ideal) j = 0 := Ideal.ofBits_zero_f32
/-- The running sum is read back unchanged. -/
theorem k0_pay6_eq (s : Vec Ideal S1x128 .f32) : k0_pay6 (F := Ideal) s = s := shapeCast_self _ _

end Cert.KernelIdeal.Gin

end
-- ==== Proof.GinPieces0.lean ====
/-
  What each control case of layer 1's first kernel leaves in its three output staging buffers, as the body's stored
  values of the blocks it loaded.

  At the grid's first point (case A) the two running rows are first set to zero and then read back; at every later
  point (case B) they are read as the point before left them. In both cases the activation buffer is written once, by
  the activation of the loaded blocks, and each running row once more, by what it held plus the block's column sums
  (of the activation, and of its square). Every store covers its whole buffer, so the last store to a buffer is what
  the buffer holds; a load of a buffer after a covering store reads that store's value.
-/
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Gin0

open Cert.KernelIdeal Cert.KernelIdeal.Gen

/-! ## What each control case leaves in the three staging buffers, as the body's stored values -/

section Pieces
variable {F : FTy → Type} [FloatOps F]

theorem hz : (![0, 0] : Fin 2 → Nat) = fun _ => 0 := funext fun a => by fin_cases a <;> rfl

theorem outA6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S5000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay5 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  try sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S5000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay1 (k0_pay6 k0_pay3) (k0_pay7 x0 x1 x2 x3 x4 x5) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S5000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay2 (k0_pay5 x0 x1 x2 x3 x4 x5) k0_pay4 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outB6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_6 c i a1 h1 a2 h2 a3 h3 a4 h4 a5 h5 a6 h6 a7 h7 a8 h8 a9 h9 hc x0 x1 x2 x3 x4 x5 xo7 xo8 = k0_pay5 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_7 c i a1 h1 a2 h2 a3 h3 a4 h4 a5 h5 a6 h6 a7 h7 a8 h8 a9 h9 hc x0 x1 x2 x3 x4 x5 xo7 xo8 = k0_pay1 (k0_pay6 xo7) (k0_pay7 x0 x1 x2 x3 x4 x5) := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_8 c i a1 h1 a2 h2 a3 h3 a4 h4 a5 h5 a6 h6 a7 h7 a8 h8 a9 h9 hc x0 x1 x2 x3 x4 x5 xo7 xo8 = k0_pay2 (k0_pay5 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

end Pieces

end Cert.KernelIdeal.Gin0

end
-- ==== Proof.LibSegmentLinear.lean ====
/-
  A GENERAL LEMMA FILE (it imports only the library): two facts about finite sums of real numbers inside the extended
  reals that a graph layer needs.

  1. AGGREGATION COMMUTES WITH A RIGHT MULTIPLICATION (`agg_mul_comm`). A sum aggregation over edges sends a row-indexed
     array z to  z[n] + Σ over the edges e that land on n of z[s e]  (s e the row the edge reads; which edges land on n
     is any decidable relation — out-of-range targets simply land nowhere). It is linear in the rows, and so is a right
     multiplication by a matrix W, so the two commute:
         Σ_k (z[n,k] + Σ_{e → n} z[s e, k]) · W[k,o]  =  Σ_k z[n,k] · W[k,o]  +  Σ_{e → n} Σ_k z[s e, k] · W[k,o].
     Over the extended reals this needs the entries real (the distributive law fails at the infinities).
  2. A SUM OVER BLOCKS OF ROWS IS THE SUM OVER ALL ROWS (`sum_blocks`): Σ_{s<a} Σ_{r<b} f (s·b + r) = Σ_{n<a·b} f n.
-/
import Idealize.ShloMosaic.PureOps.Ideal

noncomputable section

namespace Cert.SegmentLinear

open Idealize.ShloMosaic

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: aggregate, then multiply on the right = multiply on the right, then aggregate. -/
theorem agg_mul_comm_real {N E K : Type*} [Fintype E] [Fintype K] (z : N → K → ℝ) (w : K → ℝ) (s : E → N)
    (lands : E → Prop) [DecidablePred lands] (n : N) :
    ∑ k, (z n k + ∑ e with lands e, z (s e) k) * w k
      = ∑ k, z n k * w k + ∑ e with lands e, ∑ k, z (s e) k * w k := by
  rw [Finset.sum_comm, ← Finset.sum_add_distrib]
  exact Finset.sum_congr rfl fun k _ => by rw [add_mul, Finset.sum_mul]

/-- The same on the extended reals, for real entries. -/
theorem agg_mul_comm {N E K : Type*} [Fintype E] [Fintype K] (z : N → K → ℝ) (w : K → ℝ) (s : E → N)
    (lands : E → Prop) [DecidablePred lands] (n : N) :
    ∑ k, ((z n k : EReal) + ∑ e with lands e, (z (s e) k : EReal)) * (w k : EReal)
      = ∑ k, (z n k : EReal) * (w k : EReal) + ∑ e with lands e, ∑ k, (z (s e) k : EReal) * (w k : EReal) := by
  have h := congrArg (fun r : ℝ => (r : EReal)) (agg_mul_comm_real z w s lands n)
  simp only [EReal.coe_add, coe_sum, EReal.coe_mul] at h
  exact h

/-- A sum over `a` blocks of `b` consecutive rows is the sum over all `a · b` rows. -/
theorem sum_blocks {M : Type*} [AddCommMonoid M] (a b : ℕ) (f : ℕ → M) :
    ∑ s : Fin a, ∑ r : Fin b, f (s.val * b + r.val) = ∑ n : Fin (a * b), f n.val := by
  rw [← Fintype.sum_prod_type']
  refine Fintype.sum_equiv finProdFinEquiv _ _ fun x => ?_
  obtain ⟨s, r⟩ := x
  simp only [finProdFinEquiv_apply_val]
  rw [add_comm, mul_comm]

end Cert.SegmentLinear

end
-- ==== Proof.GinRegion0.lean ====
/-
  Layer 1's first kernel, as three whole-array functions of the six arrays it reads.

  The kernel runs over ten tiles of 5000 nodes. At tile t it loads rows 5000 t … 5000 t + 4999 of the node features x
  and of the aggregated neighbour features agg, and the whole of the two weight matrices and two bias rows; it stores
  the activation of those rows as tile t of the activation array, and adds the tile's column sums of the activation,
  and of its square, into two running rows that the first tile starts from zero and that are written back once, after
  the last tile. So at the end of the region

    the activation array at (n, q) is  act( Σ_k max( Σ_j (x(n,j) + agg(n,j)) · W1(j,k) + b1(0,k), 0 ) · W2(k,q) + b2(0,q) ),
    the sum array at (0, q) is the sum over all 50000 nodes n of the activation at (n, q),
    the sum-of-squares array at (0, q) is the sum over all nodes of its square,

  with act the clamp below at zero. The ten partial sums are regrouped into one sum over all nodes: addition of extended reals is
  commutative and associative, and the first tile's zero is the additive unit, so nothing needs to be finite.
-/
import proofs.«121838_j70282844831870_1_alg».proof.Proof.GinBody
import proofs.«121838_j70282844831870_1_alg».proof.Proof.GinPieces0
import proofs.«121838_j70282844831870_1_alg».proof.Proof.LibSegmentLinear
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Gin0

open Cert.KernelIdeal Cert.KernelIdeal.Gen Cert.KernelIdeal.Gin Idealize.ShloMosaic.ValueIdx

section Value
variable (V : (c : Dev nD) → (b : Ref sig .tc) → Buf (Elt Ideal) ((c : Thread nD τ).loc b))

/-- The grid has ten points. -/
theorem hN : cfg0.N = 10 := N_0

/-- The printed index maps over the grid: the two row-tiled inputs and the activation output sit at row block t, and
    the four parameter inputs and the two statistics outputs at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The layer's activation at node n and feature q, from the six arrays as the region finds them. -/
def hact (c : Dev nD) (n : Fin 50000) (q : Fin 128) : EReal :=
  max (pre2 (fun j => (V c (Pipeline.arrRef spec0 0) : S50000x128.Idx → EReal) (ix2 n j))
    (fun j => (V c (Pipeline.arrRef spec0 1) : S50000x128.Idx → EReal) (ix2 n j))
    (V c (Pipeline.arrRef spec0 2)) (V c (Pipeline.arrRef spec0 3)) (V c (Pipeline.arrRef spec0 4)) (V c (Pipeline.arrRef spec0 5)) q) 0

/-- The same with the node a natural number (zero past the last node), the form the sums over tiles of nodes use. -/
def hactN (c : Dev nD) (n : ℕ) (q : Fin 128) : EReal := if h : n < 50000 then hact V c ⟨n, h⟩ q else 0

/-! ## The blocks the body loads, as rows of the arrays -/

/-- Row r of point t's block of a row-tiled input (the node features, the aggregated neighbour features) is row
    5000 t + r of the array. -/
theorem iblk_row0 (c : Dev nD) (t : Fin cfg0.N) (r : Fin 5000) (j : Fin 128) (h : t.val * 5000 + r.val < 50000) :
    (iblk0 V c 0 t : Vec Ideal S5000x128 .f32) (ix2 r j)
      = (V c (Pipeline.arrRef spec0 0) : S50000x128.Idx → EReal) (ix2 ⟨t.val * 5000 + r.val, h⟩ j) := by
  obtain ⟨e0, e1, -⟩ := idx_facts t
  unfold iblk0
  rw [View.read_apply]
  refine congrArg (V c (Pipeline.arrRef spec0 0) : S50000x128.Idx → EReal) (funext fun a => Fin.ext ?_)
  match a with
  | ⟨0, _⟩ => show win0_0.index t 0 * 5000 + 1 * r.val = t.val * 5000 + r.val; rw [e0]; omega
  | ⟨1, _⟩ => show win0_0.index t 1 * 128 + 1 * j.val = j.val; rw [e1]; omega

theorem iblk_row1 (c : Dev nD) (t : Fin cfg0.N) (r : Fin 5000) (j : Fin 128) (h : t.val * 5000 + r.val < 50000) :
    (iblk0 V c 1 t : Vec Ideal S5000x128 .f32) (ix2 r j)
      = (V c (Pipeline.arrRef spec0 1) : S50000x128.Idx → EReal) (ix2 ⟨t.val * 5000 + r.val, h⟩ j) := by
  obtain ⟨-, -, e0, e1, -⟩ := idx_facts t
  unfold iblk0
  rw [View.read_apply]
  refine congrArg (V c (Pipeline.arrRef spec0 1) : S50000x128.Idx → EReal) (funext fun a => Fin.ext ?_)
  match a with
  | ⟨0, _⟩ => show win0_1.index t 0 * 5000 + 1 * r.val = t.val * 5000 + r.val; rw [e0]; omega
  | ⟨1, _⟩ => show win0_1.index t 1 * 128 + 1 * j.val = j.val; rw [e1]; omega

/-- A parameter input's block is the whole array at every point. -/
theorem iblk_2 (c : Dev nD) (t : Fin cfg0.N) : (iblk0 V c 2 t : Vec Ideal S128x128 .f32) = V c (Pipeline.arrRef spec0 2) := by
  obtain ⟨-, -, -, -, e0, e1, -⟩ := idx_facts t
  funext y
  unfold iblk0
  rw [View.read_apply]
  refine congrArg (V c (Pipeline.arrRef spec0 2) : S128x128.Idx → EReal) (funext fun a => Fin.ext ?_)
  match a with
  | ⟨0, _⟩ => show win0_2.index t 0 * 128 + 1 * (y 0).val = (y 0).val; rw [e0]; omega
  | ⟨1, _⟩ => show win0_2.index t 1 * 128 + 1 * (y 1).val = (y 1).val; rw [e1]; omega

theorem iblk_3 (c : Dev nD) (t : Fin cfg0.N) : (iblk0 V c 3 t : Vec Ideal S1x128 .f32) = V c (Pipeline.arrRef spec0 3) := by
  obtain ⟨-, -, -, -, -, -, e0, e1, -⟩ := idx_facts t
  funext y
  unfold iblk0
  rw [View.read_apply]
  refine congrArg (V c (Pipeline.arrRef spec0 3) : S1x128.Idx → EReal) (funext fun a => Fin.ext ?_)
  match a with
  | ⟨0, _⟩ => show win0_3.index t 0 * 1 + 1 * (y 0).val = (y 0).val; rw [e0]; omega
  | ⟨1, _⟩ => show win0_3.index t 1 * 128 + 1 * (y 1).val = (y 1).val; rw [e1]; omega

theorem iblk_4 (c : Dev nD) (t : Fin cfg0.N) : (iblk0 V c 4 t : Vec Ideal S128x128 .f32) = V c (Pipeline.arrRef spec0 4) := by
  obtain ⟨-, -, -, -, -, -, -, -, e0, e1, -⟩ := idx_facts t
  funext y
  unfold iblk0
  rw [View.read_apply]
  refine congrArg (V c (Pipeline.arrRef spec0 4) : S128x128.Idx → EReal) (funext fun a => Fin.ext ?_)
  match a with
  | ⟨0, _⟩ => show win0_4.index t 0 * 128 + 1 * (y 0).val = (y 0).val; rw [e0]; omega
  | ⟨1, _⟩ => show win0_4.index t 1 * 128 + 1 * (y 1).val = (y 1).val; rw [e1]; omega

theorem iblk_5 (c : Dev nD) (t : Fin cfg0.N) : (iblk0 V c 5 t : Vec Ideal S1x128 .f32) = V c (Pipeline.arrRef spec0 5) := by
  obtain ⟨-, -, -, -, -, -, -, -, -, -, e0, e1, -⟩ := idx_facts t
  funext y
  unfold iblk0
  rw [View.read_apply]
  refine congrArg (V c (Pipeline.arrRef spec0 5) : S1x128.Idx → EReal) (funext fun a => Fin.ext ?_)
  match a with
  | ⟨0, _⟩ => show win0_5.index t 0 * 1 + 1 * (y 0).val = (y 0).val; rw [e0]; omega
  | ⟨1, _⟩ => show win0_5.index t 1 * 128 + 1 * (y 1).val = (y 1).val; rw [e1]; omega

/-- The activation the body computes from point t's blocks, at row r: the layer's activation at node 5000 t + r. -/
theorem blk_act (c : Dev nD) (t : Fin cfg0.N) (r : Fin 5000) (q : Fin 128) :
    k0_pay5 (F := Ideal) (iblk0 V c 0 t) (iblk0 V c 1 t) (iblk0 V c 2 t) (iblk0 V c 3 t) (iblk0 V c 4 t) (iblk0 V c 5 t) (ix2 r q) = hactN V c (t.val * 5000 + r.val) q := by
  have ht : t.val < 10 := lt_of_lt_of_eq t.isLt hN
  have h : t.val * 5000 + r.val < 50000 := by have := r.isLt; omega
  refine (k0_pay5_apply (iblk0 V c 0 t) (iblk0 V c 1 t) (iblk0 V c 2 t) (iblk0 V c 3 t) (iblk0 V c 4 t) (iblk0 V c 5 t) r q).trans ?_
  have e0 : (fun j => (iblk0 V c 0 t : Vec Ideal S5000x128 .f32) (ix2 r j)) = fun j => (V c (Pipeline.arrRef spec0 0) : S50000x128.Idx → EReal) (ix2 ⟨t.val * 5000 + r.val, h⟩ j) :=
    funext fun j => iblk_row0 V c t r j h
  have e1 : (fun j => (iblk0 V c 1 t : Vec Ideal S5000x128 .f32) (ix2 r j)) = fun j => (V c (Pipeline.arrRef spec0 1) : S50000x128.Idx → EReal) (ix2 ⟨t.val * 5000 + r.val, h⟩ j) :=
    funext fun j => iblk_row1 V c t r j h
  rw [e0, e1, iblk_2 V c t, iblk_3 V c t, iblk_4 V c t, iblk_5 V c t]
  unfold hactN
  rw [dif_pos h]
  rfl

/-! ## The staging buffers after each point -/

/-- What the three staging buffers hold after the first point, as the body's stored values of the point's blocks. -/
theorem outs_A (c : Dev nD) (t : Fin cfg0.N) (h0 : t.val % 10 = 0) :
    outsAt0 V c t.val t.isLt = (k0_pay5 (F := Ideal) (iblk0 V c 0 t) (iblk0 V c 1 t) (iblk0 V c 2 t) (iblk0 V c 3 t) (iblk0 V c 4 t) (iblk0 V c 5 t), k0_pay1 (k0_pay6 (k0_pay3 (F := Ideal))) (k0_pay7 (iblk0 V c 0 t) (iblk0 V c 1 t) (iblk0 V c 2 t) (iblk0 V c 3 t) (iblk0 V c 4 t) (iblk0 V c 5 t)), k0_pay2 (k0_pay5 (iblk0 V c 0 t) (iblk0 V c 1 t) (iblk0 V c 2 t) (iblk0 V c 3 t) (iblk0 V c 4 t) (iblk0 V c 5 t)) (k0_pay4 (F := Ideal))) :=
  (outsAt0_A V c t h0).trans (congrArg₂ Prod.mk
    (outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))
    (congrArg₂ Prod.mk
      (outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))
      (outA8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))))

/-- What they hold after a later point, over what the point before left in the two running rows. -/
theorem outs_B (c : Dev nD) (t : Fin cfg0.N) (h0 : ¬t.val % 10 = 0) :
    outsAt0 V c t.val t.isLt = (k0_pay5 (F := Ideal) (iblk0 V c 0 t) (iblk0 V c 1 t) (iblk0 V c 2 t) (iblk0 V c 3 t) (iblk0 V c 4 t) (iblk0 V c 5 t), k0_pay1 (k0_pay6 (outsAt0 V c (t.val - 1) (Nat.lt_of_le_of_lt (Nat.sub_le _ _) t.isLt)).2.1) (k0_pay7 (iblk0 V c 0 t) (iblk0 V c 1 t) (iblk0 V c 2 t) (iblk0 V c 3 t) (iblk0 V c 4 t) (iblk0 V c 5 t)), k0_pay2 (k0_pay5 (iblk0 V c 0 t) (iblk0 V c 1 t) (iblk0 V c 2 t) (iblk0 V c 3 t) (iblk0 V c 4 t) (iblk0 V c 5 t)) (outsAt0 V c (t.val - 1) (Nat.lt_of_le_of_lt (Nat.sub_le _ _) t.isLt)).2.2) :=
  (outsAt0_B V c t h0).trans (congrArg₂ Prod.mk
    (outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)
      (outB8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)))

/-- After point n the three staging buffers hold: the activation of point n's rows; the sums over the nodes of the
    tiles 0 … n of the activation; and of its square. -/
def Inv (c : Dev nD) (n : ℕ) (hn : n < cfg0.N) : Prop :=
  (outsAt0 V c n hn).1 = k0_pay5 (F := Ideal) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩)
  ∧ (∀ (u : Fin 1) (q : Fin 128), (outsAt0 V c n hn).2.1 (ix2 u q)
      = ∑ s ∈ Finset.range (n + 1), ∑ r : Fin 5000, hactN V c (s * 5000 + r.val) q)
  ∧ (∀ (u : Fin 1) (q : Fin 128), (outsAt0 V c n hn).2.2 (ix2 u q)
      = ∑ s ∈ Finset.range (n + 1), ∑ r : Fin 5000, hactN V c (s * 5000 + r.val) q * hactN V c (s * 5000 + r.val) q)

/-- It holds at every point: at the first the running rows start from the zero the point stores, and each later point
    adds its tile's column sums to what the point before left. -/
theorem inv (c : Dev nD) : ∀ (n : ℕ) (hn : n < cfg0.N), Inv V c n hn
  | 0, hn => by
    have e : outsAt0 V c 0 hn = _ := outs_A V c ⟨0, hn⟩ (Nat.zero_mod _)
    have hb : ∀ (r : Fin 5000) (q : Fin 128), k0_pay5 (F := Ideal) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (ix2 r q) = hactN V c (0 * 5000 + r.val) q :=
      fun r q => blk_act V c ⟨0, hn⟩ r q
    unfold Inv
    rw [e]
    dsimp only
    refine ⟨rfl, fun u q => ?_, fun u q => ?_⟩
    · rw [k0_pay1_apply, k0_pay6_eq, k0_pay3_apply, k0_pay7_apply (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) u q, zero_add]
      rw [Finset.sum_range_one]
      exact Finset.sum_congr rfl fun r _ => hb r q
    · rw [k0_pay2_apply (k0_pay5 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) _ u q, k0_pay4_apply, zero_add]
      rw [Finset.sum_range_one]
      exact Finset.sum_congr rfl fun r _ => by rw [hb r q]
  | n + 1, hn => by
    obtain ⟨-, ih7, ih8⟩ := inv c n (Nat.lt_of_succ_lt hn)
    have hB : ¬(⟨n + 1, hn⟩ : Fin cfg0.N).val % 10 = 0 := by have := hN; dsimp only; omega
    have e : outsAt0 V c (n + 1) hn = _ := outs_B V c ⟨n + 1, hn⟩ hB
    have hb : ∀ (r : Fin 5000) (q : Fin 128), k0_pay5 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (ix2 r q) = hactN V c ((n + 1) * 5000 + r.val) q :=
      fun r q => blk_act V c ⟨n + 1, hn⟩ r q
    unfold Inv
    rw [e]
    dsimp only
    refine ⟨rfl, fun u q => ?_, fun u q => ?_⟩
    · rw [k0_pay1_apply, k0_pay6_eq, k0_pay7_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) u q]
      rw [Finset.sum_range_succ]
      exact congrArg₂ (· + ·) (ih7 u q) (Finset.sum_congr rfl fun r _ => hb r q)
    · rw [k0_pay2_apply (k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) _ u q]
      rw [Finset.sum_range_succ]
      exact congrArg₂ (· + ·) (ih8 u q) (Finset.sum_congr rfl fun r _ => by rw [hb r q])

/-! ## From the staging buffers to the arrays -/

/-- The ten tiles of 5000 nodes are all 50000 nodes. -/
theorem sum_tiles (f : ℕ → EReal) : ∑ s ∈ Finset.range 10, ∑ r : Fin 5000, f (s * 5000 + r.val) = ∑ n : Fin 50000, f n.val := by
  rw [Finset.sum_range]
  exact Cert.SegmentLinear.sum_blocks 10 5000 f

/-- The activation array: the layer's activation at every node and feature. -/
def G6 (c : Dev nD) : S50000x128.Idx → EReal := fun i => hactN V c (i 0).val (i 1)
/-- The sum array: per feature, the sum over all nodes of the activation. -/
def G7 (c : Dev nD) : S1x128.Idx → EReal := fun j => ∑ n : Fin 50000, hactN V c n.val (j 1)
/-- The sum-of-squares array: per feature, the sum over all nodes of the squared activation. -/
def G8 (c : Dev nD) : S1x128.Idx → EReal := fun j => ∑ n : Fin 50000, hactN V c n.val (j 1) * hactN V c n.val (j 1)

-- the two sums are never opened by unfolding: they are compared as they stand
attribute [local irreducible] G7 G8

/-- Tile t of the activation array, at row r: the activation at node 5000 t + r. -/
theorem G6_blk (c : Dev nD) (t : Fin cfg0.N) (r : Fin 5000) (q : Fin 128) :
    (((cfg0.win 6).blk t).view.read (Elt Ideal) (G6 V c) : Vec Ideal S5000x128 .f32) (ix2 r q)
      = hactN V c (t.val * 5000 + r.val) q := by
  obtain ⟨-, -, -, -, -, -, -, -, -, -, -, -, e0, e1, -⟩ := idx_facts t
  have ht : t.val < 10 := lt_of_lt_of_eq t.isLt hN
  have h : t.val * 5000 + r.val < 50000 := by have := r.isLt; omega
  have he : ((cfg0.win 6).blk t).view.emb (ix2 r q) = (ix2 ⟨t.val * 5000 + r.val, h⟩ q : S50000x128.Idx) :=
    funext fun a => Fin.ext (by
      match a with
      | ⟨0, _⟩ => show win0_6.index t 0 * 5000 + 1 * r.val = t.val * 5000 + r.val; rw [e0]; omega
      | ⟨1, _⟩ => show win0_6.index t 1 * 128 + 1 * q.val = q.val; rw [e1]; omega)
  show G6 V c (((cfg0.win 6).blk t).view.emb (ix2 r q)) = _
  rw [he]
  rfl

/-- Every point writes back its tile of the activation array. -/
theorem flushed6 (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6, (inv V c t.val t.isLt).1]
  funext y
  obtain ⟨r, q, rfl⟩ : ∃ (r : Fin 5000) (q : Fin 128), y = ix2 r q := ⟨y 0, y 1, eq_ix2 y⟩
  refine Eq.trans ?_ (G6_blk V c t r q).symm
  exact blk_act V c t r q

/-- An index of the activation array is in point t's block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- The activation array at the end of the region. -/
theorem arr6 (c : Dev nD) : (dat0 V c).arrAt 6 cfg0.N = G6 V c :=
  (dat0 V c).arrAt_eq_of_cover 6 (G6 V c) (fun t _ => flushed6 V c t) fun i => by
    have h0 : (i 0).val < 50000 := (i 0).isLt
    have h1 : (i 1).val < 128 := (i 1).isLt
    have hN' := hN
    refine ⟨⟨(i 0).val / 5000, by rw [hN']; omega⟩, flush0_6 _, ?_⟩
    obtain ⟨-, -, -, -, -, -, -, -, -, -, -, -, e0, e1, -⟩ := idx_facts ⟨(i 0).val / 5000, by rw [hN']; omega⟩
    rw [mem_blk6]
    intro a
    match a with
    | ⟨0, _⟩ => show win0_6.index _ 0 * 5000 ≤ (i 0).val ∧ (i 0).val < win0_6.index _ 0 * 5000 + 5000; rw [e0]; dsimp only; omega
    | ⟨1, _⟩ => show win0_6.index _ 1 * 128 ≤ (i 1).val ∧ (i 1).val < win0_6.index _ 1 * 128 + 128; rw [e1]; omega

/-- The one block of window 7's array (the whole array), read at feature q. -/
theorem G7_blk (c : Dev nD) (t : Fin cfg0.N) (u : Fin 1) (q : Fin 128) :
    (((cfg0.win 7).blk t).view.read (Elt Ideal) (G7 V c) : Vec Ideal S1x128 .f32) (ix2 u q)
      = ∑ n : Fin 50000, hactN V c n.val q := by
  obtain ⟨-, -, -, -, -, -, -, -, -, -, -, -, -, -, e0, e1, -⟩ := idx_facts t
  have he : ((cfg0.win 7).blk t).view.emb (ix2 u q) = (ix2 u q : S1x128.Idx) :=
    funext fun a => Fin.ext (by
      match a with
      | ⟨0, _⟩ => show win0_7.index t 0 * 1 + 1 * u.val = u.val; rw [e0]; omega
      | ⟨1, _⟩ => show win0_7.index t 1 * 128 + 1 * q.val = q.val; rw [e1]; omega)
  show G7 V c (((cfg0.win 7).blk t).view.emb (ix2 u q)) = _
  rw [he]
  unfold G7
  exact Finset.sum_congr rfl fun n _ => rfl

/-- The one write-back of window 7, after the last point, writes the sums over all ten tiles. -/
theorem flushed7 (c : Dev nD) (t : Fin cfg0.N) (hf : (cfg0.win 7).flush t = true) :
    (dat0 V c).flushed 7 t = ((cfg0.win 7).blk t).view.read (Elt Ideal) (G7 V c) := by
  have hN' := hN
  have h9 : t.val = 9 := by have := (flush0_7 t).mp hf; have := t.isLt; omega
  show (cfg0.win 7).cut (grid0.coords t) ((dat0 V c).after 7 t) = _
  rw [after0_7]
  funext y
  obtain ⟨u, q, rfl⟩ : ∃ (u : Fin 1) (q : Fin 128), y = ix2 u q := ⟨y 0, y 1, eq_ix2 y⟩
  refine Eq.trans ?_ (G7_blk V c t u q).symm
  refine Eq.trans ((inv V c t.val t.isLt).2.1 u q) ?_
  rw [h9]
  exact sum_tiles (fun n => hactN V c n q)

/-- An index of window 7's array is in point t's block iff each coordinate is in the block's range on its axis. -/
theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole (Pipeline.arrRef spec0 7)).slice (win0_7.rect t)).set ↔ _
  rw [View.set_slice_whole, Rect.mem_set_unit]
  exact Iff.rfl

/-- Window 7's array at the end of the region. -/
theorem arr7 (c : Dev nD) : (dat0 V c).arrAt 7 cfg0.N = G7 V c :=
  (dat0 V c).arrAt_eq_of_cover 7 (G7 V c) (fun t hf => flushed7 V c t hf) fun i => by
    have h0 : (i 0).val < 1 := (i 0).isLt
    have h1 : (i 1).val < 128 := (i 1).isLt
    have hN' := hN
    refine ⟨⟨9, by rw [hN']; omega⟩, (flush0_7 _).mpr rfl, ?_⟩
    obtain ⟨-, -, -, -, -, -, -, -, -, -, -, -, -, -, e0, e1, -⟩ := idx_facts ⟨9, by rw [hN']; omega⟩
    rw [mem_blk7]
    intro a
    match a with
    | ⟨0, _⟩ => show win0_7.index _ 0 * 1 ≤ (i 0).val ∧ (i 0).val < win0_7.index _ 0 * 1 + 1; rw [e0]; omega
    | ⟨1, _⟩ => show win0_7.index _ 1 * 128 ≤ (i 1).val ∧ (i 1).val < win0_7.index _ 1 * 128 + 128; rw [e1]; omega

/-- The one block of window 8's array (the whole array), read at feature q. -/
theorem G8_blk (c : Dev nD) (t : Fin cfg0.N) (u : Fin 1) (q : Fin 128) :
    (((cfg0.win 8).blk t).view.read (Elt Ideal) (G8 V c) : Vec Ideal S1x128 .f32) (ix2 u q)
      = ∑ n : Fin 50000, hactN V c n.val q * hactN V c n.val q := by
  obtain ⟨-, -, -, -, -, -, -, -, -, -, -, -, -, -, -, -, e0, e1⟩ := idx_facts t
  have he : ((cfg0.win 8).blk t).view.emb (ix2 u q) = (ix2 u q : S1x128.Idx) :=
    funext fun a => Fin.ext (by
      match a with
      | ⟨0, _⟩ => show win0_8.index t 0 * 1 + 1 * u.val = u.val; rw [e0]; omega
      | ⟨1, _⟩ => show win0_8.index t 1 * 128 + 1 * q.val = q.val; rw [e1]; omega)
  show G8 V c (((cfg0.win 8).blk t).view.emb (ix2 u q)) = _
  rw [he]
  unfold G8
  exact Finset.sum_congr rfl fun n _ => rfl

/-- The one write-back of window 8, after the last point, writes the sums over all ten tiles. -/
theorem flushed8 (c : Dev nD) (t : Fin cfg0.N) (hf : (cfg0.win 8).flush t = true) :
    (dat0 V c).flushed 8 t = ((cfg0.win 8).blk t).view.read (Elt Ideal) (G8 V c) := by
  have hN' := hN
  have h9 : t.val = 9 := by have := (flush0_8 t).mp hf; have := t.isLt; omega
  show (cfg0.win 8).cut (grid0.coords t) ((dat0 V c).after 8 t) = _
  rw [after0_8]
  funext y
  obtain ⟨u, q, rfl⟩ : ∃ (u : Fin 1) (q : Fin 128), y = ix2 u q := ⟨y 0, y 1, eq_ix2 y⟩
  refine Eq.trans ?_ (G8_blk V c t u q).symm
  refine Eq.trans ((inv V c t.val t.isLt).2.2 u q) ?_
  rw [h9]
  exact sum_tiles (fun n => hactN V c n q * hactN V c n q)

/-- An index of window 8's array is in point t's block iff each coordinate is in the block's range on its axis. -/
theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole (Pipeline.arrRef spec0 8)).slice (win0_8.rect t)).set ↔ _
  rw [View.set_slice_whole, Rect.mem_set_unit]
  exact Iff.rfl

/-- Window 8's array at the end of the region. -/
theorem arr8 (c : Dev nD) : (dat0 V c).arrAt 8 cfg0.N = G8 V c :=
  (dat0 V c).arrAt_eq_of_cover 8 (G8 V c) (fun t hf => flushed8 V c t hf) fun i => by
    have h0 : (i 0).val < 1 := (i 0).isLt
    have h1 : (i 1).val < 128 := (i 1).isLt
    have hN' := hN
    refine ⟨⟨9, by rw [hN']; omega⟩, (flush0_8 _).mpr rfl, ?_⟩
    obtain ⟨-, -, -, -, -, -, -, -, -, -, -, -, -, -, -, -, e0, e1⟩ := idx_facts ⟨9, by rw [hN']; omega⟩
    rw [mem_blk8]
    intro a
    match a with
    | ⟨0, _⟩ => show win0_8.index _ 0 * 1 ≤ (i 0).val ∧ (i 0).val < win0_8.index _ 0 * 1 + 1; rw [e0]; omega
    | ⟨1, _⟩ => show win0_8.index _ 1 * 128 ≤ (i 1).val ∧ (i 1).val < win0_8.index _ 1 * 128 + 128; rw [e1]; omega

/-! ## The three arrays by the activation at a node of the node range -/

theorem G6_apply (c : Dev nD) (n : Fin 50000) (q : Fin 128) : G6 V c (ix2 n q) = hact V c n q := by
  unfold G6 hactN
  exact dif_pos n.isLt
theorem G7_apply (c : Dev nD) (u : Fin 1) (q : Fin 128) : G7 V c (ix2 u q) = ∑ n : Fin 50000, hact V c n q := by
  unfold G7 hactN
  exact Finset.sum_congr rfl fun n _ => dif_pos n.isLt
theorem G8_apply (c : Dev nD) (u : Fin 1) (q : Fin 128) : G8 V c (ix2 u q) = ∑ n : Fin 50000, hact V c n q * hact V c n q := by
  unfold G8 hactN
  exact Finset.sum_congr rfl fun n _ => by rw [dif_pos n.isLt]

end Value

end Cert.KernelIdeal.Gin0

end
-- ==== Proof.BnRegion1.lean ====
/-
  The normalisation kernel of region 1: a grid of ten row tiles of 5000 rows; each point loads its tile of `h`
  (5000 × 128) and the two row vectors `s`, `t` (1 × 128, the same block at every point) and stores `h · s + t`, the row
  vectors repeated down the rows. The ten tiles partition the 50000 rows, so the output array ends holding, at row `r`
  and column `q`, `h (r, q) · s (0, q) + t (0, q)` of the arrays as the region finds them.
-/
import proofs.«121838_j70282844831870_1_alg».proof.Proof.Gen.KernelIdeal.Frame
import Idealize.ShloMosaic.Lib.Pipeline.Value
import Idealize.ShloMosaic.Lib.ValueIdx

set_option maxRecDepth 16384

noncomputable section

namespace Cert.KernelIdeal.Bn1

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of an index of the tall array, as an index of a row vector. -/
abbrev col {n : Nat} (i : (⟨2, ![n, 128]⟩ : Shape).Idx) : S1x128.Idx := ix2 (0 : Fin 1) (⟨(i 1).val, idx2_lt1 i⟩ : Fin 128)

/-- An array of extended reals read at an index (the element type spelt out). -/
abbrev rd {S : Shape} (f : S.Idx → EReal) (i : S.Idx) : EReal := f i

/-- The normalised array: `h · s + t` with the row vectors repeated down the rows. -/
def G (h : S50000x128.Idx → EReal) (s t : S1x128.Idx → EReal) : S50000x128.Idx → EReal :=
  fun i => h i * s (col i) + t (col i)

/-- A row vector repeated down 5000 rows, read at an index, is the vector at the index's column. -/
theorem bcast_apply (x : S1x128.Idx → EReal) (j : S5000x128.Idx) :
    broadcastTo S5000x128 x broadcasts_S1x128_S5000x128 j = x (col j) :=
  broadcastTo_apply x broadcasts_S1x128_S5000x128 j (col j) fun a => by
    match a with
    | ⟨0, _⟩ => rfl
    | ⟨1, _⟩ => rfl

/-- The body's one payload at an index of the tile. -/
theorem pay_apply (x0 : Vec Ideal S5000x128 .f32) (x1 x2 : Vec Ideal S1x128 .f32) (j : S5000x128.Idx) :
    k1_pay1 (F := Ideal) x0 x1 x2 j = x0 j * x1 (col j) + x2 (col j) := by
  unfold k1_pay1
  simp only [shapeCast_self]
  show x0 j * broadcastTo S5000x128 x1 broadcasts_S1x128_S5000x128 j + broadcastTo S5000x128 x2 broadcasts_S1x128_S5000x128 j = _
  rw [bcast_apply, bcast_apply]

/-- The printed index maps over the grid: the tile of point `t` starts at row block `t`, the row vectors' block is the
    first at every point. -/
theorem idx_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val :=
  (by decide +kernel : ∀ t : Fin grid1.N, _)

/-- What point `t` writes back is tile `t` of `G` of the arrays as the region finds them. -/
theorem flushed_eq (c : Dev nD) (t : Fin cfg1.N) :
    (dat1 (F := Ideal) V c).flushed 3 t
      = ((cfg1.win 3).blk t).view.read (Elt Ideal) (G (V c main_v28_0) (V c main_v43) (V c main_v44)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_apply _ _ _ j).trans ?_
  show rd (S := S50000x128) (V c main_v28_0) (((cfg1.win 0).blk t).view.emb j)
        * rd (S := S1x128) (V c main_v43) (((cfg1.win 1).blk t).view.emb (col j))
      + rd (S := S1x128) (V c main_v44) (((cfg1.win 2).blk t).view.emb (col j))
    = rd (S := S50000x128) (V c main_v28_0) (((cfg1.win 3).blk t).view.emb j)
        * rd (S := S1x128) (V c main_v43) (col (((cfg1.win 3).blk t).view.emb j))
      + rd (S := S1x128) (V c main_v44) (col (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (col j) = col (((cfg1.win 3).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have h2 : ((cfg1.win 2).blk t).view.emb (col j) = col (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [h0, h1, h2]

/-- An index of the array is in point `t`'s tile iff each coordinate is in the tile's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every index of the array lies in the tile of the point numbered by its row divided by 5000. -/
theorem cover (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  refine ⟨⟨(i 0).val / 5000, by rw [show cfg1.N = 10 from N_1]; omega⟩, flush1_3 _, ?_⟩
  rw [mem_blk]
  obtain ⟨e0, e1, e2, e3, e4, e5, e6, e7⟩ := idx_facts ⟨(i 0).val / 5000, by rw [show cfg1.N = 10 from N_1]; omega⟩
  intro a
  match a with
  | ⟨0, _⟩ => show win1_3.index _ (0 : Fin 2) * 5000 ≤ (i 0).val ∧ (i 0).val < win1_3.index _ (0 : Fin 2) * 5000 + 5000; rw [e7]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e2]; omega

/-- THE OUTPUT ARRAY at the end of the region. -/
theorem final (c : Dev nD) :
    (dat1 (F := Ideal) V c).arrAt 3 cfg1.N = G (V c main_v28_0) (V c main_v43) (V c main_v44) :=
  (dat1 V c).arrAt_eq_of_cover 3 _ (fun t _ => flushed_eq V c t) cover

end Cert.KernelIdeal.Bn1

end
-- ==== Proof.LibBatchNormForms.lean ====
/-
  A GENERAL LEMMA FILE (it imports only the library): the two spellings of a batch normalisation over real data, on the
  extended reals.

  A batch norm of a column X over N rows can be written CENTRED,
      γ · (x − μ) · rsqrt(σ² + ε) + β,      μ = (Σ X)/N,   σ² = (Σ (X − μ)²)/N,
  or as ONE AFFINE MAP whose coefficients come from the raw moments,
      x · a + b,      a = γ · rsqrt(max(m₂ − μ², 0) + ε),   b = β − μ · a,   m₂ = (Σ X²)/N,
  (the single-pass form: sums and sums of squares, the difference clamped at 0 against cancellation). For REAL data the
  two are the same number: m₂ − μ² is the mean squared deviation (`var_forms`), which is non-negative
  (`msd_nonneg`), so the clamp is the identity, and the rest is the distributive law (`affine_eq_centred`). On the
  extended reals the statement needs the data real — with an infinite entry the sums and products on the two sides part.
  Also here: the inclusion of the reals commutes with finite sums (`coe_sum`), the exact quotient and the exact reciprocal
  square root on real numbers (`div_coe_coe`, `rsqrt_coe_pos`), and the maximum of two reals (`max_coe_coe`).
-/
import Idealize.ShloMosaic.PureOps.Ideal

noncomputable section

namespace Cert.BatchNormForms

open Idealize.ShloMosaic

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exact quotient of a real by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

/-- The exact reciprocal square root of a positive real is the real one. -/
theorem rsqrt_coe_pos {r : ℝ} (hr : 0 < r) : Ideal.rsqrt (r : EReal) = (((Real.sqrt r)⁻¹ : ℝ) : EReal) := by
  rw [Ideal.rsqrt_coe, if_neg (not_lt.2 hr.le), if_neg hr.ne']

/-- The maximum of two reals, taken among the extended reals, is their real maximum. -/
theorem max_coe_coe (x y : ℝ) : max (x : EReal) (y : EReal) = ((max x y : ℝ) : EReal) :=
  (EReal.coe_strictMono.monotone.map_max).symm

section Real

variable {ι : Type*} [Fintype ι] (X : ι → ℝ) (N : ℝ)

/-- Over the reals: the mean of the squares minus the squared mean is the mean squared deviation (N the number of rows). -/
theorem var_forms (hN : N = (Fintype.card ι : ℝ)) (hN0 : N ≠ 0) :
    (∑ i, X i * X i) / N - (∑ i, X i) / N * ((∑ i, X i) / N)
      = (∑ i, (X i - (∑ j, X j) / N) * (X i - (∑ j, X j) / N)) / N := by
  have h : ∑ i, (X i - (∑ j, X j) / N) * (X i - (∑ j, X j) / N)
      = (∑ i, X i * X i) - 2 * ((∑ j, X j) / N) * (∑ i, X i) + N * (((∑ j, X j) / N) * ((∑ j, X j) / N)) := by
    have e : ∀ i, (X i - (∑ j, X j) / N) * (X i - (∑ j, X j) / N)
        = X i * X i - 2 * ((∑ j, X j) / N) * X i + ((∑ j, X j) / N) * ((∑ j, X j) / N) := fun i => by ring
    rw [Finset.sum_congr rfl fun i _ => e i, Finset.sum_add_distrib, Finset.sum_sub_distrib, ← Finset.mul_sum,
      Finset.sum_const, Finset.card_univ, nsmul_eq_mul, ← hN]
  rw [h]
  field_simp
  ring

/-- The mean squared deviation is non-negative. -/
theorem msd_nonneg (μ : ℝ) (hN0 : 0 < N) : 0 ≤ (∑ i, (X i - μ) * (X i - μ)) / N :=
  div_nonneg (Finset.sum_nonneg fun i _ => mul_self_nonneg _) hN0.le

end Real

/-- THE TWO SPELLINGS AGREE on real data: the affine map built from the raw moments (the difference clamped at 0) is the
    centred batch norm, as extended reals, at every real `x`. -/
theorem affine_eq_centred {ι : Type*} [Fintype ι] (X : ι → ℝ) (N ε γ β x : ℝ)
    (hN : N = (Fintype.card ι : ℝ)) (hN0 : 0 < N) (hε : 0 < ε) :
    (x : EReal) * ((γ : EReal) * Ideal.rsqrt (max (Ideal.div (∑ i, (X i : EReal) * (X i : EReal)) (N : EReal)
          - Ideal.div (∑ i, (X i : EReal)) (N : EReal) * Ideal.div (∑ i, (X i : EReal)) (N : EReal)) 0 + (ε : EReal)))
      + ((β : EReal) - Ideal.div (∑ i, (X i : EReal)) (N : EReal)
          * ((γ : EReal) * Ideal.rsqrt (max (Ideal.div (∑ i, (X i : EReal) * (X i : EReal)) (N : EReal)
          - Ideal.div (∑ i, (X i : EReal)) (N : EReal) * Ideal.div (∑ i, (X i : EReal)) (N : EReal)) 0 + (ε : EReal))))
    = (γ : EReal) * ((x : EReal) - Ideal.div (∑ i, (X i : EReal)) (N : EReal))
        * Ideal.rsqrt (Ideal.div (∑ i, ((X i : EReal) - Ideal.div (∑ j, (X j : EReal)) (N : EReal))
            * ((X i : EReal) - Ideal.div (∑ j, (X j : EReal)) (N : EReal))) (N : EReal) + (ε : EReal))
      + (β : EReal) := by
  have hN' : N ≠ 0 := hN0.ne'
  -- every sum, quotient and product is the inclusion of the real one
  have hs : (∑ i, (X i : EReal)) = ((∑ i, X i : ℝ) : EReal) := (coe_sum _ _).symm
  have hq : (∑ i, (X i : EReal) * (X i : EReal)) = ((∑ i, X i * X i : ℝ) : EReal) := by
    rw [coe_sum]; exact Finset.sum_congr rfl fun i _ => (EReal.coe_mul _ _).symm
  rw [hq, hs, div_coe_coe _ _ hN', div_coe_coe _ _ hN']
  have hd : (∑ i, ((X i : EReal) - (((∑ j, X j) / N : ℝ) : EReal)) * ((X i : EReal) - (((∑ j, X j) / N : ℝ) : EReal)))
      = ((∑ i, (X i - (∑ j, X j) / N) * (X i - (∑ j, X j) / N) : ℝ) : EReal) := by
    rw [coe_sum]; exact Finset.sum_congr rfl fun i _ => by rw [EReal.coe_mul, EReal.coe_sub]
  rw [hd, div_coe_coe _ _ hN', ← EReal.coe_mul, ← EReal.coe_sub, ← EReal.coe_zero, max_coe_coe, ← EReal.coe_add,
    ← EReal.coe_add, var_forms X N hN hN', max_eq_left (msd_nonneg X N _ hN0),
    rsqrt_coe_pos (add_pos_of_nonneg_of_pos (msd_nonneg X N _ hN0) hε)]
  simp only [← EReal.coe_mul, ← EReal.coe_sub, ← EReal.coe_add]
  congr 1
  ring

end Cert.BatchNormForms

end
-- ==== Proof.LibRealEntries.lean ====
/-
  Extended reals that are ordinary real numbers: a small general library.

  On the extended reals the laws of a field fail at the infinities (distributivity, cancellation), so an algebraic
  identity between two programs is proved for entries that are real numbers. This file has the predicate "is a
  real number", its closure under sum, difference, product, maximum and finite sums, the inclusion of the reals
  commuting with finite sums, an affine map folded into a dense layer (the batch-normalisation fold) as an identity
  between real numbers, the inverse square root of a positive real, and the accumulating scatter of real updates
  into a real array.
-/
import Idealize.ShloMosaic.PureOps.Ideal.Laws
import Idealize.ShloMosaic.Lib.ValueIdx

noncomputable section

namespace Cert.Proof.Spec

open Idealize.ShloMosaic

/-- An extended real that is an ordinary real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW joining the two programs: the batch-normalisation affine map applied after a dense layer equals the
    dense layer with the map folded into its weights and bias — for real numbers. -/
theorem bn_fold {ι : Type*} [Fintype ι] (h w : ι → EReal) (b mu g β rs : EReal)
    (hh : ∀ j, IsReal (h j)) (hw : ∀ j, IsReal (w j)) (hb : IsReal b) (hmu : IsReal mu) (hg : IsReal g)
    (hβ : IsReal β) (hrs : IsReal rs) :
    (∑ j, h j * (w j * (g * rs))) + ((b - mu) * (g * rs) + β) = (((∑ j, h j * w j) + b) - mu) * rs * g + β := by
  choose hr hhr using hh
  choose wr hwr using hw
  obtain ⟨b', rfl⟩ := hb
  obtain ⟨mu', rfl⟩ := hmu
  obtain ⟨g', rfl⟩ := hg
  obtain ⟨β', rfl⟩ := hβ
  obtain ⟨rs', rfl⟩ := hrs
  simp only [hhr, hwr, ← EReal.coe_mul, ← EReal.coe_add, ← EReal.coe_sub, ← coe_sum]
  congr 1
  rw [show ∑ j, hr j * (wr j * (g' * rs')) = (∑ j, hr j * wr j) * (g' * rs') from by
    rw [Finset.sum_mul]; exact Finset.sum_congr rfl fun j _ => by ring]
  ring

/-- `(σ² + ε)^(−1/2)` is a real number when the variance is a non-negative real and `ε` a positive one. -/
theorem rsqrt_real {v e : EReal} (hv : IsReal v) (hv0 : 0 ≤ v) (he : ∃ r : ℝ, 0 < r ∧ e = (r : EReal)) :
    IsReal (Ideal.rsqrt (v + e)) := by
  obtain ⟨a, rfl⟩ := hv
  obtain ⟨r, hr, rfl⟩ := he
  have ha : 0 ≤ a := by exact_mod_cast hv0
  rw [← EReal.coe_add, Ideal.rsqrt_coe, if_neg (by linarith), if_neg (ne_of_gt (by linarith))]
  exact ⟨_, rfl⟩

/-- A scatter-add of real updates into a real array is real (each entry is the old entry plus a finite sum of updates). -/
theorem scatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

end Cert.Proof.Spec

end
-- ==== Proof.LibRsqrtLaw.lean ====
/-
  A GENERAL LEMMA FILE (it imports only the library): facts about the extended reals that join a product with a
  reciprocal square root to a quotient by a square root — what a normalisation written `d * rsqrt(var + c)` needs to
  meet one written `d / sqrt(var + c)`.  It states: a square of an extended real is non-negative
  (`mul_self_nonneg`), so is a finite sum of squares (`sum_mul_self_nonneg`) and its quotient by a positive real
  (`div_coe_nonneg`); a non-negative plus a positive real is positive (`add_coe_pos`); THE LAW
  `mul_rsqrt_eq_div_sqrt : 0 < v → d * rsqrt v = div d (sqrt v)` for every `d`, and the same with the variance spelt
  out (`mul_rsqrt_var_eq_div_sqrt`); and two float constants, `64.0` as the real `64` (`ofBits_64`) and the float
  nearest `1e-5` as a positive real (`ofBits_eps_pos`).  On the extended reals `d * rsqrt v = d / sqrt v` is FALSE in general (at `v = ⊥`, at `v = 0` and at
  negative `v` the two conventions part), but it holds for every `d`, infinite or not, as soon as `0 < v`:
  then `v` is `⊤` (both sides `d * 0`) or a positive real (both sides `d * (√v)⁻¹`).  A variance plus a positive
  constant is always such a `v`, because a square of an extended real is never negative — the infinities square
  to `⊤` — so a sum of squares, divided by a positive real, is non-negative whatever the summands are.  No
  finiteness of the summands is used anywhere.
-/
import Idealize.ShloMosaic.PureOps.Ideal

noncomputable section

namespace Cert.RsqrtLaw

open Idealize.ShloMosaic

/-- A square of an extended real is non-negative. -/
theorem mul_self_nonneg (d : EReal) : 0 ≤ d * d :=
  EReal.mul_nonneg_iff.2 ((le_total 0 d).imp (fun h => ⟨h, h⟩) (fun h => ⟨h, h⟩))

/-- A finite sum of squares of extended reals is non-negative. -/
theorem sum_mul_self_nonneg {ι : Type*} (s : Finset ι) (f : ι → EReal) : 0 ≤ ∑ i ∈ s, f i * f i :=
  Finset.sum_nonneg fun i _ => mul_self_nonneg (f i)

/-- The quotient of a non-negative extended real by a positive real is non-negative. -/
theorem div_coe_nonneg {s : EReal} (hs : 0 ≤ s) {n : ℝ} (hn : 0 < n) : 0 ≤ Ideal.div s (n : EReal) := by
  rw [Ideal.div_coe hn.ne']
  exact EReal.mul_nonneg hs (EReal.coe_nonneg.2 (one_div_pos.2 hn).le)

/-- A non-negative extended real plus a positive real is positive. -/
theorem add_coe_pos {a : EReal} (ha : 0 ≤ a) {e : ℝ} (he : 0 < e) : 0 < a + (e : EReal) :=
  lt_of_lt_of_le (EReal.coe_pos.2 he) (le_add_of_nonneg_left ha)

/-- THE LAW: for a positive extended real `v`, the product with its reciprocal square root is the quotient by its
    square root, for every extended real `d`. -/
theorem mul_rsqrt_eq_div_sqrt (d : EReal) {v : EReal} (hv : 0 < v) :
    d * Ideal.rsqrt v = Ideal.div d (Ideal.sqrt v) := by
  induction v using EReal.rec with
  | bot => exact absurd hv (not_lt.2 bot_le)
  | top =>
    rw [Ideal.rsqrt_top, Ideal.sqrt_top, Ideal.div, if_neg (by simp), EReal.inv_top]
  | coe r =>
    have hr : 0 < r := EReal.coe_pos.1 hv
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hs), EReal.coe_inv]

/-- The same with the variance spelt out: `v` a sum of squares over a positive real, plus a positive real. -/
theorem mul_rsqrt_var_eq_div_sqrt {ι : Type*} (s : Finset ι) (f : ι → EReal) {n e : ℝ} (hn : 0 < n) (he : 0 < e)
    (d : EReal) :
    d * Ideal.rsqrt (Ideal.div (∑ i ∈ s, f i * f i) (n : EReal) + (e : EReal))
      = Ideal.div d (Ideal.sqrt (Ideal.div (∑ i ∈ s, f i * f i) (n : EReal) + (e : EReal))) :=
  mul_rsqrt_eq_div_sqrt d (add_coe_pos (div_coe_nonneg (sum_mul_self_nonneg s f) hn) he)

/-! ## The two float literals the law meets -/

/-- The pattern of `64.0` denotes the real `64`. -/
theorem ofBits_64 : Ideal.ofBits .f32 0x42800000#32 = ((64 : ℝ) : EReal) := by
  simp [Ideal.ofBits, Ideal.ieee, -EReal.coe_mul]; norm_num

/-- The pattern `0x3727C5AC` (the float nearest `1e-5`) denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.RsqrtLaw

end
-- ==== Proof.GinSpec.lean ====
/-
  The mathematics of one layer, over coordinate-indexed functions of extended reals.

  A layer takes the node features `x` (50000 rows of 128), their neighbourhood sums `a`, two dense layers with a
  rectifier between, an activation, and a batch normalisation over the 50000 rows. The normalisation is spelt in two ways:
  CENTRED — `(h − μ) · (σ² + ε)^(−1/2) · γ + β` with `σ²` the mean squared deviation — and AFFINE from the raw moments —
  `h · s + (β − μ · s)` with `s = γ · (E[h²] − μ² + ε)^(−1/2)`. On the extended reals the two differ at the infinities
  (distributivity fails there); on REAL data they agree, because the mean of the squares minus the squared mean is the
  mean squared deviation, which is non-negative, so the inverse square root is taken of a positive real on both sides.
  Every operation of a layer keeps real entries real, so a stack of layers stays on real data when its inputs are real.
-/
import proofs.«121838_j70282844831870_1_alg».proof.Proof.LibBatchNormForms
import proofs.«121838_j70282844831870_1_alg».proof.Proof.LibRealEntries
import proofs.«121838_j70282844831870_1_alg».proof.Proof.LibRsqrtLaw

noncomputable section

namespace Cert.GinSpec

open Idealize.ShloMosaic Cert.Proof.Spec Cert.BatchNormForms

/-- A matrix of extended reals by its two coordinates; a row vector by its coordinate. -/
abbrev Mat (a b : Nat) := Fin a → Fin b → EReal
abbrev Row (b : Nat) := Fin b → EReal

/-- The number of rows, as the divisor of the means. -/
def rows : EReal := ((50000 : ℝ) : EReal)

/-- Two dense layers on `x + a` with a rectifier between, then the activation `act`. -/
def mlp (act : EReal → EReal) (x a : Mat 50000 128) (w1 : Mat 128 128) (b1 : Row 128) (w2 : Mat 128 128) (b2 : Row 128) :
    Mat 50000 128 :=
  fun r q => act ((∑ k : Fin 128, max ((∑ j : Fin 128, (x r j + a r j) * w1 j k) + b1 k) 0 * w2 k q) + b2 q)

/-- The column mean. -/
def mean (h : Mat 50000 128) : Row 128 := fun q => Ideal.div (∑ n : Fin 50000, h n q) rows

/-- The centred normalisation: deviations from the mean, scaled by the inverse root of the mean squared deviation plus `ε`. -/
def bnCentred (eps : EReal) (h : Mat 50000 128) (g b : Row 128) : Mat 50000 128 :=
  fun r q => (h r q - mean h q)
      * Ideal.rsqrt (Ideal.div (∑ n : Fin 50000, (h n q - mean h q) * (h n q - mean h q)) rows + eps) * g q + b q

/-- The scale of the affine form: `γ` times the inverse root of the raw-moment variance plus `ε`. -/
def scale (eps : EReal) (h : Mat 50000 128) (g : Row 128) : Row 128 :=
  fun q => g q * Ideal.rsqrt (Ideal.div (∑ n : Fin 50000, h n q * h n q) rows - mean h q * mean h q + eps)

/-- The shift of the affine form. -/
def shift (eps : EReal) (h : Mat 50000 128) (g b : Row 128) : Row 128 :=
  fun q => b q - mean h q * scale eps h g q

/-- The affine normalisation from the raw moments. -/
def bnAffine (eps : EReal) (h : Mat 50000 128) (g b : Row 128) : Mat 50000 128 :=
  fun r q => h r q * scale eps h g q + shift eps h g b q

/-- On real data the affine form from the raw moments is the centred form (the unclamped spelling: the raw-moment
    variance is the mean squared deviation, hence non-negative, by itself). -/
theorem affine_eq_centred_real {ι : Type*} [Fintype ι] (X : ι → ℝ) (N ε γ β x : ℝ)
    (hN : N = (Fintype.card ι : ℝ)) (hN0 : 0 < N) (hε : 0 < ε) :
    (x : EReal) * ((γ : EReal) * Ideal.rsqrt (Ideal.div (∑ i, (X i : EReal) * (X i : EReal)) (N : EReal)
          - Ideal.div (∑ i, (X i : EReal)) (N : EReal) * Ideal.div (∑ i, (X i : EReal)) (N : EReal) + (ε : EReal)))
      + ((β : EReal) - Ideal.div (∑ i, (X i : EReal)) (N : EReal)
          * ((γ : EReal) * Ideal.rsqrt (Ideal.div (∑ i, (X i : EReal) * (X i : EReal)) (N : EReal)
          - Ideal.div (∑ i, (X i : EReal)) (N : EReal) * Ideal.div (∑ i, (X i : EReal)) (N : EReal) + (ε : EReal))))
    = ((x : EReal) - Ideal.div (∑ i, (X i : EReal)) (N : EReal))
        * Ideal.rsqrt (Ideal.div (∑ i, ((X i : EReal) - Ideal.div (∑ j, (X j : EReal)) (N : EReal))
            * ((X i : EReal) - Ideal.div (∑ j, (X j : EReal)) (N : EReal))) (N : EReal) + (ε : EReal)) * (γ : EReal)
      + (β : EReal) := by
  have hN' : N ≠ 0 := hN0.ne'
  have hs : (∑ i, (X i : EReal)) = ((∑ i, X i : ℝ) : EReal) := (Cert.BatchNormForms.coe_sum _ _).symm
  have hq : (∑ i, (X i : EReal) * (X i : EReal)) = ((∑ i, X i * X i : ℝ) : EReal) := by
    rw [Cert.BatchNormForms.coe_sum]; exact Finset.sum_congr rfl fun i _ => (EReal.coe_mul _ _).symm
  rw [hq, hs, div_coe_coe _ _ hN', div_coe_coe _ _ hN']
  have hd : (∑ i, ((X i : EReal) - (((∑ j, X j) / N : ℝ) : EReal)) * ((X i : EReal) - (((∑ j, X j) / N : ℝ) : EReal)))
      = ((∑ i, (X i - (∑ j, X j) / N) * (X i - (∑ j, X j) / N) : ℝ) : EReal) := by
    rw [Cert.BatchNormForms.coe_sum]; exact Finset.sum_congr rfl fun i _ => by rw [EReal.coe_mul, EReal.coe_sub]
  rw [hd, div_coe_coe _ _ hN']
  simp only [← EReal.coe_mul, ← EReal.coe_sub, ← EReal.coe_add]
  rw [var_forms X N hN hN', rsqrt_coe_pos (add_pos_of_nonneg_of_pos (msd_nonneg X N _ hN0) hε)]
  simp only [← EReal.coe_mul, ← EReal.coe_sub, ← EReal.coe_add]
  congr 1
  ring

/-- The two spellings of the normalisation agree on real data with real `γ`, `β` and a positive real `ε`. -/
theorem bnAffine_eq_bnCentred (eps : EReal) (heps : ∃ e : ℝ, 0 < e ∧ eps = (e : EReal)) (h : Mat 50000 128)
    (hh : ∀ r q, IsReal (h r q)) (g b : Row 128) (hg : ∀ q, IsReal (g q)) (hb : ∀ q, IsReal (b q)) :
    bnAffine eps h g b = bnCentred eps h g b := by
  obtain ⟨e, he, rfl⟩ := heps
  choose X hX using hh
  funext r q
  obtain ⟨γ, hγ⟩ := hg q
  obtain ⟨β, hβ⟩ := hb q
  simp only [bnAffine, bnCentred, scale, shift, mean, rows, hX, hγ, hβ]
  exact affine_eq_centred_real (fun n => X n q) 50000 e γ β (X r q) (by simp) (by norm_num) he

/-- The centred normalisation of real data with real `γ`, `β` and a positive real `ε` is real. -/
theorem bnCentred_real (eps : EReal) (heps : ∃ e : ℝ, 0 < e ∧ eps = (e : EReal)) (h : Mat 50000 128)
    (hh : ∀ r q, IsReal (h r q)) (g b : Row 128) (hg : ∀ q, IsReal (g q)) (hb : ∀ q, IsReal (b q)) (r : Fin 50000)
    (q : Fin 128) : IsReal (bnCentred eps h g b r q) := by
  have hrows : IsReal rows := ⟨50000, rfl⟩
  have hdiv : ∀ s : EReal, IsReal s → IsReal (Ideal.div s rows) := fun s hs => by
    obtain ⟨a, rfl⟩ := hs
    exact ⟨a / 50000, div_coe_coe a 50000 (by norm_num)⟩
  have hm : IsReal (mean h q) := hdiv _ (IsReal.sum _ _ fun n _ => hh n q)
  have hv : IsReal (Ideal.div (∑ n : Fin 50000, (h n q - mean h q) * (h n q - mean h q)) rows) :=
    hdiv _ (IsReal.sum _ _ fun n _ => ((hh n q).sub hm).mul ((hh n q).sub hm))
  have hv0 : 0 ≤ Ideal.div (∑ n : Fin 50000, (h n q - mean h q) * (h n q - mean h q)) rows :=
    Cert.RsqrtLaw.div_coe_nonneg (Cert.RsqrtLaw.sum_mul_self_nonneg _ _) (by norm_num : (0 : ℝ) < 50000)
  exact ((((hh r q).sub hm).mul (rsqrt_real hv hv0 (by obtain ⟨e, he, rfl⟩ := heps; exact ⟨e, he, rfl⟩))).mul (hg q)).add (hb q)

/-- The dense layers keep real entries real when the activation does. -/
theorem mlp_real (act : EReal → EReal) (hact : ∀ z, IsReal z → IsReal (act z)) (x a : Mat 50000 128) (w1 : Mat 128 128)
    (b1 : Row 128) (w2 : Mat 128 128) (b2 : Row 128) (hx : ∀ r q, IsReal (x r q)) (ha : ∀ r q, IsReal (a r q))
    (hw1 : ∀ j k, IsReal (w1 j k)) (hb1 : ∀ k, IsReal (b1 k)) (hw2 : ∀ j k, IsReal (w2 j k)) (hb2 : ∀ k, IsReal (b2 k))
    (r : Fin 50000) (q : Fin 128) : IsReal (mlp act x a w1 b1 w2 b2 r q) :=
  hact _ ((IsReal.sum _ _ fun k _ =>
    (((IsReal.sum _ _ fun j _ => ((hx r j).add (ha r j)).mul (hw1 j k)).add (hb1 k)).max IsReal.zero).mul (hw2 k q)).add (hb2 q))

/-- One layer in the reference's spelling and in the kernel's. -/
def layerCentred (act : EReal → EReal) (eps : EReal) (x a : Mat 50000 128) (w1 : Mat 128 128) (b1 : Row 128)
    (w2 : Mat 128 128) (b2 g b : Row 128) : Mat 50000 128 :=
  bnCentred eps (mlp act x a w1 b1 w2 b2) g b

def layerAffine (act : EReal → EReal) (eps : EReal) (x a : Mat 50000 128) (w1 : Mat 128 128) (b1 : Row 128)
    (w2 : Mat 128 128) (b2 g b : Row 128) : Mat 50000 128 :=
  bnAffine eps (mlp act x a w1 b1 w2 b2) g b

end Cert.GinSpec

end
-- ==== Proof.KerLayerSpec.lean ====
/-
  The kernel's layer read against the specification, array by array.

  The first region's activations at row `n`, column `q` are the specification's two dense layers and activation of row
  `n` of the input and of its neighbourhood sums. The normalisation region multiplies each activation by the scale of
  its column and adds the shift; with the scale and shift the host forms from the column sums `S` and the column sums
  of squares `Q` of those same activations this is the specification's affine normalisation.
-/
import proofs.«121838_j70282844831870_1_alg».proof.Proof.GinBody
import proofs.«121838_j70282844831870_1_alg».proof.Proof.KerHost
import proofs.«121838_j70282844831870_1_alg».proof.Proof.GinSpec

set_option maxRecDepth 16384

noncomputable section

namespace Cert.KernelIdeal.KerLayer

open Idealize.ShloMosaic Idealize.ShloMosaic.ValueIdx
open Cert.KernelIdeal Cert.KernelIdeal.Gen Cert.KernelIdeal.KerHost Cert.GinSpec

/-- An array of 50000 × 128 by its two coordinates. -/
abbrev cur (x : S50000x128.Idx → EReal) : Mat 50000 128 := fun r q => x (ix2 r q)

/-- The first region's activations, by coordinates, as a function of the six arrays the region reads. -/
def hactFn (act : EReal → EReal) (x a : S50000x128.Idx → EReal) (W1 : S128x128.Idx → EReal) (b1 : S1x128.Idx → EReal)
    (W2 : S128x128.Idx → EReal) (b2 : S1x128.Idx → EReal) (n : Fin 50000) (q : Fin 128) : EReal :=
  act (Cert.KernelIdeal.Gin.pre2 (fun j => x (ix2 n j)) (fun j => a (ix2 n j)) W1 b1 W2 b2 q)

/-- They are the specification's dense layers and activation. -/
theorem hactFn_eq_mlp (act : EReal → EReal) (x a : S50000x128.Idx → EReal) (W1 : S128x128.Idx → EReal)
    (b1 : S1x128.Idx → EReal) (W2 : S128x128.Idx → EReal) (b2 : S1x128.Idx → EReal) (n : Fin 50000) (q : Fin 128) :
    hactFn act x a W1 b1 W2 b2 n q
      = mlp act (cur x) (cur a) (fun j k => W1 (ix2 j k)) (fun k => b1 (ix2 (0 : Fin 1) k))
          (fun j k => W2 (ix2 j k)) (fun k => b2 (ix2 (0 : Fin 1) k)) n q := rfl

/-- The normalisation region's output, by coordinates: activation times the column's scale plus the column's shift. -/
def normFn (H : S50000x128.Idx → EReal) (s t : S1x128.Idx → EReal) : S50000x128.Idx → EReal :=
  fun i => H i * s (ix2 (0 : Fin 1) (⟨(i 1).val, idx2_lt1 i⟩ : Fin 128)) + t (ix2 (0 : Fin 1) (⟨(i 1).val, idx2_lt1 i⟩ : Fin 128))

/-- With the host's scale and shift from the column sums of the activations, it is the specification's affine
    normalisation. -/
theorem normFn_apply (H : S50000x128.Idx → EReal) (S Q : S1x128.Idx → EReal) (gam bet : S128.Idx → EReal)
    (hS : ∀ q : Fin 128, S (ix2 (0 : Fin 1) q) = ∑ n : Fin 50000, H (ix2 n q))
    (hQ : ∀ q : Fin 128, Q (ix2 (0 : Fin 1) q) = ∑ n : Fin 50000, H (ix2 n q) * H (ix2 n q))
    (r : Fin 50000) (q : Fin 128) :
    normFn H (scaleK S Q gam) (shiftK S Q gam bet) (ix2 r q)
      = bnAffine (Ideal.ofBits .f32 0x3727C5AC#32) (cur H) (fun k => gam (ix1 k)) (fun k => bet (ix1 k)) r q := by
  show H (ix2 r q) * scaleK S Q gam (ix2 (0 : Fin 1) q) + shiftK S Q gam bet (ix2 (0 : Fin 1) q) = _
  rw [scaleK_apply, shiftK_apply, scaleVec_apply, hS, hQ]
  rfl

end Cert.KernelIdeal.KerLayer

end
-- ==== Proof.KerLayerArr.lean ====
/-
  The kernel's layer as ONE function of the arrays it reads, and its reading against the specification: the layer's output
  array is the specification's affine-form layer of the input, its neighbourhood sums, the weights, the biases, `γ` and `β`.
-/
import proofs.«121838_j70282844831870_1_alg».proof.Proof.KerLayerSpec

set_option maxRecDepth 16384

noncomputable section

namespace Cert.KernelIdeal.KerLayer

open Idealize.ShloMosaic Idealize.ShloMosaic.ValueIdx
open Cert.KernelIdeal Cert.KernelIdeal.Gen Cert.KernelIdeal.KerHost Cert.GinSpec

/-- The activations as an array. -/
def hactArr (act : EReal → EReal) (x a : S50000x128.Idx → EReal) (W1 : S128x128.Idx → EReal) (b1 : S1x128.Idx → EReal)
    (W2 : S128x128.Idx → EReal) (b2 : S1x128.Idx → EReal) : S50000x128.Idx → EReal :=
  fun i => hactFn act x a W1 b1 W2 b2 (⟨(i 0).val, idx2_lt0 i⟩ : Fin 50000) (⟨(i 1).val, idx2_lt1 i⟩ : Fin 128)

/-- The column sums of an array, and of its squares, as 1 × 128 arrays. -/
def sumArr (H : S50000x128.Idx → EReal) : S1x128.Idx → EReal :=
  fun j => ∑ n : Fin 50000, H (ix2 n (⟨(j 1).val, idx2_lt1 j⟩ : Fin 128))

def sqArr (H : S50000x128.Idx → EReal) : S1x128.Idx → EReal :=
  fun j => ∑ n : Fin 50000, H (ix2 n (⟨(j 1).val, idx2_lt1 j⟩ : Fin 128)) * H (ix2 n (⟨(j 1).val, idx2_lt1 j⟩ : Fin 128))

theorem sumArr_apply (H : S50000x128.Idx → EReal) (q : Fin 128) :
    sumArr H (ix2 (0 : Fin 1) q) = ∑ n : Fin 50000, H (ix2 n q) := by
  unfold sumArr
  exact Finset.sum_congr rfl fun n _ => rfl

theorem sqArr_apply (H : S50000x128.Idx → EReal) (q : Fin 128) :
    sqArr H (ix2 (0 : Fin 1) q) = ∑ n : Fin 50000, H (ix2 n q) * H (ix2 n q) := by
  unfold sqArr
  exact Finset.sum_congr rfl fun n _ => rfl

/-- The layer's output array. -/
def layerArr (act : EReal → EReal) (x a : S50000x128.Idx → EReal) (W1 : S128x128.Idx → EReal) (b1 : S1x128.Idx → EReal)
    (W2 : S128x128.Idx → EReal) (b2 : S1x128.Idx → EReal) (gam bet : S128.Idx → EReal) : S50000x128.Idx → EReal :=
  normFn (hactArr act x a W1 b1 W2 b2) (scaleK (sumArr (hactArr act x a W1 b1 W2 b2)) (sqArr (hactArr act x a W1 b1 W2 b2)) gam)
    (shiftK (sumArr (hactArr act x a W1 b1 W2 b2)) (sqArr (hactArr act x a W1 b1 W2 b2)) gam bet)

/-- The layer's output at row `r`, column `q` is the specification's affine-form layer. -/
theorem layerArr_apply (act : EReal → EReal) (x a : S50000x128.Idx → EReal) (W1 : S128x128.Idx → EReal)
    (b1 : S1x128.Idx → EReal) (W2 : S128x128.Idx → EReal) (b2 : S1x128.Idx → EReal) (gam bet : S128.Idx → EReal)
    (r : Fin 50000) (q : Fin 128) :
    layerArr act x a W1 b1 W2 b2 gam bet (ix2 r q)
      = layerAffine act (Ideal.ofBits .f32 0x3727C5AC#32) (cur x) (cur a) (fun j k => W1 (ix2 j k))
          (fun k => b1 (ix2 (0 : Fin 1) k)) (fun j k => W2 (ix2 j k)) (fun k => b2 (ix2 (0 : Fin 1) k))
          (fun k => gam (ix1 k)) (fun k => bet (ix1 k)) r q := by
  unfold layerArr
  rw [normFn_apply _ _ _ gam bet (sumArr_apply _) (sqArr_apply _) r q]
  rfl

end Cert.KernelIdeal.KerLayer

end
-- ==== Proof.KerFold0.lean ====
/-
  Layer 0 of the kernel's program, folded: from the buffer contents at the layer's first boundary, through its stretch of
  host operations, its first region (activations, column sums, column sums of squares), the second stretch (scale and
  shift) and its normalisation region, the layer's output buffer ends holding the layer function of what the first
  boundary holds in the input, the edge vectors and the stacked arguments.
-/
import proofs.«121838_j70282844831870_1_alg».proof.Proof.Gen.KernelIdeal.Frame
import proofs.«121838_j70282844831870_1_alg».proof.Proof.KerStretch0
import proofs.«121838_j70282844831870_1_alg».proof.Proof.GinRegion0
import proofs.«121838_j70282844831870_1_alg».proof.Proof.BnRegion1
import proofs.«121838_j70282844831870_1_alg».proof.Proof.KerLayerArr

set_option maxRecDepth 16384
set_option maxHeartbeats 4000000

noncomputable section

namespace Cert.KernelIdeal.Fold0

open Idealize.ShloMosaic Idealize.ShloMosaic.TcCoe Idealize.SL.Sem Idealize.ShloMosaic.StableHlo
open Cert.KernelIdeal Cert.KernelIdeal.Gen Cert.KernelIdeal.KerHost Cert.KernelIdeal.KerLayer Idealize.ShloMosaic.ValueIdx

section Region
variable (V : (c : Dev nD) → (b : Ref sig .tc) → Buf (Elt Ideal) ((c : Thread nD τ).loc b))

/-- The first region's three output arrays as functions of the six arrays it reads. -/
theorem g6_eq (c : Dev nD) : Gin0.G6 V c = hactArr (fun z => max z 0) (V c main_arg0) (V c main_v25) (V c main_v5) (V c main_v26) (V c main_v9) (V c main_v27) := by
  funext i
  unfold Gin0.G6 Gin0.hactN
  rw [dif_pos (idx2_lt0 i)]
  rfl

theorem g7_eq (c : Dev nD) : Gin0.G7 V c = sumArr (hactArr (fun z => max z 0) (V c main_arg0) (V c main_v25) (V c main_v5) (V c main_v26) (V c main_v9) (V c main_v27)) := by
  funext j
  unfold Gin0.G7 Gin0.hactN sumArr
  refine Finset.sum_congr rfl fun n _ => ?_
  rw [dif_pos n.isLt]
  rfl

theorem g8_eq (c : Dev nD) : Gin0.G8 V c = sqArr (hactArr (fun z => max z 0) (V c main_arg0) (V c main_v25) (V c main_v5) (V c main_v26) (V c main_v9) (V c main_v27)) := by
  funext j
  unfold Gin0.G8 Gin0.hactN sqArr
  refine Finset.sum_congr rfl fun n _ => ?_
  rw [dif_pos n.isLt]
  rfl
end Region

variable (m : (ℓ : Loc nD τ sig) → Buf (Elt Ideal) ℓ) (ρ : Dev nD → PrngReg)

/-- THE LAYER'S OUTPUT BUFFER at the layer's last boundary. -/
theorem out_eq (c : Dev nD) :
    W4 m ρ c (Proc.devRef .tc main_v45)
      = layerArr (fun z => max z 0) (W0 m ρ c (Proc.devRef .tc main_arg0)) (aggOf (W0 m ρ c (Proc.devRef .tc main_arg0)) (srcOf (W0 m ρ c (Proc.devRef .tc main_arg1))) (dstOf (W0 m ρ c (Proc.devRef .tc main_arg1))))
          (matOf ![0, 0, 0] slices_S7x128x128_S1x128x128_0_0_0 (W0 m ρ c (Proc.devRef .tc main_arg3))) (rowOf ![0, 0] slices_S7x128_S1x128_0_0 (W0 m ρ c (Proc.devRef .tc main_arg4)))
          (matOf ![0, 0, 0] slices_S7x128x128_S1x128x128_0_0_0 (W0 m ρ c (Proc.devRef .tc main_arg5))) (rowOf ![0, 0] slices_S7x128_S1x128_0_0 (W0 m ρ c (Proc.devRef .tc main_arg6)))
          (vecOf ![0, 0] slices_S7x128_S1x128_0_0 (W0 m ρ c (Proc.devRef .tc main_arg7))) (vecOf ![0, 0] slices_S7x128_S1x128_0_0 (W0 m ρ c (Proc.devRef .tc main_arg8))) := by
  have e4 : W4 m ρ c (Proc.devRef .tc main_v45) = (dat1 (V3 m ρ) c).arrAt 3 cfg1.N := W4_arr m ρ c 3
  have eh : V3 m ρ c main_v28_0 = W2 m ρ c (Proc.devRef .tc main_v28_0) := Stretch0.b_h (W2 m ρ c)
  have es : V3 m ρ c main_v43 = scaleK (W2 m ρ c (Proc.devRef .tc main_v28_1)) (W2 m ρ c (Proc.devRef .tc main_v28_2)) (W2 m ρ c (Proc.devRef .tc main_v13)) :=
    Stretch0.b_scale (W2 m ρ c)
  have et : V3 m ρ c main_v44 = shiftK (W2 m ρ c (Proc.devRef .tc main_v28_1)) (W2 m ρ c (Proc.devRef .tc main_v28_2)) (W2 m ρ c (Proc.devRef .tc main_v13)) (W2 m ρ c (Proc.devRef .tc main_v15)) :=
    Stretch0.b_shift (W2 m ρ c)
  have h6 : W2 m ρ c (Proc.devRef .tc main_v28_0) = hactArr (fun z => max z 0) (V1 m ρ c main_arg0) (V1 m ρ c main_v25) (V1 m ρ c main_v5) (V1 m ρ c main_v26) (V1 m ρ c main_v9) (V1 m ρ c main_v27) :=
    (W2_arr m ρ c 6).trans ((Gin0.arr6 (V1 m ρ) c).trans (g6_eq (V1 m ρ) c))
  have h7 : W2 m ρ c (Proc.devRef .tc main_v28_1) = sumArr (hactArr (fun z => max z 0) (V1 m ρ c main_arg0) (V1 m ρ c main_v25) (V1 m ρ c main_v5) (V1 m ρ c main_v26) (V1 m ρ c main_v9) (V1 m ρ c main_v27)) :=
    (W2_arr m ρ c 7).trans ((Gin0.arr7 (V1 m ρ) c).trans (g7_eq (V1 m ρ) c))
  have h8 : W2 m ρ c (Proc.devRef .tc main_v28_2) = sqArr (hactArr (fun z => max z 0) (V1 m ρ c main_arg0) (V1 m ρ c main_v25) (V1 m ρ c main_v5) (V1 m ρ c main_v26) (V1 m ρ c main_v9) (V1 m ρ c main_v27)) :=
    (W2_arr m ρ c 8).trans ((Gin0.arr8 (V1 m ρ) c).trans (g8_eq (V1 m ρ) c))
  have hg : W2 m ρ c (Proc.devRef .tc main_v13) = (vecOf ![0, 0] slices_S7x128_S1x128_0_0 (W0 m ρ c (Proc.devRef .tc main_arg7))) :=
    (W2_of_ne m ρ c main_v13 (by decide)).trans (Stretch0.g_gam (W0 m ρ c))
  have hb : W2 m ρ c (Proc.devRef .tc main_v15) = (vecOf ![0, 0] slices_S7x128_S1x128_0_0 (W0 m ρ c (Proc.devRef .tc main_arg8))) :=
    (W2_of_ne m ρ c main_v15 (by decide)).trans (Stretch0.g_bet (W0 m ρ c))
  have vx : V1 m ρ c main_arg0 = (W0 m ρ c (Proc.devRef .tc main_arg0)) := Stretch0.g_x (W0 m ρ c)
  have va : V1 m ρ c main_v25 = (aggOf (W0 m ρ c (Proc.devRef .tc main_arg0)) (srcOf (W0 m ρ c (Proc.devRef .tc main_arg1))) (dstOf (W0 m ρ c (Proc.devRef .tc main_arg1)))) := Stretch0.g_agg (W0 m ρ c)
  have vw1 : V1 m ρ c main_v5 = (matOf ![0, 0, 0] slices_S7x128x128_S1x128x128_0_0_0 (W0 m ρ c (Proc.devRef .tc main_arg3))) := Stretch0.g_w1 (W0 m ρ c)
  have vb1 : V1 m ρ c main_v26 = (rowOf ![0, 0] slices_S7x128_S1x128_0_0 (W0 m ρ c (Proc.devRef .tc main_arg4))) := Stretch0.g_b1 (W0 m ρ c)
  have vw2 : V1 m ρ c main_v9 = (matOf ![0, 0, 0] slices_S7x128x128_S1x128x128_0_0_0 (W0 m ρ c (Proc.devRef .tc main_arg5))) := Stretch0.g_w2 (W0 m ρ c)
  have vb2 : V1 m ρ c main_v27 = (rowOf ![0, 0] slices_S7x128_S1x128_0_0 (W0 m ρ c (Proc.devRef .tc main_arg6))) := Stretch0.g_b2 (W0 m ρ c)
  rw [e4, Bn1.final (V3 m ρ) c, eh, es, et, h6, h7, h8, hg, hb, vx, va, vw1, vb1, vw2, vb2]
  rfl

end Cert.KernelIdeal.Fold0

end
-- ==== Proof.KerStretch1.lean ====
/-
  Layer 1: what its two stretches of host operations leave in the buffers its two regions read, from any contents
  `W` at the stretch's start. The first stretch slices the layer's weights, biases, `γ` and `β` out of the stacked
  arguments and forms the neighbourhood sums of the layer's input; the second turns the column sums and the column sums of squares into the
  normalisation's scale and shift and leaves the activations in place.
-/
import proofs.«121838_j70282844831870_1_alg».proof.Proof.Gen.KernelIdeal.Frame
import proofs.«121838_j70282844831870_1_alg».proof.Proof.KerHost
import Idealize.ShloMosaic.Lib.StableHlo.Run

set_option maxRecDepth 16384
set_option maxHeartbeats 4000000

noncomputable section

namespace Cert.KernelIdeal.Stretch1

open Idealize.ShloMosaic Idealize.ShloMosaic.TcCoe Idealize.SL.Sem Idealize.ShloMosaic.StableHlo
open Cert.KernelIdeal Cert.KernelIdeal.Gen Cert.KernelIdeal.KerHost

variable (W : Valuation τ sig (Elt Ideal))

theorem g_agg : after (hostOps2 (F := Ideal)) W (Proc.devRef .tc main_v67)
    = aggOf (W (Proc.devRef .tc main_v45)) (W (Proc.devRef .tc main_v1)) (W (Proc.devRef .tc main_v3)) := by
  after_results_simp; rfl

theorem g_x : after (hostOps2 (F := Ideal)) W (Proc.devRef .tc main_v45) = W (Proc.devRef .tc main_v45) := by
  after_results_simp

theorem g_w1 : after (hostOps2 (F := Ideal)) W (Proc.devRef .tc main_v47)
    = matOf ![1, 0, 0] slices_S7x128x128_S1x128x128_1_0_0 (W (Proc.devRef .tc main_arg3)) := by
  after_results_simp; rfl

theorem g_b1 : after (hostOps2 (F := Ideal)) W (Proc.devRef .tc main_v68)
    = rowOf ![1, 0] slices_S7x128_S1x128_1_0 (W (Proc.devRef .tc main_arg4)) := by
  after_results_simp; rfl

theorem g_w2 : after (hostOps2 (F := Ideal)) W (Proc.devRef .tc main_v51)
    = matOf ![1, 0, 0] slices_S7x128x128_S1x128x128_1_0_0 (W (Proc.devRef .tc main_arg5)) := by
  after_results_simp; rfl

theorem g_b2 : after (hostOps2 (F := Ideal)) W (Proc.devRef .tc main_v69)
    = rowOf ![1, 0] slices_S7x128_S1x128_1_0 (W (Proc.devRef .tc main_arg6)) := by
  after_results_simp; rfl

theorem g_gam : after (hostOps2 (F := Ideal)) W (Proc.devRef .tc main_v55)
    = vecOf ![1, 0] slices_S7x128_S1x128_1_0 (W (Proc.devRef .tc main_arg7)) := by
  after_results_simp; rfl

theorem g_bet : after (hostOps2 (F := Ideal)) W (Proc.devRef .tc main_v57)
    = vecOf ![1, 0] slices_S7x128_S1x128_1_0 (W (Proc.devRef .tc main_arg8)) := by
  after_results_simp; rfl

theorem b_scale : after (hostOps3 (F := Ideal)) W (Proc.devRef .tc main_v85)
    = scaleK (W (Proc.devRef .tc main_v70_1)) (W (Proc.devRef .tc main_v70_2)) (W (Proc.devRef .tc main_v55)) := by
  after_results_simp; rfl

theorem b_shift : after (hostOps3 (F := Ideal)) W (Proc.devRef .tc main_v86)
    = shiftK (W (Proc.devRef .tc main_v70_1)) (W (Proc.devRef .tc main_v70_2)) (W (Proc.devRef .tc main_v55)) (W (Proc.devRef .tc main_v57)) := by
  after_results_simp; rfl

theorem b_h : after (hostOps3 (F := Ideal)) W (Proc.devRef .tc main_v70_0) = W (Proc.devRef .tc main_v70_0) := by
  after_results_simp

end Cert.KernelIdeal.Stretch1

end
-- ==== Proof.GinBody2.lean ====
/-
  The second and third layers' bodies (clamped activation), each stored value read at an index: the same formulas as the
  first layer's, over these bodies' own payload terms (the column sums are viewed as a row one step later).
-/
import proofs.«121838_j70282844831870_1_alg».proof.Proof.GinBody

noncomputable section

namespace Cert.KernelIdeal.Gin

open Idealize.ShloMosaic Idealize.ShloMosaic.ValueIdx Cert.KernelIdeal Cert.KernelIdeal.Gen

/-- The block the body stores as the activation, at row r and feature q: the clamped pre-activation of the block's row r. -/
theorem k2_pay5_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k2_pay5 (F := Ideal) x0 x1 x2 x3 x4 x5 (ix2 r q)
      = max (pre2 (fun j => x0 (ix2 r j)) (fun j => x1 (ix2 r j)) x2 x3 x4 x5 q) 0 := by
  unfold k2_pay5 pre2
  simp only [shapeCast_self, maximumf_apply, addf_apply, truncf_apply, broadcast_apply, matmul_apply, bcast_row_apply]
  rw [show (Scalar.ofBits FTy.f32 0x00000000#32 : Ideal .f32) = 0 from Ideal.ofBits_zero_f32]

/-- The block's column sums, as a vector: at feature q the sum over the block's rows of the activation. -/
theorem k2_pay7_apply (x0 x1 : Vec Ideal S5000x128 .f32) (x2 : Vec Ideal S128x128 .f32) (x3 : Vec Ideal S1x128 .f32)
    (x4 : Vec Ideal S128x128 .f32) (x5 : Vec Ideal S1x128 .f32) (q : Fin 128) :
    k2_pay7 (F := Ideal) x0 x1 x2 x3 x4 x5 (ix1 q) = ∑ r : Fin 5000, k2_pay5 (F := Ideal) x0 x1 x2 x3 x4 x5 (ix2 r q) := by
  unfold k2_pay7
  exact colSum_apply _ _ _ _ q

/-- The running sum of squares after a block: what was there plus the block's column sums of squares. -/
theorem k2_pay2_apply (a : FVec Ideal S5000x128 .f32) (s : Vec Ideal S1x128 .f32) (u : Fin 1) (q : Fin 128) :
    k2_pay2 (F := Ideal) a s (ix2 u q) = s (ix2 u q) + ∑ r : Fin 5000, a (ix2 r q) * a (ix2 r q) := by
  unfold k2_pay2
  rw [shapeCast_self]
  exact congrArg (s (ix2 u q) + ·) ((cast_row_apply _ _ u q).trans (colSum_apply _ _ _ _ q))

/-- The running sum after a block: what was there plus the block's column sums viewed as a row. -/
theorem k2_pay1_apply (s : FVec Ideal S1x128 .f32) (d : FVec Ideal S128 .f32) (u : Fin 1) (q : Fin 128) :
    k2_pay1 (F := Ideal) s d (ix2 u q) = s (ix2 u q) + d (ix1 q) := by
  unfold k2_pay1
  exact congrArg (s (ix2 u q) + ·) (cast_row_apply _ _ u q)

/-- The first point's reset stores zero (running sum). -/
theorem k2_pay3_apply (j : S1x128.Idx) : k2_pay3 (F := Ideal) j = 0 := Ideal.ofBits_zero_f32
/-- The first point's reset stores zero (running sum of squares). -/
theorem k2_pay4_apply (j : S1x128.Idx) : k2_pay4 (F := Ideal) j = 0 := Ideal.ofBits_zero_f32
/-- The running sum is read back unchanged. -/
theorem k2_pay6_eq (s : Vec Ideal S1x128 .f32) : k2_pay6 (F := Ideal) s = s := shapeCast_self _ _

/-- The block the body stores as the activation, at row r and feature q: the clamped pre-activation of the block's row r. -/
theorem k4_pay5_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k4_pay5 (F := Ideal) x0 x1 x2 x3 x4 x5 (ix2 r q)
      = max (pre2 (fun j => x0 (ix2 r j)) (fun j => x1 (ix2 r j)) x2 x3 x4 x5 q) 0 := by
  unfold k4_pay5 pre2
  simp only [shapeCast_self, maximumf_apply, addf_apply, truncf_apply, broadcast_apply, matmul_apply, bcast_row_apply]
  rw [show (Scalar.ofBits FTy.f32 0x00000000#32 : Ideal .f32) = 0 from Ideal.ofBits_zero_f32]

/-- The block's column sums, as a vector: at feature q the sum over the block's rows of the activation. -/
theorem k4_pay7_apply (x0 x1 : Vec Ideal S5000x128 .f32) (x2 : Vec Ideal S128x128 .f32) (x3 : Vec Ideal S1x128 .f32)
    (x4 : Vec Ideal S128x128 .f32) (x5 : Vec Ideal S1x128 .f32) (q : Fin 128) :
    k4_pay7 (F := Ideal) x0 x1 x2 x3 x4 x5 (ix1 q) = ∑ r : Fin 5000, k4_pay5 (F := Ideal) x0 x1 x2 x3 x4 x5 (ix2 r q) := by
  unfold k4_pay7
  exact colSum_apply _ _ _ _ q

/-- The running sum of squares after a block: what was there plus the block's column sums of squares. -/
theorem k4_pay2_apply (a : FVec Ideal S5000x128 .f32) (s : Vec Ideal S1x128 .f32) (u : Fin 1) (q : Fin 128) :
    k4_pay2 (F := Ideal) a s (ix2 u q) = s (ix2 u q) + ∑ r : Fin 5000, a (ix2 r q) * a (ix2 r q) := by
  unfold k4_pay2
  rw [shapeCast_self]
  exact congrArg (s (ix2 u q) + ·) ((cast_row_apply _ _ u q).trans (colSum_apply _ _ _ _ q))

/-- The running sum after a block: what was there plus the block's column sums viewed as a row. -/
theorem k4_pay1_apply (s : FVec Ideal S1x128 .f32) (d : FVec Ideal S128 .f32) (u : Fin 1) (q : Fin 128) :
    k4_pay1 (F := Ideal) s d (ix2 u q) = s (ix2 u q) + d (ix1 q) := by
  unfold k4_pay1
  exact congrArg (s (ix2 u q) + ·) (cast_row_apply _ _ u q)

/-- The first point's reset stores zero (running sum). -/
theorem k4_pay3_apply (j : S1x128.Idx) : k4_pay3 (F := Ideal) j = 0 := Ideal.ofBits_zero_f32
/-- The first point's reset stores zero (running sum of squares). -/
theorem k4_pay4_apply (j : S1x128.Idx) : k4_pay4 (F := Ideal) j = 0 := Ideal.ofBits_zero_f32
/-- The running sum is read back unchanged. -/
theorem k4_pay6_eq (s : Vec Ideal S1x128 .f32) : k4_pay6 (F := Ideal) s = s := shapeCast_self _ _

end Cert.KernelIdeal.Gin

end
-- ==== Proof.GinPieces2.lean ====
/-
  What each control case of layer 2's first kernel leaves in its three output staging buffers, as the body's stored
  values of the blocks it loaded.

  At the grid's first point (case A) the two running rows are first set to zero and then read back; at every later
  point (case B) they are read as the point before left them. In both cases the activation buffer is written once, by
  the activation of the loaded blocks, and each running row once more, by what it held plus the block's column sums
  (of the activation, and of its square). Every store covers its whole buffer, so the last store to a buffer is what
  the buffer holds; a load of a buffer after a covering store reads that store's value.
-/
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Gin2

open Cert.KernelIdeal Cert.KernelIdeal.Gen

/-! ## What each control case leaves in the three staging buffers, as the body's stored values -/

section Pieces
variable {F : FTy → Type} [FloatOps F]

theorem hz : (![0, 0] : Fin 2 → Nat) = fun _ => 0 := funext fun a => by fin_cases a <;> rfl

theorem outA6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 x1 : Vec F S5000x128 .f32) (x2 : Vec F S128x128 .f32) (x3 : Vec F S1x128 .f32) (x4 : Vec F S128x128 .f32) (x5 : Vec F S1x128 .f32) :
    out2_A_6 c i a1 h1 a2 h2 a3 h3 a4 h4 a5 h5 a6 h6 a7 h7 a8 h8 a9 h9 hc x0 x1 x2 x3 x4 x5 = k2_pay5 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  try sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 x1 : Vec F S5000x128 .f32) (x2 : Vec F S128x128 .f32) (x3 : Vec F S1x128 .f32) (x4 : Vec F S128x128 .f32) (x5 : Vec F S1x128 .f32) :
    out2_A_7 c i a1 h1 a2 h2 a3 h3 a4 h4 a5 h5 a6 h6 a7 h7 a8 h8 a9 h9 hc x0 x1 x2 x3 x4 x5 = k2_pay1 (k2_pay6 k2_pay3) (k2_pay7 x0 x1 x2 x3 x4 x5) := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA8 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 x1 : Vec F S5000x128 .f32) (x2 : Vec F S128x128 .f32) (x3 : Vec F S1x128 .f32) (x4 : Vec F S128x128 .f32) (x5 : Vec F S1x128 .f32) :
    out2_A_8 c i a1 h1 a2 h2 a3 h3 a4 h4 a5 h5 a6 h6 a7 h7 a8 h8 a9 h9 hc x0 x1 x2 x3 x4 x5 = k2_pay2 (k2_pay5 x0 x1 x2 x3 x4 x5) k2_pay4 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outB6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_6 c i a1 h1 a2 h2 a3 h3 a4 h4 a5 h5 a6 h6 a7 h7 a8 h8 a9 h9 hc x0 x1 x2 x3 x4 x5 xo7 xo8 = k2_pay5 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_7 c i a1 h1 a2 h2 a3 h3 a4 h4 a5 h5 a6 h6 a7 h7 a8 h8 a9 h9 hc x0 x1 x2 x3 x4 x5 xo7 xo8 = k2_pay1 (k2_pay6 xo7) (k2_pay7 x0 x1 x2 x3 x4 x5) := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB8 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_8 c i a1 h1 a2 h2 a3 h3 a4 h4 a5 h5 a6 h6 a7 h7 a8 h8 a9 h9 hc x0 x1 x2 x3 x4 x5 xo7 xo8 = k2_pay2 (k2_pay5 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

end Pieces

end Cert.KernelIdeal.Gin2

end
-- ==== Proof.GinRegion2.lean ====
/-
  Layer 2's first kernel, as three whole-array functions of the six arrays it reads.

  The kernel runs over ten tiles of 5000 nodes. At tile t it loads rows 5000 t … 5000 t + 4999 of the node features x
  and of the aggregated neighbour features agg, and the whole of the two weight matrices and two bias rows; it stores
  the activation of those rows as tile t of the activation array, and adds the tile's column sums of the activation,
  and of its square, into two running rows that the first tile starts from zero and that are written back once, after
  the last tile. So at the end of the region

    the activation array at (n, q) is  act( Σ_k max( Σ_j (x(n,j) + agg(n,j)) · W1(j,k) + b1(0,k), 0 ) · W2(k,q) + b2(0,q) ),
    the sum array at (0, q) is the sum over all 50000 nodes n of the activation at (n, q),
    the sum-of-squares array at (0, q) is the sum over all nodes of its square,

  with act the clamp below at zero. The ten partial sums are regrouped into one sum over all nodes: addition of extended reals is
  commutative and associative, and the first tile's zero is the additive unit, so nothing needs to be finite.
-/
import proofs.«121838_j70282844831870_1_alg».proof.Proof.GinBody2
import proofs.«121838_j70282844831870_1_alg».proof.Proof.GinPieces2
import proofs.«121838_j70282844831870_1_alg».proof.Proof.LibSegmentLinear
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Gin2

open Cert.KernelIdeal Cert.KernelIdeal.Gen Cert.KernelIdeal.Gin Idealize.ShloMosaic.ValueIdx

section Value
variable (V : (c : Dev nD) → (b : Ref sig .tc) → Buf (Elt Ideal) ((c : Thread nD τ).loc b))

/-- The grid has ten points. -/
theorem hN : cfg2.N = 10 := N_2

/-- The printed index maps over the grid: the two row-tiled inputs and the activation output sit at row block t, and
    the four parameter inputs and the two statistics outputs at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The layer's activation at node n and feature q, from the six arrays as the region finds them. -/
def hact (c : Dev nD) (n : Fin 50000) (q : Fin 128) : EReal :=
  max (pre2 (fun j => (V c (Pipeline.arrRef spec2 0) : S50000x128.Idx → EReal) (ix2 n j))
    (fun j => (V c (Pipeline.arrRef spec2 1) : S50000x128.Idx → EReal) (ix2 n j))
    (V c (Pipeline.arrRef spec2 2)) (V c (Pipeline.arrRef spec2 3)) (V c (Pipeline.arrRef spec2 4)) (V c (Pipeline.arrRef spec2 5)) q) 0

/-- The same with the node a natural number (zero past the last node), the form the sums over tiles of nodes use. -/
def hactN (c : Dev nD) (n : ℕ) (q : Fin 128) : EReal := if h : n < 50000 then hact V c ⟨n, h⟩ q else 0

/-! ## The blocks the body loads, as rows of the arrays -/

/-- Row r of point t's block of a row-tiled input (the node features, the aggregated neighbour features) is row
    5000 t + r of the array. -/
theorem iblk_row0 (c : Dev nD) (t : Fin cfg2.N) (r : Fin 5000) (j : Fin 128) (h : t.val * 5000 + r.val < 50000) :
    (iblk2 V c 0 t : Vec Ideal S5000x128 .f32) (ix2 r j)
      = (V c (Pipeline.arrRef spec2 0) : S50000x128.Idx → EReal) (ix2 ⟨t.val * 5000 + r.val, h⟩ j) := by
  obtain ⟨e0, e1, -⟩ := idx_facts t
  unfold iblk2
  rw [View.read_apply]
  refine congrArg (V c (Pipeline.arrRef spec2 0) : S50000x128.Idx → EReal) (funext fun a => Fin.ext ?_)
  match a with
  | ⟨0, _⟩ => show win2_0.index t 0 * 5000 + 1 * r.val = t.val * 5000 + r.val; rw [e0]; omega
  | ⟨1, _⟩ => show win2_0.index t 1 * 128 + 1 * j.val = j.val; rw [e1]; omega

theorem iblk_row1 (c : Dev nD) (t : Fin cfg2.N) (r : Fin 5000) (j : Fin 128) (h : t.val * 5000 + r.val < 50000) :
    (iblk2 V c 1 t : Vec Ideal S5000x128 .f32) (ix2 r j)
      = (V c (Pipeline.arrRef spec2 1) : S50000x128.Idx → EReal) (ix2 ⟨t.val * 5000 + r.val, h⟩ j) := by
  obtain ⟨-, -, e0, e1, -⟩ := idx_facts t
  unfold iblk2
  rw [View.read_apply]
  refine congrArg (V c (Pipeline.arrRef spec2 1) : S50000x128.Idx → EReal) (funext fun a => Fin.ext ?_)
  match a with
  | ⟨0, _⟩ => show win2_1.index t 0 * 5000 + 1 * r.val = t.val * 5000 + r.val; rw [e0]; omega
  | ⟨1, _⟩ => show win2_1.index t 1 * 128 + 1 * j.val = j.val; rw [e1]; omega

/-- A parameter input's block is the whole array at every point. -/
theorem iblk_2 (c : Dev nD) (t : Fin cfg2.N) : (iblk2 V c 2 t : Vec Ideal S128x128 .f32) = V c (Pipeline.arrRef spec2 2) := by
  obtain ⟨-, -, -, -, e0, e1, -⟩ := idx_facts t
  funext y
  unfold iblk2
  rw [View.read_apply]
  refine congrArg (V c (Pipeline.arrRef spec2 2) : S128x128.Idx → EReal) (funext fun a => Fin.ext ?_)
  match a with
  | ⟨0, _⟩ => show win2_2.index t 0 * 128 + 1 * (y 0).val = (y 0).val; rw [e0]; omega
  | ⟨1, _⟩ => show win2_2.index t 1 * 128 + 1 * (y 1).val = (y 1).val; rw [e1]; omega

theorem iblk_3 (c : Dev nD) (t : Fin cfg2.N) : (iblk2 V c 3 t : Vec Ideal S1x128 .f32) = V c (Pipeline.arrRef spec2 3) := by
  obtain ⟨-, -, -, -, -, -, e0, e1, -⟩ := idx_facts t
  funext y
  unfold iblk2
  rw [View.read_apply]
  refine congrArg (V c (Pipeline.arrRef spec2 3) : S1x128.Idx → EReal) (funext fun a => Fin.ext ?_)
  match a with
  | ⟨0, _⟩ => show win2_3.index t 0 * 1 + 1 * (y 0).val = (y 0).val; rw [e0]; omega
  | ⟨1, _⟩ => show win2_3.index t 1 * 128 + 1 * (y 1).val = (y 1).val; rw [e1]; omega

theorem iblk_4 (c : Dev nD) (t : Fin cfg2.N) : (iblk2 V c 4 t : Vec Ideal S128x128 .f32) = V c (Pipeline.arrRef spec2 4) := by
  obtain ⟨-, -, -, -, -, -, -, -, e0, e1, -⟩ := idx_facts t
  funext y
  unfold iblk2
  rw [View.read_apply]
  refine congrArg (V c (Pipeline.arrRef spec2 4) : S128x128.Idx → EReal) (funext fun a => Fin.ext ?_)
  match a with
  | ⟨0, _⟩ => show win2_4.index t 0 * 128 + 1 * (y 0).val = (y 0).val; rw [e0]; omega
  | ⟨1, _⟩ => show win2_4.index t 1 * 128 + 1 * (y 1).val = (y 1).val; rw [e1]; omega

theorem iblk_5 (c : Dev nD) (t : Fin cfg2.N) : (iblk2 V c 5 t : Vec Ideal S1x128 .f32) = V c (Pipeline.arrRef spec2 5) := by
  obtain ⟨-, -, -, -, -, -, -, -, -, -, e0, e1, -⟩ := idx_facts t
  funext y
  unfold iblk2
  rw [View.read_apply]
  refine congrArg (V c (Pipeline.arrRef spec2 5) : S1x128.Idx → EReal) (funext fun a => Fin.ext ?_)
  match a with
  | ⟨0, _⟩ => show win2_5.index t 0 * 1 + 1 * (y 0).val = (y 0).val; rw [e0]; omega
  | ⟨1, _⟩ => show win2_5.index t 1 * 128 + 1 * (y 1).val = (y 1).val; rw [e1]; omega

/-- The activation the body computes from point t's blocks, at row r: the layer's activation at node 5000 t + r. -/
theorem blk_act (c : Dev nD) (t : Fin cfg2.N) (r : Fin 5000) (q : Fin 128) :
    k2_pay5 (F := Ideal) (iblk2 V c 0 t) (iblk2 V c 1 t) (iblk2 V c 2 t) (iblk2 V c 3 t) (iblk2 V c 4 t) (iblk2 V c 5 t) (ix2 r q) = hactN V c (t.val * 5000 + r.val) q := by
  have ht : t.val < 10 := lt_of_lt_of_eq t.isLt hN
  have h : t.val * 5000 + r.val < 50000 := by have := r.isLt; omega
  refine (k2_pay5_apply (iblk2 V c 0 t) (iblk2 V c 1 t) (iblk2 V c 2 t) (iblk2 V c 3 t) (iblk2 V c 4 t) (iblk2 V c 5 t) r q).trans ?_
  have e0 : (fun j => (iblk2 V c 0 t : Vec Ideal S5000x128 .f32) (ix2 r j)) = fun j => (V c (Pipeline.arrRef spec2 0) : S50000x128.Idx → EReal) (ix2 ⟨t.val * 5000 + r.val, h⟩ j) :=
    funext fun j => iblk_row0 V c t r j h
  have e1 : (fun j => (iblk2 V c 1 t : Vec Ideal S5000x128 .f32) (ix2 r j)) = fun j => (V c (Pipeline.arrRef spec2 1) : S50000x128.Idx → EReal) (ix2 ⟨t.val * 5000 + r.val, h⟩ j) :=
    funext fun j => iblk_row1 V c t r j h
  rw [e0, e1, iblk_2 V c t, iblk_3 V c t, iblk_4 V c t, iblk_5 V c t]
  unfold hactN
  rw [dif_pos h]
  rfl

/-! ## The staging buffers after each point -/

/-- What the three staging buffers hold after the first point, as the body's stored values of the point's blocks. -/
theorem outs_A (c : Dev nD) (t : Fin cfg2.N) (h0 : t.val % 10 = 0) :
    outsAt2 V c t.val t.isLt = (k2_pay5 (F := Ideal) (iblk2 V c 0 t) (iblk2 V c 1 t) (iblk2 V c 2 t) (iblk2 V c 3 t) (iblk2 V c 4 t) (iblk2 V c 5 t), k2_pay1 (k2_pay6 (k2_pay3 (F := Ideal))) (k2_pay7 (iblk2 V c 0 t) (iblk2 V c 1 t) (iblk2 V c 2 t) (iblk2 V c 3 t) (iblk2 V c 4 t) (iblk2 V c 5 t)), k2_pay2 (k2_pay5 (iblk2 V c 0 t) (iblk2 V c 1 t) (iblk2 V c 2 t) (iblk2 V c 3 t) (iblk2 V c 4 t) (iblk2 V c 5 t)) (k2_pay4 (F := Ideal))) :=
  (outsAt2_A V c t h0).trans (congrArg₂ Prod.mk
    (outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))
    (congrArg₂ Prod.mk
      (outA7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))
      (outA8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))))

/-- What they hold after a later point, over what the point before left in the two running rows. -/
theorem outs_B (c : Dev nD) (t : Fin cfg2.N) (h0 : ¬t.val % 10 = 0) :
    outsAt2 V c t.val t.isLt = (k2_pay5 (F := Ideal) (iblk2 V c 0 t) (iblk2 V c 1 t) (iblk2 V c 2 t) (iblk2 V c 3 t) (iblk2 V c 4 t) (iblk2 V c 5 t), k2_pay1 (k2_pay6 (outsAt2 V c (t.val - 1) (Nat.lt_of_le_of_lt (Nat.sub_le _ _) t.isLt)).2.1) (k2_pay7 (iblk2 V c 0 t) (iblk2 V c 1 t) (iblk2 V c 2 t) (iblk2 V c 3 t) (iblk2 V c 4 t) (iblk2 V c 5 t)), k2_pay2 (k2_pay5 (iblk2 V c 0 t) (iblk2 V c 1 t) (iblk2 V c 2 t) (iblk2 V c 3 t) (iblk2 V c 4 t) (iblk2 V c 5 t)) (outsAt2 V c (t.val - 1) (Nat.lt_of_le_of_lt (Nat.sub_le _ _) t.isLt)).2.2) :=
  (outsAt2_B V c t h0).trans (congrArg₂ Prod.mk
    (outB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (outB7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2)
      (outB8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2)))

/-- After point n the three staging buffers hold: the activation of point n's rows; the sums over the nodes of the
    tiles 0 … n of the activation; and of its square. -/
def Inv (c : Dev nD) (n : ℕ) (hn : n < cfg2.N) : Prop :=
  (outsAt2 V c n hn).1 = k2_pay5 (F := Ideal) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩)
  ∧ (∀ (u : Fin 1) (q : Fin 128), (outsAt2 V c n hn).2.1 (ix2 u q)
      = ∑ s ∈ Finset.range (n + 1), ∑ r : Fin 5000, hactN V c (s * 5000 + r.val) q)
  ∧ (∀ (u : Fin 1) (q : Fin 128), (outsAt2 V c n hn).2.2 (ix2 u q)
      = ∑ s ∈ Finset.range (n + 1), ∑ r : Fin 5000, hactN V c (s * 5000 + r.val) q * hactN V c (s * 5000 + r.val) q)

/-- It holds at every point: at the first the running rows start from the zero the point stores, and each later point
    adds its tile's column sums to what the point before left. -/
theorem inv (c : Dev nD) : ∀ (n : ℕ) (hn : n < cfg2.N), Inv V c n hn
  | 0, hn => by
    have e : outsAt2 V c 0 hn = _ := outs_A V c ⟨0, hn⟩ (Nat.zero_mod _)
    have hb : ∀ (r : Fin 5000) (q : Fin 128), k2_pay5 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (ix2 r q) = hactN V c (0 * 5000 + r.val) q :=
      fun r q => blk_act V c ⟨0, hn⟩ r q
    unfold Inv
    rw [e]
    dsimp only
    refine ⟨rfl, fun u q => ?_, fun u q => ?_⟩
    · rw [k2_pay1_apply _ _ u q, k2_pay6_eq, k2_pay3_apply, k2_pay7_apply (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) q, zero_add]
      rw [Finset.sum_range_one]
      exact Finset.sum_congr rfl fun r _ => hb r q
    · rw [k2_pay2_apply (k2_pay5 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)) _ u q, k2_pay4_apply, zero_add]
      rw [Finset.sum_range_one]
      exact Finset.sum_congr rfl fun r _ => by rw [hb r q]
  | n + 1, hn => by
    obtain ⟨-, ih7, ih8⟩ := inv c n (Nat.lt_of_succ_lt hn)
    have hB : ¬(⟨n + 1, hn⟩ : Fin cfg2.N).val % 10 = 0 := by have := hN; dsimp only; omega
    have e : outsAt2 V c (n + 1) hn = _ := outs_B V c ⟨n + 1, hn⟩ hB
    have hb : ∀ (r : Fin 5000) (q : Fin 128), k2_pay5 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (ix2 r q) = hactN V c ((n + 1) * 5000 + r.val) q :=
      fun r q => blk_act V c ⟨n + 1, hn⟩ r q
    unfold Inv
    rw [e]
    dsimp only
    refine ⟨rfl, fun u q => ?_, fun u q => ?_⟩
    · rw [k2_pay1_apply _ _ u q, k2_pay6_eq, k2_pay7_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) q]
      rw [Finset.sum_range_succ]
      exact congrArg₂ (· + ·) (ih7 u q) (Finset.sum_congr rfl fun r _ => hb r q)
    · rw [k2_pay2_apply (k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) _ u q]
      rw [Finset.sum_range_succ]
      exact congrArg₂ (· + ·) (ih8 u q) (Finset.sum_congr rfl fun r _ => by rw [hb r q])

/-! ## From the staging buffers to the arrays -/

/-- The ten tiles of 5000 nodes are all 50000 nodes. -/
theorem sum_tiles (f : ℕ → EReal) : ∑ s ∈ Finset.range 10, ∑ r : Fin 5000, f (s * 5000 + r.val) = ∑ n : Fin 50000, f n.val := by
  rw [Finset.sum_range]
  exact Cert.SegmentLinear.sum_blocks 10 5000 f

/-- The activation array: the layer's activation at every node and feature. -/
def G6 (c : Dev nD) : S50000x128.Idx → EReal := fun i => hactN V c (i 0).val (i 1)
/-- The sum array: per feature, the sum over all nodes of the activation. -/
def G7 (c : Dev nD) : S1x128.Idx → EReal := fun j => ∑ n : Fin 50000, hactN V c n.val (j 1)
/-- The sum-of-squares array: per feature, the sum over all nodes of the squared activation. -/
def G8 (c : Dev nD) : S1x128.Idx → EReal := fun j => ∑ n : Fin 50000, hactN V c n.val (j 1) * hactN V c n.val (j 1)

-- the two sums are never opened by unfolding: they are compared as they stand
attribute [local irreducible] G7 G8

/-- Tile t of the activation array, at row r: the activation at node 5000 t + r. -/
theorem G6_blk (c : Dev nD) (t : Fin cfg2.N) (r : Fin 5000) (q : Fin 128) :
    (((cfg2.win 6).blk t).view.read (Elt Ideal) (G6 V c) : Vec Ideal S5000x128 .f32) (ix2 r q)
      = hactN V c (t.val * 5000 + r.val) q := by
  obtain ⟨-, -, -, -, -, -, -, -, -, -, -, -, e0, e1, -⟩ := idx_facts t
  have ht : t.val < 10 := lt_of_lt_of_eq t.isLt hN
  have h : t.val * 5000 + r.val < 50000 := by have := r.isLt; omega
  have he : ((cfg2.win 6).blk t).view.emb (ix2 r q) = (ix2 ⟨t.val * 5000 + r.val, h⟩ q : S50000x128.Idx) :=
    funext fun a => Fin.ext (by
      match a with
      | ⟨0, _⟩ => show win2_6.index t 0 * 5000 + 1 * r.val = t.val * 5000 + r.val; rw [e0]; omega
      | ⟨1, _⟩ => show win2_6.index t 1 * 128 + 1 * q.val = q.val; rw [e1]; omega)
  show G6 V c (((cfg2.win 6).blk t).view.emb (ix2 r q)) = _
  rw [he]
  rfl

/-- Every point writes back its tile of the activation array. -/
theorem flushed6 (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6, (inv V c t.val t.isLt).1]
  funext y
  obtain ⟨r, q, rfl⟩ : ∃ (r : Fin 5000) (q : Fin 128), y = ix2 r q := ⟨y 0, y 1, eq_ix2 y⟩
  refine Eq.trans ?_ (G6_blk V c t r q).symm
  exact blk_act V c t r q

/-- An index of the activation array is in point t's block iff each coordinate is in the block's range on its axis. -/
theorem mem_blk6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- The activation array at the end of the region. -/
theorem arr6 (c : Dev nD) : (dat2 V c).arrAt 6 cfg2.N = G6 V c :=
  (dat2 V c).arrAt_eq_of_cover 6 (G6 V c) (fun t _ => flushed6 V c t) fun i => by
    have h0 : (i 0).val < 50000 := (i 0).isLt
    have h1 : (i 1).val < 128 := (i 1).isLt
    have hN' := hN
    refine ⟨⟨(i 0).val / 5000, by rw [hN']; omega⟩, flush2_6 _, ?_⟩
    obtain ⟨-, -, -, -, -, -, -, -, -, -, -, -, e0, e1, -⟩ := idx_facts ⟨(i 0).val / 5000, by rw [hN']; omega⟩
    rw [mem_blk6]
    intro a
    match a with
    | ⟨0, _⟩ => show win2_6.index _ 0 * 5000 ≤ (i 0).val ∧ (i 0).val < win2_6.index _ 0 * 5000 + 5000; rw [e0]; dsimp only; omega
    | ⟨1, _⟩ => show win2_6.index _ 1 * 128 ≤ (i 1).val ∧ (i 1).val < win2_6.index _ 1 * 128 + 128; rw [e1]; omega

/-- The one block of window 7's array (the whole array), read at feature q. -/
theorem G7_blk (c : Dev nD) (t : Fin cfg2.N) (u : Fin 1) (q : Fin 128) :
    (((cfg2.win 7).blk t).view.read (Elt Ideal) (G7 V c) : Vec Ideal S1x128 .f32) (ix2 u q)
      = ∑ n : Fin 50000, hactN V c n.val q := by
  obtain ⟨-, -, -, -, -, -, -, -, -, -, -, -, -, -, e0, e1, -⟩ := idx_facts t
  have he : ((cfg2.win 7).blk t).view.emb (ix2 u q) = (ix2 u q : S1x128.Idx) :=
    funext fun a => Fin.ext (by
      match a with
      | ⟨0, _⟩ => show win2_7.index t 0 * 1 + 1 * u.val = u.val; rw [e0]; omega
      | ⟨1, _⟩ => show win2_7.index t 1 * 128 + 1 * q.val = q.val; rw [e1]; omega)
  show G7 V c (((cfg2.win 7).blk t).view.emb (ix2 u q)) = _
  rw [he]
  unfold G7
  exact Finset.sum_congr rfl fun n _ => rfl

/-- The one write-back of window 7, after the last point, writes the sums over all ten tiles. -/
theorem flushed7 (c : Dev nD) (t : Fin cfg2.N) (hf : (cfg2.win 7).flush t = true) :
    (dat2 V c).flushed 7 t = ((cfg2.win 7).blk t).view.read (Elt Ideal) (G7 V c) := by
  have hN' := hN
  have h9 : t.val = 9 := by have := (flush2_7 t).mp hf; have := t.isLt; omega
  show (cfg2.win 7).cut (grid2.coords t) ((dat2 V c).after 7 t) = _
  rw [after2_7]
  funext y
  obtain ⟨u, q, rfl⟩ : ∃ (u : Fin 1) (q : Fin 128), y = ix2 u q := ⟨y 0, y 1, eq_ix2 y⟩
  refine Eq.trans ?_ (G7_blk V c t u q).symm
  refine Eq.trans ((inv V c t.val t.isLt).2.1 u q) ?_
  rw [h9]
  exact sum_tiles (fun n => hactN V c n q)

/-- An index of window 7's array is in point t's block iff each coordinate is in the block's range on its axis. -/
theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole (Pipeline.arrRef spec2 7)).slice (win2_7.rect t)).set ↔ _
  rw [View.set_slice_whole, Rect.mem_set_unit]
  exact Iff.rfl

/-- Window 7's array at the end of the region. -/
theorem arr7 (c : Dev nD) : (dat2 V c).arrAt 7 cfg2.N = G7 V c :=
  (dat2 V c).arrAt_eq_of_cover 7 (G7 V c) (fun t hf => flushed7 V c t hf) fun i => by
    have h0 : (i 0).val < 1 := (i 0).isLt
    have h1 : (i 1).val < 128 := (i 1).isLt
    have hN' := hN
    refine ⟨⟨9, by rw [hN']; omega⟩, (flush2_7 _).mpr rfl, ?_⟩
    obtain ⟨-, -, -, -, -, -, -, -, -, -, -, -, -, -, e0, e1, -⟩ := idx_facts ⟨9, by rw [hN']; omega⟩
    rw [mem_blk7]
    intro a
    match a with
    | ⟨0, _⟩ => show win2_7.index _ 0 * 1 ≤ (i 0).val ∧ (i 0).val < win2_7.index _ 0 * 1 + 1; rw [e0]; omega
    | ⟨1, _⟩ => show win2_7.index _ 1 * 128 ≤ (i 1).val ∧ (i 1).val < win2_7.index _ 1 * 128 + 128; rw [e1]; omega

/-- The one block of window 8's array (the whole array), read at feature q. -/
theorem G8_blk (c : Dev nD) (t : Fin cfg2.N) (u : Fin 1) (q : Fin 128) :
    (((cfg2.win 8).blk t).view.read (Elt Ideal) (G8 V c) : Vec Ideal S1x128 .f32) (ix2 u q)
      = ∑ n : Fin 50000, hactN V c n.val q * hactN V c n.val q := by
  obtain ⟨-, -, -, -, -, -, -, -, -, -, -, -, -, -, -, -, e0, e1⟩ := idx_facts t
  have he : ((cfg2.win 8).blk t).view.emb (ix2 u q) = (ix2 u q : S1x128.Idx) :=
    funext fun a => Fin.ext (by
      match a with
      | ⟨0, _⟩ => show win2_8.index t 0 * 1 + 1 * u.val = u.val; rw [e0]; omega
      | ⟨1, _⟩ => show win2_8.index t 1 * 128 + 1 * q.val = q.val; rw [e1]; omega)
  show G8 V c (((cfg2.win 8).blk t).view.emb (ix2 u q)) = _
  rw [he]
  unfold G8
  exact Finset.sum_congr rfl fun n _ => rfl

/-- The one write-back of window 8, after the last point, writes the sums over all ten tiles. -/
theorem flushed8 (c : Dev nD) (t : Fin cfg2.N) (hf : (cfg2.win 8).flush t = true) :
    (dat2 V c).flushed 8 t = ((cfg2.win 8).blk t).view.read (Elt Ideal) (G8 V c) := by
  have hN' := hN
  have h9 : t.val = 9 := by have := (flush2_8 t).mp hf; have := t.isLt; omega
  show (cfg2.win 8).cut (grid2.coords t) ((dat2 V c).after 8 t) = _
  rw [after2_8]
  funext y
  obtain ⟨u, q, rfl⟩ : ∃ (u : Fin 1) (q : Fin 128), y = ix2 u q := ⟨y 0, y 1, eq_ix2 y⟩
  refine Eq.trans ?_ (G8_blk V c t u q).symm
  refine Eq.trans ((inv V c t.val t.isLt).2.2 u q) ?_
  rw [h9]
  exact sum_tiles (fun n => hactN V c n q * hactN V c n q)

/-- An index of window 8's array is in point t's block iff each coordinate is in the block's range on its axis. -/
theorem mem_blk8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole (Pipeline.arrRef spec2 8)).slice (win2_8.rect t)).set ↔ _
  rw [View.set_slice_whole, Rect.mem_set_unit]
  exact Iff.rfl

/-- Window 8's array at the end of the region. -/
theorem arr8 (c : Dev nD) : (dat2 V c).arrAt 8 cfg2.N = G8 V c :=
  (dat2 V c).arrAt_eq_of_cover 8 (G8 V c) (fun t hf => flushed8 V c t hf) fun i => by
    have h0 : (i 0).val < 1 := (i 0).isLt
    have h1 : (i 1).val < 128 := (i 1).isLt
    have hN' := hN
    refine ⟨⟨9, by rw [hN']; omega⟩, (flush2_8 _).mpr rfl, ?_⟩
    obtain ⟨-, -, -, -, -, -, -, -, -, -, -, -, -, -, -, -, e0, e1⟩ := idx_facts ⟨9, by rw [hN']; omega⟩
    rw [mem_blk8]
    intro a
    match a with
    | ⟨0, _⟩ => show win2_8.index _ 0 * 1 ≤ (i 0).val ∧ (i 0).val < win2_8.index _ 0 * 1 + 1; rw [e0]; omega
    | ⟨1, _⟩ => show win2_8.index _ 1 * 128 ≤ (i 1).val ∧ (i 1).val < win2_8.index _ 1 * 128 + 128; rw [e1]; omega

/-! ## The three arrays by the activation at a node of the node range -/

theorem G6_apply (c : Dev nD) (n : Fin 50000) (q : Fin 128) : G6 V c (ix2 n q) = hact V c n q := by
  unfold G6 hactN
  exact dif_pos n.isLt
theorem G7_apply (c : Dev nD) (u : Fin 1) (q : Fin 128) : G7 V c (ix2 u q) = ∑ n : Fin 50000, hact V c n q := by
  unfold G7 hactN
  exact Finset.sum_congr rfl fun n _ => dif_pos n.isLt
theorem G8_apply (c : Dev nD) (u : Fin 1) (q : Fin 128) : G8 V c (ix2 u q) = ∑ n : Fin 50000, hact V c n q * hact V c n q := by
  unfold G8 hactN
  exact Finset.sum_congr rfl fun n _ => by rw [dif_pos n.isLt]

end Value

end Cert.KernelIdeal.Gin2

end
-- ==== Proof.BnRegion3.lean ====
/-
  The normalisation kernel of region 3: a grid of ten row tiles of 5000 rows; each point loads its tile of `h`
  (5000 × 128) and the two row vectors `s`, `t` (1 × 128, the same block at every point) and stores `h · s + t`, the row
  vectors repeated down the rows. The ten tiles partition the 50000 rows, so the output array ends holding, at row `r`
  and column `q`, `h (r, q) · s (0, q) + t (0, q)` of the arrays as the region finds them.
-/
import proofs.«121838_j70282844831870_1_alg».proof.Proof.Gen.KernelIdeal.Frame
import Idealize.ShloMosaic.Lib.Pipeline.Value
import Idealize.ShloMosaic.Lib.ValueIdx

set_option maxRecDepth 16384

noncomputable section

namespace Cert.KernelIdeal.Bn3

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of an index of the tall array, as an index of a row vector. -/
abbrev col {n : Nat} (i : (⟨2, ![n, 128]⟩ : Shape).Idx) : S1x128.Idx := ix2 (0 : Fin 1) (⟨(i 1).val, idx2_lt1 i⟩ : Fin 128)

/-- An array of extended reals read at an index (the element type spelt out). -/
abbrev rd {S : Shape} (f : S.Idx → EReal) (i : S.Idx) : EReal := f i

/-- The normalised array: `h · s + t` with the row vectors repeated down the rows. -/
def G (h : S50000x128.Idx → EReal) (s t : S1x128.Idx → EReal) : S50000x128.Idx → EReal :=
  fun i => h i * s (col i) + t (col i)

/-- A row vector repeated down 5000 rows, read at an index, is the vector at the index's column. -/
theorem bcast_apply (x : S1x128.Idx → EReal) (j : S5000x128.Idx) :
    broadcastTo S5000x128 x broadcasts_S1x128_S5000x128 j = x (col j) :=
  broadcastTo_apply x broadcasts_S1x128_S5000x128 j (col j) fun a => by
    match a with
    | ⟨0, _⟩ => rfl
    | ⟨1, _⟩ => rfl

/-- The body's one payload at an index of the tile. -/
theorem pay_apply (x0 : Vec Ideal S5000x128 .f32) (x1 x2 : Vec Ideal S1x128 .f32) (j : S5000x128.Idx) :
    k3_pay1 (F := Ideal) x0 x1 x2 j = x0 j * x1 (col j) + x2 (col j) := by
  unfold k3_pay1
  simp only [shapeCast_self]
  show x0 j * broadcastTo S5000x128 x1 broadcasts_S1x128_S5000x128 j + broadcastTo S5000x128 x2 broadcasts_S1x128_S5000x128 j = _
  rw [bcast_apply, bcast_apply]

/-- The printed index maps over the grid: the tile of point `t` starts at row block `t`, the row vectors' block is the
    first at every point. -/
theorem idx_facts : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val :=
  (by decide +kernel : ∀ t : Fin grid3.N, _)

/-- What point `t` writes back is tile `t` of `G` of the arrays as the region finds them. -/
theorem flushed_eq (c : Dev nD) (t : Fin cfg3.N) :
    (dat3 (F := Ideal) V c).flushed 3 t
      = ((cfg3.win 3).blk t).view.read (Elt Ideal) (G (V c main_v70_0) (V c main_v85) (V c main_v86)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_apply _ _ _ j).trans ?_
  show rd (S := S50000x128) (V c main_v70_0) (((cfg3.win 0).blk t).view.emb j)
        * rd (S := S1x128) (V c main_v85) (((cfg3.win 1).blk t).view.emb (col j))
      + rd (S := S1x128) (V c main_v86) (((cfg3.win 2).blk t).view.emb (col j))
    = rd (S := S50000x128) (V c main_v70_0) (((cfg3.win 3).blk t).view.emb j)
        * rd (S := S1x128) (V c main_v85) (col (((cfg3.win 3).blk t).view.emb j))
      + rd (S := S1x128) (V c main_v86) (col (((cfg3.win 3).blk t).view.emb j))
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb (col j) = col (((cfg3.win 3).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  have h2 : ((cfg3.win 2).blk t).view.emb (col j) = col (((cfg3.win 3).blk t).view.emb j) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  rw [h0, h1, h2]

/-- An index of the array is in point `t`'s tile iff each coordinate is in the tile's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v87).slice (win3_3.rect t)).set ↔ _
  rw [View.set_slice_whole, Rect.mem_set_unit]
  exact Iff.rfl

/-- Every index of the array lies in the tile of the point numbered by its row divided by 5000. -/
theorem cover (i : S50000x128.Idx) :
    ∃ t : Fin cfg3.N, (cfg3.win 3).flush t = true ∧ i ∈ ((cfg3.win 3).blk t).view.set := by
  have hi0 : (i 0).val < 50000 := idx2_lt0 i
  have hi1 : (i 1).val < 128 := idx2_lt1 i
  refine ⟨⟨(i 0).val / 5000, by rw [show cfg3.N = 10 from N_3]; omega⟩, flush3_3 _, ?_⟩
  rw [mem_blk]
  obtain ⟨e0, e1, e2, e3, e4, e5, e6, e7⟩ := idx_facts ⟨(i 0).val / 5000, by rw [show cfg3.N = 10 from N_3]; omega⟩
  intro a
  match a with
  | ⟨0, _⟩ => show win3_3.index _ (0 : Fin 2) * 5000 ≤ (i 0).val ∧ (i 0).val < win3_3.index _ (0 : Fin 2) * 5000 + 5000; rw [e7]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e2]; omega

/-- THE OUTPUT ARRAY at the end of the region. -/
theorem final (c : Dev nD) :
    (dat3 (F := Ideal) V c).arrAt 3 cfg3.N = G (V c main_v70_0) (V c main_v85) (V c main_v86) :=
  (dat3 V c).arrAt_eq_of_cover 3 _ (fun t _ => flushed_eq V c t) cover

end Cert.KernelIdeal.Bn3

end
-- ==== Proof.KerFold1.lean ====
/-
  Layer 1 of the kernel's program, folded: from the buffer contents at the layer's first boundary, through its stretch of
  host operations, its first region (activations, column sums, column sums of squares), the second stretch (scale and
  shift) and its normalisation region, the layer's output buffer ends holding the layer function of what the first
  boundary holds in the input, the edge vectors and the stacked arguments.
-/
import proofs.«121838_j70282844831870_1_alg».proof.Proof.Gen.KernelIdeal.Frame
import proofs.«121838_j70282844831870_1_alg».proof.Proof.KerStretch1
import proofs.«121838_j70282844831870_1_alg».proof.Proof.GinRegion2
import proofs.«121838_j70282844831870_1_alg».proof.Proof.BnRegion3
import proofs.«121838_j70282844831870_1_alg».proof.Proof.KerLayerArr

set_option maxRecDepth 16384
set_option maxHeartbeats 4000000

noncomputable section

namespace Cert.KernelIdeal.Fold1

open Idealize.ShloMosaic Idealize.ShloMosaic.TcCoe Idealize.SL.Sem Idealize.ShloMosaic.StableHlo
open Cert.KernelIdeal Cert.KernelIdeal.Gen Cert.KernelIdeal.KerHost Cert.KernelIdeal.KerLayer Idealize.ShloMosaic.ValueIdx

section Region
variable (V : (c : Dev nD) → (b : Ref sig .tc) → Buf (Elt Ideal) ((c : Thread nD τ).loc b))

/-- The first region's three output arrays as functions of the six arrays it reads. -/
theorem g6_eq (c : Dev nD) : Gin2.G6 V c = hactArr (fun z => max z 0) (V c main_v45) (V c main_v67) (V c main_v47) (V c main_v68) (V c main_v51) (V c main_v69) := by
  funext i
  unfold Gin2.G6 Gin2.hactN
  rw [dif_pos (idx2_lt0 i)]
  rfl

theorem g7_eq (c : Dev nD) : Gin2.G7 V c = sumArr (hactArr (fun z => max z 0) (V c main_v45) (V c main_v67) (V c main_v47) (V c main_v68) (V c main_v51) (V c main_v69)) := by
  funext j
  unfold Gin2.G7 Gin2.hactN sumArr
  refine Finset.sum_congr rfl fun n _ => ?_
  rw [dif_pos n.isLt]
  rfl

theorem g8_eq (c : Dev nD) : Gin2.G8 V c = sqArr (hactArr (fun z => max z 0) (V c main_v45) (V c main_v67) (V c main_v47) (V c main_v68) (V c main_v51) (V c main_v69)) := by
  funext j
  unfold Gin2.G8 Gin2.hactN sqArr
  refine Finset.sum_congr rfl fun n _ => ?_
  rw [dif_pos n.isLt]
  rfl
end Region

variable (m : (ℓ : Loc nD τ sig) → Buf (Elt Ideal) ℓ) (ρ : Dev nD → PrngReg)

/-- THE LAYER'S OUTPUT BUFFER at the layer's last boundary. -/
theorem out_eq (c : Dev nD) :
    W8 m ρ c (Proc.devRef .tc main_v87)
      = layerArr (fun z => max z 0) (W4 m ρ c (Proc.devRef .tc main_v45)) (aggOf (W4 m ρ c (Proc.devRef .tc main_v45)) (W4 m ρ c (Proc.devRef .tc main_v1)) (W4 m ρ c (Proc.devRef .tc main_v3)))
          (matOf ![1, 0, 0] slices_S7x128x128_S1x128x128_1_0_0 (W4 m ρ c (Proc.devRef .tc main_arg3))) (rowOf ![1, 0] slices_S7x128_S1x128_1_0 (W4 m ρ c (Proc.devRef .tc main_arg4)))
          (matOf ![1, 0, 0] slices_S7x128x128_S1x128x128_1_0_0 (W4 m ρ c (Proc.devRef .tc main_arg5))) (rowOf ![1, 0] slices_S7x128_S1x128_1_0 (W4 m ρ c (Proc.devRef .tc main_arg6)))
          (vecOf ![1, 0] slices_S7x128_S1x128_1_0 (W4 m ρ c (Proc.devRef .tc main_arg7))) (vecOf ![1, 0] slices_S7x128_S1x128_1_0 (W4 m ρ c (Proc.devRef .tc main_arg8))) := by
  have e4 : W8 m ρ c (Proc.devRef .tc main_v87) = (dat3 (V7 m ρ) c).arrAt 3 cfg3.N := W8_arr m ρ c 3
  have eh : V7 m ρ c main_v70_0 = W6 m ρ c (Proc.devRef .tc main_v70_0) := Stretch1.b_h (W6 m ρ c)
  have es : V7 m ρ c main_v85 = scaleK (W6 m ρ c (Proc.devRef .tc main_v70_1)) (W6 m ρ c (Proc.devRef .tc main_v70_2)) (W6 m ρ c (Proc.devRef .tc main_v55)) :=
    Stretch1.b_scale (W6 m ρ c)
  have et : V7 m ρ c main_v86 = shiftK (W6 m ρ c (Proc.devRef .tc main_v70_1)) (W6 m ρ c (Proc.devRef .tc main_v70_2)) (W6 m ρ c (Proc.devRef .tc main_v55)) (W6 m ρ c (Proc.devRef .tc main_v57)) :=
    Stretch1.b_shift (W6 m ρ c)
  have h6 : W6 m ρ c (Proc.devRef .tc main_v70_0) = hactArr (fun z => max z 0) (V5 m ρ c main_v45) (V5 m ρ c main_v67) (V5 m ρ c main_v47) (V5 m ρ c main_v68) (V5 m ρ c main_v51) (V5 m ρ c main_v69) :=
    (W6_arr m ρ c 6).trans ((Gin2.arr6 (V5 m ρ) c).trans (g6_eq (V5 m ρ) c))
  have h7 : W6 m ρ c (Proc.devRef .tc main_v70_1) = sumArr (hactArr (fun z => max z 0) (V5 m ρ c main_v45) (V5 m ρ c main_v67) (V5 m ρ c main_v47) (V5 m ρ c main_v68) (V5 m ρ c main_v51) (V5 m ρ c main_v69)) :=
    (W6_arr m ρ c 7).trans ((Gin2.arr7 (V5 m ρ) c).trans (g7_eq (V5 m ρ) c))
  have h8 : W6 m ρ c (Proc.devRef .tc main_v70_2) = sqArr (hactArr (fun z => max z 0) (V5 m ρ c main_v45) (V5 m ρ c main_v67) (V5 m ρ c main_v47) (V5 m ρ c main_v68) (V5 m ρ c main_v51) (V5 m ρ c main_v69)) :=
    (W6_arr m ρ c 8).trans ((Gin2.arr8 (V5 m ρ) c).trans (g8_eq (V5 m ρ) c))
  have hg : W6 m ρ c (Proc.devRef .tc main_v55) = (vecOf ![1, 0] slices_S7x128_S1x128_1_0 (W4 m ρ c (Proc.devRef .tc main_arg7))) :=
    (W6_of_ne m ρ c main_v55 (by decide)).trans (Stretch1.g_gam (W4 m ρ c))
  have hb : W6 m ρ c (Proc.devRef .tc main_v57) = (vecOf ![1, 0] slices_S7x128_S1x128_1_0 (W4 m ρ c (Proc.devRef .tc main_arg8))) :=
    (W6_of_ne m ρ c main_v57 (by decide)).trans (Stretch1.g_bet (W4 m ρ c))
  have vx : V5 m ρ c main_v45 = (W4 m ρ c (Proc.devRef .tc main_v45)) := Stretch1.g_x (W4 m ρ c)
  have va : V5 m ρ c main_v67 = (aggOf (W4 m ρ c (Proc.devRef .tc main_v45)) (W4 m ρ c (Proc.devRef .tc main_v1)) (W4 m ρ c (Proc.devRef .tc main_v3))) := Stretch1.g_agg (W4 m ρ c)
  have vw1 : V5 m ρ c main_v47 = (matOf ![1, 0, 0] slices_S7x128x128_S1x128x128_1_0_0 (W4 m ρ c (Proc.devRef .tc main_arg3))) := Stretch1.g_w1 (W4 m ρ c)
  have vb1 : V5 m ρ c main_v68 = (rowOf ![1, 0] slices_S7x128_S1x128_1_0 (W4 m ρ c (Proc.devRef .tc main_arg4))) := Stretch1.g_b1 (W4 m ρ c)
  have vw2 : V5 m ρ c main_v51 = (matOf ![1, 0, 0] slices_S7x128x128_S1x128x128_1_0_0 (W4 m ρ c (Proc.devRef .tc main_arg5))) := Stretch1.g_w2 (W4 m ρ c)
  have vb2 : V5 m ρ c main_v69 = (rowOf ![1, 0] slices_S7x128_S1x128_1_0 (W4 m ρ c (Proc.devRef .tc main_arg6))) := Stretch1.g_b2 (W4 m ρ c)
  rw [e4, Bn3.final (V7 m ρ) c, eh, es, et, h6, h7, h8, hg, hb, vx, va, vw1, vb1, vw2, vb2]
  rfl

end Cert.KernelIdeal.Fold1

end
-- ==== Proof.KerStretch2.lean ====
/-
  Layer 2: what its two stretches of host operations leave in the buffers its two regions read, from any contents
  `W` at the stretch's start. The first stretch slices the layer's weights, biases, `γ` and `β` out of the stacked
  arguments and forms the neighbourhood sums of the layer's input; the second turns the column sums and the column sums of squares into the
  normalisation's scale and shift and leaves the activations in place.
-/
import proofs.«121838_j70282844831870_1_alg».proof.Proof.Gen.KernelIdeal.Frame
import proofs.«121838_j70282844831870_1_alg».proof.Proof.KerHost
import Idealize.ShloMosaic.Lib.StableHlo.Run

set_option maxRecDepth 16384
set_option maxHeartbeats 4000000

noncomputable section

namespace Cert.KernelIdeal.Stretch2

open Idealize.ShloMosaic Idealize.ShloMosaic.TcCoe Idealize.SL.Sem Idealize.ShloMosaic.StableHlo
open Cert.KernelIdeal Cert.KernelIdeal.Gen Cert.KernelIdeal.KerHost

variable (W : Valuation τ sig (Elt Ideal))

theorem g_agg : after (hostOps4 (F := Ideal)) W (Proc.devRef .tc main_v109)
    = aggOf (W (Proc.devRef .tc main_v87)) (W (Proc.devRef .tc main_v1)) (W (Proc.devRef .tc main_v3)) := by
  after_results_simp; rfl

theorem g_x : after (hostOps4 (F := Ideal)) W (Proc.devRef .tc main_v87) = W (Proc.devRef .tc main_v87) := by
  after_results_simp

theorem g_w1 : after (hostOps4 (F := Ideal)) W (Proc.devRef .tc main_v89)
    = matOf ![2, 0, 0] slices_S7x128x128_S1x128x128_2_0_0 (W (Proc.devRef .tc main_arg3)) := by
  after_results_simp; rfl

theorem g_b1 : after (hostOps4 (F := Ideal)) W (Proc.devRef .tc main_v110)
    = rowOf ![2, 0] slices_S7x128_S1x128_2_0 (W (Proc.devRef .tc main_arg4)) := by
  after_results_simp; rfl

theorem g_w2 : after (hostOps4 (F := Ideal)) W (Proc.devRef .tc main_v93)
    = matOf ![2, 0, 0] slices_S7x128x128_S1x128x128_2_0_0 (W (Proc.devRef .tc main_arg5)) := by
  after_results_simp; rfl

theorem g_b2 : after (hostOps4 (F := Ideal)) W (Proc.devRef .tc main_v111)
    = rowOf ![2, 0] slices_S7x128_S1x128_2_0 (W (Proc.devRef .tc main_arg6)) := by
  after_results_simp; rfl

theorem g_gam : after (hostOps4 (F := Ideal)) W (Proc.devRef .tc main_v97)
    = vecOf ![2, 0] slices_S7x128_S1x128_2_0 (W (Proc.devRef .tc main_arg7)) := by
  after_results_simp; rfl

theorem g_bet : after (hostOps4 (F := Ideal)) W (Proc.devRef .tc main_v99)
    = vecOf ![2, 0] slices_S7x128_S1x128_2_0 (W (Proc.devRef .tc main_arg8)) := by
  after_results_simp; rfl

theorem b_scale : after (hostOps5 (F := Ideal)) W (Proc.devRef .tc main_v127)
    = scaleK (W (Proc.devRef .tc main_v112_1)) (W (Proc.devRef .tc main_v112_2)) (W (Proc.devRef .tc main_v97)) := by
  after_results_simp; rfl

theorem b_shift : after (hostOps5 (F := Ideal)) W (Proc.devRef .tc main_v128)
    = shiftK (W (Proc.devRef .tc main_v112_1)) (W (Proc.devRef .tc main_v112_2)) (W (Proc.devRef .tc main_v97)) (W (Proc.devRef .tc main_v99)) := by
  after_results_simp; rfl

theorem b_h : after (hostOps5 (F := Ideal)) W (Proc.devRef .tc main_v112_0) = W (Proc.devRef .tc main_v112_0) := by
  after_results_simp

end Cert.KernelIdeal.Stretch2

end
-- ==== Proof.GinPieces4.lean ====
/-
  What each control case of layer 3's first kernel leaves in its three output staging buffers, as the body's stored
  values of the blocks it loaded.

  At the grid's first point (case A) the two running rows are first set to zero and then read back; at every later
  point (case B) they are read as the point before left them. In both cases the activation buffer is written once, by
  the activation of the loaded blocks, and each running row once more, by what it held plus the block's column sums
  (of the activation, and of its square). Every store covers its whole buffer, so the last store to a buffer is what
  the buffer holds; a load of a buffer after a covering store reads that store's value.
-/
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Gin4

open Cert.KernelIdeal Cert.KernelIdeal.Gen

/-! ## What each control case leaves in the three staging buffers, as the body's stored values -/

section Pieces
variable {F : FTy → Type} [FloatOps F]

theorem hz : (![0, 0] : Fin 2 → Nat) = fun _ => 0 := funext fun a => by fin_cases a <;> rfl

theorem outA6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 x1 : Vec F S5000x128 .f32) (x2 : Vec F S128x128 .f32) (x3 : Vec F S1x128 .f32) (x4 : Vec F S128x128 .f32) (x5 : Vec F S1x128 .f32) :
    out4_A_6 c i a1 h1 a2 h2 a3 h3 a4 h4 a5 h5 a6 h6 a7 h7 a8 h8 a9 h9 hc x0 x1 x2 x3 x4 x5 = k4_pay5 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  try sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA7 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 x1 : Vec F S5000x128 .f32) (x2 : Vec F S128x128 .f32) (x3 : Vec F S1x128 .f32) (x4 : Vec F S128x128 .f32) (x5 : Vec F S1x128 .f32) :
    out4_A_7 c i a1 h1 a2 h2 a3 h3 a4 h4 a5 h5 a6 h6 a7 h7 a8 h8 a9 h9 hc x0 x1 x2 x3 x4 x5 = k4_pay1 (k4_pay6 k4_pay3) (k4_pay7 x0 x1 x2 x3 x4 x5) := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA8 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 x1 : Vec F S5000x128 .f32) (x2 : Vec F S128x128 .f32) (x3 : Vec F S1x128 .f32) (x4 : Vec F S128x128 .f32) (x5 : Vec F S1x128 .f32) :
    out4_A_8 c i a1 h1 a2 h2 a3 h3 a4 h4 a5 h5 a6 h6 a7 h7 a8 h8 a9 h9 hc x0 x1 x2 x3 x4 x5 = k4_pay2 (k4_pay5 x0 x1 x2 x3 x4 x5) k4_pay4 := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outB6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out4_B_6 c i a1 h1 a2 h2 a3 h3 a4 h4 a5 h5 a6 h6 a7 h7 a8 h8 a9 h9 hc x0 x1 x2 x3 x4 x5 xo7 xo8 = k4_pay5 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB7 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out4_B_7 c i a1 h1 a2 h2 a3 h3 a4 h4 a5 h5 a6 h6 a7 h7 a8 h8 a9 h9 hc x0 x1 x2 x3 x4 x5 xo7 xo8 = k4_pay1 (k4_pay6 xo7) (k4_pay7 x0 x1 x2 x3 x4 x5) := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB8 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out4_B_8 c i a1 h1 a2 h2 a3 h3 a4 h4 a5 h5 a6 h6 a7 h7 a8 h8 a9 h9 hc x0 x1 x2 x3 x4 x5 xo7 xo8 = k4_pay2 (k4_pay5 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

end Pieces

end Cert.KernelIdeal.Gin4

end
-- ==== Proof.GinRegion4.lean ====
/-
  Layer 3's first kernel, as three whole-array functions of the six arrays it reads.

  The kernel runs over ten tiles of 5000 nodes. At tile t it loads rows 5000 t … 5000 t + 4999 of the node features x
  and of the aggregated neighbour features agg, and the whole of the two weight matrices and two bias rows; it stores
  the activation of those rows as tile t of the activation array, and adds the tile's column sums of the activation,
  and of its square, into two running rows that the first tile starts from zero and that are written back once, after
  the last tile. So at the end of the region

    the activation array at (n, q) is  act( Σ_k max( Σ_j (x(n,j) + agg(n,j)) · W1(j,k) + b1(0,k), 0 ) · W2(k,q) + b2(0,q) ),
    the sum array at (0, q) is the sum over all 50000 nodes n of the activation at (n, q),
    the sum-of-squares array at (0, q) is the sum over all nodes of its square,

  with act the clamp below at zero. The ten partial sums are regrouped into one sum over all nodes: addition of extended reals is
  commutative and associative, and the first tile's zero is the additive unit, so nothing needs to be finite.
-/
import proofs.«121838_j70282844831870_1_alg».proof.Proof.GinBody2
import proofs.«121838_j70282844831870_1_alg».proof.Proof.GinPieces4
import proofs.«121838_j70282844831870_1_alg».proof.Proof.LibSegmentLinear
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Gin4

open Cert.KernelIdeal Cert.KernelIdeal.Gen Cert.KernelIdeal.Gin Idealize.ShloMosaic.ValueIdx

section Value
variable (V : (c : Dev nD) → (b : Ref sig .tc) → Buf (Elt Ideal) ((c : Thread nD τ).loc b))

/-- The grid has ten points. -/
theorem hN : cfg4.N = 10 := N_4

/-- The printed index maps over the grid: the two row-tiled inputs and the activation output sit at row block t, and
    the four parameter inputs and the two statistics outputs at block zero. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- The layer's activation at node n and feature q, from the six arrays as the region finds them. -/
def hact (c : Dev nD) (n : Fin 50000) (q : Fin 128) : EReal :=
  max (pre2 (fun j => (V c (Pipeline.arrRef spec4 0) : S50000x128.Idx → EReal) (ix2 n j))
    (fun j => (V c (Pipeline.arrRef spec4 1) : S50000x128.Idx → EReal) (ix2 n j))
    (V c (Pipeline.arrRef spec4 2)) (V c (Pipeline.arrRef spec4 3)) (V c (Pipeline.arrRef spec4 4)) (V c (Pipeline.arrRef spec4 5)) q) 0

/-- The same with the node a natural number (zero past the last node), the form the sums over tiles of nodes use. -/
def hactN (c : Dev nD) (n : ℕ) (q : Fin 128) : EReal := if h : n < 50000 then hact V c ⟨n, h⟩ q else 0

/-! ## The blocks the body loads, as rows of the arrays -/

/-- Row r of point t's block of a row-tiled input (the node features, the aggregated neighbour features) is row
    5000 t + r of the array. -/
theorem iblk_row0 (c : Dev nD) (t : Fin cfg4.N) (r : Fin 5000) (j : Fin 128) (h : t.val * 5000 + r.val < 50000) :
    (iblk4 V c 0 t : Vec Ideal S5000x128 .f32) (ix2 r j)
      = (V c (Pipeline.arrRef spec4 0) : S50000x128.Idx → EReal) (ix2 ⟨t.val * 5000 + r.val, h⟩ j) := by
  obtain ⟨e0, e1, -⟩ := idx_facts t
  unfold iblk4
  rw [View.read_apply]
  refine congrArg (V c (Pipeline.arrRef spec4 0) : S50000x128.Idx → EReal) (funext fun a => Fin.ext ?_)
  match a with
  | ⟨0, _⟩ => show win4_0.index t 0 * 5000 + 1 * r.val = t.val * 5000 + r.val; rw [e0]; omega
  | ⟨1, _⟩ => show win4_0.index t 1 * 128 + 1 * j.val = j.val; rw [e1]; omega

theorem iblk_row1 (c : Dev nD) (t : Fin cfg4.N) (r : Fin 5000) (j : Fin 128) (h : t.val * 5000 + r.val < 50000) :
    (iblk4 V c 1 t : Vec Ideal S5000x128 .f32) (ix2 r j)
      = (V c (Pipeline.arrRef spec4 1) : S50000x128.Idx → EReal) (ix2 ⟨t.val * 5000 + r.val, h⟩ j) := by
  obtain ⟨-, -, e0, e1, -⟩ := idx_facts t
  unfold iblk4
  rw [View.read_apply]
  refine congrArg (V c (Pipeline.arrRef spec4 1) : S50000x128.Idx → EReal) (funext fun a => Fin.ext ?_)
  match a with
  | ⟨0, _⟩ => show win4_1.index t 0 * 5000 + 1 * r.val = t.val * 5000 + r.val; rw [e0]; omega
  | ⟨1, _⟩ => show win4_1.index t 1 * 128 + 1 * j.val = j.val; rw [e1]; omega

/-- A parameter input's block is the whole array at every point. -/
theorem iblk_2 (c : Dev nD) (t : Fin cfg4.N) : (iblk4 V c 2 t : Vec Ideal S128x128 .f32) = V c (Pipeline.arrRef spec4 2) := by
  obtain ⟨-, -, -, -, e0, e1, -⟩ := idx_facts t
  funext y
  unfold iblk4
  rw [View.read_apply]
  refine congrArg (V c (Pipeline.arrRef spec4 2) : S128x128.Idx → EReal) (funext fun a => Fin.ext ?_)
  match a with
  | ⟨0, _⟩ => show win4_2.index t 0 * 128 + 1 * (y 0).val = (y 0).val; rw [e0]; omega
  | ⟨1, _⟩ => show win4_2.index t 1 * 128 + 1 * (y 1).val = (y 1).val; rw [e1]; omega

theorem iblk_3 (c : Dev nD) (t : Fin cfg4.N) : (iblk4 V c 3 t : Vec Ideal S1x128 .f32) = V c (Pipeline.arrRef spec4 3) := by
  obtain ⟨-, -, -, -, -, -, e0, e1, -⟩ := idx_facts t
  funext y
  unfold iblk4
  rw [View.read_apply]
  refine congrArg (V c (Pipeline.arrRef spec4 3) : S1x128.Idx → EReal) (funext fun a => Fin.ext ?_)
  match a with
  | ⟨0, _⟩ => show win4_3.index t 0 * 1 + 1 * (y 0).val = (y 0).val; rw [e0]; omega
  | ⟨1, _⟩ => show win4_3.index t 1 * 128 + 1 * (y 1).val = (y 1).val; rw [e1]; omega

theorem iblk_4 (c : Dev nD) (t : Fin cfg4.N) : (iblk4 V c 4 t : Vec Ideal S128x128 .f32) = V c (Pipeline.arrRef spec4 4) := by
  obtain ⟨-, -, -, -, -, -, -, -, e0, e1, -⟩ := idx_facts t
  funext y
  unfold iblk4
  rw [View.read_apply]
  refine congrArg (V c (Pipeline.arrRef spec4 4) : S128x128.Idx → EReal) (funext fun a => Fin.ext ?_)
  match a with
  | ⟨0, _⟩ => show win4_4.index t 0 * 128 + 1 * (y 0).val = (y 0).val; rw [e0]; omega
  | ⟨1, _⟩ => show win4_4.index t 1 * 128 + 1 * (y 1).val = (y 1).val; rw [e1]; omega

theorem iblk_5 (c : Dev nD) (t : Fin cfg4.N) : (iblk4 V c 5 t : Vec Ideal S1x128 .f32) = V c (Pipeline.arrRef spec4 5) := by
  obtain ⟨-, -, -, -, -, -, -, -, -, -, e0, e1, -⟩ := idx_facts t
  funext y
  unfold iblk4
  rw [View.read_apply]
  refine congrArg (V c (Pipeline.arrRef spec4 5) : S1x128.Idx → EReal) (funext fun a => Fin.ext ?_)
  match a with
  | ⟨0, _⟩ => show win4_5.index t 0 * 1 + 1 * (y 0).val = (y 0).val; rw [e0]; omega
  | ⟨1, _⟩ => show win4_5.index t 1 * 128 + 1 * (y 1).val = (y 1).val; rw [e1]; omega

/-- The activation the body computes from point t's blocks, at row r: the layer's activation at node 5000 t + r. -/
theorem blk_act (c : Dev nD) (t : Fin cfg4.N) (r : Fin 5000) (q : Fin 128) :
    k4_pay5 (F := Ideal) (iblk4 V c 0 t) (iblk4 V c 1 t) (iblk4 V c 2 t) (iblk4 V c 3 t) (iblk4 V c 4 t) (iblk4 V c 5 t) (ix2 r q) = hactN V c (t.val * 5000 + r.val) q := by
  have ht : t.val < 10 := lt_of_lt_of_eq t.isLt hN
  have h : t.val * 5000 + r.val < 50000 := by have := r.isLt; omega
  refine (k4_pay5_apply (iblk4 V c 0 t) (iblk4 V c 1 t) (iblk4 V c 2 t) (iblk4 V c 3 t) (iblk4 V c 4 t) (iblk4 V c 5 t) r q).trans ?_
  have e0 : (fun j => (iblk4 V c 0 t : Vec Ideal S5000x128 .f32) (ix2 r j)) = fun j => (V c (Pipeline.arrRef spec4 0) : S50000x128.Idx → EReal) (ix2 ⟨t.val * 5000 + r.val, h⟩ j) :=
    funext fun j => iblk_row0 V c t r j h
  have e1 : (fun j => (iblk4 V c 1 t : Vec Ideal S5000x128 .f32) (ix2 r j)) = fun j => (V c (Pipeline.arrRef spec4 1) : S50000x128.Idx → EReal) (ix2 ⟨t.val * 5000 + r.val, h⟩ j) :=
    funext fun j => iblk_row1 V c t r j h
  rw [e0, e1, iblk_2 V c t, iblk_3 V c t, iblk_4 V c t, iblk_5 V c t]
  unfold hactN
  rw [dif_pos h]
  rfl

/-! ## The staging buffers after each point -/

/-- What the three staging buffers hold after the first point, as the body's stored values of the point's blocks. -/
theorem outs_A (c : Dev nD) (t : Fin cfg4.N) (h0 : t.val % 10 = 0) :
    outsAt4 V c t.val t.isLt = (k4_pay5 (F := Ideal) (iblk4 V c 0 t) (iblk4 V c 1 t) (iblk4 V c 2 t) (iblk4 V c 3 t) (iblk4 V c 4 t) (iblk4 V c 5 t), k4_pay1 (k4_pay6 (k4_pay3 (F := Ideal))) (k4_pay7 (iblk4 V c 0 t) (iblk4 V c 1 t) (iblk4 V c 2 t) (iblk4 V c 3 t) (iblk4 V c 4 t) (iblk4 V c 5 t)), k4_pay2 (k4_pay5 (iblk4 V c 0 t) (iblk4 V c 1 t) (iblk4 V c 2 t) (iblk4 V c 3 t) (iblk4 V c 4 t) (iblk4 V c 5 t)) (k4_pay4 (F := Ideal))) :=
  (outsAt4_A V c t h0).trans (congrArg₂ Prod.mk
    (outA6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))
    (congrArg₂ Prod.mk
      (outA7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))
      (outA8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))))

/-- What they hold after a later point, over what the point before left in the two running rows. -/
theorem outs_B (c : Dev nD) (t : Fin cfg4.N) (h0 : ¬t.val % 10 = 0) :
    outsAt4 V c t.val t.isLt = (k4_pay5 (F := Ideal) (iblk4 V c 0 t) (iblk4 V c 1 t) (iblk4 V c 2 t) (iblk4 V c 3 t) (iblk4 V c 4 t) (iblk4 V c 5 t), k4_pay1 (k4_pay6 (outsAt4 V c (t.val - 1) (Nat.lt_of_le_of_lt (Nat.sub_le _ _) t.isLt)).2.1) (k4_pay7 (iblk4 V c 0 t) (iblk4 V c 1 t) (iblk4 V c 2 t) (iblk4 V c 3 t) (iblk4 V c 4 t) (iblk4 V c 5 t)), k4_pay2 (k4_pay5 (iblk4 V c 0 t) (iblk4 V c 1 t) (iblk4 V c 2 t) (iblk4 V c 3 t) (iblk4 V c 4 t) (iblk4 V c 5 t)) (outsAt4 V c (t.val - 1) (Nat.lt_of_le_of_lt (Nat.sub_le _ _) t.isLt)).2.2) :=
  (outsAt4_B V c t h0).trans (congrArg₂ Prod.mk
    (outB6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk
      (outB7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2)
      (outB8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2)))

/-- After point n the three staging buffers hold: the activation of point n's rows; the sums over the nodes of the
    tiles 0 … n of the activation; and of its square. -/
def Inv (c : Dev nD) (n : ℕ) (hn : n < cfg4.N) : Prop :=
  (outsAt4 V c n hn).1 = k4_pay5 (F := Ideal) (iblk4 V c 0 ⟨n, hn⟩) (iblk4 V c 1 ⟨n, hn⟩) (iblk4 V c 2 ⟨n, hn⟩) (iblk4 V c 3 ⟨n, hn⟩) (iblk4 V c 4 ⟨n, hn⟩) (iblk4 V c 5 ⟨n, hn⟩)
  ∧ (∀ (u : Fin 1) (q : Fin 128), (outsAt4 V c n hn).2.1 (ix2 u q)
      = ∑ s ∈ Finset.range (n + 1), ∑ r : Fin 5000, hactN V c (s * 5000 + r.val) q)
  ∧ (∀ (u : Fin 1) (q : Fin 128), (outsAt4 V c n hn).2.2 (ix2 u q)
      = ∑ s ∈ Finset.range (n + 1), ∑ r : Fin 5000, hactN V c (s * 5000 + r.val) q * hactN V c (s * 5000 + r.val) q)

/-- It holds at every point: at the first the running rows start from the zero the point stores, and each later point
    adds its tile's column sums to what the point before left. -/
theorem inv (c : Dev nD) : ∀ (n : ℕ) (hn : n < cfg4.N), Inv V c n hn
  | 0, hn => by
    have e : outsAt4 V c 0 hn = _ := outs_A V c ⟨0, hn⟩ (Nat.zero_mod _)
    have hb : ∀ (r : Fin 5000) (q : Fin 128), k4_pay5 (F := Ideal) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (ix2 r q) = hactN V c (0 * 5000 + r.val) q :=
      fun r q => blk_act V c ⟨0, hn⟩ r q
    unfold Inv
    rw [e]
    dsimp only
    refine ⟨rfl, fun u q => ?_, fun u q => ?_⟩
    · rw [k4_pay1_apply _ _ u q, k4_pay6_eq, k4_pay3_apply, k4_pay7_apply (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) q, zero_add]
      rw [Finset.sum_range_one]
      exact Finset.sum_congr rfl fun r _ => hb r q
    · rw [k4_pay2_apply (k4_pay5 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)) _ u q, k4_pay4_apply, zero_add]
      rw [Finset.sum_range_one]
      exact Finset.sum_congr rfl fun r _ => by rw [hb r q]
  | n + 1, hn => by
    obtain ⟨-, ih7, ih8⟩ := inv c n (Nat.lt_of_succ_lt hn)
    have hB : ¬(⟨n + 1, hn⟩ : Fin cfg4.N).val % 10 = 0 := by have := hN; dsimp only; omega
    have e : outsAt4 V c (n + 1) hn = _ := outs_B V c ⟨n + 1, hn⟩ hB
    have hb : ∀ (r : Fin 5000) (q : Fin 128), k4_pay5 (F := Ideal) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (ix2 r q) = hactN V c ((n + 1) * 5000 + r.val) q :=
      fun r q => blk_act V c ⟨n + 1, hn⟩ r q
    unfold Inv
    rw [e]
    dsimp only
    refine ⟨rfl, fun u q => ?_, fun u q => ?_⟩
    · rw [k4_pay1_apply _ _ u q, k4_pay6_eq, k4_pay7_apply (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) q]
      rw [Finset.sum_range_succ]
      exact congrArg₂ (· + ·) (ih7 u q) (Finset.sum_congr rfl fun r _ => hb r q)
    · rw [k4_pay2_apply (k4_pay5 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)) _ u q]
      rw [Finset.sum_range_succ]
      exact congrArg₂ (· + ·) (ih8 u q) (Finset.sum_congr rfl fun r _ => by rw [hb r q])

/-! ## From the staging buffers to the arrays -/

/-- The ten tiles of 5000 nodes are all 50000 nodes. -/
theorem sum_tiles (f : ℕ → EReal) : ∑ s ∈ Finset.range 10, ∑ r : Fin 5000, f (s * 5000 + r.val) = ∑ n : Fin 50000, f n.val := by
  rw [Finset.sum_range]
  exact Cert.SegmentLinear.sum_blocks 10 5000 f

/-- The activation array: the layer's activation at every node and feature. -/
def G6 (c : Dev nD) : S50000x128.Idx → EReal := fun i => hactN V c (i 0).val (i 1)
/-- The sum array: per feature, the sum over all nodes of the activation. -/
def G7 (c : Dev nD) : S1x128.Idx → EReal := fun j => ∑ n : Fin 50000, hactN V c n.val (j 1)
/-- The sum-of-squares array: per feature, the sum over all nodes of the squared activation. -/
def G8 (c : Dev nD) : S1x128.Idx → EReal := fun j => ∑ n : Fin 50000, hactN V c n.val (j 1) * hactN V c n.val (j 1)

-- the two sums are never opened by unfolding: they are compared as they stand
attribute [local irreducible] G7 G8

/-- Tile t of the activation array, at row r: the activation at node 5000 t + r. -/
theorem G6_blk (c : Dev nD) (t : Fin cfg4.N) (r : Fin 5000) (q : Fin 128) :
    (((cfg4.win 6).blk t).view.read (Elt Ideal) (G6 V c) : Vec Ideal S5000x128 .f32) (ix2 r q)
      = hactN V c (t.val * 5000 + r.val) q := by
  obtain ⟨-, -, -, -, -, -, -, -, -, -, -, -, e0, e1, -⟩ := idx_facts t
  have ht : t.val < 10 := lt_of_lt_of_eq t.isLt hN
  have h : t.val * 5000 + r.val < 50000 := by have := r.isLt; omega
  have he : ((cfg4.win 6).blk t).view.emb (ix2 r q) = (ix2 ⟨t.val * 5000 + r.val, h⟩ q : S50000x128.Idx) :=
    funext fun a => Fin.ext (by
      match a with
      | ⟨0, _⟩ => show win4_6.index t 0 * 5000 + 1 * r.val = t.val * 5000 + r.val; rw [e0]; omega
      | ⟨1, _⟩ => show win4_6.index t 1 * 128 + 1 * q.val = q.val; rw [e1]; omega)
  show G6 V c (((cfg4.win 6).blk t).view.emb (ix2 r q)) = _
  rw [he]
  rfl

/-- Every point writes back its tile of the activation array. -/
theorem flushed6 (c : Dev nD) (t : Fin cfg4.N) :
    (dat4 V c).flushed 6 t = ((cfg4.win 6).blk t).view.read (Elt Ideal) (G6 V c) := by
  show (cfg4.win 6).cut (grid4.coords t) ((dat4 V c).after 6 t) = _
  rw [after4_6, (inv V c t.val t.isLt).1]
  funext y
  obtain ⟨r, q, rfl⟩ : ∃ (r : Fin 5000) (q : Fin 128), y = ix2 r q := ⟨y 0, y 1, eq_ix2 y⟩
  refine Eq.trans ?_ (G6_blk V c t r q).symm
  exact blk_act V c t r q

/-- An index of the activation array is in point t's block iff each coordinate is in the block's range on its axis. -/
theorem mem_blk6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

/-- The activation array at the end of the region. -/
theorem arr6 (c : Dev nD) : (dat4 V c).arrAt 6 cfg4.N = G6 V c :=
  (dat4 V c).arrAt_eq_of_cover 6 (G6 V c) (fun t _ => flushed6 V c t) fun i => by
    have h0 : (i 0).val < 50000 := (i 0).isLt
    have h1 : (i 1).val < 128 := (i 1).isLt
    have hN' := hN
    refine ⟨⟨(i 0).val / 5000, by rw [hN']; omega⟩, flush4_6 _, ?_⟩
    obtain ⟨-, -, -, -, -, -, -, -, -, -, -, -, e0, e1, -⟩ := idx_facts ⟨(i 0).val / 5000, by rw [hN']; omega⟩
    rw [mem_blk6]
    intro a
    match a with
    | ⟨0, _⟩ => show win4_6.index _ 0 * 5000 ≤ (i 0).val ∧ (i 0).val < win4_6.index _ 0 * 5000 + 5000; rw [e0]; dsimp only; omega
    | ⟨1, _⟩ => show win4_6.index _ 1 * 128 ≤ (i 1).val ∧ (i 1).val < win4_6.index _ 1 * 128 + 128; rw [e1]; omega

/-- The one block of window 7's array (the whole array), read at feature q. -/
theorem G7_blk (c : Dev nD) (t : Fin cfg4.N) (u : Fin 1) (q : Fin 128) :
    (((cfg4.win 7).blk t).view.read (Elt Ideal) (G7 V c) : Vec Ideal S1x128 .f32) (ix2 u q)
      = ∑ n : Fin 50000, hactN V c n.val q := by
  obtain ⟨-, -, -, -, -, -, -, -, -, -, -, -, -, -, e0, e1, -⟩ := idx_facts t
  have he : ((cfg4.win 7).blk t).view.emb (ix2 u q) = (ix2 u q : S1x128.Idx) :=
    funext fun a => Fin.ext (by
      match a with
      | ⟨0, _⟩ => show win4_7.index t 0 * 1 + 1 * u.val = u.val; rw [e0]; omega
      | ⟨1, _⟩ => show win4_7.index t 1 * 128 + 1 * q.val = q.val; rw [e1]; omega)
  show G7 V c (((cfg4.win 7).blk t).view.emb (ix2 u q)) = _
  rw [he]
  unfold G7
  exact Finset.sum_congr rfl fun n _ => rfl

/-- The one write-back of window 7, after the last point, writes the sums over all ten tiles. -/
theorem flushed7 (c : Dev nD) (t : Fin cfg4.N) (hf : (cfg4.win 7).flush t = true) :
    (dat4 V c).flushed 7 t = ((cfg4.win 7).blk t).view.read (Elt Ideal) (G7 V c) := by
  have hN' := hN
  have h9 : t.val = 9 := by have := (flush4_7 t).mp hf; have := t.isLt; omega
  show (cfg4.win 7).cut (grid4.coords t) ((dat4 V c).after 7 t) = _
  rw [after4_7]
  funext y
  obtain ⟨u, q, rfl⟩ : ∃ (u : Fin 1) (q : Fin 128), y = ix2 u q := ⟨y 0, y 1, eq_ix2 y⟩
  refine Eq.trans ?_ (G7_blk V c t u q).symm
  refine Eq.trans ((inv V c t.val t.isLt).2.1 u q) ?_
  rw [h9]
  exact sum_tiles (fun n => hactN V c n q)

/-- An index of window 7's array is in point t's block iff each coordinate is in the block's range on its axis. -/
theorem mem_blk7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole (Pipeline.arrRef spec4 7)).slice (win4_7.rect t)).set ↔ _
  rw [View.set_slice_whole, Rect.mem_set_unit]
  exact Iff.rfl

/-- Window 7's array at the end of the region. -/
theorem arr7 (c : Dev nD) : (dat4 V c).arrAt 7 cfg4.N = G7 V c :=
  (dat4 V c).arrAt_eq_of_cover 7 (G7 V c) (fun t hf => flushed7 V c t hf) fun i => by
    have h0 : (i 0).val < 1 := (i 0).isLt
    have h1 : (i 1).val < 128 := (i 1).isLt
    have hN' := hN
    refine ⟨⟨9, by rw [hN']; omega⟩, (flush4_7 _).mpr rfl, ?_⟩
    obtain ⟨-, -, -, -, -, -, -, -, -, -, -, -, -, -, e0, e1, -⟩ := idx_facts ⟨9, by rw [hN']; omega⟩
    rw [mem_blk7]
    intro a
    match a with
    | ⟨0, _⟩ => show win4_7.index _ 0 * 1 ≤ (i 0).val ∧ (i 0).val < win4_7.index _ 0 * 1 + 1; rw [e0]; omega
    | ⟨1, _⟩ => show win4_7.index _ 1 * 128 ≤ (i 1).val ∧ (i 1).val < win4_7.index _ 1 * 128 + 128; rw [e1]; omega

/-- The one block of window 8's array (the whole array), read at feature q. -/
theorem G8_blk (c : Dev nD) (t : Fin cfg4.N) (u : Fin 1) (q : Fin 128) :
    (((cfg4.win 8).blk t).view.read (Elt Ideal) (G8 V c) : Vec Ideal S1x128 .f32) (ix2 u q)
      = ∑ n : Fin 50000, hactN V c n.val q * hactN V c n.val q := by
  obtain ⟨-, -, -, -, -, -, -, -, -, -, -, -, -, -, -, -, e0, e1⟩ := idx_facts t
  have he : ((cfg4.win 8).blk t).view.emb (ix2 u q) = (ix2 u q : S1x128.Idx) :=
    funext fun a => Fin.ext (by
      match a with
      | ⟨0, _⟩ => show win4_8.index t 0 * 1 + 1 * u.val = u.val; rw [e0]; omega
      | ⟨1, _⟩ => show win4_8.index t 1 * 128 + 1 * q.val = q.val; rw [e1]; omega)
  show G8 V c (((cfg4.win 8).blk t).view.emb (ix2 u q)) = _
  rw [he]
  unfold G8
  exact Finset.sum_congr rfl fun n _ => rfl

/-- The one write-back of window 8, after the last point, writes the sums over all ten tiles. -/
theorem flushed8 (c : Dev nD) (t : Fin cfg4.N) (hf : (cfg4.win 8).flush t = true) :
    (dat4 V c).flushed 8 t = ((cfg4.win 8).blk t).view.read (Elt Ideal) (G8 V c) := by
  have hN' := hN
  have h9 : t.val = 9 := by have := (flush4_8 t).mp hf; have := t.isLt; omega
  show (cfg4.win 8).cut (grid4.coords t) ((dat4 V c).after 8 t) = _
  rw [after4_8]
  funext y
  obtain ⟨u, q, rfl⟩ : ∃ (u : Fin 1) (q : Fin 128), y = ix2 u q := ⟨y 0, y 1, eq_ix2 y⟩
  refine Eq.trans ?_ (G8_blk V c t u q).symm
  refine Eq.trans ((inv V c t.val t.isLt).2.2 u q) ?_
  rw [h9]
  exact sum_tiles (fun n => hactN V c n q * hactN V c n q)

/-- An index of window 8's array is in point t's block iff each coordinate is in the block's range on its axis. -/
theorem mem_blk8 (t : Fin cfg4.N) (i : S1x128.Idx) :
    i ∈ ((cfg4.win 8).blk t).view.set ↔ ∀ a : Fin 2, win4_8.index t a * S1x128.size a ≤ (i a).val ∧ (i a).val < win4_8.index t a * S1x128.size a + S1x128.size a := by
  show i ∈ ((View.whole (Pipeline.arrRef spec4 8)).slice (win4_8.rect t)).set ↔ _
  rw [View.set_slice_whole, Rect.mem_set_unit]
  exact Iff.rfl

/-- Window 8's array at the end of the region. -/
theorem arr8 (c : Dev nD) : (dat4 V c).arrAt 8 cfg4.N = G8 V c :=
  (dat4 V c).arrAt_eq_of_cover 8 (G8 V c) (fun t hf => flushed8 V c t hf) fun i => by
    have h0 : (i 0).val < 1 := (i 0).isLt
    have h1 : (i 1).val < 128 := (i 1).isLt
    have hN' := hN
    refine ⟨⟨9, by rw [hN']; omega⟩, (flush4_8 _).mpr rfl, ?_⟩
    obtain ⟨-, -, -, -, -, -, -, -, -, -, -, -, -, -, -, -, e0, e1⟩ := idx_facts ⟨9, by rw [hN']; omega⟩
    rw [mem_blk8]
    intro a
    match a with
    | ⟨0, _⟩ => show win4_8.index _ 0 * 1 ≤ (i 0).val ∧ (i 0).val < win4_8.index _ 0 * 1 + 1; rw [e0]; omega
    | ⟨1, _⟩ => show win4_8.index _ 1 * 128 ≤ (i 1).val ∧ (i 1).val < win4_8.index _ 1 * 128 + 128; rw [e1]; omega

/-! ## The three arrays by the activation at a node of the node range -/

theorem G6_apply (c : Dev nD) (n : Fin 50000) (q : Fin 128) : G6 V c (ix2 n q) = hact V c n q := by
  unfold G6 hactN
  exact dif_pos n.isLt
theorem G7_apply (c : Dev nD) (u : Fin 1) (q : Fin 128) : G7 V c (ix2 u q) = ∑ n : Fin 50000, hact V c n q := by
  unfold G7 hactN
  exact Finset.sum_congr rfl fun n _ => dif_pos n.isLt
theorem G8_apply (c : Dev nD) (u : Fin 1) (q : Fin 128) : G8 V c (ix2 u q) = ∑ n : Fin 50000, hact V c n q * hact V c n q := by
  unfold G8 hactN
  exact Finset.sum_congr rfl fun n _ => by rw [dif_pos n.isLt]

end Value

end Cert.KernelIdeal.Gin4

end
-- ==== Proof.BnRegion5.lean ====
/-
  The normalisation kernel of region 5: a grid of ten row tiles of 5000 rows; each point loads its tile of `h`
  (5000 × 128) and the two row vectors `s`, `t` (1 × 128, the same block at every point) and stores `h · s + t`, the row
  vectors repeated down the rows. The ten tiles partition the 50000 rows, so the output array ends holding, at row `r`
  and column `q`, `h (r, q) · s (0, q) + t (0, q)` of the arrays as the region finds them.
-/
import proofs.«121838_j70282844831870_1_alg».proof.Proof.Gen.KernelIdeal.Frame
import Idealize.ShloMosaic.Lib.Pipeline.Value
import Idealize.ShloMosaic.Lib.ValueIdx

set_option maxRecDepth 16384

noncomputable section

namespace Cert.KernelIdeal.Bn5

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of an index of the tall array, as an index of a row vector. -/
abbrev col {n : Nat} (i : (⟨2, ![n, 128]⟩ : Shape).Idx) : S1x128.Idx := ix2 (0 : Fin 1) (⟨(i 1).val, idx2_lt1 i⟩ : Fin 128)

/-- An array of extended reals read at an index (the element type spelt out). -/
abbrev rd {S : Shape} (f : S.Idx → EReal) (i : S.Idx) : EReal := f i

/-- The normalised array: `h · s + t` with the row vectors repeated down the rows. -/
def G (h : S50000x128.Idx → EReal) (s t : S1x128.Idx → EReal) : S50000x128.Idx → EReal :=
  fun i => h i * s (col i) + t (col i)

/-- A row vector repeated down 5000 rows, read at an index, is the vector at the index's column. -/
theorem bcast_apply (x : S1x128.Idx → EReal) (j : S5000x128.Idx) :
    broadcastTo S5000x128 x broadcasts_S1x128_S5000x128 j = x (col j) :=
  broadcastTo_apply x broadcasts_S1x128_S5000x128 j (col j) fun a => by
    match a with
    | ⟨0, _⟩ => rfl
    | ⟨1, _⟩ => rfl

/-- The body's one payload at an index of the tile. -/
theorem pay_apply (x0 : Vec Ideal S5000x128 .f32) (x1 x2 : Vec Ideal S1x128 .f32) (j : S5000x128.Idx) :
    k5_pay1 (F := Ideal) x0 x1 x2 j = x0 j * x1 (col j) + x2 (col j) := by
  unfold k5_pay1
  simp only [shapeCast_self]
  show x0 j * broadcastTo S5000x128 x1 broadcasts_S1x128_S5000x128 j + broadcastTo S5000x128 x2 broadcasts_S1x128_S5000x128 j = _
  rw [bcast_apply, bcast_apply]

/-- The printed index maps over the grid: the tile of point `t` starts at row block `t`, the row vectors' block is the
    first at every point. -/
theorem idx_facts : ∀ t : Fin cfg5.N, win5_0.index t (0 : Fin 2) = win5_3.index t (0 : Fin 2)
    ∧ win5_0.index t (1 : Fin 2) = 0 ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val :=
  (by decide +kernel : ∀ t : Fin grid5.N, _)

/-- What point `t` writes back is tile `t` of `G` of the arrays as the region finds them. -/
theorem flushed_eq (c : Dev nD) (t : Fin cfg5.N) :
    (dat5 (F := Ideal) V c).flushed 3 t
      = ((cfg5.win 3).blk t).view.read (Elt Ideal) (G (V c main_v112_0) (V c main_v127) (V c main_v128)) := by
  show (cfg5.win 3).cut (grid5.coords t) ((dat5 V c).after 3 t) = _
  rw [after5_3]
  unfold out5_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_apply _ _ _ j).trans ?_
  show rd (S := S50000x128) (V c main_v112_0) (((cfg5.win 0).blk t).view.emb j)
        * rd (S := S1x128) (V c main_v127) (((cfg5.win 1).blk t).view.emb (col j))
      + rd (S := S1x128) (V c main_v128) (((cfg5.win 2).blk t).view.emb (col j))
    = rd (S := S50000x128) (V c main_v112_0) (((cfg5.win 3).blk t).view.emb j)
        * rd (S := S1x128) (V c main_v127) (col (((cfg5.win 3).blk t).view.emb j))
      + rd (S := S1x128) (V c main_v128) (col (((cfg5.win 3).blk t).view.emb j))
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  have h1 : ((cfg5.win 1).blk t).view.emb (col j) = col (((cfg5.win 3).blk t).view.emb j) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_3.index t (1 : Fin 2) * 128 + 1 * (j 1).val; omega
  have h2 : ((cfg5.win 2).blk t).view.emb (col j) = col (((cfg5.win 3).blk t).view.emb j) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega
  rw [h0, h1, h2]

/-- An index of the array is in point `t`'s tile iff each coordinate is in the tile's range on its axis. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v129).slice (win5_3.rect t)).set ↔ _
  rw [View.set_slice_whole, Rect.mem_set_unit]
  exact Iff.rfl

/-- Every index of the array lies in the tile of the point numbered by its row divided by 5000. -/
theorem cover (i : S50000x128.Idx) :
    ∃ t : Fin cfg5.N, (cfg5.win 3).flush t = true ∧ i ∈ ((cfg5.win 3).blk t).view.set := by
  have hi0 : (i 0).val < 50000 := idx2_lt0 i
  have hi1 : (i 1).val < 128 := idx2_lt1 i
  refine ⟨⟨(i 0).val / 5000, by rw [show cfg5.N = 10 from N_5]; omega⟩, flush5_3 _, ?_⟩
  rw [mem_blk]
  obtain ⟨e0, e1, e2, e3, e4, e5, e6, e7⟩ := idx_facts ⟨(i 0).val / 5000, by rw [show cfg5.N = 10 from N_5]; omega⟩
  intro a
  match a with
  | ⟨0, _⟩ => show win5_3.index _ (0 : Fin 2) * 5000 ≤ (i 0).val ∧ (i 0).val < win5_3.index _ (0 : Fin 2) * 5000 + 5000; rw [e7]; show (i 0).val / 5000 * 5000 ≤ (i 0).val ∧ (i 0).val < (i 0).val / 5000 * 5000 + 5000; omega
  | ⟨1, _⟩ => show win5_3.index _ (1 : Fin 2) * 128 ≤ (i 1).val ∧ (i 1).val < win5_3.index _ (1 : Fin 2) * 128 + 128; rw [e2]; omega

/-- THE OUTPUT ARRAY at the end of the region. -/
theorem final (c : Dev nD) :
    (dat5 (F := Ideal) V c).arrAt 3 cfg5.N = G (V c main_v112_0) (V c main_v127) (V c main_v128) :=
  (dat5 V c).arrAt_eq_of_cover 3 _ (fun t _ => flushed_eq V c t) cover

end Cert.KernelIdeal.Bn5

end
-- ==== Proof.KerFold2.lean ====
/-
  Layer 2 of the kernel's program, folded: from the buffer contents at the layer's first boundary, through its stretch of
  host operations, its first region (activations, column sums, column sums of squares), the second stretch (scale and
  shift) and its normalisation region, the layer's output buffer ends holding the layer function of what the first
  boundary holds in the input, the edge vectors and the stacked arguments.
-/
import proofs.«121838_j70282844831870_1_alg».proof.Proof.Gen.KernelIdeal.Frame
import proofs.«121838_j70282844831870_1_alg».proof.Proof.KerStretch2
import proofs.«121838_j70282844831870_1_alg».proof.Proof.GinRegion4
import proofs.«121838_j70282844831870_1_alg».proof.Proof.BnRegion5
import proofs.«121838_j70282844831870_1_alg».proof.Proof.KerLayerArr

set_option maxRecDepth 16384
set_option maxHeartbeats 4000000

noncomputable section

namespace Cert.KernelIdeal.Fold2

open Idealize.ShloMosaic Idealize.ShloMosaic.TcCoe Idealize.SL.Sem Idealize.ShloMosaic.StableHlo
open Cert.KernelIdeal Cert.KernelIdeal.Gen Cert.KernelIdeal.KerHost Cert.KernelIdeal.KerLayer Idealize.ShloMosaic.ValueIdx

section Region
variable (V : (c : Dev nD) → (b : Ref sig .tc) → Buf (Elt Ideal) ((c : Thread nD τ).loc b))

/-- The first region's three output arrays as functions of the six arrays it reads. -/
theorem g6_eq (c : Dev nD) : Gin4.G6 V c = hactArr (fun z => max z 0) (V c main_v87) (V c main_v109) (V c main_v89) (V c main_v110) (V c main_v93) (V c main_v111) := by
  funext i
  unfold Gin4.G6 Gin4.hactN
  rw [dif_pos (idx2_lt0 i)]
  rfl

theorem g7_eq (c : Dev nD) : Gin4.G7 V c = sumArr (hactArr (fun z => max z 0) (V c main_v87) (V c main_v109) (V c main_v89) (V c main_v110) (V c main_v93) (V c main_v111)) := by
  funext j
  unfold Gin4.G7 Gin4.hactN sumArr
  refine Finset.sum_congr rfl fun n _ => ?_
  rw [dif_pos n.isLt]
  rfl

theorem g8_eq (c : Dev nD) : Gin4.G8 V c = sqArr (hactArr (fun z => max z 0) (V c main_v87) (V c main_v109) (V c main_v89) (V c main_v110) (V c main_v93) (V c main_v111)) := by
  funext j
  unfold Gin4.G8 Gin4.hactN sqArr
  refine Finset.sum_congr rfl fun n _ => ?_
  rw [dif_pos n.isLt]
  rfl
end Region

variable (m : (ℓ : Loc nD τ sig) → Buf (Elt Ideal) ℓ) (ρ : Dev nD → PrngReg)

/-- THE LAYER'S OUTPUT BUFFER at the layer's last boundary. -/
theorem out_eq (c : Dev nD) :
    W12 m ρ c (Proc.devRef .tc main_v129)
      = layerArr (fun z => max z 0) (W8 m ρ c (Proc.devRef .tc main_v87)) (aggOf (W8 m ρ c (Proc.devRef .tc main_v87)) (W8 m ρ c (Proc.devRef .tc main_v1)) (W8 m ρ c (Proc.devRef .tc main_v3)))
          (matOf ![2, 0, 0] slices_S7x128x128_S1x128x128_2_0_0 (W8 m ρ c (Proc.devRef .tc main_arg3))) (rowOf ![2, 0] slices_S7x128_S1x128_2_0 (W8 m ρ c (Proc.devRef .tc main_arg4)))
          (matOf ![2, 0, 0] slices_S7x128x128_S1x128x128_2_0_0 (W8 m ρ c (Proc.devRef .tc main_arg5))) (rowOf ![2, 0] slices_S7x128_S1x128_2_0 (W8 m ρ c (Proc.devRef .tc main_arg6)))
          (vecOf ![2, 0] slices_S7x128_S1x128_2_0 (W8 m ρ c (Proc.devRef .tc main_arg7))) (vecOf ![2, 0] slices_S7x128_S1x128_2_0 (W8 m ρ c (Proc.devRef .tc main_arg8))) := by
  have e4 : W12 m ρ c (Proc.devRef .tc main_v129) = (dat5 (V11 m ρ) c).arrAt 3 cfg5.N := W12_arr m ρ c 3
  have eh : V11 m ρ c main_v112_0 = W10 m ρ c (Proc.devRef .tc main_v112_0) := Stretch2.b_h (W10 m ρ c)
  have es : V11 m ρ c main_v127 = scaleK (W10 m ρ c (Proc.devRef .tc main_v112_1)) (W10 m ρ c (Proc.devRef .tc main_v112_2)) (W10 m ρ c (Proc.devRef .tc main_v97)) :=
    Stretch2.b_scale (W10 m ρ c)
  have et : V11 m ρ c main_v128 = shiftK (W10 m ρ c (Proc.devRef .tc main_v112_1)) (W10 m ρ c (Proc.devRef .tc main_v112_2)) (W10 m ρ c (Proc.devRef .tc main_v97)) (W10 m ρ c (Proc.devRef .tc main_v99)) :=
    Stretch2.b_shift (W10 m ρ c)
  have h6 : W10 m ρ c (Proc.devRef .tc main_v112_0) = hactArr (fun z => max z 0) (V9 m ρ c main_v87) (V9 m ρ c main_v109) (V9 m ρ c main_v89) (V9 m ρ c main_v110) (V9 m ρ c main_v93) (V9 m ρ c main_v111) :=
    (W10_arr m ρ c 6).trans ((Gin4.arr6 (V9 m ρ) c).trans (g6_eq (V9 m ρ) c))
  have h7 : W10 m ρ c (Proc.devRef .tc main_v112_1) = sumArr (hactArr (fun z => max z 0) (V9 m ρ c main_v87) (V9 m ρ c main_v109) (V9 m ρ c main_v89) (V9 m ρ c main_v110) (V9 m ρ c main_v93) (V9 m ρ c main_v111)) :=
    (W10_arr m ρ c 7).trans ((Gin4.arr7 (V9 m ρ) c).trans (g7_eq (V9 m ρ) c))
  have h8 : W10 m ρ c (Proc.devRef .tc main_v112_2) = sqArr (hactArr (fun z => max z 0) (V9 m ρ c main_v87) (V9 m ρ c main_v109) (V9 m ρ c main_v89) (V9 m ρ c main_v110) (V9 m ρ c main_v93) (V9 m ρ c main_v111)) :=
    (W10_arr m ρ c 8).trans ((Gin4.arr8 (V9 m ρ) c).trans (g8_eq (V9 m ρ) c))
  have hg : W10 m ρ c (Proc.devRef .tc main_v97) = (vecOf ![2, 0] slices_S7x128_S1x128_2_0 (W8 m ρ c (Proc.devRef .tc main_arg7))) :=
    (W10_of_ne m ρ c main_v97 (by decide)).trans (Stretch2.g_gam (W8 m ρ c))
  have hb : W10 m ρ c (Proc.devRef .tc main_v99) = (vecOf ![2, 0] slices_S7x128_S1x128_2_0 (W8 m ρ c (Proc.devRef .tc main_arg8))) :=
    (W10_of_ne m ρ c main_v99 (by decide)).trans (Stretch2.g_bet (W8 m ρ c))
  have vx : V9 m ρ c main_v87 = (W8 m ρ c (Proc.devRef .tc main_v87)) := Stretch2.g_x (W8 m ρ c)
  have va : V9 m ρ c main_v109 = (aggOf (W8 m ρ c (Proc.devRef .tc main_v87)) (W8 m ρ c (Proc.devRef .tc main_v1)) (W8 m ρ c (Proc.devRef .tc main_v3))) := Stretch2.g_agg (W8 m ρ c)
  have vw1 : V9 m ρ c main_v89 = (matOf ![2, 0, 0] slices_S7x128x128_S1x128x128_2_0_0 (W8 m ρ c (Proc.devRef .tc main_arg3))) := Stretch2.g_w1 (W8 m ρ c)
  have vb1 : V9 m ρ c main_v110 = (rowOf ![2, 0] slices_S7x128_S1x128_2_0 (W8 m ρ c (Proc.devRef .tc main_arg4))) := Stretch2.g_b1 (W8 m ρ c)
  have vw2 : V9 m ρ c main_v93 = (matOf ![2, 0, 0] slices_S7x128x128_S1x128x128_2_0_0 (W8 m ρ c (Proc.devRef .tc main_arg5))) := Stretch2.g_w2 (W8 m ρ c)
  have vb2 : V9 m ρ c main_v111 = (rowOf ![2, 0] slices_S7x128_S1x128_2_0 (W8 m ρ c (Proc.devRef .tc main_arg6))) := Stretch2.g_b2 (W8 m ρ c)
  rw [e4, Bn5.final (V11 m ρ) c, eh, es, et, h6, h7, h8, hg, hb, vx, va, vw1, vb1, vw2, vb2]
  rfl

end Cert.KernelIdeal.Fold2

end
-- ==== Proof.KerStretch3.lean ====
/-
  Layer 3: what its two stretches of host operations leave in the buffers its two regions read, from any contents
  `W` at the stretch's start. The first stretch slices the layer's weights, biases, `γ` and `β` out of the stacked
  arguments and forms the neighbourhood sums of the layer's input; the second turns the column sums and the column sums of squares into the
  normalisation's scale and shift and leaves the activations in place.
-/
import proofs.«121838_j70282844831870_1_alg».proof.Proof.Gen.KernelIdeal.Frame
import proofs.«121838_j70282844831870_1_alg».proof.Proof.KerHost
import Idealize.ShloMosaic.Lib.StableHlo.Run

set_option maxRecDepth 16384
set_option maxHeartbeats 4000000

noncomputable section

namespace Cert.KernelIdeal.Stretch3

open Idealize.ShloMosaic Idealize.ShloMosaic.TcCoe Idealize.SL.Sem Idealize.ShloMosaic.StableHlo
open Cert.KernelIdeal Cert.KernelIdeal.Gen Cert.KernelIdeal.KerHost

variable (W : Valuation τ sig (Elt Ideal))

theorem g_agg : after (hostOps6 (F := Ideal)) W (Proc.devRef .tc main_v139)
    = aggOf (W (Proc.devRef .tc main_v129)) (W (Proc.devRef .tc main_v1)) (W (Proc.devRef .tc main_v3)) := by
  after_results_simp; rfl

theorem g_x : after (hostOps6 (F := Ideal)) W (Proc.devRef .tc main_v129) = W (Proc.devRef .tc main_v129) := by
  after_results_simp

theorem g_w1 : after (hostOps6 (F := Ideal)) W (Proc.devRef .tc main_v141)
    = matOf ![3, 0, 0] slices_S7x128x128_S1x128x128_3_0_0 (W (Proc.devRef .tc main_arg3)) := by
  after_results_simp; rfl

theorem g_b1 : after (hostOps6 (F := Ideal)) W (Proc.devRef .tc main_v152)
    = rowOf ![3, 0] slices_S7x128_S1x128_3_0 (W (Proc.devRef .tc main_arg4)) := by
  after_results_simp; rfl

theorem g_w2 : after (hostOps6 (F := Ideal)) W (Proc.devRef .tc main_v145)
    = matOf ![3, 0, 0] slices_S7x128x128_S1x128x128_3_0_0 (W (Proc.devRef .tc main_arg5)) := by
  after_results_simp; rfl

theorem g_b2 : after (hostOps6 (F := Ideal)) W (Proc.devRef .tc main_v153)
    = rowOf ![3, 0] slices_S7x128_S1x128_3_0 (W (Proc.devRef .tc main_arg6)) := by
  after_results_simp; rfl

theorem g_gam : after (hostOps6 (F := Ideal)) W (Proc.devRef .tc main_v149)
    = vecOf ![3, 0] slices_S7x128_S1x128_3_0 (W (Proc.devRef .tc main_arg7)) := by
  after_results_simp; rfl

theorem g_bet : after (hostOps6 (F := Ideal)) W (Proc.devRef .tc main_v151)
    = vecOf ![3, 0] slices_S7x128_S1x128_3_0 (W (Proc.devRef .tc main_arg8)) := by
  after_results_simp; rfl

theorem b_scale : after (hostOps7 (F := Ideal)) W (Proc.devRef .tc main_v169)
    = scaleK (W (Proc.devRef .tc main_v154_1)) (W (Proc.devRef .tc main_v154_2)) (W (Proc.devRef .tc main_v149)) := by
  after_results_simp; rfl

theorem b_shift : after (hostOps7 (F := Ideal)) W (Proc.devRef .tc main_v170)
    = shiftK (W (Proc.devRef .tc main_v154_1)) (W (Proc.devRef .tc main_v154_2)) (W (Proc.devRef .tc main_v149)) (W (Proc.devRef .tc main_v151)) := by
  after_results_simp; rfl

theorem b_h : after (hostOps7 (F := Ideal)) W (Proc.devRef .tc main_v154_0) = W (Proc.devRef .tc main_v154_0) := by
  after_results_simp

end Cert.KernelIdeal.Stretch3

end
-- ==== Proof.GinBody6.lean ====
/-
  The last four layers' bodies (hyperbolic-tangent activation), each stored value read at an index: the first layer's
  formulas with the hyperbolic tangent in place of the clamp.
-/
import proofs.«121838_j70282844831870_1_alg».proof.Proof.GinBody

noncomputable section

namespace Cert.KernelIdeal.Gin

open Idealize.ShloMosaic Idealize.ShloMosaic.ValueIdx Cert.KernelIdeal Cert.KernelIdeal.Gen

/-- The block the body stores as the activation, at row r and feature q: the hyperbolic tangent of the pre-activation of
    the block's row r. -/
theorem k6_pay4_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k6_pay4 (F := Ideal) x0 x1 x2 x3 x4 x5 (ix2 r q)
      = Ideal.tanh (pre2 (fun j => x0 (ix2 r j)) (fun j => x1 (ix2 r j)) x2 x3 x4 x5 q) := by
  unfold k6_pay4 pre2
  show Ideal.tanh _ = _
  simp only [shapeCast_self, maximumf_apply, addf_apply, truncf_apply, broadcast_apply, matmul_apply, bcast_row_apply]
  rw [show (Scalar.ofBits FTy.f32 0x00000000#32 : Ideal .f32) = 0 from Ideal.ofBits_zero_f32]

/-- The running sum after a block: what was there plus the block's column sums of the activation. -/
theorem k6_pay5_apply (x0 x1 : Vec Ideal S5000x128 .f32) (x2 : Vec Ideal S128x128 .f32) (x3 : Vec Ideal S1x128 .f32)
    (x4 : Vec Ideal S128x128 .f32) (x5 : Vec Ideal S1x128 .f32) (s : Vec Ideal S1x128 .f32) (u : Fin 1) (q : Fin 128) :
    k6_pay5 (F := Ideal) x0 x1 x2 x3 x4 x5 s (ix2 u q)
      = s (ix2 u q) + ∑ r : Fin 5000, k6_pay4 (F := Ideal) x0 x1 x2 x3 x4 x5 (ix2 r q) := by
  unfold k6_pay5
  rw [shapeCast_self]
  exact congrArg (s (ix2 u q) + ·) ((cast_row_apply _ _ u q).trans (colSum_apply _ _ _ _ q))

/-- The running sum of squares after a block: what was there plus the block's column sums of squares. -/
theorem k6_pay1_apply (a : FVec Ideal S5000x128 .f32) (s : Vec Ideal S1x128 .f32) (u : Fin 1) (q : Fin 128) :
    k6_pay1 (F := Ideal) a s (ix2 u q) = s (ix2 u q) + ∑ r : Fin 5000, a (ix2 r q) * a (ix2 r q) := by
  unfold k6_pay1
  rw [shapeCast_self]
  exact congrArg (s (ix2 u q) + ·) ((cast_row_apply _ _ u q).trans (colSum_apply _ _ _ _ q))

/-- The first point's reset stores zero (running sum). -/
theorem k6_pay2_apply (j : S1x128.Idx) : k6_pay2 (F := Ideal) j = 0 := Ideal.ofBits_zero_f32
/-- The first point's reset stores zero (running sum of squares). -/
theorem k6_pay3_apply (j : S1x128.Idx) : k6_pay3 (F := Ideal) j = 0 := Ideal.ofBits_zero_f32

/-- The block the body stores as the activation, at row r and feature q: the hyperbolic tangent of the pre-activation of
    the block's row r. -/
theorem k8_pay4_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k8_pay4 (F := Ideal) x0 x1 x2 x3 x4 x5 (ix2 r q)
      = Ideal.tanh (pre2 (fun j => x0 (ix2 r j)) (fun j => x1 (ix2 r j)) x2 x3 x4 x5 q) := by
  unfold k8_pay4 pre2
  show Ideal.tanh _ = _
  simp only [shapeCast_self, maximumf_apply, addf_apply, truncf_apply, broadcast_apply, matmul_apply, bcast_row_apply]
  rw [show (Scalar.ofBits FTy.f32 0x00000000#32 : Ideal .f32) = 0 from Ideal.ofBits_zero_f32]

/-- The running sum after a block: what was there plus the block's column sums of the activation. -/
theorem k8_pay5_apply (x0 x1 : Vec Ideal S5000x128 .f32) (x2 : Vec Ideal S128x128 .f32) (x3 : Vec Ideal S1x128 .f32)
    (x4 : Vec Ideal S128x128 .f32) (x5 : Vec Ideal S1x128 .f32) (s : Vec Ideal S1x128 .f32) (u : Fin 1) (q : Fin 128) :
    k8_pay5 (F := Ideal) x0 x1 x2 x3 x4 x5 s (ix2 u q)
      = s (ix2 u q) + ∑ r : Fin 5000, k8_pay4 (F := Ideal) x0 x1 x2 x3 x4 x5 (ix2 r q) := by
  unfold k8_pay5
  rw [shapeCast_self]
  exact congrArg (s (ix2 u q) + ·) ((cast_row_apply _ _ u q).trans (colSum_apply _ _ _ _ q))

/-- The running sum of squares after a block: what was there plus the block's column sums of squares. -/
theorem k8_pay1_apply (a : FVec Ideal S5000x128 .f32) (s : Vec Ideal S1x128 .f32) (u : Fin 1) (q : Fin 128) :
    k8_pay1 (F := Ideal) a s (ix2 u q) = s (ix2 u q) + ∑ r : Fin 5000, a (ix2 r q) * a (ix2 r q) := by
  unfold k8_pay1
  rw [shapeCast_self]
  exact congrArg (s (ix2 u q) + ·) ((cast_row_apply _ _ u q).trans (colSum_apply _ _ _ _ q))

/-- The first point's reset stores zero (running sum). -/
theorem k8_pay2_apply (j : S1x128.Idx) : k8_pay2 (F := Ideal) j = 0 := Ideal.ofBits_zero_f32
/-- The first point's reset stores zero (running sum of squares). -/
theorem k8_pay3_apply (j : S1x128.Idx) : k8_pay3 (F := Ideal) j = 0 := Ideal.ofBits_zero_f32

/-- The block the body stores as the activation, at row r and feature q: the hyperbolic tangent of the pre-activation of
    the block's row r. -/
theorem k10_pay4_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k10_pay4 (F := Ideal) x0 x1 x2 x3 x4 x5 (ix2 r q)
      = Ideal.tanh (pre2 (fun j => x0 (ix2 r j)) (fun j => x1 (ix2 r j)) x2 x3 x4 x5 q) := by
  unfold k10_pay4 pre2
  show Ideal.tanh _ = _
  simp only [shapeCast_self, maximumf_apply, addf_apply, truncf_apply, broadcast_apply, matmul_apply, bcast_row_apply]
  rw [show (Scalar.ofBits FTy.f32 0x00000000#32 : Ideal .f32) = 0 from Ideal.ofBits_zero_f32]

/-- The running sum after a block: what was there plus the block's column sums of the activation. -/
theorem k10_pay5_apply (x0 x1 : Vec Ideal S5000x128 .f32) (x2 : Vec Ideal S128x128 .f32) (x3 : Vec Ideal S1x128 .f32)
    (x4 : Vec Ideal S128x128 .f32) (x5 : Vec Ideal S1x128 .f32) (s : Vec Ideal S1x128 .f32) (u : Fin 1) (q : Fin 128) :
    k10_pay5 (F := Ideal) x0 x1 x2 x3 x4 x5 s (ix2 u q)
      = s (ix2 u q) + ∑ r : Fin 5000, k10_pay4 (F := Ideal) x0 x1 x2 x3 x4 x5 (ix2 r q) := by
  unfold k10_pay5
  rw [shapeCast_self]
  exact congrArg (s (ix2 u q) + ·) ((cast_row_apply _ _ u q).trans (colSum_apply _ _ _ _ q))

/-- The running sum of squares after a block: what was there plus the block's column sums of squares. -/
theorem k10_pay1_apply (a : FVec Ideal S5000x128 .f32) (s : Vec Ideal S1x128 .f32) (u : Fin 1) (q : Fin 128) :
    k10_pay1 (F := Ideal) a s (ix2 u q) = s (ix2 u q) + ∑ r : Fin 5000, a (ix2 r q) * a (ix2 r q) := by
  unfold k10_pay1
  rw [shapeCast_self]
  exact congrArg (s (ix2 u q) + ·) ((cast_row_apply _ _ u q).trans (colSum_apply _ _ _ _ q))

/-- The first point's reset stores zero (running sum). -/
theorem k10_pay2_apply (j : S1x128.Idx) : k10_pay2 (F := Ideal) j = 0 := Ideal.ofBits_zero_f32
/-- The first point's reset stores zero (running sum of squares). -/
theorem k10_pay3_apply (j : S1x128.Idx) : k10_pay3 (F := Ideal) j = 0 := Ideal.ofBits_zero_f32

/-- The block the body stores as the activation, at row r and feature q: the hyperbolic tangent of the pre-activation of
    the block's row r. -/
theorem k12_pay4_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k12_pay4 (F := Ideal) x0 x1 x2 x3 x4 x5 (ix2 r q)
      = Ideal.tanh (pre2 (fun j => x0 (ix2 r j)) (fun j => x1 (ix2 r j)) x2 x3 x4 x5 q) := by
  unfold k12_pay4 pre2
  show Ideal.tanh _ = _
  simp only [shapeCast_self, maximumf_apply, addf_apply, truncf_apply, broadcast_apply, matmul_apply, bcast_row_apply]
  rw [show (Scalar.ofBits FTy.f32 0x00000000#32 : Ideal .f32) = 0 from Ideal.ofBits_zero_f32]

/-- The running sum after a block: what was there plus the block's column sums of the activation. -/
theorem k12_pay5_apply (x0 x1 : Vec Ideal S5000x128 .f32) (x2 : Vec Ideal S128x128 .f32) (x3 : Vec Ideal S1x128 .f32)
    (x4 : Vec Ideal S128x128 .f32) (x5 : Vec Ideal S1x128 .f32) (s : Vec Ideal S1x128 .f32) (u : Fin 1) (q : Fin 128) :
    k12_pay5 (F := Ideal) x0 x1 x2 x3 x4 x5 s (ix2 u q)
      = s (ix2 u q) + ∑ r : Fin 5000, k12_pay4 (F := Ideal) x0 x1 x2 x3 x4 x5 (ix2 r q) := by
  unfold k12_pay5
  rw [shapeCast_self]
  exact congrArg (s (ix2 u q) + ·) ((cast_row_apply _ _ u q).trans (colSum_apply _ _ _ _ q))

/-- The running sum of squares after a block: what was there plus the block's column sums of squares. -/
theorem k12_pay1_apply (a : FVec Ideal S5000x128 .f32) (s : Vec Ideal S1x128 .f32) (u : Fin 1) (q : Fin 128) :
    k12_pay1 (F := Ideal) a s (ix2 u q) = s (ix2 u q) + ∑ r : Fin 5000, a (ix2 r q) * a (ix2 r q) := by
  unfold k12_pay1
  rw [shapeCast_self]
  exact congrArg (s (ix2 u q) + ·) ((cast_row_apply _ _ u q).trans (colSum_apply _ _ _ _ q))

/-- The first point's reset stores zero (running sum). -/
theorem k12_pay2_apply (j : S1x128.Idx) : k12_pay2 (F := Ideal) j = 0 := Ideal.ofBits_zero_f32
/-- The first point's reset stores zero (running sum of squares). -/
theorem k12_pay3_apply (j : S1x128.Idx) : k12_pay3 (F := Ideal) j = 0 := Ideal.ofBits_zero_f32

end Cert.KernelIdeal.Gin

end
-- ==== Proof.GinPieces6.lean ====
/-
  What each control case of layer 4's first kernel leaves in its three output staging buffers, as the body's stored
  values of the blocks it loaded.

  At the grid's first point (case A) the two running rows are first set to zero and then read back; at every later
  point (case B) they are read as the point before left them. In both cases the activation buffer is written once, by
  the activation of the loaded blocks, and each running row once more, by what it held plus the block's column sums
  (of the activation, and of its square). Every store covers its whole buffer, so the last store to a buffer is what
  the buffer holds; a load of a buffer after a covering store reads that store's value.
-/
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Gin6

open Cert.KernelIdeal Cert.KernelIdeal.Gen

/-! ## What each control case leaves in the three staging buffers, as the body's stored values -/

section Pieces
variable {F : FTy → Type} [FloatOps F]

theorem hz : (![0, 0] : Fin 2 → Nat) = fun _ => 0 := funext fun a => by fin_cases a <;> rfl

theorem outA6 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond6_0 i) (x0 x1 : Vec F S5000x128 .f32) (x2 : Vec F S128x128 .f32) (x3 : Vec F S1x128 .f32) (x4 : Vec F S128x128 .f32) (x5 : Vec F S1x128 .f32) :
    out6_A_6 c i a1 h1 a2 h2 a3 h3 a4 h4 a5 h5 a6 h6 a7 h7 a8 h8 a9 h9 hc x0 x1 x2 x3 x4 x5 = k6_pay4 x0 x1 x2 x3 x4 x5 := by
  unfold out6_A_6
  rw [View.read_writes_eq_canon _ _ _ (cover6_A_6 c i a1 h1 a2 h2 a3 h3 a4 h4 a5 h5 a6 h6 a7 h7 a8 h8 a9 h9 hc x0 x1 x2 x3 x4 x5)]
  unfold kernelRun6_A
  dsimp only
  try sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA7 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond6_0 i) (x0 x1 : Vec F S5000x128 .f32) (x2 : Vec F S128x128 .f32) (x3 : Vec F S1x128 .f32) (x4 : Vec F S128x128 .f32) (x5 : Vec F S1x128 .f32) :
    out6_A_7 c i a1 h1 a2 h2 a3 h3 a4 h4 a5 h5 a6 h6 a7 h7 a8 h8 a9 h9 hc x0 x1 x2 x3 x4 x5 = k6_pay5 x0 x1 x2 x3 x4 x5 k6_pay2 := by
  unfold out6_A_7
  rw [View.read_writes_eq_canon _ _ _ (cover6_A_7 c i a1 h1 a2 h2 a3 h3 a4 h4 a5 h5 a6 h6 a7 h7 a8 h8 a9 h9 hc x0 x1 x2 x3 x4 x5)]
  unfold kernelRun6_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA8 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond6_0 i) (x0 x1 : Vec F S5000x128 .f32) (x2 : Vec F S128x128 .f32) (x3 : Vec F S1x128 .f32) (x4 : Vec F S128x128 .f32) (x5 : Vec F S1x128 .f32) :
    out6_A_8 c i a1 h1 a2 h2 a3 h3 a4 h4 a5 h5 a6 h6 a7 h7 a8 h8 a9 h9 hc x0 x1 x2 x3 x4 x5 = k6_pay1 (k6_pay4 x0 x1 x2 x3 x4 x5) k6_pay3 := by
  unfold out6_A_8
  rw [View.read_writes_eq_canon _ _ _ (cover6_A_8 c i a1 h1 a2 h2 a3 h3 a4 h4 a5 h5 a6 h6 a7 h7 a8 h8 a9 h9 hc x0 x1 x2 x3 x4 x5)]
  unfold kernelRun6_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outB6 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond6_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out6_B_6 c i a1 h1 a2 h2 a3 h3 a4 h4 a5 h5 a6 h6 a7 h7 a8 h8 a9 h9 hc x0 x1 x2 x3 x4 x5 xo7 xo8 = k6_pay4 x0 x1 x2 x3 x4 x5 := by
  unfold out6_B_6
  rw [View.read_writes_eq_canon _ _ _ (cover6_B_6 c i a1 h1 a2 h2 a3 h3 a4 h4 a5 h5 a6 h6 a7 h7 a8 h8 a9 h9 hc x0 x1 x2 x3 x4 x5 xo7 xo8)]
  unfold kernelRun6_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB7 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond6_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out6_B_7 c i a1 h1 a2 h2 a3 h3 a4 h4 a5 h5 a6 h6 a7 h7 a8 h8 a9 h9 hc x0 x1 x2 x3 x4 x5 xo7 xo8 = k6_pay5 x0 x1 x2 x3 x4 x5 xo7 := by
  unfold out6_B_7
  rw [View.read_writes_eq_canon _ _ _ (cover6_B_7 c i a1 h1 a2 h2 a3 h3 a4 h4 a5 h5 a6 h6 a7 h7 a8 h8 a9 h9 hc x0 x1 x2 x3 x4 x5 xo7 xo8)]
  unfold kernelRun6_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB8 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond6_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out6_B_8 c i a1 h1 a2 h2 a3 h3 a4 h4 a5 h5 a6 h6 a7 h7 a8 h8 a9 h9 hc x0 x1 x2 x3 x4 x5 xo7 xo8 = k6_pay1 (k6_pay4 x0 x1 x2 x3 x4 x5) xo8 := by
  unfold out6_B_8
  rw [View.read_writes_eq_canon _ _ _ (cover6_B_8 c i a1 h1 a2 h2 a3 h3 a4 h4 a5 h5 a6 h6 a7 h7 a8 h8 a9 h9 hc x0 x1 x2 x3 x4 x5 xo7 xo8)]
  unfold kernelRun6_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

end Pieces

end Cert.KernelIdeal.Gin6

end
-- ==== Proof.GinRegion6.lean ====
/-
  Layer 4's first kernel, as three whole-array functions of the six arrays it reads.

  The kernel runs over ten tiles of 5000 nodes. At tile t it loads rows 5000 t … 5000 t + 4999 of the node features x
  and of the aggregated neighbour features agg, and the whole of the two weight matrices and two bias rows; it stores
  the activation of those rows as tile t of the activation array, and adds the tile's column sums of the activation,
  and of its square, into two running rows that the first tile starts from zero and that are written back once, after
  the last tile. So at the end of the region

    the activation array at (n, q) is  act( Σ_k max( Σ_j (x(n,j) + agg(n,j)) · W1(j,k) + b1(0,k), 0 ) · W2(k,q) + b2(0,q) ),
    the sum array at (0, q) is the sum over all 50000 nodes n of the activation at (n, q),
    the sum-of-squares array at (0, q) is the sum over all nodes of its square,

  with act the hyperbolic tangent. The ten partial sums are regrouped into one sum over all nodes: addition of extended reals is
  commutative and associative, and the first tile's zero is the additive unit, so nothing needs to be finite.
-/
import proofs.«121838_j70282844831870_1_alg».proof.Proof.GinBody6
import proofs.«121838_j70282844831870_1_alg».proof.Proof.GinPieces6
import proofs.«121838_j70282844831870_1_alg».proof.Proof.LibSegmentLinear
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Gin6

open Cert.KernelIdeal Cert.KernelIdeal.Gen Cert.KernelIdeal.Gin Idealize.ShloMosaic.ValueIdx

section Value
variable (V : (c : Dev nD) → (b : Ref sig .tc) → Buf (Elt Ideal) ((c : Thread nD τ).loc b))

/-- The grid has ten points. -/
theorem hN : cfg6.N = 10 := N_6

/-- The printed index maps over the grid: the two row-tiled inputs and the activation output sit at row block t, and
    the four parameter inputs and the two statistics outputs at block zero. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

/-- The layer's activation at node n and feature q, from the six arrays as the region finds them. -/
def hact (c : Dev nD) (n : Fin 50000) (q : Fin 128) : EReal :=
  Ideal.tanh (pre2 (fun j => (V c (Pipeline.arrRef spec6 0) : S50000x128.Idx → EReal) (ix2 n j))
    (fun j => (V c (Pipeline.arrRef spec6 1) : S50000x128.Idx → EReal) (ix2 n j))
    (V c (Pipeline.arrRef spec6 2)) (V c (Pipeline.arrRef spec6 3)) (V c (Pipeline.arrRef spec6 4)) (V c (Pipeline.arrRef spec6 5)) q)

/-- The same with the node a natural number (zero past the last node), the form the sums over tiles of nodes use. -/
def hactN (c : Dev nD) (n : ℕ) (q : Fin 128) : EReal := if h : n < 50000 then hact V c ⟨n, h⟩ q else 0

/-! ## The blocks the body loads, as rows of the arrays -/

/-- Row r of point t's block of a row-tiled input (the node features, the aggregated neighbour features) is row
    5000 t + r of the array. -/
theorem iblk_row0 (c : Dev nD) (t : Fin cfg6.N) (r : Fin 5000) (j : Fin 128) (h : t.val * 5000 + r.val < 50000) :
    (iblk6 V c 0 t : Vec Ideal S5000x128 .f32) (ix2 r j)
      = (V c (Pipeline.arrRef spec6 0) : S50000x128.Idx → EReal) (ix2 ⟨t.val * 5000 + r.val, h⟩ j) := by
  obtain ⟨e0, e1, -⟩ := idx_facts t
  unfold iblk6
  rw [View.read_apply]
  refine congrArg (V c (Pipeline.arrRef spec6 0) : S50000x128.Idx → EReal) (funext fun a => Fin.ext ?_)
  match a with
  | ⟨0, _⟩ => show win6_0.index t 0 * 5000 + 1 * r.val = t.val * 5000 + r.val; rw [e0]; omega
  | ⟨1, _⟩ => show win6_0.index t 1 * 128 + 1 * j.val = j.val; rw [e1]; omega

theorem iblk_row1 (c : Dev nD) (t : Fin cfg6.N) (r : Fin 5000) (j : Fin 128) (h : t.val * 5000 + r.val < 50000) :
    (iblk6 V c 1 t : Vec Ideal S5000x128 .f32) (ix2 r j)
      = (V c (Pipeline.arrRef spec6 1) : S50000x128.Idx → EReal) (ix2 ⟨t.val * 5000 + r.val, h⟩ j) := by
  obtain ⟨-, -, e0, e1, -⟩ := idx_facts t
  unfold iblk6
  rw [View.read_apply]
  refine congrArg (V c (Pipeline.arrRef spec6 1) : S50000x128.Idx → EReal) (funext fun a => Fin.ext ?_)
  match a with
  | ⟨0, _⟩ => show win6_1.index t 0 * 5000 + 1 * r.val = t.val * 5000 + r.val; rw [e0]; omega
  | ⟨1, _⟩ => show win6_1.index t 1 * 128 + 1 * j.val = j.val; rw [e1]; omega

/-- A parameter input's block is the whole array at every point. -/
theorem iblk_2 (c : Dev nD) (t : Fin cfg6.N) : (iblk6 V c 2 t : Vec Ideal S128x128 .f32) = V c (Pipeline.arrRef spec6 2) := by
  obtain ⟨-, -, -, -, e0, e1, -⟩ := idx_facts t
  funext y
  unfold iblk6
  rw [View.read_apply]
  refine congrArg (V c (Pipeline.arrRef spec6 2) : S128x128.Idx → EReal) (funext fun a => Fin.ext ?_)
  match a with
  | ⟨0, _⟩ => show win6_2.index t 0 * 128 + 1 * (y 0).val = (y 0).val; rw [e0]; omega
  | ⟨1, _⟩ => show win6_2.index t 1 * 128 + 1 * (y 1).val = (y 1).val; rw [e1]; omega

theorem iblk_3 (c : Dev nD) (t : Fin cfg6.N) : (iblk6 V c 3 t : Vec Ideal S1x128 .f32) = V c (Pipeline.arrRef spec6 3) := by
  obtain ⟨-, -, -, -, -, -, e0, e1, -⟩ := idx_facts t
  funext y
  unfold iblk6
  rw [View.read_apply]
  refine congrArg (V c (Pipeline.arrRef spec6 3) : S1x128.Idx → EReal) (funext fun a => Fin.ext ?_)
  match a with
  | ⟨0, _⟩ => show win6_3.index t 0 * 1 + 1 * (y 0).val = (y 0).val; rw [e0]; omega
  | ⟨1, _⟩ => show win6_3.index t 1 * 128 + 1 * (y 1).val = (y 1).val; rw [e1]; omega

theorem iblk_4 (c : Dev nD) (t : Fin cfg6.N) : (iblk6 V c 4 t : Vec Ideal S128x128 .f32) = V c (Pipeline.arrRef spec6 4) := by
  obtain ⟨-, -, -, -, -, -, -, -, e0, e1, -⟩ := idx_facts t
  funext y
  unfold iblk6
  rw [View.read_apply]
  refine congrArg (V c (Pipeline.arrRef spec6 4) : S128x128.Idx → EReal) (funext fun a => Fin.ext ?_)
  match a with
  | ⟨0, _⟩ => show win6_4.index t 0 * 128 + 1 * (y 0).val = (y 0).val; rw [e0]; omega
  | ⟨1, _⟩ => show win6_4.index t 1 * 128 + 1 * (y 1).val = (y 1).val; rw [e1]; omega

theorem iblk_5 (c : Dev nD) (t : Fin cfg6.N) : (iblk6 V c 5 t : Vec Ideal S1x128 .f32) = V c (Pipeline.arrRef spec6 5) := by
  obtain ⟨-, -, -, -, -, -, -, -, -, -, e0, e1, -⟩ := idx_facts t
  funext y
  unfold iblk6
  rw [View.read_apply]
  refine congrArg (V c (Pipeline.arrRef spec6 5) : S1x128.Idx → EReal) (funext fun a => Fin.ext ?_)
  match a with
  | ⟨0, _⟩ => show win6_5.index t 0 * 1 + 1 * (y 0).val = (y 0).val; rw [e0]; omega
  | ⟨1, _⟩ => show win6_5.index t 1 * 128 + 1 * (y 1).val = (y 1).val; rw [e1]; omega

/-- The activation the body computes from point t's blocks, at row r: the layer's activation at node 5000 t + r. -/
theorem blk_act (c : Dev nD) (t : Fin cfg6.N) (r : Fin 5000) (q : Fin 128) :
    k6_pay4 (F := Ideal) (iblk6 V c 0 t) (iblk6 V c 1 t) (iblk6 V c 2 t) (iblk6 V c 3 t) (iblk6 V c 4 t) (iblk6 V c 5 t) (ix2 r q) = hactN V c (t.val * 5000 + r.val) q := by
  have ht : t.val < 10 := lt_of_lt_of_eq t.isLt hN
  have h : t.val * 5000 + r.val < 50000 := by have := r.isLt; omega
  refine (k6_pay4_apply (iblk6 V c 0 t) (iblk6 V c 1 t) (iblk6 V c 2 t) (iblk6 V c 3 t) (iblk6 V c 4 t) (iblk6 V c 5 t) r q).trans ?_
  have e0 : (fun j => (iblk6 V c 0 t : Vec Ideal S5000x128 .f32) (ix2 r j)) = fun j => (V c (Pipeline.arrRef spec6 0) : S50000x128.Idx → EReal) (ix2 ⟨t.val * 5000 + r.val, h⟩ j) :=
    funext fun j => iblk_row0 V c t r j h
  have e1 : (fun j => (iblk6 V c 1 t : Vec Ideal S5000x128 .f32) (ix2 r j)) = fun j => (V c (Pipeline.arrRef spec6 1) : S50000x128.Idx → EReal) (ix2 ⟨t.val * 5000 + r.val, h⟩ j) :=
    funext fun j => iblk_row1 V c t r j h
  rw [e0, e1, iblk_2 V c t, iblk_3 V c t, iblk_4 V c t, iblk_5 V c t]
  unfold hactN
  rw [dif_pos h]
  rfl

/-! ## The staging buffers after each point -/

/-- What the three staging buffers hold after the first point, as the body's stored values of the point's blocks. -/
theorem outs_A (c : Dev nD) (t : Fin cfg6.N) (h0 : t.val % 10 = 0) :
    outsAt6 V c t.val t.isLt = (k6_pay4 (F := Ideal) (iblk6 V c 0 t) (iblk6 V c 1 t) (iblk6 V c 2 t) (iblk6 V c 3 t) (iblk6 V c 4 t) (iblk6 V c 5 t), k6_pay5 (iblk6 V c 0 t) (iblk6 V c 1 t) (iblk6 V c 2 t) (iblk6 V c 3 t) (iblk6 V c 4 t) (iblk6 V c 5 t) (k6_pay2 (F := Ideal)), k6_pay1 (k6_pay4 (iblk6 V c 0 t) (iblk6 V c 1 t) (iblk6 V c 2 t) (iblk6 V c 3 t) (iblk6 V c 4 t) (iblk6 V c 5 t)) (k6_pay3 (F := Ideal))) :=
  (outsAt6_A V c t h0).trans (congrArg₂ Prod.mk
    (outA6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t))
    (congrArg₂ Prod.mk
      (outA7 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t))
      (outA8 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t))))

/-- What they hold after a later point, over what the point before left in the two running rows. -/
theorem outs_B (c : Dev nD) (t : Fin cfg6.N) (h0 : ¬t.val % 10 = 0) :
    outsAt6 V c t.val t.isLt = (k6_pay4 (F := Ideal) (iblk6 V c 0 t) (iblk6 V c 1 t) (iblk6 V c 2 t) (iblk6 V c 3 t) (iblk6 V c 4 t) (iblk6 V c 5 t), k6_pay5 (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1, k6_pay1 (k6_pay4 (iblk6 V c 0 t) (iblk6 V c 1 t) (iblk6 V c 2 t) (iblk6 V c 3 t) (iblk6 V c 4 t) (iblk6 V c 5 t)) (outsAt6 V c (t.val - 1) (Nat.lt_of_le_of_lt (Nat.sub_le _ _) t.isLt)).2.2) :=
  (outsAt6_B V c t h0).trans (congrArg₂ Prod.mk
    (outB6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2)
    (congrArg₂ Prod.mk
      (outB7 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2)
      (outB8 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2)))

/-- After point n the three staging buffers hold: the activation of point n's rows; the sums over the nodes of the
    tiles 0 … n of the activation; and of its square. -/
def Inv (c : Dev nD) (n : ℕ) (hn : n < cfg6.N) : Prop :=
  (outsAt6 V c n hn).1 = k6_pay4 (F := Ideal) (iblk6 V c 0 ⟨n, hn⟩) (iblk6 V c 1 ⟨n, hn⟩) (iblk6 V c 2 ⟨n, hn⟩) (iblk6 V c 3 ⟨n, hn⟩) (iblk6 V c 4 ⟨n, hn⟩) (iblk6 V c 5 ⟨n, hn⟩)
  ∧ (∀ (u : Fin 1) (q : Fin 128), (outsAt6 V c n hn).2.1 (ix2 u q)
      = ∑ s ∈ Finset.range (n + 1), ∑ r : Fin 5000, hactN V c (s * 5000 + r.val) q)
  ∧ (∀ (u : Fin 1) (q : Fin 128), (outsAt6 V c n hn).2.2 (ix2 u q)
      = ∑ s ∈ Finset.range (n + 1), ∑ r : Fin 5000, hactN V c (s * 5000 + r.val) q * hactN V c (s * 5000 + r.val) q)

/-- It holds at every point: at the first the running rows start from the zero the point stores, and each later point
    adds its tile's column sums to what the point before left. -/
theorem inv (c : Dev nD) : ∀ (n : ℕ) (hn : n < cfg6.N), Inv V c n hn
  | 0, hn => by
    have e : outsAt6 V c 0 hn = _ := outs_A V c ⟨0, hn⟩ (Nat.zero_mod _)
    have hb : ∀ (r : Fin 5000) (q : Fin 128), k6_pay4 (F := Ideal) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (ix2 r q) = hactN V c (0 * 5000 + r.val) q :=
      fun r q => blk_act V c ⟨0, hn⟩ r q
    unfold Inv
    rw [e]
    dsimp only
    refine ⟨rfl, fun u q => ?_, fun u q => ?_⟩
    · rw [k6_pay5_apply (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) _ u q, k6_pay2_apply, zero_add]
      rw [Finset.sum_range_one]
      exact Finset.sum_congr rfl fun r _ => hb r q
    · rw [k6_pay1_apply (k6_pay4 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩)) _ u q, k6_pay3_apply, zero_add]
      rw [Finset.sum_range_one]
      exact Finset.sum_congr rfl fun r _ => by rw [hb r q]
  | n + 1, hn => by
    obtain ⟨-, ih7, ih8⟩ := inv c n (Nat.lt_of_succ_lt hn)
    have hB : ¬(⟨n + 1, hn⟩ : Fin cfg6.N).val % 10 = 0 := by have := hN; dsimp only; omega
    have e : outsAt6 V c (n + 1) hn = _ := outs_B V c ⟨n + 1, hn⟩ hB
    have hb : ∀ (r : Fin 5000) (q : Fin 128), k6_pay4 (F := Ideal) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (ix2 r q) = hactN V c ((n + 1) * 5000 + r.val) q :=
      fun r q => blk_act V c ⟨n + 1, hn⟩ r q
    unfold Inv
    rw [e]
    dsimp only
    refine ⟨rfl, fun u q => ?_, fun u q => ?_⟩
    · rw [k6_pay5_apply (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) _ u q]
      rw [Finset.sum_range_succ]
      exact congrArg₂ (· + ·) (ih7 u q) (Finset.sum_congr rfl fun r _ => hb r q)
    · rw [k6_pay1_apply (k6_pay4 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩)) _ u q]
      rw [Finset.sum_range_succ]
      exact congrArg₂ (· + ·) (ih8 u q) (Finset.sum_congr rfl fun r _ => by rw [hb r q])

/-! ## From the staging buffers to the arrays -/

/-- The ten tiles of 5000 nodes are all 50000 nodes. -/
theorem sum_tiles (f : ℕ → EReal) : ∑ s ∈ Finset.range 10, ∑ r : Fin 5000, f (s * 5000 + r.val) = ∑ n : Fin 50000, f n.val := by
  rw [Finset.sum_range]
  exact Cert.SegmentLinear.sum_blocks 10 5000 f

/-- The activation array: the layer's activation at every node and feature. -/
def G6 (c : Dev nD) : S50000x128.Idx → EReal := fun i => hactN V c (i 0).val (i 1)
/-- The sum array: per feature, the sum over all nodes of the activation. -/
def G7 (c : Dev nD) : S1x128.Idx → EReal := fun j => ∑ n : Fin 50000, hactN V c n.val (j 1)
/-- The sum-of-squares array: per feature, the sum over all nodes of the squared activation. -/
def G8 (c : Dev nD) : S1x128.Idx → EReal := fun j => ∑ n : Fin 50000, hactN V c n.val (j 1) * hactN V c n.val (j 1)

-- the two sums are never opened by unfolding: they are compared as they stand
attribute [local irreducible] G7 G8

/-- Tile t of the activation array, at row r: the activation at node 5000 t + r. -/
theorem G6_blk (c : Dev nD) (t : Fin cfg6.N) (r : Fin 5000) (q : Fin 128) :
    (((cfg6.win 6).blk t).view.read (Elt Ideal) (G6 V c) : Vec Ideal S5000x128 .f32) (ix2 r q)
      = hactN V c (t.val * 5000 + r.val) q := by
  obtain ⟨-, -, -, -, -, -, -, -, -, -, -, -, e0, e1, -⟩ := idx_facts t
  have ht : t.val < 10 := lt_of_lt_of_eq t.isLt hN
  have h : t.val * 5000 + r.val < 50000 := by have := r.isLt; omega
  have he : ((cfg6.win 6).blk t).view.emb (ix2 r q) = (ix2 ⟨t.val * 5000 + r.val, h⟩ q : S50000x128.Idx) :=
    funext fun a => Fin.ext (by
      match a with
      | ⟨0, _⟩ => show win6_6.index t 0 * 5000 + 1 * r.val = t.val * 5000 + r.val; rw [e0]; omega
      | ⟨1, _⟩ => show win6_6.index t 1 * 128 + 1 * q.val = q.val; rw [e1]; omega)
  show G6 V c (((cfg6.win 6).blk t).view.emb (ix2 r q)) = _
  rw [he]
  rfl

/-- Every point writes back its tile of the activation array. -/
theorem flushed6 (c : Dev nD) (t : Fin cfg6.N) :
    (dat6 V c).flushed 6 t = ((cfg6.win 6).blk t).view.read (Elt Ideal) (G6 V c) := by
  show (cfg6.win 6).cut (grid6.coords t) ((dat6 V c).after 6 t) = _
  rw [after6_6, (inv V c t.val t.isLt).1]
  funext y
  obtain ⟨r, q, rfl⟩ : ∃ (r : Fin 5000) (q : Fin 128), y = ix2 r q := ⟨y 0, y 1, eq_ix2 y⟩
  refine Eq.trans ?_ (G6_blk V c t r q).symm
  exact blk_act V c t r q

/-- An index of the activation array is in point t's block iff each coordinate is in the block's range on its axis. -/
theorem mem_blk6 (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole (Pipeline.arrRef spec6 6)).slice (win6_6.rect t)).set ↔ _
  rw [View.set_slice_whole, Rect.mem_set_unit]
  exact Iff.rfl

/-- The activation array at the end of the region. -/
theorem arr6 (c : Dev nD) : (dat6 V c).arrAt 6 cfg6.N = G6 V c :=
  (dat6 V c).arrAt_eq_of_cover 6 (G6 V c) (fun t _ => flushed6 V c t) fun i => by
    have h0 : (i 0).val < 50000 := (i 0).isLt
    have h1 : (i 1).val < 128 := (i 1).isLt
    have hN' := hN
    refine ⟨⟨(i 0).val / 5000, by rw [hN']; omega⟩, flush6_6 _, ?_⟩
    obtain ⟨-, -, -, -, -, -, -, -, -, -, -, -, e0, e1, -⟩ := idx_facts ⟨(i 0).val / 5000, by rw [hN']; omega⟩
    rw [mem_blk6]
    intro a
    match a with
    | ⟨0, _⟩ => show win6_6.index _ 0 * 5000 ≤ (i 0).val ∧ (i 0).val < win6_6.index _ 0 * 5000 + 5000; rw [e0]; dsimp only; omega
    | ⟨1, _⟩ => show win6_6.index _ 1 * 128 ≤ (i 1).val ∧ (i 1).val < win6_6.index _ 1 * 128 + 128; rw [e1]; omega

/-- The one block of window 7's array (the whole array), read at feature q. -/
theorem G7_blk (c : Dev nD) (t : Fin cfg6.N) (u : Fin 1) (q : Fin 128) :
    (((cfg6.win 7).blk t).view.read (Elt Ideal) (G7 V c) : Vec Ideal S1x128 .f32) (ix2 u q)
      = ∑ n : Fin 50000, hactN V c n.val q := by
  obtain ⟨-, -, -, -, -, -, -, -, -, -, -, -, -, -, e0, e1, -⟩ := idx_facts t
  have he : ((cfg6.win 7).blk t).view.emb (ix2 u q) = (ix2 u q : S1x128.Idx) :=
    funext fun a => Fin.ext (by
      match a with
      | ⟨0, _⟩ => show win6_7.index t 0 * 1 + 1 * u.val = u.val; rw [e0]; omega
      | ⟨1, _⟩ => show win6_7.index t 1 * 128 + 1 * q.val = q.val; rw [e1]; omega)
  show G7 V c (((cfg6.win 7).blk t).view.emb (ix2 u q)) = _
  rw [he]
  unfold G7
  exact Finset.sum_congr rfl fun n _ => rfl

/-- The one write-back of window 7, after the last point, writes the sums over all ten tiles. -/
theorem flushed7 (c : Dev nD) (t : Fin cfg6.N) (hf : (cfg6.win 7).flush t = true) :
    (dat6 V c).flushed 7 t = ((cfg6.win 7).blk t).view.read (Elt Ideal) (G7 V c) := by
  have hN' := hN
  have h9 : t.val = 9 := by have := (flush6_7 t).mp hf; have := t.isLt; omega
  show (cfg6.win 7).cut (grid6.coords t) ((dat6 V c).after 7 t) = _
  rw [after6_7]
  funext y
  obtain ⟨u, q, rfl⟩ : ∃ (u : Fin 1) (q : Fin 128), y = ix2 u q := ⟨y 0, y 1, eq_ix2 y⟩
  refine Eq.trans ?_ (G7_blk V c t u q).symm
  refine Eq.trans ((inv V c t.val t.isLt).2.1 u q) ?_
  rw [h9]
  exact sum_tiles (fun n => hactN V c n q)

/-- An index of window 7's array is in point t's block iff each coordinate is in the block's range on its axis. -/
theorem mem_blk7 (t : Fin cfg6.N) (i : S1x128.Idx) :
    i ∈ ((cfg6.win 7).blk t).view.set ↔ ∀ a : Fin 2, win6_7.index t a * S1x128.size a ≤ (i a).val ∧ (i a).val < win6_7.index t a * S1x128.size a + S1x128.size a := by
  show i ∈ ((View.whole (Pipeline.arrRef spec6 7)).slice (win6_7.rect t)).set ↔ _
  rw [View.set_slice_whole, Rect.mem_set_unit]
  exact Iff.rfl

/-- Window 7's array at the end of the region. -/
theorem arr7 (c : Dev nD) : (dat6 V c).arrAt 7 cfg6.N = G7 V c :=
  (dat6 V c).arrAt_eq_of_cover 7 (G7 V c) (fun t hf => flushed7 V c t hf) fun i => by
    have h0 : (i 0).val < 1 := (i 0).isLt
    have h1 : (i 1).val < 128 := (i 1).isLt
    have hN' := hN
    refine ⟨⟨9, by rw [hN']; omega⟩, (flush6_7 _).mpr rfl, ?_⟩
    obtain ⟨-, -, -, -, -, -, -, -, -, -, -, -, -, -, e0, e1, -⟩ := idx_facts ⟨9, by rw [hN']; omega⟩
    rw [mem_blk7]
    intro a
    match a with
    | ⟨0, _⟩ => show win6_7.index _ 0 * 1 ≤ (i 0).val ∧ (i 0).val < win6_7.index _ 0 * 1 + 1; rw [e0]; omega
    | ⟨1, _⟩ => show win6_7.index _ 1 * 128 ≤ (i 1).val ∧ (i 1).val < win6_7.index _ 1 * 128 + 128; rw [e1]; omega

/-- The one block of window 8's array (the whole array), read at feature q. -/
theorem G8_blk (c : Dev nD) (t : Fin cfg6.N) (u : Fin 1) (q : Fin 128) :
    (((cfg6.win 8).blk t).view.read (Elt Ideal) (G8 V c) : Vec Ideal S1x128 .f32) (ix2 u q)
      = ∑ n : Fin 50000, hactN V c n.val q * hactN V c n.val q := by
  obtain ⟨-, -, -, -, -, -, -, -, -, -, -, -, -, -, -, -, e0, e1⟩ := idx_facts t
  have he : ((cfg6.win 8).blk t).view.emb (ix2 u q) = (ix2 u q : S1x128.Idx) :=
    funext fun a => Fin.ext (by
      match a with
      | ⟨0, _⟩ => show win6_8.index t 0 * 1 + 1 * u.val = u.val; rw [e0]; omega
      | ⟨1, _⟩ => show win6_8.index t 1 * 128 + 1 * q.val = q.val; rw [e1]; omega)
  show G8 V c (((cfg6.win 8).blk t).view.emb (ix2 u q)) = _
  rw [he]
  unfold G8
  exact Finset.sum_congr rfl fun n _ => rfl

/-- The one write-back of window 8, after the last point, writes the sums over all ten tiles. -/
theorem flushed8 (c : Dev nD) (t : Fin cfg6.N) (hf : (cfg6.win 8).flush t = true) :
    (dat6 V c).flushed 8 t = ((cfg6.win 8).blk t).view.read (Elt Ideal) (G8 V c) := by
  have hN' := hN
  have h9 : t.val = 9 := by have := (flush6_8 t).mp hf; have := t.isLt; omega
  show (cfg6.win 8).cut (grid6.coords t) ((dat6 V c).after 8 t) = _
  rw [after6_8]
  funext y
  obtain ⟨u, q, rfl⟩ : ∃ (u : Fin 1) (q : Fin 128), y = ix2 u q := ⟨y 0, y 1, eq_ix2 y⟩
  refine Eq.trans ?_ (G8_blk V c t u q).symm
  refine Eq.trans ((inv V c t.val t.isLt).2.2 u q) ?_
  rw [h9]
  exact sum_tiles (fun n => hactN V c n q * hactN V c n q)

/-- An index of window 8's array is in point t's block iff each coordinate is in the block's range on its axis. -/
theorem mem_blk8 (t : Fin cfg6.N) (i : S1x128.Idx) :
    i ∈ ((cfg6.win 8).blk t).view.set ↔ ∀ a : Fin 2, win6_8.index t a * S1x128.size a ≤ (i a).val ∧ (i a).val < win6_8.index t a * S1x128.size a + S1x128.size a := by
  show i ∈ ((View.whole (Pipeline.arrRef spec6 8)).slice (win6_8.rect t)).set ↔ _
  rw [View.set_slice_whole, Rect.mem_set_unit]
  exact Iff.rfl

/-- Window 8's array at the end of the region. -/
theorem arr8 (c : Dev nD) : (dat6 V c).arrAt 8 cfg6.N = G8 V c :=
  (dat6 V c).arrAt_eq_of_cover 8 (G8 V c) (fun t hf => flushed8 V c t hf) fun i => by
    have h0 : (i 0).val < 1 := (i 0).isLt
    have h1 : (i 1).val < 128 := (i 1).isLt
    have hN' := hN
    refine ⟨⟨9, by rw [hN']; omega⟩, (flush6_8 _).mpr rfl, ?_⟩
    obtain ⟨-, -, -, -, -, -, -, -, -, -, -, -, -, -, -, -, e0, e1⟩ := idx_facts ⟨9, by rw [hN']; omega⟩
    rw [mem_blk8]
    intro a
    match a with
    | ⟨0, _⟩ => show win6_8.index _ 0 * 1 ≤ (i 0).val ∧ (i 0).val < win6_8.index _ 0 * 1 + 1; rw [e0]; omega
    | ⟨1, _⟩ => show win6_8.index _ 1 * 128 ≤ (i 1).val ∧ (i 1).val < win6_8.index _ 1 * 128 + 128; rw [e1]; omega

/-! ## The three arrays by the activation at a node of the node range -/

theorem G6_apply (c : Dev nD) (n : Fin 50000) (q : Fin 128) : G6 V c (ix2 n q) = hact V c n q := by
  unfold G6 hactN
  exact dif_pos n.isLt
theorem G7_apply (c : Dev nD) (u : Fin 1) (q : Fin 128) : G7 V c (ix2 u q) = ∑ n : Fin 50000, hact V c n q := by
  unfold G7 hactN
  exact Finset.sum_congr rfl fun n _ => dif_pos n.isLt
theorem G8_apply (c : Dev nD) (u : Fin 1) (q : Fin 128) : G8 V c (ix2 u q) = ∑ n : Fin 50000, hact V c n q * hact V c n q := by
  unfold G8 hactN
  exact Finset.sum_congr rfl fun n _ => by rw [dif_pos n.isLt]

end Value

end Cert.KernelIdeal.Gin6

end
-- ==== Proof.BnRegion7.lean ====
/-
  The normalisation kernel of region 7: a grid of ten row tiles of 5000 rows; each point loads its tile of `h`
  (5000 × 128) and the two row vectors `s`, `t` (1 × 128, the same block at every point) and stores `h · s + t`, the row
  vectors repeated down the rows. The ten tiles partition the 50000 rows, so the output array ends holding, at row `r`
  and column `q`, `h (r, q) · s (0, q) + t (0, q)` of the arrays as the region finds them.
-/
import proofs.«121838_j70282844831870_1_alg».proof.Proof.Gen.KernelIdeal.Frame
import Idealize.ShloMosaic.Lib.Pipeline.Value
import Idealize.ShloMosaic.Lib.ValueIdx

set_option maxRecDepth 16384

noncomputable section

namespace Cert.KernelIdeal.Bn7

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of an index of the tall array, as an index of a row vector. -/
abbrev col {n : Nat} (i : (⟨2, ![n, 128]⟩ : Shape).Idx) : S1x128.Idx := ix2 (0 : Fin 1) (⟨(i 1).val, idx2_lt1 i⟩ : Fin 128)

/-- An array of extended reals read at an index (the element type spelt out). -/
abbrev rd {S : Shape} (f : S.Idx → EReal) (i : S.Idx) : EReal := f i

/-- The normalised array: `h · s + t` with the row vectors repeated down the rows. -/
def G (h : S50000x128.Idx → EReal) (s t : S1x128.Idx → EReal) : S50000x128.Idx → EReal :=
  fun i => h i * s (col i) + t (col i)

/-- A row vector repeated down 5000 rows, read at an index, is the vector at the index's column. -/
theorem bcast_apply (x : S1x128.Idx → EReal) (j : S5000x128.Idx) :
    broadcastTo S5000x128 x broadcasts_S1x128_S5000x128 j = x (col j) :=
  broadcastTo_apply x broadcasts_S1x128_S5000x128 j (col j) fun a => by
    match a with
    | ⟨0, _⟩ => rfl
    | ⟨1, _⟩ => rfl

/-- The body's one payload at an index of the tile. -/
theorem pay_apply (x0 : Vec Ideal S5000x128 .f32) (x1 x2 : Vec Ideal S1x128 .f32) (j : S5000x128.Idx) :
    k7_pay1 (F := Ideal) x0 x1 x2 j = x0 j * x1 (col j) + x2 (col j) := by
  unfold k7_pay1
  simp only [shapeCast_self]
  show x0 j * broadcastTo S5000x128 x1 broadcasts_S1x128_S5000x128 j + broadcastTo S5000x128 x2 broadcasts_S1x128_S5000x128 j = _
  rw [bcast_apply, bcast_apply]

/-- The printed index maps over the grid: the tile of point `t` starts at row block `t`, the row vectors' block is the
    first at every point. -/
theorem idx_facts : ∀ t : Fin cfg7.N, win7_0.index t (0 : Fin 2) = win7_3.index t (0 : Fin 2)
    ∧ win7_0.index t (1 : Fin 2) = 0 ∧ win7_3.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val :=
  (by decide +kernel : ∀ t : Fin grid7.N, _)

/-- What point `t` writes back is tile `t` of `G` of the arrays as the region finds them. -/
theorem flushed_eq (c : Dev nD) (t : Fin cfg7.N) :
    (dat7 (F := Ideal) V c).flushed 3 t
      = ((cfg7.win 3).blk t).view.read (Elt Ideal) (G (V c main_v154_0) (V c main_v169) (V c main_v170)) := by
  show (cfg7.win 3).cut (grid7.coords t) ((dat7 V c).after 3 t) = _
  rw [after7_3]
  unfold out7_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_apply _ _ _ j).trans ?_
  show rd (S := S50000x128) (V c main_v154_0) (((cfg7.win 0).blk t).view.emb j)
        * rd (S := S1x128) (V c main_v169) (((cfg7.win 1).blk t).view.emb (col j))
      + rd (S := S1x128) (V c main_v170) (((cfg7.win 2).blk t).view.emb (col j))
    = rd (S := S50000x128) (V c main_v154_0) (((cfg7.win 3).blk t).view.emb j)
        * rd (S := S1x128) (V c main_v169) (col (((cfg7.win 3).blk t).view.emb j))
      + rd (S := S1x128) (V c main_v170) (col (((cfg7.win 3).blk t).view.emb j))
  have h0 : ((cfg7.win 0).blk t).view.emb j = ((cfg7.win 3).blk t).view.emb j := by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 128 + 1 * (j 1).val = win7_3.index t (1 : Fin 2) * 128 + 1 * (j 1).val; omega
  have h1 : ((cfg7.win 1).blk t).view.emb (col j) = col (((cfg7.win 3).blk t).view.emb j) := by
    funext a; apply Fin.ext
    match a with
    | ⟨0, _⟩ => show win7_1.index t (0 : Fin 2) * 1 + 1 * 0 = 0; omega
    | ⟨1, _⟩ => show win7_1.index t (1 : Fin 2) * 128 + 1 * (j 1).val = win7_3.index t (1 : Fin 2) * 128 + 1 * (j 1).val; omega
  have h2 : ((cfg7.win 2).blk t).view.emb (col j) = col (((cfg7.win 3).blk t).view.emb j) := by
    funext a; apply Fin.ext
    match a with
    | ⟨0, _⟩ => show win7_2.index t (0 : Fin 2) * 1 + 1 * 0 = 0; omega
    | ⟨1, _⟩ => show win7_2.index t (1 : Fin 2) * 128 + 1 * (j 1).val = win7_3.index t (1 : Fin 2) * 128 + 1 * (j 1).val; omega
  rw [h0, h1, h2]

/-- An index of the array is in point `t`'s tile iff each coordinate is in the tile's range on its axis. -/
theorem mem_blk (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v171).slice (win7_3.rect t)).set ↔ _
  rw [View.set_slice_whole, Rect.mem_set_unit]
  exact Iff.rfl

/-- Every index of the array lies in the tile of the point numbered by its row divided by 5000. -/
theorem cover (i : S50000x128.Idx) :
    ∃ t : Fin cfg7.N, (cfg7.win 3).flush t = true ∧ i ∈ ((cfg7.win 3).blk t).view.set := by
  have hi0 : (i 0).val < 50000 := idx2_lt0 i
  have hi1 : (i 1).val < 128 := idx2_lt1 i
  refine ⟨⟨(i 0).val / 5000, by rw [show cfg7.N = 10 from N_7]; omega⟩, flush7_3 _, ?_⟩
  rw [mem_blk]
  obtain ⟨e0, e1, e2, e3, e4, e5, e6, e7⟩ := idx_facts ⟨(i 0).val / 5000, by rw [show cfg7.N = 10 from N_7]; omega⟩
  intro a
  match a with
  | ⟨0, _⟩ => show win7_3.index _ (0 : Fin 2) * 5000 ≤ (i 0).val ∧ (i 0).val < win7_3.index _ (0 : Fin 2) * 5000 + 5000; rw [e7]; show (i 0).val / 5000 * 5000 ≤ (i 0).val ∧ (i 0).val < (i 0).val / 5000 * 5000 + 5000; omega
  | ⟨1, _⟩ => show win7_3.index _ (1 : Fin 2) * 128 ≤ (i 1).val ∧ (i 1).val < win7_3.index _ (1 : Fin 2) * 128 + 128; rw [e2]; omega

/-- THE OUTPUT ARRAY at the end of the region. -/
theorem final (c : Dev nD) :
    (dat7 (F := Ideal) V c).arrAt 3 cfg7.N = G (V c main_v154_0) (V c main_v169) (V c main_v170) :=
  (dat7 V c).arrAt_eq_of_cover 3 _ (fun t _ => flushed_eq V c t) cover

end Cert.KernelIdeal.Bn7

end
-- ==== Proof.KerFold3.lean ====
/-
  Layer 3 of the kernel's program, folded: from the buffer contents at the layer's first boundary, through its stretch of
  host operations, its first region (activations, column sums, column sums of squares), the second stretch (scale and
  shift) and its normalisation region, the layer's output buffer ends holding the layer function of what the first
  boundary holds in the input, the edge vectors and the stacked arguments.
-/
import proofs.«121838_j70282844831870_1_alg».proof.Proof.Gen.KernelIdeal.Frame
import proofs.«121838_j70282844831870_1_alg».proof.Proof.KerStretch3
import proofs.«121838_j70282844831870_1_alg».proof.Proof.GinRegion6
import proofs.«121838_j70282844831870_1_alg».proof.Proof.BnRegion7
import proofs.«121838_j70282844831870_1_alg».proof.Proof.KerLayerArr

set_option maxRecDepth 16384
set_option maxHeartbeats 4000000

noncomputable section

namespace Cert.KernelIdeal.Fold3

open Idealize.ShloMosaic Idealize.ShloMosaic.TcCoe Idealize.SL.Sem Idealize.ShloMosaic.StableHlo
open Cert.KernelIdeal Cert.KernelIdeal.Gen Cert.KernelIdeal.KerHost Cert.KernelIdeal.KerLayer Idealize.ShloMosaic.ValueIdx

section Region
variable (V : (c : Dev nD) → (b : Ref sig .tc) → Buf (Elt Ideal) ((c : Thread nD τ).loc b))

/-- The first region's three output arrays as functions of the six arrays it reads. -/
theorem g6_eq (c : Dev nD) : Gin6.G6 V c = hactArr Ideal.tanh (V c main_v129) (V c main_v139) (V c main_v141) (V c main_v152) (V c main_v145) (V c main_v153) := by
  funext i
  unfold Gin6.G6 Gin6.hactN
  rw [dif_pos (idx2_lt0 i)]
  rfl

theorem g7_eq (c : Dev nD) : Gin6.G7 V c = sumArr (hactArr Ideal.tanh (V c main_v129) (V c main_v139) (V c main_v141) (V c main_v152) (V c main_v145) (V c main_v153)) := by
  funext j
  unfold Gin6.G7 Gin6.hactN sumArr
  refine Finset.sum_congr rfl fun n _ => ?_
  rw [dif_pos n.isLt]
  rfl

theorem g8_eq (c : Dev nD) : Gin6.G8 V c = sqArr (hactArr Ideal.tanh (V c main_v129) (V c main_v139) (V c main_v141) (V c main_v152) (V c main_v145) (V c main_v153)) := by
  funext j
  unfold Gin6.G8 Gin6.hactN sqArr
  refine Finset.sum_congr rfl fun n _ => ?_
  rw [dif_pos n.isLt]
  rfl
end Region

variable (m : (ℓ : Loc nD τ sig) → Buf (Elt Ideal) ℓ) (ρ : Dev nD → PrngReg)

/-- THE LAYER'S OUTPUT BUFFER at the layer's last boundary. -/
theorem out_eq (c : Dev nD) :
    W16 m ρ c (Proc.devRef .tc main_v171)
      = layerArr Ideal.tanh (W12 m ρ c (Proc.devRef .tc main_v129)) (aggOf (W12 m ρ c (Proc.devRef .tc main_v129)) (W12 m ρ c (Proc.devRef .tc main_v1)) (W12 m ρ c (Proc.devRef .tc main_v3)))
          (matOf ![3, 0, 0] slices_S7x128x128_S1x128x128_3_0_0 (W12 m ρ c (Proc.devRef .tc main_arg3))) (rowOf ![3, 0] slices_S7x128_S1x128_3_0 (W12 m ρ c (Proc.devRef .tc main_arg4)))
          (matOf ![3, 0, 0] slices_S7x128x128_S1x128x128_3_0_0 (W12 m ρ c (Proc.devRef .tc main_arg5))) (rowOf ![3, 0] slices_S7x128_S1x128_3_0 (W12 m ρ c (Proc.devRef .tc main_arg6)))
          (vecOf ![3, 0] slices_S7x128_S1x128_3_0 (W12 m ρ c (Proc.devRef .tc main_arg7))) (vecOf ![3, 0] slices_S7x128_S1x128_3_0 (W12 m ρ c (Proc.devRef .tc main_arg8))) := by
  have e4 : W16 m ρ c (Proc.devRef .tc main_v171) = (dat7 (V15 m ρ) c).arrAt 3 cfg7.N := W16_arr m ρ c 3
  have eh : V15 m ρ c main_v154_0 = W14 m ρ c (Proc.devRef .tc main_v154_0) := Stretch3.b_h (W14 m ρ c)
  have es : V15 m ρ c main_v169 = scaleK (W14 m ρ c (Proc.devRef .tc main_v154_1)) (W14 m ρ c (Proc.devRef .tc main_v154_2)) (W14 m ρ c (Proc.devRef .tc main_v149)) :=
    Stretch3.b_scale (W14 m ρ c)
  have et : V15 m ρ c main_v170 = shiftK (W14 m ρ c (Proc.devRef .tc main_v154_1)) (W14 m ρ c (Proc.devRef .tc main_v154_2)) (W14 m ρ c (Proc.devRef .tc main_v149)) (W14 m ρ c (Proc.devRef .tc main_v151)) :=
    Stretch3.b_shift (W14 m ρ c)
  have h6 : W14 m ρ c (Proc.devRef .tc main_v154_0) = hactArr Ideal.tanh (V13 m ρ c main_v129) (V13 m ρ c main_v139) (V13 m ρ c main_v141) (V13 m ρ c main_v152) (V13 m ρ c main_v145) (V13 m ρ c main_v153) :=
    (W14_arr m ρ c 6).trans ((Gin6.arr6 (V13 m ρ) c).trans (g6_eq (V13 m ρ) c))
  have h7 : W14 m ρ c (Proc.devRef .tc main_v154_1) = sumArr (hactArr Ideal.tanh (V13 m ρ c main_v129) (V13 m ρ c main_v139) (V13 m ρ c main_v141) (V13 m ρ c main_v152) (V13 m ρ c main_v145) (V13 m ρ c main_v153)) :=
    (W14_arr m ρ c 7).trans ((Gin6.arr7 (V13 m ρ) c).trans (g7_eq (V13 m ρ) c))
  have h8 : W14 m ρ c (Proc.devRef .tc main_v154_2) = sqArr (hactArr Ideal.tanh (V13 m ρ c main_v129) (V13 m ρ c main_v139) (V13 m ρ c main_v141) (V13 m ρ c main_v152) (V13 m ρ c main_v145) (V13 m ρ c main_v153)) :=
    (W14_arr m ρ c 8).trans ((Gin6.arr8 (V13 m ρ) c).trans (g8_eq (V13 m ρ) c))
  have hg : W14 m ρ c (Proc.devRef .tc main_v149) = (vecOf ![3, 0] slices_S7x128_S1x128_3_0 (W12 m ρ c (Proc.devRef .tc main_arg7))) :=
    (W14_of_ne m ρ c main_v149 (by decide)).trans (Stretch3.g_gam (W12 m ρ c))
  have hb : W14 m ρ c (Proc.devRef .tc main_v151) = (vecOf ![3, 0] slices_S7x128_S1x128_3_0 (W12 m ρ c (Proc.devRef .tc main_arg8))) :=
    (W14_of_ne m ρ c main_v151 (by decide)).trans (Stretch3.g_bet (W12 m ρ c))
  have vx : V13 m ρ c main_v129 = (W12 m ρ c (Proc.devRef .tc main_v129)) := Stretch3.g_x (W12 m ρ c)
  have va : V13 m ρ c main_v139 = (aggOf (W12 m ρ c (Proc.devRef .tc main_v129)) (W12 m ρ c (Proc.devRef .tc main_v1)) (W12 m ρ c (Proc.devRef .tc main_v3))) := Stretch3.g_agg (W12 m ρ c)
  have vw1 : V13 m ρ c main_v141 = (matOf ![3, 0, 0] slices_S7x128x128_S1x128x128_3_0_0 (W12 m ρ c (Proc.devRef .tc main_arg3))) := Stretch3.g_w1 (W12 m ρ c)
  have vb1 : V13 m ρ c main_v152 = (rowOf ![3, 0] slices_S7x128_S1x128_3_0 (W12 m ρ c (Proc.devRef .tc main_arg4))) := Stretch3.g_b1 (W12 m ρ c)
  have vw2 : V13 m ρ c main_v145 = (matOf ![3, 0, 0] slices_S7x128x128_S1x128x128_3_0_0 (W12 m ρ c (Proc.devRef .tc main_arg5))) := Stretch3.g_w2 (W12 m ρ c)
  have vb2 : V13 m ρ c main_v153 = (rowOf ![3, 0] slices_S7x128_S1x128_3_0 (W12 m ρ c (Proc.devRef .tc main_arg6))) := Stretch3.g_b2 (W12 m ρ c)
  rw [e4, Bn7.final (V15 m ρ) c, eh, es, et, h6, h7, h8, hg, hb, vx, va, vw1, vb1, vw2, vb2]
  rfl

end Cert.KernelIdeal.Fold3

end
-- ==== Proof.KerStretch4.lean ====
/-
  Layer 4: what its two stretches of host operations leave in the buffers its two regions read, from any contents
  `W` at the stretch's start. The first stretch slices the layer's weights, biases, `γ` and `β` out of the stacked
  arguments; the second turns the column sums and the column sums of squares into the
  normalisation's scale and shift and leaves the activations in place.
-/
import proofs.«121838_j70282844831870_1_alg».proof.Proof.Gen.KernelIdeal.Frame
import proofs.«121838_j70282844831870_1_alg».proof.Proof.KerHost
import Idealize.ShloMosaic.Lib.StableHlo.Run

set_option maxRecDepth 16384
set_option maxHeartbeats 4000000

noncomputable section

namespace Cert.KernelIdeal.Stretch4

open Idealize.ShloMosaic Idealize.ShloMosaic.TcCoe Idealize.SL.Sem Idealize.ShloMosaic.StableHlo
open Cert.KernelIdeal Cert.KernelIdeal.Gen Cert.KernelIdeal.KerHost

variable (W : Valuation τ sig (Elt Ideal))

theorem g_w1 : after (hostOps8 (F := Ideal)) W (Proc.devRef .tc main_v173)
    = matOf ![4, 0, 0] slices_S7x128x128_S1x128x128_4_0_0 (W (Proc.devRef .tc main_arg3)) := by
  after_results_simp; rfl

theorem g_b1 : after (hostOps8 (F := Ideal)) W (Proc.devRef .tc main_v184)
    = rowOf ![4, 0] slices_S7x128_S1x128_4_0 (W (Proc.devRef .tc main_arg4)) := by
  after_results_simp; rfl

theorem g_w2 : after (hostOps8 (F := Ideal)) W (Proc.devRef .tc main_v177)
    = matOf ![4, 0, 0] slices_S7x128x128_S1x128x128_4_0_0 (W (Proc.devRef .tc main_arg5)) := by
  after_results_simp; rfl

theorem g_b2 : after (hostOps8 (F := Ideal)) W (Proc.devRef .tc main_v185)
    = rowOf ![4, 0] slices_S7x128_S1x128_4_0 (W (Proc.devRef .tc main_arg6)) := by
  after_results_simp; rfl

theorem g_gam : after (hostOps8 (F := Ideal)) W (Proc.devRef .tc main_v181)
    = vecOf ![4, 0] slices_S7x128_S1x128_4_0 (W (Proc.devRef .tc main_arg7)) := by
  after_results_simp; rfl

theorem g_bet : after (hostOps8 (F := Ideal)) W (Proc.devRef .tc main_v183)
    = vecOf ![4, 0] slices_S7x128_S1x128_4_0 (W (Proc.devRef .tc main_arg8)) := by
  after_results_simp; rfl

theorem b_scale : after (hostOps9 (F := Ideal)) W (Proc.devRef .tc main_v201)
    = scaleK (W (Proc.devRef .tc main_v186_1)) (W (Proc.devRef .tc main_v186_2)) (W (Proc.devRef .tc main_v181)) := by
  after_results_simp; rfl

theorem b_shift : after (hostOps9 (F := Ideal)) W (Proc.devRef .tc main_v202)
    = shiftK (W (Proc.devRef .tc main_v186_1)) (W (Proc.devRef .tc main_v186_2)) (W (Proc.devRef .tc main_v181)) (W (Proc.devRef .tc main_v183)) := by
  after_results_simp; rfl

theorem b_h : after (hostOps9 (F := Ideal)) W (Proc.devRef .tc main_v186_0) = W (Proc.devRef .tc main_v186_0) := by
  after_results_simp

end Cert.KernelIdeal.Stretch4

end
-- ==== Proof.GinPieces8.lean ====
/-
  What each control case of layer 5's first kernel leaves in its three output staging buffers, as the body's stored
  values of the blocks it loaded.

  At the grid's first point (case A) the two running rows are first set to zero and then read back; at every later
  point (case B) they are read as the point before left them. In both cases the activation buffer is written once, by
  the activation of the loaded blocks, and each running row once more, by what it held plus the block's column sums
  (of the activation, and of its square). Every store covers its whole buffer, so the last store to a buffer is what
  the buffer holds; a load of a buffer after a covering store reads that store's value.
-/
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Gin8

open Cert.KernelIdeal Cert.KernelIdeal.Gen

/-! ## What each control case leaves in the three staging buffers, as the body's stored values -/

section Pieces
variable {F : FTy → Type} [FloatOps F]

theorem hz : (![0, 0] : Fin 2 → Nat) = fun _ => 0 := funext fun a => by fin_cases a <;> rfl

theorem outA6 (c : Dev nD) (i : grid8.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond8_0 i) (x0 x1 : Vec F S5000x128 .f32) (x2 : Vec F S128x128 .f32) (x3 : Vec F S1x128 .f32) (x4 : Vec F S128x128 .f32) (x5 : Vec F S1x128 .f32) :
    out8_A_6 c i a1 h1 a2 h2 a3 h3 a4 h4 a5 h5 a6 h6 a7 h7 a8 h8 a9 h9 hc x0 x1 x2 x3 x4 x5 = k8_pay4 x0 x1 x2 x3 x4 x5 := by
  unfold out8_A_6
  rw [View.read_writes_eq_canon _ _ _ (cover8_A_6 c i a1 h1 a2 h2 a3 h3 a4 h4 a5 h5 a6 h6 a7 h7 a8 h8 a9 h9 hc x0 x1 x2 x3 x4 x5)]
  unfold kernelRun8_A
  dsimp only
  try sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA7 (c : Dev nD) (i : grid8.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond8_0 i) (x0 x1 : Vec F S5000x128 .f32) (x2 : Vec F S128x128 .f32) (x3 : Vec F S1x128 .f32) (x4 : Vec F S128x128 .f32) (x5 : Vec F S1x128 .f32) :
    out8_A_7 c i a1 h1 a2 h2 a3 h3 a4 h4 a5 h5 a6 h6 a7 h7 a8 h8 a9 h9 hc x0 x1 x2 x3 x4 x5 = k8_pay5 x0 x1 x2 x3 x4 x5 k8_pay2 := by
  unfold out8_A_7
  rw [View.read_writes_eq_canon _ _ _ (cover8_A_7 c i a1 h1 a2 h2 a3 h3 a4 h4 a5 h5 a6 h6 a7 h7 a8 h8 a9 h9 hc x0 x1 x2 x3 x4 x5)]
  unfold kernelRun8_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA8 (c : Dev nD) (i : grid8.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond8_0 i) (x0 x1 : Vec F S5000x128 .f32) (x2 : Vec F S128x128 .f32) (x3 : Vec F S1x128 .f32) (x4 : Vec F S128x128 .f32) (x5 : Vec F S1x128 .f32) :
    out8_A_8 c i a1 h1 a2 h2 a3 h3 a4 h4 a5 h5 a6 h6 a7 h7 a8 h8 a9 h9 hc x0 x1 x2 x3 x4 x5 = k8_pay1 (k8_pay4 x0 x1 x2 x3 x4 x5) k8_pay3 := by
  unfold out8_A_8
  rw [View.read_writes_eq_canon _ _ _ (cover8_A_8 c i a1 h1 a2 h2 a3 h3 a4 h4 a5 h5 a6 h6 a7 h7 a8 h8 a9 h9 hc x0 x1 x2 x3 x4 x5)]
  unfold kernelRun8_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outB6 (c : Dev nD) (i : grid8.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond8_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out8_B_6 c i a1 h1 a2 h2 a3 h3 a4 h4 a5 h5 a6 h6 a7 h7 a8 h8 a9 h9 hc x0 x1 x2 x3 x4 x5 xo7 xo8 = k8_pay4 x0 x1 x2 x3 x4 x5 := by
  unfold out8_B_6
  rw [View.read_writes_eq_canon _ _ _ (cover8_B_6 c i a1 h1 a2 h2 a3 h3 a4 h4 a5 h5 a6 h6 a7 h7 a8 h8 a9 h9 hc x0 x1 x2 x3 x4 x5 xo7 xo8)]
  unfold kernelRun8_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB7 (c : Dev nD) (i : grid8.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond8_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out8_B_7 c i a1 h1 a2 h2 a3 h3 a4 h4 a5 h5 a6 h6 a7 h7 a8 h8 a9 h9 hc x0 x1 x2 x3 x4 x5 xo7 xo8 = k8_pay5 x0 x1 x2 x3 x4 x5 xo7 := by
  unfold out8_B_7
  rw [View.read_writes_eq_canon _ _ _ (cover8_B_7 c i a1 h1 a2 h2 a3 h3 a4 h4 a5 h5 a6 h6 a7 h7 a8 h8 a9 h9 hc x0 x1 x2 x3 x4 x5 xo7 xo8)]
  unfold kernelRun8_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB8 (c : Dev nD) (i : grid8.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond8_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out8_B_8 c i a1 h1 a2 h2 a3 h3 a4 h4 a5 h5 a6 h6 a7 h7 a8 h8 a9 h9 hc x0 x1 x2 x3 x4 x5 xo7 xo8 = k8_pay1 (k8_pay4 x0 x1 x2 x3 x4 x5) xo8 := by
  unfold out8_B_8
  rw [View.read_writes_eq_canon _ _ _ (cover8_B_8 c i a1 h1 a2 h2 a3 h3 a4 h4 a5 h5 a6 h6 a7 h7 a8 h8 a9 h9 hc x0 x1 x2 x3 x4 x5 xo7 xo8)]
  unfold kernelRun8_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

end Pieces

end Cert.KernelIdeal.Gin8

end
-- ==== Proof.GinRegion8.lean ====
/-
  Layer 5's first kernel, as three whole-array functions of the six arrays it reads.

  The kernel runs over ten tiles of 5000 nodes. At tile t it loads rows 5000 t … 5000 t + 4999 of the node features x
  and of the aggregated neighbour features agg, and the whole of the two weight matrices and two bias rows; it stores
  the activation of those rows as tile t of the activation array, and adds the tile's column sums of the activation,
  and of its square, into two running rows that the first tile starts from zero and that are written back once, after
  the last tile. So at the end of the region

    the activation array at (n, q) is  act( Σ_k max( Σ_j (x(n,j) + agg(n,j)) · W1(j,k) + b1(0,k), 0 ) · W2(k,q) + b2(0,q) ),
    the sum array at (0, q) is the sum over all 50000 nodes n of the activation at (n, q),
    the sum-of-squares array at (0, q) is the sum over all nodes of its square,

  with act the hyperbolic tangent. The ten partial sums are regrouped into one sum over all nodes: addition of extended reals is
  commutative and associative, and the first tile's zero is the additive unit, so nothing needs to be finite.
-/
import proofs.«121838_j70282844831870_1_alg».proof.Proof.GinBody6
import proofs.«121838_j70282844831870_1_alg».proof.Proof.GinPieces8
import proofs.«121838_j70282844831870_1_alg».proof.Proof.LibSegmentLinear
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Gin8

open Cert.KernelIdeal Cert.KernelIdeal.Gen Cert.KernelIdeal.Gin Idealize.ShloMosaic.ValueIdx

section Value
variable (V : (c : Dev nD) → (b : Ref sig .tc) → Buf (Elt Ideal) ((c : Thread nD τ).loc b))

/-- The grid has ten points. -/
theorem hN : cfg8.N = 10 := N_8

/-- The printed index maps over the grid: the two row-tiled inputs and the activation output sit at row block t, and
    the four parameter inputs and the two statistics outputs at block zero. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0 :=
  (by decide +kernel : ∀ t : Fin grid8.N, _)

/-- The layer's activation at node n and feature q, from the six arrays as the region finds them. -/
def hact (c : Dev nD) (n : Fin 50000) (q : Fin 128) : EReal :=
  Ideal.tanh (pre2 (fun j => (V c (Pipeline.arrRef spec8 0) : S50000x128.Idx → EReal) (ix2 n j))
    (fun j => (V c (Pipeline.arrRef spec8 1) : S50000x128.Idx → EReal) (ix2 n j))
    (V c (Pipeline.arrRef spec8 2)) (V c (Pipeline.arrRef spec8 3)) (V c (Pipeline.arrRef spec8 4)) (V c (Pipeline.arrRef spec8 5)) q)

/-- The same with the node a natural number (zero past the last node), the form the sums over tiles of nodes use. -/
def hactN (c : Dev nD) (n : ℕ) (q : Fin 128) : EReal := if h : n < 50000 then hact V c ⟨n, h⟩ q else 0

/-! ## The blocks the body loads, as rows of the arrays -/

/-- Row r of point t's block of a row-tiled input (the node features, the aggregated neighbour features) is row
    5000 t + r of the array. -/
theorem iblk_row0 (c : Dev nD) (t : Fin cfg8.N) (r : Fin 5000) (j : Fin 128) (h : t.val * 5000 + r.val < 50000) :
    (iblk8 V c 0 t : Vec Ideal S5000x128 .f32) (ix2 r j)
      = (V c (Pipeline.arrRef spec8 0) : S50000x128.Idx → EReal) (ix2 ⟨t.val * 5000 + r.val, h⟩ j) := by
  obtain ⟨e0, e1, -⟩ := idx_facts t
  unfold iblk8
  rw [View.read_apply]
  refine congrArg (V c (Pipeline.arrRef spec8 0) : S50000x128.Idx → EReal) (funext fun a => Fin.ext ?_)
  match a with
  | ⟨0, _⟩ => show win8_0.index t 0 * 5000 + 1 * r.val = t.val * 5000 + r.val; rw [e0]; omega
  | ⟨1, _⟩ => show win8_0.index t 1 * 128 + 1 * j.val = j.val; rw [e1]; omega

theorem iblk_row1 (c : Dev nD) (t : Fin cfg8.N) (r : Fin 5000) (j : Fin 128) (h : t.val * 5000 + r.val < 50000) :
    (iblk8 V c 1 t : Vec Ideal S5000x128 .f32) (ix2 r j)
      = (V c (Pipeline.arrRef spec8 1) : S50000x128.Idx → EReal) (ix2 ⟨t.val * 5000 + r.val, h⟩ j) := by
  obtain ⟨-, -, e0, e1, -⟩ := idx_facts t
  unfold iblk8
  rw [View.read_apply]
  refine congrArg (V c (Pipeline.arrRef spec8 1) : S50000x128.Idx → EReal) (funext fun a => Fin.ext ?_)
  match a with
  | ⟨0, _⟩ => show win8_1.index t 0 * 5000 + 1 * r.val = t.val * 5000 + r.val; rw [e0]; omega
  | ⟨1, _⟩ => show win8_1.index t 1 * 128 + 1 * j.val = j.val; rw [e1]; omega

/-- A parameter input's block is the whole array at every point. -/
theorem iblk_2 (c : Dev nD) (t : Fin cfg8.N) : (iblk8 V c 2 t : Vec Ideal S128x128 .f32) = V c (Pipeline.arrRef spec8 2) := by
  obtain ⟨-, -, -, -, e0, e1, -⟩ := idx_facts t
  funext y
  unfold iblk8
  rw [View.read_apply]
  refine congrArg (V c (Pipeline.arrRef spec8 2) : S128x128.Idx → EReal) (funext fun a => Fin.ext ?_)
  match a with
  | ⟨0, _⟩ => show win8_2.index t 0 * 128 + 1 * (y 0).val = (y 0).val; rw [e0]; omega
  | ⟨1, _⟩ => show win8_2.index t 1 * 128 + 1 * (y 1).val = (y 1).val; rw [e1]; omega

theorem iblk_3 (c : Dev nD) (t : Fin cfg8.N) : (iblk8 V c 3 t : Vec Ideal S1x128 .f32) = V c (Pipeline.arrRef spec8 3) := by
  obtain ⟨-, -, -, -, -, -, e0, e1, -⟩ := idx_facts t
  funext y
  unfold iblk8
  rw [View.read_apply]
  refine congrArg (V c (Pipeline.arrRef spec8 3) : S1x128.Idx → EReal) (funext fun a => Fin.ext ?_)
  match a with
  | ⟨0, _⟩ => show win8_3.index t 0 * 1 + 1 * (y 0).val = (y 0).val; rw [e0]; omega
  | ⟨1, _⟩ => show win8_3.index t 1 * 128 + 1 * (y 1).val = (y 1).val; rw [e1]; omega

theorem iblk_4 (c : Dev nD) (t : Fin cfg8.N) : (iblk8 V c 4 t : Vec Ideal S128x128 .f32) = V c (Pipeline.arrRef spec8 4) := by
  obtain ⟨-, -, -, -, -, -, -, -, e0, e1, -⟩ := idx_facts t
  funext y
  unfold iblk8
  rw [View.read_apply]
  refine congrArg (V c (Pipeline.arrRef spec8 4) : S128x128.Idx → EReal) (funext fun a => Fin.ext ?_)
  match a with
  | ⟨0, _⟩ => show win8_4.index t 0 * 128 + 1 * (y 0).val = (y 0).val; rw [e0]; omega
  | ⟨1, _⟩ => show win8_4.index t 1 * 128 + 1 * (y 1).val = (y 1).val; rw [e1]; omega

theorem iblk_5 (c : Dev nD) (t : Fin cfg8.N) : (iblk8 V c 5 t : Vec Ideal S1x128 .f32) = V c (Pipeline.arrRef spec8 5) := by
  obtain ⟨-, -, -, -, -, -, -, -, -, -, e0, e1, -⟩ := idx_facts t
  funext y
  unfold iblk8
  rw [View.read_apply]
  refine congrArg (V c (Pipeline.arrRef spec8 5) : S1x128.Idx → EReal) (funext fun a => Fin.ext ?_)
  match a with
  | ⟨0, _⟩ => show win8_5.index t 0 * 1 + 1 * (y 0).val = (y 0).val; rw [e0]; omega
  | ⟨1, _⟩ => show win8_5.index t 1 * 128 + 1 * (y 1).val = (y 1).val; rw [e1]; omega

/-- The activation the body computes from point t's blocks, at row r: the layer's activation at node 5000 t + r. -/
theorem blk_act (c : Dev nD) (t : Fin cfg8.N) (r : Fin 5000) (q : Fin 128) :
    k8_pay4 (F := Ideal) (iblk8 V c 0 t) (iblk8 V c 1 t) (iblk8 V c 2 t) (iblk8 V c 3 t) (iblk8 V c 4 t) (iblk8 V c 5 t) (ix2 r q) = hactN V c (t.val * 5000 + r.val) q := by
  have ht : t.val < 10 := lt_of_lt_of_eq t.isLt hN
  have h : t.val * 5000 + r.val < 50000 := by have := r.isLt; omega
  refine (k8_pay4_apply (iblk8 V c 0 t) (iblk8 V c 1 t) (iblk8 V c 2 t) (iblk8 V c 3 t) (iblk8 V c 4 t) (iblk8 V c 5 t) r q).trans ?_
  have e0 : (fun j => (iblk8 V c 0 t : Vec Ideal S5000x128 .f32) (ix2 r j)) = fun j => (V c (Pipeline.arrRef spec8 0) : S50000x128.Idx → EReal) (ix2 ⟨t.val * 5000 + r.val, h⟩ j) :=
    funext fun j => iblk_row0 V c t r j h
  have e1 : (fun j => (iblk8 V c 1 t : Vec Ideal S5000x128 .f32) (ix2 r j)) = fun j => (V c (Pipeline.arrRef spec8 1) : S50000x128.Idx → EReal) (ix2 ⟨t.val * 5000 + r.val, h⟩ j) :=
    funext fun j => iblk_row1 V c t r j h
  rw [e0, e1, iblk_2 V c t, iblk_3 V c t, iblk_4 V c t, iblk_5 V c t]
  unfold hactN
  rw [dif_pos h]
  rfl

/-! ## The staging buffers after each point -/

/-- What the three staging buffers hold after the first point, as the body's stored values of the point's blocks. -/
theorem outs_A (c : Dev nD) (t : Fin cfg8.N) (h0 : t.val % 10 = 0) :
    outsAt8 V c t.val t.isLt = (k8_pay4 (F := Ideal) (iblk8 V c 0 t) (iblk8 V c 1 t) (iblk8 V c 2 t) (iblk8 V c 3 t) (iblk8 V c 4 t) (iblk8 V c 5 t), k8_pay5 (iblk8 V c 0 t) (iblk8 V c 1 t) (iblk8 V c 2 t) (iblk8 V c 3 t) (iblk8 V c 4 t) (iblk8 V c 5 t) (k8_pay2 (F := Ideal)), k8_pay1 (k8_pay4 (iblk8 V c 0 t) (iblk8 V c 1 t) (iblk8 V c 2 t) (iblk8 V c 3 t) (iblk8 V c 4 t) (iblk8 V c 5 t)) (k8_pay3 (F := Ideal))) :=
  (outsAt8_A V c t h0).trans (congrArg₂ Prod.mk
    (outA6 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) ((hcond8_0 t).mpr h0) (iblk8 V c 0 t) (iblk8 V c 1 t) (iblk8 V c 2 t) (iblk8 V c 3 t) (iblk8 V c 4 t) (iblk8 V c 5 t))
    (congrArg₂ Prod.mk
      (outA7 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) ((hcond8_0 t).mpr h0) (iblk8 V c 0 t) (iblk8 V c 1 t) (iblk8 V c 2 t) (iblk8 V c 3 t) (iblk8 V c 4 t) (iblk8 V c 5 t))
      (outA8 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) ((hcond8_0 t).mpr h0) (iblk8 V c 0 t) (iblk8 V c 1 t) (iblk8 V c 2 t) (iblk8 V c 3 t) (iblk8 V c 4 t) (iblk8 V c 5 t))))

/-- What they hold after a later point, over what the point before left in the two running rows. -/
theorem outs_B (c : Dev nD) (t : Fin cfg8.N) (h0 : ¬t.val % 10 = 0) :
    outsAt8 V c t.val t.isLt = (k8_pay4 (F := Ideal) (iblk8 V c 0 t) (iblk8 V c 1 t) (iblk8 V c 2 t) (iblk8 V c 3 t) (iblk8 V c 4 t) (iblk8 V c 5 t), k8_pay5 (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.1, k8_pay1 (k8_pay4 (iblk8 V c 0 t) (iblk8 V c 1 t) (iblk8 V c 2 t) (iblk8 V c 3 t) (iblk8 V c 4 t) (iblk8 V c 5 t)) (outsAt8 V c (t.val - 1) (Nat.lt_of_le_of_lt (Nat.sub_le _ _) t.isLt)).2.2) :=
  (outsAt8_B V c t h0).trans (congrArg₂ Prod.mk
    (outB6 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.1 (outsAt8 V c (t.val - 1) (Nat.lt_of_le_of_lt (Nat.sub_le _ _) t.isLt)).2.2)
    (congrArg₂ Prod.mk
      (outB7 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.1 (outsAt8 V c (t.val - 1) (Nat.lt_of_le_of_lt (Nat.sub_le _ _) t.isLt)).2.2)
      (outB8 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.1 (outsAt8 V c (t.val - 1) (Nat.lt_of_le_of_lt (Nat.sub_le _ _) t.isLt)).2.2)))

/-- After point n the three staging buffers hold: the activation of point n's rows; the sums over the nodes of the
    tiles 0 … n of the activation; and of its square. -/
def Inv (c : Dev nD) (n : ℕ) (hn : n < cfg8.N) : Prop :=
  (outsAt8 V c n hn).1 = k8_pay4 (F := Ideal) (iblk8 V c 0 ⟨n, hn⟩) (iblk8 V c 1 ⟨n, hn⟩) (iblk8 V c 2 ⟨n, hn⟩) (iblk8 V c 3 ⟨n, hn⟩) (iblk8 V c 4 ⟨n, hn⟩) (iblk8 V c 5 ⟨n, hn⟩)
  ∧ (∀ (u : Fin 1) (q : Fin 128), (outsAt8 V c n hn).2.1 (ix2 u q)
      = ∑ s ∈ Finset.range (n + 1), ∑ r : Fin 5000, hactN V c (s * 5000 + r.val) q)
  ∧ (∀ (u : Fin 1) (q : Fin 128), (outsAt8 V c n hn).2.2 (ix2 u q)
      = ∑ s ∈ Finset.range (n + 1), ∑ r : Fin 5000, hactN V c (s * 5000 + r.val) q * hactN V c (s * 5000 + r.val) q)

/-- It holds at every point: at the first the running rows start from the zero the point stores, and each later point
    adds its tile's column sums to what the point before left. -/
theorem inv (c : Dev nD) : ∀ (n : ℕ) (hn : n < cfg8.N), Inv V c n hn
  | 0, hn => by
    have e : outsAt8 V c 0 hn = _ := outs_A V c ⟨0, hn⟩ (Nat.zero_mod _)
    have hb : ∀ (r : Fin 5000) (q : Fin 128), k8_pay4 (F := Ideal) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (ix2 r q) = hactN V c (0 * 5000 + r.val) q :=
      fun r q => blk_act V c ⟨0, hn⟩ r q
    unfold Inv
    rw [e]
    dsimp only
    refine ⟨rfl, fun u q => ?_, fun u q => ?_⟩
    · rw [k8_pay5_apply (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) _ u q, k8_pay2_apply, zero_add]
      rw [Finset.sum_range_one]
      exact Finset.sum_congr rfl fun r _ => hb r q
    · rw [k8_pay1_apply (k8_pay4 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩)) _ u q, k8_pay3_apply, zero_add]
      rw [Finset.sum_range_one]
      exact Finset.sum_congr rfl fun r _ => by rw [hb r q]
  | n + 1, hn => by
    obtain ⟨-, ih7, ih8⟩ := inv c n (Nat.lt_of_succ_lt hn)
    have hB : ¬(⟨n + 1, hn⟩ : Fin cfg8.N).val % 10 = 0 := by have := hN; dsimp only; omega
    have e : outsAt8 V c (n + 1) hn = _ := outs_B V c ⟨n + 1, hn⟩ hB
    have hb : ∀ (r : Fin 5000) (q : Fin 128), k8_pay4 (F := Ideal) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (ix2 r q) = hactN V c ((n + 1) * 5000 + r.val) q :=
      fun r q => blk_act V c ⟨n + 1, hn⟩ r q
    unfold Inv
    rw [e]
    dsimp only
    refine ⟨rfl, fun u q => ?_, fun u q => ?_⟩
    · rw [k8_pay5_apply (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) _ u q]
      rw [Finset.sum_range_succ]
      exact congrArg₂ (· + ·) (ih7 u q) (Finset.sum_congr rfl fun r _ => hb r q)
    · rw [k8_pay1_apply (k8_pay4 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩)) _ u q]
      rw [Finset.sum_range_succ]
      exact congrArg₂ (· + ·) (ih8 u q) (Finset.sum_congr rfl fun r _ => by rw [hb r q])

/-! ## From the staging buffers to the arrays -/

/-- The ten tiles of 5000 nodes are all 50000 nodes. -/
theorem sum_tiles (f : ℕ → EReal) : ∑ s ∈ Finset.range 10, ∑ r : Fin 5000, f (s * 5000 + r.val) = ∑ n : Fin 50000, f n.val := by
  rw [Finset.sum_range]
  exact Cert.SegmentLinear.sum_blocks 10 5000 f

/-- The activation array: the layer's activation at every node and feature. -/
def G6 (c : Dev nD) : S50000x128.Idx → EReal := fun i => hactN V c (i 0).val (i 1)
/-- The sum array: per feature, the sum over all nodes of the activation. -/
def G7 (c : Dev nD) : S1x128.Idx → EReal := fun j => ∑ n : Fin 50000, hactN V c n.val (j 1)
/-- The sum-of-squares array: per feature, the sum over all nodes of the squared activation. -/
def G8 (c : Dev nD) : S1x128.Idx → EReal := fun j => ∑ n : Fin 50000, hactN V c n.val (j 1) * hactN V c n.val (j 1)

-- the two sums are never opened by unfolding: they are compared as they stand
attribute [local irreducible] G7 G8

/-- Tile t of the activation array, at row r: the activation at node 5000 t + r. -/
theorem G6_blk (c : Dev nD) (t : Fin cfg8.N) (r : Fin 5000) (q : Fin 128) :
    (((cfg8.win 6).blk t).view.read (Elt Ideal) (G6 V c) : Vec Ideal S5000x128 .f32) (ix2 r q)
      = hactN V c (t.val * 5000 + r.val) q := by
  obtain ⟨-, -, -, -, -, -, -, -, -, -, -, -, e0, e1, -⟩ := idx_facts t
  have ht : t.val < 10 := lt_of_lt_of_eq t.isLt hN
  have h : t.val * 5000 + r.val < 50000 := by have := r.isLt; omega
  have he : ((cfg8.win 6).blk t).view.emb (ix2 r q) = (ix2 ⟨t.val * 5000 + r.val, h⟩ q : S50000x128.Idx) :=
    funext fun a => Fin.ext (by
      match a with
      | ⟨0, _⟩ => show win8_6.index t 0 * 5000 + 1 * r.val = t.val * 5000 + r.val; rw [e0]; omega
      | ⟨1, _⟩ => show win8_6.index t 1 * 128 + 1 * q.val = q.val; rw [e1]; omega)
  show G6 V c (((cfg8.win 6).blk t).view.emb (ix2 r q)) = _
  rw [he]
  rfl

/-- Every point writes back its tile of the activation array. -/
theorem flushed6 (c : Dev nD) (t : Fin cfg8.N) :
    (dat8 V c).flushed 6 t = ((cfg8.win 6).blk t).view.read (Elt Ideal) (G6 V c) := by
  show (cfg8.win 6).cut (grid8.coords t) ((dat8 V c).after 6 t) = _
  rw [after8_6, (inv V c t.val t.isLt).1]
  funext y
  obtain ⟨r, q, rfl⟩ : ∃ (r : Fin 5000) (q : Fin 128), y = ix2 r q := ⟨y 0, y 1, eq_ix2 y⟩
  refine Eq.trans ?_ (G6_blk V c t r q).symm
  exact blk_act V c t r q

/-- An index of the activation array is in point t's block iff each coordinate is in the block's range on its axis. -/
theorem mem_blk6 (t : Fin cfg8.N) (i : S50000x128.Idx) :
    i ∈ ((cfg8.win 6).blk t).view.set ↔ ∀ a : Fin 2, win8_6.index t a * S5000x128.size a ≤ (i a).val ∧ (i a).val < win8_6.index t a * S5000x128.size a + S5000x128.size a := by
  show i ∈ ((View.whole (Pipeline.arrRef spec8 6)).slice (win8_6.rect t)).set ↔ _
  rw [View.set_slice_whole, Rect.mem_set_unit]
  exact Iff.rfl

/-- The activation array at the end of the region. -/
theorem arr6 (c : Dev nD) : (dat8 V c).arrAt 6 cfg8.N = G6 V c :=
  (dat8 V c).arrAt_eq_of_cover 6 (G6 V c) (fun t _ => flushed6 V c t) fun i => by
    have h0 : (i 0).val < 50000 := (i 0).isLt
    have h1 : (i 1).val < 128 := (i 1).isLt
    have hN' := hN
    refine ⟨⟨(i 0).val / 5000, by rw [hN']; omega⟩, flush8_6 _, ?_⟩
    obtain ⟨-, -, -, -, -, -, -, -, -, -, -, -, e0, e1, -⟩ := idx_facts ⟨(i 0).val / 5000, by rw [hN']; omega⟩
    rw [mem_blk6]
    intro a
    match a with
    | ⟨0, _⟩ => show win8_6.index _ 0 * 5000 ≤ (i 0).val ∧ (i 0).val < win8_6.index _ 0 * 5000 + 5000; rw [e0]; dsimp only; omega
    | ⟨1, _⟩ => show win8_6.index _ 1 * 128 ≤ (i 1).val ∧ (i 1).val < win8_6.index _ 1 * 128 + 128; rw [e1]; omega

/-- The one block of window 7's array (the whole array), read at feature q. -/
theorem G7_blk (c : Dev nD) (t : Fin cfg8.N) (u : Fin 1) (q : Fin 128) :
    (((cfg8.win 7).blk t).view.read (Elt Ideal) (G7 V c) : Vec Ideal S1x128 .f32) (ix2 u q)
      = ∑ n : Fin 50000, hactN V c n.val q := by
  obtain ⟨-, -, -, -, -, -, -, -, -, -, -, -, -, -, e0, e1, -⟩ := idx_facts t
  have he : ((cfg8.win 7).blk t).view.emb (ix2 u q) = (ix2 u q : S1x128.Idx) :=
    funext fun a => Fin.ext (by
      match a with
      | ⟨0, _⟩ => show win8_7.index t 0 * 1 + 1 * u.val = u.val; rw [e0]; omega
      | ⟨1, _⟩ => show win8_7.index t 1 * 128 + 1 * q.val = q.val; rw [e1]; omega)
  show G7 V c (((cfg8.win 7).blk t).view.emb (ix2 u q)) = _
  rw [he]
  unfold G7
  exact Finset.sum_congr rfl fun n _ => rfl

/-- The one write-back of window 7, after the last point, writes the sums over all ten tiles. -/
theorem flushed7 (c : Dev nD) (t : Fin cfg8.N) (hf : (cfg8.win 7).flush t = true) :
    (dat8 V c).flushed 7 t = ((cfg8.win 7).blk t).view.read (Elt Ideal) (G7 V c) := by
  have hN' := hN
  have h9 : t.val = 9 := by have := (flush8_7 t).mp hf; have := t.isLt; omega
  show (cfg8.win 7).cut (grid8.coords t) ((dat8 V c).after 7 t) = _
  rw [after8_7]
  funext y
  obtain ⟨u, q, rfl⟩ : ∃ (u : Fin 1) (q : Fin 128), y = ix2 u q := ⟨y 0, y 1, eq_ix2 y⟩
  refine Eq.trans ?_ (G7_blk V c t u q).symm
  refine Eq.trans ((inv V c t.val t.isLt).2.1 u q) ?_
  rw [h9]
  exact sum_tiles (fun n => hactN V c n q)

/-- An index of window 7's array is in point t's block iff each coordinate is in the block's range on its axis. -/
theorem mem_blk7 (t : Fin cfg8.N) (i : S1x128.Idx) :
    i ∈ ((cfg8.win 7).blk t).view.set ↔ ∀ a : Fin 2, win8_7.index t a * S1x128.size a ≤ (i a).val ∧ (i a).val < win8_7.index t a * S1x128.size a + S1x128.size a := by
  show i ∈ ((View.whole (Pipeline.arrRef spec8 7)).slice (win8_7.rect t)).set ↔ _
  rw [View.set_slice_whole, Rect.mem_set_unit]
  exact Iff.rfl

/-- Window 7's array at the end of the region. -/
theorem arr7 (c : Dev nD) : (dat8 V c).arrAt 7 cfg8.N = G7 V c :=
  (dat8 V c).arrAt_eq_of_cover 7 (G7 V c) (fun t hf => flushed7 V c t hf) fun i => by
    have h0 : (i 0).val < 1 := (i 0).isLt
    have h1 : (i 1).val < 128 := (i 1).isLt
    have hN' := hN
    refine ⟨⟨9, by rw [hN']; omega⟩, (flush8_7 _).mpr rfl, ?_⟩
    obtain ⟨-, -, -, -, -, -, -, -, -, -, -, -, -, -, e0, e1, -⟩ := idx_facts ⟨9, by rw [hN']; omega⟩
    rw [mem_blk7]
    intro a
    match a with
    | ⟨0, _⟩ => show win8_7.index _ 0 * 1 ≤ (i 0).val ∧ (i 0).val < win8_7.index _ 0 * 1 + 1; rw [e0]; omega
    | ⟨1, _⟩ => show win8_7.index _ 1 * 128 ≤ (i 1).val ∧ (i 1).val < win8_7.index _ 1 * 128 + 128; rw [e1]; omega

/-- The one block of window 8's array (the whole array), read at feature q. -/
theorem G8_blk (c : Dev nD) (t : Fin cfg8.N) (u : Fin 1) (q : Fin 128) :
    (((cfg8.win 8).blk t).view.read (Elt Ideal) (G8 V c) : Vec Ideal S1x128 .f32) (ix2 u q)
      = ∑ n : Fin 50000, hactN V c n.val q * hactN V c n.val q := by
  obtain ⟨-, -, -, -, -, -, -, -, -, -, -, -, -, -, -, -, e0, e1⟩ := idx_facts t
  have he : ((cfg8.win 8).blk t).view.emb (ix2 u q) = (ix2 u q : S1x128.Idx) :=
    funext fun a => Fin.ext (by
      match a with
      | ⟨0, _⟩ => show win8_8.index t 0 * 1 + 1 * u.val = u.val; rw [e0]; omega
      | ⟨1, _⟩ => show win8_8.index t 1 * 128 + 1 * q.val = q.val; rw [e1]; omega)
  show G8 V c (((cfg8.win 8).blk t).view.emb (ix2 u q)) = _
  rw [he]
  unfold G8
  exact Finset.sum_congr rfl fun n _ => rfl

/-- The one write-back of window 8, after the last point, writes the sums over all ten tiles. -/
theorem flushed8 (c : Dev nD) (t : Fin cfg8.N) (hf : (cfg8.win 8).flush t = true) :
    (dat8 V c).flushed 8 t = ((cfg8.win 8).blk t).view.read (Elt Ideal) (G8 V c) := by
  have hN' := hN
  have h9 : t.val = 9 := by have := (flush8_8 t).mp hf; have := t.isLt; omega
  show (cfg8.win 8).cut (grid8.coords t) ((dat8 V c).after 8 t) = _
  rw [after8_8]
  funext y
  obtain ⟨u, q, rfl⟩ : ∃ (u : Fin 1) (q : Fin 128), y = ix2 u q := ⟨y 0, y 1, eq_ix2 y⟩
  refine Eq.trans ?_ (G8_blk V c t u q).symm
  refine Eq.trans ((inv V c t.val t.isLt).2.2 u q) ?_
  rw [h9]
  exact sum_tiles (fun n => hactN V c n q * hactN V c n q)

/-- An index of window 8's array is in point t's block iff each coordinate is in the block's range on its axis. -/
theorem mem_blk8 (t : Fin cfg8.N) (i : S1x128.Idx) :
    i ∈ ((cfg8.win 8).blk t).view.set ↔ ∀ a : Fin 2, win8_8.index t a * S1x128.size a ≤ (i a).val ∧ (i a).val < win8_8.index t a * S1x128.size a + S1x128.size a := by
  show i ∈ ((View.whole (Pipeline.arrRef spec8 8)).slice (win8_8.rect t)).set ↔ _
  rw [View.set_slice_whole, Rect.mem_set_unit]
  exact Iff.rfl

/-- Window 8's array at the end of the region. -/
theorem arr8 (c : Dev nD) : (dat8 V c).arrAt 8 cfg8.N = G8 V c :=
  (dat8 V c).arrAt_eq_of_cover 8 (G8 V c) (fun t hf => flushed8 V c t hf) fun i => by
    have h0 : (i 0).val < 1 := (i 0).isLt
    have h1 : (i 1).val < 128 := (i 1).isLt
    have hN' := hN
    refine ⟨⟨9, by rw [hN']; omega⟩, (flush8_8 _).mpr rfl, ?_⟩
    obtain ⟨-, -, -, -, -, -, -, -, -, -, -, -, -, -, -, -, e0, e1⟩ := idx_facts ⟨9, by rw [hN']; omega⟩
    rw [mem_blk8]
    intro a
    match a with
    | ⟨0, _⟩ => show win8_8.index _ 0 * 1 ≤ (i 0).val ∧ (i 0).val < win8_8.index _ 0 * 1 + 1; rw [e0]; omega
    | ⟨1, _⟩ => show win8_8.index _ 1 * 128 ≤ (i 1).val ∧ (i 1).val < win8_8.index _ 1 * 128 + 128; rw [e1]; omega

/-! ## The three arrays by the activation at a node of the node range -/

theorem G6_apply (c : Dev nD) (n : Fin 50000) (q : Fin 128) : G6 V c (ix2 n q) = hact V c n q := by
  unfold G6 hactN
  exact dif_pos n.isLt
theorem G7_apply (c : Dev nD) (u : Fin 1) (q : Fin 128) : G7 V c (ix2 u q) = ∑ n : Fin 50000, hact V c n q := by
  unfold G7 hactN
  exact Finset.sum_congr rfl fun n _ => dif_pos n.isLt
theorem G8_apply (c : Dev nD) (u : Fin 1) (q : Fin 128) : G8 V c (ix2 u q) = ∑ n : Fin 50000, hact V c n q * hact V c n q := by
  unfold G8 hactN
  exact Finset.sum_congr rfl fun n _ => by rw [dif_pos n.isLt]

end Value

end Cert.KernelIdeal.Gin8

end
-- ==== Proof.BnRegion9.lean ====
/-
  The normalisation kernel of region 9: a grid of ten row tiles of 5000 rows; each point loads its tile of `h`
  (5000 × 128) and the two row vectors `s`, `t` (1 × 128, the same block at every point) and stores `h · s + t`, the row
  vectors repeated down the rows. The ten tiles partition the 50000 rows, so the output array ends holding, at row `r`
  and column `q`, `h (r, q) · s (0, q) + t (0, q)` of the arrays as the region finds them.
-/
import proofs.«121838_j70282844831870_1_alg».proof.Proof.Gen.KernelIdeal.Frame
import Idealize.ShloMosaic.Lib.Pipeline.Value
import Idealize.ShloMosaic.Lib.ValueIdx

set_option maxRecDepth 16384

noncomputable section

namespace Cert.KernelIdeal.Bn9

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of an index of the tall array, as an index of a row vector. -/
abbrev col {n : Nat} (i : (⟨2, ![n, 128]⟩ : Shape).Idx) : S1x128.Idx := ix2 (0 : Fin 1) (⟨(i 1).val, idx2_lt1 i⟩ : Fin 128)

/-- An array of extended reals read at an index (the element type spelt out). -/
abbrev rd {S : Shape} (f : S.Idx → EReal) (i : S.Idx) : EReal := f i

/-- The normalised array: `h · s + t` with the row vectors repeated down the rows. -/
def G (h : S50000x128.Idx → EReal) (s t : S1x128.Idx → EReal) : S50000x128.Idx → EReal :=
  fun i => h i * s (col i) + t (col i)

/-- A row vector repeated down 5000 rows, read at an index, is the vector at the index's column. -/
theorem bcast_apply (x : S1x128.Idx → EReal) (j : S5000x128.Idx) :
    broadcastTo S5000x128 x broadcasts_S1x128_S5000x128 j = x (col j) :=
  broadcastTo_apply x broadcasts_S1x128_S5000x128 j (col j) fun a => by
    match a with
    | ⟨0, _⟩ => rfl
    | ⟨1, _⟩ => rfl

/-- The body's one payload at an index of the tile. -/
theorem pay_apply (x0 : Vec Ideal S5000x128 .f32) (x1 x2 : Vec Ideal S1x128 .f32) (j : S5000x128.Idx) :
    k9_pay1 (F := Ideal) x0 x1 x2 j = x0 j * x1 (col j) + x2 (col j) := by
  unfold k9_pay1
  simp only [shapeCast_self]
  show x0 j * broadcastTo S5000x128 x1 broadcasts_S1x128_S5000x128 j + broadcastTo S5000x128 x2 broadcasts_S1x128_S5000x128 j = _
  rw [bcast_apply, bcast_apply]

/-- The printed index maps over the grid: the tile of point `t` starts at row block `t`, the row vectors' block is the
    first at every point. -/
theorem idx_facts : ∀ t : Fin cfg9.N, win9_0.index t (0 : Fin 2) = win9_3.index t (0 : Fin 2)
    ∧ win9_0.index t (1 : Fin 2) = 0 ∧ win9_3.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val :=
  (by decide +kernel : ∀ t : Fin grid9.N, _)

/-- What point `t` writes back is tile `t` of `G` of the arrays as the region finds them. -/
theorem flushed_eq (c : Dev nD) (t : Fin cfg9.N) :
    (dat9 (F := Ideal) V c).flushed 3 t
      = ((cfg9.win 3).blk t).view.read (Elt Ideal) (G (V c main_v186_0) (V c main_v201) (V c main_v202)) := by
  show (cfg9.win 3).cut (grid9.coords t) ((dat9 V c).after 3 t) = _
  rw [after9_3]
  unfold out9_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_apply _ _ _ j).trans ?_
  show rd (S := S50000x128) (V c main_v186_0) (((cfg9.win 0).blk t).view.emb j)
        * rd (S := S1x128) (V c main_v201) (((cfg9.win 1).blk t).view.emb (col j))
      + rd (S := S1x128) (V c main_v202) (((cfg9.win 2).blk t).view.emb (col j))
    = rd (S := S50000x128) (V c main_v186_0) (((cfg9.win 3).blk t).view.emb j)
        * rd (S := S1x128) (V c main_v201) (col (((cfg9.win 3).blk t).view.emb j))
      + rd (S := S1x128) (V c main_v202) (col (((cfg9.win 3).blk t).view.emb j))
  have h0 : ((cfg9.win 0).blk t).view.emb j = ((cfg9.win 3).blk t).view.emb j := by
    funext a; apply Fin.ext
    match a with
    | ⟨0, _⟩ => show win9_0.index t (0 : Fin 2) * 5000 + 1 * (j 0).val = win9_3.index t (0 : Fin 2) * 5000 + 1 * (j 0).val; omega
    | ⟨1, _⟩ => show win9_0.index t (1 : Fin 2) * 128 + 1 * (j 1).val = win9_3.index t (1 : Fin 2) * 128 + 1 * (j 1).val; omega
  have h1 : ((cfg9.win 1).blk t).view.emb (col j) = col (((cfg9.win 3).blk t).view.emb j) := by
    funext a; apply Fin.ext
    match a with
    | ⟨0, _⟩ => show win9_1.index t (0 : Fin 2) * 1 + 1 * 0 = 0; omega
    | ⟨1, _⟩ => show win9_1.index t (1 : Fin 2) * 128 + 1 * (j 1).val = win9_3.index t (1 : Fin 2) * 128 + 1 * (j 1).val; omega
  have h2 : ((cfg9.win 2).blk t).view.emb (col j) = col (((cfg9.win 3).blk t).view.emb j) := by
    funext a; apply Fin.ext
    match a with
    | ⟨0, _⟩ => show win9_2.index t (0 : Fin 2) * 1 + 1 * 0 = 0; omega
    | ⟨1, _⟩ => show win9_2.index t (1 : Fin 2) * 128 + 1 * (j 1).val = win9_3.index t (1 : Fin 2) * 128 + 1 * (j 1).val; omega
  rw [h0, h1, h2]

/-- An index of the array is in point `t`'s tile iff each coordinate is in the tile's range on its axis. -/
theorem mem_blk (t : Fin cfg9.N) (i : S50000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v203).slice (win9_3.rect t)).set ↔ _
  rw [View.set_slice_whole, Rect.mem_set_unit]
  exact Iff.rfl

/-- Every index of the array lies in the tile of the point numbered by its row divided by 5000. -/
theorem cover (i : S50000x128.Idx) :
    ∃ t : Fin cfg9.N, (cfg9.win 3).flush t = true ∧ i ∈ ((cfg9.win 3).blk t).view.set := by
  have hi0 : (i 0).val < 50000 := idx2_lt0 i
  have hi1 : (i 1).val < 128 := idx2_lt1 i
  refine ⟨⟨(i 0).val / 5000, by rw [show cfg9.N = 10 from N_9]; omega⟩, flush9_3 _, ?_⟩
  rw [mem_blk]
  obtain ⟨e0, e1, e2, e3, e4, e5, e6, e7⟩ := idx_facts ⟨(i 0).val / 5000, by rw [show cfg9.N = 10 from N_9]; omega⟩
  intro a
  match a with
  | ⟨0, _⟩ => show win9_3.index _ (0 : Fin 2) * 5000 ≤ (i 0).val ∧ (i 0).val < win9_3.index _ (0 : Fin 2) * 5000 + 5000; rw [e7]; show (i 0).val / 5000 * 5000 ≤ (i 0).val ∧ (i 0).val < (i 0).val / 5000 * 5000 + 5000; omega
  | ⟨1, _⟩ => show win9_3.index _ (1 : Fin 2) * 128 ≤ (i 1).val ∧ (i 1).val < win9_3.index _ (1 : Fin 2) * 128 + 128; rw [e2]; omega

/-- THE OUTPUT ARRAY at the end of the region. -/
theorem final (c : Dev nD) :
    (dat9 (F := Ideal) V c).arrAt 3 cfg9.N = G (V c main_v186_0) (V c main_v201) (V c main_v202) :=
  (dat9 V c).arrAt_eq_of_cover 3 _ (fun t _ => flushed_eq V c t) cover

end Cert.KernelIdeal.Bn9

end
-- ==== Proof.KerFold4.lean ====
/-
  Layer 4 of the kernel's program, folded: from the buffer contents at the layer's first boundary, through its stretch of
  host operations, its first region (activations, column sums, column sums of squares), the second stretch (scale and
  shift) and its normalisation region, the layer's output buffer ends holding the layer function of what the first
  boundary holds in the input, the edge vectors and the stacked arguments.
-/
import proofs.«121838_j70282844831870_1_alg».proof.Proof.Gen.KernelIdeal.Frame
import proofs.«121838_j70282844831870_1_alg».proof.Proof.KerStretch4
import proofs.«121838_j70282844831870_1_alg».proof.Proof.GinRegion8
import proofs.«121838_j70282844831870_1_alg».proof.Proof.BnRegion9
import proofs.«121838_j70282844831870_1_alg».proof.Proof.KerLayerArr

set_option maxRecDepth 16384
set_option maxHeartbeats 4000000

noncomputable section

namespace Cert.KernelIdeal.Fold4

open Idealize.ShloMosaic Idealize.ShloMosaic.TcCoe Idealize.SL.Sem Idealize.ShloMosaic.StableHlo
open Cert.KernelIdeal Cert.KernelIdeal.Gen Cert.KernelIdeal.KerHost Cert.KernelIdeal.KerLayer Idealize.ShloMosaic.ValueIdx

section Region
variable (V : (c : Dev nD) → (b : Ref sig .tc) → Buf (Elt Ideal) ((c : Thread nD τ).loc b))

/-- The first region's three output arrays as functions of the six arrays it reads. -/
theorem g6_eq (c : Dev nD) : Gin8.G6 V c = hactArr Ideal.tanh (V c main_v129) (V c main_v139) (V c main_v173) (V c main_v184) (V c main_v177) (V c main_v185) := by
  funext i
  unfold Gin8.G6 Gin8.hactN
  rw [dif_pos (idx2_lt0 i)]
  rfl

theorem g7_eq (c : Dev nD) : Gin8.G7 V c = sumArr (hactArr Ideal.tanh (V c main_v129) (V c main_v139) (V c main_v173) (V c main_v184) (V c main_v177) (V c main_v185)) := by
  funext j
  unfold Gin8.G7 Gin8.hactN sumArr
  refine Finset.sum_congr rfl fun n _ => ?_
  rw [dif_pos n.isLt]
  rfl

theorem g8_eq (c : Dev nD) : Gin8.G8 V c = sqArr (hactArr Ideal.tanh (V c main_v129) (V c main_v139) (V c main_v173) (V c main_v184) (V c main_v177) (V c main_v185)) := by
  funext j
  unfold Gin8.G8 Gin8.hactN sqArr
  refine Finset.sum_congr rfl fun n _ => ?_
  rw [dif_pos n.isLt]
  rfl
end Region

variable (m : (ℓ : Loc nD τ sig) → Buf (Elt Ideal) ℓ) (ρ : Dev nD → PrngReg)

/-- THE LAYER'S OUTPUT BUFFER at the layer's last boundary. -/
theorem out_eq (c : Dev nD) :
    W20 m ρ c (Proc.devRef .tc main_v203)
      = layerArr Ideal.tanh (W16 m ρ c (Proc.devRef .tc main_v129)) (W16 m ρ c (Proc.devRef .tc main_v139))
          (matOf ![4, 0, 0] slices_S7x128x128_S1x128x128_4_0_0 (W16 m ρ c (Proc.devRef .tc main_arg3))) (rowOf ![4, 0] slices_S7x128_S1x128_4_0 (W16 m ρ c (Proc.devRef .tc main_arg4)))
          (matOf ![4, 0, 0] slices_S7x128x128_S1x128x128_4_0_0 (W16 m ρ c (Proc.devRef .tc main_arg5))) (rowOf ![4, 0] slices_S7x128_S1x128_4_0 (W16 m ρ c (Proc.devRef .tc main_arg6)))
          (vecOf ![4, 0] slices_S7x128_S1x128_4_0 (W16 m ρ c (Proc.devRef .tc main_arg7))) (vecOf ![4, 0] slices_S7x128_S1x128_4_0 (W16 m ρ c (Proc.devRef .tc main_arg8))) := by
  have e4 : W20 m ρ c (Proc.devRef .tc main_v203) = (dat9 (V19 m ρ) c).arrAt 3 cfg9.N := W20_arr m ρ c 3
  have eh : V19 m ρ c main_v186_0 = W18 m ρ c (Proc.devRef .tc main_v186_0) := Stretch4.b_h (W18 m ρ c)
  have es : V19 m ρ c main_v201 = scaleK (W18 m ρ c (Proc.devRef .tc main_v186_1)) (W18 m ρ c (Proc.devRef .tc main_v186_2)) (W18 m ρ c (Proc.devRef .tc main_v181)) :=
    Stretch4.b_scale (W18 m ρ c)
  have et : V19 m ρ c main_v202 = shiftK (W18 m ρ c (Proc.devRef .tc main_v186_1)) (W18 m ρ c (Proc.devRef .tc main_v186_2)) (W18 m ρ c (Proc.devRef .tc main_v181)) (W18 m ρ c (Proc.devRef .tc main_v183)) :=
    Stretch4.b_shift (W18 m ρ c)
  have h6 : W18 m ρ c (Proc.devRef .tc main_v186_0) = hactArr Ideal.tanh (V17 m ρ c main_v129) (V17 m ρ c main_v139) (V17 m ρ c main_v173) (V17 m ρ c main_v184) (V17 m ρ c main_v177) (V17 m ρ c main_v185) :=
    (W18_arr m ρ c 6).trans ((Gin8.arr6 (V17 m ρ) c).trans (g6_eq (V17 m ρ) c))
  have h7 : W18 m ρ c (Proc.devRef .tc main_v186_1) = sumArr (hactArr Ideal.tanh (V17 m ρ c main_v129) (V17 m ρ c main_v139) (V17 m ρ c main_v173) (V17 m ρ c main_v184) (V17 m ρ c main_v177) (V17 m ρ c main_v185)) :=
    (W18_arr m ρ c 7).trans ((Gin8.arr7 (V17 m ρ) c).trans (g7_eq (V17 m ρ) c))
  have h8 : W18 m ρ c (Proc.devRef .tc main_v186_2) = sqArr (hactArr Ideal.tanh (V17 m ρ c main_v129) (V17 m ρ c main_v139) (V17 m ρ c main_v173) (V17 m ρ c main_v184) (V17 m ρ c main_v177) (V17 m ρ c main_v185)) :=
    (W18_arr m ρ c 8).trans ((Gin8.arr8 (V17 m ρ) c).trans (g8_eq (V17 m ρ) c))
  have hg : W18 m ρ c (Proc.devRef .tc main_v181) = (vecOf ![4, 0] slices_S7x128_S1x128_4_0 (W16 m ρ c (Proc.devRef .tc main_arg7))) :=
    (W18_of_ne m ρ c main_v181 (by decide)).trans (Stretch4.g_gam (W16 m ρ c))
  have hb : W18 m ρ c (Proc.devRef .tc main_v183) = (vecOf ![4, 0] slices_S7x128_S1x128_4_0 (W16 m ρ c (Proc.devRef .tc main_arg8))) :=
    (W18_of_ne m ρ c main_v183 (by decide)).trans (Stretch4.g_bet (W16 m ρ c))
  have vx : V17 m ρ c main_v129 = (W16 m ρ c (Proc.devRef .tc main_v129)) := by
    show after (hostOps8 (F := Ideal)) (W16 m ρ c) (Proc.devRef .tc main_v129) = _
    after_results_simp
  have va : V17 m ρ c main_v139 = (W16 m ρ c (Proc.devRef .tc main_v139)) := by
    show after (hostOps8 (F := Ideal)) (W16 m ρ c) (Proc.devRef .tc main_v139) = _
    after_results_simp
  have vw1 : V17 m ρ c main_v173 = (matOf ![4, 0, 0] slices_S7x128x128_S1x128x128_4_0_0 (W16 m ρ c (Proc.devRef .tc main_arg3))) := Stretch4.g_w1 (W16 m ρ c)
  have vb1 : V17 m ρ c main_v184 = (rowOf ![4, 0] slices_S7x128_S1x128_4_0 (W16 m ρ c (Proc.devRef .tc main_arg4))) := Stretch4.g_b1 (W16 m ρ c)
  have vw2 : V17 m ρ c main_v177 = (matOf ![4, 0, 0] slices_S7x128x128_S1x128x128_4_0_0 (W16 m ρ c (Proc.devRef .tc main_arg5))) := Stretch4.g_w2 (W16 m ρ c)
  have vb2 : V17 m ρ c main_v185 = (rowOf ![4, 0] slices_S7x128_S1x128_4_0 (W16 m ρ c (Proc.devRef .tc main_arg6))) := Stretch4.g_b2 (W16 m ρ c)
  rw [e4, Bn9.final (V19 m ρ) c, eh, es, et, h6, h7, h8, hg, hb, vx, va, vw1, vb1, vw2, vb2]
  rfl

end Cert.KernelIdeal.Fold4

end
-- ==== Proof.KerStretch5.lean ====
/-
  Layer 5: what its two stretches of host operations leave in the buffers its two regions read, from any contents
  `W` at the stretch's start. The first stretch slices the layer's weights, biases, `γ` and `β` out of the stacked
  arguments; the second turns the column sums and the column sums of squares into the
  normalisation's scale and shift and leaves the activations in place.
-/
import proofs.«121838_j70282844831870_1_alg».proof.Proof.Gen.KernelIdeal.Frame
import proofs.«121838_j70282844831870_1_alg».proof.Proof.KerHost
import Idealize.ShloMosaic.Lib.StableHlo.Run

set_option maxRecDepth 16384
set_option maxHeartbeats 4000000

noncomputable section

namespace Cert.KernelIdeal.Stretch5

open Idealize.ShloMosaic Idealize.ShloMosaic.TcCoe Idealize.SL.Sem Idealize.ShloMosaic.StableHlo
open Cert.KernelIdeal Cert.KernelIdeal.Gen Cert.KernelIdeal.KerHost

variable (W : Valuation τ sig (Elt Ideal))

theorem g_w1 : after (hostOps10 (F := Ideal)) W (Proc.devRef .tc main_v205)
    = matOf ![5, 0, 0] slices_S7x128x128_S1x128x128_5_0_0 (W (Proc.devRef .tc main_arg3)) := by
  after_results_simp; rfl

theorem g_b1 : after (hostOps10 (F := Ideal)) W (Proc.devRef .tc main_v216)
    = rowOf ![5, 0] slices_S7x128_S1x128_5_0 (W (Proc.devRef .tc main_arg4)) := by
  after_results_simp; rfl

theorem g_w2 : after (hostOps10 (F := Ideal)) W (Proc.devRef .tc main_v209)
    = matOf ![5, 0, 0] slices_S7x128x128_S1x128x128_5_0_0 (W (Proc.devRef .tc main_arg5)) := by
  after_results_simp; rfl

theorem g_b2 : after (hostOps10 (F := Ideal)) W (Proc.devRef .tc main_v217)
    = rowOf ![5, 0] slices_S7x128_S1x128_5_0 (W (Proc.devRef .tc main_arg6)) := by
  after_results_simp; rfl

theorem g_gam : after (hostOps10 (F := Ideal)) W (Proc.devRef .tc main_v213)
    = vecOf ![5, 0] slices_S7x128_S1x128_5_0 (W (Proc.devRef .tc main_arg7)) := by
  after_results_simp; rfl

theorem g_bet : after (hostOps10 (F := Ideal)) W (Proc.devRef .tc main_v215)
    = vecOf ![5, 0] slices_S7x128_S1x128_5_0 (W (Proc.devRef .tc main_arg8)) := by
  after_results_simp; rfl

theorem b_scale : after (hostOps11 (F := Ideal)) W (Proc.devRef .tc main_v233)
    = scaleK (W (Proc.devRef .tc main_v218_1)) (W (Proc.devRef .tc main_v218_2)) (W (Proc.devRef .tc main_v213)) := by
  after_results_simp; rfl

theorem b_shift : after (hostOps11 (F := Ideal)) W (Proc.devRef .tc main_v234)
    = shiftK (W (Proc.devRef .tc main_v218_1)) (W (Proc.devRef .tc main_v218_2)) (W (Proc.devRef .tc main_v213)) (W (Proc.devRef .tc main_v215)) := by
  after_results_simp; rfl

theorem b_h : after (hostOps11 (F := Ideal)) W (Proc.devRef .tc main_v218_0) = W (Proc.devRef .tc main_v218_0) := by
  after_results_simp

end Cert.KernelIdeal.Stretch5

end
-- ==== Proof.GinPieces10.lean ====
/-
  What each control case of layer 6's first kernel leaves in its three output staging buffers, as the body's stored
  values of the blocks it loaded.

  At the grid's first point (case A) the two running rows are first set to zero and then read back; at every later
  point (case B) they are read as the point before left them. In both cases the activation buffer is written once, by
  the activation of the loaded blocks, and each running row once more, by what it held plus the block's column sums
  (of the activation, and of its square). Every store covers its whole buffer, so the last store to a buffer is what
  the buffer holds; a load of a buffer after a covering store reads that store's value.
-/
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Gin10

open Cert.KernelIdeal Cert.KernelIdeal.Gen

/-! ## What each control case leaves in the three staging buffers, as the body's stored values -/

section Pieces
variable {F : FTy → Type} [FloatOps F]

theorem hz : (![0, 0] : Fin 2 → Nat) = fun _ => 0 := funext fun a => by fin_cases a <;> rfl

theorem outA6 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond10_0 i) (x0 x1 : Vec F S5000x128 .f32) (x2 : Vec F S128x128 .f32) (x3 : Vec F S1x128 .f32) (x4 : Vec F S128x128 .f32) (x5 : Vec F S1x128 .f32) :
    out10_A_6 c i a1 h1 a2 h2 a3 h3 a4 h4 a5 h5 a6 h6 a7 h7 a8 h8 a9 h9 hc x0 x1 x2 x3 x4 x5 = k10_pay4 x0 x1 x2 x3 x4 x5 := by
  unfold out10_A_6
  rw [View.read_writes_eq_canon _ _ _ (cover10_A_6 c i a1 h1 a2 h2 a3 h3 a4 h4 a5 h5 a6 h6 a7 h7 a8 h8 a9 h9 hc x0 x1 x2 x3 x4 x5)]
  unfold kernelRun10_A
  dsimp only
  try sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA7 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond10_0 i) (x0 x1 : Vec F S5000x128 .f32) (x2 : Vec F S128x128 .f32) (x3 : Vec F S1x128 .f32) (x4 : Vec F S128x128 .f32) (x5 : Vec F S1x128 .f32) :
    out10_A_7 c i a1 h1 a2 h2 a3 h3 a4 h4 a5 h5 a6 h6 a7 h7 a8 h8 a9 h9 hc x0 x1 x2 x3 x4 x5 = k10_pay5 x0 x1 x2 x3 x4 x5 k10_pay2 := by
  unfold out10_A_7
  rw [View.read_writes_eq_canon _ _ _ (cover10_A_7 c i a1 h1 a2 h2 a3 h3 a4 h4 a5 h5 a6 h6 a7 h7 a8 h8 a9 h9 hc x0 x1 x2 x3 x4 x5)]
  unfold kernelRun10_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA8 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond10_0 i) (x0 x1 : Vec F S5000x128 .f32) (x2 : Vec F S128x128 .f32) (x3 : Vec F S1x128 .f32) (x4 : Vec F S128x128 .f32) (x5 : Vec F S1x128 .f32) :
    out10_A_8 c i a1 h1 a2 h2 a3 h3 a4 h4 a5 h5 a6 h6 a7 h7 a8 h8 a9 h9 hc x0 x1 x2 x3 x4 x5 = k10_pay1 (k10_pay4 x0 x1 x2 x3 x4 x5) k10_pay3 := by
  unfold out10_A_8
  rw [View.read_writes_eq_canon _ _ _ (cover10_A_8 c i a1 h1 a2 h2 a3 h3 a4 h4 a5 h5 a6 h6 a7 h7 a8 h8 a9 h9 hc x0 x1 x2 x3 x4 x5)]
  unfold kernelRun10_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outB6 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond10_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out10_B_6 c i a1 h1 a2 h2 a3 h3 a4 h4 a5 h5 a6 h6 a7 h7 a8 h8 a9 h9 hc x0 x1 x2 x3 x4 x5 xo7 xo8 = k10_pay4 x0 x1 x2 x3 x4 x5 := by
  unfold out10_B_6
  rw [View.read_writes_eq_canon _ _ _ (cover10_B_6 c i a1 h1 a2 h2 a3 h3 a4 h4 a5 h5 a6 h6 a7 h7 a8 h8 a9 h9 hc x0 x1 x2 x3 x4 x5 xo7 xo8)]
  unfold kernelRun10_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB7 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond10_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out10_B_7 c i a1 h1 a2 h2 a3 h3 a4 h4 a5 h5 a6 h6 a7 h7 a8 h8 a9 h9 hc x0 x1 x2 x3 x4 x5 xo7 xo8 = k10_pay5 x0 x1 x2 x3 x4 x5 xo7 := by
  unfold out10_B_7
  rw [View.read_writes_eq_canon _ _ _ (cover10_B_7 c i a1 h1 a2 h2 a3 h3 a4 h4 a5 h5 a6 h6 a7 h7 a8 h8 a9 h9 hc x0 x1 x2 x3 x4 x5 xo7 xo8)]
  unfold kernelRun10_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB8 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond10_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out10_B_8 c i a1 h1 a2 h2 a3 h3 a4 h4 a5 h5 a6 h6 a7 h7 a8 h8 a9 h9 hc x0 x1 x2 x3 x4 x5 xo7 xo8 = k10_pay1 (k10_pay4 x0 x1 x2 x3 x4 x5) xo8 := by
  unfold out10_B_8
  rw [View.read_writes_eq_canon _ _ _ (cover10_B_8 c i a1 h1 a2 h2 a3 h3 a4 h4 a5 h5 a6 h6 a7 h7 a8 h8 a9 h9 hc x0 x1 x2 x3 x4 x5 xo7 xo8)]
  unfold kernelRun10_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

end Pieces

end Cert.KernelIdeal.Gin10

end
-- ==== Proof.GinRegion10.lean ====
/-
  Layer 6's first kernel, as three whole-array functions of the six arrays it reads.

  The kernel runs over ten tiles of 5000 nodes. At tile t it loads rows 5000 t … 5000 t + 4999 of the node features x
  and of the aggregated neighbour features agg, and the whole of the two weight matrices and two bias rows; it stores
  the activation of those rows as tile t of the activation array, and adds the tile's column sums of the activation,
  and of its square, into two running rows that the first tile starts from zero and that are written back once, after
  the last tile. So at the end of the region

    the activation array at (n, q) is  act( Σ_k max( Σ_j (x(n,j) + agg(n,j)) · W1(j,k) + b1(0,k), 0 ) · W2(k,q) + b2(0,q) ),
    the sum array at (0, q) is the sum over all 50000 nodes n of the activation at (n, q),
    the sum-of-squares array at (0, q) is the sum over all nodes of its square,

  with act the hyperbolic tangent. The ten partial sums are regrouped into one sum over all nodes: addition of extended reals is
  commutative and associative, and the first tile's zero is the additive unit, so nothing needs to be finite.
-/
import proofs.«121838_j70282844831870_1_alg».proof.Proof.GinBody6
import proofs.«121838_j70282844831870_1_alg».proof.Proof.GinPieces10
import proofs.«121838_j70282844831870_1_alg».proof.Proof.LibSegmentLinear
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Gin10

open Cert.KernelIdeal Cert.KernelIdeal.Gen Cert.KernelIdeal.Gin Idealize.ShloMosaic.ValueIdx

section Value
variable (V : (c : Dev nD) → (b : Ref sig .tc) → Buf (Elt Ideal) ((c : Thread nD τ).loc b))

/-- The grid has ten points. -/
theorem hN : cfg10.N = 10 := N_10

/-- The printed index maps over the grid: the two row-tiled inputs and the activation output sit at row block t, and
    the four parameter inputs and the two statistics outputs at block zero. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0
    ∧ win10_7.index t (0 : Fin 2) = 0 ∧ win10_7.index t (1 : Fin 2) = 0
    ∧ win10_8.index t (0 : Fin 2) = 0 ∧ win10_8.index t (1 : Fin 2) = 0 :=
  (by decide +kernel : ∀ t : Fin grid10.N, _)

/-- The layer's activation at node n and feature q, from the six arrays as the region finds them. -/
def hact (c : Dev nD) (n : Fin 50000) (q : Fin 128) : EReal :=
  Ideal.tanh (pre2 (fun j => (V c (Pipeline.arrRef spec10 0) : S50000x128.Idx → EReal) (ix2 n j))
    (fun j => (V c (Pipeline.arrRef spec10 1) : S50000x128.Idx → EReal) (ix2 n j))
    (V c (Pipeline.arrRef spec10 2)) (V c (Pipeline.arrRef spec10 3)) (V c (Pipeline.arrRef spec10 4)) (V c (Pipeline.arrRef spec10 5)) q)

/-- The same with the node a natural number (zero past the last node), the form the sums over tiles of nodes use. -/
def hactN (c : Dev nD) (n : ℕ) (q : Fin 128) : EReal := if h : n < 50000 then hact V c ⟨n, h⟩ q else 0

/-! ## The blocks the body loads, as rows of the arrays -/

/-- Row r of point t's block of a row-tiled input (the node features, the aggregated neighbour features) is row
    5000 t + r of the array. -/
theorem iblk_row0 (c : Dev nD) (t : Fin cfg10.N) (r : Fin 5000) (j : Fin 128) (h : t.val * 5000 + r.val < 50000) :
    (iblk10 V c 0 t : Vec Ideal S5000x128 .f32) (ix2 r j)
      = (V c (Pipeline.arrRef spec10 0) : S50000x128.Idx → EReal) (ix2 ⟨t.val * 5000 + r.val, h⟩ j) := by
  obtain ⟨e0, e1, -⟩ := idx_facts t
  unfold iblk10
  rw [View.read_apply]
  refine congrArg (V c (Pipeline.arrRef spec10 0) : S50000x128.Idx → EReal) (funext fun a => Fin.ext ?_)
  match a with
  | ⟨0, _⟩ => show win10_0.index t 0 * 5000 + 1 * r.val = t.val * 5000 + r.val; rw [e0]; omega
  | ⟨1, _⟩ => show win10_0.index t 1 * 128 + 1 * j.val = j.val; rw [e1]; omega

theorem iblk_row1 (c : Dev nD) (t : Fin cfg10.N) (r : Fin 5000) (j : Fin 128) (h : t.val * 5000 + r.val < 50000) :
    (iblk10 V c 1 t : Vec Ideal S5000x128 .f32) (ix2 r j)
      = (V c (Pipeline.arrRef spec10 1) : S50000x128.Idx → EReal) (ix2 ⟨t.val * 5000 + r.val, h⟩ j) := by
  obtain ⟨-, -, e0, e1, -⟩ := idx_facts t
  unfold iblk10
  rw [View.read_apply]
  refine congrArg (V c (Pipeline.arrRef spec10 1) : S50000x128.Idx → EReal) (funext fun a => Fin.ext ?_)
  match a with
  | ⟨0, _⟩ => show win10_1.index t 0 * 5000 + 1 * r.val = t.val * 5000 + r.val; rw [e0]; omega
  | ⟨1, _⟩ => show win10_1.index t 1 * 128 + 1 * j.val = j.val; rw [e1]; omega

/-- A parameter input's block is the whole array at every point. -/
theorem iblk_2 (c : Dev nD) (t : Fin cfg10.N) : (iblk10 V c 2 t : Vec Ideal S128x128 .f32) = V c (Pipeline.arrRef spec10 2) := by
  obtain ⟨-, -, -, -, e0, e1, -⟩ := idx_facts t
  funext y
  unfold iblk10
  rw [View.read_apply]
  refine congrArg (V c (Pipeline.arrRef spec10 2) : S128x128.Idx → EReal) (funext fun a => Fin.ext ?_)
  match a with
  | ⟨0, _⟩ => show win10_2.index t 0 * 128 + 1 * (y 0).val = (y 0).val; rw [e0]; omega
  | ⟨1, _⟩ => show win10_2.index t 1 * 128 + 1 * (y 1).val = (y 1).val; rw [e1]; omega

theorem iblk_3 (c : Dev nD) (t : Fin cfg10.N) : (iblk10 V c 3 t : Vec Ideal S1x128 .f32) = V c (Pipeline.arrRef spec10 3) := by
  obtain ⟨-, -, -, -, -, -, e0, e1, -⟩ := idx_facts t
  funext y
  unfold iblk10
  rw [View.read_apply]
  refine congrArg (V c (Pipeline.arrRef spec10 3) : S1x128.Idx → EReal) (funext fun a => Fin.ext ?_)
  match a with
  | ⟨0, _⟩ => show win10_3.index t 0 * 1 + 1 * (y 0).val = (y 0).val; rw [e0]; omega
  | ⟨1, _⟩ => show win10_3.index t 1 * 128 + 1 * (y 1).val = (y 1).val; rw [e1]; omega

theorem iblk_4 (c : Dev nD) (t : Fin cfg10.N) : (iblk10 V c 4 t : Vec Ideal S128x128 .f32) = V c (Pipeline.arrRef spec10 4) := by
  obtain ⟨-, -, -, -, -, -, -, -, e0, e1, -⟩ := idx_facts t
  funext y
  unfold iblk10
  rw [View.read_apply]
  refine congrArg (V c (Pipeline.arrRef spec10 4) : S128x128.Idx → EReal) (funext fun a => Fin.ext ?_)
  match a with
  | ⟨0, _⟩ => show win10_4.index t 0 * 128 + 1 * (y 0).val = (y 0).val; rw [e0]; omega
  | ⟨1, _⟩ => show win10_4.index t 1 * 128 + 1 * (y 1).val = (y 1).val; rw [e1]; omega

theorem iblk_5 (c : Dev nD) (t : Fin cfg10.N) : (iblk10 V c 5 t : Vec Ideal S1x128 .f32) = V c (Pipeline.arrRef spec10 5) := by
  obtain ⟨-, -, -, -, -, -, -, -, -, -, e0, e1, -⟩ := idx_facts t
  funext y
  unfold iblk10
  rw [View.read_apply]
  refine congrArg (V c (Pipeline.arrRef spec10 5) : S1x128.Idx → EReal) (funext fun a => Fin.ext ?_)
  match a with
  | ⟨0, _⟩ => show win10_5.index t 0 * 1 + 1 * (y 0).val = (y 0).val; rw [e0]; omega
  | ⟨1, _⟩ => show win10_5.index t 1 * 128 + 1 * (y 1).val = (y 1).val; rw [e1]; omega

/-- The activation the body computes from point t's blocks, at row r: the layer's activation at node 5000 t + r. -/
theorem blk_act (c : Dev nD) (t : Fin cfg10.N) (r : Fin 5000) (q : Fin 128) :
    k10_pay4 (F := Ideal) (iblk10 V c 0 t) (iblk10 V c 1 t) (iblk10 V c 2 t) (iblk10 V c 3 t) (iblk10 V c 4 t) (iblk10 V c 5 t) (ix2 r q) = hactN V c (t.val * 5000 + r.val) q := by
  have ht : t.val < 10 := lt_of_lt_of_eq t.isLt hN
  have h : t.val * 5000 + r.val < 50000 := by have := r.isLt; omega
  refine (k10_pay4_apply (iblk10 V c 0 t) (iblk10 V c 1 t) (iblk10 V c 2 t) (iblk10 V c 3 t) (iblk10 V c 4 t) (iblk10 V c 5 t) r q).trans ?_
  have e0 : (fun j => (iblk10 V c 0 t : Vec Ideal S5000x128 .f32) (ix2 r j)) = fun j => (V c (Pipeline.arrRef spec10 0) : S50000x128.Idx → EReal) (ix2 ⟨t.val * 5000 + r.val, h⟩ j) :=
    funext fun j => iblk_row0 V c t r j h
  have e1 : (fun j => (iblk10 V c 1 t : Vec Ideal S5000x128 .f32) (ix2 r j)) = fun j => (V c (Pipeline.arrRef spec10 1) : S50000x128.Idx → EReal) (ix2 ⟨t.val * 5000 + r.val, h⟩ j) :=
    funext fun j => iblk_row1 V c t r j h
  rw [e0, e1, iblk_2 V c t, iblk_3 V c t, iblk_4 V c t, iblk_5 V c t]
  unfold hactN
  rw [dif_pos h]
  rfl

/-! ## The staging buffers after each point -/

/-- What the three staging buffers hold after the first point, as the body's stored values of the point's blocks. -/
theorem outs_A (c : Dev nD) (t : Fin cfg10.N) (h0 : t.val % 10 = 0) :
    outsAt10 V c t.val t.isLt = (k10_pay4 (F := Ideal) (iblk10 V c 0 t) (iblk10 V c 1 t) (iblk10 V c 2 t) (iblk10 V c 3 t) (iblk10 V c 4 t) (iblk10 V c 5 t), k10_pay5 (iblk10 V c 0 t) (iblk10 V c 1 t) (iblk10 V c 2 t) (iblk10 V c 3 t) (iblk10 V c 4 t) (iblk10 V c 5 t) (k10_pay2 (F := Ideal)), k10_pay1 (k10_pay4 (iblk10 V c 0 t) (iblk10 V c 1 t) (iblk10 V c 2 t) (iblk10 V c 3 t) (iblk10 V c 4 t) (iblk10 V c 5 t)) (k10_pay3 (F := Ideal))) :=
  (outsAt10_A V c t h0).trans (congrArg₂ Prod.mk
    (outA6 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) ((hcond10_0 t).mpr h0) (iblk10 V c 0 t) (iblk10 V c 1 t) (iblk10 V c 2 t) (iblk10 V c 3 t) (iblk10 V c 4 t) (iblk10 V c 5 t))
    (congrArg₂ Prod.mk
      (outA7 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) ((hcond10_0 t).mpr h0) (iblk10 V c 0 t) (iblk10 V c 1 t) (iblk10 V c 2 t) (iblk10 V c 3 t) (iblk10 V c 4 t) (iblk10 V c 5 t))
      (outA8 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) ((hcond10_0 t).mpr h0) (iblk10 V c 0 t) (iblk10 V c 1 t) (iblk10 V c 2 t) (iblk10 V c 3 t) (iblk10 V c 4 t) (iblk10 V c 5 t))))

/-- What they hold after a later point, over what the point before left in the two running rows. -/
theorem outs_B (c : Dev nD) (t : Fin cfg10.N) (h0 : ¬t.val % 10 = 0) :
    outsAt10 V c t.val t.isLt = (k10_pay4 (F := Ideal) (iblk10 V c 0 t) (iblk10 V c 1 t) (iblk10 V c 2 t) (iblk10 V c 3 t) (iblk10 V c 4 t) (iblk10 V c 5 t), k10_pay5 (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.1, k10_pay1 (k10_pay4 (iblk10 V c 0 t) (iblk10 V c 1 t) (iblk10 V c 2 t) (iblk10 V c 3 t) (iblk10 V c 4 t) (iblk10 V c 5 t)) (outsAt10 V c (t.val - 1) (Nat.lt_of_le_of_lt (Nat.sub_le _ _) t.isLt)).2.2) :=
  (outsAt10_B V c t h0).trans (congrArg₂ Prod.mk
    (outB6 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.1 (outsAt10 V c (t.val - 1) (Nat.lt_of_le_of_lt (Nat.sub_le _ _) t.isLt)).2.2)
    (congrArg₂ Prod.mk
      (outB7 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.1 (outsAt10 V c (t.val - 1) (Nat.lt_of_le_of_lt (Nat.sub_le _ _) t.isLt)).2.2)
      (outB8 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.1 (outsAt10 V c (t.val - 1) (Nat.lt_of_le_of_lt (Nat.sub_le _ _) t.isLt)).2.2)))

/-- After point n the three staging buffers hold: the activation of point n's rows; the sums over the nodes of the
    tiles 0 … n of the activation; and of its square. -/
def Inv (c : Dev nD) (n : ℕ) (hn : n < cfg10.N) : Prop :=
  (outsAt10 V c n hn).1 = k10_pay4 (F := Ideal) (iblk10 V c 0 ⟨n, hn⟩) (iblk10 V c 1 ⟨n, hn⟩) (iblk10 V c 2 ⟨n, hn⟩) (iblk10 V c 3 ⟨n, hn⟩) (iblk10 V c 4 ⟨n, hn⟩) (iblk10 V c 5 ⟨n, hn⟩)
  ∧ (∀ (u : Fin 1) (q : Fin 128), (outsAt10 V c n hn).2.1 (ix2 u q)
      = ∑ s ∈ Finset.range (n + 1), ∑ r : Fin 5000, hactN V c (s * 5000 + r.val) q)
  ∧ (∀ (u : Fin 1) (q : Fin 128), (outsAt10 V c n hn).2.2 (ix2 u q)
      = ∑ s ∈ Finset.range (n + 1), ∑ r : Fin 5000, hactN V c (s * 5000 + r.val) q * hactN V c (s * 5000 + r.val) q)

/-- It holds at every point: at the first the running rows start from the zero the point stores, and each later point
    adds its tile's column sums to what the point before left. -/
theorem inv (c : Dev nD) : ∀ (n : ℕ) (hn : n < cfg10.N), Inv V c n hn
  | 0, hn => by
    have e : outsAt10 V c 0 hn = _ := outs_A V c ⟨0, hn⟩ (Nat.zero_mod _)
    have hb : ∀ (r : Fin 5000) (q : Fin 128), k10_pay4 (F := Ideal) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (ix2 r q) = hactN V c (0 * 5000 + r.val) q :=
      fun r q => blk_act V c ⟨0, hn⟩ r q
    unfold Inv
    rw [e]
    dsimp only
    refine ⟨rfl, fun u q => ?_, fun u q => ?_⟩
    · rw [k10_pay5_apply (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) _ u q, k10_pay2_apply, zero_add]
      rw [Finset.sum_range_one]
      exact Finset.sum_congr rfl fun r _ => hb r q
    · rw [k10_pay1_apply (k10_pay4 (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩)) _ u q, k10_pay3_apply, zero_add]
      rw [Finset.sum_range_one]
      exact Finset.sum_congr rfl fun r _ => by rw [hb r q]
  | n + 1, hn => by
    obtain ⟨-, ih7, ih8⟩ := inv c n (Nat.lt_of_succ_lt hn)
    have hB : ¬(⟨n + 1, hn⟩ : Fin cfg10.N).val % 10 = 0 := by have := hN; dsimp only; omega
    have e : outsAt10 V c (n + 1) hn = _ := outs_B V c ⟨n + 1, hn⟩ hB
    have hb : ∀ (r : Fin 5000) (q : Fin 128), k10_pay4 (F := Ideal) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (ix2 r q) = hactN V c ((n + 1) * 5000 + r.val) q :=
      fun r q => blk_act V c ⟨n + 1, hn⟩ r q
    unfold Inv
    rw [e]
    dsimp only
    refine ⟨rfl, fun u q => ?_, fun u q => ?_⟩
    · rw [k10_pay5_apply (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) _ u q]
      rw [Finset.sum_range_succ]
      exact congrArg₂ (· + ·) (ih7 u q) (Finset.sum_congr rfl fun r _ => hb r q)
    · rw [k10_pay1_apply (k10_pay4 (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩)) _ u q]
      rw [Finset.sum_range_succ]
      exact congrArg₂ (· + ·) (ih8 u q) (Finset.sum_congr rfl fun r _ => by rw [hb r q])

/-! ## From the staging buffers to the arrays -/

/-- The ten tiles of 5000 nodes are all 50000 nodes. -/
theorem sum_tiles (f : ℕ → EReal) : ∑ s ∈ Finset.range 10, ∑ r : Fin 5000, f (s * 5000 + r.val) = ∑ n : Fin 50000, f n.val := by
  rw [Finset.sum_range]
  exact Cert.SegmentLinear.sum_blocks 10 5000 f

/-- The activation array: the layer's activation at every node and feature. -/
def G6 (c : Dev nD) : S50000x128.Idx → EReal := fun i => hactN V c (i 0).val (i 1)
/-- The sum array: per feature, the sum over all nodes of the activation. -/
def G7 (c : Dev nD) : S1x128.Idx → EReal := fun j => ∑ n : Fin 50000, hactN V c n.val (j 1)
/-- The sum-of-squares array: per feature, the sum over all nodes of the squared activation. -/
def G8 (c : Dev nD) : S1x128.Idx → EReal := fun j => ∑ n : Fin 50000, hactN V c n.val (j 1) * hactN V c n.val (j 1)

-- the two sums are never opened by unfolding: they are compared as they stand
attribute [local irreducible] G7 G8

/-- Tile t of the activation array, at row r: the activation at node 5000 t + r. -/
theorem G6_blk (c : Dev nD) (t : Fin cfg10.N) (r : Fin 5000) (q : Fin 128) :
    (((cfg10.win 6).blk t).view.read (Elt Ideal) (G6 V c) : Vec Ideal S5000x128 .f32) (ix2 r q)
      = hactN V c (t.val * 5000 + r.val) q := by
  obtain ⟨-, -, -, -, -, -, -, -, -, -, -, -, e0, e1, -⟩ := idx_facts t
  have ht : t.val < 10 := lt_of_lt_of_eq t.isLt hN
  have h : t.val * 5000 + r.val < 50000 := by have := r.isLt; omega
  have he : ((cfg10.win 6).blk t).view.emb (ix2 r q) = (ix2 ⟨t.val * 5000 + r.val, h⟩ q : S50000x128.Idx) :=
    funext fun a => Fin.ext (by
      match a with
      | ⟨0, _⟩ => show win10_6.index t 0 * 5000 + 1 * r.val = t.val * 5000 + r.val; rw [e0]; omega
      | ⟨1, _⟩ => show win10_6.index t 1 * 128 + 1 * q.val = q.val; rw [e1]; omega)
  show G6 V c (((cfg10.win 6).blk t).view.emb (ix2 r q)) = _
  rw [he]
  rfl

/-- Every point writes back its tile of the activation array. -/
theorem flushed6 (c : Dev nD) (t : Fin cfg10.N) :
    (dat10 V c).flushed 6 t = ((cfg10.win 6).blk t).view.read (Elt Ideal) (G6 V c) := by
  show (cfg10.win 6).cut (grid10.coords t) ((dat10 V c).after 6 t) = _
  rw [after10_6, (inv V c t.val t.isLt).1]
  funext y
  obtain ⟨r, q, rfl⟩ : ∃ (r : Fin 5000) (q : Fin 128), y = ix2 r q := ⟨y 0, y 1, eq_ix2 y⟩
  refine Eq.trans ?_ (G6_blk V c t r q).symm
  exact blk_act V c t r q

/-- An index of the activation array is in point t's block iff each coordinate is in the block's range on its axis. -/
theorem mem_blk6 (t : Fin cfg10.N) (i : S50000x128.Idx) :
    i ∈ ((cfg10.win 6).blk t).view.set ↔ ∀ a : Fin 2, win10_6.index t a * S5000x128.size a ≤ (i a).val ∧ (i a).val < win10_6.index t a * S5000x128.size a + S5000x128.size a := by
  show i ∈ ((View.whole (Pipeline.arrRef spec10 6)).slice (win10_6.rect t)).set ↔ _
  rw [View.set_slice_whole, Rect.mem_set_unit]
  exact Iff.rfl

/-- The activation array at the end of the region. -/
theorem arr6 (c : Dev nD) : (dat10 V c).arrAt 6 cfg10.N = G6 V c :=
  (dat10 V c).arrAt_eq_of_cover 6 (G6 V c) (fun t _ => flushed6 V c t) fun i => by
    have h0 : (i 0).val < 50000 := (i 0).isLt
    have h1 : (i 1).val < 128 := (i 1).isLt
    have hN' := hN
    refine ⟨⟨(i 0).val / 5000, by rw [hN']; omega⟩, flush10_6 _, ?_⟩
    obtain ⟨-, -, -, -, -, -, -, -, -, -, -, -, e0, e1, -⟩ := idx_facts ⟨(i 0).val / 5000, by rw [hN']; omega⟩
    rw [mem_blk6]
    intro a
    match a with
    | ⟨0, _⟩ => show win10_6.index _ 0 * 5000 ≤ (i 0).val ∧ (i 0).val < win10_6.index _ 0 * 5000 + 5000; rw [e0]; dsimp only; omega
    | ⟨1, _⟩ => show win10_6.index _ 1 * 128 ≤ (i 1).val ∧ (i 1).val < win10_6.index _ 1 * 128 + 128; rw [e1]; omega

/-- The one block of window 7's array (the whole array), read at feature q. -/
theorem G7_blk (c : Dev nD) (t : Fin cfg10.N) (u : Fin 1) (q : Fin 128) :
    (((cfg10.win 7).blk t).view.read (Elt Ideal) (G7 V c) : Vec Ideal S1x128 .f32) (ix2 u q)
      = ∑ n : Fin 50000, hactN V c n.val q := by
  obtain ⟨-, -, -, -, -, -, -, -, -, -, -, -, -, -, e0, e1, -⟩ := idx_facts t
  have he : ((cfg10.win 7).blk t).view.emb (ix2 u q) = (ix2 u q : S1x128.Idx) :=
    funext fun a => Fin.ext (by
      match a with
      | ⟨0, _⟩ => show win10_7.index t 0 * 1 + 1 * u.val = u.val; rw [e0]; omega
      | ⟨1, _⟩ => show win10_7.index t 1 * 128 + 1 * q.val = q.val; rw [e1]; omega)
  show G7 V c (((cfg10.win 7).blk t).view.emb (ix2 u q)) = _
  rw [he]
  unfold G7
  exact Finset.sum_congr rfl fun n _ => rfl

/-- The one write-back of window 7, after the last point, writes the sums over all ten tiles. -/
theorem flushed7 (c : Dev nD) (t : Fin cfg10.N) (hf : (cfg10.win 7).flush t = true) :
    (dat10 V c).flushed 7 t = ((cfg10.win 7).blk t).view.read (Elt Ideal) (G7 V c) := by
  have hN' := hN
  have h9 : t.val = 9 := by have := (flush10_7 t).mp hf; have := t.isLt; omega
  show (cfg10.win 7).cut (grid10.coords t) ((dat10 V c).after 7 t) = _
  rw [after10_7]
  funext y
  obtain ⟨u, q, rfl⟩ : ∃ (u : Fin 1) (q : Fin 128), y = ix2 u q := ⟨y 0, y 1, eq_ix2 y⟩
  refine Eq.trans ?_ (G7_blk V c t u q).symm
  refine Eq.trans ((inv V c t.val t.isLt).2.1 u q) ?_
  rw [h9]
  exact sum_tiles (fun n => hactN V c n q)

/-- An index of window 7's array is in point t's block iff each coordinate is in the block's range on its axis. -/
theorem mem_blk7 (t : Fin cfg10.N) (i : S1x128.Idx) :
    i ∈ ((cfg10.win 7).blk t).view.set ↔ ∀ a : Fin 2, win10_7.index t a * S1x128.size a ≤ (i a).val ∧ (i a).val < win10_7.index t a * S1x128.size a + S1x128.size a := by
  show i ∈ ((View.whole (Pipeline.arrRef spec10 7)).slice (win10_7.rect t)).set ↔ _
  rw [View.set_slice_whole, Rect.mem_set_unit]
  exact Iff.rfl

/-- Window 7's array at the end of the region. -/
theorem arr7 (c : Dev nD) : (dat10 V c).arrAt 7 cfg10.N = G7 V c :=
  (dat10 V c).arrAt_eq_of_cover 7 (G7 V c) (fun t hf => flushed7 V c t hf) fun i => by
    have h0 : (i 0).val < 1 := (i 0).isLt
    have h1 : (i 1).val < 128 := (i 1).isLt
    have hN' := hN
    refine ⟨⟨9, by rw [hN']; omega⟩, (flush10_7 _).mpr rfl, ?_⟩
    obtain ⟨-, -, -, -, -, -, -, -, -, -, -, -, -, -, e0, e1, -⟩ := idx_facts ⟨9, by rw [hN']; omega⟩
    rw [mem_blk7]
    intro a
    match a with
    | ⟨0, _⟩ => show win10_7.index _ 0 * 1 ≤ (i 0).val ∧ (i 0).val < win10_7.index _ 0 * 1 + 1; rw [e0]; omega
    | ⟨1, _⟩ => show win10_7.index _ 1 * 128 ≤ (i 1).val ∧ (i 1).val < win10_7.index _ 1 * 128 + 128; rw [e1]; omega

/-- The one block of window 8's array (the whole array), read at feature q. -/
theorem G8_blk (c : Dev nD) (t : Fin cfg10.N) (u : Fin 1) (q : Fin 128) :
    (((cfg10.win 8).blk t).view.read (Elt Ideal) (G8 V c) : Vec Ideal S1x128 .f32) (ix2 u q)
      = ∑ n : Fin 50000, hactN V c n.val q * hactN V c n.val q := by
  obtain ⟨-, -, -, -, -, -, -, -, -, -, -, -, -, -, -, -, e0, e1⟩ := idx_facts t
  have he : ((cfg10.win 8).blk t).view.emb (ix2 u q) = (ix2 u q : S1x128.Idx) :=
    funext fun a => Fin.ext (by
      match a with
      | ⟨0, _⟩ => show win10_8.index t 0 * 1 + 1 * u.val = u.val; rw [e0]; omega
      | ⟨1, _⟩ => show win10_8.index t 1 * 128 + 1 * q.val = q.val; rw [e1]; omega)
  show G8 V c (((cfg10.win 8).blk t).view.emb (ix2 u q)) = _
  rw [he]
  unfold G8
  exact Finset.sum_congr rfl fun n _ => rfl

/-- The one write-back of window 8, after the last point, writes the sums over all ten tiles. -/
theorem flushed8 (c : Dev nD) (t : Fin cfg10.N) (hf : (cfg10.win 8).flush t = true) :
    (dat10 V c).flushed 8 t = ((cfg10.win 8).blk t).view.read (Elt Ideal) (G8 V c) := by
  have hN' := hN
  have h9 : t.val = 9 := by have := (flush10_8 t).mp hf; have := t.isLt; omega
  show (cfg10.win 8).cut (grid10.coords t) ((dat10 V c).after 8 t) = _
  rw [after10_8]
  funext y
  obtain ⟨u, q, rfl⟩ : ∃ (u : Fin 1) (q : Fin 128), y = ix2 u q := ⟨y 0, y 1, eq_ix2 y⟩
  refine Eq.trans ?_ (G8_blk V c t u q).symm
  refine Eq.trans ((inv V c t.val t.isLt).2.2 u q) ?_
  rw [h9]
  exact sum_tiles (fun n => hactN V c n q * hactN V c n q)

/-- An index of window 8's array is in point t's block iff each coordinate is in the block's range on its axis. -/
theorem mem_blk8 (t : Fin cfg10.N) (i : S1x128.Idx) :
    i ∈ ((cfg10.win 8).blk t).view.set ↔ ∀ a : Fin 2, win10_8.index t a * S1x128.size a ≤ (i a).val ∧ (i a).val < win10_8.index t a * S1x128.size a + S1x128.size a := by
  show i ∈ ((View.whole (Pipeline.arrRef spec10 8)).slice (win10_8.rect t)).set ↔ _
  rw [View.set_slice_whole, Rect.mem_set_unit]
  exact Iff.rfl

/-- Window 8's array at the end of the region. -/
theorem arr8 (c : Dev nD) : (dat10 V c).arrAt 8 cfg10.N = G8 V c :=
  (dat10 V c).arrAt_eq_of_cover 8 (G8 V c) (fun t hf => flushed8 V c t hf) fun i => by
    have h0 : (i 0).val < 1 := (i 0).isLt
    have h1 : (i 1).val < 128 := (i 1).isLt
    have hN' := hN
    refine ⟨⟨9, by rw [hN']; omega⟩, (flush10_8 _).mpr rfl, ?_⟩
    obtain ⟨-, -, -, -, -, -, -, -, -, -, -, -, -, -, -, -, e0, e1⟩ := idx_facts ⟨9, by rw [hN']; omega⟩
    rw [mem_blk8]
    intro a
    match a with
    | ⟨0, _⟩ => show win10_8.index _ 0 * 1 ≤ (i 0).val ∧ (i 0).val < win10_8.index _ 0 * 1 + 1; rw [e0]; omega
    | ⟨1, _⟩ => show win10_8.index _ 1 * 128 ≤ (i 1).val ∧ (i 1).val < win10_8.index _ 1 * 128 + 128; rw [e1]; omega

/-! ## The three arrays by the activation at a node of the node range -/

theorem G6_apply (c : Dev nD) (n : Fin 50000) (q : Fin 128) : G6 V c (ix2 n q) = hact V c n q := by
  unfold G6 hactN
  exact dif_pos n.isLt
theorem G7_apply (c : Dev nD) (u : Fin 1) (q : Fin 128) : G7 V c (ix2 u q) = ∑ n : Fin 50000, hact V c n q := by
  unfold G7 hactN
  exact Finset.sum_congr rfl fun n _ => dif_pos n.isLt
theorem G8_apply (c : Dev nD) (u : Fin 1) (q : Fin 128) : G8 V c (ix2 u q) = ∑ n : Fin 50000, hact V c n q * hact V c n q := by
  unfold G8 hactN
  exact Finset.sum_congr rfl fun n _ => by rw [dif_pos n.isLt]

end Value

end Cert.KernelIdeal.Gin10

end
-- ==== Proof.BnRegion11.lean ====
/-
  The normalisation kernel of region 11: a grid of ten row tiles of 5000 rows; each point loads its tile of `h`
  (5000 × 128) and the two row vectors `s`, `t` (1 × 128, the same block at every point) and stores `h · s + t`, the row
  vectors repeated down the rows. The ten tiles partition the 50000 rows, so the output array ends holding, at row `r`
  and column `q`, `h (r, q) · s (0, q) + t (0, q)` of the arrays as the region finds them.
-/
import proofs.«121838_j70282844831870_1_alg».proof.Proof.Gen.KernelIdeal.Frame
import Idealize.ShloMosaic.Lib.Pipeline.Value
import Idealize.ShloMosaic.Lib.ValueIdx

set_option maxRecDepth 16384

noncomputable section

namespace Cert.KernelIdeal.Bn11

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of an index of the tall array, as an index of a row vector. -/
abbrev col {n : Nat} (i : (⟨2, ![n, 128]⟩ : Shape).Idx) : S1x128.Idx := ix2 (0 : Fin 1) (⟨(i 1).val, idx2_lt1 i⟩ : Fin 128)

/-- An array of extended reals read at an index (the element type spelt out). -/
abbrev rd {S : Shape} (f : S.Idx → EReal) (i : S.Idx) : EReal := f i

/-- The normalised array: `h · s + t` with the row vectors repeated down the rows. -/
def G (h : S50000x128.Idx → EReal) (s t : S1x128.Idx → EReal) : S50000x128.Idx → EReal :=
  fun i => h i * s (col i) + t (col i)

/-- A row vector repeated down 5000 rows, read at an index, is the vector at the index's column. -/
theorem bcast_apply (x : S1x128.Idx → EReal) (j : S5000x128.Idx) :
    broadcastTo S5000x128 x broadcasts_S1x128_S5000x128 j = x (col j) :=
  broadcastTo_apply x broadcasts_S1x128_S5000x128 j (col j) fun a => by
    match a with
    | ⟨0, _⟩ => rfl
    | ⟨1, _⟩ => rfl

/-- The body's one payload at an index of the tile. -/
theorem pay_apply (x0 : Vec Ideal S5000x128 .f32) (x1 x2 : Vec Ideal S1x128 .f32) (j : S5000x128.Idx) :
    k11_pay1 (F := Ideal) x0 x1 x2 j = x0 j * x1 (col j) + x2 (col j) := by
  unfold k11_pay1
  simp only [shapeCast_self]
  show x0 j * broadcastTo S5000x128 x1 broadcasts_S1x128_S5000x128 j + broadcastTo S5000x128 x2 broadcasts_S1x128_S5000x128 j = _
  rw [bcast_apply, bcast_apply]

/-- The printed index maps over the grid: the tile of point `t` starts at row block `t`, the row vectors' block is the
    first at every point. -/
theorem idx_facts : ∀ t : Fin cfg11.N, win11_0.index t (0 : Fin 2) = win11_3.index t (0 : Fin 2)
    ∧ win11_0.index t (1 : Fin 2) = 0 ∧ win11_3.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val :=
  (by decide +kernel : ∀ t : Fin grid11.N, _)

/-- What point `t` writes back is tile `t` of `G` of the arrays as the region finds them. -/
theorem flushed_eq (c : Dev nD) (t : Fin cfg11.N) :
    (dat11 (F := Ideal) V c).flushed 3 t
      = ((cfg11.win 3).blk t).view.read (Elt Ideal) (G (V c main_v218_0) (V c main_v233) (V c main_v234)) := by
  show (cfg11.win 3).cut (grid11.coords t) ((dat11 V c).after 3 t) = _
  rw [after11_3]
  unfold out11_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_apply _ _ _ j).trans ?_
  show rd (S := S50000x128) (V c main_v218_0) (((cfg11.win 0).blk t).view.emb j)
        * rd (S := S1x128) (V c main_v233) (((cfg11.win 1).blk t).view.emb (col j))
      + rd (S := S1x128) (V c main_v234) (((cfg11.win 2).blk t).view.emb (col j))
    = rd (S := S50000x128) (V c main_v218_0) (((cfg11.win 3).blk t).view.emb j)
        * rd (S := S1x128) (V c main_v233) (col (((cfg11.win 3).blk t).view.emb j))
      + rd (S := S1x128) (V c main_v234) (col (((cfg11.win 3).blk t).view.emb j))
  have h0 : ((cfg11.win 0).blk t).view.emb j = ((cfg11.win 3).blk t).view.emb j := by
    funext a; apply Fin.ext
    match a with
    | ⟨0, _⟩ => show win11_0.index t (0 : Fin 2) * 5000 + 1 * (j 0).val = win11_3.index t (0 : Fin 2) * 5000 + 1 * (j 0).val; omega
    | ⟨1, _⟩ => show win11_0.index t (1 : Fin 2) * 128 + 1 * (j 1).val = win11_3.index t (1 : Fin 2) * 128 + 1 * (j 1).val; omega
  have h1 : ((cfg11.win 1).blk t).view.emb (col j) = col (((cfg11.win 3).blk t).view.emb j) := by
    funext a; apply Fin.ext
    match a with
    | ⟨0, _⟩ => show win11_1.index t (0 : Fin 2) * 1 + 1 * 0 = 0; omega
    | ⟨1, _⟩ => show win11_1.index t (1 : Fin 2) * 128 + 1 * (j 1).val = win11_3.index t (1 : Fin 2) * 128 + 1 * (j 1).val; omega
  have h2 : ((cfg11.win 2).blk t).view.emb (col j) = col (((cfg11.win 3).blk t).view.emb j) := by
    funext a; apply Fin.ext
    match a with
    | ⟨0, _⟩ => show win11_2.index t (0 : Fin 2) * 1 + 1 * 0 = 0; omega
    | ⟨1, _⟩ => show win11_2.index t (1 : Fin 2) * 128 + 1 * (j 1).val = win11_3.index t (1 : Fin 2) * 128 + 1 * (j 1).val; omega
  rw [h0, h1, h2]

/-- An index of the array is in point `t`'s tile iff each coordinate is in the tile's range on its axis. -/
theorem mem_blk (t : Fin cfg11.N) (i : S50000x128.Idx) :
    i ∈ ((cfg11.win 3).blk t).view.set ↔ ∀ a : Fin 2, win11_3.index t a * S5000x128.size a ≤ (i a).val ∧ (i a).val < win11_3.index t a * S5000x128.size a + S5000x128.size a := by
  show i ∈ ((View.whole main_v235).slice (win11_3.rect t)).set ↔ _
  rw [View.set_slice_whole, Rect.mem_set_unit]
  exact Iff.rfl

/-- Every index of the array lies in the tile of the point numbered by its row divided by 5000. -/
theorem cover (i : S50000x128.Idx) :
    ∃ t : Fin cfg11.N, (cfg11.win 3).flush t = true ∧ i ∈ ((cfg11.win 3).blk t).view.set := by
  have hi0 : (i 0).val < 50000 := idx2_lt0 i
  have hi1 : (i 1).val < 128 := idx2_lt1 i
  refine ⟨⟨(i 0).val / 5000, by rw [show cfg11.N = 10 from N_11]; omega⟩, flush11_3 _, ?_⟩
  rw [mem_blk]
  obtain ⟨e0, e1, e2, e3, e4, e5, e6, e7⟩ := idx_facts ⟨(i 0).val / 5000, by rw [show cfg11.N = 10 from N_11]; omega⟩
  intro a
  match a with
  | ⟨0, _⟩ => show win11_3.index _ (0 : Fin 2) * 5000 ≤ (i 0).val ∧ (i 0).val < win11_3.index _ (0 : Fin 2) * 5000 + 5000; rw [e7]; show (i 0).val / 5000 * 5000 ≤ (i 0).val ∧ (i 0).val < (i 0).val / 5000 * 5000 + 5000; omega
  | ⟨1, _⟩ => show win11_3.index _ (1 : Fin 2) * 128 ≤ (i 1).val ∧ (i 1).val < win11_3.index _ (1 : Fin 2) * 128 + 128; rw [e2]; omega

/-- THE OUTPUT ARRAY at the end of the region. -/
theorem final (c : Dev nD) :
    (dat11 (F := Ideal) V c).arrAt 3 cfg11.N = G (V c main_v218_0) (V c main_v233) (V c main_v234) :=
  (dat11 V c).arrAt_eq_of_cover 3 _ (fun t _ => flushed_eq V c t) cover

end Cert.KernelIdeal.Bn11

end
-- ==== Proof.KerFold5.lean ====
/-
  Layer 5 of the kernel's program, folded: from the buffer contents at the layer's first boundary, through its stretch of
  host operations, its first region (activations, column sums, column sums of squares), the second stretch (scale and
  shift) and its normalisation region, the layer's output buffer ends holding the layer function of what the first
  boundary holds in the input, the edge vectors and the stacked arguments.
-/
import proofs.«121838_j70282844831870_1_alg».proof.Proof.Gen.KernelIdeal.Frame
import proofs.«121838_j70282844831870_1_alg».proof.Proof.KerStretch5
import proofs.«121838_j70282844831870_1_alg».proof.Proof.GinRegion10
import proofs.«121838_j70282844831870_1_alg».proof.Proof.BnRegion11
import proofs.«121838_j70282844831870_1_alg».proof.Proof.KerLayerArr

set_option maxRecDepth 16384
set_option maxHeartbeats 4000000

noncomputable section

namespace Cert.KernelIdeal.Fold5

open Idealize.ShloMosaic Idealize.ShloMosaic.TcCoe Idealize.SL.Sem Idealize.ShloMosaic.StableHlo
open Cert.KernelIdeal Cert.KernelIdeal.Gen Cert.KernelIdeal.KerHost Cert.KernelIdeal.KerLayer Idealize.ShloMosaic.ValueIdx

section Region
variable (V : (c : Dev nD) → (b : Ref sig .tc) → Buf (Elt Ideal) ((c : Thread nD τ).loc b))

/-- The first region's three output arrays as functions of the six arrays it reads. -/
theorem g6_eq (c : Dev nD) : Gin10.G6 V c = hactArr Ideal.tanh (V c main_v129) (V c main_v139) (V c main_v205) (V c main_v216) (V c main_v209) (V c main_v217) := by
  funext i
  unfold Gin10.G6 Gin10.hactN
  rw [dif_pos (idx2_lt0 i)]
  rfl

theorem g7_eq (c : Dev nD) : Gin10.G7 V c = sumArr (hactArr Ideal.tanh (V c main_v129) (V c main_v139) (V c main_v205) (V c main_v216) (V c main_v209) (V c main_v217)) := by
  funext j
  unfold Gin10.G7 Gin10.hactN sumArr
  refine Finset.sum_congr rfl fun n _ => ?_
  rw [dif_pos n.isLt]
  rfl

theorem g8_eq (c : Dev nD) : Gin10.G8 V c = sqArr (hactArr Ideal.tanh (V c main_v129) (V c main_v139) (V c main_v205) (V c main_v216) (V c main_v209) (V c main_v217)) := by
  funext j
  unfold Gin10.G8 Gin10.hactN sqArr
  refine Finset.sum_congr rfl fun n _ => ?_
  rw [dif_pos n.isLt]
  rfl
end Region

variable (m : (ℓ : Loc nD τ sig) → Buf (Elt Ideal) ℓ) (ρ : Dev nD → PrngReg)

/-- THE LAYER'S OUTPUT BUFFER at the layer's last boundary. -/
theorem out_eq (c : Dev nD) :
    W24 m ρ c (Proc.devRef .tc main_v235)
      = layerArr Ideal.tanh (W20 m ρ c (Proc.devRef .tc main_v129)) (W20 m ρ c (Proc.devRef .tc main_v139))
          (matOf ![5, 0, 0] slices_S7x128x128_S1x128x128_5_0_0 (W20 m ρ c (Proc.devRef .tc main_arg3))) (rowOf ![5, 0] slices_S7x128_S1x128_5_0 (W20 m ρ c (Proc.devRef .tc main_arg4)))
          (matOf ![5, 0, 0] slices_S7x128x128_S1x128x128_5_0_0 (W20 m ρ c (Proc.devRef .tc main_arg5))) (rowOf ![5, 0] slices_S7x128_S1x128_5_0 (W20 m ρ c (Proc.devRef .tc main_arg6)))
          (vecOf ![5, 0] slices_S7x128_S1x128_5_0 (W20 m ρ c (Proc.devRef .tc main_arg7))) (vecOf ![5, 0] slices_S7x128_S1x128_5_0 (W20 m ρ c (Proc.devRef .tc main_arg8))) := by
  have e4 : W24 m ρ c (Proc.devRef .tc main_v235) = (dat11 (V23 m ρ) c).arrAt 3 cfg11.N := W24_arr m ρ c 3
  have eh : V23 m ρ c main_v218_0 = W22 m ρ c (Proc.devRef .tc main_v218_0) := Stretch5.b_h (W22 m ρ c)
  have es : V23 m ρ c main_v233 = scaleK (W22 m ρ c (Proc.devRef .tc main_v218_1)) (W22 m ρ c (Proc.devRef .tc main_v218_2)) (W22 m ρ c (Proc.devRef .tc main_v213)) :=
    Stretch5.b_scale (W22 m ρ c)
  have et : V23 m ρ c main_v234 = shiftK (W22 m ρ c (Proc.devRef .tc main_v218_1)) (W22 m ρ c (Proc.devRef .tc main_v218_2)) (W22 m ρ c (Proc.devRef .tc main_v213)) (W22 m ρ c (Proc.devRef .tc main_v215)) :=
    Stretch5.b_shift (W22 m ρ c)
  have h6 : W22 m ρ c (Proc.devRef .tc main_v218_0) = hactArr Ideal.tanh (V21 m ρ c main_v129) (V21 m ρ c main_v139) (V21 m ρ c main_v205) (V21 m ρ c main_v216) (V21 m ρ c main_v209) (V21 m ρ c main_v217) :=
    (W22_arr m ρ c 6).trans ((Gin10.arr6 (V21 m ρ) c).trans (g6_eq (V21 m ρ) c))
  have h7 : W22 m ρ c (Proc.devRef .tc main_v218_1) = sumArr (hactArr Ideal.tanh (V21 m ρ c main_v129) (V21 m ρ c main_v139) (V21 m ρ c main_v205) (V21 m ρ c main_v216) (V21 m ρ c main_v209) (V21 m ρ c main_v217)) :=
    (W22_arr m ρ c 7).trans ((Gin10.arr7 (V21 m ρ) c).trans (g7_eq (V21 m ρ) c))
  have h8 : W22 m ρ c (Proc.devRef .tc main_v218_2) = sqArr (hactArr Ideal.tanh (V21 m ρ c main_v129) (V21 m ρ c main_v139) (V21 m ρ c main_v205) (V21 m ρ c main_v216) (V21 m ρ c main_v209) (V21 m ρ c main_v217)) :=
    (W22_arr m ρ c 8).trans ((Gin10.arr8 (V21 m ρ) c).trans (g8_eq (V21 m ρ) c))
  have hg : W22 m ρ c (Proc.devRef .tc main_v213) = (vecOf ![5, 0] slices_S7x128_S1x128_5_0 (W20 m ρ c (Proc.devRef .tc main_arg7))) :=
    (W22_of_ne m ρ c main_v213 (by decide)).trans (Stretch5.g_gam (W20 m ρ c))
  have hb : W22 m ρ c (Proc.devRef .tc main_v215) = (vecOf ![5, 0] slices_S7x128_S1x128_5_0 (W20 m ρ c (Proc.devRef .tc main_arg8))) :=
    (W22_of_ne m ρ c main_v215 (by decide)).trans (Stretch5.g_bet (W20 m ρ c))
  have vx : V21 m ρ c main_v129 = (W20 m ρ c (Proc.devRef .tc main_v129)) := by
    show after (hostOps10 (F := Ideal)) (W20 m ρ c) (Proc.devRef .tc main_v129) = _
    after_results_simp
  have va : V21 m ρ c main_v139 = (W20 m ρ c (Proc.devRef .tc main_v139)) := by
    show after (hostOps10 (F := Ideal)) (W20 m ρ c) (Proc.devRef .tc main_v139) = _
    after_results_simp
  have vw1 : V21 m ρ c main_v205 = (matOf ![5, 0, 0] slices_S7x128x128_S1x128x128_5_0_0 (W20 m ρ c (Proc.devRef .tc main_arg3))) := Stretch5.g_w1 (W20 m ρ c)
  have vb1 : V21 m ρ c main_v216 = (rowOf ![5, 0] slices_S7x128_S1x128_5_0 (W20 m ρ c (Proc.devRef .tc main_arg4))) := Stretch5.g_b1 (W20 m ρ c)
  have vw2 : V21 m ρ c main_v209 = (matOf ![5, 0, 0] slices_S7x128x128_S1x128x128_5_0_0 (W20 m ρ c (Proc.devRef .tc main_arg5))) := Stretch5.g_w2 (W20 m ρ c)
  have vb2 : V21 m ρ c main_v217 = (rowOf ![5, 0] slices_S7x128_S1x128_5_0 (W20 m ρ c (Proc.devRef .tc main_arg6))) := Stretch5.g_b2 (W20 m ρ c)
  rw [e4, Bn11.final (V23 m ρ) c, eh, es, et, h6, h7, h8, hg, hb, vx, va, vw1, vb1, vw2, vb2]
  rfl

end Cert.KernelIdeal.Fold5

end
-- ==== Proof.KerStretch6.lean ====
/-
  Layer 6: what its two stretches of host operations leave in the buffers its two regions read, from any contents
  `W` at the stretch's start. The first stretch slices the layer's weights, biases, `γ` and `β` out of the stacked
  arguments; the second turns the column sums and the column sums of squares into the
  normalisation's scale and shift and leaves the activations in place.
-/
import proofs.«121838_j70282844831870_1_alg».proof.Proof.Gen.KernelIdeal.Frame
import proofs.«121838_j70282844831870_1_alg».proof.Proof.KerHost
import Idealize.ShloMosaic.Lib.StableHlo.Run

set_option maxRecDepth 16384
set_option maxHeartbeats 4000000

noncomputable section

namespace Cert.KernelIdeal.Stretch6

open Idealize.ShloMosaic Idealize.ShloMosaic.TcCoe Idealize.SL.Sem Idealize.ShloMosaic.StableHlo
open Cert.KernelIdeal Cert.KernelIdeal.Gen Cert.KernelIdeal.KerHost

variable (W : Valuation τ sig (Elt Ideal))

theorem g_w1 : after (hostOps12 (F := Ideal)) W (Proc.devRef .tc main_v237)
    = matOf ![6, 0, 0] slices_S7x128x128_S1x128x128_6_0_0 (W (Proc.devRef .tc main_arg3)) := by
  after_results_simp; rfl

theorem g_b1 : after (hostOps12 (F := Ideal)) W (Proc.devRef .tc main_v248)
    = rowOf ![6, 0] slices_S7x128_S1x128_6_0 (W (Proc.devRef .tc main_arg4)) := by
  after_results_simp; rfl

theorem g_w2 : after (hostOps12 (F := Ideal)) W (Proc.devRef .tc main_v241)
    = matOf ![6, 0, 0] slices_S7x128x128_S1x128x128_6_0_0 (W (Proc.devRef .tc main_arg5)) := by
  after_results_simp; rfl

theorem g_b2 : after (hostOps12 (F := Ideal)) W (Proc.devRef .tc main_v249)
    = rowOf ![6, 0] slices_S7x128_S1x128_6_0 (W (Proc.devRef .tc main_arg6)) := by
  after_results_simp; rfl

theorem g_gam : after (hostOps12 (F := Ideal)) W (Proc.devRef .tc main_v245)
    = vecOf ![6, 0] slices_S7x128_S1x128_6_0 (W (Proc.devRef .tc main_arg7)) := by
  after_results_simp; rfl

theorem g_bet : after (hostOps12 (F := Ideal)) W (Proc.devRef .tc main_v247)
    = vecOf ![6, 0] slices_S7x128_S1x128_6_0 (W (Proc.devRef .tc main_arg8)) := by
  after_results_simp; rfl

theorem b_scale : after (hostOps13 (F := Ideal)) W (Proc.devRef .tc main_v265)
    = scaleK (W (Proc.devRef .tc main_v250_1)) (W (Proc.devRef .tc main_v250_2)) (W (Proc.devRef .tc main_v245)) := by
  after_results_simp; rfl

theorem b_shift : after (hostOps13 (F := Ideal)) W (Proc.devRef .tc main_v266)
    = shiftK (W (Proc.devRef .tc main_v250_1)) (W (Proc.devRef .tc main_v250_2)) (W (Proc.devRef .tc main_v245)) (W (Proc.devRef .tc main_v247)) := by
  after_results_simp; rfl

theorem b_h : after (hostOps13 (F := Ideal)) W (Proc.devRef .tc main_v250_0) = W (Proc.devRef .tc main_v250_0) := by
  after_results_simp

end Cert.KernelIdeal.Stretch6

end
-- ==== Proof.GinPieces12.lean ====
/-
  What each control case of layer 7's first kernel leaves in its three output staging buffers, as the body's stored
  values of the blocks it loaded.

  At the grid's first point (case A) the two running rows are first set to zero and then read back; at every later
  point (case B) they are read as the point before left them. In both cases the activation buffer is written once, by
  the activation of the loaded blocks, and each running row once more, by what it held plus the block's column sums
  (of the activation, and of its square). Every store covers its whole buffer, so the last store to a buffer is what
  the buffer holds; a load of a buffer after a covering store reads that store's value.
-/
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Gin12

open Cert.KernelIdeal Cert.KernelIdeal.Gen

/-! ## What each control case leaves in the three staging buffers, as the body's stored values -/

section Pieces
variable {F : FTy → Type} [FloatOps F]

theorem hz : (![0, 0] : Fin 2 → Nat) = fun _ => 0 := funext fun a => by fin_cases a <;> rfl

theorem outA6 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond12_0 i) (x0 x1 : Vec F S5000x128 .f32) (x2 : Vec F S128x128 .f32) (x3 : Vec F S1x128 .f32) (x4 : Vec F S128x128 .f32) (x5 : Vec F S1x128 .f32) :
    out12_A_6 c i a1 h1 a2 h2 a3 h3 a4 h4 a5 h5 a6 h6 a7 h7 a8 h8 a9 h9 hc x0 x1 x2 x3 x4 x5 = k12_pay4 x0 x1 x2 x3 x4 x5 := by
  unfold out12_A_6
  rw [View.read_writes_eq_canon _ _ _ (cover12_A_6 c i a1 h1 a2 h2 a3 h3 a4 h4 a5 h5 a6 h6 a7 h7 a8 h8 a9 h9 hc x0 x1 x2 x3 x4 x5)]
  unfold kernelRun12_A
  dsimp only
  try sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA7 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond12_0 i) (x0 x1 : Vec F S5000x128 .f32) (x2 : Vec F S128x128 .f32) (x3 : Vec F S1x128 .f32) (x4 : Vec F S128x128 .f32) (x5 : Vec F S1x128 .f32) :
    out12_A_7 c i a1 h1 a2 h2 a3 h3 a4 h4 a5 h5 a6 h6 a7 h7 a8 h8 a9 h9 hc x0 x1 x2 x3 x4 x5 = k12_pay5 x0 x1 x2 x3 x4 x5 k12_pay2 := by
  unfold out12_A_7
  rw [View.read_writes_eq_canon _ _ _ (cover12_A_7 c i a1 h1 a2 h2 a3 h3 a4 h4 a5 h5 a6 h6 a7 h7 a8 h8 a9 h9 hc x0 x1 x2 x3 x4 x5)]
  unfold kernelRun12_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outA8 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond12_0 i) (x0 x1 : Vec F S5000x128 .f32) (x2 : Vec F S128x128 .f32) (x3 : Vec F S1x128 .f32) (x4 : Vec F S128x128 .f32) (x5 : Vec F S1x128 .f32) :
    out12_A_8 c i a1 h1 a2 h2 a3 h3 a4 h4 a5 h5 a6 h6 a7 h7 a8 h8 a9 h9 hc x0 x1 x2 x3 x4 x5 = k12_pay1 (k12_pay4 x0 x1 x2 x3 x4 x5) k12_pay3 := by
  unfold out12_A_8
  rw [View.read_writes_eq_canon _ _ _ (cover12_A_8 c i a1 h1 a2 h2 a3 h3 a4 h4 a5 h5 a6 h6 a7 h7 a8 h8 a9 h9 hc x0 x1 x2 x3 x4 x5)]
  unfold kernelRun12_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

theorem outB6 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond12_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out12_B_6 c i a1 h1 a2 h2 a3 h3 a4 h4 a5 h5 a6 h6 a7 h7 a8 h8 a9 h9 hc x0 x1 x2 x3 x4 x5 xo7 xo8 = k12_pay4 x0 x1 x2 x3 x4 x5 := by
  unfold out12_B_6
  rw [View.read_writes_eq_canon _ _ _ (cover12_B_6 c i a1 h1 a2 h2 a3 h3 a4 h4 a5 h5 a6 h6 a7 h7 a8 h8 a9 h9 hc x0 x1 x2 x3 x4 x5 xo7 xo8)]
  unfold kernelRun12_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB7 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond12_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out12_B_7 c i a1 h1 a2 h2 a3 h3 a4 h4 a5 h5 a6 h6 a7 h7 a8 h8 a9 h9 hc x0 x1 x2 x3 x4 x5 xo7 xo8 = k12_pay5 x0 x1 x2 x3 x4 x5 xo7 := by
  unfold out12_B_7
  rw [View.read_writes_eq_canon _ _ _ (cover12_B_7 c i a1 h1 a2 h2 a3 h3 a4 h4 a5 h5 a6 h6 a7 h7 a8 h8 a9 h9 hc x0 x1 x2 x3 x4 x5 xo7 xo8)]
  unfold kernelRun12_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB8 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond12_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out12_B_8 c i a1 h1 a2 h2 a3 h3 a4 h4 a5 h5 a6 h6 a7 h7 a8 h8 a9 h9 hc x0 x1 x2 x3 x4 x5 xo7 xo8 = k12_pay1 (k12_pay4 x0 x1 x2 x3 x4 x5) xo8 := by
  unfold out12_B_8
  rw [View.read_writes_eq_canon _ _ _ (cover12_B_8 c i a1 h1 a2 h2 a3 h3 a4 h4 a5 h5 a6 h6 a7 h7 a8 h8 a9 h9 hc x0 x1 x2 x3 x4 x5 xo7 xo8)]
  unfold kernelRun12_B
  dsimp only
  try sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

end Pieces

end Cert.KernelIdeal.Gin12

end
-- ==== Proof.GinRegion12.lean ====
/-
  Layer 7's first kernel, as three whole-array functions of the six arrays it reads.

  The kernel runs over ten tiles of 5000 nodes. At tile t it loads rows 5000 t … 5000 t + 4999 of the node features x
  and of the aggregated neighbour features agg, and the whole of the two weight matrices and two bias rows; it stores
  the activation of those rows as tile t of the activation array, and adds the tile's column sums of the activation,
  and of its square, into two running rows that the first tile starts from zero and that are written back once, after
  the last tile. So at the end of the region

    the activation array at (n, q) is  act( Σ_k max( Σ_j (x(n,j) + agg(n,j)) · W1(j,k) + b1(0,k), 0 ) · W2(k,q) + b2(0,q) ),
    the sum array at (0, q) is the sum over all 50000 nodes n of the activation at (n, q),
    the sum-of-squares array at (0, q) is the sum over all nodes of its square,

  with act the hyperbolic tangent. The ten partial sums are regrouped into one sum over all nodes: addition of extended reals is
  commutative and associative, and the first tile's zero is the additive unit, so nothing needs to be finite.
-/
import proofs.«121838_j70282844831870_1_alg».proof.Proof.GinBody6
import proofs.«121838_j70282844831870_1_alg».proof.Proof.GinPieces12
import proofs.«121838_j70282844831870_1_alg».proof.Proof.LibSegmentLinear
import proofs.«121838_j70282844831870_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Gin12

open Cert.KernelIdeal Cert.KernelIdeal.Gen Cert.KernelIdeal.Gin Idealize.ShloMosaic.ValueIdx

section Value
variable (V : (c : Dev nD) → (b : Ref sig .tc) → Buf (Elt Ideal) ((c : Thread nD τ).loc b))

/-- The grid has ten points. -/
theorem hN : cfg12.N = 10 := N_12

/-- The printed index maps over the grid: the two row-tiled inputs and the activation output sit at row block t, and
    the four parameter inputs and the two statistics outputs at block zero. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = t.val ∧ win12_6.index t (1 : Fin 2) = 0
    ∧ win12_7.index t (0 : Fin 2) = 0 ∧ win12_7.index t (1 : Fin 2) = 0
    ∧ win12_8.index t (0 : Fin 2) = 0 ∧ win12_8.index t (1 : Fin 2) = 0 :=
  (by decide +kernel : ∀ t : Fin grid12.N, _)

/-- The layer's activation at node n and feature q, from the six arrays as the region finds them. -/
def hact (c : Dev nD) (n : Fin 50000) (q : Fin 128) : EReal :=
  Ideal.tanh (pre2 (fun j => (V c (Pipeline.arrRef spec12 0) : S50000x128.Idx → EReal) (ix2 n j))
    (fun j => (V c (Pipeline.arrRef spec12 1) : S50000x128.Idx → EReal) (ix2 n j))
    (V c (Pipeline.arrRef spec12 2)) (V c (Pipeline.arrRef spec12 3)) (V c (Pipeline.arrRef spec12 4)) (V c (Pipeline.arrRef spec12 5)) q)

/-- The same with the node a natural number (zero past the last node), the form the sums over tiles of nodes use. -/
def hactN (c : Dev nD) (n : ℕ) (q : Fin 128) : EReal := if h : n < 50000 then hact V c ⟨n, h⟩ q else 0

/-! ## The blocks the body loads, as rows of the arrays -/

/-- Row r of point t's block of a row-tiled input (the node features, the aggregated neighbour features) is row
    5000 t + r of the array. -/
theorem iblk_row0 (c : Dev nD) (t : Fin cfg12.N) (r : Fin 5000) (j : Fin 128) (h : t.val * 5000 + r.val < 50000) :
    (iblk12 V c 0 t : Vec Ideal S5000x128 .f32) (ix2 r j)
      = (V c (Pipeline.arrRef spec12 0) : S50000x128.Idx → EReal) (ix2 ⟨t.val * 5000 + r.val, h⟩ j) := by
  obtain ⟨e0, e1, -⟩ := idx_facts t
  unfold iblk12
  rw [View.read_apply]
  refine congrArg (V c (Pipeline.arrRef spec12 0) : S50000x128.Idx → EReal) (funext fun a => Fin.ext ?_)
  match a with
  | ⟨0, _⟩ => show win12_0.index t 0 * 5000 + 1 * r.val = t.val * 5000 + r.val; rw [e0]; omega
  | ⟨1, _⟩ => show win12_0.index t 1 * 128 + 1 * j.val = j.val; rw [e1]; omega

theorem iblk_row1 (c : Dev nD) (t : Fin cfg12.N) (r : Fin 5000) (j : Fin 128) (h : t.val * 5000 + r.val < 50000) :
    (iblk12 V c 1 t : Vec Ideal S5000x128 .f32) (ix2 r j)
      = (V c (Pipeline.arrRef spec12 1) : S50000x128.Idx → EReal) (ix2 ⟨t.val * 5000 + r.val, h⟩ j) := by
  obtain ⟨-, -, e0, e1, -⟩ := idx_facts t
  unfold iblk12
  rw [View.read_apply]
  refine congrArg (V c (Pipeline.arrRef spec12 1) : S50000x128.Idx → EReal) (funext fun a => Fin.ext ?_)
  match a with
  | ⟨0, _⟩ => show win12_1.index t 0 * 5000 + 1 * r.val = t.val * 5000 + r.val; rw [e0]; omega
  | ⟨1, _⟩ => show win12_1.index t 1 * 128 + 1 * j.val = j.val; rw [e1]; omega

/-- A parameter input's block is the whole array at every point. -/
theorem iblk_2 (c : Dev nD) (t : Fin cfg12.N) : (iblk12 V c 2 t : Vec Ideal S128x128 .f32) = V c (Pipeline.arrRef spec12 2) := by
  obtain ⟨-, -, -, -, e0, e1, -⟩ := idx_facts t
  funext y
  unfold iblk12
  rw [View.read_apply]
  refine congrArg (V c (Pipeline.arrRef spec12 2) : S128x128.Idx → EReal) (funext fun a => Fin.ext ?_)
  match a with
  | ⟨0, _⟩ => show win12_2.index t 0 * 128 + 1 * (y 0).val = (y 0).val; rw [e0]; omega
  | ⟨1, _⟩ => show win12_2.index t 1 * 128 + 1 * (y 1).val = (y 1).val; rw [e1]; omega

theorem iblk_3 (c : Dev nD) (t : Fin cfg12.N) : (iblk12 V c 3 t : Vec Ideal S1x128 .f32) = V c (Pipeline.arrRef spec12 3) := by
  obtain ⟨-, -, -, -, -, -, e0, e1, -⟩ := idx_facts t
  funext y
  unfold iblk12
  rw [View.read_apply]
  refine congrArg (V c (Pipeline.arrRef spec12 3) : S1x128.Idx → EReal) (funext fun a => Fin.ext ?_)
  match a with
  | ⟨0, _⟩ => show win12_3.index t 0 * 1 + 1 * (y 0).val = (y 0).val; rw [e0]; omega
  | ⟨1, _⟩ => show win12_3.index t 1 * 128 + 1 * (y 1).val = (y 1).val; rw [e1]; omega

theorem iblk_4 (c : Dev nD) (t : Fin cfg12.N) : (iblk12 V c 4 t : Vec Ideal S128x128 .f32) = V c (Pipeline.arrRef spec12 4) := by
  obtain ⟨-, -, -, -, -, -, -, -, e0, e1, -⟩ := idx_facts t
  funext y
  unfold iblk12
  rw [View.read_apply]
  refine congrArg (V c (Pipeline.arrRef spec12 4) : S128x128.Idx → EReal) (funext fun a => Fin.ext ?_)
  match a with
  | ⟨0, _⟩ => show win12_4.index t 0 * 128 + 1 * (y 0).val = (y 0).val; rw [e0]; omega
  | ⟨1, _⟩ => show win12_4.index t 1 * 128 + 1 * (y 1).val = (y 1).val; rw [e1]; omega

theorem iblk_5 (c : Dev nD) (t : Fin cfg12.N) : (iblk12 V c 5 t : Vec Ideal S1x128 .f32) = V c (Pipeline.arrRef spec12 5) := by
  obtain ⟨-, -, -, -, -, -, -, -, -, -, e0, e1, -⟩ := idx_facts t
  funext y
  unfold iblk12
  rw [View.read_apply]
  refine congrArg (V c (Pipeline.arrRef spec12 5) : S1x128.Idx → EReal) (funext fun a => Fin.ext ?_)
  match a with
  | ⟨0, _⟩ => show win12_5.index t 0 * 1 + 1 * (y 0).val = (y 0).val; rw [e0]; omega
  | ⟨1, _⟩ => show win12_5.index t 1 * 128 + 1 * (y 1).val = (y 1).val; rw [e1]; omega

/-- The activation the body computes from point t's blocks, at row r: the layer's activation at node 5000 t + r. -/
theorem blk_act (c : Dev nD) (t : Fin cfg12.N) (r : Fin 5000) (q : Fin 128) :
    k12_pay4 (F := Ideal) (iblk12 V c 0 t) (iblk12 V c 1 t) (iblk12 V c 2 t) (iblk12 V c 3 t) (iblk12 V c 4 t) (iblk12 V c 5 t) (ix2 r q) = hactN V c (t.val * 5000 + r.val) q := by
  have ht : t.val < 10 := lt_of_lt_of_eq t.isLt hN
  have h : t.val * 5000 + r.val < 50000 := by have := r.isLt; omega
  refine (k12_pay4_apply (iblk12 V c 0 t) (iblk12 V c 1 t) (iblk12 V c 2 t) (iblk12 V c 3 t) (iblk12 V c 4 t) (iblk12 V c 5 t) r q).trans ?_
  have e0 : (fun j => (iblk12 V c 0 t : Vec Ideal S5000x128 .f32) (ix2 r j)) = fun j => (V c (Pipeline.arrRef spec12 0) : S50000x128.Idx → EReal) (ix2 ⟨t.val * 5000 + r.val, h⟩ j) :=
    funext fun j => iblk_row0 V c t r j h
  have e1 : (fun j => (iblk12 V c 1 t : Vec Ideal S5000x128 .f32) (ix2 r j)) = fun j => (V c (Pipeline.arrRef spec12 1) : S50000x128.Idx → EReal) (ix2 ⟨t.val * 5000 + r.val, h⟩ j) :=
    funext fun j => iblk_row1 V c t r j h
  rw [e0, e1, iblk_2 V c t, iblk_3 V c t, iblk_4 V c t, iblk_5 V c t]
  unfold hactN
  rw [dif_pos h]
  rfl

/-! ## The staging buffers after each point -/

/-- What the three staging buffers hold after the first point, as the body's stored values of the point's blocks. -/
theorem outs_A (c : Dev nD) (t : Fin cfg12.N) (h0 : t.val % 10 = 0) :
    outsAt12 V c t.val t.isLt = (k12_pay4 (F := Ideal) (iblk12 V c 0 t) (iblk12 V c 1 t) (iblk12 V c 2 t) (iblk12 V c 3 t) (iblk12 V c 4 t) (iblk12 V c 5 t), k12_pay5 (iblk12 V c 0 t) (iblk12 V c 1 t) (iblk12 V c 2 t) (iblk12 V c 3 t) (iblk12 V c 4 t) (iblk12 V c 5 t) (k12_pay2 (F := Ideal)), k12_pay1 (k12_pay4 (iblk12 V c 0 t) (iblk12 V c 1 t) (iblk12 V c 2 t) (iblk12 V c 3 t) (iblk12 V c 4 t) (iblk12 V c 5 t)) (k12_pay3 (F := Ideal))) :=
  (outsAt12_A V c t h0).trans (congrArg₂ Prod.mk
    (outA6 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (ms12_8 t) (hs12_8 t) ((hcond12_0 t).mpr h0) (iblk12 V c 0 t) (iblk12 V c 1 t) (iblk12 V c 2 t) (iblk12 V c 3 t) (iblk12 V c 4 t) (iblk12 V c 5 t))
    (congrArg₂ Prod.mk
      (outA7 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (ms12_8 t) (hs12_8 t) ((hcond12_0 t).mpr h0) (iblk12 V c 0 t) (iblk12 V c 1 t) (iblk12 V c 2 t) (iblk12 V c 3 t) (iblk12 V c 4 t) (iblk12 V c 5 t))
      (outA8 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (ms12_8 t) (hs12_8 t) ((hcond12_0 t).mpr h0) (iblk12 V c 0 t) (iblk12 V c 1 t) (iblk12 V c 2 t) (iblk12 V c 3 t) (iblk12 V c 4 t) (iblk12 V c 5 t))))

/-- What they hold after a later point, over what the point before left in the two running rows. -/
theorem outs_B (c : Dev nD) (t : Fin cfg12.N) (h0 : ¬t.val % 10 = 0) :
    outsAt12 V c t.val t.isLt = (k12_pay4 (F := Ideal) (iblk12 V c 0 t) (iblk12 V c 1 t) (iblk12 V c 2 t) (iblk12 V c 3 t) (iblk12 V c 4 t) (iblk12 V c 5 t), k12_pay5 (iblk12 V c 0 t) (iblk12 V c 1 t) (iblk12 V c 2 t) (iblk12 V c 3 t) (iblk12 V c 4 t) (iblk12 V c 5 t) (outsAt12 V c (t.val - 1) (Nat.lt_of_le_of_lt (Nat.sub_le _ _) t.isLt)).2.1, k12_pay1 (k12_pay4 (iblk12 V c 0 t) (iblk12 V c 1 t) (iblk12 V c 2 t) (iblk12 V c 3 t) (iblk12 V c 4 t) (iblk12 V c 5 t)) (outsAt12 V c (t.val - 1) (Nat.lt_of_le_of_lt (Nat.sub_le _ _) t.isLt)).2.2) :=
  (outsAt12_B V c t h0).trans (congrArg₂ Prod.mk
    (outB6 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (ms12_8 t) (hs12_8 t) (fun h => h0 ((hcond12_0 t).mp h)) (iblk12 V c 0 t) (iblk12 V c 1 t) (iblk12 V c 2 t) (iblk12 V c 3 t) (iblk12 V c 4 t) (iblk12 V c 5 t) (outsAt12 V c (t.val - 1) (Nat.lt_of_le_of_lt (Nat.sub_le _ _) t.isLt)).2.1 (outsAt12 V c (t.val - 1) (Nat.lt_of_le_of_lt (Nat.sub_le _ _) t.isLt)).2.2)
    (congrArg₂ Prod.mk
      (outB7 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (ms12_8 t) (hs12_8 t) (fun h => h0 ((hcond12_0 t).mp h)) (iblk12 V c 0 t) (iblk12 V c 1 t) (iblk12 V c 2 t) (iblk12 V c 3 t) (iblk12 V c 4 t) (iblk12 V c 5 t) (outsAt12 V c (t.val - 1) (Nat.lt_of_le_of_lt (Nat.sub_le _ _) t.isLt)).2.1 (outsAt12 V c (t.val - 1) (Nat.lt_of_le_of_lt (Nat.sub_le _ _) t.isLt)).2.2)
      (outB8 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (ms12_8 t) (hs12_8 t) (fun h => h0 ((hcond12_0 t).mp h)) (iblk12 V c 0 t) (iblk12 V c 1 t) (iblk12 V c 2 t) (iblk12 V c 3 t) (iblk12 V c 4 t) (iblk12 V c 5 t) (outsAt12 V c (t.val - 1) (Nat.lt_of_le_of_lt (Nat.sub_le _ _) t.isLt)).2.1 (outsAt12 V c (t.val - 1) (Nat.lt_of_le_of_lt (Nat.sub_le _ _) t.isLt)).2.2)))

/-- After point n the three staging buffers hold: the activation of point n's rows; the sums over the nodes of the
    tiles 0 … n of the activation; and of its square. -/
def Inv (c : Dev nD) (n : ℕ) (hn : n < cfg12.N) : Prop :=
  (outsAt12 V c n hn).1 = k12_pay4 (F := Ideal) (iblk12 V c 0 ⟨n, hn⟩) (iblk12 V c 1 ⟨n, hn⟩) (iblk12 V c 2 ⟨n, hn⟩) (iblk12 V c 3 ⟨n, hn⟩) (iblk12 V c 4 ⟨n, hn⟩) (iblk12 V c 5 ⟨n, hn⟩)
  ∧ (∀ (u : Fin 1) (q : Fin 128), (outsAt12 V c n hn).2.1 (ix2 u q)
      = ∑ s ∈ Finset.range (n + 1), ∑ r : Fin 5000, hactN V c (s * 5000 + r.val) q)
  ∧ (∀ (u : Fin 1) (q : Fin 128), (outsAt12 V c n hn).2.2 (ix2 u q)
      = ∑ s ∈ Finset.range (n + 1), ∑ r : Fin 5000, hactN V c (s * 5000 + r.val) q * hactN V c (s * 5000 + r.val) q)

/-- It holds at every point: at the first the running rows start from the zero the point stores, and each later point
    adds its tile's column sums to what the point before left. -/
theorem inv (c : Dev nD) : ∀ (n : ℕ) (hn : n < cfg12.N), Inv V c n hn
  | 0, hn => by
    have e : outsAt12 V c 0 hn = _ := outs_A V c ⟨0, hn⟩ (Nat.zero_mod _)
    have hb : ∀ (r : Fin 5000) (q : Fin 128), k12_pay4 (F := Ideal) (iblk12 V c 0 ⟨0, hn⟩) (iblk12 V c 1 ⟨0, hn⟩) (iblk12 V c 2 ⟨0, hn⟩) (iblk12 V c 3 ⟨0, hn⟩) (iblk12 V c 4 ⟨0, hn⟩) (iblk12 V c 5 ⟨0, hn⟩) (ix2 r q) = hactN V c (0 * 5000 + r.val) q :=
      fun r q => blk_act V c ⟨0, hn⟩ r q
    unfold Inv
    rw [e]
    dsimp only
    refine ⟨rfl, fun u q => ?_, fun u q => ?_⟩
    · rw [k12_pay5_apply (iblk12 V c 0 ⟨0, hn⟩) (iblk12 V c 1 ⟨0, hn⟩) (iblk12 V c 2 ⟨0, hn⟩) (iblk12 V c 3 ⟨0, hn⟩) (iblk12 V c 4 ⟨0, hn⟩) (iblk12 V c 5 ⟨0, hn⟩) _ u q, k12_pay2_apply, zero_add]
      rw [Finset.sum_range_one]
      exact Finset.sum_congr rfl fun r _ => hb r q
    · rw [k12_pay1_apply (k12_pay4 (iblk12 V c 0 ⟨0, hn⟩) (iblk12 V c 1 ⟨0, hn⟩) (iblk12 V c 2 ⟨0, hn⟩) (iblk12 V c 3 ⟨0, hn⟩) (iblk12 V c 4 ⟨0, hn⟩) (iblk12 V c 5 ⟨0, hn⟩)) _ u q, k12_pay3_apply, zero_add]
      rw [Finset.sum_range_one]
      exact Finset.sum_congr rfl fun r _ => by rw [hb r q]
  | n + 1, hn => by
    obtain ⟨-, ih7, ih8⟩ := inv c n (Nat.lt_of_succ_lt hn)
    have hB : ¬(⟨n + 1, hn⟩ : Fin cfg12.N).val % 10 = 0 := by have := hN; dsimp only; omega
    have e : outsAt12 V c (n + 1) hn = _ := outs_B V c ⟨n + 1, hn⟩ hB
    have hb : ∀ (r : Fin 5000) (q : Fin 128), k12_pay4 (F := Ideal) (iblk12 V c 0 ⟨n + 1, hn⟩) (iblk12 V c 1 ⟨n + 1, hn⟩) (iblk12 V c 2 ⟨n + 1, hn⟩) (iblk12 V c 3 ⟨n + 1, hn⟩) (iblk12 V c 4 ⟨n + 1, hn⟩) (iblk12 V c 5 ⟨n + 1, hn⟩) (ix2 r q) = hactN V c ((n + 1) * 5000 + r.val) q :=
      fun r q => blk_act V c ⟨n + 1, hn⟩ r q
    unfold Inv
    rw [e]
    dsimp only
    refine ⟨rfl, fun u q => ?_, fun u q => ?_⟩
    · rw [k12_pay5_apply (iblk12 V c 0 ⟨n + 1, hn⟩) (iblk12 V c 1 ⟨n + 1, hn⟩) (iblk12 V c 2 ⟨n + 1, hn⟩) (iblk12 V c 3 ⟨n + 1, hn⟩) (iblk12 V c 4 ⟨n + 1, hn⟩) (iblk12 V c 5 ⟨n + 1, hn⟩) _ u q]
      rw [Finset.sum_range_succ]
      exact congrArg₂ (· + ·) (ih7 u q) (Finset.sum_congr rfl fun r _ => hb r q)
    · rw [k12_pay1_apply (k12_pay4 (iblk12 V c 0 ⟨n + 1, hn⟩) (iblk12 V c 1 ⟨n + 1, hn⟩) (iblk12 V c 2 ⟨n + 1, hn⟩) (iblk12 V c 3 ⟨n + 1, hn⟩) (iblk12 V c 4 ⟨n + 1, hn⟩) (iblk12 V c 5 ⟨n + 1, hn⟩)) _ u q]
      rw [Finset.sum_range_succ]
      exact congrArg₂ (· + ·) (ih8 u q) (Finset.sum_congr rfl fun r _ => by rw [hb r q])

/-! ## From the staging buffers to the arrays -/

/-- The ten tiles of 5000 nodes are all 50000 nodes. -/
theorem sum_tiles (f : ℕ → EReal) : ∑ s ∈ Finset.range 10, ∑ r : Fin 5000, f (s * 5000 + r.val) = ∑ n : Fin 50000, f n.val := by
  rw [Finset.sum_range]
  exact Cert.SegmentLinear.sum_blocks 10 5000 f

/-- The activation array: the layer's activation at every node and feature. -/
def G6 (c : Dev nD) : S50000x128.Idx → EReal := fun i => hactN V c (i 0).val (i 1)
/-- The sum array: per feature, the sum over all nodes of the activation. -/
def G7 (c : Dev nD) : S1x128.Idx → EReal := fun j => ∑ n : Fin 50000, hactN V c n.val (j 1)
/-- The sum-of-squares array: per feature, the sum over all nodes of the squared activation. -/
def G8 (c : Dev nD) : S1x128.Idx → EReal := fun j => ∑ n : Fin 50000, hactN V c n.val (j 1) * hactN V c n.val (j 1)

-- the two sums are never opened by unfolding: they are compared as they stand
attribute [local irreducible] G7 G8

/-- Tile t of the activation array, at row r: the activation at node 5000 t + r. -/
theorem G6_blk (c : Dev nD) (t : Fin cfg12.N) (r : Fin 5000) (q : Fin 128) :
    (((cfg12.win 6).blk t).view.read (Elt Ideal) (G6 V c) : Vec Ideal S5000x128 .f32) (ix2 r q)
      = hactN V c (t.val * 5000 + r.val) q := by
  obtain ⟨-, -, -, -, -, -, -, -, -, -, -, -, e0, e1, -⟩ := idx_facts t
  have ht : t.val < 10 := lt_of_lt_of_eq t.isLt hN
  have h : t.val * 5000 + r.val < 50000 := by have := r.isLt; omega
  have he : ((cfg12.win 6).blk t).view.emb (ix2 r q) = (ix2 ⟨t.val * 5000 + r.val, h⟩ q : S50000x128.Idx) :=
    funext fun a => Fin.ext (by
      match a with
      | ⟨0, _⟩ => show win12_6.index t 0 * 5000 + 1 * r.val = t.val * 5000 + r.val; rw [e0]; omega
      | ⟨1, _⟩ => show win12_6.index t 1 * 128 + 1 * q.val = q.val; rw [e1]; omega)
  show G6 V c (((cfg12.win 6).blk t).view.emb (ix2 r q)) = _
  rw [he]
  rfl

/-- Every point writes back its tile of the activation array. -/
theorem flushed6 (c : Dev nD) (t : Fin cfg12.N) :
    (dat12 V c).flushed 6 t = ((cfg12.win 6).blk t).view.read (Elt Ideal) (G6 V c) := by
  show (cfg12.win 6).cut (grid12.coords t) ((dat12 V c).after 6 t) = _
  rw [after12_6, (inv V c t.val t.isLt).1]
  funext y
  obtain ⟨r, q, rfl⟩ : ∃ (r : Fin 5000) (q : Fin 128), y = ix2 r q := ⟨y 0, y 1, eq_ix2 y⟩
  refine Eq.trans ?_ (G6_blk V c t r q).symm
  exact blk_act V c t r q

/-- An index of the activation array is in point t's block iff each coordinate is in the block's range on its axis. -/
theorem mem_blk6 (t : Fin cfg12.N) (i : S50000x128.Idx) :
    i ∈ ((cfg12.win 6).blk t).view.set ↔ ∀ a : Fin 2, win12_6.index t a * S5000x128.size a ≤ (i a).val ∧ (i a).val < win12_6.index t a * S5000x128.size a + S5000x128.size a := by
  show i ∈ ((View.whole (Pipeline.arrRef spec12 6)).slice (win12_6.rect t)).set ↔ _
  rw [View.set_slice_whole, Rect.mem_set_unit]
  exact Iff.rfl

/-- The activation array at the end of the region. -/
theorem arr6 (c : Dev nD) : (dat12 V c).arrAt 6 cfg12.N = G6 V c :=
  (dat12 V c).arrAt_eq_of_cover 6 (G6 V c) (fun t _ => flushed6 V c t) fun i => by
    have h0 : (i 0).val < 50000 := (i 0).isLt
    have h1 : (i 1).val < 128 := (i 1).isLt
    have hN' := hN
    refine ⟨⟨(i 0).val / 5000, by rw [hN']; omega⟩, flush12_6 _, ?_⟩
    obtain ⟨-, -, -, -, -, -, -, -, -, -, -, -, e0, e1, -⟩ := idx_facts ⟨(i 0).val / 5000, by rw [hN']; omega⟩
    rw [mem_blk6]
    intro a
    match a with
    | ⟨0, _⟩ => show win12_6.index _ 0 * 5000 ≤ (i 0).val ∧ (i 0).val < win12_6.index _ 0 * 5000 + 5000; rw [e0]; dsimp only; omega
    | ⟨1, _⟩ => show win12_6.index _ 1 * 128 ≤ (i 1).val ∧ (i 1).val < win12_6.index _ 1 * 128 + 128; rw [e1]; omega

/-- The one block of window 7's array (the whole array), read at feature q. -/
theorem G7_blk (c : Dev nD) (t : Fin cfg12.N) (u : Fin 1) (q : Fin 128) :
    (((cfg12.win 7).blk t).view.read (Elt Ideal) (G7 V c) : Vec Ideal S1x128 .f32) (ix2 u q)
      = ∑ n : Fin 50000, hactN V c n.val q := by
  obtain ⟨-, -, -, -, -, -, -, -, -, -, -, -, -, -, e0, e1, -⟩ := idx_facts t
  have he : ((cfg12.win 7).blk t).view.emb (ix2 u q) = (ix2 u q : S1x128.Idx) :=
    funext fun a => Fin.ext (by
      match a with
      | ⟨0, _⟩ => show win12_7.index t 0 * 1 + 1 * u.val = u.val; rw [e0]; omega
      | ⟨1, _⟩ => show win12_7.index t 1 * 128 + 1 * q.val = q.val; rw [e1]; omega)
  show G7 V c (((cfg12.win 7).blk t).view.emb (ix2 u q)) = _
  rw [he]
  unfold G7
  exact Finset.sum_congr rfl fun n _ => rfl

/-- The one write-back of window 7, after the last point, writes the sums over all ten tiles. -/
theorem flushed7 (c : Dev nD) (t : Fin cfg12.N) (hf : (cfg12.win 7).flush t = true) :
    (dat12 V c).flushed 7 t = ((cfg12.win 7).blk t).view.read (Elt Ideal) (G7 V c) := by
  have hN' := hN
  have h9 : t.val = 9 := by have := (flush12_7 t).mp hf; have := t.isLt; omega
  show (cfg12.win 7).cut (grid12.coords t) ((dat12 V c).after 7 t) = _
  rw [after12_7]
  funext y
  obtain ⟨u, q, rfl⟩ : ∃ (u : Fin 1) (q : Fin 128), y = ix2 u q := ⟨y 0, y 1, eq_ix2 y⟩
  refine Eq.trans ?_ (G7_blk V c t u q).symm
  refine Eq.trans ((inv V c t.val t.isLt).2.1 u q) ?_
  rw [h9]
  exact sum_tiles (fun n => hactN V c n q)

/-- An index of window 7's array is in point t's block iff each coordinate is in the block's range on its axis. -/
theorem mem_blk7 (t : Fin cfg12.N) (i : S1x128.Idx) :
    i ∈ ((cfg12.win 7).blk t).view.set ↔ ∀ a : Fin 2, win12_7.index t a * S1x128.size a ≤ (i a).val ∧ (i a).val < win12_7.index t a * S1x128.size a + S1x128.size a := by
  show i ∈ ((View.whole (Pipeline.arrRef spec12 7)).slice (win12_7.rect t)).set ↔ _
  rw [View.set_slice_whole, Rect.mem_set_unit]
  exact Iff.rfl

/-- Window 7's array at the end of the region. -/
theorem arr7 (c : Dev nD) : (dat12 V c).arrAt 7 cfg12.N = G7 V c :=
  (dat12 V c).arrAt_eq_of_cover 7 (G7 V c) (fun t hf => flushed7 V c t hf) fun i => by
    have h0 : (i 0).val < 1 := (i 0).isLt
    have h1 : (i 1).val < 128 := (i 1).isLt
    have hN' := hN
    refine ⟨⟨9, by rw [hN']; omega⟩, (flush12_7 _).mpr rfl, ?_⟩
    obtain ⟨-, -, -, -, -, -, -, -, -, -, -, -, -, -, e0, e1, -⟩ := idx_facts ⟨9, by rw [hN']; omega⟩
    rw [mem_blk7]
    intro a
    match a with
    | ⟨0, _⟩ => show win12_7.index _ 0 * 1 ≤ (i 0).val ∧ (i 0).val < win12_7.index _ 0 * 1 + 1; rw [e0]; omega
    | ⟨1, _⟩ => show win12_7.index _ 1 * 128 ≤ (i 1).val ∧ (i 1).val < win12_7.index _ 1 * 128 + 128; rw [e1]; omega

/-- The one block of window 8's array (the whole array), read at feature q. -/
theorem G8_blk (c : Dev nD) (t : Fin cfg12.N) (u : Fin 1) (q : Fin 128) :
    (((cfg12.win 8).blk t).view.read (Elt Ideal) (G8 V c) : Vec Ideal S1x128 .f32) (ix2 u q)
      = ∑ n : Fin 50000, hactN V c n.val q * hactN V c n.val q := by
  obtain ⟨-, -, -, -, -, -, -, -, -, -, -, -, -, -, -, -, e0, e1⟩ := idx_facts t
  have he : ((cfg12.win 8).blk t).view.emb (ix2 u q) = (ix2 u q : S1x128.Idx) :=
    funext fun a => Fin.ext (by
      match a with
      | ⟨0, _⟩ => show win12_8.index t 0 * 1 + 1 * u.val = u.val; rw [e0]; omega
      | ⟨1, _⟩ => show win12_8.index t 1 * 128 + 1 * q.val = q.val; rw [e1]; omega)
  show G8 V c (((cfg12.win 8).blk t).view.emb (ix2 u q)) = _
  rw [he]
  unfold G8
  exact Finset.sum_congr rfl fun n _ => rfl

/-- The one write-back of window 8, after the last point, writes the sums over all ten tiles. -/
theorem flushed8 (c : Dev nD) (t : Fin cfg12.N) (hf : (cfg12.win 8).flush t = true) :
    (dat12 V c).flushed 8 t = ((cfg12.win 8).blk t).view.read (Elt Ideal) (G8 V c) := by
  have hN' := hN
  have h9 : t.val = 9 := by have := (flush12_8 t).mp hf; have := t.isLt; omega
  show (cfg12.win 8).cut (grid12.coords t) ((dat12 V c).after 8 t) = _
  rw [after12_8]
  funext y
  obtain ⟨u, q, rfl⟩ : ∃ (u : Fin 1) (q : Fin 128), y = ix2 u q := ⟨y 0, y 1, eq_ix2 y⟩
  refine Eq.trans ?_ (G8_blk V c t u q).symm
  refine Eq.trans ((inv V c t.val t.isLt).2.2 u q) ?_
  rw [h9]
  exact sum_tiles (fun n => hactN V c n q * hactN V c n q)

/-- An index of window 8's array is in point t's block iff each coordinate is in the block's range on its axis. -/
theorem mem_blk8 (t : Fin cfg12.N) (i : S1x128.Idx) :
    i ∈ ((cfg12.win 8).blk t).view.set ↔ ∀ a : Fin 2, win12_8.index t a * S1x128.size a ≤ (i a).val ∧ (i a).val < win12_8.index t a * S1x128.size a + S1x128.size a := by
  show i ∈ ((View.whole (Pipeline.arrRef spec12 8)).slice (win12_8.rect t)).set ↔ _
  rw [View.set_slice_whole, Rect.mem_set_unit]
  exact Iff.rfl

/-- Window 8's array at the end of the region. -/
theorem arr8 (c : Dev nD) : (dat12 V c).arrAt 8 cfg12.N = G8 V c :=
  (dat12 V c).arrAt_eq_of_cover 8 (G8 V c) (fun t hf => flushed8 V c t hf) fun i => by
    have h0 : (i 0).val < 1 := (i 0).isLt
    have h1 : (i 1).val < 128 := (i 1).isLt
    have hN' := hN
    refine ⟨⟨9, by rw [hN']; omega⟩, (flush12_8 _).mpr rfl, ?_⟩
    obtain ⟨-, -, -, -, -, -, -, -, -, -, -, -, -, -, -, -, e0, e1⟩ := idx_facts ⟨9, by rw [hN']; omega⟩
    rw [mem_blk8]
    intro a
    match a with
    | ⟨0, _⟩ => show win12_8.index _ 0 * 1 ≤ (i 0).val ∧ (i 0).val < win12_8.index _ 0 * 1 + 1; rw [e0]; omega
    | ⟨1, _⟩ => show win12_8.index _ 1 * 128 ≤ (i 1).val ∧ (i 1).val < win12_8.index _ 1 * 128 + 128; rw [e1]; omega

/-! ## The three arrays by the activation at a node of the node range -/

theorem G6_apply (c : Dev nD) (n : Fin 50000) (q : Fin 128) : G6 V c (ix2 n q) = hact V c n q := by
  unfold G6 hactN
  exact dif_pos n.isLt
theorem G7_apply (c : Dev nD) (u : Fin 1) (q : Fin 128) : G7 V c (ix2 u q) = ∑ n : Fin 50000, hact V c n q := by
  unfold G7 hactN
  exact Finset.sum_congr rfl fun n _ => dif_pos n.isLt
theorem G8_apply (c : Dev nD) (u : Fin 1) (q : Fin 128) : G8 V c (ix2 u q) = ∑ n : Fin 50000, hact V c n q * hact V c n q := by
  unfold G8 hactN
  exact Finset.sum_congr rfl fun n _ => by rw [dif_pos n.isLt]

end Value

end Cert.KernelIdeal.Gin12

end
-- ==== Proof.BnRegion13.lean ====
/-
  The normalisation kernel of region 13: a grid of ten row tiles of 5000 rows; each point loads its tile of `h`
  (5000 × 128) and the two row vectors `s`, `t` (1 × 128, the same block at every point) and stores `h · s + t`, the row
  vectors repeated down the rows. The ten tiles partition the 50000 rows, so the output array ends holding, at row `r`
  and column `q`, `h (r, q) · s (0, q) + t (0, q)` of the arrays as the region finds them.
-/
import proofs.«121838_j70282844831870_1_alg».proof.Proof.Gen.KernelIdeal.Frame
import Idealize.ShloMosaic.Lib.Pipeline.Value
import Idealize.ShloMosaic.Lib.ValueIdx

set_option maxRecDepth 16384

noncomputable section

namespace Cert.KernelIdeal.Bn13

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of an index of the tall array, as an index of a row vector. -/
abbrev col {n : Nat} (i : (⟨2, ![n, 128]⟩ : Shape).Idx) : S1x128.Idx := ix2 (0 : Fin 1) (⟨(i 1).val, idx2_lt1 i⟩ : Fin 128)

/-- An array of extended reals read at an index (the element type spelt out). -/
abbrev rd {S : Shape} (f : S.Idx → EReal) (i : S.Idx) : EReal := f i

/-- The normalised array: `h · s + t` with the row vectors repeated down the rows. -/
def G (h : S50000x128.Idx → EReal) (s t : S1x128.Idx → EReal) : S50000x128.Idx → EReal :=
  fun i => h i * s (col i) + t (col i)

/-- A row vector repeated down 5000 rows, read at an index, is the vector at the index's column. -/
theorem bcast_apply (x : S1x128.Idx → EReal) (j : S5000x128.Idx) :
    broadcastTo S5000x128 x broadcasts_S1x128_S5000x128 j = x (col j) :=
  broadcastTo_apply x broadcasts_S1x128_S5000x128 j (col j) fun a => by
    match a with
    | ⟨0, _⟩ => rfl
    | ⟨1, _⟩ => rfl

/-- The body's one payload at an index of the tile. -/
theorem pay_apply (x0 : Vec Ideal S5000x128 .f32) (x1 x2 : Vec Ideal S1x128 .f32) (j : S5000x128.Idx) :
    k13_pay1 (F := Ideal) x0 x1 x2 j = x0 j * x1 (col j) + x2 (col j) := by
  unfold k13_pay1
  simp only [shapeCast_self]
  show x0 j * broadcastTo S5000x128 x1 broadcasts_S1x128_S5000x128 j + broadcastTo S5000x128 x2 broadcasts_S1x128_S5000x128 j = _
  rw [bcast_apply, bcast_apply]

/-- The printed index maps over the grid: the tile of point `t` starts at row block `t`, the row vectors' block is the
    first at every point. -/
theorem idx_facts : ∀ t : Fin cfg13.N, win13_0.index t (0 : Fin 2) = win13_3.index t (0 : Fin 2)
    ∧ win13_0.index t (1 : Fin 2) = 0 ∧ win13_3.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val :=
  (by decide +kernel : ∀ t : Fin grid13.N, _)

/-- What point `t` writes back is tile `t` of `G` of the arrays as the region finds them. -/
theorem flushed_eq (c : Dev nD) (t : Fin cfg13.N) :
    (dat13 (F := Ideal) V c).flushed 3 t
      = ((cfg13.win 3).blk t).view.read (Elt Ideal) (G (V c main_v250_0) (V c main_v265) (V c main_v266)) := by
  show (cfg13.win 3).cut (grid13.coords t) ((dat13 V c).after 3 t) = _
  rw [after13_3]
  unfold out13_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_apply _ _ _ j).trans ?_
  show rd (S := S50000x128) (V c main_v250_0) (((cfg13.win 0).blk t).view.emb j)
        * rd (S := S1x128) (V c main_v265) (((cfg13.win 1).blk t).view.emb (col j))
      + rd (S := S1x128) (V c main_v266) (((cfg13.win 2).blk t).view.emb (col j))
    = rd (S := S50000x128) (V c main_v250_0) (((cfg13.win 3).blk t).view.emb j)
        * rd (S := S1x128) (V c main_v265) (col (((cfg13.win 3).blk t).view.emb j))
      + rd (S := S1x128) (V c main_v266) (col (((cfg13.win 3).blk t).view.emb j))
  have h0 : ((cfg13.win 0).blk t).view.emb j = ((cfg13.win 3).blk t).view.emb j := by
    funext a; apply Fin.ext
    match a with
    | ⟨0, _⟩ => show win13_0.index t (0 : Fin 2) * 5000 + 1 * (j 0).val = win13_3.index t (0 : Fin 2) * 5000 + 1 * (j 0).val; omega
    | ⟨1, _⟩ => show win13_0.index t (1 : Fin 2) * 128 + 1 * (j 1).val = win13_3.index t (1 : Fin 2) * 128 + 1 * (j 1).val; omega
  have h1 : ((cfg13.win 1).blk t).view.emb (col j) = col (((cfg13.win 3).blk t).view.emb j) := by
    funext a; apply Fin.ext
    match a with
    | ⟨0, _⟩ => show win13_1.index t (0 : Fin 2) * 1 + 1 * 0 = 0; omega
    | ⟨1, _⟩ => show win13_1.index t (1 : Fin 2) * 128 + 1 * (j 1).val = win13_3.index t (1 : Fin 2) * 128 + 1 * (j 1).val; omega
  have h2 : ((cfg13.win 2).blk t).view.emb (col j) = col (((cfg13.win 3).blk t).view.emb j) := by
    funext a; apply Fin.ext
    match a with
    | ⟨0, _⟩ => show win13_2.index t (0 : Fin 2) * 1 + 1 * 0 = 0; omega
    | ⟨1, _⟩ => show win13_2.index t (1 : Fin 2) * 128 + 1 * (j 1).val = win13_3.index t (1 : Fin 2) * 128 + 1 * (j 1).val; omega
  rw [h0, h1, h2]

/-- An index of the array is in point `t`'s tile iff each coordinate is in the tile's range on its axis. -/
theorem mem_blk (t : Fin cfg13.N) (i : S50000x128.Idx) :
    i ∈ ((cfg13.win 3).blk t).view.set ↔ ∀ a : Fin 2, win13_3.index t a * S5000x128.size a ≤ (i a).val ∧ (i a).val < win13_3.index t a * S5000x128.size a + S5000x128.size a := by
  show i ∈ ((View.whole main_v267).slice (win13_3.rect t)).set ↔ _
  rw [View.set_slice_whole, Rect.mem_set_unit]
  exact Iff.rfl

/-- Every index of the array lies in the tile of the point numbered by its row divided by 5000. -/
theorem cover (i : S50000x128.Idx) :
    ∃ t : Fin cfg13.N, (cfg13.win 3).flush t = true ∧ i ∈ ((cfg13.win 3).blk t).view.set := by
  have hi0 : (i 0).val < 50000 := idx2_lt0 i
  have hi1 : (i 1).val < 128 := idx2_lt1 i
  refine ⟨⟨(i 0).val / 5000, by rw [show cfg13.N = 10 from N_13]; omega⟩, flush13_3 _, ?_⟩
  rw [mem_blk]
  obtain ⟨e0, e1, e2, e3, e4, e5, e6, e7⟩ := idx_facts ⟨(i 0).val / 5000, by rw [show cfg13.N = 10 from N_13]; omega⟩
  intro a
  match a with
  | ⟨0, _⟩ => show win13_3.index _ (0 : Fin 2) * 5000 ≤ (i 0).val ∧ (i 0).val < win13_3.index _ (0 : Fin 2) * 5000 + 5000; rw [e7]; show (i 0).val / 5000 * 5000 ≤ (i 0).val ∧ (i 0).val < (i 0).val / 5000 * 5000 + 5000; omega
  | ⟨1, _⟩ => show win13_3.index _ (1 : Fin 2) * 128 ≤ (i 1).val ∧ (i 1).val < win13_3.index _ (1 : Fin 2) * 128 + 128; rw [e2]; omega

/-- THE OUTPUT ARRAY at the end of the region. -/
theorem final (c : Dev nD) :
    (dat13 (F := Ideal) V c).arrAt 3 cfg13.N = G (V c main_v250_0) (V c main_v265) (V c main_v266) :=
  (dat13 V c).arrAt_eq_of_cover 3 _ (fun t _ => flushed_eq V c t) cover

end Cert.KernelIdeal.Bn13

end
-- ==== Proof.KerFold6.lean ====
/-
  Layer 6 of the kernel's program, folded: from the buffer contents at the layer's first boundary, through its stretch of
  host operations, its first region (activations, column sums, column sums of squares), the second stretch (scale and
  shift) and its normalisation region, the layer's output buffer ends holding the layer function of what the first
  boundary holds in the input, the edge vectors and the stacked arguments.
-/
import proofs.«121838_j70282844831870_1_alg».proof.Proof.Gen.KernelIdeal.Frame
import proofs.«121838_j70282844831870_1_alg».proof.Proof.KerStretch6
import proofs.«121838_j70282844831870_1_alg».proof.Proof.GinRegion12
import proofs.«121838_j70282844831870_1_alg».proof.Proof.BnRegion13
import proofs.«121838_j70282844831870_1_alg».proof.Proof.KerLayerArr

set_option maxRecDepth 16384
set_option maxHeartbeats 4000000

noncomputable section

namespace Cert.KernelIdeal.Fold6

open Idealize.ShloMosaic Idealize.ShloMosaic.TcCoe Idealize.SL.Sem Idealize.ShloMosaic.StableHlo
open Cert.KernelIdeal Cert.KernelIdeal.Gen Cert.KernelIdeal.KerHost Cert.KernelIdeal.KerLayer Idealize.ShloMosaic.ValueIdx

section Region
variable (V : (c : Dev nD) → (b : Ref sig .tc) → Buf (Elt Ideal) ((c : Thread nD τ).loc b))

/-- The first region's three output arrays as functions of the six arrays it reads. -/
theorem g6_eq (c : Dev nD) : Gin12.G6 V c = hactArr Ideal.tanh (V c main_v129) (V c main_v139) (V c main_v237) (V c main_v248) (V c main_v241) (V c main_v249) := by
  funext i
  unfold Gin12.G6 Gin12.hactN
  rw [dif_pos (idx2_lt0 i)]
  rfl

theorem g7_eq (c : Dev nD) : Gin12.G7 V c = sumArr (hactArr Ideal.tanh (V c main_v129) (V c main_v139) (V c main_v237) (V c main_v248) (V c main_v241) (V c main_v249)) := by
  funext j
  unfold Gin12.G7 Gin12.hactN sumArr
  refine Finset.sum_congr rfl fun n _ => ?_
  rw [dif_pos n.isLt]
  rfl

theorem g8_eq (c : Dev nD) : Gin12.G8 V c = sqArr (hactArr Ideal.tanh (V c main_v129) (V c main_v139) (V c main_v237) (V c main_v248) (V c main_v241) (V c main_v249)) := by
  funext j
  unfold Gin12.G8 Gin12.hactN sqArr
  refine Finset.sum_congr rfl fun n _ => ?_
  rw [dif_pos n.isLt]
  rfl
end Region

variable (m : (ℓ : Loc nD τ sig) → Buf (Elt Ideal) ℓ) (ρ : Dev nD → PrngReg)

/-- THE LAYER'S OUTPUT BUFFER at the layer's last boundary. -/
theorem out_eq (c : Dev nD) :
    W28 m ρ c (Proc.devRef .tc main_v267)
      = layerArr Ideal.tanh (W24 m ρ c (Proc.devRef .tc main_v129)) (W24 m ρ c (Proc.devRef .tc main_v139))
          (matOf ![6, 0, 0] slices_S7x128x128_S1x128x128_6_0_0 (W24 m ρ c (Proc.devRef .tc main_arg3))) (rowOf ![6, 0] slices_S7x128_S1x128_6_0 (W24 m ρ c (Proc.devRef .tc main_arg4)))
          (matOf ![6, 0, 0] slices_S7x128x128_S1x128x128_6_0_0 (W24 m ρ c (Proc.devRef .tc main_arg5))) (rowOf ![6, 0] slices_S7x128_S1x128_6_0 (W24 m ρ c (Proc.devRef .tc main_arg6)))
          (vecOf ![6, 0] slices_S7x128_S1x128_6_0 (W24 m ρ c (Proc.devRef .tc main_arg7))) (vecOf ![6, 0] slices_S7x128_S1x128_6_0 (W24 m ρ c (Proc.devRef .tc main_arg8))) := by
  have e4 : W28 m ρ c (Proc.devRef .tc main_v267) = (dat13 (V27 m ρ) c).arrAt 3 cfg13.N := W28_arr m ρ c 3
  have eh : V27 m ρ c main_v250_0 = W26 m ρ c (Proc.devRef .tc main_v250_0) := Stretch6.b_h (W26 m ρ c)
  have es : V27 m ρ c main_v265 = scaleK (W26 m ρ c (Proc.devRef .tc main_v250_1)) (W26 m ρ c (Proc.devRef .tc main_v250_2)) (W26 m ρ c (Proc.devRef .tc main_v245)) :=
    Stretch6.b_scale (W26 m ρ c)
  have et : V27 m ρ c main_v266 = shiftK (W26 m ρ c (Proc.devRef .tc main_v250_1)) (W26 m ρ c (Proc.devRef .tc main_v250_2)) (W26 m ρ c (Proc.devRef .tc main_v245)) (W26 m ρ c (Proc.devRef .tc main_v247)) :=
    Stretch6.b_shift (W26 m ρ c)
  have h6 : W26 m ρ c (Proc.devRef .tc main_v250_0) = hactArr Ideal.tanh (V25 m ρ c main_v129) (V25 m ρ c main_v139) (V25 m ρ c main_v237) (V25 m ρ c main_v248) (V25 m ρ c main_v241) (V25 m ρ c main_v249) :=
    (W26_arr m ρ c 6).trans ((Gin12.arr6 (V25 m ρ) c).trans (g6_eq (V25 m ρ) c))
  have h7 : W26 m ρ c (Proc.devRef .tc main_v250_1) = sumArr (hactArr Ideal.tanh (V25 m ρ c main_v129) (V25 m ρ c main_v139) (V25 m ρ c main_v237) (V25 m ρ c main_v248) (V25 m ρ c main_v241) (V25 m ρ c main_v249)) :=
    (W26_arr m ρ c 7).trans ((Gin12.arr7 (V25 m ρ) c).trans (g7_eq (V25 m ρ) c))
  have h8 : W26 m ρ c (Proc.devRef .tc main_v250_2) = sqArr (hactArr Ideal.tanh (V25 m ρ c main_v129) (V25 m ρ c main_v139) (V25 m ρ c main_v237) (V25 m ρ c main_v248) (V25 m ρ c main_v241) (V25 m ρ c main_v249)) :=
    (W26_arr m ρ c 8).trans ((Gin12.arr8 (V25 m ρ) c).trans (g8_eq (V25 m ρ) c))
  have hg : W26 m ρ c (Proc.devRef .tc main_v245) = (vecOf ![6, 0] slices_S7x128_S1x128_6_0 (W24 m ρ c (Proc.devRef .tc main_arg7))) :=
    (W26_of_ne m ρ c main_v245 (by decide)).trans (Stretch6.g_gam (W24 m ρ c))
  have hb : W26 m ρ c (Proc.devRef .tc main_v247) = (vecOf ![6, 0] slices_S7x128_S1x128_6_0 (W24 m ρ c (Proc.devRef .tc main_arg8))) :=
    (W26_of_ne m ρ c main_v247 (by decide)).trans (Stretch6.g_bet (W24 m ρ c))
  have vx : V25 m ρ c main_v129 = (W24 m ρ c (Proc.devRef .tc main_v129)) := by
    show after (hostOps12 (F := Ideal)) (W24 m ρ c) (Proc.devRef .tc main_v129) = _
    after_results_simp
  have va : V25 m ρ c main_v139 = (W24 m ρ c (Proc.devRef .tc main_v139)) := by
    show after (hostOps12 (F := Ideal)) (W24 m ρ c) (Proc.devRef .tc main_v139) = _
    after_results_simp
  have vw1 : V25 m ρ c main_v237 = (matOf ![6, 0, 0] slices_S7x128x128_S1x128x128_6_0_0 (W24 m ρ c (Proc.devRef .tc main_arg3))) := Stretch6.g_w1 (W24 m ρ c)
  have vb1 : V25 m ρ c main_v248 = (rowOf ![6, 0] slices_S7x128_S1x128_6_0 (W24 m ρ c (Proc.devRef .tc main_arg4))) := Stretch6.g_b1 (W24 m ρ c)
  have vw2 : V25 m ρ c main_v241 = (matOf ![6, 0, 0] slices_S7x128x128_S1x128x128_6_0_0 (W24 m ρ c (Proc.devRef .tc main_arg5))) := Stretch6.g_w2 (W24 m ρ c)
  have vb2 : V25 m ρ c main_v249 = (rowOf ![6, 0] slices_S7x128_S1x128_6_0 (W24 m ρ c (Proc.devRef .tc main_arg6))) := Stretch6.g_b2 (W24 m ρ c)
  rw [e4, Bn13.final (V27 m ρ) c, eh, es, et, h6, h7, h8, hg, hb, vx, va, vw1, vb1, vw2, vb2]
  rfl

end Cert.KernelIdeal.Fold6

end
-- ==== Proof.KerCarry_arg3.lean ====
/-
  The stacked argument `main_arg3` is written by no host operation and is no region's array, so the buffer contents at every
  fourth boundary are the contents four boundaries earlier, back to the launch memory.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_arg3_0_4 (c : Dev nD) :
    W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by
          show after (hostOps1 (F := Ideal)) (W2 m ρ c) (Proc.devRef .tc main_arg3) = _
          after_results_simp
    _ = W1 m ρ c (Proc.devRef .tc main_arg3) := W2_of_ne m ρ c main_arg3 (by decide)
    _ = W0 m ρ c (Proc.devRef .tc main_arg3) := by
          show after (hostOps0 (F := Ideal)) (W0 m ρ c) (Proc.devRef .tc main_arg3) = _
          after_results_simp

theorem c_arg3_4_8 (c : Dev nD) :
    W8 m ρ c (Proc.devRef .tc main_arg3) = W4 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := by
          show after (hostOps3 (F := Ideal)) (W6 m ρ c) (Proc.devRef .tc main_arg3) = _
          after_results_simp
    _ = W5 m ρ c (Proc.devRef .tc main_arg3) := W6_of_ne m ρ c main_arg3 (by decide)
    _ = W4 m ρ c (Proc.devRef .tc main_arg3) := by
          show after (hostOps2 (F := Ideal)) (W4 m ρ c) (Proc.devRef .tc main_arg3) = _
          after_results_simp

theorem c_arg3_8_12 (c : Dev nD) :
    W12 m ρ c (Proc.devRef .tc main_arg3) = W8 m ρ c (Proc.devRef .tc main_arg3) :=
  calc W12 m ρ c (Proc.devRef .tc main_arg3)
    _ = W11 m ρ c (Proc.devRef .tc main_arg3) := W12_of_ne m ρ c main_arg3 (by decide)
    _ = W10 m ρ c (Proc.devRef .tc main_arg3) := by
          show after (hostOps5 (F := Ideal)) (W10 m ρ c) (Proc.devRef .tc main_arg3) = _
          after_results_simp
    _ = W9 m ρ c (Proc.devRef .tc main_arg3) := W10_of_ne m ρ c main_arg3 (by decide)
    _ = W8 m ρ c (Proc.devRef .tc main_arg3) := by
          show after (hostOps4 (F := Ideal)) (W8 m ρ c) (Proc.devRef .tc main_arg3) = _
          after_results_simp

theorem c_arg3_12_16 (c : Dev nD) :
    W16 m ρ c (Proc.devRef .tc main_arg3) = W12 m ρ c (Proc.devRef .tc main_arg3) :=
  calc W16 m ρ c (Proc.devRef .tc main_arg3)
    _ = W15 m ρ c (Proc.devRef .tc main_arg3) := W16_of_ne m ρ c main_arg3 (by decide)
    _ = W14 m ρ c (Proc.devRef .tc main_arg3) := by
          show after (hostOps7 (F := Ideal)) (W14 m ρ c) (Proc.devRef .tc main_arg3) = _
          after_results_simp
    _ = W13 m ρ c (Proc.devRef .tc main_arg3) := W14_of_ne m ρ c main_arg3 (by decide)
    _ = W12 m ρ c (Proc.devRef .tc main_arg3) := by
          show after (hostOps6 (F := Ideal)) (W12 m ρ c) (Proc.devRef .tc main_arg3) = _
          after_results_simp

theorem c_arg3_16_20 (c : Dev nD) :
    W20 m ρ c (Proc.devRef .tc main_arg3) = W16 m ρ c (Proc.devRef .tc main_arg3) :=
  calc W20 m ρ c (Proc.devRef .tc main_arg3)
    _ = W19 m ρ c (Proc.devRef .tc main_arg3) := W20_of_ne m ρ c main_arg3 (by decide)
    _ = W18 m ρ c (Proc.devRef .tc main_arg3) := by
          show after (hostOps9 (F := Ideal)) (W18 m ρ c) (Proc.devRef .tc main_arg3) = _
          after_results_simp
    _ = W17 m ρ c (Proc.devRef .tc main_arg3) := W18_of_ne m ρ c main_arg3 (by decide)
    _ = W16 m ρ c (Proc.devRef .tc main_arg3) := by
          show after (hostOps8 (F := Ideal)) (W16 m ρ c) (Proc.devRef .tc main_arg3) = _
          after_results_simp

theorem c_arg3_20_24 (c : Dev nD) :
    W24 m ρ c (Proc.devRef .tc main_arg3) = W20 m ρ c (Proc.devRef .tc main_arg3) :=
  calc W24 m ρ c (Proc.devRef .tc main_arg3)
    _ = W23 m ρ c (Proc.devRef .tc main_arg3) := W24_of_ne m ρ c main_arg3 (by decide)
    _ = W22 m ρ c (Proc.devRef .tc main_arg3) := by
          show after (hostOps11 (F := Ideal)) (W22 m ρ c) (Proc.devRef .tc main_arg3) = _
          after_results_simp
    _ = W21 m ρ c (Proc.devRef .tc main_arg3) := W22_of_ne m ρ c main_arg3 (by decide)
    _ = W20 m ρ c (Proc.devRef .tc main_arg3) := by
          show after (hostOps10 (F := Ideal)) (W20 m ρ c) (Proc.devRef .tc main_arg3) = _
          after_results_simp

end Cert.KernelIdeal.Carry

end
-- ==== Proof.KerCarry_arg4.lean ====
/-
  The stacked argument `main_arg4` is written by no host operation and is no region's array, so the buffer contents at every
  fourth boundary are the contents four boundaries earlier, back to the launch memory.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_arg4_0_4 (c : Dev nD) :
    W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by
          show after (hostOps1 (F := Ideal)) (W2 m ρ c) (Proc.devRef .tc main_arg4) = _
          after_results_simp
    _ = W1 m ρ c (Proc.devRef .tc main_arg4) := W2_of_ne m ρ c main_arg4 (by decide)
    _ = W0 m ρ c (Proc.devRef .tc main_arg4) := by
          show after (hostOps0 (F := Ideal)) (W0 m ρ c) (Proc.devRef .tc main_arg4) = _
          after_results_simp

theorem c_arg4_4_8 (c : Dev nD) :
    W8 m ρ c (Proc.devRef .tc main_arg4) = W4 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := by
          show after (hostOps3 (F := Ideal)) (W6 m ρ c) (Proc.devRef .tc main_arg4) = _
          after_results_simp
    _ = W5 m ρ c (Proc.devRef .tc main_arg4) := W6_of_ne m ρ c main_arg4 (by decide)
    _ = W4 m ρ c (Proc.devRef .tc main_arg4) := by
          show after (hostOps2 (F := Ideal)) (W4 m ρ c) (Proc.devRef .tc main_arg4) = _
          after_results_simp

theorem c_arg4_8_12 (c : Dev nD) :
    W12 m ρ c (Proc.devRef .tc main_arg4) = W8 m ρ c (Proc.devRef .tc main_arg4) :=
  calc W12 m ρ c (Proc.devRef .tc main_arg4)
    _ = W11 m ρ c (Proc.devRef .tc main_arg4) := W12_of_ne m ρ c main_arg4 (by decide)
    _ = W10 m ρ c (Proc.devRef .tc main_arg4) := by
          show after (hostOps5 (F := Ideal)) (W10 m ρ c) (Proc.devRef .tc main_arg4) = _
          after_results_simp
    _ = W9 m ρ c (Proc.devRef .tc main_arg4) := W10_of_ne m ρ c main_arg4 (by decide)
    _ = W8 m ρ c (Proc.devRef .tc main_arg4) := by
          show after (hostOps4 (F := Ideal)) (W8 m ρ c) (Proc.devRef .tc main_arg4) = _
          after_results_simp

theorem c_arg4_12_16 (c : Dev nD) :
    W16 m ρ c (Proc.devRef .tc main_arg4) = W12 m ρ c (Proc.devRef .tc main_arg4) :=
  calc W16 m ρ c (Proc.devRef .tc main_arg4)
    _ = W15 m ρ c (Proc.devRef .tc main_arg4) := W16_of_ne m ρ c main_arg4 (by decide)
    _ = W14 m ρ c (Proc.devRef .tc main_arg4) := by
          show after (hostOps7 (F := Ideal)) (W14 m ρ c) (Proc.devRef .tc main_arg4) = _
          after_results_simp
    _ = W13 m ρ c (Proc.devRef .tc main_arg4) := W14_of_ne m ρ c main_arg4 (by decide)
    _ = W12 m ρ c (Proc.devRef .tc main_arg4) := by
          show after (hostOps6 (F := Ideal)) (W12 m ρ c) (Proc.devRef .tc main_arg4) = _
          after_results_simp

theorem c_arg4_16_20 (c : Dev nD) :
    W20 m ρ c (Proc.devRef .tc main_arg4) = W16 m ρ c (Proc.devRef .tc main_arg4) :=
  calc W20 m ρ c (Proc.devRef .tc main_arg4)
    _ = W19 m ρ c (Proc.devRef .tc main_arg4) := W20_of_ne m ρ c main_arg4 (by decide)
    _ = W18 m ρ c (Proc.devRef .tc main_arg4) := by
          show after (hostOps9 (F := Ideal)) (W18 m ρ c) (Proc.devRef .tc main_arg4) = _
          after_results_simp
    _ = W17 m ρ c (Proc.devRef .tc main_arg4) := W18_of_ne m ρ c main_arg4 (by decide)
    _ = W16 m ρ c (Proc.devRef .tc main_arg4) := by
          show after (hostOps8 (F := Ideal)) (W16 m ρ c) (Proc.devRef .tc main_arg4) = _
          after_results_simp

theorem c_arg4_20_24 (c : Dev nD) :
    W24 m ρ c (Proc.devRef .tc main_arg4) = W20 m ρ c (Proc.devRef .tc main_arg4) :=
  calc W24 m ρ c (Proc.devRef .tc main_arg4)
    _ = W23 m ρ c (Proc.devRef .tc main_arg4) := W24_of_ne m ρ c main_arg4 (by decide)
    _ = W22 m ρ c (Proc.devRef .tc main_arg4) := by
          show after (hostOps11 (F := Ideal)) (W22 m ρ c) (Proc.devRef .tc main_arg4) = _
          after_results_simp
    _ = W21 m ρ c (Proc.devRef .tc main_arg4) := W22_of_ne m ρ c main_arg4 (by decide)
    _ = W20 m ρ c (Proc.devRef .tc main_arg4) := by
          show after (hostOps10 (F := Ideal)) (W20 m ρ c) (Proc.devRef .tc main_arg4) = _
          after_results_simp

end Cert.KernelIdeal.Carry

end
-- ==== Proof.KerCarry_arg5.lean ====
/-
  The stacked argument `main_arg5` is written by no host operation and is no region's array, so the buffer contents at every
  fourth boundary are the contents four boundaries earlier, back to the launch memory.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_arg5_0_4 (c : Dev nD) :
    W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by
          show after (hostOps1 (F := Ideal)) (W2 m ρ c) (Proc.devRef .tc main_arg5) = _
          after_results_simp
    _ = W1 m ρ c (Proc.devRef .tc main_arg5) := W2_of_ne m ρ c main_arg5 (by decide)
    _ = W0 m ρ c (Proc.devRef .tc main_arg5) := by
          show after (hostOps0 (F := Ideal)) (W0 m ρ c) (Proc.devRef .tc main_arg5) = _
          after_results_simp

theorem c_arg5_4_8 (c : Dev nD) :
    W8 m ρ c (Proc.devRef .tc main_arg5) = W4 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := by
          show after (hostOps3 (F := Ideal)) (W6 m ρ c) (Proc.devRef .tc main_arg5) = _
          after_results_simp
    _ = W5 m ρ c (Proc.devRef .tc main_arg5) := W6_of_ne m ρ c main_arg5 (by decide)
    _ = W4 m ρ c (Proc.devRef .tc main_arg5) := by
          show after (hostOps2 (F := Ideal)) (W4 m ρ c) (Proc.devRef .tc main_arg5) = _
          after_results_simp

theorem c_arg5_8_12 (c : Dev nD) :
    W12 m ρ c (Proc.devRef .tc main_arg5) = W8 m ρ c (Proc.devRef .tc main_arg5) :=
  calc W12 m ρ c (Proc.devRef .tc main_arg5)
    _ = W11 m ρ c (Proc.devRef .tc main_arg5) := W12_of_ne m ρ c main_arg5 (by decide)
    _ = W10 m ρ c (Proc.devRef .tc main_arg5) := by
          show after (hostOps5 (F := Ideal)) (W10 m ρ c) (Proc.devRef .tc main_arg5) = _
          after_results_simp
    _ = W9 m ρ c (Proc.devRef .tc main_arg5) := W10_of_ne m ρ c main_arg5 (by decide)
    _ = W8 m ρ c (Proc.devRef .tc main_arg5) := by
          show after (hostOps4 (F := Ideal)) (W8 m ρ c) (Proc.devRef .tc main_arg5) = _
          after_results_simp

theorem c_arg5_12_16 (c : Dev nD) :
    W16 m ρ c (Proc.devRef .tc main_arg5) = W12 m ρ c (Proc.devRef .tc main_arg5) :=
  calc W16 m ρ c (Proc.devRef .tc main_arg5)
    _ = W15 m ρ c (Proc.devRef .tc main_arg5) := W16_of_ne m ρ c main_arg5 (by decide)
    _ = W14 m ρ c (Proc.devRef .tc main_arg5) := by
          show after (hostOps7 (F := Ideal)) (W14 m ρ c) (Proc.devRef .tc main_arg5) = _
          after_results_simp
    _ = W13 m ρ c (Proc.devRef .tc main_arg5) := W14_of_ne m ρ c main_arg5 (by decide)
    _ = W12 m ρ c (Proc.devRef .tc main_arg5) := by
          show after (hostOps6 (F := Ideal)) (W12 m ρ c) (Proc.devRef .tc main_arg5) = _
          after_results_simp

theorem c_arg5_16_20 (c : Dev nD) :
    W20 m ρ c (Proc.devRef .tc main_arg5) = W16 m ρ c (Proc.devRef .tc main_arg5) :=
  calc W20 m ρ c (Proc.devRef .tc main_arg5)
    _ = W19 m ρ c (Proc.devRef .tc main_arg5) := W20_of_ne m ρ c main_arg5 (by decide)
    _ = W18 m ρ c (Proc.devRef .tc main_arg5) := by
          show after (hostOps9 (F := Ideal)) (W18 m ρ c) (Proc.devRef .tc main_arg5) = _
          after_results_simp
    _ = W17 m ρ c (Proc.devRef .tc main_arg5) := W18_of_ne m ρ c main_arg5 (by decide)
    _ = W16 m ρ c (Proc.devRef .tc main_arg5) := by
          show after (hostOps8 (F := Ideal)) (W16 m ρ c) (Proc.devRef .tc main_arg5) = _
          after_results_simp

theorem c_arg5_20_24 (c : Dev nD) :
    W24 m ρ c (Proc.devRef .tc main_arg5) = W20 m ρ c (Proc.devRef .tc main_arg5) :=
  calc W24 m ρ c (Proc.devRef .tc main_arg5)
    _ = W23 m ρ c (Proc.devRef .tc main_arg5) := W24_of_ne m ρ c main_arg5 (by decide)
    _ = W22 m ρ c (Proc.devRef .tc main_arg5) := by
          show after (hostOps11 (F := Ideal)) (W22 m ρ c) (Proc.devRef .tc main_arg5) = _
          after_results_simp
    _ = W21 m ρ c (Proc.devRef .tc main_arg5) := W22_of_ne m ρ c main_arg5 (by decide)
    _ = W20 m ρ c (Proc.devRef .tc main_arg5) := by
          show after (hostOps10 (F := Ideal)) (W20 m ρ c) (Proc.devRef .tc main_arg5) = _
          after_results_simp

end Cert.KernelIdeal.Carry

end
-- ==== Proof.KerCarry_arg6.lean ====
/-
  The stacked argument `main_arg6` is written by no host operation and is no region's array, so the buffer contents at every
  fourth boundary are the contents four boundaries earlier, back to the launch memory.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_arg6_0_4 (c : Dev nD) :
    W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := by
          show after (hostOps1 (F := Ideal)) (W2 m ρ c) (Proc.devRef .tc main_arg6) = _
          after_results_simp
    _ = W1 m ρ c (Proc.devRef .tc main_arg6) := W2_of_ne m ρ c main_arg6 (by decide)
    _ = W0 m ρ c (Proc.devRef .tc main_arg6) := by
          show after (hostOps0 (F := Ideal)) (W0 m ρ c) (Proc.devRef .tc main_arg6) = _
          after_results_simp

theorem c_arg6_4_8 (c : Dev nD) :
    W8 m ρ c (Proc.devRef .tc main_arg6) = W4 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := by
          show after (hostOps3 (F := Ideal)) (W6 m ρ c) (Proc.devRef .tc main_arg6) = _
          after_results_simp
    _ = W5 m ρ c (Proc.devRef .tc main_arg6) := W6_of_ne m ρ c main_arg6 (by decide)
    _ = W4 m ρ c (Proc.devRef .tc main_arg6) := by
          show after (hostOps2 (F := Ideal)) (W4 m ρ c) (Proc.devRef .tc main_arg6) = _
          after_results_simp

theorem c_arg6_8_12 (c : Dev nD) :
    W12 m ρ c (Proc.devRef .tc main_arg6) = W8 m ρ c (Proc.devRef .tc main_arg6) :=
  calc W12 m ρ c (Proc.devRef .tc main_arg6)
    _ = W11 m ρ c (Proc.devRef .tc main_arg6) := W12_of_ne m ρ c main_arg6 (by decide)
    _ = W10 m ρ c (Proc.devRef .tc main_arg6) := by
          show after (hostOps5 (F := Ideal)) (W10 m ρ c) (Proc.devRef .tc main_arg6) = _
          after_results_simp
    _ = W9 m ρ c (Proc.devRef .tc main_arg6) := W10_of_ne m ρ c main_arg6 (by decide)
    _ = W8 m ρ c (Proc.devRef .tc main_arg6) := by
          show after (hostOps4 (F := Ideal)) (W8 m ρ c) (Proc.devRef .tc main_arg6) = _
          after_results_simp

theorem c_arg6_12_16 (c : Dev nD) :
    W16 m ρ c (Proc.devRef .tc main_arg6) = W12 m ρ c (Proc.devRef .tc main_arg6) :=
  calc W16 m ρ c (Proc.devRef .tc main_arg6)
    _ = W15 m ρ c (Proc.devRef .tc main_arg6) := W16_of_ne m ρ c main_arg6 (by decide)
    _ = W14 m ρ c (Proc.devRef .tc main_arg6) := by
          show after (hostOps7 (F := Ideal)) (W14 m ρ c) (Proc.devRef .tc main_arg6) = _
          after_results_simp
    _ = W13 m ρ c (Proc.devRef .tc main_arg6) := W14_of_ne m ρ c main_arg6 (by decide)
    _ = W12 m ρ c (Proc.devRef .tc main_arg6) := by
          show after (hostOps6 (F := Ideal)) (W12 m ρ c) (Proc.devRef .tc main_arg6) = _
          after_results_simp

theorem c_arg6_16_20 (c : Dev nD) :
    W20 m ρ c (Proc.devRef .tc main_arg6) = W16 m ρ c (Proc.devRef .tc main_arg6) :=
  calc W20 m ρ c (Proc.devRef .tc main_arg6)
    _ = W19 m ρ c (Proc.devRef .tc main_arg6) := W20_of_ne m ρ c main_arg6 (by decide)
    _ = W18 m ρ c (Proc.devRef .tc main_arg6) := by
          show after (hostOps9 (F := Ideal)) (W18 m ρ c) (Proc.devRef .tc main_arg6) = _
          after_results_simp
    _ = W17 m ρ c (Proc.devRef .tc main_arg6) := W18_of_ne m ρ c main_arg6 (by decide)
    _ = W16 m ρ c (Proc.devRef .tc main_arg6) := by
          show after (hostOps8 (F := Ideal)) (W16 m ρ c) (Proc.devRef .tc main_arg6) = _
          after_results_simp

theorem c_arg6_20_24 (c : Dev nD) :
    W24 m ρ c (Proc.devRef .tc main_arg6) = W20 m ρ c (Proc.devRef .tc main_arg6) :=
  calc W24 m ρ c (Proc.devRef .tc main_arg6)
    _ = W23 m ρ c (Proc.devRef .tc main_arg6) := W24_of_ne m ρ c main_arg6 (by decide)
    _ = W22 m ρ c (Proc.devRef .tc main_arg6) := by
          show after (hostOps11 (F := Ideal)) (W22 m ρ c) (Proc.devRef .tc main_arg6) = _
          after_results_simp
    _ = W21 m ρ c (Proc.devRef .tc main_arg6) := W22_of_ne m ρ c main_arg6 (by decide)
    _ = W20 m ρ c (Proc.devRef .tc main_arg6) := by
          show after (hostOps10 (F := Ideal)) (W20 m ρ c) (Proc.devRef .tc main_arg6) = _
          after_results_simp

end Cert.KernelIdeal.Carry

end
-- ==== Proof.KerCarry_arg7.lean ====
/-
  The stacked argument `main_arg7` is written by no host operation and is no region's array, so the buffer contents at every
  fourth boundary are the contents four boundaries earlier, back to the launch memory.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_arg7_0_4 (c : Dev nD) :
    W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := by
          show after (hostOps1 (F := Ideal)) (W2 m ρ c) (Proc.devRef .tc main_arg7) = _
          after_results_simp
    _ = W1 m ρ c (Proc.devRef .tc main_arg7) := W2_of_ne m ρ c main_arg7 (by decide)
    _ = W0 m ρ c (Proc.devRef .tc main_arg7) := by
          show after (hostOps0 (F := Ideal)) (W0 m ρ c) (Proc.devRef .tc main_arg7) = _
          after_results_simp

theorem c_arg7_4_8 (c : Dev nD) :
    W8 m ρ c (Proc.devRef .tc main_arg7) = W4 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := by
          show after (hostOps3 (F := Ideal)) (W6 m ρ c) (Proc.devRef .tc main_arg7) = _
          after_results_simp
    _ = W5 m ρ c (Proc.devRef .tc main_arg7) := W6_of_ne m ρ c main_arg7 (by decide)
    _ = W4 m ρ c (Proc.devRef .tc main_arg7) := by
          show after (hostOps2 (F := Ideal)) (W4 m ρ c) (Proc.devRef .tc main_arg7) = _
          after_results_simp

theorem c_arg7_8_12 (c : Dev nD) :
    W12 m ρ c (Proc.devRef .tc main_arg7) = W8 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := by
          show after (hostOps5 (F := Ideal)) (W10 m ρ c) (Proc.devRef .tc main_arg7) = _
          after_results_simp
    _ = W9 m ρ c (Proc.devRef .tc main_arg7) := W10_of_ne m ρ c main_arg7 (by decide)
    _ = W8 m ρ c (Proc.devRef .tc main_arg7) := by
          show after (hostOps4 (F := Ideal)) (W8 m ρ c) (Proc.devRef .tc main_arg7) = _
          after_results_simp

theorem c_arg7_12_16 (c : Dev nD) :
    W16 m ρ c (Proc.devRef .tc main_arg7) = W12 m ρ c (Proc.devRef .tc main_arg7) :=
  calc W16 m ρ c (Proc.devRef .tc main_arg7)
    _ = W15 m ρ c (Proc.devRef .tc main_arg7) := W16_of_ne m ρ c main_arg7 (by decide)
    _ = W14 m ρ c (Proc.devRef .tc main_arg7) := by
          show after (hostOps7 (F := Ideal)) (W14 m ρ c) (Proc.devRef .tc main_arg7) = _
          after_results_simp
    _ = W13 m ρ c (Proc.devRef .tc main_arg7) := W14_of_ne m ρ c main_arg7 (by decide)
    _ = W12 m ρ c (Proc.devRef .tc main_arg7) := by
          show after (hostOps6 (F := Ideal)) (W12 m ρ c) (Proc.devRef .tc main_arg7) = _
          after_results_simp

theorem c_arg7_16_20 (c : Dev nD) :
    W20 m ρ c (Proc.devRef .tc main_arg7) = W16 m ρ c (Proc.devRef .tc main_arg7) :=
  calc W20 m ρ c (Proc.devRef .tc main_arg7)
    _ = W19 m ρ c (Proc.devRef .tc main_arg7) := W20_of_ne m ρ c main_arg7 (by decide)
    _ = W18 m ρ c (Proc.devRef .tc main_arg7) := by
          show after (hostOps9 (F := Ideal)) (W18 m ρ c) (Proc.devRef .tc main_arg7) = _
          after_results_simp
    _ = W17 m ρ c (Proc.devRef .tc main_arg7) := W18_of_ne m ρ c main_arg7 (by decide)
    _ = W16 m ρ c (Proc.devRef .tc main_arg7) := by
          show after (hostOps8 (F := Ideal)) (W16 m ρ c) (Proc.devRef .tc main_arg7) = _
          after_results_simp

theorem c_arg7_20_24 (c : Dev nD) :
    W24 m ρ c (Proc.devRef .tc main_arg7) = W20 m ρ c (Proc.devRef .tc main_arg7) :=
  calc W24 m ρ c (Proc.devRef .tc main_arg7)
    _ = W23 m ρ c (Proc.devRef .tc main_arg7) := W24_of_ne m ρ c main_arg7 (by decide)
    _ = W22 m ρ c (Proc.devRef .tc main_arg7) := by
          show after (hostOps11 (F := Ideal)) (W22 m ρ c) (Proc.devRef .tc main_arg7) = _
          after_results_simp
    _ = W21 m ρ c (Proc.devRef .tc main_arg7) := W22_of_ne m ρ c main_arg7 (by decide)
    _ = W20 m ρ c (Proc.devRef .tc main_arg7) := by
          show after (hostOps10 (F := Ideal)) (W20 m ρ c) (Proc.devRef .tc main_arg7) = _
          after_results_simp

end Cert.KernelIdeal.Carry

end
-- ==== Proof.KerCarry_arg8.lean ====
/-
  The stacked argument `main_arg8` is written by no host operation and is no region's array, so the buffer contents at every
  fourth boundary are the contents four boundaries earlier, back to the launch memory.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_arg8_0_4 (c : Dev nD) :
    W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := by
          show after (hostOps1 (F := Ideal)) (W2 m ρ c) (Proc.devRef .tc main_arg8) = _
          after_results_simp
    _ = W1 m ρ c (Proc.devRef .tc main_arg8) := W2_of_ne m ρ c main_arg8 (by decide)
    _ = W0 m ρ c (Proc.devRef .tc main_arg8) := by
          show after (hostOps0 (F := Ideal)) (W0 m ρ c) (Proc.devRef .tc main_arg8) = _
          after_results_simp

theorem c_arg8_4_8 (c : Dev nD) :
    W8 m ρ c (Proc.devRef .tc main_arg8) = W4 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := by
          show after (hostOps3 (F := Ideal)) (W6 m ρ c) (Proc.devRef .tc main_arg8) = _
          after_results_simp
    _ = W5 m ρ c (Proc.devRef .tc main_arg8) := W6_of_ne m ρ c main_arg8 (by decide)
    _ = W4 m ρ c (Proc.devRef .tc main_arg8) := by
          show after (hostOps2 (F := Ideal)) (W4 m ρ c) (Proc.devRef .tc main_arg8) = _
          after_results_simp

theorem c_arg8_8_12 (c : Dev nD) :
    W12 m ρ c (Proc.devRef .tc main_arg8) = W8 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := by
          show after (hostOps5 (F := Ideal)) (W10 m ρ c) (Proc.devRef .tc main_arg8) = _
          after_results_simp
    _ = W9 m ρ c (Proc.devRef .tc main_arg8) := W10_of_ne m ρ c main_arg8 (by decide)
    _ = W8 m ρ c (Proc.devRef .tc main_arg8) := by
          show after (hostOps4 (F := Ideal)) (W8 m ρ c) (Proc.devRef .tc main_arg8) = _
          after_results_simp

theorem c_arg8_12_16 (c : Dev nD) :
    W16 m ρ c (Proc.devRef .tc main_arg8) = W12 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := by
          show after (hostOps7 (F := Ideal)) (W14 m ρ c) (Proc.devRef .tc main_arg8) = _
          after_results_simp
    _ = W13 m ρ c (Proc.devRef .tc main_arg8) := W14_of_ne m ρ c main_arg8 (by decide)
    _ = W12 m ρ c (Proc.devRef .tc main_arg8) := by
          show after (hostOps6 (F := Ideal)) (W12 m ρ c) (Proc.devRef .tc main_arg8) = _
          after_results_simp

theorem c_arg8_16_20 (c : Dev nD) :
    W20 m ρ c (Proc.devRef .tc main_arg8) = W16 m ρ c (Proc.devRef .tc main_arg8) :=
  calc W20 m ρ c (Proc.devRef .tc main_arg8)
    _ = W19 m ρ c (Proc.devRef .tc main_arg8) := W20_of_ne m ρ c main_arg8 (by decide)
    _ = W18 m ρ c (Proc.devRef .tc main_arg8) := by
          show after (hostOps9 (F := Ideal)) (W18 m ρ c) (Proc.devRef .tc main_arg8) = _
          after_results_simp
    _ = W17 m ρ c (Proc.devRef .tc main_arg8) := W18_of_ne m ρ c main_arg8 (by decide)
    _ = W16 m ρ c (Proc.devRef .tc main_arg8) := by
          show after (hostOps8 (F := Ideal)) (W16 m ρ c) (Proc.devRef .tc main_arg8) = _
          after_results_simp

theorem c_arg8_20_24 (c : Dev nD) :
    W24 m ρ c (Proc.devRef .tc main_arg8) = W20 m ρ c (Proc.devRef .tc main_arg8) :=
  calc W24 m ρ c (Proc.devRef .tc main_arg8)
    _ = W23 m ρ c (Proc.devRef .tc main_arg8) := W24_of_ne m ρ c main_arg8 (by decide)
    _ = W22 m ρ c (Proc.devRef .tc main_arg8) := by
          show after (hostOps11 (F := Ideal)) (W22 m ρ c) (Proc.devRef .tc main_arg8) = _
          after_results_simp
    _ = W21 m ρ c (Proc.devRef .tc main_arg8) := W22_of_ne m ρ c main_arg8 (by decide)
    _ = W20 m ρ c (Proc.devRef .tc main_arg8) := by
          show after (hostOps10 (F := Ideal)) (W20 m ρ c) (Proc.devRef .tc main_arg8) = _
          after_results_simp

end Cert.KernelIdeal.Carry

end
-- ==== Proof.KerCarry_edges.lean ====
/-
  The edges' source and target vectors are formed once, in the first stretch of host operations, and only read afterwards.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_v1_1_4 (c : Dev nD) :
    W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by
          show after (hostOps1 (F := Ideal)) (W2 m ρ c) (Proc.devRef .tc main_v1) = _
          after_results_simp
    _ = W1 m ρ c (Proc.devRef .tc main_v1) := W2_of_ne m ρ c main_v1 (by decide)

theorem c_v1_4_8 (c : Dev nD) :
    W8 m ρ c (Proc.devRef .tc main_v1) = W4 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by
          show after (hostOps3 (F := Ideal)) (W6 m ρ c) (Proc.devRef .tc main_v1) = _
          after_results_simp
    _ = W5 m ρ c (Proc.devRef .tc main_v1) := W6_of_ne m ρ c main_v1 (by decide)
    _ = W4 m ρ c (Proc.devRef .tc main_v1) := by
          show after (hostOps2 (F := Ideal)) (W4 m ρ c) (Proc.devRef .tc main_v1) = _
          after_results_simp

theorem c_v1_8_12 (c : Dev nD) :
    W12 m ρ c (Proc.devRef .tc main_v1) = W8 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := by
          show after (hostOps5 (F := Ideal)) (W10 m ρ c) (Proc.devRef .tc main_v1) = _
          after_results_simp
    _ = W9 m ρ c (Proc.devRef .tc main_v1) := W10_of_ne m ρ c main_v1 (by decide)
    _ = W8 m ρ c (Proc.devRef .tc main_v1) := by
          show after (hostOps4 (F := Ideal)) (W8 m ρ c) (Proc.devRef .tc main_v1) = _
          after_results_simp

theorem c_v3_1_4 (c : Dev nD) :
    W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by
          show after (hostOps1 (F := Ideal)) (W2 m ρ c) (Proc.devRef .tc main_v3) = _
          after_results_simp
    _ = W1 m ρ c (Proc.devRef .tc main_v3) := W2_of_ne m ρ c main_v3 (by decide)

theorem c_v3_4_8 (c : Dev nD) :
    W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by
          show after (hostOps3 (F := Ideal)) (W6 m ρ c) (Proc.devRef .tc main_v3) = _
          after_results_simp
    _ = W5 m ρ c (Proc.devRef .tc main_v3) := W6_of_ne m ρ c main_v3 (by decide)
    _ = W4 m ρ c (Proc.devRef .tc main_v3) := by
          show after (hostOps2 (F := Ideal)) (W4 m ρ c) (Proc.devRef .tc main_v3) = _
          after_results_simp

theorem c_v3_8_12 (c : Dev nD) :
    W12 m ρ c (Proc.devRef .tc main_v3) = W8 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by
          show after (hostOps5 (F := Ideal)) (W10 m ρ c) (Proc.devRef .tc main_v3) = _
          after_results_simp
    _ = W9 m ρ c (Proc.devRef .tc main_v3) := W10_of_ne m ρ c main_v3 (by decide)
    _ = W8 m ρ c (Proc.devRef .tc main_v3) := by
          show after (hostOps4 (F := Ideal)) (W8 m ρ c) (Proc.devRef .tc main_v3) = _
          after_results_simp

end Cert.KernelIdeal.Carry

end
-- ==== Proof.KerCarry_shared.lean ====
/-
  The third layer's output and its neighbourhood sums feed all four of the last layers: each of those layers' first
  regions reads them through input windows (an input window's array leaves its region as it entered) and nothing writes them.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_v129_13_16 (c : Dev nD) :
    W16 m ρ c (Proc.devRef .tc main_v129) = W13 m ρ c (Proc.devRef .tc main_v129) :=
  calc W16 m ρ c (Proc.devRef .tc main_v129)
    _ = W15 m ρ c (Proc.devRef .tc main_v129) := W16_of_ne m ρ c main_v129 (by decide)
    _ = W14 m ρ c (Proc.devRef .tc main_v129) := by
          show after (hostOps7 (F := Ideal)) (W14 m ρ c) (Proc.devRef .tc main_v129) = _
          after_results_simp
    _ = W13 m ρ c (Proc.devRef .tc main_v129) := (W14_arr m ρ c 0).trans (((dat6 (V13 m ρ) c).arrAt_in 0 rfl _).trans (A_eq6 (V13 m ρ) c 0))

theorem c_v129_16_20 (c : Dev nD) :
    W20 m ρ c (Proc.devRef .tc main_v129) = W16 m ρ c (Proc.devRef .tc main_v129) :=
  calc W20 m ρ c (Proc.devRef .tc main_v129)
    _ = W19 m ρ c (Proc.devRef .tc main_v129) := W20_of_ne m ρ c main_v129 (by decide)
    _ = W18 m ρ c (Proc.devRef .tc main_v129) := by
          show after (hostOps9 (F := Ideal)) (W18 m ρ c) (Proc.devRef .tc main_v129) = _
          after_results_simp
    _ = W17 m ρ c (Proc.devRef .tc main_v129) := (W18_arr m ρ c 0).trans (((dat8 (V17 m ρ) c).arrAt_in 0 rfl _).trans (A_eq8 (V17 m ρ) c 0))
    _ = W16 m ρ c (Proc.devRef .tc main_v129) := by
          show after (hostOps8 (F := Ideal)) (W16 m ρ c) (Proc.devRef .tc main_v129) = _
          after_results_simp

theorem c_v129_20_24 (c : Dev nD) :
    W24 m ρ c (Proc.devRef .tc main_v129) = W20 m ρ c (Proc.devRef .tc main_v129) :=
  calc W24 m ρ c (Proc.devRef .tc main_v129)
    _ = W23 m ρ c (Proc.devRef .tc main_v129) := W24_of_ne m ρ c main_v129 (by decide)
    _ = W22 m ρ c (Proc.devRef .tc main_v129) := by
          show after (hostOps11 (F := Ideal)) (W22 m ρ c) (Proc.devRef .tc main_v129) = _
          after_results_simp
    _ = W21 m ρ c (Proc.devRef .tc main_v129) := (W22_arr m ρ c 0).trans (((dat10 (V21 m ρ) c).arrAt_in 0 rfl _).trans (A_eq10 (V21 m ρ) c 0))
    _ = W20 m ρ c (Proc.devRef .tc main_v129) := by
          show after (hostOps10 (F := Ideal)) (W20 m ρ c) (Proc.devRef .tc main_v129) = _
          after_results_simp

theorem c_v139_13_16 (c : Dev nD) :
    W16 m ρ c (Proc.devRef .tc main_v139) = W13 m ρ c (Proc.devRef .tc main_v139) :=
  calc W16 m ρ c (Proc.devRef .tc main_v139)
    _ = W15 m ρ c (Proc.devRef .tc main_v139) := W16_of_ne m ρ c main_v139 (by decide)
    _ = W14 m ρ c (Proc.devRef .tc main_v139) := by
          show after (hostOps7 (F := Ideal)) (W14 m ρ c) (Proc.devRef .tc main_v139) = _
          after_results_simp
    _ = W13 m ρ c (Proc.devRef .tc main_v139) := (W14_arr m ρ c 1).trans (((dat6 (V13 m ρ) c).arrAt_in 1 rfl _).trans (A_eq6 (V13 m ρ) c 1))

theorem c_v139_16_20 (c : Dev nD) :
    W20 m ρ c (Proc.devRef .tc main_v139) = W16 m ρ c (Proc.devRef .tc main_v139) :=
  calc W20 m ρ c (Proc.devRef .tc main_v139)
    _ = W19 m ρ c (Proc.devRef .tc main_v139) := W20_of_ne m ρ c main_v139 (by decide)
    _ = W18 m ρ c (Proc.devRef .tc main_v139) := by
          show after (hostOps9 (F := Ideal)) (W18 m ρ c) (Proc.devRef .tc main_v139) = _
          after_results_simp
    _ = W17 m ρ c (Proc.devRef .tc main_v139) := (W18_arr m ρ c 1).trans (((dat8 (V17 m ρ) c).arrAt_in 1 rfl _).trans (A_eq8 (V17 m ρ) c 1))
    _ = W16 m ρ c (Proc.devRef .tc main_v139) := by
          show after (hostOps8 (F := Ideal)) (W16 m ρ c) (Proc.devRef .tc main_v139) = _
          after_results_simp

theorem c_v139_20_24 (c : Dev nD) :
    W24 m ρ c (Proc.devRef .tc main_v139) = W20 m ρ c (Proc.devRef .tc main_v139) :=
  calc W24 m ρ c (Proc.devRef .tc main_v139)
    _ = W23 m ρ c (Proc.devRef .tc main_v139) := W24_of_ne m ρ c main_v139 (by decide)
    _ = W22 m ρ c (Proc.devRef .tc main_v139) := by
          show after (hostOps11 (F := Ideal)) (W22 m ρ c) (Proc.devRef .tc main_v139) = _
          after_results_simp
    _ = W21 m ρ c (Proc.devRef .tc main_v139) := (W22_arr m ρ c 1).trans (((dat10 (V21 m ρ) c).arrAt_in 1 rfl _).trans (A_eq10 (V21 m ρ) c 1))
    _ = W20 m ρ c (Proc.devRef .tc main_v139) := by
          show after (hostOps10 (F := Ideal)) (W20 m ρ c) (Proc.devRef .tc main_v139) = _
          after_results_simp

end Cert.KernelIdeal.Carry

end
-- ==== Proof.KerCarry_results.lean ====
/-
  Each of the first three results is written by its layer's normalisation region and by nothing after it.
-/
import proofs.«121838_j70282844831870_1_alg».proof.Proof.Gen.KernelIdeal.Frame
import Idealize.ShloMosaic.PureOps.Ideal
import Idealize.ShloMosaic.Lib.StableHlo.Run

set_option maxRecDepth 16384
set_option maxHeartbeats 4000000

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem c_v171_16_22 (c : Dev nD) :
    W22 m ρ c (Proc.devRef .tc main_v171) = W16 m ρ c (Proc.devRef .tc main_v171) :=
  calc W22 m ρ c (Proc.devRef .tc main_v171)
    _ = W21 m ρ c (Proc.devRef .tc main_v171) := W22_of_ne m ρ c main_v171 (by decide)
    _ = W20 m ρ c (Proc.devRef .tc main_v171) := by
          show after (hostOps10 (F := Ideal)) (W20 m ρ c) (Proc.devRef .tc main_v171) = _
          after_results_simp
    _ = W19 m ρ c (Proc.devRef .tc main_v171) := W20_of_ne m ρ c main_v171 (by decide)
    _ = W18 m ρ c (Proc.devRef .tc main_v171) := by
          show after (hostOps9 (F := Ideal)) (W18 m ρ c) (Proc.devRef .tc main_v171) = _
          after_results_simp
    _ = W17 m ρ c (Proc.devRef .tc main_v171) := W18_of_ne m ρ c main_v171 (by decide)
    _ = W16 m ρ c (Proc.devRef .tc main_v171) := by
          show after (hostOps8 (F := Ideal)) (W16 m ρ c) (Proc.devRef .tc main_v171) = _
          after_results_simp

theorem c_v171_22_28 (c : Dev nD) :
    W28 m ρ c (Proc.devRef .tc main_v171) = W22 m ρ c (Proc.devRef .tc main_v171) :=
  calc W28 m ρ c (Proc.devRef .tc main_v171)
    _ = W27 m ρ c (Proc.devRef .tc main_v171) := W28_of_ne m ρ c main_v171 (by decide)
    _ = W26 m ρ c (Proc.devRef .tc main_v171) := by
          show after (hostOps13 (F := Ideal)) (W26 m ρ c) (Proc.devRef .tc main_v171) = _
          after_results_simp
    _ = W25 m ρ c (Proc.devRef .tc main_v171) := W26_of_ne m ρ c main_v171 (by decide)
    _ = W24 m ρ c (Proc.devRef .tc main_v171) := by
          show after (hostOps12 (F := Ideal)) (W24 m ρ c) (Proc.devRef .tc main_v171) = _
          after_results_simp
    _ = W23 m ρ c (Proc.devRef .tc main_v171) := W24_of_ne m ρ c main_v171 (by decide)
    _ = W22 m ρ c (Proc.devRef .tc main_v171) := by
          show after (hostOps11 (F := Ideal)) (W22 m ρ c) (Proc.devRef .tc main_v171) = _
          after_results_simp

theorem c_v203_20_28 (c : Dev nD) :
    W28 m ρ c (Proc.devRef .tc main_v203) = W20 m ρ c (Proc.devRef .tc main_v203) :=
  calc W28 m ρ c (Proc.devRef .tc main_v203)
    _ = W27 m ρ c (Proc.devRef .tc main_v203) := W28_of_ne m ρ c main_v203 (by decide)
    _ = W26 m ρ c (Proc.devRef .tc main_v203) := by
          show after (hostOps13 (F := Ideal)) (W26 m ρ c) (Proc.devRef .tc main_v203) = _
          after_results_simp
    _ = W25 m ρ c (Proc.devRef .tc main_v203) := W26_of_ne m ρ c main_v203 (by decide)
    _ = W24 m ρ c (Proc.devRef .tc main_v203) := by
          show after (hostOps12 (F := Ideal)) (W24 m ρ c) (Proc.devRef .tc main_v203) = _
          after_results_simp
    _ = W23 m ρ c (Proc.devRef .tc main_v203) := W24_of_ne m ρ c main_v203 (by decide)
    _ = W22 m ρ c (Proc.devRef .tc main_v203) := by
          show after (hostOps11 (F := Ideal)) (W22 m ρ c) (Proc.devRef .tc main_v203) = _
          after_results_simp
    _ = W21 m ρ c (Proc.devRef .tc main_v203) := W22_of_ne m ρ c main_v203 (by decide)
    _ = W20 m ρ c (Proc.devRef .tc main_v203) := by
          show after (hostOps10 (F := Ideal)) (W20 m ρ c) (Proc.devRef .tc main_v203) = _
          after_results_simp

theorem c_v235_24_28 (c : Dev nD) :
    W28 m ρ c (Proc.devRef .tc main_v235) = W24 m ρ c (Proc.devRef .tc main_v235) :=
  calc W28 m ρ c (Proc.devRef .tc main_v235)
    _ = W27 m ρ c (Proc.devRef .tc main_v235) := W28_of_ne m ρ c main_v235 (by decide)
    _ = W26 m ρ c (Proc.devRef .tc main_v235) := by
          show after (hostOps13 (F := Ideal)) (W26 m ρ c) (Proc.devRef .tc main_v235) = _
          after_results_simp
    _ = W25 m ρ c (Proc.devRef .tc main_v235) := W26_of_ne m ρ c main_v235 (by decide)
    _ = W24 m ρ c (Proc.devRef .tc main_v235) := by
          show after (hostOps12 (F := Ideal)) (W24 m ρ c) (Proc.devRef .tc main_v235) = _
          after_results_simp

end Cert.KernelIdeal.Carry

end
-- ==== Proof.KerChain.lean ====
/-
  The kernel's program as a stack of layers of the launch memory. Three rectifier layers feed one another; the third
  one's output `X2` and its neighbourhood sums `A3` feed four hyperbolic-tangent layers, whose outputs are the four results.
  Each layer's output buffer, at the boundary after the layer, holds the layer function of the previous outputs; the
  stacked arguments and the edge vectors are the launch memory's at every boundary; each result buffer keeps its
  contents to the end.
-/
import proofs.«121838_j70282844831870_1_alg».proof.Proof.Gen.KernelIdeal.Frame
import proofs.«121838_j70282844831870_1_alg».proof.Proof.KerFold0
import proofs.«121838_j70282844831870_1_alg».proof.Proof.KerFold1
import proofs.«121838_j70282844831870_1_alg».proof.Proof.KerFold2
import proofs.«121838_j70282844831870_1_alg».proof.Proof.KerFold3
import proofs.«121838_j70282844831870_1_alg».proof.Proof.KerFold4
import proofs.«121838_j70282844831870_1_alg».proof.Proof.KerFold5
import proofs.«121838_j70282844831870_1_alg».proof.Proof.KerFold6
import proofs.«121838_j70282844831870_1_alg».proof.Proof.KerCarry_arg3
import proofs.«121838_j70282844831870_1_alg».proof.Proof.KerCarry_arg4
import proofs.«121838_j70282844831870_1_alg».proof.Proof.KerCarry_arg5
import proofs.«121838_j70282844831870_1_alg».proof.Proof.KerCarry_arg6
import proofs.«121838_j70282844831870_1_alg».proof.Proof.KerCarry_arg7
import proofs.«121838_j70282844831870_1_alg».proof.Proof.KerCarry_arg8
import proofs.«121838_j70282844831870_1_alg».proof.Proof.KerCarry_edges
import proofs.«121838_j70282844831870_1_alg».proof.Proof.KerCarry_shared
import proofs.«121838_j70282844831870_1_alg».proof.Proof.KerCarry_results

set_option maxRecDepth 16384
set_option maxHeartbeats 4000000

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.KerHost Cert.KernelIdeal.KerLayer Cert.KernelIdeal.Carry

variable (m : (ℓ : Loc nD τ sig) → Buf (Elt Ideal) ℓ) (ρ : Dev nD → PrngReg)

/-- The three rectifier layers' outputs, the shared neighbourhood sums, and the four results, as functions of the launch memory. -/
def X0 (c : Dev nD) : S50000x128.Idx → EReal :=
  layerArr (fun z => max z 0) (m ((c : Thread nD τ).loc main_arg0)) (aggOf (m ((c : Thread nD τ).loc main_arg0)) (srcOf (m ((c : Thread nD τ).loc main_arg1))) (dstOf (m ((c : Thread nD τ).loc main_arg1))))
      (matOf ![0, 0, 0] slices_S7x128x128_S1x128x128_0_0_0 (m ((c : Thread nD τ).loc main_arg3)))
      (rowOf ![0, 0] slices_S7x128_S1x128_0_0 (m ((c : Thread nD τ).loc main_arg4)))
      (matOf ![0, 0, 0] slices_S7x128x128_S1x128x128_0_0_0 (m ((c : Thread nD τ).loc main_arg5)))
      (rowOf ![0, 0] slices_S7x128_S1x128_0_0 (m ((c : Thread nD τ).loc main_arg6)))
      (vecOf ![0, 0] slices_S7x128_S1x128_0_0 (m ((c : Thread nD τ).loc main_arg7)))
      (vecOf ![0, 0] slices_S7x128_S1x128_0_0 (m ((c : Thread nD τ).loc main_arg8)))

def X1 (c : Dev nD) : S50000x128.Idx → EReal :=
  layerArr (fun z => max z 0) (X0 m c) (aggOf (X0 m c) (srcOf (m ((c : Thread nD τ).loc main_arg1))) (dstOf (m ((c : Thread nD τ).loc main_arg1))))
      (matOf ![1, 0, 0] slices_S7x128x128_S1x128x128_1_0_0 (m ((c : Thread nD τ).loc main_arg3)))
      (rowOf ![1, 0] slices_S7x128_S1x128_1_0 (m ((c : Thread nD τ).loc main_arg4)))
      (matOf ![1, 0, 0] slices_S7x128x128_S1x128x128_1_0_0 (m ((c : Thread nD τ).loc main_arg5)))
      (rowOf ![1, 0] slices_S7x128_S1x128_1_0 (m ((c : Thread nD τ).loc main_arg6)))
      (vecOf ![1, 0] slices_S7x128_S1x128_1_0 (m ((c : Thread nD τ).loc main_arg7)))
      (vecOf ![1, 0] slices_S7x128_S1x128_1_0 (m ((c : Thread nD τ).loc main_arg8)))

def X2 (c : Dev nD) : S50000x128.Idx → EReal :=
  layerArr (fun z => max z 0) (X1 m c) (aggOf (X1 m c) (srcOf (m ((c : Thread nD τ).loc main_arg1))) (dstOf (m ((c : Thread nD τ).loc main_arg1))))
      (matOf ![2, 0, 0] slices_S7x128x128_S1x128x128_2_0_0 (m ((c : Thread nD τ).loc main_arg3)))
      (rowOf ![2, 0] slices_S7x128_S1x128_2_0 (m ((c : Thread nD τ).loc main_arg4)))
      (matOf ![2, 0, 0] slices_S7x128x128_S1x128x128_2_0_0 (m ((c : Thread nD τ).loc main_arg5)))
      (rowOf ![2, 0] slices_S7x128_S1x128_2_0 (m ((c : Thread nD τ).loc main_arg6)))
      (vecOf ![2, 0] slices_S7x128_S1x128_2_0 (m ((c : Thread nD τ).loc main_arg7)))
      (vecOf ![2, 0] slices_S7x128_S1x128_2_0 (m ((c : Thread nD τ).loc main_arg8)))

def A3 (c : Dev nD) : S50000x128.Idx → EReal := aggOf (X2 m c) (srcOf (m ((c : Thread nD τ).loc main_arg1))) (dstOf (m ((c : Thread nD τ).loc main_arg1)))

def Y3 (c : Dev nD) : S50000x128.Idx → EReal :=
  layerArr Ideal.tanh (X2 m c) (A3 m c)
      (matOf ![3, 0, 0] slices_S7x128x128_S1x128x128_3_0_0 (m ((c : Thread nD τ).loc main_arg3)))
      (rowOf ![3, 0] slices_S7x128_S1x128_3_0 (m ((c : Thread nD τ).loc main_arg4)))
      (matOf ![3, 0, 0] slices_S7x128x128_S1x128x128_3_0_0 (m ((c : Thread nD τ).loc main_arg5)))
      (rowOf ![3, 0] slices_S7x128_S1x128_3_0 (m ((c : Thread nD τ).loc main_arg6)))
      (vecOf ![3, 0] slices_S7x128_S1x128_3_0 (m ((c : Thread nD τ).loc main_arg7)))
      (vecOf ![3, 0] slices_S7x128_S1x128_3_0 (m ((c : Thread nD τ).loc main_arg8)))

def Y4 (c : Dev nD) : S50000x128.Idx → EReal :=
  layerArr Ideal.tanh (X2 m c) (A3 m c)
      (matOf ![4, 0, 0] slices_S7x128x128_S1x128x128_4_0_0 (m ((c : Thread nD τ).loc main_arg3)))
      (rowOf ![4, 0] slices_S7x128_S1x128_4_0 (m ((c : Thread nD τ).loc main_arg4)))
      (matOf ![4, 0, 0] slices_S7x128x128_S1x128x128_4_0_0 (m ((c : Thread nD τ).loc main_arg5)))
      (rowOf ![4, 0] slices_S7x128_S1x128_4_0 (m ((c : Thread nD τ).loc main_arg6)))
      (vecOf ![4, 0] slices_S7x128_S1x128_4_0 (m ((c : Thread nD τ).loc main_arg7)))
      (vecOf ![4, 0] slices_S7x128_S1x128_4_0 (m ((c : Thread nD τ).loc main_arg8)))

def Y5 (c : Dev nD) : S50000x128.Idx → EReal :=
  layerArr Ideal.tanh (X2 m c) (A3 m c)
      (matOf ![5, 0, 0] slices_S7x128x128_S1x128x128_5_0_0 (m ((c : Thread nD τ).loc main_arg3)))
      (rowOf ![5, 0] slices_S7x128_S1x128_5_0 (m ((c : Thread nD τ).loc main_arg4)))
      (matOf ![5, 0, 0] slices_S7x128x128_S1x128x128_5_0_0 (m ((c : Thread nD τ).loc main_arg5)))
      (rowOf ![5, 0] slices_S7x128_S1x128_5_0 (m ((c : Thread nD τ).loc main_arg6)))
      (vecOf ![5, 0] slices_S7x128_S1x128_5_0 (m ((c : Thread nD τ).loc main_arg7)))
      (vecOf ![5, 0] slices_S7x128_S1x128_5_0 (m ((c : Thread nD τ).loc main_arg8)))

def Y6 (c : Dev nD) : S50000x128.Idx → EReal :=
  layerArr Ideal.tanh (X2 m c) (A3 m c)
      (matOf ![6, 0, 0] slices_S7x128x128_S1x128x128_6_0_0 (m ((c : Thread nD τ).loc main_arg3)))
      (rowOf ![6, 0] slices_S7x128_S1x128_6_0 (m ((c : Thread nD τ).loc main_arg4)))
      (matOf ![6, 0, 0] slices_S7x128x128_S1x128x128_6_0_0 (m ((c : Thread nD τ).loc main_arg5)))
      (rowOf ![6, 0] slices_S7x128_S1x128_6_0 (m ((c : Thread nD τ).loc main_arg6)))
      (vecOf ![6, 0] slices_S7x128_S1x128_6_0 (m ((c : Thread nD τ).loc main_arg7)))
      (vecOf ![6, 0] slices_S7x128_S1x128_6_0 (m ((c : Thread nD τ).loc main_arg8)))

/-! ## The stacked arguments and the edge vectors at each layer's first boundary -/

theorem arg3_0 (c : Dev nD) : W0 m ρ c (Proc.devRef .tc main_arg3) = (m ((c : Thread nD τ).loc main_arg3)) := rfl
theorem arg3_4 (c : Dev nD) : W4 m ρ c (Proc.devRef .tc main_arg3) = (m ((c : Thread nD τ).loc main_arg3)) := (c_arg3_0_4 m ρ c).trans (arg3_0 m ρ c)
theorem arg3_8 (c : Dev nD) : W8 m ρ c (Proc.devRef .tc main_arg3) = (m ((c : Thread nD τ).loc main_arg3)) := (c_arg3_4_8 m ρ c).trans (arg3_4 m ρ c)
theorem arg3_12 (c : Dev nD) : W12 m ρ c (Proc.devRef .tc main_arg3) = (m ((c : Thread nD τ).loc main_arg3)) := (c_arg3_8_12 m ρ c).trans (arg3_8 m ρ c)
theorem arg3_16 (c : Dev nD) : W16 m ρ c (Proc.devRef .tc main_arg3) = (m ((c : Thread nD τ).loc main_arg3)) := (c_arg3_12_16 m ρ c).trans (arg3_12 m ρ c)
theorem arg3_20 (c : Dev nD) : W20 m ρ c (Proc.devRef .tc main_arg3) = (m ((c : Thread nD τ).loc main_arg3)) := (c_arg3_16_20 m ρ c).trans (arg3_16 m ρ c)
theorem arg3_24 (c : Dev nD) : W24 m ρ c (Proc.devRef .tc main_arg3) = (m ((c : Thread nD τ).loc main_arg3)) := (c_arg3_20_24 m ρ c).trans (arg3_20 m ρ c)

theorem arg4_0 (c : Dev nD) : W0 m ρ c (Proc.devRef .tc main_arg4) = (m ((c : Thread nD τ).loc main_arg4)) := rfl
theorem arg4_4 (c : Dev nD) : W4 m ρ c (Proc.devRef .tc main_arg4) = (m ((c : Thread nD τ).loc main_arg4)) := (c_arg4_0_4 m ρ c).trans (arg4_0 m ρ c)
theorem arg4_8 (c : Dev nD) : W8 m ρ c (Proc.devRef .tc main_arg4) = (m ((c : Thread nD τ).loc main_arg4)) := (c_arg4_4_8 m ρ c).trans (arg4_4 m ρ c)
theorem arg4_12 (c : Dev nD) : W12 m ρ c (Proc.devRef .tc main_arg4) = (m ((c : Thread nD τ).loc main_arg4)) := (c_arg4_8_12 m ρ c).trans (arg4_8 m ρ c)
theorem arg4_16 (c : Dev nD) : W16 m ρ c (Proc.devRef .tc main_arg4) = (m ((c : Thread nD τ).loc main_arg4)) := (c_arg4_12_16 m ρ c).trans (arg4_12 m ρ c)
theorem arg4_20 (c : Dev nD) : W20 m ρ c (Proc.devRef .tc main_arg4) = (m ((c : Thread nD τ).loc main_arg4)) := (c_arg4_16_20 m ρ c).trans (arg4_16 m ρ c)
theorem arg4_24 (c : Dev nD) : W24 m ρ c (Proc.devRef .tc main_arg4) = (m ((c : Thread nD τ).loc main_arg4)) := (c_arg4_20_24 m ρ c).trans (arg4_20 m ρ c)

theorem arg5_0 (c : Dev nD) : W0 m ρ c (Proc.devRef .tc main_arg5) = (m ((c : Thread nD τ).loc main_arg5)) := rfl
theorem arg5_4 (c : Dev nD) : W4 m ρ c (Proc.devRef .tc main_arg5) = (m ((c : Thread nD τ).loc main_arg5)) := (c_arg5_0_4 m ρ c).trans (arg5_0 m ρ c)
theorem arg5_8 (c : Dev nD) : W8 m ρ c (Proc.devRef .tc main_arg5) = (m ((c : Thread nD τ).loc main_arg5)) := (c_arg5_4_8 m ρ c).trans (arg5_4 m ρ c)
theorem arg5_12 (c : Dev nD) : W12 m ρ c (Proc.devRef .tc main_arg5) = (m ((c : Thread nD τ).loc main_arg5)) := (c_arg5_8_12 m ρ c).trans (arg5_8 m ρ c)
theorem arg5_16 (c : Dev nD) : W16 m ρ c (Proc.devRef .tc main_arg5) = (m ((c : Thread nD τ).loc main_arg5)) := (c_arg5_12_16 m ρ c).trans (arg5_12 m ρ c)
theorem arg5_20 (c : Dev nD) : W20 m ρ c (Proc.devRef .tc main_arg5) = (m ((c : Thread nD τ).loc main_arg5)) := (c_arg5_16_20 m ρ c).trans (arg5_16 m ρ c)
theorem arg5_24 (c : Dev nD) : W24 m ρ c (Proc.devRef .tc main_arg5) = (m ((c : Thread nD τ).loc main_arg5)) := (c_arg5_20_24 m ρ c).trans (arg5_20 m ρ c)

theorem arg6_0 (c : Dev nD) : W0 m ρ c (Proc.devRef .tc main_arg6) = (m ((c : Thread nD τ).loc main_arg6)) := rfl
theorem arg6_4 (c : Dev nD) : W4 m ρ c (Proc.devRef .tc main_arg6) = (m ((c : Thread nD τ).loc main_arg6)) := (c_arg6_0_4 m ρ c).trans (arg6_0 m ρ c)
theorem arg6_8 (c : Dev nD) : W8 m ρ c (Proc.devRef .tc main_arg6) = (m ((c : Thread nD τ).loc main_arg6)) := (c_arg6_4_8 m ρ c).trans (arg6_4 m ρ c)
theorem arg6_12 (c : Dev nD) : W12 m ρ c (Proc.devRef .tc main_arg6) = (m ((c : Thread nD τ).loc main_arg6)) := (c_arg6_8_12 m ρ c).trans (arg6_8 m ρ c)
theorem arg6_16 (c : Dev nD) : W16 m ρ c (Proc.devRef .tc main_arg6) = (m ((c : Thread nD τ).loc main_arg6)) := (c_arg6_12_16 m ρ c).trans (arg6_12 m ρ c)
theorem arg6_20 (c : Dev nD) : W20 m ρ c (Proc.devRef .tc main_arg6) = (m ((c : Thread nD τ).loc main_arg6)) := (c_arg6_16_20 m ρ c).trans (arg6_16 m ρ c)
theorem arg6_24 (c : Dev nD) : W24 m ρ c (Proc.devRef .tc main_arg6) = (m ((c : Thread nD τ).loc main_arg6)) := (c_arg6_20_24 m ρ c).trans (arg6_20 m ρ c)

theorem arg7_0 (c : Dev nD) : W0 m ρ c (Proc.devRef .tc main_arg7) = (m ((c : Thread nD τ).loc main_arg7)) := rfl
theorem arg7_4 (c : Dev nD) : W4 m ρ c (Proc.devRef .tc main_arg7) = (m ((c : Thread nD τ).loc main_arg7)) := (c_arg7_0_4 m ρ c).trans (arg7_0 m ρ c)
theorem arg7_8 (c : Dev nD) : W8 m ρ c (Proc.devRef .tc main_arg7) = (m ((c : Thread nD τ).loc main_arg7)) := (c_arg7_4_8 m ρ c).trans (arg7_4 m ρ c)
theorem arg7_12 (c : Dev nD) : W12 m ρ c (Proc.devRef .tc main_arg7) = (m ((c : Thread nD τ).loc main_arg7)) := (c_arg7_8_12 m ρ c).trans (arg7_8 m ρ c)
theorem arg7_16 (c : Dev nD) : W16 m ρ c (Proc.devRef .tc main_arg7) = (m ((c : Thread nD τ).loc main_arg7)) := (c_arg7_12_16 m ρ c).trans (arg7_12 m ρ c)
theorem arg7_20 (c : Dev nD) : W20 m ρ c (Proc.devRef .tc main_arg7) = (m ((c : Thread nD τ).loc main_arg7)) := (c_arg7_16_20 m ρ c).trans (arg7_16 m ρ c)
theorem arg7_24 (c : Dev nD) : W24 m ρ c (Proc.devRef .tc main_arg7) = (m ((c : Thread nD τ).loc main_arg7)) := (c_arg7_20_24 m ρ c).trans (arg7_20 m ρ c)

theorem arg8_0 (c : Dev nD) : W0 m ρ c (Proc.devRef .tc main_arg8) = (m ((c : Thread nD τ).loc main_arg8)) := rfl
theorem arg8_4 (c : Dev nD) : W4 m ρ c (Proc.devRef .tc main_arg8) = (m ((c : Thread nD τ).loc main_arg8)) := (c_arg8_0_4 m ρ c).trans (arg8_0 m ρ c)
theorem arg8_8 (c : Dev nD) : W8 m ρ c (Proc.devRef .tc main_arg8) = (m ((c : Thread nD τ).loc main_arg8)) := (c_arg8_4_8 m ρ c).trans (arg8_4 m ρ c)
theorem arg8_12 (c : Dev nD) : W12 m ρ c (Proc.devRef .tc main_arg8) = (m ((c : Thread nD τ).loc main_arg8)) := (c_arg8_8_12 m ρ c).trans (arg8_8 m ρ c)
theorem arg8_16 (c : Dev nD) : W16 m ρ c (Proc.devRef .tc main_arg8) = (m ((c : Thread nD τ).loc main_arg8)) := (c_arg8_12_16 m ρ c).trans (arg8_12 m ρ c)
theorem arg8_20 (c : Dev nD) : W20 m ρ c (Proc.devRef .tc main_arg8) = (m ((c : Thread nD τ).loc main_arg8)) := (c_arg8_16_20 m ρ c).trans (arg8_16 m ρ c)
theorem arg8_24 (c : Dev nD) : W24 m ρ c (Proc.devRef .tc main_arg8) = (m ((c : Thread nD τ).loc main_arg8)) := (c_arg8_20_24 m ρ c).trans (arg8_20 m ρ c)

theorem src_1 (c : Dev nD) : W1 m ρ c (Proc.devRef .tc main_v1) = (srcOf (m ((c : Thread nD τ).loc main_arg1))) := Stretch0.g_src (W0 m ρ c)
theorem dst_1 (c : Dev nD) : W1 m ρ c (Proc.devRef .tc main_v3) = (dstOf (m ((c : Thread nD τ).loc main_arg1))) := Stretch0.g_dst (W0 m ρ c)
theorem src_4 (c : Dev nD) : W4 m ρ c (Proc.devRef .tc main_v1) = (srcOf (m ((c : Thread nD τ).loc main_arg1))) := (c_v1_1_4 m ρ c).trans (src_1 m ρ c)
theorem dst_4 (c : Dev nD) : W4 m ρ c (Proc.devRef .tc main_v3) = (dstOf (m ((c : Thread nD τ).loc main_arg1))) := (c_v3_1_4 m ρ c).trans (dst_1 m ρ c)
theorem src_8 (c : Dev nD) : W8 m ρ c (Proc.devRef .tc main_v1) = (srcOf (m ((c : Thread nD τ).loc main_arg1))) := (c_v1_4_8 m ρ c).trans (src_4 m ρ c)
theorem dst_8 (c : Dev nD) : W8 m ρ c (Proc.devRef .tc main_v3) = (dstOf (m ((c : Thread nD τ).loc main_arg1))) := (c_v3_4_8 m ρ c).trans (dst_4 m ρ c)
theorem src_12 (c : Dev nD) : W12 m ρ c (Proc.devRef .tc main_v1) = (srcOf (m ((c : Thread nD τ).loc main_arg1))) := (c_v1_8_12 m ρ c).trans (src_8 m ρ c)
theorem dst_12 (c : Dev nD) : W12 m ρ c (Proc.devRef .tc main_v3) = (dstOf (m ((c : Thread nD τ).loc main_arg1))) := (c_v3_8_12 m ρ c).trans (dst_8 m ρ c)

/-! ## The layers' outputs -/

theorem out0 (c : Dev nD) : W4 m ρ c (Proc.devRef .tc main_v45) = X0 m c := by
  rw [Fold0.out_eq m ρ c]; rfl

theorem out1 (c : Dev nD) : W8 m ρ c (Proc.devRef .tc main_v87) = X1 m c := by
  rw [Fold1.out_eq m ρ c, out0 m ρ c, src_4 m ρ c, dst_4 m ρ c, arg3_4 m ρ c, arg4_4 m ρ c, arg5_4 m ρ c, arg6_4 m ρ c, arg7_4 m ρ c, arg8_4 m ρ c]; rfl

theorem out2 (c : Dev nD) : W12 m ρ c (Proc.devRef .tc main_v129) = X2 m c := by
  rw [Fold2.out_eq m ρ c, out1 m ρ c, src_8 m ρ c, dst_8 m ρ c, arg3_8 m ρ c, arg4_8 m ρ c, arg5_8 m ρ c, arg6_8 m ρ c, arg7_8 m ρ c, arg8_8 m ρ c]; rfl

theorem out3 (c : Dev nD) : W16 m ρ c (Proc.devRef .tc main_v171) = Y3 m c := by
  rw [Fold3.out_eq m ρ c, out2 m ρ c, src_12 m ρ c, dst_12 m ρ c, arg3_12 m ρ c, arg4_12 m ρ c, arg5_12 m ρ c, arg6_12 m ρ c, arg7_12 m ρ c, arg8_12 m ρ c]; rfl

theorem x2_13 (c : Dev nD) : W13 m ρ c (Proc.devRef .tc main_v129) = X2 m c := (Stretch3.g_x (W12 m ρ c)).trans (out2 m ρ c)
theorem a3_13 (c : Dev nD) : W13 m ρ c (Proc.devRef .tc main_v139) = A3 m c := by
  refine (Stretch3.g_agg (W12 m ρ c)).trans ?_
  rw [out2 m ρ c, src_12 m ρ c, dst_12 m ρ c]; rfl
theorem x2_16 (c : Dev nD) : W16 m ρ c (Proc.devRef .tc main_v129) = X2 m c := (c_v129_13_16 m ρ c).trans (x2_13 m ρ c)
theorem a3_16 (c : Dev nD) : W16 m ρ c (Proc.devRef .tc main_v139) = A3 m c := (c_v139_13_16 m ρ c).trans (a3_13 m ρ c)
theorem x2_20 (c : Dev nD) : W20 m ρ c (Proc.devRef .tc main_v129) = X2 m c := (c_v129_16_20 m ρ c).trans (x2_16 m ρ c)
theorem a3_20 (c : Dev nD) : W20 m ρ c (Proc.devRef .tc main_v139) = A3 m c := (c_v139_16_20 m ρ c).trans (a3_16 m ρ c)
theorem x2_24 (c : Dev nD) : W24 m ρ c (Proc.devRef .tc main_v129) = X2 m c := (c_v129_20_24 m ρ c).trans (x2_20 m ρ c)
theorem a3_24 (c : Dev nD) : W24 m ρ c (Proc.devRef .tc main_v139) = A3 m c := (c_v139_20_24 m ρ c).trans (a3_20 m ρ c)

theorem out4 (c : Dev nD) : W20 m ρ c (Proc.devRef .tc main_v203) = Y4 m c := by
  rw [Fold4.out_eq m ρ c, x2_16 m ρ c, a3_16 m ρ c, arg3_16 m ρ c, arg4_16 m ρ c, arg5_16 m ρ c, arg6_16 m ρ c, arg7_16 m ρ c, arg8_16 m ρ c]; rfl

theorem out5 (c : Dev nD) : W24 m ρ c (Proc.devRef .tc main_v235) = Y5 m c := by
  rw [Fold5.out_eq m ρ c, x2_20 m ρ c, a3_20 m ρ c, arg3_20 m ρ c, arg4_20 m ρ c, arg5_20 m ρ c, arg6_20 m ρ c, arg7_20 m ρ c, arg8_20 m ρ c]; rfl

theorem out6 (c : Dev nD) : W28 m ρ c (Proc.devRef .tc main_v267) = Y6 m c := by
  rw [Fold6.out_eq m ρ c, x2_24 m ρ c, a3_24 m ρ c, arg3_24 m ρ c, arg4_24 m ρ c, arg5_24 m ρ c, arg6_24 m ρ c, arg7_24 m ρ c, arg8_24 m ρ c]; rfl

/-! ## The four results at the last boundary -/

theorem res0 (c : Dev nD) : W28 m ρ c (Proc.devRef .tc main_v171) = Y3 m c := (c_v171_22_28 m ρ c).trans ((c_v171_16_22 m ρ c).trans (out3 m ρ c))
theorem res1 (c : Dev nD) : W28 m ρ c (Proc.devRef .tc main_v203) = Y4 m c := (c_v203_20_28 m ρ c).trans (out4 m ρ c)
theorem res2 (c : Dev nD) : W28 m ρ c (Proc.devRef .tc main_v235) = Y5 m c := (c_v235_24_28 m ρ c).trans (out5 m ρ c)
theorem res3 (c : Dev nD) : W28 m ρ c (Proc.devRef .tc main_v267) = Y6 m c := out6 m ρ c

end Cert.KernelIdeal.Chain

end
-- ==== Proof.RefLayer.lean ====
/- One layer of the reference after its neighbourhood sums, as its host operations compose it, and the same layer read at
   an index: two dense layers on the features plus the sums with a rectifier between, the activation, the column mean, the
   mean squared deviation about it (divided by the row count less zero degrees of freedom, chosen over a fill value by a
   comparison that holds), and the centred normalisation. Every step is the operation's own meaning at the exact values: a
   product of matrices is the sum over the contracted coordinate, a column sum is the sum over the rows, a broadcast reads
   its operand at the coordinates it keeps. -/
import proofs.«121838_j70282844831870_1_alg».proof.Proof.Gen.ReferenceIdeal
import proofs.«121838_j70282844831870_1_alg».proof.Proof.GinSpec
import Idealize.ShloMosaic.Lib.IdealHost
import Idealize.ShloMosaic.Lib.StackMember
import Idealize.ShloMosaic.Lib.Pipeline.Value

noncomputable section

namespace Cert.ReferenceIdeal.RefRead

open Cert.ReferenceIdeal Cert.ReferenceIdeal.Gen Idealize.ShloMosaic Idealize.ShloMosaic.ValueIdx

/-- The feature matrix, a weight matrix, a row of 128. -/
abbrev Mx := FVec Ideal S50000x128 .f32
abbrev Wt := FVec Ideal S128x128 .f32
abbrev Rw := FVec Ideal S128 .f32

/-! ## The composed terms -/

/-- A row of 128 laid along each of the 50000 rows (through a one-row intermediate). -/
def rowB (v : Rw) : Mx :=
  broadcastInDim S50000x128 ![0, 1] bcast_S1x128_S50000x128_0_1 (broadcastInDim S1x128 ![1] bcast_S128_S1x128_1 v)

/-- The zero matrix. -/
def zeroM : Mx := broadcastInDim S50000x128 ![] bcast_S_S50000x128 (constant (F := Ideal) S_ .f32 0x00000000#32)

/-- A dense layer: the product with the weights plus the bias along the rows. -/
def dense (H : Mx) (W : Wt) (b : Rw) : Mx :=
  addf (Host.dotGeneral dot_S50000x128_S128x128_S50000x128_1_0_0_1_n_n none H W) (rowB b)

/-- The two dense layers on the features plus their neighbourhood sums, a rectifier between. -/
def refPre (X A : Mx) (W1 : Wt) (b1 : Rw) (W2 : Wt) (b2 : Rw) : Mx :=
  dense (maximumf (dense (addf X A) W1 b1) zeroM) W2 b2

/-- The activation: the rectifier, or the hyperbolic tangent. -/
def refAct (tanhLayer : Bool) (P : Mx) : Mx := cond tanhLayer (Host.tanh P) (maximumf P zeroM)

/-- The column mean. -/
def refMean (H : Mx) : Rw :=
  Host.divf (Host.reduceAdd H (constant (F := Ideal) S_ .f32 0x00000000#32) reducesTo_S50000x128_S128_d0 h_S_)
    (broadcastInDim S128 ![] bcast_S_S128 (constant (F := Ideal) S_ .f32 0x47435000#32))

/-- The variance function's own column mean, laid along the rows. -/
def varMeanM (H : Mx) : Mx :=
  broadcastInDim S50000x128 ![0, 1] bcast_S1x128_S50000x128_0_1
    (Host.divf
      (broadcastInDim S1x128 ![1] bcast_S128_S1x128_1
        (Host.reduceAdd H (constant (F := Ideal) S_ .f32 0x00000000#32) reducesTo_S50000x128_S128_d0 h_S_))
      (broadcastInDim S1x128 ![] bcast_S_S1x128 (constant (F := Ideal) S_ .f32 0x47435000#32)))

/-- The deviations from that mean. -/
def varDev (H : Mx) : Mx := subf H (varMeanM H)

/-- The variance's divisor: the row count less the degrees of freedom (zero). -/
def varN : FVec Ideal S_ .f32 :=
  subf (constant (F := Ideal) S_ .f32 0x47435000#32) (sitofp .f32 (constantI S_ 32 0#32))

/-- The column variance: the summed squared deviations over the divisor where the divisor is positive, a fill value
    elsewhere. -/
def refVar (H : Mx) : Rw :=
  select (broadcastInDim S128 ![] bcast_S_S128 (cmpf .ogt varN (constant (F := Ideal) S_ .f32 0x00000000#32)))
    (Host.divf
      (Host.reduceAdd (mulf (varDev H) (varDev H)) (constant (F := Ideal) S_ .f32 0x00000000#32) reducesTo_S50000x128_S128_d0 h_S_)
      (broadcastInDim S128 ![] bcast_S_S128 varN))
    (broadcastInDim S128 ![] bcast_S_S128 (id (constant (F := Ideal) S_ .f32 0x7FC00000#32)))

/-- The centred normalisation. -/
def refBn (H : Mx) (g bt : Rw) : Mx :=
  addf
    (mulf
      (mulf (subf H (rowB (refMean H)))
        (rowB (Host.rsqrt (addf (refVar H) (broadcastInDim S128 ![] bcast_S_S128 (constant (F := Ideal) S_ .f32 0x3727C5AC#32))))))
      (rowB g))
    (rowB bt)

/-- One layer after the neighbourhood sums `A` of its input `X`. -/
def refLayer (tanhLayer : Bool) (X A : Mx) (W1 : Wt) (b1 : Rw) (W2 : Wt) (b2 g bt : Rw) : Mx :=
  refBn (refAct tanhLayer (refPre X A W1 b1 W2 b2)) g bt

/-! ## Read at an index -/

theorem rowB_apply (v : Rw) (r : Fin 50000) (q : Fin 128) : rowB v (ix2 r q) = v (ix1 q) := by
  unfold rowB
  rw [broadcastInDim_apply _ _ _ (ix2 r q) (ix2 (0 : Fin 1) q) (by intro a; fin_cases a <;> rfl),
    broadcastInDim_apply _ _ _ (ix2 (0 : Fin 1) q) (ix1 q) (by intro a; fin_cases a; rfl)]

theorem zeroM_apply (i : S50000x128.Idx) : zeroM i = 0 := by
  unfold zeroM
  rw [broadcastInDim_scalar_apply, constant_apply, Ideal.ofBits_zero_f32]

theorem dense_apply (H : Mx) (W : Wt) (b : Rw) (r : Fin 50000) (q : Fin 128) :
    dense H W b (ix2 r q) = (∑ c : Fin 128, H (ix2 r c) * W (ix2 c q)) + b (ix1 q) := by
  unfold dense
  rw [addf_apply, rowB_apply]
  exact congrArg (· + b (ix1 q)) (StackMember.dotGeneral_plain_apply none H W r q)

theorem refPre_apply (X A : Mx) (W1 : Wt) (b1 : Rw) (W2 : Wt) (b2 : Rw) (r : Fin 50000) (q : Fin 128) :
    refPre X A W1 b1 W2 b2 (ix2 r q)
      = (∑ k : Fin 128, max ((∑ j : Fin 128, (X (ix2 r j) + A (ix2 r j)) * W1 (ix2 j k)) + b1 (ix1 k)) 0 * W2 (ix2 k q))
          + b2 (ix1 q) := by
  unfold refPre
  rw [dense_apply]
  refine congrArg (· + b2 (ix1 q)) (Finset.sum_congr rfl fun k _ => ?_)
  rw [maximumf_apply, zeroM_apply, dense_apply]
  rfl

/-- The bit pattern `0x47435000` is fifty thousand. -/
theorem ofBits_rows : Ideal.ofBits .f32 0x47435000#32 = Cert.GinSpec.rows := by
  unfold Cert.GinSpec.rows
  simp [Ideal.ofBits, Ideal.ieee, -EReal.coe_mul]; norm_num

/-- The column sum from zero is the sum over the rows. -/
theorem colSum_apply (H : Mx) (q : Fin 128) :
    Host.reduceAdd H (constant (F := Ideal) S_ .f32 0x00000000#32) reducesTo_S50000x128_S128_d0 h_S_ (ix1 q)
      = ∑ n : Fin 50000, H (ix2 n q) := by
  rw [hostReduceAdd_apply, Ideal.hostReduceAdd_single reducesTo_S50000x128_S128_d0 (by decide : S50000x128.Reduces [0] S128),
    constant_apply, Ideal.ofBits_zero_f32, zero_add]
  refine Finset.sum_congr rfl fun n _ => congrArg H ?_
  funext a; apply Fin.ext
  match a with
  | ⟨0, _⟩ => rfl
  | ⟨1, _⟩ => rfl

theorem refMean_apply (H : Mx) (q : Fin 128) :
    refMean H (ix1 q) = Ideal.div (∑ n : Fin 50000, H (ix2 n q)) Cert.GinSpec.rows := by
  unfold refMean
  rw [hostDivf_apply, colSum_apply, broadcastInDim_scalar_apply, constant_apply, ofBits_rows]

theorem varN_apply : varN ix0 = Cert.GinSpec.rows := by
  unfold varN
  rw [subf_apply, constant_apply, ofBits_rows, sitofp_apply]
  show Cert.GinSpec.rows - (((0#32 : BitVec 32).toInt : ℝ) : EReal) = _
  simp

theorem varMeanM_apply (H : Mx) (r : Fin 50000) (q : Fin 128) :
    varMeanM H (ix2 r q) = Ideal.div (∑ n : Fin 50000, H (ix2 n q)) Cert.GinSpec.rows := by
  unfold varMeanM
  rw [broadcastInDim_apply _ _ _ (ix2 r q) (ix2 (0 : Fin 1) q) (by intro a; fin_cases a <;> rfl), hostDivf_apply,
    broadcastInDim_apply _ _ _ (ix2 (0 : Fin 1) q) (ix1 q) (by intro a; fin_cases a; rfl), colSum_apply,
    broadcastInDim_scalar_apply, constant_apply, ofBits_rows]

theorem refVar_apply (H : Mx) (q : Fin 128) :
    refVar H (ix1 q)
      = Ideal.div (∑ n : Fin 50000,
            (H (ix2 n q) - Ideal.div (∑ m : Fin 50000, H (ix2 m q)) Cert.GinSpec.rows)
              * (H (ix2 n q) - Ideal.div (∑ m : Fin 50000, H (ix2 m q)) Cert.GinSpec.rows)) Cert.GinSpec.rows := by
  unfold refVar
  have hc : (broadcastInDim S128 ![] bcast_S_S128 (cmpf .ogt varN (constant (F := Ideal) S_ .f32 0x00000000#32))) (ix1 q) = 1#1 := by
    rw [broadcastInDim_scalar_apply, cmpf_apply, varN_apply, constant_apply, Ideal.ofBits_zero_f32, Ideal.cmpf_def]
    unfold Cert.GinSpec.rows Ideal.cmp
    have : (0 : EReal) < ((50000 : ℝ) : EReal) := by exact_mod_cast (by norm_num : (0 : ℝ) < 50000)
    simp [this]
  rw [select_apply, hc, select_one, hostDivf_apply, colSum_apply, broadcastInDim_scalar_apply, varN_apply]
  refine congrArg (Ideal.div · Cert.GinSpec.rows) (Finset.sum_congr rfl fun n _ => ?_)
  rw [mulf_apply]
  unfold varDev
  rw [subf_apply, varMeanM_apply]

theorem refBn_apply (H : Mx) (g bt : Rw) (r : Fin 50000) (q : Fin 128) :
    refBn H g bt (ix2 r q)
      = Cert.GinSpec.bnCentred (Ideal.ofBits .f32 0x3727C5AC#32) (fun r j => H (ix2 r j)) (fun k => g (ix1 k))
          (fun k => bt (ix1 k)) r q := by
  unfold refBn Cert.GinSpec.bnCentred Cert.GinSpec.mean
  rw [addf_apply, mulf_apply, mulf_apply, subf_apply, rowB_apply, rowB_apply, rowB_apply, rowB_apply, refMean_apply]
  show _ * FloatOps.hostUnary .rsqrt _ * _ + _ = _
  rw [Ideal.hostUnary_rsqrt_def, addf_apply, refVar_apply, broadcastInDim_scalar_apply, constant_apply]

/-- A rectifier layer, at an index. -/
theorem refLayer_relu_apply (X A : Mx) (W1 : Wt) (b1 : Rw) (W2 : Wt) (b2 g bt : Rw) (r : Fin 50000) (q : Fin 128) :
    refLayer false X A W1 b1 W2 b2 g bt (ix2 r q)
      = Cert.GinSpec.layerCentred (fun z => max z 0) (Ideal.ofBits .f32 0x3727C5AC#32) (fun r j => X (ix2 r j))
          (fun r j => A (ix2 r j)) (fun j k => W1 (ix2 j k)) (fun k => b1 (ix1 k)) (fun j k => W2 (ix2 j k))
          (fun k => b2 (ix1 k)) (fun k => g (ix1 k)) (fun k => bt (ix1 k)) r q := by
  unfold refLayer Cert.GinSpec.layerCentred
  rw [refBn_apply]
  refine congrArg (fun h => Cert.GinSpec.bnCentred _ h _ _ r q) (funext fun r' => funext fun q' => ?_)
  show maximumf _ zeroM (ix2 r' q') = _
  rw [maximumf_apply, zeroM_apply, refPre_apply]
  rfl

/-- A hyperbolic-tangent layer, at an index. -/
theorem refLayer_tanh_apply (X A : Mx) (W1 : Wt) (b1 : Rw) (W2 : Wt) (b2 g bt : Rw) (r : Fin 50000) (q : Fin 128) :
    refLayer true X A W1 b1 W2 b2 g bt (ix2 r q)
      = Cert.GinSpec.layerCentred Ideal.tanh (Ideal.ofBits .f32 0x3727C5AC#32) (fun r j => X (ix2 r j))
          (fun r j => A (ix2 r j)) (fun j k => W1 (ix2 j k)) (fun k => b1 (ix1 k)) (fun j k => W2 (ix2 j k))
          (fun k => b2 (ix1 k)) (fun k => g (ix1 k)) (fun k => bt (ix1 k)) r q := by
  unfold refLayer Cert.GinSpec.layerCentred
  rw [refBn_apply]
  refine congrArg (fun h => Cert.GinSpec.bnCentred _ h _ _ r q) (funext fun r' => funext fun q' => ?_)
  show FloatOps.hostUnary .tanh (refPre X A W1 b1 W2 b2 (ix2 r' q')) = _
  rw [Ideal.hostUnary_tanh_def, refPre_apply]
  rfl

end Cert.ReferenceIdeal.RefRead

end
-- ==== Proof.GinLaw.lean ====
/-
  One layer, in the kernel's spelling and in the reference's, on real data: the two agree, and the layer's output is
  real again — so a stack of layers stays on real data and the two programs agree layer by layer.
-/
import proofs.«121838_j70282844831870_1_alg».proof.Proof.GinSpec

noncomputable section

namespace Cert.GinSpec

open Idealize.ShloMosaic Cert.Proof.Spec

/-- The rectifier keeps a real number real. -/
theorem relu_real (z : EReal) (hz : IsReal z) : IsReal (max z 0) := hz.max IsReal.zero

/-- The hyperbolic tangent of a real number is a real number. -/
theorem tanh_real (z : EReal) (hz : IsReal z) : IsReal (Ideal.tanh z) := by
  obtain ⟨r, rfl⟩ := hz; exact ⟨Real.tanh r, rfl⟩

variable (act : EReal → EReal) (hact : ∀ z, IsReal z → IsReal (act z))
  (eps : EReal) (heps : ∃ e : ℝ, 0 < e ∧ eps = (e : EReal))
  (x a : Mat 50000 128) (w1 : Mat 128 128) (b1 : Row 128) (w2 : Mat 128 128) (b2 g b : Row 128)
  (hx : ∀ r q, IsReal (x r q)) (ha : ∀ r q, IsReal (a r q)) (hw1 : ∀ j k, IsReal (w1 j k)) (hb1 : ∀ k, IsReal (b1 k))
  (hw2 : ∀ j k, IsReal (w2 j k)) (hb2 : ∀ k, IsReal (b2 k)) (hg : ∀ k, IsReal (g k)) (hb : ∀ k, IsReal (b k))

include hact heps hx ha hw1 hb1 hw2 hb2 hg hb

/-- On real data the kernel's spelling of a layer is the reference's. -/
theorem layer_eq : layerAffine act eps x a w1 b1 w2 b2 g b = layerCentred act eps x a w1 b1 w2 b2 g b :=
  bnAffine_eq_bnCentred eps heps _ (mlp_real act hact x a w1 b1 w2 b2 hx ha hw1 hb1 hw2 hb2) g b hg hb

/-- A layer of real data is real. -/
theorem layer_real (r : Fin 50000) (q : Fin 128) : IsReal (layerCentred act eps x a w1 b1 w2 b2 g b r q) :=
  bnCentred_real eps heps _ (mlp_real act hact x a w1 b1 w2 b2 hx ha hw1 hb1 hw2 hb2) g b hg hb r q

end Cert.GinSpec

end
-- ==== Proof.Bridge.lean ====
/-
  One layer of the kernel against one layer of the reference, as arrays, on real data: the kernel's layer function (affine
  normalisation from the raw moments, the biases read as 1 × 128 rows) and the reference's (centred normalisation, the
  biases as vectors) are one array, and that array is real — the step that carries the agreement of the two programs,
  and the realness it needs, from one layer to the next.
-/
import proofs.«121838_j70282844831870_1_alg».proof.Proof.KerLayerArr
import proofs.«121838_j70282844831870_1_alg».proof.Proof.RefLayer
import proofs.«121838_j70282844831870_1_alg».proof.Proof.GinLaw
import proofs.«121838_j70282844831870_1_alg».proof.Proof.LibRsqrtLaw

set_option maxRecDepth 16384

noncomputable section

namespace Cert.Bridge

open Idealize.ShloMosaic Idealize.ShloMosaic.ValueIdx Cert.Proof.Spec Cert.GinSpec
open Cert.KernelIdeal Cert.KernelIdeal.Gen Cert.KernelIdeal.KerHost Cert.KernelIdeal.KerLayer

/-- The kernel's 1 × 128 row of a vector of 128. -/
abbrev rowK (v : S128.Idx → EReal) : S1x128.Idx → EReal := fun i => shapeCast S1x128 v shapeCasts_S128_S1x128 i

theorem eps_pos : ∃ e : ℝ, 0 < e ∧ Ideal.ofBits .f32 0x3727C5AC#32 = (e : EReal) := Cert.RsqrtLaw.ofBits_eps_pos

section
variable (x a : S50000x128.Idx → EReal) (W1 W2 : S128x128.Idx → EReal) (b1 b2 gam bet : S128.Idx → EReal)
  (hx : ∀ i, IsReal (x i)) (ha : ∀ i, IsReal (a i)) (hW1 : ∀ i, IsReal (W1 i)) (hW2 : ∀ i, IsReal (W2 i))
  (hb1 : ∀ i, IsReal (b1 i)) (hb2 : ∀ i, IsReal (b2 i)) (hg : ∀ i, IsReal (gam i)) (hb : ∀ i, IsReal (bet i))

include hx ha hW1 hW2 hb1 hb2 hg hb

/-- A rectifier layer: the two programs' layer functions agree at every index, at a real value. -/
theorem relu_at (r : Fin 50000) (q : Fin 128) :
    layerArr (fun z => max z 0) x a W1 (rowK b1) W2 (rowK b2) gam bet (ix2 r q)
        = Cert.ReferenceIdeal.RefRead.refLayer false x a W1 b1 W2 b2 gam bet (ix2 r q)
      ∧ IsReal (layerArr (fun z => max z 0) x a W1 (rowK b1) W2 (rowK b2) gam bet (ix2 r q)) := by
  rw [layerArr_apply, Cert.ReferenceIdeal.RefRead.refLayer_relu_apply]
  simp only [row_apply]
  have e := layer_eq (fun z => max z 0) relu_real (Ideal.ofBits .f32 0x3727C5AC#32) eps_pos
    (fun r j => x (ix2 r j)) (fun r j => a (ix2 r j)) (fun j k => W1 (ix2 j k)) (fun k => b1 (ix1 k))
    (fun j k => W2 (ix2 j k)) (fun k => b2 (ix1 k)) (fun k => gam (ix1 k)) (fun k => bet (ix1 k))
    (fun _ _ => hx _) (fun _ _ => ha _) (fun _ _ => hW1 _) (fun _ => hb1 _) (fun _ _ => hW2 _) (fun _ => hb2 _)
    (fun _ => hg _) (fun _ => hb _)
  refine ⟨congrFun (congrFun e r) q, ?_⟩
  rw [congrFun (congrFun e r) q]
  exact layer_real (fun z => max z 0) relu_real (Ideal.ofBits .f32 0x3727C5AC#32) eps_pos _ _ _ _ _ _ _ _
    (fun _ _ => hx _) (fun _ _ => ha _) (fun _ _ => hW1 _) (fun _ => hb1 _) (fun _ _ => hW2 _) (fun _ => hb2 _)
    (fun _ => hg _) (fun _ => hb _) r q

/-- A hyperbolic-tangent layer, likewise. -/
theorem tanh_at (r : Fin 50000) (q : Fin 128) :
    layerArr Ideal.tanh x a W1 (rowK b1) W2 (rowK b2) gam bet (ix2 r q)
        = Cert.ReferenceIdeal.RefRead.refLayer true x a W1 b1 W2 b2 gam bet (ix2 r q)
      ∧ IsReal (layerArr Ideal.tanh x a W1 (rowK b1) W2 (rowK b2) gam bet (ix2 r q)) := by
  rw [layerArr_apply, Cert.ReferenceIdeal.RefRead.refLayer_tanh_apply]
  simp only [row_apply]
  have e := layer_eq Ideal.tanh tanh_real (Ideal.ofBits .f32 0x3727C5AC#32) eps_pos
    (fun r j => x (ix2 r j)) (fun r j => a (ix2 r j)) (fun j k => W1 (ix2 j k)) (fun k => b1 (ix1 k))
    (fun j k => W2 (ix2 j k)) (fun k => b2 (ix1 k)) (fun k => gam (ix1 k)) (fun k => bet (ix1 k))
    (fun _ _ => hx _) (fun _ _ => ha _) (fun _ _ => hW1 _) (fun _ => hb1 _) (fun _ _ => hW2 _) (fun _ => hb2 _)
    (fun _ => hg _) (fun _ => hb _)
  refine ⟨congrFun (congrFun e r) q, ?_⟩
  rw [congrFun (congrFun e r) q]
  exact layer_real Ideal.tanh tanh_real (Ideal.ofBits .f32 0x3727C5AC#32) eps_pos _ _ _ _ _ _ _ _
    (fun _ _ => hx _) (fun _ _ => ha _) (fun _ _ => hW1 _) (fun _ => hb1 _) (fun _ _ => hW2 _) (fun _ => hb2 _)
    (fun _ => hg _) (fun _ => hb _) r q

/-- As arrays. -/
theorem relu_layer :
    layerArr (fun z => max z 0) x a W1 (rowK b1) W2 (rowK b2) gam bet
        = Cert.ReferenceIdeal.RefRead.refLayer false x a W1 b1 W2 b2 gam bet
      ∧ ∀ i, IsReal (layerArr (fun z => max z 0) x a W1 (rowK b1) W2 (rowK b2) gam bet i) :=
  ⟨funext fun i => by
      obtain ⟨r, q, rfl⟩ : ∃ (r : Fin 50000) (q : Fin 128), i = ix2 r q := ⟨i 0, i 1, eq_ix2 i⟩
      exact (relu_at x a W1 W2 b1 b2 gam bet hx ha hW1 hW2 hb1 hb2 hg hb r q).1,
   fun i => by
      obtain ⟨r, q, rfl⟩ : ∃ (r : Fin 50000) (q : Fin 128), i = ix2 r q := ⟨i 0, i 1, eq_ix2 i⟩
      exact (relu_at x a W1 W2 b1 b2 gam bet hx ha hW1 hW2 hb1 hb2 hg hb r q).2⟩

theorem tanh_layer :
    layerArr Ideal.tanh x a W1 (rowK b1) W2 (rowK b2) gam bet
        = Cert.ReferenceIdeal.RefRead.refLayer true x a W1 b1 W2 b2 gam bet
      ∧ ∀ i, IsReal (layerArr Ideal.tanh x a W1 (rowK b1) W2 (rowK b2) gam bet i) :=
  ⟨funext fun i => by
      obtain ⟨r, q, rfl⟩ : ∃ (r : Fin 50000) (q : Fin 128), i = ix2 r q := ⟨i 0, i 1, eq_ix2 i⟩
      exact (tanh_at x a W1 W2 b1 b2 gam bet hx ha hW1 hW2 hb1 hb2 hg hb r q).1,
   fun i => by
      obtain ⟨r, q, rfl⟩ : ∃ (r : Fin 50000) (q : Fin 128), i = ix2 r q := ⟨i 0, i 1, eq_ix2 i⟩
      exact (tanh_at x a W1 W2 b1 b2 gam bet hx ha hW1 hW2 hb1 hb2 hg hb r q).2⟩
end

end Cert.Bridge

end
-- ==== Proof.KerAggReal.lean ====
/-
  The neighbourhood sums keep real data real: a gather only picks entries of its operand, and the scatter-and-add
  starts from zero and adds finitely many of the gathered entries to each entry.
-/
import proofs.«121838_j70282844831870_1_alg».proof.Proof.KerHost
import proofs.«121838_j70282844831870_1_alg».proof.Proof.LibRealEntries

set_option maxRecDepth 16384

noncomputable section

namespace Cert.KernelIdeal.KerHost

open Idealize.ShloMosaic Cert.Proof.Spec Cert.KernelIdeal Cert.KernelIdeal.Gen

/-- The neighbourhood sums of a real array are real. -/
theorem aggOf_real (x : FVec Ideal S50000x128 .f32) (hx : ∀ i, IsReal (x i)) (src dst : IVec S600000 32)
    (i : S50000x128.Idx) : IsReal (aggOf x src dst i) := by
  unfold aggOf Host.scatterAdd
  rw [Ideal.hostScatterAdd_def]
  refine scatterAdd_real _ _ _ _ (fun i => ?_) (fun j => ?_) i
  · show IsReal (Ideal.ofBits .f32 0x00000000#32)
    rw [Ideal.ofBits_zero_f32]; exact IsReal.zero
  · exact hx _

/-- A slab of a real stacked array is real. -/
theorem matOf_real (off : Fin 3 → Nat) (h : S7x128x128.Slices off S1x128x128) (w : FVec Ideal S7x128x128 .f32)
    (hw : ∀ i, IsReal (w i)) (i : S128x128.Idx) : IsReal (matOf off h w i) := by
  unfold matOf shapeCast extractStridedSlice; exact hw _

theorem vecOf_real (off : Fin 2 → Nat) (h : S7x128.Slices off S1x128) (v : FVec Ideal S7x128 .f32)
    (hv : ∀ i, IsReal (v i)) (i : S128.Idx) : IsReal (vecOf off h v i) := by
  unfold vecOf shapeCast extractStridedSlice; exact hv _

theorem rowOf_real (off : Fin 2 → Nat) (h : S7x128.Slices off S1x128) (v : FVec Ideal S7x128 .f32)
    (hv : ∀ i, IsReal (v i)) (i : S1x128.Idx) : IsReal (rowOf off h v i) := by
  unfold rowOf shapeCast; exact vecOf_real off h v hv _

end Cert.KernelIdeal.KerHost

end
-- ==== Proof.KerRefChain.lean ====
/-
  The kernel's stack of layers is the reference's stack of layers, on real launch data.

  The reference's stack is spelt here with the same slices, edge vectors and neighbourhood sums as the kernel's, each layer
  the reference's layer function. Layer by layer the two stacks agree and stay real: a layer's inputs are real (the launch
  data by hypothesis, a previous layer's output by the previous step, neighbourhood sums of real data), so the
  one-layer bridge applies, and its output is real again.
-/
import proofs.«121838_j70282844831870_1_alg».proof.Proof.KerChain
import proofs.«121838_j70282844831870_1_alg».proof.Proof.Bridge
import proofs.«121838_j70282844831870_1_alg».proof.Proof.KerAggReal

set_option maxRecDepth 16384
set_option maxHeartbeats 4000000

noncomputable section

namespace Cert.Bridge

open Idealize.ShloMosaic Idealize.ShloMosaic.TcCoe Idealize.SL.Sem Idealize.ShloMosaic.StableHlo
open Cert.KernelIdeal Cert.KernelIdeal.Gen Cert.KernelIdeal.KerHost Cert.KernelIdeal.KerLayer Cert.KernelIdeal.Chain Cert.Proof.Spec
open Cert.ReferenceIdeal.RefRead (refLayer)

variable (m : (ℓ : Loc nD τ sig) → Buf (Elt Ideal) ℓ)

/-- The reference's stack over the kernel's slices, edge vectors and neighbourhood sums. -/
def RX0 (c : Dev nD) : S50000x128.Idx → EReal :=
  refLayer false (m ((c : Thread nD τ).loc main_arg0)) (aggOf (m ((c : Thread nD τ).loc main_arg0)) (srcOf (m ((c : Thread nD τ).loc main_arg1))) (dstOf (m ((c : Thread nD τ).loc main_arg1))))
      (matOf ![0, 0, 0] slices_S7x128x128_S1x128x128_0_0_0 (m ((c : Thread nD τ).loc main_arg3))) (vecOf ![0, 0] slices_S7x128_S1x128_0_0 (m ((c : Thread nD τ).loc main_arg4)))
      (matOf ![0, 0, 0] slices_S7x128x128_S1x128x128_0_0_0 (m ((c : Thread nD τ).loc main_arg5))) (vecOf ![0, 0] slices_S7x128_S1x128_0_0 (m ((c : Thread nD τ).loc main_arg6)))
      (vecOf ![0, 0] slices_S7x128_S1x128_0_0 (m ((c : Thread nD τ).loc main_arg7))) (vecOf ![0, 0] slices_S7x128_S1x128_0_0 (m ((c : Thread nD τ).loc main_arg8)))

def RX1 (c : Dev nD) : S50000x128.Idx → EReal :=
  refLayer false (RX0 m c) (aggOf (RX0 m c) (srcOf (m ((c : Thread nD τ).loc main_arg1))) (dstOf (m ((c : Thread nD τ).loc main_arg1))))
      (matOf ![1, 0, 0] slices_S7x128x128_S1x128x128_1_0_0 (m ((c : Thread nD τ).loc main_arg3))) (vecOf ![1, 0] slices_S7x128_S1x128_1_0 (m ((c : Thread nD τ).loc main_arg4)))
      (matOf ![1, 0, 0] slices_S7x128x128_S1x128x128_1_0_0 (m ((c : Thread nD τ).loc main_arg5))) (vecOf ![1, 0] slices_S7x128_S1x128_1_0 (m ((c : Thread nD τ).loc main_arg6)))
      (vecOf ![1, 0] slices_S7x128_S1x128_1_0 (m ((c : Thread nD τ).loc main_arg7))) (vecOf ![1, 0] slices_S7x128_S1x128_1_0 (m ((c : Thread nD τ).loc main_arg8)))

def RX2 (c : Dev nD) : S50000x128.Idx → EReal :=
  refLayer false (RX1 m c) (aggOf (RX1 m c) (srcOf (m ((c : Thread nD τ).loc main_arg1))) (dstOf (m ((c : Thread nD τ).loc main_arg1))))
      (matOf ![2, 0, 0] slices_S7x128x128_S1x128x128_2_0_0 (m ((c : Thread nD τ).loc main_arg3))) (vecOf ![2, 0] slices_S7x128_S1x128_2_0 (m ((c : Thread nD τ).loc main_arg4)))
      (matOf ![2, 0, 0] slices_S7x128x128_S1x128x128_2_0_0 (m ((c : Thread nD τ).loc main_arg5))) (vecOf ![2, 0] slices_S7x128_S1x128_2_0 (m ((c : Thread nD τ).loc main_arg6)))
      (vecOf ![2, 0] slices_S7x128_S1x128_2_0 (m ((c : Thread nD τ).loc main_arg7))) (vecOf ![2, 0] slices_S7x128_S1x128_2_0 (m ((c : Thread nD τ).loc main_arg8)))

def RY3 (c : Dev nD) : S50000x128.Idx → EReal :=
  refLayer true (RX2 m c) (aggOf (RX2 m c) (srcOf (m ((c : Thread nD τ).loc main_arg1))) (dstOf (m ((c : Thread nD τ).loc main_arg1))))
      (matOf ![3, 0, 0] slices_S7x128x128_S1x128x128_3_0_0 (m ((c : Thread nD τ).loc main_arg3))) (vecOf ![3, 0] slices_S7x128_S1x128_3_0 (m ((c : Thread nD τ).loc main_arg4)))
      (matOf ![3, 0, 0] slices_S7x128x128_S1x128x128_3_0_0 (m ((c : Thread nD τ).loc main_arg5))) (vecOf ![3, 0] slices_S7x128_S1x128_3_0 (m ((c : Thread nD τ).loc main_arg6)))
      (vecOf ![3, 0] slices_S7x128_S1x128_3_0 (m ((c : Thread nD τ).loc main_arg7))) (vecOf ![3, 0] slices_S7x128_S1x128_3_0 (m ((c : Thread nD τ).loc main_arg8)))

def RY4 (c : Dev nD) : S50000x128.Idx → EReal :=
  refLayer true (RX2 m c) (aggOf (RX2 m c) (srcOf (m ((c : Thread nD τ).loc main_arg1))) (dstOf (m ((c : Thread nD τ).loc main_arg1))))
      (matOf ![4, 0, 0] slices_S7x128x128_S1x128x128_4_0_0 (m ((c : Thread nD τ).loc main_arg3))) (vecOf ![4, 0] slices_S7x128_S1x128_4_0 (m ((c : Thread nD τ).loc main_arg4)))
      (matOf ![4, 0, 0] slices_S7x128x128_S1x128x128_4_0_0 (m ((c : Thread nD τ).loc main_arg5))) (vecOf ![4, 0] slices_S7x128_S1x128_4_0 (m ((c : Thread nD τ).loc main_arg6)))
      (vecOf ![4, 0] slices_S7x128_S1x128_4_0 (m ((c : Thread nD τ).loc main_arg7))) (vecOf ![4, 0] slices_S7x128_S1x128_4_0 (m ((c : Thread nD τ).loc main_arg8)))

def RY5 (c : Dev nD) : S50000x128.Idx → EReal :=
  refLayer true (RX2 m c) (aggOf (RX2 m c) (srcOf (m ((c : Thread nD τ).loc main_arg1))) (dstOf (m ((c : Thread nD τ).loc main_arg1))))
      (matOf ![5, 0, 0] slices_S7x128x128_S1x128x128_5_0_0 (m ((c : Thread nD τ).loc main_arg3))) (vecOf ![5, 0] slices_S7x128_S1x128_5_0 (m ((c : Thread nD τ).loc main_arg4)))
      (matOf ![5, 0, 0] slices_S7x128x128_S1x128x128_5_0_0 (m ((c : Thread nD τ).loc main_arg5))) (vecOf ![5, 0] slices_S7x128_S1x128_5_0 (m ((c : Thread nD τ).loc main_arg6)))
      (vecOf ![5, 0] slices_S7x128_S1x128_5_0 (m ((c : Thread nD τ).loc main_arg7))) (vecOf ![5, 0] slices_S7x128_S1x128_5_0 (m ((c : Thread nD τ).loc main_arg8)))

def RY6 (c : Dev nD) : S50000x128.Idx → EReal :=
  refLayer true (RX2 m c) (aggOf (RX2 m c) (srcOf (m ((c : Thread nD τ).loc main_arg1))) (dstOf (m ((c : Thread nD τ).loc main_arg1))))
      (matOf ![6, 0, 0] slices_S7x128x128_S1x128x128_6_0_0 (m ((c : Thread nD τ).loc main_arg3))) (vecOf ![6, 0] slices_S7x128_S1x128_6_0 (m ((c : Thread nD τ).loc main_arg4)))
      (matOf ![6, 0, 0] slices_S7x128x128_S1x128x128_6_0_0 (m ((c : Thread nD τ).loc main_arg5))) (vecOf ![6, 0] slices_S7x128_S1x128_6_0 (m ((c : Thread nD τ).loc main_arg6)))
      (vecOf ![6, 0] slices_S7x128_S1x128_6_0 (m ((c : Thread nD τ).loc main_arg7))) (vecOf ![6, 0] slices_S7x128_S1x128_6_0 (m ((c : Thread nD τ).loc main_arg8)))

section
variable (c : Dev nD)
  (h0 : ∀ i, IsReal ((m ((c : Thread nD τ).loc main_arg0)) i)) (h3 : ∀ i, IsReal ((m ((c : Thread nD τ).loc main_arg3)) i)) (h4 : ∀ i, IsReal ((m ((c : Thread nD τ).loc main_arg4)) i))
  (h5 : ∀ i, IsReal ((m ((c : Thread nD τ).loc main_arg5)) i)) (h6 : ∀ i, IsReal ((m ((c : Thread nD τ).loc main_arg6)) i)) (h7 : ∀ i, IsReal ((m ((c : Thread nD τ).loc main_arg7)) i))
  (h8 : ∀ i, IsReal ((m ((c : Thread nD τ).loc main_arg8)) i))

include h0 h3 h4 h5 h6 h7 h8

theorem x0 : X0 m c = RX0 m c ∧ ∀ i, IsReal (X0 m c i) :=
  relu_layer (m ((c : Thread nD τ).loc main_arg0)) (aggOf (m ((c : Thread nD τ).loc main_arg0)) (srcOf (m ((c : Thread nD τ).loc main_arg1))) (dstOf (m ((c : Thread nD τ).loc main_arg1))))
      (matOf ![0, 0, 0] slices_S7x128x128_S1x128x128_0_0_0 (m ((c : Thread nD τ).loc main_arg3))) (matOf ![0, 0, 0] slices_S7x128x128_S1x128x128_0_0_0 (m ((c : Thread nD τ).loc main_arg5))) (vecOf ![0, 0] slices_S7x128_S1x128_0_0 (m ((c : Thread nD τ).loc main_arg4))) (vecOf ![0, 0] slices_S7x128_S1x128_0_0 (m ((c : Thread nD τ).loc main_arg6))) (vecOf ![0, 0] slices_S7x128_S1x128_0_0 (m ((c : Thread nD τ).loc main_arg7))) (vecOf ![0, 0] slices_S7x128_S1x128_0_0 (m ((c : Thread nD τ).loc main_arg8)))
      h0 (aggOf_real _ h0 _ _)
      (matOf_real _ _ _ h3) (matOf_real _ _ _ h5) (vecOf_real _ _ _ h4) (vecOf_real _ _ _ h6) (vecOf_real _ _ _ h7) (vecOf_real _ _ _ h8)

theorem x1 : X1 m c = RX1 m c ∧ ∀ i, IsReal (X1 m c i) := by
  obtain ⟨e, hr⟩ := x0 m c h0 h3 h4 h5 h6 h7 h8
  have k := relu_layer (X0 m c) (aggOf (X0 m c) (srcOf (m ((c : Thread nD τ).loc main_arg1))) (dstOf (m ((c : Thread nD τ).loc main_arg1))))
      (matOf ![1, 0, 0] slices_S7x128x128_S1x128x128_1_0_0 (m ((c : Thread nD τ).loc main_arg3))) (matOf ![1, 0, 0] slices_S7x128x128_S1x128x128_1_0_0 (m ((c : Thread nD τ).loc main_arg5))) (vecOf ![1, 0] slices_S7x128_S1x128_1_0 (m ((c : Thread nD τ).loc main_arg4))) (vecOf ![1, 0] slices_S7x128_S1x128_1_0 (m ((c : Thread nD τ).loc main_arg6))) (vecOf ![1, 0] slices_S7x128_S1x128_1_0 (m ((c : Thread nD τ).loc main_arg7))) (vecOf ![1, 0] slices_S7x128_S1x128_1_0 (m ((c : Thread nD τ).loc main_arg8)))
      hr (aggOf_real _ hr _ _)
      (matOf_real _ _ _ h3) (matOf_real _ _ _ h5) (vecOf_real _ _ _ h4) (vecOf_real _ _ _ h6) (vecOf_real _ _ _ h7) (vecOf_real _ _ _ h8)
  refine ⟨k.1.trans ?_, k.2⟩
  unfold RX1; rw [e]

theorem x2 : X2 m c = RX2 m c ∧ ∀ i, IsReal (X2 m c i) := by
  obtain ⟨e, hr⟩ := x1 m c h0 h3 h4 h5 h6 h7 h8
  have k := relu_layer (X1 m c) (aggOf (X1 m c) (srcOf (m ((c : Thread nD τ).loc main_arg1))) (dstOf (m ((c : Thread nD τ).loc main_arg1))))
      (matOf ![2, 0, 0] slices_S7x128x128_S1x128x128_2_0_0 (m ((c : Thread nD τ).loc main_arg3))) (matOf ![2, 0, 0] slices_S7x128x128_S1x128x128_2_0_0 (m ((c : Thread nD τ).loc main_arg5))) (vecOf ![2, 0] slices_S7x128_S1x128_2_0 (m ((c : Thread nD τ).loc main_arg4))) (vecOf ![2, 0] slices_S7x128_S1x128_2_0 (m ((c : Thread nD τ).loc main_arg6))) (vecOf ![2, 0] slices_S7x128_S1x128_2_0 (m ((c : Thread nD τ).loc main_arg7))) (vecOf ![2, 0] slices_S7x128_S1x128_2_0 (m ((c : Thread nD τ).loc main_arg8)))
      hr (aggOf_real _ hr _ _)
      (matOf_real _ _ _ h3) (matOf_real _ _ _ h5) (vecOf_real _ _ _ h4) (vecOf_real _ _ _ h6) (vecOf_real _ _ _ h7) (vecOf_real _ _ _ h8)
  refine ⟨k.1.trans ?_, k.2⟩
  unfold RX2; rw [e]

theorem y3 : Y3 m c = RY3 m c := by
  obtain ⟨e, hr⟩ := x2 m c h0 h3 h4 h5 h6 h7 h8
  have k := tanh_layer (X2 m c) (A3 m c)
      (matOf ![3, 0, 0] slices_S7x128x128_S1x128x128_3_0_0 (m ((c : Thread nD τ).loc main_arg3))) (matOf ![3, 0, 0] slices_S7x128x128_S1x128x128_3_0_0 (m ((c : Thread nD τ).loc main_arg5))) (vecOf ![3, 0] slices_S7x128_S1x128_3_0 (m ((c : Thread nD τ).loc main_arg4))) (vecOf ![3, 0] slices_S7x128_S1x128_3_0 (m ((c : Thread nD τ).loc main_arg6))) (vecOf ![3, 0] slices_S7x128_S1x128_3_0 (m ((c : Thread nD τ).loc main_arg7))) (vecOf ![3, 0] slices_S7x128_S1x128_3_0 (m ((c : Thread nD τ).loc main_arg8)))
      hr (aggOf_real _ hr _ _)
      (matOf_real _ _ _ h3) (matOf_real _ _ _ h5) (vecOf_real _ _ _ h4) (vecOf_real _ _ _ h6) (vecOf_real _ _ _ h7) (vecOf_real _ _ _ h8)
  refine k.1.trans ?_
  unfold RY3 A3; rw [e]

theorem y4 : Y4 m c = RY4 m c := by
  obtain ⟨e, hr⟩ := x2 m c h0 h3 h4 h5 h6 h7 h8
  have k := tanh_layer (X2 m c) (A3 m c)
      (matOf ![4, 0, 0] slices_S7x128x128_S1x128x128_4_0_0 (m ((c : Thread nD τ).loc main_arg3))) (matOf ![4, 0, 0] slices_S7x128x128_S1x128x128_4_0_0 (m ((c : Thread nD τ).loc main_arg5))) (vecOf ![4, 0] slices_S7x128_S1x128_4_0 (m ((c : Thread nD τ).loc main_arg4))) (vecOf ![4, 0] slices_S7x128_S1x128_4_0 (m ((c : Thread nD τ).loc main_arg6))) (vecOf ![4, 0] slices_S7x128_S1x128_4_0 (m ((c : Thread nD τ).loc main_arg7))) (vecOf ![4, 0] slices_S7x128_S1x128_4_0 (m ((c : Thread nD τ).loc main_arg8)))
      hr (aggOf_real _ hr _ _)
      (matOf_real _ _ _ h3) (matOf_real _ _ _ h5) (vecOf_real _ _ _ h4) (vecOf_real _ _ _ h6) (vecOf_real _ _ _ h7) (vecOf_real _ _ _ h8)
  refine k.1.trans ?_
  unfold RY4 A3; rw [e]

theorem y5 : Y5 m c = RY5 m c := by
  obtain ⟨e, hr⟩ := x2 m c h0 h3 h4 h5 h6 h7 h8
  have k := tanh_layer (X2 m c) (A3 m c)
      (matOf ![5, 0, 0] slices_S7x128x128_S1x128x128_5_0_0 (m ((c : Thread nD τ).loc main_arg3))) (matOf ![5, 0, 0] slices_S7x128x128_S1x128x128_5_0_0 (m ((c : Thread nD τ).loc main_arg5))) (vecOf ![5, 0] slices_S7x128_S1x128_5_0 (m ((c : Thread nD τ).loc main_arg4))) (vecOf ![5, 0] slices_S7x128_S1x128_5_0 (m ((c : Thread nD τ).loc main_arg6))) (vecOf ![5, 0] slices_S7x128_S1x128_5_0 (m ((c : Thread nD τ).loc main_arg7))) (vecOf ![5, 0] slices_S7x128_S1x128_5_0 (m ((c : Thread nD τ).loc main_arg8)))
      hr (aggOf_real _ hr _ _)
      (matOf_real _ _ _ h3) (matOf_real _ _ _ h5) (vecOf_real _ _ _ h4) (vecOf_real _ _ _ h6) (vecOf_real _ _ _ h7) (vecOf_real _ _ _ h8)
  refine k.1.trans ?_
  unfold RY5 A3; rw [e]

theorem y6 : Y6 m c = RY6 m c := by
  obtain ⟨e, hr⟩ := x2 m c h0 h3 h4 h5 h6 h7 h8
  have k := tanh_layer (X2 m c) (A3 m c)
      (matOf ![6, 0, 0] slices_S7x128x128_S1x128x128_6_0_0 (m ((c : Thread nD τ).loc main_arg3))) (matOf ![6, 0, 0] slices_S7x128x128_S1x128x128_6_0_0 (m ((c : Thread nD τ).loc main_arg5))) (vecOf ![6, 0] slices_S7x128_S1x128_6_0 (m ((c : Thread nD τ).loc main_arg4))) (vecOf ![6, 0] slices_S7x128_S1x128_6_0 (m ((c : Thread nD τ).loc main_arg6))) (vecOf ![6, 0] slices_S7x128_S1x128_6_0 (m ((c : Thread nD τ).loc main_arg7))) (vecOf ![6, 0] slices_S7x128_S1x128_6_0 (m ((c : Thread nD τ).loc main_arg8)))
      hr (aggOf_real _ hr _ _)
      (matOf_real _ _ _ h3) (matOf_real _ _ _ h5) (vecOf_real _ _ _ h4) (vecOf_real _ _ _ h6) (vecOf_real _ _ _ h7) (vecOf_real _ _ _ h8)
  refine k.1.trans ?_
  unfold RY6 A3; rw [e]

end

end Cert.Bridge

end
-- ==== Proof.PreReal.lean ====
/-
  From the precondition "every float argument is finite" to "every entry of every float argument is a real number".

  The precondition is printed as: for each of the seven float arguments, `|x| < +∞` at every entry, all of them
  conjoined (`and` over all entries of an argument, then `and` across the arguments), and it holds when that one bit is 1.
  On the extended reals `|x| = max x (−x)`, and `max x (−x) < +∞` excludes both infinities; what remains is a real.
-/
import proofs.«121838_j70282844831870_1_alg».proof.Proof.Gen.Pre_finite_inputs
import proofs.«121838_j70282844831870_1_alg».proof.Proof.LibRealEntries
import Idealize.ShloMosaic.Lib.ReduceAll
import Idealize.ShloMosaic.Lib.Affine
import Idealize.ShloMosaic.Lib.ValueIdx

set_option maxRecDepth 16384

noncomputable section

namespace Cert.PreReal

open Idealize.ShloMosaic Cert.Proof.Spec Cert.Pre_finite_inputs Cert.Pre_finite_inputs.Gen

instance : Subsingleton S_.Idx := ⟨fun a b => funext fun d => d.elim0⟩

/-- The pattern of `+∞` denotes the top element. -/
theorem ofBits_inf : Ideal.ofBits .f32 0x7F800000#32 = (⊤ : EReal) := by
  simp [Ideal.ofBits, Ideal.ieee]

/-- An extended real whose absolute value compares below `+∞` is a real number. -/
theorem real_of_abs_lt (x : EReal) (h : Ideal.cmp .olt (max x (-x)) (Ideal.ofBits .f32 0x7F800000#32) = 1#1) :
    IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One argument's conjunct gives every entry real. -/
theorem real_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) (i : s.Idx) : IsReal (x i) :=
  real_of_abs_lt (x i) (Host.reduce_andi_all _ _ hr hu ValueIdx.ix0 e i)

/-- THE DECODING: the precondition's bit is 1 only if every entry of the seven float arguments is a real number. -/
theorem all_real (a0 : FVec Ideal S50000x128 .f32) (a1 : IVec S2x600000 32) (a2 : IVec S50000 32)
    (a3 : FVec Ideal S7x128x128 .f32) (a4 : FVec Ideal S7x128 .f32) (a5 : FVec Ideal S7x128x128 .f32)
    (a6 a7 a8 : FVec Ideal S7x128 .f32)
    (h : Cert.Pre_finite_inputs.fn (F := Ideal) a0 a1 a2 a3 a4 a5 a6 a7 a8 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e3⟩, e4⟩, e5⟩, e6⟩, e7⟩, e8⟩ := h0
  exact ⟨real_of_all a0 _ _ _ e0, real_of_all a3 _ _ _ e3, real_of_all a4 _ _ _ e4, real_of_all a5 _ _ _ e5,
    real_of_all a6 _ _ _ e6, real_of_all a7 _ _ _ e7, real_of_all a8 _ _ _ e8⟩

end Cert.PreReal

end
-- ==== Proof.RefSsa.lean ====
/- Every buffer of a straight line of host operations that is written once holds, at the end, its operation's function of
   what the operands hold at the end: the operands were written earlier (or never) and nothing after the operation
   writes them or its result. Stated over a list of operations beside the list of the references they write, position
   by position; which reference is written where is told by the references' indices, which run up along the line. -/
import proofs.«121838_j70282844831870_1_alg».proof.Proof.RefRun

namespace Cert.ReferenceIdeal.RefSsa

open Idealize.ShloMosaic Idealize.ShloMosaic.StableHlo Idealize.SL.Sem

variable {τ : Topo} {sig : RefSig} {Val : EltTy → Type}

/-- Operation by operation, `l` writes exactly the references `W`. -/
def WritesAt (l : List (HloOp τ sig Val)) (W : List (Ref sig .tc)) : Prop :=
  List.Forall₂ (fun op r => op.writes = {Proc.devRef (τ := τ) .tc r}) l W

theorem WritesAt.drop {l : List (HloOp τ sig Val)} {W : List (Ref sig .tc)} (h : WritesAt l W) (n : Nat) :
    WritesAt (l.drop n) (W.drop n) := List.forall₂_drop n h

theorem WritesAt.append {l₁ l₂ : List (HloOp τ sig Val)} {W₁ W₂ : List (Ref sig .tc)} (h₁ : WritesAt l₁ W₁)
    (h₂ : WritesAt l₂ W₂) : WritesAt (l₁ ++ l₂) (W₁ ++ W₂) := List.rel_append h₁ h₂

/-- A reference outside the written ones keeps its contents. -/
theorem after_of_writesAt {l : List (HloOp τ sig Val)} {W : List (Ref sig .tc)} (h : WritesAt l W) {r : Ref sig .tc}
    (hr : r ∉ W) (V : Valuation τ sig Val) : after l V (Proc.devRef .tc r) = V (Proc.devRef .tc r) := by
  induction h generalizing V with
  | nil => rfl
  | @cons op r' l W hop _ ih =>
    rw [after_cons, ih (fun hm => hr (List.mem_cons_of_mem _ hm)),
      op.result_of_not_mem V (by
        rw [hop, Finset.mem_singleton]
        exact devRef_ne_of_ne fun e => hr (e ▸ List.mem_cons_self))]

/-- The line split at position `j`: what precedes, the operation there, what follows. -/
theorem after_split {l : List (HloOp τ sig Val)} {j : Nat} {op : HloOp τ sig Val} (hj : l[j]? = some op)
    (V : Valuation τ sig Val) : after l V = after (l.drop (j + 1)) (op.result (after (l.take j) V)) := by
  obtain ⟨hlt, rfl⟩ := List.getElem?_eq_some_iff.mp hj
  conv_lhs => rw [← List.take_append_drop j l, after_append, List.drop_eq_getElem_cons hlt, after_cons]

/-- A reference that nothing from position `j` on writes holds at the end what it held before position `j`. -/
theorem after_eq_take {l : List (HloOp τ sig Val)} {W : List (Ref sig .tc)} (hW : WritesAt l W) (j : Nat)
    {r : Ref sig .tc} (hr : r ∉ W.drop j) (V : Valuation τ sig Val) :
    after l V (Proc.devRef .tc r) = after (l.take j) V (Proc.devRef .tc r) := by
  conv_lhs => rw [← List.take_append_drop j l, after_append]
  exact after_of_writesAt (hW.drop j) hr _

/-! ## References told apart by their indices -/

/-- A reference's index in its memory space. -/
def key (r : Ref sig .tc) : Nat := r.idx.val

/-- In a list whose indices are the consecutive naturals from `b`, a reference of smaller index than `b + j` is not
    among the entries from position `j` on. -/
theorem not_mem_drop_of_key_lt {W : List (Ref sig .tc)} {b n : Nat} (hW : W.map key = List.range' b n) (j : Nat)
    {r : Ref sig .tc} (hr : key r < b + j) : r ∉ W.drop j := by
  intro hm
  have h : key r ∈ (W.drop j).map key := List.mem_map_of_mem hm
  rw [List.map_drop, hW, List.drop_range', List.mem_range'_1] at h
  omega

theorem not_mem_of_key_lt {W : List (Ref sig .tc)} {b n : Nat} (hW : W.map key = List.range' b n)
    {r : Ref sig .tc} (hr : key r < b) : r ∉ W := by
  have := not_mem_drop_of_key_lt hW 0 (r := r) (by omega)
  rwa [List.drop_zero] at this

theorem keys_append {A B : List (Ref sig .tc)} {b m n : Nat} (hA : A.map key = List.range' b m)
    (hB : B.map key = List.range' (b + m) n) : (A ++ B).map key = List.range' b (m + n) := by
  rw [List.map_append, hA, hB, List.range'_append_1]

/-! ## One window of a longer line

The line is a prefix (already run: any contents `V`), the window `mid`, whose written references have the `n` indices
from `b`, and the rest `post`, whose written references have the indices from `b + n`. -/

/-- The facts of a window and what follows it. -/
def Win (mid post : List (HloOp τ sig Val)) (b n : Nat) : Prop :=
  ∃ (Wm Wp : List (Ref sig .tc)) (np : Nat), WritesAt mid Wm ∧ WritesAt post Wp ∧ Wm.map key = List.range' b n
    ∧ Wp.map key = List.range' (b + n) np

section Window

variable {mid post : List (HloOp τ sig Val)} {b n : Nat} (w : Win mid post b n)
  (j : Nat) {A V : Valuation τ sig Val} (hA : A = after post (after mid V))

include w hA

/-- What position `j` of the window needs of a reference: written before it, or never. -/
theorem Win.early {op : HloOp τ sig Val} (hj : mid[j]? = some op) {r : Ref sig .tc} (hr : key r < b + j) :
    A (Proc.devRef .tc r) = after (mid.take j) V (Proc.devRef .tc r) := by
  obtain ⟨Wm, Wp, np, hm, hp, km, kp⟩ := w
  subst hA
  have hjn : j < n := by
    have h1 := (List.getElem?_eq_some_iff.mp hj).1
    have h2 : mid.length = Wm.length := List.Forall₂.length_eq hm
    have h3 : (Wm.map key).length = n := by rw [km, List.length_range']
    rw [List.length_map] at h3; omega
  rw [after_of_writesAt hp (not_mem_of_key_lt kp (by omega)), after_eq_take hm j (not_mem_drop_of_key_lt km j hr)]

/-- … and of the reference it writes itself: not written again. -/
theorem Win.own {op : HloOp τ sig Val} (hj : mid[j]? = some op) {y : Ref sig .tc} (hy : key y < b + j + 1) :
    A (Proc.devRef .tc y) = op.result (after (mid.take j) V) (Proc.devRef .tc y) := by
  obtain ⟨Wm, Wp, np, hm, hp, km, kp⟩ := w
  subst hA
  have hjn : j < n := by
    have h1 := (List.getElem?_eq_some_iff.mp hj).1
    have h2 : mid.length = Wm.length := List.Forall₂.length_eq hm
    have h3 : (Wm.map key).length = n := by rw [km, List.length_range']
    rw [List.length_map] at h3; omega
  rw [after_of_writesAt hp (not_mem_of_key_lt kp (by omega)), after_split hj,
    after_of_writesAt (hm.drop (j + 1)) (not_mem_drop_of_key_lt km (j + 1) (by omega))]

theorem win_nullary (y : Ref sig .tc) (v : y.ty.Contents Val) (hy)
    (hj : mid[j]? = some (nullary y v hy)) (hy' : key y < b + j + 1) :
    A (Proc.devRef .tc y) = v := by
  rw [w.own j hA hj hy', nullary_result]

theorem win_unary (x y : Ref sig .tc) (f : x.ty.Contents Val → y.ty.Contents Val) (hx hy)
    (hj : mid[j]? = some (unary x y f hx hy)) (hy' : key y < b + j + 1) (hx' : key x < b + j) :
    A (Proc.devRef .tc y) = f (A (Proc.devRef .tc x)) := by
  rw [w.own j hA hj hy', w.early j hA hj hx', unary_result]

theorem win_binary (a c y : Ref sig .tc) (f : a.ty.Contents Val → c.ty.Contents Val → y.ty.Contents Val) (ha hc hy)
    (hj : mid[j]? = some (binary a c y f ha hc hy)) (hy' : key y < b + j + 1) (ha' : key a < b + j) (hc' : key c < b + j) :
    A (Proc.devRef .tc y) = f (A (Proc.devRef .tc a)) (A (Proc.devRef .tc c)) := by
  rw [w.own j hA hj hy', w.early j hA hj ha', w.early j hA hj hc', binary_result]

theorem win_ternary (c a e y : Ref sig .tc)
    (f : c.ty.Contents Val → a.ty.Contents Val → e.ty.Contents Val → y.ty.Contents Val) (hc ha he hy)
    (hj : mid[j]? = some (ternary c a e y f hc ha he hy)) (hy' : key y < b + j + 1) (hc' : key c < b + j)
    (ha' : key a < b + j) (he' : key e < b + j) :
    A (Proc.devRef .tc y) = f (A (Proc.devRef .tc c)) (A (Proc.devRef .tc a)) (A (Proc.devRef .tc e)) := by
  rw [w.own j hA hj hy', w.early j hA hj hc', w.early j hA hj ha', w.early j hA hj he', ternary_result]

theorem win_reshape (x y : Ref sig .tc) (he hn hx hy)
    (hj : mid[j]? = some (reshape (Val := Val) x y he hn hx hy)) (hy' : key y < b + j + 1) (hx' : key x < b + j) :
    A (Proc.devRef .tc y) = fun i => he ▸ shapeCast y.ty.shape (A (Proc.devRef .tc x)) hn i := by
  rw [w.own j hA hj hy', w.early j hA hj hx', reshape_result]

end Window

end Cert.ReferenceIdeal.RefSsa

/-! ## The reference program's windows -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefSsa

variable {F : FTy → Type} [FloatOps F]

set_option maxRecDepth 8192 in
theorem ops0_writesAt : WritesAt (ops0 : List (HloOp τ sig (Elt F))) ops0_W := by
  unfold WritesAt; repeat (first | exact List.Forall₂.nil | refine List.Forall₂.cons rfl ?_)
set_option maxRecDepth 8192 in
theorem ops1_writesAt : WritesAt (ops1 : List (HloOp τ sig (Elt F))) ops1_W := by
  unfold WritesAt; repeat (first | exact List.Forall₂.nil | refine List.Forall₂.cons rfl ?_)
set_option maxRecDepth 8192 in
theorem ops2_writesAt : WritesAt (ops2 : List (HloOp τ sig (Elt F))) ops2_W := by
  unfold WritesAt; repeat (first | exact List.Forall₂.nil | refine List.Forall₂.cons rfl ?_)
set_option maxRecDepth 8192 in
theorem ops3_writesAt : WritesAt (ops3 : List (HloOp τ sig (Elt F))) ops3_W := by
  unfold WritesAt; repeat (first | exact List.Forall₂.nil | refine List.Forall₂.cons rfl ?_)
set_option maxRecDepth 8192 in
theorem ops4_writesAt : WritesAt (ops4 : List (HloOp τ sig (Elt F))) ops4_W := by
  unfold WritesAt; repeat (first | exact List.Forall₂.nil | refine List.Forall₂.cons rfl ?_)
set_option maxRecDepth 8192 in
theorem ops5_writesAt : WritesAt (ops5 : List (HloOp τ sig (Elt F))) ops5_W := by
  unfold WritesAt; repeat (first | exact List.Forall₂.nil | refine List.Forall₂.cons rfl ?_)
set_option maxRecDepth 8192 in
theorem ops6_writesAt : WritesAt (ops6 : List (HloOp τ sig (Elt F))) ops6_W := by
  unfold WritesAt; repeat (first | exact List.Forall₂.nil | refine List.Forall₂.cons rfl ?_)
set_option maxRecDepth 8192 in
theorem ops7_writesAt : WritesAt (ops7 : List (HloOp τ sig (Elt F))) ops7_W := by
  unfold WritesAt; repeat (first | exact List.Forall₂.nil | refine List.Forall₂.cons rfl ?_)

theorem ops0_keys : (ops0_W : List (Ref sig .tc)).map key = List.range' 9 81 := by decide +kernel
theorem ops1_keys : (ops1_W : List (Ref sig .tc)).map key = List.range' 90 81 := by decide +kernel
theorem ops2_keys : (ops2_W : List (Ref sig .tc)).map key = List.range' 171 81 := by decide +kernel
theorem ops3_keys : (ops3_W : List (Ref sig .tc)).map key = List.range' 252 81 := by decide +kernel
theorem ops4_keys : (ops4_W : List (Ref sig .tc)).map key = List.range' 333 81 := by decide +kernel
theorem ops5_keys : (ops5_W : List (Ref sig .tc)).map key = List.range' 414 81 := by decide +kernel
theorem ops6_keys : (ops6_W : List (Ref sig .tc)).map key = List.range' 495 60 := by decide +kernel
theorem ops7_keys : (ops7_W : List (Ref sig .tc)).map key = List.range' 555 38 := by decide +kernel

abbrev post7 : List (HloOp τ sig (Elt F)) := []
abbrev post6 : List (HloOp τ sig (Elt F)) := ops7
abbrev post5 : List (HloOp τ sig (Elt F)) := ops6 ++ post6
abbrev post4 : List (HloOp τ sig (Elt F)) := ops5 ++ post5
abbrev post3 : List (HloOp τ sig (Elt F)) := ops4 ++ post4
abbrev post2 : List (HloOp τ sig (Elt F)) := ops3 ++ post3
abbrev post1 : List (HloOp τ sig (Elt F)) := ops2 ++ post2
abbrev post0 : List (HloOp τ sig (Elt F)) := ops1 ++ post1
abbrev post7_W : List (Ref sig .tc) := []
abbrev post6_W : List (Ref sig .tc) := ops7_W
abbrev post5_W : List (Ref sig .tc) := ops6_W ++ post6_W
abbrev post4_W : List (Ref sig .tc) := ops5_W ++ post5_W
abbrev post3_W : List (Ref sig .tc) := ops4_W ++ post4_W
abbrev post2_W : List (Ref sig .tc) := ops3_W ++ post3_W
abbrev post1_W : List (Ref sig .tc) := ops2_W ++ post2_W
abbrev post0_W : List (Ref sig .tc) := ops1_W ++ post1_W
theorem post7_writesAt : WritesAt (post7 : List (HloOp τ sig (Elt F))) post7_W := List.Forall₂.nil
theorem post6_writesAt : WritesAt (post6 : List (HloOp τ sig (Elt F))) post6_W := ops7_writesAt
theorem post5_writesAt : WritesAt (post5 : List (HloOp τ sig (Elt F))) post5_W := ops6_writesAt.append post6_writesAt
theorem post4_writesAt : WritesAt (post4 : List (HloOp τ sig (Elt F))) post4_W := ops5_writesAt.append post5_writesAt
theorem post3_writesAt : WritesAt (post3 : List (HloOp τ sig (Elt F))) post3_W := ops4_writesAt.append post4_writesAt
theorem post2_writesAt : WritesAt (post2 : List (HloOp τ sig (Elt F))) post2_W := ops3_writesAt.append post3_writesAt
theorem post1_writesAt : WritesAt (post1 : List (HloOp τ sig (Elt F))) post1_W := ops2_writesAt.append post2_writesAt
theorem post0_writesAt : WritesAt (post0 : List (HloOp τ sig (Elt F))) post0_W := ops1_writesAt.append post1_writesAt
theorem post7_keys : (post7_W : List (Ref sig .tc)).map key = List.range' 593 0 := rfl
theorem post6_keys : (post6_W : List (Ref sig .tc)).map key = List.range' 555 38 := ops7_keys
theorem post5_keys : (post5_W : List (Ref sig .tc)).map key = List.range' 495 98 := keys_append ops6_keys post6_keys
theorem post4_keys : (post4_W : List (Ref sig .tc)).map key = List.range' 414 179 := keys_append ops5_keys post5_keys
theorem post3_keys : (post3_W : List (Ref sig .tc)).map key = List.range' 333 260 := keys_append ops4_keys post4_keys
theorem post2_keys : (post2_W : List (Ref sig .tc)).map key = List.range' 252 341 := keys_append ops3_keys post3_keys
theorem post1_keys : (post1_W : List (Ref sig .tc)).map key = List.range' 171 422 := keys_append ops2_keys post2_keys
theorem post0_keys : (post0_W : List (Ref sig .tc)).map key = List.range' 90 503 := keys_append ops1_keys post1_keys

theorem win0 : Win (ops0 : List (HloOp τ sig (Elt F))) post0 9 81 :=
  ⟨ops0_W, post0_W, 503, ops0_writesAt, post0_writesAt, ops0_keys, post0_keys⟩
theorem win1 : Win (ops1 : List (HloOp τ sig (Elt F))) post1 90 81 :=
  ⟨ops1_W, post1_W, 422, ops1_writesAt, post1_writesAt, ops1_keys, post1_keys⟩
theorem win2 : Win (ops2 : List (HloOp τ sig (Elt F))) post2 171 81 :=
  ⟨ops2_W, post2_W, 341, ops2_writesAt, post2_writesAt, ops2_keys, post2_keys⟩
theorem win3 : Win (ops3 : List (HloOp τ sig (Elt F))) post3 252 81 :=
  ⟨ops3_W, post3_W, 260, ops3_writesAt, post3_writesAt, ops3_keys, post3_keys⟩
theorem win4 : Win (ops4 : List (HloOp τ sig (Elt F))) post4 333 81 :=
  ⟨ops4_W, post4_W, 179, ops4_writesAt, post4_writesAt, ops4_keys, post4_keys⟩
theorem win5 : Win (ops5 : List (HloOp τ sig (Elt F))) post5 414 81 :=
  ⟨ops5_W, post5_W, 98, ops5_writesAt, post5_writesAt, ops5_keys, post5_keys⟩
theorem win6 : Win (ops6 : List (HloOp τ sig (Elt F))) post6 495 60 :=
  ⟨ops6_W, post6_W, 38, ops6_writesAt, post6_writesAt, ops6_keys, post6_keys⟩
theorem win7 : Win (ops7 : List (HloOp τ sig (Elt F))) post7 555 38 :=
  ⟨ops7_W, post7_W, 0, ops7_writesAt, post7_writesAt, ops7_keys, post7_keys⟩

theorem split0 (V : Valuation τ sig (Elt F)) : after ops V = after post0 (after ops0 V) := after_append ops0 post0 V
theorem split1 (V : Valuation τ sig (Elt F)) : after ops V = after post1 (after ops1 (after ops0 V)) :=
  (split0 V).trans (after_append ops1 post1 _)
theorem split2 (V : Valuation τ sig (Elt F)) : after ops V = after post2 (after ops2 (after ops1 (after ops0 V))) :=
  (split1 V).trans (after_append ops2 post2 _)
theorem split3 (V : Valuation τ sig (Elt F)) : after ops V = after post3 (after ops3 (after ops2 (after ops1 (after ops0 V)))) :=
  (split2 V).trans (after_append ops3 post3 _)
theorem split4 (V : Valuation τ sig (Elt F)) :
    after ops V = after post4 (after ops4 (after ops3 (after ops2 (after ops1 (after ops0 V))))) :=
  (split3 V).trans (after_append ops4 post4 _)
theorem split5 (V : Valuation τ sig (Elt F)) :
    after ops V = after post5 (after ops5 (after ops4 (after ops3 (after ops2 (after ops1 (after ops0 V)))))) :=
  (split4 V).trans (after_append ops5 post5 _)
theorem split6 (V : Valuation τ sig (Elt F)) :
    after ops V = after post6 (after ops6 (after ops5 (after ops4 (after ops3 (after ops2 (after ops1 (after ops0 V))))))) :=
  (split5 V).trans (after_append ops6 post6 _)
theorem split7 (V : Valuation τ sig (Elt F)) :
    after ops V = after post7 (after ops7 (after ops6 (after ops5 (after ops4 (after ops3 (after ops2 (after ops1 (after ops0 V)))))))) :=
  split6 V

/-! ## The contents at the end of the run, under a name of its own -/

/-- What the device's buffers hold when @main has run from contents `V`. -/
def finV (V : Valuation τ sig (Elt F)) : Valuation τ sig (Elt F) := after ops V

theorem finV_eq (V : Valuation τ sig (Elt F)) : finV V = after ops V := rfl

theorem finV_split0 (V : Valuation τ sig (Elt F)) : finV V = after post0 (after ops0 (V)) := split0 V
theorem finV_split1 (V : Valuation τ sig (Elt F)) : finV V = after post1 (after ops1 (after ops0 (V))) := split1 V
theorem finV_split2 (V : Valuation τ sig (Elt F)) : finV V = after post2 (after ops2 (after ops1 (after ops0 (V)))) := split2 V
theorem finV_split3 (V : Valuation τ sig (Elt F)) : finV V = after post3 (after ops3 (after ops2 (after ops1 (after ops0 (V))))) := split3 V
theorem finV_split4 (V : Valuation τ sig (Elt F)) : finV V = after post4 (after ops4 (after ops3 (after ops2 (after ops1 (after ops0 (V)))))) := split4 V
theorem finV_split5 (V : Valuation τ sig (Elt F)) : finV V = after post5 (after ops5 (after ops4 (after ops3 (after ops2 (after ops1 (after ops0 (V))))))) := split5 V
theorem finV_split6 (V : Valuation τ sig (Elt F)) : finV V = after post6 (after ops6 (after ops5 (after ops4 (after ops3 (after ops2 (after ops1 (after ops0 (V)))))))) := split6 V
theorem finV_split7 (V : Valuation τ sig (Elt F)) : finV V = after post7 (after ops7 (after ops6 (after ops5 (after ops4 (after ops3 (after ops2 (after ops1 (after ops0 (V))))))))) := split7 V

theorem finV_arg0 (V : Valuation τ sig (Elt F)) : finV V (main_arg0 : DevRef τ sig) = V (main_arg0 : DevRef τ sig) := arg0_eq V
theorem finV_arg1 (V : Valuation τ sig (Elt F)) : finV V (main_arg1 : DevRef τ sig) = V (main_arg1 : DevRef τ sig) := arg1_eq V
theorem finV_arg2 (V : Valuation τ sig (Elt F)) : finV V (main_arg2 : DevRef τ sig) = V (main_arg2 : DevRef τ sig) := arg2_eq V
theorem finV_arg3 (V : Valuation τ sig (Elt F)) : finV V (main_arg3 : DevRef τ sig) = V (main_arg3 : DevRef τ sig) := arg3_eq V
theorem finV_arg4 (V : Valuation τ sig (Elt F)) : finV V (main_arg4 : DevRef τ sig) = V (main_arg4 : DevRef τ sig) := arg4_eq V
theorem finV_arg5 (V : Valuation τ sig (Elt F)) : finV V (main_arg5 : DevRef τ sig) = V (main_arg5 : DevRef τ sig) := arg5_eq V
theorem finV_arg6 (V : Valuation τ sig (Elt F)) : finV V (main_arg6 : DevRef τ sig) = V (main_arg6 : DevRef τ sig) := arg6_eq V
theorem finV_arg7 (V : Valuation τ sig (Elt F)) : finV V (main_arg7 : DevRef τ sig) = V (main_arg7 : DevRef τ sig) := arg7_eq V
theorem finV_arg8 (V : Valuation τ sig (Elt F)) : finV V (main_arg8 : DevRef τ sig) = V (main_arg8 : DevRef τ sig) := arg8_eq V

end Cert.ReferenceIdeal.RefRun

end
-- ==== Proof.RefEqs.lean ====
/- For each host operation of the reference program's @main, in order: at the end of the run its result buffer holds the
   operation's function of what its operand buffers hold at the end. One theorem per operation, named after the buffer it
   writes; each is the window lemma of the operation's kind at the operation's position in its window. -/
import proofs.«121838_j70282844831870_1_alg».proof.Proof.RefSsa

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefSsa

variable {F : FTy → Type} [FloatOps F]

/-! ## Window `main_part0` -/

set_option maxRecDepth 8192 in
theorem eq_main_v0 (V : Valuation τ sig (Elt F)) :
    finV V (main_v0 : DevRef τ sig) = ((extractStridedSlice S1x600000 ![0, 0] · slices_S2x600000_S1x600000_0_0) : (⟨S2x600000, .i32⟩ : BufTy).Contents (Elt F) → (⟨S1x600000, .i32⟩ : BufTy).Contents (Elt F)) (finV V (main_arg1 : DevRef τ sig)) :=
  win_unary win0 0 (finV_split0 V) main_arg1 main_v0 _ _ _ rfl (by decide +kernel) (by decide +kernel)

set_option maxRecDepth 8192 in
theorem eq_main_v1 (V : Valuation τ sig (Elt F)) :
    finV V (main_v1 : DevRef τ sig) = shapeCast S600000 (finV V (main_v0 : DevRef τ sig)) shapeCasts_S1x600000_S600000 :=
  win_reshape win0 1 (finV_split0 V) main_v0 main_v1 _ _ _ _ rfl (by decide +kernel) (by decide +kernel)

set_option maxRecDepth 8192 in
theorem eq_main_v2 (V : Valuation τ sig (Elt F)) :
    finV V (main_v2 : DevRef τ sig) = ((extractStridedSlice S1x600000 ![1, 0] · slices_S2x600000_S1x600000_1_0) : (⟨S2x600000, .i32⟩ : BufTy).Contents (Elt F) → (⟨S1x600000, .i32⟩ : BufTy).Contents (Elt F)) (finV V (main_arg1 : DevRef τ sig)) :=
  win_unary win0 2 (finV_split0 V) main_arg1 main_v2 _ _ _ rfl (by decide +kernel) (by decide +kernel)

set_option maxRecDepth 8192 in
theorem eq_main_v3 (V : Valuation τ sig (Elt F)) :
    finV V (main_v3 : DevRef τ sig) = shapeCast S600000 (finV V (main_v2 : DevRef τ sig)) shapeCasts_S1x600000_S600000 :=
  win_reshape win0 3 (finV_split0 V) main_v2 main_v3 _ _ _ _ rfl (by decide +kernel) (by decide +kernel)

set_option maxRecDepth 8192 in
theorem eq_main_v4 (V : Valuation τ sig (Elt F)) :
    finV V (main_v4 : DevRef τ sig) = ((extractStridedSlice S1x128x128 ![0, 0, 0] · slices_S7x128x128_S1x128x128_0_0_0) : (⟨S7x128x128, .f32⟩ : BufTy).Contents (Elt F) → (⟨S1x128x128, .f32⟩ : BufTy).Contents (Elt F)) (finV V (main_arg3 : DevRef τ sig)) :=
  win_unary win0 4 (finV_split0 V) main_arg3 main_v4 _ _ _ rfl (by decide +kernel) (by decide +kernel)

set_option maxRecDepth 8192 in
theorem eq_main_v5 (V : Valuation τ sig (Elt F)) :
    finV V (main_v5 : DevRef τ sig) = shapeCast S128x128 (finV V (main_v4 : DevRef τ sig)) shapeCasts_S1x128x128_S128x128 :=
  win_reshape win0 5 (finV_split0 V) main_v4 main_v5 _ _ _ _ rfl (by decide +kernel) (by decide +kernel)

set_option maxRecDepth 8192 in
theorem eq_main_v6 (V : Valuation τ sig (Elt F)) :
    finV V (main_v6 : DevRef τ sig) = ((extractStridedSlice S1x128 ![0, 0] · slices_S7x128_S1x128_0_0) : (⟨S7x128, .f32⟩ : BufTy).Contents (Elt F) → (⟨S1x128, .f32⟩ : BufTy).Contents (Elt F)) (finV V (main_arg4 : DevRef τ sig)) :=
  win_unary win0 6 (finV_split0 V) main_arg4 main_v6 _ _ _ rfl (by decide +kernel) (by decide +kernel)

set_option maxRecDepth 8192 in
theorem eq_main_v7 (V : Valuation τ sig (Elt F)) :
    finV V (main_v7 : DevRef τ sig) = shapeCast S128 (finV V (main_v6 : DevRef τ sig)) shapeCasts_S1x128_S128 :=
  win_reshape win0 7 (finV_split0 V) main_v6 main_v7 _ _ _ _ rfl (by decide +kernel) (by decide +kernel)

set_option maxRecDepth 8192 in
theorem eq_main_v8 (V : Valuation τ sig (Elt F)) :
    finV V (main_v8 : DevRef τ sig) = ((extractStridedSlice S1x128x128 ![0, 0, 0] · slices_S7x128x128_S1x128x128_0_0_0) : (⟨S7x128x128, .f32⟩ : BufTy).Contents (Elt F) → (⟨S1x128x128, .f32⟩ : BufTy).Contents (Elt F)) (finV V (main_arg5 : DevRef τ sig)) :=
  win_unary win0 8 (finV_split0 V) main_arg5 main_v8 _ _ _ rfl (by decide +kernel) (by decide +kernel)

set_option maxRecDepth 8192 in
theorem eq_main_v9 (V : Valuation τ sig (Elt F)) :
    finV V (main_v9 : DevRef τ sig) = shapeCast S128x128 (finV V (main_v8 : DevRef τ sig)) shapeCasts_S1x128x128_S128x128 :=
  win_reshape win0 9 (finV_split0 V) main_v8 main_v9 _ _ _ _ rfl (by decide +kernel) (by decide +kernel)

set_option maxRecDepth 8192 in
theorem eq_main_v10 (V : Valuation τ sig (Elt F)) :
    finV V (main_v10 : DevRef τ sig) = ((extractStridedSlice S1x128 ![0, 0] · slices_S7x128_S1x128_0_0) : (⟨S7x128, .f32⟩ : BufTy).Contents (Elt F) → (⟨S1x128, .f32⟩ : BufTy).Contents (Elt F)) (finV V (main_arg6 : DevRef τ sig)) :=
  win_unary win0 10 (finV_split0 V) main_arg6 main_v10 _ _ _ rfl (by decide +kernel) (by decide +kernel)

set_option maxRecDepth 8192 in
theorem eq_main_v11 (V : Valuation τ sig (Elt F)) :
    finV V (main_v11 : DevRef τ sig) = shapeCast S128 (finV V (main_v10 : DevRef τ sig)) shapeCasts_S1x128_S128 :=
  win_reshape win0 11 (finV_split0 V) main_v10 main_v11 _ _ _ _ rfl (by decide +kernel) (by decide +kernel)

set_option maxRecDepth 8192 in
theorem eq_main_c (V : Valuation τ sig (Elt F)) :
    finV V (main_c : DevRef τ sig) = (constantI S_ 32 0#32) :=
  win_nullary win0 12 (finV_split0 V) main_c _ _ rfl (by decide +kernel)

set_option maxRecDepth 8192 in
theorem eq_main_v12 (V : Valuation τ sig (Elt F)) :
    finV V (main_v12 : DevRef τ sig) = (broadcastInDim S600000 ![] bcast_S_S600000 : (⟨S_, .i32⟩ : BufTy).Contents (Elt F) → (⟨S600000, .i32⟩ : BufTy).Contents (Elt F)) (finV V (main_c : DevRef τ sig)) :=
  win_unary win0 13 (finV_split0 V) main_c main_v12 _ _ _ rfl (by decide +kernel) (by decide +kernel)

set_option maxRecDepth 8192 in
theorem eq_main_v13 (V : Valuation τ sig (Elt F)) :
    finV V (main_v13 : DevRef τ sig) = (cmpi .slt : (⟨S600000, .i32⟩ : BufTy).Contents (Elt F) → (⟨S600000, .i32⟩ : BufTy).Contents (Elt F) → (⟨S600000, .i1⟩ : BufTy).Contents (Elt F)) (finV V (main_v1 : DevRef τ sig)) (finV V (main_v12 : DevRef τ sig)) :=
  win_binary win0 14 (finV_split0 V) main_v1 main_v12 main_v13 _ _ _ _ rfl (by decide +kernel) (by decide +kernel) (by decide +kernel)

set_option maxRecDepth 8192 in
theorem eq_main_c_0 (V : Valuation τ sig (Elt F)) :
    finV V (main_c_0 : DevRef τ sig) = (constantI S_ 32 50000#32) :=
  win_nullary win0 15 (finV_split0 V) main_c_0 _ _ rfl (by decide +kernel)

set_option maxRecDepth 8192 in
theorem eq_main_v14 (V : Valuation τ sig (Elt F)) :
    finV V (main_v14 : DevRef τ sig) = (broadcastInDim S600000 ![] bcast_S_S600000 : (⟨S_, .i32⟩ : BufTy).Contents (Elt F) → (⟨S600000, .i32⟩ : BufTy).Contents (Elt F)) (finV V (main_c_0 : DevRef τ sig)) :=
  win_unary win0 16 (finV_split0 V) main_c_0 main_v14 _ _ _ rfl (by decide +kernel) (by decide +kernel)

set_option maxRecDepth 8192 in
theorem eq_main_v15 (V : Valuation τ sig (Elt F)) :
    finV V (main_v15 : DevRef τ sig) = (addi : (⟨S600000, .i32⟩ : BufTy).Contents (Elt F) → (⟨S600000, .i32⟩ : BufTy).Contents (Elt F) → (⟨S600000, .i32⟩ : BufTy).Contents (Elt F)) (finV V (main_v1 : DevRef τ sig)) (finV V (main_v14 : DevRef τ sig)) :=
  win_binary win0 17 (finV_split0 V) main_v1 main_v14 main_v15 _ _ _ _ rfl (by decide +kernel) (by decide +kernel) (by decide +kernel)

set_option maxRecDepth 8192 in
theorem eq_main_v16 (V : Valuation τ sig (Elt F)) :
    finV V (main_v16 : DevRef τ sig) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (finV V (main_v13 : DevRef τ sig)) (finV V (main_v15 : DevRef τ sig)) (finV V (main_v1 : DevRef τ sig)) :=
  win_ternary win0 18 (finV_split0 V) main_v13 main_v15 main_v1 main_v16 _ _ _ _ _ rfl (by decide +kernel) (by decide +kernel) (by decide +kernel) (by decide +kernel)

set_option maxRecDepth 8192 in
theorem eq_main_v17 (V : Valuation τ sig (Elt F)) :
    finV V (main_v17 : DevRef τ sig) = (broadcastInDim S600000x1 ![0] bcast_S600000_S600000x1_0 : (⟨S600000, .i32⟩ : BufTy).Contents (Elt F) → (⟨S600000x1, .i32⟩ : BufTy).Contents (Elt F)) (finV V (main_v16 : DevRef τ sig)) :=
  win_unary win0 19 (finV_split0 V) main_v16 main_v17 _ _ _ rfl (by decide +kernel) (by decide +kernel)

set_option maxRecDepth 8192 in
theorem eq_main_v18 (V : Valuation τ sig (Elt F)) :
    finV V (main_v18 : DevRef τ sig) = ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) (finV V (main_arg0 : DevRef τ sig)) (finV V (main_v17 : DevRef τ sig)) :=
  win_binary win0 20 (finV_split0 V) main_arg0 main_v17 main_v18 _ _ _ _ rfl (by decide +kernel) (by decide +kernel) (by decide +kernel)

set_option maxRecDepth 8192 in
theorem eq_main_cst (V : Valuation τ sig (Elt F)) :
    finV V (main_cst : DevRef τ sig) = (constant S_ .f32 0x00000000#32) :=
  win_nullary win0 21 (finV_split0 V) main_cst _ _ rfl (by decide +kernel)

set_option maxRecDepth 8192 in
theorem eq_main_v19 (V : Valuation τ sig (Elt F)) :
    finV V (main_v19 : DevRef τ sig) = (broadcastInDim S50000x128 ![] bcast_S_S50000x128 : (⟨S_, .f32⟩ : BufTy).Contents (Elt F) → (⟨S50000x128, .f32⟩ : BufTy).Contents (Elt F)) (finV V (main_cst : DevRef τ sig)) :=
  win_unary win0 22 (finV_split0 V) main_cst main_v19 _ _ _ rfl (by decide +kernel) (by decide +kernel)

set_option maxRecDepth 8192 in
theorem eq_main_v20 (V : Valuation τ sig (Elt F)) :
    finV V (main_v20 : DevRef τ sig) = (broadcastInDim S600000x1 ![0] bcast_S600000_S600000x1_0 : (⟨S600000, .i32⟩ : BufTy).Contents (Elt F) → (⟨S600000x1, .i32⟩ : BufTy).Contents (Elt F)) (finV V (main_v3 : DevRef τ sig)) :=
  win_unary win0 23 (finV_split0 V) main_v3 main_v20 _ _ _ rfl (by decide +kernel) (by decide +kernel)

set_option maxRecDepth 8192 in
theorem eq_main_v21 (V : Valuation τ sig (Elt F)) :
    finV V (main_v21 : DevRef τ sig) = ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) (finV V (main_v19 : DevRef τ sig)) (finV V (main_v20 : DevRef τ sig)) (finV V (main_v18 : DevRef τ sig)) :=
  win_ternary win0 24 (finV_split0 V) main_v19 main_v20 main_v18 main_v21 _ _ _ _ _ rfl (by decide +kernel) (by decide +kernel) (by decide +kernel) (by decide +kernel)

set_option maxRecDepth 8192 in
theorem eq_main_v22 (V : Valuation τ sig (Elt F)) :
    finV V (main_v22 : DevRef τ sig) = (addf : (⟨S50000x128, .f32⟩ : BufTy).Contents (Elt F) → (⟨S50000x128, .f32⟩ : BufTy).Contents (Elt F) → (⟨S50000x128, .f32⟩ : BufTy).Contents (Elt F)) (finV V (main_arg0 : DevRef τ sig)) (finV V (main_v21 : DevRef τ sig)) :=
  win_binary win0 25 (finV_split0 V) main_arg0 main_v21 main_v22 _ _ _ _ rfl (by decide +kernel) (by decide +kernel) (by decide +kernel)

set_option maxRecDepth 8192 in
theorem eq_main_v23 (V : Valuation τ sig (Elt F)) :
    finV V (main_v23 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v22 : DevRef τ sig)) (finV V (main_v5 : DevRef τ sig)) :=
  win_binary win0 26 (finV_split0 V) main_v22 main_v5 main_v23 _ _ _ _ rfl (by decide +kernel) (by decide +kernel) (by decide +kernel)

set_option maxRecDepth 8192 in
theorem eq_main_v24 (V : Valuation τ sig (Elt F)) :
    finV V (main_v24 : DevRef τ sig) = (broadcastInDim S1x128 ![1] bcast_S128_S1x128_1 : (⟨S128, .f32⟩ : BufTy).Contents (Elt F) → (⟨S1x128, .f32⟩ : BufTy).Contents (Elt F)) (finV V (main_v7 : DevRef τ sig)) :=
  win_unary win0 27 (finV_split0 V) main_v7 main_v24 _ _ _ rfl (by decide +kernel) (by decide +kernel)

set_option maxRecDepth 8192 in
theorem eq_main_v25 (V : Valuation τ sig (Elt F)) :
    finV V (main_v25 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v24 : DevRef τ sig)) :=
  win_unary win0 28 (finV_split0 V) main_v24 main_v25 _ _ _ rfl (by decide +kernel) (by decide +kernel)

set_option maxRecDepth 8192 in
theorem eq_main_v26 (V : Valuation τ sig (Elt F)) :
    finV V (main_v26 : DevRef τ sig) = (addf : (⟨S50000x128, .f32⟩ : BufTy).Contents (Elt F) → (⟨S50000x128, .f32⟩ : BufTy).Contents (Elt F) → (⟨S50000x128, .f32⟩ : BufTy).Contents (Elt F)) (finV V (main_v23 : DevRef τ sig)) (finV V (main_v25 : DevRef τ sig)) :=
  win_binary win0 29 (finV_split0 V) main_v23 main_v25 main_v26 _ _ _ _ rfl (by decide +kernel) (by decide +kernel) (by decide +kernel)

set_option maxRecDepth 8192 in
theorem eq_main_cst_1 (V : Valuation τ sig (Elt F)) :
    finV V (main_cst_1 : DevRef τ sig) = (constant S_ .f32 0x00000000#32) :=
  win_nullary win0 30 (finV_split0 V) main_cst_1 _ _ rfl (by decide +kernel)

set_option maxRecDepth 8192 in
theorem eq_main_v27 (V : Valuation τ sig (Elt F)) :
    finV V (main_v27 : DevRef τ sig) = (broadcastInDim S50000x128 ![] bcast_S_S50000x128 : (⟨S_, .f32⟩ : BufTy).Contents (Elt F) → (⟨S50000x128, .f32⟩ : BufTy).Contents (Elt F)) (finV V (main_cst_1 : DevRef τ sig)) :=
  win_unary win0 31 (finV_split0 V) main_cst_1 main_v27 _ _ _ rfl (by decide +kernel) (by decide +kernel)

set_option maxRecDepth 8192 in
theorem eq_main_v28 (V : Valuation τ sig (Elt F)) :
    finV V (main_v28 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v26 : DevRef τ sig)) (finV V (main_v27 : DevRef τ sig)) :=
  win_binary win0 32 (finV_split0 V) main_v26 main_v27 main_v28 _ _ _ _ rfl (by decide +kernel) (by decide +kernel) (by decide +kernel)

set_option maxRecDepth 8192 in
theorem eq_main_v29 (V : Valuation τ sig (Elt F)) :
    finV V (main_v29 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v28 : DevRef τ sig)) (finV V (main_v9 : DevRef τ sig)) :=
  win_binary win0 33 (finV_split0 V) main_v28 main_v9 main_v29 _ _ _ _ rfl (by decide +kernel) (by decide +kernel) (by decide +kernel)

set_option maxRecDepth 8192 in
theorem eq_main_v30 (V : Valuation τ sig (Elt F)) :
    finV V (main_v30 : DevRef τ sig) = (broadcastInDim S1x128 ![1] bcast_S128_S1x128_1 : (⟨S128, .f32⟩ : BufTy).Contents (Elt F) → (⟨S1x128, .f32⟩ : BufTy).Contents (Elt F)) (finV V (main_v11 : DevRef τ sig)) :=
  win_unary win0 34 (finV_split0 V) main_v11 main_v30 _ _ _ rfl (by decide +kernel) (by decide +kernel)

set_option maxRecDepth 8192 in
theorem eq_main_v31 (V : Valuation τ sig (Elt F)) :
    finV V (main_v31 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v30 : DevRef τ sig)) :=
  win_unary win0 35 (finV_split0 V) main_v30 main_v31 _ _ _ rfl (by decide +kernel) (by decide +kernel)

set_option maxRecDepth 8192 in
theorem eq_main_v32 (V : Valuation τ sig (Elt F)) :
    finV V (main_v32 : DevRef τ sig) = (addf : (⟨S50000x128, .f32⟩ : BufTy).Contents (Elt F) → (⟨S50000x128, .f32⟩ : BufTy).Contents (Elt F) → (⟨S50000x128, .f32⟩ : BufTy).Contents (Elt F)) (finV V (main_v29 : DevRef τ sig)) (finV V (main_v31 : DevRef τ sig)) :=
  win_binary win0 36 (finV_split0 V) main_v29 main_v31 main_v32 _ _ _ _ rfl (by decide +kernel) (by decide +kernel) (by decide +kernel)

set_option maxRecDepth 8192 in
theorem eq_main_cst_2 (V : Valuation τ sig (Elt F)) :
    finV V (main_cst_2 : DevRef τ sig) = (constant S_ .f32 0x00000000#32) :=
  win_nullary win0 37 (finV_split0 V) main_cst_2 _ _ rfl (by decide +kernel)

set_option maxRecDepth 8192 in
theorem eq_main_v33 (V : Valuation τ sig (Elt F)) :
    finV V (main_v33 : DevRef τ sig) = (broadcastInDim S50000x128 ![] bcast_S_S50000x128 : (⟨S_, .f32⟩ : BufTy).Contents (Elt F) → (⟨S50000x128, .f32⟩ : BufTy).Contents (Elt F)) (finV V (main_cst_2 : DevRef τ sig)) :=
  win_unary win0 38 (finV_split0 V) main_cst_2 main_v33 _ _ _ rfl (by decide +kernel) (by decide +kernel)

set_option maxRecDepth 8192 in
theorem eq_main_v34 (V : Valuation τ sig (Elt F)) :
    finV V (main_v34 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v32 : DevRef τ sig)) (finV V (main_v33 : DevRef τ sig)) :=
  win_binary win0 39 (finV_split0 V) main_v32 main_v33 main_v34 _ _ _ _ rfl (by decide +kernel) (by decide +kernel) (by decide +kernel)

set_option maxRecDepth 8192 in
theorem eq_main_v35 (V : Valuation τ sig (Elt F)) :
    finV V (main_v35 : DevRef τ sig) = ((extractStridedSlice S1x128 ![0, 0] · slices_S7x128_S1x128_0_0) : (⟨S7x128, .f32⟩ : BufTy).Contents (Elt F) → (⟨S1x128, .f32⟩ : BufTy).Contents (Elt F)) (finV V (main_arg7 : DevRef τ sig)) :=
  win_unary win0 40 (finV_split0 V) main_arg7 main_v35 _ _ _ rfl (by decide +kernel) (by decide +kernel)

set_option maxRecDepth 8192 in
theorem eq_main_v36 (V : Valuation τ sig (Elt F)) :
    finV V (main_v36 : DevRef τ sig) = shapeCast S128 (finV V (main_v35 : DevRef τ sig)) shapeCasts_S1x128_S128 :=
  win_reshape win0 41 (finV_split0 V) main_v35 main_v36 _ _ _ _ rfl (by decide +kernel) (by decide +kernel)

set_option maxRecDepth 8192 in
theorem eq_main_v37 (V : Valuation τ sig (Elt F)) :
    finV V (main_v37 : DevRef τ sig) = ((extractStridedSlice S1x128 ![0, 0] · slices_S7x128_S1x128_0_0) : (⟨S7x128, .f32⟩ : BufTy).Contents (Elt F) → (⟨S1x128, .f32⟩ : BufTy).Contents (Elt F)) (finV V (main_arg8 : DevRef τ sig)) :=
  win_unary win0 42 (finV_split0 V) main_arg8 main_v37 _ _ _ rfl (by decide +kernel) (by decide +kernel)

set_option maxRecDepth 8192 in
theorem eq_main_v38 (V : Valuation τ sig (Elt F)) :
    finV V (main_v38 : DevRef τ sig) = shapeCast S128 (finV V (main_v37 : DevRef τ sig)) shapeCasts_S1x128_S128 :=
  win_reshape win0 43 (finV_split0 V) main_v37 main_v38 _ _ _ _ rfl (by decide +kernel) (by decide +kernel)

set_option maxRecDepth 8192 in
theorem eq_main_cst_3 (V : Valuation τ sig (Elt F)) :
    finV V (main_cst_3 : DevRef τ sig) = (constant S_ .f32 0x00000000#32) :=
  win_nullary win0 44 (finV_split0 V) main_cst_3 _ _ rfl (by decide +kernel)

set_option maxRecDepth 8192 in
theorem eq_main_v39 (V : Valuation τ sig (Elt F)) :
    finV V (main_v39 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v34 : DevRef τ sig)) (finV V (main_cst_3 : DevRef τ sig)) :=
  win_binary win0 45 (finV_split0 V) main_v34 main_cst_3 main_v39 _ _ _ _ rfl (by decide +kernel) (by decide +kernel) (by decide +kernel)

set_option maxRecDepth 8192 in
theorem eq_main_cst_4 (V : Valuation τ sig (Elt F)) :
    finV V (main_cst_4 : DevRef τ sig) = (constant S_ .f32 0x47435000#32) :=
  win_nullary win0 46 (finV_split0 V) main_cst_4 _ _ rfl (by decide +kernel)

set_option maxRecDepth 8192 in
theorem eq_main_v40 (V : Valuation τ sig (Elt F)) :
    finV V (main_v40 : DevRef τ sig) = (broadcastInDim S128 ![] bcast_S_S128 : (⟨S_, .f32⟩ : BufTy).Contents (Elt F) → (⟨S128, .f32⟩ : BufTy).Contents (Elt F)) (finV V (main_cst_4 : DevRef τ sig)) :=
  win_unary win0 47 (finV_split0 V) main_cst_4 main_v40 _ _ _ rfl (by decide +kernel) (by decide +kernel)

set_option maxRecDepth 8192 in
theorem eq_main_v41 (V : Valuation τ sig (Elt F)) :
    finV V (main_v41 : DevRef τ sig) = (Host.divf : (⟨S128, .f32⟩ : BufTy).Contents (Elt F) → (⟨S128, .f32⟩ : BufTy).Contents (Elt F) → (⟨S128, .f32⟩ : BufTy).Contents (Elt F)) (finV V (main_v39 : DevRef τ sig)) (finV V (main_v40 : DevRef τ sig)) :=
  win_binary win0 48 (finV_split0 V) main_v39 main_v40 main_v41 _ _ _ _ rfl (by decide +kernel) (by decide +kernel) (by decide +kernel)

set_option maxRecDepth 8192 in
theorem eq_main_c_5 (V : Valuation τ sig (Elt F)) :
    finV V (main_c_5 : DevRef τ sig) = (constantI S_ 32 0#32) :=
  win_nullary win0 49 (finV_split0 V) main_c_5 _ _ rfl (by decide +kernel)

set_option maxRecDepth 8192 in
theorem eq_main_call0_cst (V : Valuation τ sig (Elt F)) :
    finV V (main_call0_cst : DevRef τ sig) = (constant S_ .f32 0x00000000#32) :=
  win_nullary win0 50 (finV_split0 V) main_call0_cst _ _ rfl (by decide +kernel)

set_option maxRecDepth 8192 in
theorem eq_main_call0_v0 (V : Valuation τ sig (Elt F)) :
    finV V (main_call0_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v34 : DevRef τ sig)) (finV V (main_call0_cst : DevRef τ sig)) :=
  win_binary win0 51 (finV_split0 V) main_v34 main_call0_cst main_call0_v0 _ _ _ _ rfl (by decide +kernel) (by decide +kernel) (by decide +kernel)

set_option maxRecDepth 8192 in
theorem eq_main_call0_v1 (V : Valuation τ sig (Elt F)) :
    finV V (main_call0_v1 : DevRef τ sig) = ((broadcastInDim S1x128 ![1] bcast_S128_S1x128_1) : (⟨S128, .f32⟩ : BufTy).Contents (Elt F) → (⟨S1x128, .f32⟩ : BufTy).Contents (Elt F)) (finV V (main_call0_v0 : DevRef τ sig)) :=
  win_unary win0 52 (finV_split0 V) main_call0_v0 main_call0_v1 _ _ _ rfl (by decide +kernel) (by decide +kernel)

set_option maxRecDepth 8192 in
theorem eq_main_call0_cst_0 (V : Valuation τ sig (Elt F)) :
    finV V (main_call0_cst_0 : DevRef τ sig) = (constant S_ .f32 0x47435000#32) :=
  win_nullary win0 53 (finV_split0 V) main_call0_cst_0 _ _ rfl (by decide +kernel)

set_option maxRecDepth 8192 in
theorem eq_main_call0_v2 (V : Valuation τ sig (Elt F)) :
    finV V (main_call0_v2 : DevRef τ sig) = ((broadcastInDim S1x128 ![] bcast_S_S1x128) : (⟨S_, .f32⟩ : BufTy).Contents (Elt F) → (⟨S1x128, .f32⟩ : BufTy).Contents (Elt F)) (finV V (main_call0_cst_0 : DevRef τ sig)) :=
  win_unary win0 54 (finV_split0 V) main_call0_cst_0 main_call0_v2 _ _ _ rfl (by decide +kernel) (by decide +kernel)

set_option maxRecDepth 8192 in
theorem eq_main_call0_v3 (V : Valuation τ sig (Elt F)) :
    finV V (main_call0_v3 : DevRef τ sig) = (Host.divf : (⟨S1x128, .f32⟩ : BufTy).Contents (Elt F) → (⟨S1x128, .f32⟩ : BufTy).Contents (Elt F) → (⟨S1x128, .f32⟩ : BufTy).Contents (Elt F)) (finV V (main_call0_v1 : DevRef τ sig)) (finV V (main_call0_v2 : DevRef τ sig)) :=
  win_binary win0 55 (finV_split0 V) main_call0_v1 main_call0_v2 main_call0_v3 _ _ _ _ rfl (by decide +kernel) (by decide +kernel) (by decide +kernel)

set_option maxRecDepth 8192 in
theorem eq_main_call0_v4 (V : Valuation τ sig (Elt F)) :
    finV V (main_call0_v4 : DevRef τ sig) = ((broadcastInDim S50000x128 ![0, 1] bcast_S1x128_S50000x128_0_1) : (⟨S1x128, .f32⟩ : BufTy).Contents (Elt F) → (⟨S50000x128, .f32⟩ : BufTy).Contents (Elt F)) (finV V (main_call0_v3 : DevRef τ sig)) :=
  win_unary win0 56 (finV_split0 V) main_call0_v3 main_call0_v4 _ _ _ rfl (by decide +kernel) (by decide +kernel)

set_option maxRecDepth 8192 in
theorem eq_main_call0_v5 (V : Valuation τ sig (Elt F)) :
    finV V (main_call0_v5 : DevRef τ sig) = (subf : (⟨S50000x128, .f32⟩ : BufTy).Contents (Elt F) → (⟨S50000x128, .f32⟩ : BufTy).Contents (Elt F) → (⟨S50000x128, .f32⟩ : BufTy).Contents (Elt F)) (finV V (main_v34 : DevRef τ sig)) (finV V (main_call0_v4 : DevRef τ sig)) :=
  win_binary win0 57 (finV_split0 V) main_v34 main_call0_v4 main_call0_v5 _ _ _ _ rfl (by decide +kernel) (by decide +kernel) (by decide +kernel)

set_option maxRecDepth 8192 in
theorem eq_main_call0_v6 (V : Valuation τ sig (Elt F)) :
    finV V (main_call0_v6 : DevRef τ sig) = (mulf : (⟨S50000x128, .f32⟩ : BufTy).Contents (Elt F) → (⟨S50000x128, .f32⟩ : BufTy).Contents (Elt F) → (⟨S50000x128, .f32⟩ : BufTy).Contents (Elt F)) (finV V (main_call0_v5 : DevRef τ sig)) (finV V (main_call0_v5 : DevRef τ sig)) :=
  win_binary win0 58 (finV_split0 V) main_call0_v5 main_call0_v5 main_call0_v6 _ _ _ _ rfl (by decide +kernel) (by decide +kernel) (by decide +kernel)

set_option maxRecDepth 8192 in
theorem eq_main_call0_v7 (V : Valuation τ sig (Elt F)) :
    finV V (main_call0_v7 : DevRef τ sig) = ((sitofp .f32) : (⟨S_, .i32⟩ : BufTy).Contents (Elt F) → (⟨S_, .f32⟩ : BufTy).Contents (Elt F)) (finV V (main_c_5 : DevRef τ sig)) :=
  win_unary win0 59 (finV_split0 V) main_c_5 main_call0_v7 _ _ _ rfl (by decide +kernel) (by decide +kernel)

set_option maxRecDepth 8192 in
theorem eq_main_call0_cst_1 (V : Valuation τ sig (Elt F)) :
    finV V (main_call0_cst_1 : DevRef τ sig) = (constant S_ .f32 0x47435000#32) :=
  win_nullary win0 60 (finV_split0 V) main_call0_cst_1 _ _ rfl (by decide +kernel)

set_option maxRecDepth 8192 in
theorem eq_main_call0_v8 (V : Valuation τ sig (Elt F)) :
    finV V (main_call0_v8 : DevRef τ sig) = (subf : (⟨S_, .f32⟩ : BufTy).Contents (Elt F) → (⟨S_, .f32⟩ : BufTy).Contents (Elt F) → (⟨S_, .f32⟩ : BufTy).Contents (Elt F)) (finV V (main_call0_cst_1 : DevRef τ sig)) (finV V (main_call0_v7 : DevRef τ sig)) :=
  win_binary win0 61 (finV_split0 V) main_call0_cst_1 main_call0_v7 main_call0_v8 _ _ _ _ rfl (by decide +kernel) (by decide +kernel) (by decide +kernel)

set_option maxRecDepth 8192 in
theorem eq_main_call0_cst_2 (V : Valuation τ sig (Elt F)) :
    finV V (main_call0_cst_2 : DevRef τ sig) = (constant S_ .f32 0x00000000#32) :=
  win_nullary win0 62 (finV_split0 V) main_call0_cst_2 _ _ rfl (by decide +kernel)

set_option maxRecDepth 8192 in
theorem eq_main_call0_v9 (V : Valuation τ sig (Elt F)) :
    finV V (main_call0_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_call0_v6 : DevRef τ sig)) (finV V (main_call0_cst_2 : DevRef τ sig)) :=
  win_binary win0 63 (finV_split0 V) main_call0_v6 main_call0_cst_2 main_call0_v9 _ _ _ _ rfl (by decide +kernel) (by decide +kernel) (by decide +kernel)

set_option maxRecDepth 8192 in
theorem eq_main_call0_v10 (V : Valuation τ sig (Elt F)) :
    finV V (main_call0_v10 : DevRef τ sig) = ((broadcastInDim S128 ![] bcast_S_S128) : (⟨S_, .f32⟩ : BufTy).Contents (Elt F) → (⟨S128, .f32⟩ : BufTy).Contents (Elt F)) (finV V (main_call0_v8 : DevRef τ sig)) :=
  win_unary win0 64 (finV_split0 V) main_call0_v8 main_call0_v10 _ _ _ rfl (by decide +kernel) (by decide +kernel)

set_option maxRecDepth 8192 in
theorem eq_main_call0_v11 (V : Valuation τ sig (Elt F)) :
    finV V (main_call0_v11 : DevRef τ sig) = (Host.divf : (⟨S128, .f32⟩ : BufTy).Contents (Elt F) → (⟨S128, .f32⟩ : BufTy).Contents (Elt F) → (⟨S128, .f32⟩ : BufTy).Contents (Elt F)) (finV V (main_call0_v9 : DevRef τ sig)) (finV V (main_call0_v10 : DevRef τ sig)) :=
  win_binary win0 65 (finV_split0 V) main_call0_v9 main_call0_v10 main_call0_v11 _ _ _ _ rfl (by decide +kernel) (by decide +kernel) (by decide +kernel)

set_option maxRecDepth 8192 in
theorem eq_main_call0_cst_3 (V : Valuation τ sig (Elt F)) :
    finV V (main_call0_cst_3 : DevRef τ sig) = (constant S_ .f32 0x00000000#32) :=
  win_nullary win0 66 (finV_split0 V) main_call0_cst_3 _ _ rfl (by decide +kernel)

set_option maxRecDepth 8192 in
theorem eq_main_call0_v12 (V : Valuation τ sig (Elt F)) :
    finV V (main_call0_v12 : DevRef τ sig) = ((cmpf .ogt) : (⟨S_, .f32⟩ : BufTy).Contents (Elt F) → (⟨S_, .f32⟩ : BufTy).Contents (Elt F) → (⟨S_, .i1⟩ : BufTy).Contents (Elt F)) (finV V (main_call0_v8 : DevRef τ sig)) (finV V (main_call0_cst_3 : DevRef τ sig)) :=
  win_binary win0 67 (finV_split0 V) main_call0_v8 main_call0_cst_3 main_call0_v12 _ _ _ _ rfl (by decide +kernel) (by decide +kernel) (by decide +kernel)

set_option maxRecDepth 8192 in
theorem eq_main_call0_cst_4 (V : Valuation τ sig (Elt F)) :
    finV V (main_call0_cst_4 : DevRef τ sig) = (constant S_ .f32 0x7FC00000#32) :=
  win_nullary win0 68 (finV_split0 V) main_call0_cst_4 _ _ rfl (by decide +kernel)

set_option maxRecDepth 8192 in
theorem eq_main_call0_call0_v0 (V : Valuation τ sig (Elt F)) :
    finV V (main_call0_call0_v0 : DevRef τ sig) = (id : (⟨S_, .f32⟩ : BufTy).Contents (Elt F) → (⟨S_, .f32⟩ : BufTy).Contents (Elt F)) (finV V (main_call0_cst_4 : DevRef τ sig)) :=
  win_unary win0 69 (finV_split0 V) main_call0_cst_4 main_call0_call0_v0 _ _ _ rfl (by decide +kernel) (by decide +kernel)

set_option maxRecDepth 8192 in
theorem eq_main_call0_call0_v1 (V : Valuation τ sig (Elt F)) :
    finV V (main_call0_call0_v1 : DevRef τ sig) = ((broadcastInDim S128 ![] bcast_S_S128) : (⟨S_, .f32⟩ : BufTy).Contents (Elt F) → (⟨S128, .f32⟩ : BufTy).Contents (Elt F)) (finV V (main_call0_call0_v0 : DevRef τ sig)) :=
  win_unary win0 70 (finV_split0 V) main_call0_call0_v0 main_call0_call0_v1 _ _ _ rfl (by decide +kernel) (by decide +kernel)

set_option maxHeartbeats 4000000 in
set_option maxRecDepth 8192 in
theorem eq_main_v42 (V : Valuation τ sig (Elt F)) :
    finV V (main_v42 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (finV V (main_call0_v12 : DevRef τ sig)) (finV V (main_call0_v11 : DevRef τ sig)) (finV V (main_call0_call0_v1 : DevRef τ sig)) :=
  win_ternary win0 71 (finV_split0 V) main_call0_v12 main_call0_v11 main_call0_call0_v1 main_v42 _ _ _ _ _ rfl (by decide +kernel) (by decide +kernel) (by decide +kernel) (by decide +kernel)

set_option maxRecDepth 8192 in
theorem eq_main_v43 (V : Valuation τ sig (Elt F)) :
    finV V (main_v43 : DevRef τ sig) = (broadcastInDim S1x128 ![1] bcast_S128_S1x128_1 : (⟨S128, .f32⟩ : BufTy).Contents (Elt F) → (⟨S1x128, .f32⟩ : BufTy).Contents (Elt F)) (finV V (main_v41 : DevRef τ sig)) :=
  win_unary win0 72 (finV_split0 V) main_v41 main_v43 _ _ _ rfl (by decide +kernel) (by decide +kernel)

set_option maxRecDepth 8192 in
theorem eq_main_v44 (V : Valuation τ sig (Elt F)) :
    finV V (main_v44 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v43 : DevRef τ sig)) :=
  win_unary win0 73 (finV_split0 V) main_v43 main_v44 _ _ _ rfl (by decide +kernel) (by decide +kernel)

set_option maxRecDepth 8192 in
theorem eq_main_v45 (V : Valuation τ sig (Elt F)) :
    finV V (main_v45 : DevRef τ sig) = (subf : (⟨S50000x128, .f32⟩ : BufTy).Contents (Elt F) → (⟨S50000x128, .f32⟩ : BufTy).Contents (Elt F) → (⟨S50000x128, .f32⟩ : BufTy).Contents (Elt F)) (finV V (main_v34 : DevRef τ sig)) (finV V (main_v44 : DevRef τ sig)) :=
  win_binary win0 74 (finV_split0 V) main_v34 main_v44 main_v45 _ _ _ _ rfl (by decide +kernel) (by decide +kernel) (by decide +kernel)

set_option maxRecDepth 8192 in
theorem eq_main_cst_6 (V : Valuation τ sig (Elt F)) :
    finV V (main_cst_6 : DevRef τ sig) = (constant S_ .f32 0x3727C5AC#32) :=
  win_nullary win0 75 (finV_split0 V) main_cst_6 _ _ rfl (by decide +kernel)

set_option maxRecDepth 8192 in
theorem eq_main_v46 (V : Valuation τ sig (Elt F)) :
    finV V (main_v46 : DevRef τ sig) = (broadcastInDim S128 ![] bcast_S_S128 : (⟨S_, .f32⟩ : BufTy).Contents (Elt F) → (⟨S128, .f32⟩ : BufTy).Contents (Elt F)) (finV V (main_cst_6 : DevRef τ sig)) :=
  win_unary win0 76 (finV_split0 V) main_cst_6 main_v46 _ _ _ rfl (by decide +kernel) (by decide +kernel)

set_option maxRecDepth 8192 in
theorem eq_main_v47 (V : Valuation τ sig (Elt F)) :
    finV V (main_v47 : DevRef τ sig) = (addf : (⟨S128, .f32⟩ : BufTy).Contents (Elt F) → (⟨S128, .f32⟩ : BufTy).Contents (Elt F) → (⟨S128, .f32⟩ : BufTy).Contents (Elt F)) (finV V (main_v42 : DevRef τ sig)) (finV V (main_v46 : DevRef τ sig)) :=
  win_binary win0 77 (finV_split0 V) main_v42 main_v46 main_v47 _ _ _ _ rfl (by decide +kernel) (by decide +kernel) (by decide +kernel)

set_option maxRecDepth 8192 in
theorem eq_main_v48 (V : Valuation τ sig (Elt F)) :
    finV V (main_v48 : DevRef τ sig) = (Host.rsqrt : (⟨S128, .f32⟩ : BufTy).Contents (Elt F) → (⟨S128, .f32⟩ : BufTy).Contents (Elt F)) (finV V (main_v47 : DevRef τ sig)) :=
  win_unary win0 78 (finV_split0 V) main_v47 main_v48 _ _ _ rfl (by decide +kernel) (by decide +kernel)

set_option maxRecDepth 8192 in
theorem eq_main_v49 (V : Valuation τ sig (Elt F)) :
    finV V (main_v49 : DevRef τ sig) = (broadcastInDim S1x128 ![1] bcast_S128_S1x128_1 : (⟨S128, .f32⟩ : BufTy).Contents (Elt F) → (⟨S1x128, .f32⟩ : BufTy).Contents (Elt F)) (finV V (main_v48 : DevRef τ sig)) :=
  win_unary win0 79 (finV_split0 V) main_v48 main_v49 _ _ _ rfl (by decide +kernel) (by decide +kernel)

set_option maxRecDepth 8192 in
theorem eq_main_v50 (V : Valuation τ sig (Elt F)) :
    finV V (main_v50 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v49 : DevRef τ sig)) :=
  win_unary win0 80 (finV_split0 V) main_v49 main_v50 _ _ _ rfl (by decide +kernel) (by decide +kernel)

/-! ## Window `main_part1` -/

set_option maxRecDepth 8192 in
theorem eq_main_v51 (V : Valuation τ sig (Elt F)) :
    finV V (main_v51 : DevRef τ sig) = (mulf : (⟨S50000x128, .f32⟩ : BufTy).Contents (Elt F) → (⟨S50000x128, .f32⟩ : BufTy).Contents (Elt F) → (⟨S50000x128, .f32⟩ : BufTy).Contents (Elt F)) (finV V (main_v45 : DevRef τ sig)) (finV V (main_v50 : DevRef τ sig)) :=
  win_binary win1 0 (finV_split1 V) main_v45 main_v50 main_v51 _ _ _ _ rfl (by decide +kernel) (by decide +kernel) (by decide +kernel)

set_option maxRecDepth 8192 in
theorem eq_main_v52 (V : Valuation τ sig (Elt F)) :
    finV V (main_v52 : DevRef τ sig) = (broadcastInDim S1x128 ![1] bcast_S128_S1x128_1 : (⟨S128, .f32⟩ : BufTy).Contents (Elt F) → (⟨S1x128, .f32⟩ : BufTy).Contents (Elt F)) (finV V (main_v36 : DevRef τ sig)) :=
  win_unary win1 1 (finV_split1 V) main_v36 main_v52 _ _ _ rfl (by decide +kernel) (by decide +kernel)

set_option maxRecDepth 8192 in
theorem eq_main_v53 (V : Valuation τ sig (Elt F)) :
    finV V (main_v53 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v52 : DevRef τ sig)) :=
  win_unary win1 2 (finV_split1 V) main_v52 main_v53 _ _ _ rfl (by decide +kernel) (by decide +kernel)

set_option maxRecDepth 8192 in
theorem eq_main_v54 (V : Valuation τ sig (Elt F)) :
    finV V (main_v54 : DevRef τ sig) = (mulf : (⟨S50000x128, .f32⟩ : BufTy).Contents (Elt F) → (⟨S50000x128, .f32⟩ : BufTy).Contents (Elt F) → (⟨S50000x128, .f32⟩ : BufTy).Contents (Elt F)) (finV V (main_v51 : DevRef τ sig)) (finV V (main_v53 : DevRef τ sig)) :=
  win_binary win1 3 (finV_split1 V) main_v51 main_v53 main_v54 _ _ _ _ rfl (by decide +kernel) (by decide +kernel) (by decide +kernel)

set_option maxRecDepth 8192 in
theorem eq_main_v55 (V : Valuation τ sig (Elt F)) :
    finV V (main_v55 : DevRef τ sig) = (broadcastInDim S1x128 ![1] bcast_S128_S1x128_1 : (⟨S128, .f32⟩ : BufTy).Contents (Elt F) → (⟨S1x128, .f32⟩ : BufTy).Contents (Elt F)) (finV V (main_v38 : DevRef τ sig)) :=
  win_unary win1 4 (finV_split1 V) main_v38 main_v55 _ _ _ rfl (by decide +kernel) (by decide +kernel)

set_option maxRecDepth 8192 in
theorem eq_main_v56 (V : Valuation τ sig (Elt F)) :
    finV V (main_v56 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v55 : DevRef τ sig)) :=
  win_unary win1 5 (finV_split1 V) main_v55 main_v56 _ _ _ rfl (by decide +kernel) (by decide +kernel)

set_option maxRecDepth 8192 in
theorem eq_main_v57 (V : Valuation τ sig (Elt F)) :
    finV V (main_v57 : DevRef τ sig) = (addf : (⟨S50000x128, .f32⟩ : BufTy).Contents (Elt F) → (⟨S50000x128, .f32⟩ : BufTy).Contents (Elt F) → (⟨S50000x128, .f32⟩ : BufTy).Contents (Elt F)) (finV V (main_v54 : DevRef τ sig)) (finV V (main_v56 : DevRef τ sig)) :=
  win_binary win1 6 (finV_split1 V) main_v54 main_v56 main_v57 _ _ _ _ rfl (by decide +kernel) (by decide +kernel) (by decide +kernel)

set_option maxRecDepth 8192 in
theorem eq_main_v58 (V : Valuation τ sig (Elt F)) :
    finV V (main_v58 : DevRef τ sig) = ((extractStridedSlice S1x128x128 ![1, 0, 0] · slices_S7x128x128_S1x128x128_1_0_0) : (⟨S7x128x128, .f32⟩ : BufTy).Contents (Elt F) → (⟨S1x128x128, .f32⟩ : BufTy).Contents (Elt F)) (finV V (main_arg3 : DevRef τ sig)) :=
  win_unary win1 7 (finV_split1 V) main_arg3 main_v58 _ _ _ rfl (by decide +kernel) (by decide +kernel)

set_option maxRecDepth 8192 in
theorem eq_main_v59 (V : Valuation τ sig (Elt F)) :
    finV V (main_v59 : DevRef τ sig) = shapeCast S128x128 (finV V (main_v58 : DevRef τ sig)) shapeCasts_S1x128x128_S128x128 :=
  win_reshape win1 8 (finV_split1 V) main_v58 main_v59 _ _ _ _ rfl (by decide +kernel) (by decide +kernel)

set_option maxRecDepth 8192 in
theorem eq_main_v60 (V : Valuation τ sig (Elt F)) :
    finV V (main_v60 : DevRef τ sig) = ((extractStridedSlice S1x128 ![1, 0] · slices_S7x128_S1x128_1_0) : (⟨S7x128, .f32⟩ : BufTy).Contents (Elt F) → (⟨S1x128, .f32⟩ : BufTy).Contents (Elt F)) (finV V (main_arg4 : DevRef τ sig)) :=
  win_unary win1 9 (finV_split1 V) main_arg4 main_v60 _ _ _ rfl (by decide +kernel) (by decide +kernel)

set_option maxRecDepth 8192 in
theorem eq_main_v61 (V : Valuation τ sig (Elt F)) :
    finV V (main_v61 : DevRef τ sig) = shapeCast S128 (finV V (main_v60 : DevRef τ sig)) shapeCasts_S1x128_S128 :=
  win_reshape win1 10 (finV_split1 V) main_v60 main_v61 _ _ _ _ rfl (by decide +kernel) (by decide +kernel)

set_option maxRecDepth 8192 in
theorem eq_main_v62 (V : Valuation τ sig (Elt F)) :
    finV V (main_v62 : DevRef τ sig) = ((extractStridedSlice S1x128x128 ![1, 0, 0] · slices_S7x128x128_S1x128x128_1_0_0) : (⟨S7x128x128, .f32⟩ : BufTy).Contents (Elt F) → (⟨S1x128x128, .f32⟩ : BufTy).Contents (Elt F)) (finV V (main_arg5 : DevRef τ sig)) :=
  win_unary win1 11 (finV_split1 V) main_arg5 main_v62 _ _ _ rfl (by decide +kernel) (by decide +kernel)

set_option maxRecDepth 8192 in
theorem eq_main_v63 (V : Valuation τ sig (Elt F)) :
    finV V (main_v63 : DevRef τ sig) = shapeCast S128x128 (finV V (main_v62 : DevRef τ sig)) shapeCasts_S1x128x128_S128x128 :=
  win_reshape win1 12 (finV_split1 V) main_v62 main_v63 _ _ _ _ rfl (by decide +kernel) (by decide +kernel)

set_option maxRecDepth 8192 in
theorem eq_main_v64 (V : Valuation τ sig (Elt F)) :
    finV V (main_v64 : DevRef τ sig) = ((extractStridedSlice S1x128 ![1, 0] · slices_S7x128_S1x128_1_0) : (⟨S7x128, .f32⟩ : BufTy).Contents (Elt F) → (⟨S1x128, .f32⟩ : BufTy).Contents (Elt F)) (finV V (main_arg6 : DevRef τ sig)) :=
  win_unary win1 13 (finV_split1 V) main_arg6 main_v64 _ _ _ rfl (by decide +kernel) (by decide +kernel)

set_option maxRecDepth 8192 in
theorem eq_main_v65 (V : Valuation τ sig (Elt F)) :
    finV V (main_v65 : DevRef τ sig) = shapeCast S128 (finV V (main_v64 : DevRef τ sig)) shapeCasts_S1x128_S128 :=
  win_reshape win1 14 (finV_split1 V) main_v64 main_v65 _ _ _ _ rfl (by decide +kernel) (by decide +kernel)

set_option maxRecDepth 8192 in
theorem eq_main_c_7 (V : Valuation τ sig (Elt F)) :
    finV V (main_c_7 : DevRef τ sig) = (constantI S_ 32 0#32) :=
  win_nullary win1 15 (finV_split1 V) main_c_7 _ _ rfl (by decide +kernel)

set_option maxRecDepth 8192 in
theorem eq_main_v66 (V : Valuation τ sig (Elt F)) :
    finV V (main_v66 : DevRef τ sig) = (broadcastInDim S600000 ![] bcast_S_S600000 : (⟨S_, .i32⟩ : BufTy).Contents (Elt F) → (⟨S600000, .i32⟩ : BufTy).Contents (Elt F)) (finV V (main_c_7 : DevRef τ sig)) :=
  win_unary win1 16 (finV_split1 V) main_c_7 main_v66 _ _ _ rfl (by decide +kernel) (by decide +kernel)

set_option maxRecDepth 8192 in
theorem eq_main_v67 (V : Valuation τ sig (Elt F)) :
    finV V (main_v67 : DevRef τ sig) = (cmpi .slt : (⟨S600000, .i32⟩ : BufTy).Contents (Elt F) → (⟨S600000, .i32⟩ : BufTy).Contents (Elt F) → (⟨S600000, .i1⟩ : BufTy).Contents (Elt F)) (finV V (main_v1 : DevRef τ sig)) (finV V (main_v66 : DevRef τ sig)) :=
  win_binary win1 17 (finV_split1 V) main_v1 main_v66 main_v67 _ _ _ _ rfl (by decide +kernel) (by decide +kernel) (by decide +kernel)

set_option maxRecDepth 8192 in
theorem eq_main_c_8 (V : Valuation τ sig (Elt F)) :
    finV V (main_c_8 : DevRef τ sig) = (constantI S_ 32 50000#32) :=
  win_nullary win1 18 (finV_split1 V) main_c_8 _ _ rfl (by decide +kernel)

set_option maxRecDepth 8192 in
theorem eq_main_v68 (V : Valuation τ sig (Elt F)) :
    finV V (main_v68 : DevRef τ sig) = (broadcastInDim S600000 ![] bcast_S_S600000 : (⟨S_, .i32⟩ : BufTy).Contents (Elt F) → (⟨S600000, .i32⟩ : BufTy).Contents (Elt F)) (finV V (main_c_8 : DevRef τ sig)) :=
  win_unary win1 19 (finV_split1 V) main_c_8 main_v68 _ _ _ rfl (by decide +kernel) (by decide +kernel)

set_option maxRecDepth 8192 in
theorem eq_main_v69 (V : Valuation τ sig (Elt F)) :
    finV V (main_v69 : DevRef τ sig) = (addi : (⟨S600000, .i32⟩ : BufTy).Contents (Elt F) → (⟨S600000, .i32⟩ : BufTy).Contents (Elt F) → (⟨S600000, .i32⟩ : BufTy).Contents (Elt F)) (finV V (main_v1 : DevRef τ sig)) (finV V (main_v68 : DevRef τ sig)) :=
  win_binary win1 20 (finV_split1 V) main_v1 main_v68 main_v69 _ _ _ _ rfl (by decide +kernel) (by decide +kernel) (by decide +kernel)

set_option maxRecDepth 8192 in
theorem eq_main_v70 (V : Valuation τ sig (Elt F)) :
    finV V (main_v70 : DevRef τ sig) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (finV V (main_v67 : DevRef τ sig)) (finV V (main_v69 : DevRef τ sig)) (finV V (main_v1 : DevRef τ sig)) :=
  win_ternary win1 21 (finV_split1 V) main_v67 main_v69 main_v1 main_v70 _ _ _ _ _ rfl (by decide +kernel) (by decide +kernel) (by decide +kernel) (by decide +kernel)

set_option maxRecDepth 8192 in
theorem eq_main_v71 (V : Valuation τ sig (Elt F)) :
    finV V (main_v71 : DevRef τ sig) = (broadcastInDim S600000x1 ![0] bcast_S600000_S600000x1_0 : (⟨S600000, .i32⟩ : BufTy).Contents (Elt F) → (⟨S600000x1, .i32⟩ : BufTy).Contents (Elt F)) (finV V (main_v70 : DevRef τ sig)) :=
  win_unary win1 22 (finV_split1 V) main_v70 main_v71 _ _ _ rfl (by decide +kernel) (by decide +kernel)

set_option maxRecDepth 8192 in
theorem eq_main_v72 (V : Valuation τ sig (Elt F)) :
    finV V (main_v72 : DevRef τ sig) = ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) (finV V (main_v57 : DevRef τ sig)) (finV V (main_v71 : DevRef τ sig)) :=
  win_binary win1 23 (finV_split1 V) main_v57 main_v71 main_v72 _ _ _ _ rfl (by decide +kernel) (by decide +kernel) (by decide +kernel)

set_option maxRecDepth 8192 in
theorem eq_main_cst_9 (V : Valuation τ sig (Elt F)) :
    finV V (main_cst_9 : DevRef τ sig) = (constant S_ .f32 0x00000000#32) :=
  win_nullary win1 24 (finV_split1 V) main_cst_9 _ _ rfl (by decide +kernel)

set_option maxRecDepth 8192 in
theorem eq_main_v73 (V : Valuation τ sig (Elt F)) :
    finV V (main_v73 : DevRef τ sig) = (broadcastInDim S50000x128 ![] bcast_S_S50000x128 : (⟨S_, .f32⟩ : BufTy).Contents (Elt F) → (⟨S50000x128, .f32⟩ : BufTy).Contents (Elt F)) (finV V (main_cst_9 : DevRef τ sig)) :=
  win_unary win1 25 (finV_split1 V) main_cst_9 main_v73 _ _ _ rfl (by decide +kernel) (by decide +kernel)

set_option maxRecDepth 8192 in
theorem eq_main_v74 (V : Valuation τ sig (Elt F)) :
    finV V (main_v74 : DevRef τ sig) = (broadcastInDim S600000x1 ![0] bcast_S600000_S600000x1_0 : (⟨S600000, .i32⟩ : BufTy).Contents (Elt F) → (⟨S600000x1, .i32⟩ : BufTy).Contents (Elt F)) (finV V (main_v3 : DevRef τ sig)) :=
  win_unary win1 26 (finV_split1 V) main_v3 main_v74 _ _ _ rfl (by decide +kernel) (by decide +kernel)

set_option maxRecDepth 8192 in
theorem eq_main_v75 (V : Valuation τ sig (Elt F)) :
    finV V (main_v75 : DevRef τ sig) = ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) (finV V (main_v73 : DevRef τ sig)) (finV V (main_v74 : DevRef τ sig)) (finV V (main_v72 : DevRef τ sig)) :=
  win_ternary win1 27 (finV_split1 V) main_v73 main_v74 main_v72 main_v75 _ _ _ _ _ rfl (by decide +kernel) (by decide +kernel) (by decide +kernel) (by decide +kernel)

set_option maxRecDepth 8192 in
theorem eq_main_v76 (V : Valuation τ sig (Elt F)) :
    finV V (main_v76 : DevRef τ sig) = (addf : (⟨S50000x128, .f32⟩ : BufTy).Contents (Elt F) → (⟨S50000x128, .f32⟩ : BufTy).Contents (Elt F) → (⟨S50000x128, .f32⟩ : BufTy).Contents (Elt F)) (finV V (main_v57 : DevRef τ sig)) (finV V (main_v75 : DevRef τ sig)) :=
  win_binary win1 28 (finV_split1 V) main_v57 main_v75 main_v76 _ _ _ _ rfl (by decide +kernel) (by decide +kernel) (by decide +kernel)

set_option maxRecDepth 8192 in
theorem eq_main_v77 (V : Valuation τ sig (Elt F)) :
    finV V (main_v77 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v76 : DevRef τ sig)) (finV V (main_v59 : DevRef τ sig)) :=
  win_binary win1 29 (finV_split1 V) main_v76 main_v59 main_v77 _ _ _ _ rfl (by decide +kernel) (by decide +kernel) (by decide +kernel)

set_option maxRecDepth 8192 in
theorem eq_main_v78 (V : Valuation τ sig (Elt F)) :
    finV V (main_v78 : DevRef τ sig) = (broadcastInDim S1x128 ![1] bcast_S128_S1x128_1 : (⟨S128, .f32⟩ : BufTy).Contents (Elt F) → (⟨S1x128, .f32⟩ : BufTy).Contents (Elt F)) (finV V (main_v61 : DevRef τ sig)) :=
  win_unary win1 30 (finV_split1 V) main_v61 main_v78 _ _ _ rfl (by decide +kernel) (by decide +kernel)

set_option maxRecDepth 8192 in
theorem eq_main_v79 (V : Valuation τ sig (Elt F)) :
    finV V (main_v79 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v78 : DevRef τ sig)) :=
  win_unary win1 31 (finV_split1 V) main_v78 main_v79 _ _ _ rfl (by decide +kernel) (by decide +kernel)

set_option maxRecDepth 8192 in
theorem eq_main_v80 (V : Valuation τ sig (Elt F)) :
    finV V (main_v80 : DevRef τ sig) = (addf : (⟨S50000x128, .f32⟩ : BufTy).Contents (Elt F) → (⟨S50000x128, .f32⟩ : BufTy).Contents (Elt F) → (⟨S50000x128, .f32⟩ : BufTy).Contents (Elt F)) (finV V (main_v77 : DevRef τ sig)) (finV V (main_v79 : DevRef τ sig)) :=
  win_binary win1 32 (finV_split1 V) main_v77 main_v79 main_v80 _ _ _ _ rfl (by decide +kernel) (by decide +kernel) (by decide +kernel)

set_option maxRecDepth 8192 in
theorem eq_main_cst_10 (V : Valuation τ sig (Elt F)) :
    finV V (main_cst_10 : DevRef τ sig) = (constant S_ .f32 0x00000000#32) :=
  win_nullary win1 33 (finV_split1 V) main_cst_10 _ _ rfl (by decide +kernel)

set_option maxRecDepth 8192 in
theorem eq_main_v81 (V : Valuation τ sig (Elt F)) :
    finV V (main_v81 : DevRef τ sig) = (broadcastInDim S50000x128 ![] bcast_S_S50000x128 : (⟨S_, .f32⟩ : BufTy).Contents (Elt F) → (⟨S50000x128, .f32⟩ : BufTy).Contents (Elt F)) (finV V (main_cst_10 : DevRef τ sig)) :=
  win_unary win1 34 (finV_split1 V) main_cst_10 main_v81 _ _ _ rfl (by decide +kernel) (by decide +kernel)

set_option maxRecDepth 8192 in
theorem eq_main_v82 (V : Valuation τ sig (Elt F)) :
    finV V (main_v82 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v80 : DevRef τ sig)) (finV V (main_v81 : DevRef τ sig)) :=
  win_binary win1 35 (finV_split1 V) main_v80 main_v81 main_v82 _ _ _ _ rfl (by decide +kernel) (by decide +kernel) (by decide +kernel)

set_option maxRecDepth 8192 in
theorem eq_main_v83 (V : Valuation τ sig (Elt F)) :
    finV V (main_v83 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v82 : DevRef τ sig)) (finV V (main_v63 : DevRef τ sig)) :=
  win_binary win1 36 (finV_split1 V) main_v82 main_v63 main_v83 _ _ _ _ rfl (by decide +kernel) (by decide +kernel) (by decide +kernel)

set_option maxRecDepth 8192 in
theorem eq_main_v84 (V : Valuation τ sig (Elt F)) :
    finV V (main_v84 : DevRef τ sig) = (broadcastInDim S1x128 ![1] bcast_S128_S1x128_1 : (⟨S128, .f32⟩ : BufTy).Contents (Elt F) → (⟨S1x128, .f32⟩ : BufTy).Contents (Elt F)) (finV V (main_v65 : DevRef τ sig)) :=
  win_unary win1 37 (finV_split1 V) main_v65 main_v84 _ _ _ rfl (by decide +kernel) (by decide +kernel)

set_option maxRecDepth 8192 in
theorem eq_main_v85 (V : Valuation τ sig (Elt F)) :
    finV V (main_v85 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v84 : DevRef τ sig)) :=
  win_unary win1 38 (finV_split1 V) main_v84 main_v85 _ _ _ rfl (by decide +kernel) (by decide +kernel)

set_option maxRecDepth 8192 in
theorem eq_main_v86 (V : Valuation τ sig (Elt F)) :
    finV V (main_v86 : DevRef τ sig) = (addf : (⟨S50000x128, .f32⟩ : BufTy).Contents (Elt F) → (⟨S50000x128, .f32⟩ : BufTy).Contents (Elt F) → (⟨S50000x128, .f32⟩ : BufTy).Contents (Elt F)) (finV V (main_v83 : DevRef τ sig)) (finV V (main_v85 : DevRef τ sig)) :=
  win_binary win1 39 (finV_split1 V) main_v83 main_v85 main_v86 _ _ _ _ rfl (by decide +kernel) (by decide +kernel) (by decide +kernel)

set_option maxRecDepth 8192 in
theorem eq_main_cst_11 (V : Valuation τ sig (Elt F)) :
    finV V (main_cst_11 : DevRef τ sig) = (constant S_ .f32 0x00000000#32) :=
  win_nullary win1 40 (finV_split1 V) main_cst_11 _ _ rfl (by decide +kernel)

set_option maxRecDepth 8192 in
theorem eq_main_v87 (V : Valuation τ sig (Elt F)) :
    finV V (main_v87 : DevRef τ sig) = (broadcastInDim S50000x128 ![] bcast_S_S50000x128 : (⟨S_, .f32⟩ : BufTy).Contents (Elt F) → (⟨S50000x128, .f32⟩ : BufTy).Contents (Elt F)) (finV V (main_cst_11 : DevRef τ sig)) :=
  win_unary win1 41 (finV_split1 V) main_cst_11 main_v87 _ _ _ rfl (by decide +kernel) (by decide +kernel)

set_option maxRecDepth 8192 in
theorem eq_main_v88 (V : Valuation τ sig (Elt F)) :
    finV V (main_v88 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v86 : DevRef τ sig)) (finV V (main_v87 : DevRef τ sig)) :=
  win_binary win1 42 (finV_split1 V) main_v86 main_v87 main_v88 _ _ _ _ rfl (by decide +kernel) (by decide +kernel) (by decide +kernel)

set_option maxRecDepth 8192 in
theorem eq_main_v89 (V : Valuation τ sig (Elt F)) :
    finV V (main_v89 : DevRef τ sig) = ((extractStridedSlice S1x128 ![1, 0] · slices_S7x128_S1x128_1_0) : (⟨S7x128, .f32⟩ : BufTy).Contents (Elt F) → (⟨S1x128, .f32⟩ : BufTy).Contents (Elt F)) (finV V (main_arg7 : DevRef τ sig)) :=
  win_unary win1 43 (finV_split1 V) main_arg7 main_v89 _ _ _ rfl (by decide +kernel) (by decide +kernel)

set_option maxRecDepth 8192 in
theorem eq_main_v90 (V : Valuation τ sig (Elt F)) :
    finV V (main_v90 : DevRef τ sig) = shapeCast S128 (finV V (main_v89 : DevRef τ sig)) shapeCasts_S1x128_S128 :=
  win_reshape win1 44 (finV_split1 V) main_v89 main_v90 _ _ _ _ rfl (by decide +kernel) (by decide +kernel)

set_option maxRecDepth 8192 in
theorem eq_main_v91 (V : Valuation τ sig (Elt F)) :
    finV V (main_v91 : DevRef τ sig) = ((extractStridedSlice S1x128 ![1, 0] · slices_S7x128_S1x128_1_0) : (⟨S7x128, .f32⟩ : BufTy).Contents (Elt F) → (⟨S1x128, .f32⟩ : BufTy).Contents (Elt F)) (finV V (main_arg8 : DevRef τ sig)) :=
  win_unary win1 45 (finV_split1 V) main_arg8 main_v91 _ _ _ rfl (by decide +kernel) (by decide +kernel)

set_option maxRecDepth 8192 in
theorem eq_main_v92 (V : Valuation τ sig (Elt F)) :
    finV V (main_v92 : DevRef τ sig) = shapeCast S128 (finV V (main_v91 : DevRef τ sig)) shapeCasts_S1x128_S128 :=
  win_reshape win1 46 (finV_split1 V) main_v91 main_v92 _ _ _ _ rfl (by decide +kernel) (by decide +kernel)

set_option maxRecDepth 8192 in
theorem eq_main_cst_12 (V : Valuation τ sig (Elt F)) :
    finV V (main_cst_12 : DevRef τ sig) = (constant S_ .f32 0x00000000#32) :=
  win_nullary win1 47 (finV_split1 V) main_cst_12 _ _ rfl (by decide +kernel)

set_option maxRecDepth 8192 in
theorem eq_main_v93 (V : Valuation τ sig (Elt F)) :
    finV V (main_v93 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v88 : DevRef τ sig)) (finV V (main_cst_12 : DevRef τ sig)) :=
  win_binary win1 48 (finV_split1 V) main_v88 main_cst_12 main_v93 _ _ _ _ rfl (by decide +kernel) (by decide +kernel) (by decide +kernel)

set_option maxRecDepth 8192 in
theorem eq_main_cst_13 (V : Valuation τ sig (Elt F)) :
    finV V (main_cst_13 : DevRef τ sig) = (constant S_ .f32 0x47435000#32) :=
  win_nullary win1 49 (finV_split1 V) main_cst_13 _ _ rfl (by decide +kernel)

set_option maxRecDepth 8192 in
theorem eq_main_v94 (V : Valuation τ sig (Elt F)) :
    finV V (main_v94 : DevRef τ sig) = (broadcastInDim S128 ![] bcast_S_S128 : (⟨S_, .f32⟩ : BufTy).Contents (Elt F) → (⟨S128, .f32⟩ : BufTy).Contents (Elt F)) (finV V (main_cst_13 : DevRef τ sig)) :=
  win_unary win1 50 (finV_split1 V) main_cst_13 main_v94 _ _ _ rfl (by decide +kernel) (by decide +kernel)

set_option maxRecDepth 8192 in
theorem eq_main_v95 (V : Valuation τ sig (Elt F)) :
    finV V (main_v95 : DevRef τ sig) = (Host.divf : (⟨S128, .f32⟩ : BufTy).Contents (Elt F) → (⟨S128, .f32⟩ : BufTy).Contents (Elt F) → (⟨S128, .f32⟩ : BufTy).Contents (Elt F)) (finV V (main_v93 : DevRef τ sig)) (finV V (main_v94 : DevRef τ sig)) :=
  win_binary win1 51 (finV_split1 V) main_v93 main_v94 main_v95 _ _ _ _ rfl (by decide +kernel) (by decide +kernel) (by decide +kernel)

set_option maxRecDepth 8192 in
theorem eq_main_c_14 (V : Valuation τ sig (Elt F)) :
    finV V (main_c_14 : DevRef τ sig) = (constantI S_ 32 0#32) :=
  win_nullary win1 52 (finV_split1 V) main_c_14 _ _ rfl (by decide +kernel)

set_option maxRecDepth 8192 in
theorem eq_main_call1_cst (V : Valuation τ sig (Elt F)) :
    finV V (main_call1_cst : DevRef τ sig) = (constant S_ .f32 0x00000000#32) :=
  win_nullary win1 53 (finV_split1 V) main_call1_cst _ _ rfl (by decide +kernel)

set_option maxRecDepth 8192 in
theorem eq_main_call1_v0 (V : Valuation τ sig (Elt F)) :
    finV V (main_call1_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v88 : DevRef τ sig)) (finV V (main_call1_cst : DevRef τ sig)) :=
  win_binary win1 54 (finV_split1 V) main_v88 main_call1_cst main_call1_v0 _ _ _ _ rfl (by decide +kernel) (by decide +kernel) (by decide +kernel)

set_option maxRecDepth 8192 in
theorem eq_main_call1_v1 (V : Valuation τ sig (Elt F)) :
    finV V (main_call1_v1 : DevRef τ sig) = ((broadcastInDim S1x128 ![1] bcast_S128_S1x128_1) : (⟨S128, .f32⟩ : BufTy).Contents (Elt F) → (⟨S1x128, .f32⟩ : BufTy).Contents (Elt F)) (finV V (main_call1_v0 : DevRef τ sig)) :=
  win_unary win1 55 (finV_split1 V) main_call1_v0 main_call1_v1 _ _ _ rfl (by decide +kernel) (by decide +kernel)

set_option maxRecDepth 8192 in
theorem eq_main_call1_cst_0 (V : Valuation τ sig (Elt F)) :
    finV V (main_call1_cst_0 : DevRef τ sig) = (constant S_ .f32 0x47435000#32) :=
  win_nullary win1 56 (finV_split1 V) main_call1_cst_0 _ _ rfl (by decide +kernel)

set_option maxRecDepth 8192 in
theorem eq_main_call1_v2 (V : Valuation τ sig (Elt F)) :
    finV V (main_call1_v2 : DevRef τ sig) = ((broadcastInDim S1x128 ![] bcast_S_S1x128) : (⟨S_, .f32⟩ : BufTy).Contents (Elt F) → (⟨S1x128, .f32⟩ : BufTy).Contents (Elt F)) (finV V (main_call1_cst_0 : DevRef τ sig)) :=
  win_unary win1 57 (finV_split1 V) main_call1_cst_0 main_call1_v2 _ _ _ rfl (by decide +kernel) (by decide +kernel)

set_option maxRecDepth 8192 in
theorem eq_main_call1_v3 (V : Valuation τ sig (Elt F)) :
    finV V (main_call1_v3 : DevRef τ sig) = (Host.divf : (⟨S1x128, .f32⟩ : BufTy).Contents (Elt F) → (⟨S1x128, .f32⟩ : BufTy).Contents (Elt F) → (⟨S1x128, .f32⟩ : BufTy).Contents (Elt F)) (finV V (main_call1_v1 : DevRef τ sig)) (finV V (main_call1_v2 : DevRef τ sig)) :=
  win_binary win1 58 (finV_split1 V) main_call1_v1 main_call1_v2 main_call1_v3 _ _ _ _ rfl (by decide +kernel) (by decide +kernel) (by decide +kernel)

set_option maxRecDepth 8192 in
theorem eq_main_call1_v4 (V : Valuation τ sig (Elt F)) :
    finV V (main_call1_v4 : DevRef τ sig) = ((broadcastInDim S50000x128 ![0, 1] bcast_S1x128_S50000x128_0_1) : (⟨S1x128, .f32⟩ : BufTy).Contents (Elt F) → (⟨S50000x128, .f32⟩ : BufTy).Contents (Elt F)) (finV V (main_call1_v3 : DevRef τ sig)) :=
  win_unary win1 59 (finV_split1 V) main_call1_v3 main_call1_v4 _ _ _ rfl (by decide +kernel) (by decide +kernel)

set_option maxRecDepth 8192 in
theorem eq_main_call1_v5 (V : Valuation τ sig (Elt F)) :
    finV V (main_call1_v5 : DevRef τ sig) = (subf : (⟨S50000x128, .f32⟩ : BufTy).Contents (Elt F) → (⟨S50000x128, .f32⟩ : BufTy).Contents (Elt F) → (⟨S50000x128, .f32⟩ : BufTy).Contents (Elt F)) (finV V (main_v88 : DevRef τ sig)) (finV V (main_call1_v4 : DevRef τ sig)) :=
  win_binary win1 60 (finV_split1 V) main_v88 main_call1_v4 main_call1_v5 _ _ _ _ rfl (by decide +kernel) (by decide +kernel) (by decide +kernel)

set_option maxRecDepth 8192 in
theorem eq_main_call1_v6 (V : Valuation τ sig (Elt F)) :
    finV V (main_call1_v6 : DevRef τ sig) = (mulf : (⟨S50000x128, .f32⟩ : BufTy).Contents (Elt F) → (⟨S50000x128, .f32⟩ : BufTy).Contents (Elt F) → (⟨S50000x128, .f32⟩ : BufTy).Contents (Elt F)) (finV V (main_call1_v5 : DevRef τ sig)) (finV V (main_call1_v5 : DevRef τ sig)) :=
  win_binary win1 61 (finV_split1 V) main_call1_v5 main_call1_v5 main_call1_v6 _ _ _ _ rfl (by decide +kernel) (by decide +kernel) (by decide +kernel)

set_option maxRecDepth 8192 in
theorem eq_main_call1_v7 (V : Valuation τ sig (Elt F)) :
    finV V (main_call1_v7 : DevRef τ sig) = ((sitofp .f32) : (⟨S_, .i32⟩ : BufTy).Contents (Elt F) → (⟨S_, .f32⟩ : BufTy).Contents (Elt F)) (finV V (main_c_14 : DevRef τ sig)) :=
  win_unary win1 62 (finV_split1 V) main_c_14 main_call1_v7 _ _ _ rfl (by decide +kernel) (by decide +kernel)

set_option maxRecDepth 8192 in
theorem eq_main_call1_cst_1 (V : Valuation τ sig (Elt F)) :
    finV V (main_call1_cst_1 : DevRef τ sig) = (constant S_ .f32 0x47435000#32) :=
  win_nullary win1 63 (finV_split1 V) main_call1_cst_1 _ _ rfl (by decide +kernel)

set_option maxRecDepth 8192 in
theorem eq_main_call1_v8 (V : Valuation τ sig (Elt F)) :
    finV V (main_call1_v8 : DevRef τ sig) = (subf : (⟨S_, .f32⟩ : BufTy).Contents (Elt F) → (⟨S_, .f32⟩ : BufTy).Contents (Elt F) → (⟨S_, .f32⟩ : BufTy).Contents (Elt F)) (finV V (main_call1_cst_1 : DevRef τ sig)) (finV V (main_call1_v7 : DevRef τ sig)) :=
  win_binary win1 64 (finV_split1 V) main_call1_cst_1 main_call1_v7 main_call1_v8 _ _ _ _ rfl (by decide +kernel) (by decide +kernel) (by decide +kernel)

set_option maxRecDepth 8192 in
theorem eq_main_call1_cst_2 (V : Valuation τ sig (Elt F)) :
    finV V (main_call1_cst_2 : DevRef τ sig) = (constant S_ .f32 0x00000000#32) :=
  win_nullary win1 65 (finV_split1 V) main_call1_cst_2 _ _ rfl (by decide +kernel)

set_option maxRecDepth 8192 in
theorem eq_main_call1_v9 (V : Valuation τ sig (Elt F)) :
    finV V (main_call1_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_call1_v6 : DevRef τ sig)) (finV V (main_call1_cst_2 : DevRef τ sig)) :=
  win_binary win1 66 (finV_split1 V) main_call1_v6 main_call1_cst_2 main_call1_v9 _ _ _ _ rfl (by decide +kernel) (by decide +kernel) (by decide +kernel)

set_option maxRecDepth 8192 in
theorem eq_main_call1_v10 (V : Valuation τ sig (Elt F)) :
    finV V (main_call1_v10 : DevRef τ sig) = ((broadcastInDim S128 ![] bcast_S_S128) : (⟨S_, .f32⟩ : BufTy).Contents (Elt F) → (⟨S128, .f32⟩ : BufTy).Contents (Elt F)) (finV V (main_call1_v8 : DevRef τ sig)) :=
  win_unary win1 67 (finV_split1 V) main_call1_v8 main_call1_v10 _ _ _ rfl (by decide +kernel) (by decide +kernel)

set_option maxRecDepth 8192 in
theorem eq_main_call1_v11 (V : Valuation τ sig (Elt F)) :
    finV V (main_call1_v11 : DevRef τ sig) = (Host.divf : (⟨S128, .f32⟩ : BufTy).Contents (Elt F) → (⟨S128, .f32⟩ : BufTy).Contents (Elt F) → (⟨S128, .f32⟩ : BufTy).Contents (Elt F)) (finV V (main_call1_v9 : DevRef τ sig)) (finV V (main_call1_v10 : DevRef τ sig)) :=
  win_binary win1 68 (finV_split1 V) main_call1_v9 main_call1_v10 main_call1_v11 _ _ _ _ rfl (by decide +kernel) (by decide +kernel) (by decide +kernel)

set_option maxRecDepth 8192 in
theorem eq_main_call1_cst_3 (V : Valuation τ sig (Elt F)) :
    finV V (main_call1_cst_3 : DevRef τ sig) = (constant S_ .f32 0x00000000#32) :=
  win_nullary win1 69 (finV_split1 V) main_call1_cst_3 _ _ rfl (by decide +kernel)

set_option maxRecDepth 8192 in
theorem eq_main_call1_v12 (V : Valuation τ sig (Elt F)) :
    finV V (main_call1_v12 : DevRef τ sig) = ((cmpf .ogt) : (⟨S_, .f32⟩ : BufTy).Contents (Elt F) → (⟨S_, .f32⟩ : BufTy).Contents (Elt F) → (⟨S_, .i1⟩ : BufTy).Contents (Elt F)) (finV V (main_call1_v8 : DevRef τ sig)) (finV V (main_call1_cst_3 : DevRef τ sig)) :=
  win_binary win1 70 (finV_split1 V) main_call1_v8 main_call1_cst_3 main_call1_v12 _ _ _ _ rfl (by decide +kernel) (by decide +kernel) (by decide +kernel)

set_option maxRecDepth 8192 in
theorem eq_main_call1_cst_4 (V : Valuation τ sig (Elt F)) :
    finV V (main_call1_cst_4 : DevRef τ sig) = (constant S_ .f32 0x7FC00000#32) :=
  win_nullary win1 71 (finV_split1 V) main_call1_cst_4 _ _ rfl (by decide +kernel)

set_option maxRecDepth 8192 in
theorem eq_main_call1_call0_v0 (V : Valuation τ sig (Elt F)) :
    finV V (main_call1_call0_v0 : DevRef τ sig) = (id : (⟨S_, .f32⟩ : BufTy).Contents (Elt F) → (⟨S_, .f32⟩ : BufTy).Contents (Elt F)) (finV V (main_call1_cst_4 : DevRef τ sig)) :=
  win_unary win1 72 (finV_split1 V) main_call1_cst_4 main_call1_call0_v0 _ _ _ rfl (by decide +kernel) (by decide +kernel)

set_option maxRecDepth 8192 in
theorem eq_main_call1_call0_v1 (V : Valuation τ sig (Elt F)) :
    finV V (main_call1_call0_v1 : DevRef τ sig) = ((broadcastInDim S128 ![] bcast_S_S128) : (⟨S_, .f32⟩ : BufTy).Contents (Elt F) → (⟨S128, .f32⟩ : BufTy).Contents (Elt F)) (finV V (main_call1_call0_v0 : DevRef τ sig)) :=
  win_unary win1 73 (finV_split1 V) main_call1_call0_v0 main_call1_call0_v1 _ _ _ rfl (by decide +kernel) (by decide +kernel)

set_option maxHeartbeats 4000000 in
set_option maxRecDepth 8192 in
theorem eq_main_v96 (V : Valuation τ sig (Elt F)) :
    finV V (main_v96 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (finV V (main_call1_v12 : DevRef τ sig)) (finV V (main_call1_v11 : DevRef τ sig)) (finV V (main_call1_call0_v1 : DevRef τ sig)) :=
  win_ternary win1 74 (finV_split1 V) main_call1_v12 main_call1_v11 main_call1_call0_v1 main_v96 _ _ _ _ _ rfl (by decide +kernel) (by decide +kernel) (by decide +kernel) (by decide +kernel)

set_option maxRecDepth 8192 in
theorem eq_main_v97 (V : Valuation τ sig (Elt F)) :
    finV V (main_v97 : DevRef τ sig) = (broadcastInDim S1x128 ![1] bcast_S128_S1x128_1 : (⟨S128, .f32⟩ : BufTy).Contents (Elt F) → (⟨S1x128, .f32⟩ : BufTy).Contents (Elt F)) (finV V (main_v95 : DevRef τ sig)) :=
  win_unary win1 75 (finV_split1 V) main_v95 main_v97 _ _ _ rfl (by decide +kernel) (by decide +kernel)

set_option maxRecDepth 8192 in
theorem eq_main_v98 (V : Valuation τ sig (Elt F)) :
    finV V (main_v98 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v97 : DevRef τ sig)) :=
  win_unary win1 76 (finV_split1 V) main_v97 main_v98 _ _ _ rfl (by decide +kernel) (by decide +kernel)

set_option maxRecDepth 8192 in
theorem eq_main_v99 (V : Valuation τ sig (Elt F)) :
    finV V (main_v99 : DevRef τ sig) = (subf : (⟨S50000x128, .f32⟩ : BufTy).Contents (Elt F) → (⟨S50000x128, .f32⟩ : BufTy).Contents (Elt F) → (⟨S50000x128, .f32⟩ : BufTy).Contents (Elt F)) (finV V (main_v88 : DevRef τ sig)) (finV V (main_v98 : DevRef τ sig)) :=
  win_binary win1 77 (finV_split1 V) main_v88 main_v98 main_v99 _ _ _ _ rfl (by decide +kernel) (by decide +kernel) (by decide +kernel)

set_option maxRecDepth 8192 in
theorem eq_main_cst_15 (V : Valuation τ sig (Elt F)) :
    finV V (main_cst_15 : DevRef τ sig) = (constant S_ .f32 0x3727C5AC#32) :=
  win_nullary win1 78 (finV_split1 V) main_cst_15 _ _ rfl (by decide +kernel)

set_option maxRecDepth 8192 in
theorem eq_main_v100 (V : Valuation τ sig (Elt F)) :
    finV V (main_v100 : DevRef τ sig) = (broadcastInDim S128 ![] bcast_S_S128 : (⟨S_, .f32⟩ : BufTy).Contents (Elt F) → (⟨S128, .f32⟩ : BufTy).Contents (Elt F)) (finV V (main_cst_15 : DevRef τ sig)) :=
  win_unary win1 79 (finV_split1 V) main_cst_15 main_v100 _ _ _ rfl (by decide +kernel) (by decide +kernel)

set_option maxRecDepth 8192 in
theorem eq_main_v101 (V : Valuation τ sig (Elt F)) :
    finV V (main_v101 : DevRef τ sig) = (addf : (⟨S128, .f32⟩ : BufTy).Contents (Elt F) → (⟨S128, .f32⟩ : BufTy).Contents (Elt F) → (⟨S128, .f32⟩ : BufTy).Contents (Elt F)) (finV V (main_v96 : DevRef τ sig)) (finV V (main_v100 : DevRef τ sig)) :=
  win_binary win1 80 (finV_split1 V) main_v96 main_v100 main_v101 _ _ _ _ rfl (by decide +kernel) (by decide +kernel) (by decide +kernel)

/-! ## Window `main_part2` -/

set_option maxRecDepth 8192 in
theorem eq_main_v102 (V : Valuation τ sig (Elt F)) :
    finV V (main_v102 : DevRef τ sig) = (Host.rsqrt : (⟨S128, .f32⟩ : BufTy).Contents (Elt F) → (⟨S128, .f32⟩ : BufTy).Contents (Elt F)) (finV V (main_v101 : DevRef τ sig)) :=
  win_unary win2 0 (finV_split2 V) main_v101 main_v102 _ _ _ rfl (by decide +kernel) (by decide +kernel)

set_option maxRecDepth 8192 in
theorem eq_main_v103 (V : Valuation τ sig (Elt F)) :
    finV V (main_v103 : DevRef τ sig) = (broadcastInDim S1x128 ![1] bcast_S128_S1x128_1 : (⟨S128, .f32⟩ : BufTy).Contents (Elt F) → (⟨S1x128, .f32⟩ : BufTy).Contents (Elt F)) (finV V (main_v102 : DevRef τ sig)) :=
  win_unary win2 1 (finV_split2 V) main_v102 main_v103 _ _ _ rfl (by decide +kernel) (by decide +kernel)

set_option maxRecDepth 8192 in
theorem eq_main_v104 (V : Valuation τ sig (Elt F)) :
    finV V (main_v104 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v103 : DevRef τ sig)) :=
  win_unary win2 2 (finV_split2 V) main_v103 main_v104 _ _ _ rfl (by decide +kernel) (by decide +kernel)

set_option maxRecDepth 8192 in
theorem eq_main_v105 (V : Valuation τ sig (Elt F)) :
    finV V (main_v105 : DevRef τ sig) = (mulf : (⟨S50000x128, .f32⟩ : BufTy).Contents (Elt F) → (⟨S50000x128, .f32⟩ : BufTy).Contents (Elt F) → (⟨S50000x128, .f32⟩ : BufTy).Contents (Elt F)) (finV V (main_v99 : DevRef τ sig)) (finV V (main_v104 : DevRef τ sig)) :=
  win_binary win2 3 (finV_split2 V) main_v99 main_v104 main_v105 _ _ _ _ rfl (by decide +kernel) (by decide +kernel) (by decide +kernel)

set_option maxRecDepth 8192 in
theorem eq_main_v106 (V : Valuation τ sig (Elt F)) :
    finV V (main_v106 : DevRef τ sig) = (broadcastInDim S1x128 ![1] bcast_S128_S1x128_1 : (⟨S128, .f32⟩ : BufTy).Contents (Elt F) → (⟨S1x128, .f32⟩ : BufTy).Contents (Elt F)) (finV V (main_v90 : DevRef τ sig)) :=
  win_unary win2 4 (finV_split2 V) main_v90 main_v106 _ _ _ rfl (by decide +kernel) (by decide +kernel)

set_option maxRecDepth 8192 in
theorem eq_main_v107 (V : Valuation τ sig (Elt F)) :
    finV V (main_v107 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v106 : DevRef τ sig)) :=
  win_unary win2 5 (finV_split2 V) main_v106 main_v107 _ _ _ rfl (by decide +kernel) (by decide +kernel)

set_option maxRecDepth 8192 in
theorem eq_main_v108 (V : Valuation τ sig (Elt F)) :
    finV V (main_v108 : DevRef τ sig) = (mulf : (⟨S50000x128, .f32⟩ : BufTy).Contents (Elt F) → (⟨S50000x128, .f32⟩ : BufTy).Contents (Elt F) → (⟨S50000x128, .f32⟩ : BufTy).Contents (Elt F)) (finV V (main_v105 : DevRef τ sig)) (finV V (main_v107 : DevRef τ sig)) :=
  win_binary win2 6 (finV_split2 V) main_v105 main_v107 main_v108 _ _ _ _ rfl (by decide +kernel) (by decide +kernel) (by decide +kernel)

set_option maxRecDepth 8192 in
theorem eq_main_v109 (V : Valuation τ sig (Elt F)) :
    finV V (main_v109 : DevRef τ sig) = (broadcastInDim S1x128 ![1] bcast_S128_S1x128_1 : (⟨S128, .f32⟩ : BufTy).Contents (Elt F) → (⟨S1x128, .f32⟩ : BufTy).Contents (Elt F)) (finV V (main_v92 : DevRef τ sig)) :=
  win_unary win2 7 (finV_split2 V) main_v92 main_v109 _ _ _ rfl (by decide +kernel) (by decide +kernel)

set_option maxRecDepth 8192 in
theorem eq_main_v110 (V : Valuation τ sig (Elt F)) :
    finV V (main_v110 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v109 : DevRef τ sig)) :=
  win_unary win2 8 (finV_split2 V) main_v109 main_v110 _ _ _ rfl (by decide +kernel) (by decide +kernel)

set_option maxRecDepth 8192 in
theorem eq_main_v111 (V : Valuation τ sig (Elt F)) :
    finV V (main_v111 : DevRef τ sig) = (addf : (⟨S50000x128, .f32⟩ : BufTy).Contents (Elt F) → (⟨S50000x128, .f32⟩ : BufTy).Contents (Elt F) → (⟨S50000x128, .f32⟩ : BufTy).Contents (Elt F)) (finV V (main_v108 : DevRef τ sig)) (finV V (main_v110 : DevRef τ sig)) :=
  win_binary win2 9 (finV_split2 V) main_v108 main_v110 main_v111 _ _ _ _ rfl (by decide +kernel) (by decide +kernel) (by decide +kernel)

set_option maxRecDepth 8192 in
theorem eq_main_v112 (V : Valuation τ sig (Elt F)) :
    finV V (main_v112 : DevRef τ sig) = ((extractStridedSlice S1x128x128 ![2, 0, 0] · slices_S7x128x128_S1x128x128_2_0_0) : (⟨S7x128x128, .f32⟩ : BufTy).Contents (Elt F) → (⟨S1x128x128, .f32⟩ : BufTy).Contents (Elt F)) (finV V (main_arg3 : DevRef τ sig)) :=
  win_unary win2 10 (finV_split2 V) main_arg3 main_v112 _ _ _ rfl (by decide +kernel) (by decide +kernel)

set_option maxRecDepth 8192 in
theorem eq_main_v113 (V : Valuation τ sig (Elt F)) :
    finV V (main_v113 : DevRef τ sig) = shapeCast S128x128 (finV V (main_v112 : DevRef τ sig)) shapeCasts_S1x128x128_S128x128 :=
  win_reshape win2 11 (finV_split2 V) main_v112 main_v113 _ _ _ _ rfl (by decide +kernel) (by decide +kernel)

set_option maxRecDepth 8192 in
theorem eq_main_v114 (V : Valuation τ sig (Elt F)) :
    finV V (main_v114 : DevRef τ sig) = ((extractStridedSlice S1x128 ![2, 0] · slices_S7x128_S1x128_2_0) : (⟨S7x128, .f32⟩ : BufTy).Contents (Elt F) → (⟨S1x128, .f32⟩ : BufTy).Contents (Elt F)) (finV V (main_arg4 : DevRef τ sig)) :=
  win_unary win2 12 (finV_split2 V) main_arg4 main_v114 _ _ _ rfl (by decide +kernel) (by decide +kernel)

set_option maxRecDepth 8192 in
theorem eq_main_v115 (V : Valuation τ sig (Elt F)) :
    finV V (main_v115 : DevRef τ sig) = shapeCast S128 (finV V (main_v114 : DevRef τ sig)) shapeCasts_S1x128_S128 :=
  win_reshape win2 13 (finV_split2 V) main_v114 main_v115 _ _ _ _ rfl (by decide +kernel) (by decide +kernel)

set_option maxRecDepth 8192 in
theorem eq_main_v116 (V : Valuation τ sig (Elt F)) :
    finV V (main_v116 : DevRef τ sig) = ((extractStridedSlice S1x128x128 ![2, 0, 0] · slices_S7x128x128_S1x128x128_2_0_0) : (⟨S7x128x128, .f32⟩ : BufTy).Contents (Elt F) → (⟨S1x128x128, .f32⟩ : BufTy).Contents (Elt F)) (finV V (main_arg5 : DevRef τ sig)) :=
  win_unary win2 14 (finV_split2 V) main_arg5 main_v116 _ _ _ rfl (by decide +kernel) (by decide +kernel)

set_option maxRecDepth 8192 in
theorem eq_main_v117 (V : Valuation τ sig (Elt F)) :
    finV V (main_v117 : DevRef τ sig) = shapeCast S128x128 (finV V (main_v116 : DevRef τ sig)) shapeCasts_S1x128x128_S128x128 :=
  win_reshape win2 15 (finV_split2 V) main_v116 main_v117 _ _ _ _ rfl (by decide +kernel) (by decide +kernel)

set_option maxRecDepth 8192 in
theorem eq_main_v118 (V : Valuation τ sig (Elt F)) :
    finV V (main_v118 : DevRef τ sig) = ((extractStridedSlice S1x128 ![2, 0] · slices_S7x128_S1x128_2_0) : (⟨S7x128, .f32⟩ : BufTy).Contents (Elt F) → (⟨S1x128, .f32⟩ : BufTy).Contents (Elt F)) (finV V (main_arg6 : DevRef τ sig)) :=
  win_unary win2 16 (finV_split2 V) main_arg6 main_v118 _ _ _ rfl (by decide +kernel) (by decide +kernel)

set_option maxRecDepth 8192 in
theorem eq_main_v119 (V : Valuation τ sig (Elt F)) :
    finV V (main_v119 : DevRef τ sig) = shapeCast S128 (finV V (main_v118 : DevRef τ sig)) shapeCasts_S1x128_S128 :=
  win_reshape win2 17 (finV_split2 V) main_v118 main_v119 _ _ _ _ rfl (by decide +kernel) (by decide +kernel)

set_option maxRecDepth 8192 in
theorem eq_main_c_16 (V : Valuation τ sig (Elt F)) :
    finV V (main_c_16 : DevRef τ sig) = (constantI S_ 32 0#32) :=
  win_nullary win2 18 (finV_split2 V) main_c_16 _ _ rfl (by decide +kernel)

set_option maxRecDepth 8192 in
theorem eq_main_v120 (V : Valuation τ sig (Elt F)) :
    finV V (main_v120 : DevRef τ sig) = (broadcastInDim S600000 ![] bcast_S_S600000 : (⟨S_, .i32⟩ : BufTy).Contents (Elt F) → (⟨S600000, .i32⟩ : BufTy).Contents (Elt F)) (finV V (main_c_16 : DevRef τ sig)) :=
  win_unary win2 19 (finV_split2 V) main_c_16 main_v120 _ _ _ rfl (by decide +kernel) (by decide +kernel)

set_option maxRecDepth 8192 in
theorem eq_main_v121 (V : Valuation τ sig (Elt F)) :
    finV V (main_v121 : DevRef τ sig) = (cmpi .slt : (⟨S600000, .i32⟩ : BufTy).Contents (Elt F) → (⟨S600000, .i32⟩ : BufTy).Contents (Elt F) → (⟨S600000, .i1⟩ : BufTy).Contents (Elt F)) (finV V (main_v1 : DevRef τ sig)) (finV V (main_v120 : DevRef τ sig)) :=
  win_binary win2 20 (finV_split2 V) main_v1 main_v120 main_v121 _ _ _ _ rfl (by decide +kernel) (by decide +kernel) (by decide +kernel)

set_option maxRecDepth 8192 in
theorem eq_main_c_17 (V : Valuation τ sig (Elt F)) :
    finV V (main_c_17 : DevRef τ sig) = (constantI S_ 32 50000#32) :=
  win_nullary win2 21 (finV_split2 V) main_c_17 _ _ rfl (by decide +kernel)

set_option maxRecDepth 8192 in
theorem eq_main_v122 (V : Valuation τ sig (Elt F)) :
    finV V (main_v122 : DevRef τ sig) = (broadcastInDim S600000 ![] bcast_S_S600000 : (⟨S_, .i32⟩ : BufTy).Contents (Elt F) → (⟨S600000, .i32⟩ : BufTy).Contents (Elt F)) (finV V (main_c_17 : DevRef τ sig)) :=
  win_unary win2 22 (finV_split2 V) main_c_17 main_v122 _ _ _ rfl (by decide +kernel) (by decide +kernel)

set_option maxRecDepth 8192 in
theorem eq_main_v123 (V : Valuation τ sig (Elt F)) :
    finV V (main_v123 : DevRef τ sig) = (addi : (⟨S600000, .i32⟩ : BufTy).Contents (Elt F) → (⟨S600000, .i32⟩ : BufTy).Contents (Elt F) → (⟨S600000, .i32⟩ : BufTy).Contents (Elt F)) (finV V (main_v1 : DevRef τ sig)) (finV V (main_v122 : DevRef τ sig)) :=
  win_binary win2 23 (finV_split2 V) main_v1 main_v122 main_v123 _ _ _ _ rfl (by decide +kernel) (by decide +kernel) (by decide +kernel)

set_option maxRecDepth 8192 in
theorem eq_main_v124 (V : Valuation τ sig (Elt F)) :
    finV V (main_v124 : DevRef τ sig) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (finV V (main_v121 : DevRef τ sig)) (finV V (main_v123 : DevRef τ sig)) (finV V (main_v1 : DevRef τ sig)) :=
  win_ternary win2 24 (finV_split2 V) main_v121 main_v123 main_v1 main_v124 _ _ _ _ _ rfl (by decide +kernel) (by decide +kernel) (by decide +kernel) (by decide +kernel)

set_option maxRecDepth 8192 in
theorem eq_main_v125 (V : Valuation τ sig (Elt F)) :
    finV V (main_v125 : DevRef τ sig) = (broadcastInDim S600000x1 ![0] bcast_S600000_S600000x1_0 : (⟨S600000, .i32⟩ : BufTy).Contents (Elt F) → (⟨S600000x1, .i32⟩ : BufTy).Contents (Elt F)) (finV V (main_v124 : DevRef τ sig)) :=
  win_unary win2 25 (finV_split2 V) main_v124 main_v125 _ _ _ rfl (by decide +kernel) (by decide +kernel)

set_option maxRecDepth 8192 in
theorem eq_main_v126 (V : Valuation τ sig (Elt F)) :
    finV V (main_v126 : DevRef τ sig) = ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) (finV V (main_v111 : DevRef τ sig)) (finV V (main_v125 : DevRef τ sig)) :=
  win_binary win2 26 (finV_split2 V) main_v111 main_v125 main_v126 _ _ _ _ rfl (by decide +kernel) (by decide +kernel) (by decide +kernel)

set_option maxRecDepth 8192 in
theorem eq_main_cst_18 (V : Valuation τ sig (Elt F)) :
    finV V (main_cst_18 : DevRef τ sig) = (constant S_ .f32 0x00000000#32) :=
  win_nullary win2 27 (finV_split2 V) main_cst_18 _ _ rfl (by decide +kernel)

set_option maxRecDepth 8192 in
theorem eq_main_v127 (V : Valuation τ sig (Elt F)) :
    finV V (main_v127 : DevRef τ sig) = (broadcastInDim S50000x128 ![] bcast_S_S50000x128 : (⟨S_, .f32⟩ : BufTy).Contents (Elt F) → (⟨S50000x128, .f32⟩ : BufTy).Contents (Elt F)) (finV V (main_cst_18 : DevRef τ sig)) :=
  win_unary win2 28 (finV_split2 V) main_cst_18 main_v127 _ _ _ rfl (by decide +kernel) (by decide +kernel)

set_option maxRecDepth 8192 in
theorem eq_main_v128 (V : Valuation τ sig (Elt F)) :
    finV V (main_v128 : DevRef τ sig) = (broadcastInDim S600000x1 ![0] bcast_S600000_S600000x1_0 : (⟨S600000, .i32⟩ : BufTy).Contents (Elt F) → (⟨S600000x1, .i32⟩ : BufTy).Contents (Elt F)) (finV V (main_v3 : DevRef τ sig)) :=
  win_unary win2 29 (finV_split2 V) main_v3 main_v128 _ _ _ rfl (by decide +kernel) (by decide +kernel)

set_option maxRecDepth 8192 in
theorem eq_main_v129 (V : Valuation τ sig (Elt F)) :
    finV V (main_v129 : DevRef τ sig) = ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) (finV V (main_v127 : DevRef τ sig)) (finV V (main_v128 : DevRef τ sig)) (finV V (main_v126 : DevRef τ sig)) :=
  win_ternary win2 30 (finV_split2 V) main_v127 main_v128 main_v126 main_v129 _ _ _ _ _ rfl (by decide +kernel) (by decide +kernel) (by decide +kernel) (by decide +kernel)

set_option maxRecDepth 8192 in
theorem eq_main_v130 (V : Valuation τ sig (Elt F)) :
    finV V (main_v130 : DevRef τ sig) = (addf : (⟨S50000x128, .f32⟩ : BufTy).Contents (Elt F) → (⟨S50000x128, .f32⟩ : BufTy).Contents (Elt F) → (⟨S50000x128, .f32⟩ : BufTy).Contents (Elt F)) (finV V (main_v111 : DevRef τ sig)) (finV V (main_v129 : DevRef τ sig)) :=
  win_binary win2 31 (finV_split2 V) main_v111 main_v129 main_v130 _ _ _ _ rfl (by decide +kernel) (by decide +kernel) (by decide +kernel)

set_option maxRecDepth 8192 in
theorem eq_main_v131 (V : Valuation τ sig (Elt F)) :
    finV V (main_v131 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v130 : DevRef τ sig)) (finV V (main_v113 : DevRef τ sig)) :=
  win_binary win2 32 (finV_split2 V) main_v130 main_v113 main_v131 _ _ _ _ rfl (by decide +kernel) (by decide +kernel) (by decide +kernel)

set_option maxRecDepth 8192 in
theorem eq_main_v132 (V : Valuation τ sig (Elt F)) :
    finV V (main_v132 : DevRef τ sig) = (broadcastInDim S1x128 ![1] bcast_S128_S1x128_1 : (⟨S128, .f32⟩ : BufTy).Contents (Elt F) → (⟨S1x128, .f32⟩ : BufTy).Contents (Elt F)) (finV V (main_v115 : DevRef τ sig)) :=
  win_unary win2 33 (finV_split2 V) main_v115 main_v132 _ _ _ rfl (by decide +kernel) (by decide +kernel)

set_option maxRecDepth 8192 in
theorem eq_main_v133 (V : Valuation τ sig (Elt F)) :
    finV V (main_v133 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v132 : DevRef τ sig)) :=
  win_unary win2 34 (finV_split2 V) main_v132 main_v133 _ _ _ rfl (by decide +kernel) (by decide +kernel)

set_option maxRecDepth 8192 in
theorem eq_main_v134 (V : Valuation τ sig (Elt F)) :
    finV V (main_v134 : DevRef τ sig) = (addf : (⟨S50000x128, .f32⟩ : BufTy).Contents (Elt F) → (⟨S50000x128, .f32⟩ : BufTy).Contents (Elt F) → (⟨S50000x128, .f32⟩ : BufTy).Contents (Elt F)) (finV V (main_v131 : DevRef τ sig)) (finV V (main_v133 : DevRef τ sig)) :=
  win_binary win2 35 (finV_split2 V) main_v131 main_v133 main_v134 _ _ _ _ rfl (by decide +kernel) (by decide +kernel) (by decide +kernel)

set_option maxRecDepth 8192 in
theorem eq_main_cst_19 (V : Valuation τ sig (Elt F)) :
    finV V (main_cst_19 : DevRef τ sig) = (constant S_ .f32 0x00000000#32) :=
  win_nullary win2 36 (finV_split2 V) main_cst_19 _ _ rfl (by decide +kernel)

set_option maxRecDepth 8192 in
theorem eq_main_v135 (V : Valuation τ sig (Elt F)) :
    finV V (main_v135 : DevRef τ sig) = (broadcastInDim S50000x128 ![] bcast_S_S50000x128 : (⟨S_, .f32⟩ : BufTy).Contents (Elt F) → (⟨S50000x128, .f32⟩ : BufTy).Contents (Elt F)) (finV V (main_cst_19 : DevRef τ sig)) :=
  win_unary win2 37 (finV_split2 V) main_cst_19 main_v135 _ _ _ rfl (by decide +kernel) (by decide +kernel)

set_option maxRecDepth 8192 in
theorem eq_main_v136 (V : Valuation τ sig (Elt F)) :
    finV V (main_v136 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v134 : DevRef τ sig)) (finV V (main_v135 : DevRef τ sig)) :=
  win_binary win2 38 (finV_split2 V) main_v134 main_v135 main_v136 _ _ _ _ rfl (by decide +kernel) (by decide +kernel) (by decide +kernel)

set_option maxRecDepth 8192 in
theorem eq_main_v137 (V : Valuation τ sig (Elt F)) :
    finV V (main_v137 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v136 : DevRef τ sig)) (finV V (main_v117 : DevRef τ sig)) :=
  win_binary win2 39 (finV_split2 V) main_v136 main_v117 main_v137 _ _ _ _ rfl (by decide +kernel) (by decide +kernel) (by decide +kernel)

set_option maxRecDepth 8192 in
theorem eq_main_v138 (V : Valuation τ sig (Elt F)) :
    finV V (main_v138 : DevRef τ sig) = (broadcastInDim S1x128 ![1] bcast_S128_S1x128_1 : (⟨S128, .f32⟩ : BufTy).Contents (Elt F) → (⟨S1x128, .f32⟩ : BufTy).Contents (Elt F)) (finV V (main_v119 : DevRef τ sig)) :=
  win_unary win2 40 (finV_split2 V) main_v119 main_v138 _ _ _ rfl (by decide +kernel) (by decide +kernel)

set_option maxRecDepth 8192 in
theorem eq_main_v139 (V : Valuation τ sig (Elt F)) :
    finV V (main_v139 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v138 : DevRef τ sig)) :=
  win_unary win2 41 (finV_split2 V) main_v138 main_v139 _ _ _ rfl (by decide +kernel) (by decide +kernel)

set_option maxRecDepth 8192 in
theorem eq_main_v140 (V : Valuation τ sig (Elt F)) :
    finV V (main_v140 : DevRef τ sig) = (addf : (⟨S50000x128, .f32⟩ : BufTy).Contents (Elt F) → (⟨S50000x128, .f32⟩ : BufTy).Contents (Elt F) → (⟨S50000x128, .f32⟩ : BufTy).Contents (Elt F)) (finV V (main_v137 : DevRef τ sig)) (finV V (main_v139 : DevRef τ sig)) :=
  win_binary win2 42 (finV_split2 V) main_v137 main_v139 main_v140 _ _ _ _ rfl (by decide +kernel) (by decide +kernel) (by decide +kernel)

set_option maxRecDepth 8192 in
theorem eq_main_cst_20 (V : Valuation τ sig (Elt F)) :
    finV V (main_cst_20 : DevRef τ sig) = (constant S_ .f32 0x00000000#32) :=
  win_nullary win2 43 (finV_split2 V) main_cst_20 _ _ rfl (by decide +kernel)

set_option maxRecDepth 8192 in
theorem eq_main_v141 (V : Valuation τ sig (Elt F)) :
    finV V (main_v141 : DevRef τ sig) = (broadcastInDim S50000x128 ![] bcast_S_S50000x128 : (⟨S_, .f32⟩ : BufTy).Contents (Elt F) → (⟨S50000x128, .f32⟩ : BufTy).Contents (Elt F)) (finV V (main_cst_20 : DevRef τ sig)) :=
  win_unary win2 44 (finV_split2 V) main_cst_20 main_v141 _ _ _ rfl (by decide +kernel) (by decide +kernel)

set_option maxRecDepth 8192 in
theorem eq_main_v142 (V : Valuation τ sig (Elt F)) :
    finV V (main_v142 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v140 : DevRef τ sig)) (finV V (main_v141 : DevRef τ sig)) :=
  win_binary win2 45 (finV_split2 V) main_v140 main_v141 main_v142 _ _ _ _ rfl (by decide +kernel) (by decide +kernel) (by decide +kernel)

set_option maxRecDepth 8192 in
theorem eq_main_v143 (V : Valuation τ sig (Elt F)) :
    finV V (main_v143 : DevRef τ sig) = ((extractStridedSlice S1x128 ![2, 0] · slices_S7x128_S1x128_2_0) : (⟨S7x128, .f32⟩ : BufTy).Contents (Elt F) → (⟨S1x128, .f32⟩ : BufTy).Contents (Elt F)) (finV V (main_arg7 : DevRef τ sig)) :=
  win_unary win2 46 (finV_split2 V) main_arg7 main_v143 _ _ _ rfl (by decide +kernel) (by decide +kernel)

set_option maxRecDepth 8192 in
theorem eq_main_v144 (V : Valuation τ sig (Elt F)) :
    finV V (main_v144 : DevRef τ sig) = shapeCast S128 (finV V (main_v143 : DevRef τ sig)) shapeCasts_S1x128_S128 :=
  win_reshape win2 47 (finV_split2 V) main_v143 main_v144 _ _ _ _ rfl (by decide +kernel) (by decide +kernel)

set_option maxRecDepth 8192 in
theorem eq_main_v145 (V : Valuation τ sig (Elt F)) :
    finV V (main_v145 : DevRef τ sig) = ((extractStridedSlice S1x128 ![2, 0] · slices_S7x128_S1x128_2_0) : (⟨S7x128, .f32⟩ : BufTy).Contents (Elt F) → (⟨S1x128, .f32⟩ : BufTy).Contents (Elt F)) (finV V (main_arg8 : DevRef τ sig)) :=
  win_unary win2 48 (finV_split2 V) main_arg8 main_v145 _ _ _ rfl (by decide +kernel) (by decide +kernel)

set_option maxRecDepth 8192 in
theorem eq_main_v146 (V : Valuation τ sig (Elt F)) :
    finV V (main_v146 : DevRef τ sig) = shapeCast S128 (finV V (main_v145 : DevRef τ sig)) shapeCasts_S1x128_S128 :=
  win_reshape win2 49 (finV_split2 V) main_v145 main_v146 _ _ _ _ rfl (by decide +kernel) (by decide +kernel)

set_option maxRecDepth 8192 in
theorem eq_main_cst_21 (V : Valuation τ sig (Elt F)) :
    finV V (main_cst_21 : DevRef τ sig) = (constant S_ .f32 0x00000000#32) :=
  win_nullary win2 50 (finV_split2 V) main_cst_21 _ _ rfl (by decide +kernel)

set_option maxRecDepth 8192 in
theorem eq_main_v147 (V : Valuation τ sig (Elt F)) :
    finV V (main_v147 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v142 : DevRef τ sig)) (finV V (main_cst_21 : DevRef τ sig)) :=
  win_binary win2 51 (finV_split2 V) main_v142 main_cst_21 main_v147 _ _ _ _ rfl (by decide +kernel) (by decide +kernel) (by decide +kernel)

set_option maxRecDepth 8192 in
theorem eq_main_cst_22 (V : Valuation τ sig (Elt F)) :
    finV V (main_cst_22 : DevRef τ sig) = (constant S_ .f32 0x47435000#32) :=
  win_nullary win2 52 (finV_split2 V) main_cst_22 _ _ rfl (by decide +kernel)

set_option maxRecDepth 8192 in
theorem eq_main_v148 (V : Valuation τ sig (Elt F)) :
    finV V (main_v148 : DevRef τ sig) = (broadcastInDim S128 ![] bcast_S_S128 : (⟨S_, .f32⟩ : BufTy).Contents (Elt F) → (⟨S128, .f32⟩ : BufTy).Contents (Elt F)) (finV V (main_cst_22 : DevRef τ sig)) :=
  win_unary win2 53 (finV_split2 V) main_cst_22 main_v148 _ _ _ rfl (by decide +kernel) (by decide +kernel)

set_option maxRecDepth 8192 in
theorem eq_main_v149 (V : Valuation τ sig (Elt F)) :
    finV V (main_v149 : DevRef τ sig) = (Host.divf : (⟨S128, .f32⟩ : BufTy).Contents (Elt F) → (⟨S128, .f32⟩ : BufTy).Contents (Elt F) → (⟨S128, .f32⟩ : BufTy).Contents (Elt F)) (finV V (main_v147 : DevRef τ sig)) (finV V (main_v148 : DevRef τ sig)) :=
  win_binary win2 54 (finV_split2 V) main_v147 main_v148 main_v149 _ _ _ _ rfl (by decide +kernel) (by decide +kernel) (by decide +kernel)

set_option maxRecDepth 8192 in
theorem eq_main_c_23 (V : Valuation τ sig (Elt F)) :
    finV V (main_c_23 : DevRef τ sig) = (constantI S_ 32 0#32) :=
  win_nullary win2 55 (finV_split2 V) main_c_23 _ _ rfl (by decide +kernel)

set_option maxRecDepth 8192 in
theorem eq_main_call2_cst (V : Valuation τ sig (Elt F)) :
    finV V (main_call2_cst : DevRef τ sig) = (constant S_ .f32 0x00000000#32) :=
  win_nullary win2 56 (finV_split2 V) main_call2_cst _ _ rfl (by decide +kernel)

set_option maxRecDepth 8192 in
theorem eq_main_call2_v0 (V : Valuation τ sig (Elt F)) :
    finV V (main_call2_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v142 : DevRef τ sig)) (finV V (main_call2_cst : DevRef τ sig)) :=
  win_binary win2 57 (finV_split2 V) main_v142 main_call2_cst main_call2_v0 _ _ _ _ rfl (by decide +kernel) (by decide +kernel) (by decide +kernel)

set_option maxRecDepth 8192 in
theorem eq_main_call2_v1 (V : Valuation τ sig (Elt F)) :
    finV V (main_call2_v1 : DevRef τ sig) = ((broadcastInDim S1x128 ![1] bcast_S128_S1x128_1) : (⟨S128, .f32⟩ : BufTy).Contents (Elt F) → (⟨S1x128, .f32⟩ : BufTy).Contents (Elt F)) (finV V (main_call2_v0 : DevRef τ sig)) :=
  win_unary win2 58 (finV_split2 V) main_call2_v0 main_call2_v1 _ _ _ rfl (by decide +kernel) (by decide +kernel)

set_option maxRecDepth 8192 in
theorem eq_main_call2_cst_0 (V : Valuation τ sig (Elt F)) :
    finV V (main_call2_cst_0 : DevRef τ sig) = (constant S_ .f32 0x47435000#32) :=
  win_nullary win2 59 (finV_split2 V) main_call2_cst_0 _ _ rfl (by decide +kernel)

set_option maxRecDepth 8192 in
theorem eq_main_call2_v2 (V : Valuation τ sig (Elt F)) :
    finV V (main_call2_v2 : DevRef τ sig) = ((broadcastInDim S1x128 ![] bcast_S_S1x128) : (⟨S_, .f32⟩ : BufTy).Contents (Elt F) → (⟨S1x128, .f32⟩ : BufTy).Contents (Elt F)) (finV V (main_call2_cst_0 : DevRef τ sig)) :=
  win_unary win2 60 (finV_split2 V) main_call2_cst_0 main_call2_v2 _ _ _ rfl (by decide +kernel) (by decide +kernel)

set_option maxRecDepth 8192 in
theorem eq_main_call2_v3 (V : Valuation τ sig (Elt F)) :
    finV V (main_call2_v3 : DevRef τ sig) = (Host.divf : (⟨S1x128, .f32⟩ : BufTy).Contents (Elt F) → (⟨S1x128, .f32⟩ : BufTy).Contents (Elt F) → (⟨S1x128, .f32⟩ : BufTy).Contents (Elt F)) (finV V (main_call2_v1 : DevRef τ sig)) (finV V (main_call2_v2 : DevRef τ sig)) :=
  win_binary win2 61 (finV_split2 V) main_call2_v1 main_call2_v2 main_call2_v3 _ _ _ _ rfl (by decide +kernel) (by decide +kernel) (by decide +kernel)

set_option maxRecDepth 8192 in
theorem eq_main_call2_v4 (V : Valuation τ sig (Elt F)) :
    finV V (main_call2_v4 : DevRef τ sig) = ((broadcastInDim S50000x128 ![0, 1] bcast_S1x128_S50000x128_0_1) : (⟨S1x128, .f32⟩ : BufTy).Contents (Elt F) → (⟨S50000x128, .f32⟩ : BufTy).Contents (Elt F)) (finV V (main_call2_v3 : DevRef τ sig)) :=
  win_unary win2 62 (finV_split2 V) main_call2_v3 main_call2_v4 _ _ _ rfl (by decide +kernel) (by decide +kernel)

set_option maxRecDepth 8192 in
theorem eq_main_call2_v5 (V : Valuation τ sig (Elt F)) :
    finV V (main_call2_v5 : DevRef τ sig) = (subf : (⟨S50000x128, .f32⟩ : BufTy).Contents (Elt F) → (⟨S50000x128, .f32⟩ : BufTy).Contents (Elt F) → (⟨S50000x128, .f32⟩ : BufTy).Contents (Elt F)) (finV V (main_v142 : DevRef τ sig)) (finV V (main_call2_v4 : DevRef τ sig)) :=
  win_binary win2 63 (finV_split2 V) main_v142 main_call2_v4 main_call2_v5 _ _ _ _ rfl (by decide +kernel) (by decide +kernel) (by decide +kernel)

set_option maxRecDepth 8192 in
theorem eq_main_call2_v6 (V : Valuation τ sig (Elt F)) :
    finV V (main_call2_v6 : DevRef τ sig) = (mulf : (⟨S50000x128, .f32⟩ : BufTy).Contents (Elt F) → (⟨S50000x128, .f32⟩ : BufTy).Contents (Elt F) → (⟨S50000x128, .f32⟩ : BufTy).Contents (Elt F)) (finV V (main_call2_v5 : DevRef τ sig)) (finV V (main_call2_v5 : DevRef τ sig)) :=
  win_binary win2 64 (finV_split2 V) main_call2_v5 main_call2_v5 main_call2_v6 _ _ _ _ rfl (by decide +kernel) (by decide +kernel) (by decide +kernel)

set_option maxRecDepth 8192 in
theorem eq_main_call2_v7 (V : Valuation τ sig (Elt F)) :
    finV V (main_call2_v7 : DevRef τ sig) = ((sitofp .f32) : (⟨S_, .i32⟩ : BufTy).Contents (Elt F) → (⟨S_, .f32⟩ : BufTy).Contents (Elt F)) (finV V (main_c_23 : DevRef τ sig)) :=
  win_unary win2 65 (finV_split2 V) main_c_23 main_call2_v7 _ _ _ rfl (by decide +kernel) (by decide +kernel)

set_option maxRecDepth 8192 in
theorem eq_main_call2_cst_1 (V : Valuation τ sig (Elt F)) :
    finV V (main_call2_cst_1 : DevRef τ sig) = (constant S_ .f32 0x47435000#32) :=
  win_nullary win2 66 (finV_split2 V) main_call2_cst_1 _ _ rfl (by decide +kernel)

set_option maxRecDepth 8192 in
theorem eq_main_call2_v8 (V : Valuation τ sig (Elt F)) :
    finV V (main_call2_v8 : DevRef τ sig) = (subf : (⟨S_, .f32⟩ : BufTy).Contents (Elt F) → (⟨S_, .f32⟩ : BufTy).Contents (Elt F) → (⟨S_, .f32⟩ : BufTy).Contents (Elt F)) (finV V (main_call2_cst_1 : DevRef τ sig)) (finV V (main_call2_v7 : DevRef τ sig)) :=
  win_binary win2 67 (finV_split2 V) main_call2_cst_1 main_call2_v7 main_call2_v8 _ _ _ _ rfl (by decide +kernel) (by decide +kernel) (by decide +kernel)

set_option maxRecDepth 8192 in
theorem eq_main_call2_cst_2 (V : Valuation τ sig (Elt F)) :
    finV V (main_call2_cst_2 : DevRef τ sig) = (constant S_ .f32 0x00000000#32) :=
  win_nullary win2 68 (finV_split2 V) main_call2_cst_2 _ _ rfl (by decide +kernel)

set_option maxRecDepth 8192 in
theorem eq_main_call2_v9 (V : Valuation τ sig (Elt F)) :
    finV V (main_call2_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_call2_v6 : DevRef τ sig)) (finV V (main_call2_cst_2 : DevRef τ sig)) :=
  win_binary win2 69 (finV_split2 V) main_call2_v6 main_call2_cst_2 main_call2_v9 _ _ _ _ rfl (by decide +kernel) (by decide +kernel) (by decide +kernel)

set_option maxRecDepth 8192 in
theorem eq_main_call2_v10 (V : Valuation τ sig (Elt F)) :
    finV V (main_call2_v10 : DevRef τ sig) = ((broadcastInDim S128 ![] bcast_S_S128) : (⟨S_, .f32⟩ : BufTy).Contents (Elt F) → (⟨S128, .f32⟩ : BufTy).Contents (Elt F)) (finV V (main_call2_v8 : DevRef τ sig)) :=
  win_unary win2 70 (finV_split2 V) main_call2_v8 main_call2_v10 _ _ _ rfl (by decide +kernel) (by decide +kernel)

set_option maxRecDepth 8192 in
theorem eq_main_call2_v11 (V : Valuation τ sig (Elt F)) :
    finV V (main_call2_v11 : DevRef τ sig) = (Host.divf : (⟨S128, .f32⟩ : BufTy).Contents (Elt F) → (⟨S128, .f32⟩ : BufTy).Contents (Elt F) → (⟨S128, .f32⟩ : BufTy).Contents (Elt F)) (finV V (main_call2_v9 : DevRef τ sig)) (finV V (main_call2_v10 : DevRef τ sig)) :=
  win_binary win2 71 (finV_split2 V) main_call2_v9 main_call2_v10 main_call2_v11 _ _ _ _ rfl (by decide +kernel) (by decide +kernel) (by decide +kernel)

set_option maxRecDepth 8192 in
theorem eq_main_call2_cst_3 (V : Valuation τ sig (Elt F)) :
    finV V (main_call2_cst_3 : DevRef τ sig) = (constant S_ .f32 0x00000000#32) :=
  win_nullary win2 72 (finV_split2 V) main_call2_cst_3 _ _ rfl (by decide +kernel)

set_option maxRecDepth 8192 in
theorem eq_main_call2_v12 (V : Valuation τ sig (Elt F)) :
    finV V (main_call2_v12 : DevRef τ sig) = ((cmpf .ogt) : (⟨S_, .f32⟩ : BufTy).Contents (Elt F) → (⟨S_, .f32⟩ : BufTy).Contents (Elt F) → (⟨S_, .i1⟩ : BufTy).Contents (Elt F)) (finV V (main_call2_v8 : DevRef τ sig)) (finV V (main_call2_cst_3 : DevRef τ sig)) :=
  win_binary win2 73 (finV_split2 V) main_call2_v8 main_call2_cst_3 main_call2_v12 _ _ _ _ rfl (by decide +kernel) (by decide +kernel) (by decide +kernel)

set_option maxRecDepth 8192 in
theorem eq_main_call2_cst_4 (V : Valuation τ sig (Elt F)) :
    finV V (main_call2_cst_4 : DevRef τ sig) = (constant S_ .f32 0x7FC00000#32) :=
  win_nullary win2 74 (finV_split2 V) main_call2_cst_4 _ _ rfl (by decide +kernel)

set_option maxRecDepth 8192 in
theorem eq_main_call2_call0_v0 (V : Valuation τ sig (Elt F)) :
    finV V (main_call2_call0_v0 : DevRef τ sig) = (id : (⟨S_, .f32⟩ : BufTy).Contents (Elt F) → (⟨S_, .f32⟩ : BufTy).Contents (Elt F)) (finV V (main_call2_cst_4 : DevRef τ sig)) :=
  win_unary win2 75 (finV_split2 V) main_call2_cst_4 main_call2_call0_v0 _ _ _ rfl (by decide +kernel) (by decide +kernel)

set_option maxRecDepth 8192 in
theorem eq_main_call2_call0_v1 (V : Valuation τ sig (Elt F)) :
    finV V (main_call2_call0_v1 : DevRef τ sig) = ((broadcastInDim S128 ![] bcast_S_S128) : (⟨S_, .f32⟩ : BufTy).Contents (Elt F) → (⟨S128, .f32⟩ : BufTy).Contents (Elt F)) (finV V (main_call2_call0_v0 : DevRef τ sig)) :=
  win_unary win2 76 (finV_split2 V) main_call2_call0_v0 main_call2_call0_v1 _ _ _ rfl (by decide +kernel) (by decide +kernel)

set_option maxHeartbeats 4000000 in
set_option maxRecDepth 8192 in
theorem eq_main_v150 (V : Valuation τ sig (Elt F)) :
    finV V (main_v150 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (finV V (main_call2_v12 : DevRef τ sig)) (finV V (main_call2_v11 : DevRef τ sig)) (finV V (main_call2_call0_v1 : DevRef τ sig)) :=
  win_ternary win2 77 (finV_split2 V) main_call2_v12 main_call2_v11 main_call2_call0_v1 main_v150 _ _ _ _ _ rfl (by decide +kernel) (by decide +kernel) (by decide +kernel) (by decide +kernel)

set_option maxRecDepth 8192 in
theorem eq_main_v151 (V : Valuation τ sig (Elt F)) :
    finV V (main_v151 : DevRef τ sig) = (broadcastInDim S1x128 ![1] bcast_S128_S1x128_1 : (⟨S128, .f32⟩ : BufTy).Contents (Elt F) → (⟨S1x128, .f32⟩ : BufTy).Contents (Elt F)) (finV V (main_v149 : DevRef τ sig)) :=
  win_unary win2 78 (finV_split2 V) main_v149 main_v151 _ _ _ rfl (by decide +kernel) (by decide +kernel)

set_option maxRecDepth 8192 in
theorem eq_main_v152 (V : Valuation τ sig (Elt F)) :
    finV V (main_v152 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v151 : DevRef τ sig)) :=
  win_unary win2 79 (finV_split2 V) main_v151 main_v152 _ _ _ rfl (by decide +kernel) (by decide +kernel)

set_option maxRecDepth 8192 in
theorem eq_main_v153 (V : Valuation τ sig (Elt F)) :
    finV V (main_v153 : DevRef τ sig) = (subf : (⟨S50000x128, .f32⟩ : BufTy).Contents (Elt F) → (⟨S50000x128, .f32⟩ : BufTy).Contents (Elt F) → (⟨S50000x128, .f32⟩ : BufTy).Contents (Elt F)) (finV V (main_v142 : DevRef τ sig)) (finV V (main_v152 : DevRef τ sig)) :=
  win_binary win2 80 (finV_split2 V) main_v142 main_v152 main_v153 _ _ _ _ rfl (by decide +kernel) (by decide +kernel) (by decide +kernel)

/-! ## Window `main_part3` -/

set_option maxRecDepth 8192 in
theorem eq_main_cst_24 (V : Valuation τ sig (Elt F)) :
    finV V (main_cst_24 : DevRef τ sig) = (constant S_ .f32 0x3727C5AC#32) :=
  win_nullary win3 0 (finV_split3 V) main_cst_24 _ _ rfl (by decide +kernel)

set_option maxRecDepth 8192 in
theorem eq_main_v154 (V : Valuation τ sig (Elt F)) :
    finV V (main_v154 : DevRef τ sig) = (broadcastInDim S128 ![] bcast_S_S128 : (⟨S_, .f32⟩ : BufTy).Contents (Elt F) → (⟨S128, .f32⟩ : BufTy).Contents (Elt F)) (finV V (main_cst_24 : DevRef τ sig)) :=
  win_unary win3 1 (finV_split3 V) main_cst_24 main_v154 _ _ _ rfl (by decide +kernel) (by decide +kernel)

set_option maxRecDepth 8192 in
theorem eq_main_v155 (V : Valuation τ sig (Elt F)) :
    finV V (main_v155 : DevRef τ sig) = (addf : (⟨S128, .f32⟩ : BufTy).Contents (Elt F) → (⟨S128, .f32⟩ : BufTy).Contents (Elt F) → (⟨S128, .f32⟩ : BufTy).Contents (Elt F)) (finV V (main_v150 : DevRef τ sig)) (finV V (main_v154 : DevRef τ sig)) :=
  win_binary win3 2 (finV_split3 V) main_v150 main_v154 main_v155 _ _ _ _ rfl (by decide +kernel) (by decide +kernel) (by decide +kernel)

set_option maxRecDepth 8192 in
theorem eq_main_v156 (V : Valuation τ sig (Elt F)) :
    finV V (main_v156 : DevRef τ sig) = (Host.rsqrt : (⟨S128, .f32⟩ : BufTy).Contents (Elt F) → (⟨S128, .f32⟩ : BufTy).Contents (Elt F)) (finV V (main_v155 : DevRef τ sig)) :=
  win_unary win3 3 (finV_split3 V) main_v155 main_v156 _ _ _ rfl (by decide +kernel) (by decide +kernel)

set_option maxRecDepth 8192 in
theorem eq_main_v157 (V : Valuation τ sig (Elt F)) :
    finV V (main_v157 : DevRef τ sig) = (broadcastInDim S1x128 ![1] bcast_S128_S1x128_1 : (⟨S128, .f32⟩ : BufTy).Contents (Elt F) → (⟨S1x128, .f32⟩ : BufTy).Contents (Elt F)) (finV V (main_v156 : DevRef τ sig)) :=
  win_unary win3 4 (finV_split3 V) main_v156 main_v157 _ _ _ rfl (by decide +kernel) (by decide +kernel)

set_option maxRecDepth 8192 in
theorem eq_main_v158 (V : Valuation τ sig (Elt F)) :
    finV V (main_v158 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v157 : DevRef τ sig)) :=
  win_unary win3 5 (finV_split3 V) main_v157 main_v158 _ _ _ rfl (by decide +kernel) (by decide +kernel)

set_option maxRecDepth 8192 in
theorem eq_main_v159 (V : Valuation τ sig (Elt F)) :
    finV V (main_v159 : DevRef τ sig) = (mulf : (⟨S50000x128, .f32⟩ : BufTy).Contents (Elt F) → (⟨S50000x128, .f32⟩ : BufTy).Contents (Elt F) → (⟨S50000x128, .f32⟩ : BufTy).Contents (Elt F)) (finV V (main_v153 : DevRef τ sig)) (finV V (main_v158 : DevRef τ sig)) :=
  win_binary win3 6 (finV_split3 V) main_v153 main_v158 main_v159 _ _ _ _ rfl (by decide +kernel) (by decide +kernel) (by decide +kernel)

set_option maxRecDepth 8192 in
theorem eq_main_v160 (V : Valuation τ sig (Elt F)) :
    finV V (main_v160 : DevRef τ sig) = (broadcastInDim S1x128 ![1] bcast_S128_S1x128_1 : (⟨S128, .f32⟩ : BufTy).Contents (Elt F) → (⟨S1x128, .f32⟩ : BufTy).Contents (Elt F)) (finV V (main_v144 : DevRef τ sig)) :=
  win_unary win3 7 (finV_split3 V) main_v144 main_v160 _ _ _ rfl (by decide +kernel) (by decide +kernel)

set_option maxRecDepth 8192 in
theorem eq_main_v161 (V : Valuation τ sig (Elt F)) :
    finV V (main_v161 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v160 : DevRef τ sig)) :=
  win_unary win3 8 (finV_split3 V) main_v160 main_v161 _ _ _ rfl (by decide +kernel) (by decide +kernel)

set_option maxRecDepth 8192 in
theorem eq_main_v162 (V : Valuation τ sig (Elt F)) :
    finV V (main_v162 : DevRef τ sig) = (mulf : (⟨S50000x128, .f32⟩ : BufTy).Contents (Elt F) → (⟨S50000x128, .f32⟩ : BufTy).Contents (Elt F) → (⟨S50000x128, .f32⟩ : BufTy).Contents (Elt F)) (finV V (main_v159 : DevRef τ sig)) (finV V (main_v161 : DevRef τ sig)) :=
  win_binary win3 9 (finV_split3 V) main_v159 main_v161 main_v162 _ _ _ _ rfl (by decide +kernel) (by decide +kernel) (by decide +kernel)

set_option maxRecDepth 8192 in
theorem eq_main_v163 (V : Valuation τ sig (Elt F)) :
    finV V (main_v163 : DevRef τ sig) = (broadcastInDim S1x128 ![1] bcast_S128_S1x128_1 : (⟨S128, .f32⟩ : BufTy).Contents (Elt F) → (⟨S1x128, .f32⟩ : BufTy).Contents (Elt F)) (finV V (main_v146 : DevRef τ sig)) :=
  win_unary win3 10 (finV_split3 V) main_v146 main_v163 _ _ _ rfl (by decide +kernel) (by decide +kernel)

set_option maxRecDepth 8192 in
theorem eq_main_v164 (V : Valuation τ sig (Elt F)) :
    finV V (main_v164 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v163 : DevRef τ sig)) :=
  win_unary win3 11 (finV_split3 V) main_v163 main_v164 _ _ _ rfl (by decide +kernel) (by decide +kernel)

set_option maxRecDepth 8192 in
theorem eq_main_v165 (V : Valuation τ sig (Elt F)) :
    finV V (main_v165 : DevRef τ sig) = (addf : (⟨S50000x128, .f32⟩ : BufTy).Contents (Elt F) → (⟨S50000x128, .f32⟩ : BufTy).Contents (Elt F) → (⟨S50000x128, .f32⟩ : BufTy).Contents (Elt F)) (finV V (main_v162 : DevRef τ sig)) (finV V (main_v164 : DevRef τ sig)) :=
  win_binary win3 12 (finV_split3 V) main_v162 main_v164 main_v165 _ _ _ _ rfl (by decide +kernel) (by decide +kernel) (by decide +kernel)

set_option maxRecDepth 8192 in
theorem eq_main_v166 (V : Valuation τ sig (Elt F)) :
    finV V (main_v166 : DevRef τ sig) = ((extractStridedSlice S1x128x128 ![3, 0, 0] · slices_S7x128x128_S1x128x128_3_0_0) : (⟨S7x128x128, .f32⟩ : BufTy).Contents (Elt F) → (⟨S1x128x128, .f32⟩ : BufTy).Contents (Elt F)) (finV V (main_arg3 : DevRef τ sig)) :=
  win_unary win3 13 (finV_split3 V) main_arg3 main_v166 _ _ _ rfl (by decide +kernel) (by decide +kernel)

set_option maxRecDepth 8192 in
theorem eq_main_v167 (V : Valuation τ sig (Elt F)) :
    finV V (main_v167 : DevRef τ sig) = shapeCast S128x128 (finV V (main_v166 : DevRef τ sig)) shapeCasts_S1x128x128_S128x128 :=
  win_reshape win3 14 (finV_split3 V) main_v166 main_v167 _ _ _ _ rfl (by decide +kernel) (by decide +kernel)

set_option maxRecDepth 8192 in
theorem eq_main_v168 (V : Valuation τ sig (Elt F)) :
    finV V (main_v168 : DevRef τ sig) = ((extractStridedSlice S1x128 ![3, 0] · slices_S7x128_S1x128_3_0) : (⟨S7x128, .f32⟩ : BufTy).Contents (Elt F) → (⟨S1x128, .f32⟩ : BufTy).Contents (Elt F)) (finV V (main_arg4 : DevRef τ sig)) :=
  win_unary win3 15 (finV_split3 V) main_arg4 main_v168 _ _ _ rfl (by decide +kernel) (by decide +kernel)

set_option maxRecDepth 8192 in
theorem eq_main_v169 (V : Valuation τ sig (Elt F)) :
    finV V (main_v169 : DevRef τ sig) = shapeCast S128 (finV V (main_v168 : DevRef τ sig)) shapeCasts_S1x128_S128 :=
  win_reshape win3 16 (finV_split3 V) main_v168 main_v169 _ _ _ _ rfl (by decide +kernel) (by decide +kernel)

set_option maxRecDepth 8192 in
theorem eq_main_v170 (V : Valuation τ sig (Elt F)) :
    finV V (main_v170 : DevRef τ sig) = ((extractStridedSlice S1x128x128 ![3, 0, 0] · slices_S7x128x128_S1x128x128_3_0_0) : (⟨S7x128x128, .f32⟩ : BufTy).Contents (Elt F) → (⟨S1x128x128, .f32⟩ : BufTy).Contents (Elt F)) (finV V (main_arg5 : DevRef τ sig)) :=
  win_unary win3 17 (finV_split3 V) main_arg5 main_v170 _ _ _ rfl (by decide +kernel) (by decide +kernel)

set_option maxRecDepth 8192 in
theorem eq_main_v171 (V : Valuation τ sig (Elt F)) :
    finV V (main_v171 : DevRef τ sig) = shapeCast S128x128 (finV V (main_v170 : DevRef τ sig)) shapeCasts_S1x128x128_S128x128 :=
  win_reshape win3 18 (finV_split3 V) main_v170 main_v171 _ _ _ _ rfl (by decide +kernel) (by decide +kernel)

set_option maxRecDepth 8192 in
theorem eq_main_v172 (V : Valuation τ sig (Elt F)) :
    finV V (main_v172 : DevRef τ sig) = ((extractStridedSlice S1x128 ![3, 0] · slices_S7x128_S1x128_3_0) : (⟨S7x128, .f32⟩ : BufTy).Contents (Elt F) → (⟨S1x128, .f32⟩ : BufTy).Contents (Elt F)) (finV V (main_arg6 : DevRef τ sig)) :=
  win_unary win3 19 (finV_split3 V) main_arg6 main_v172 _ _ _ rfl (by decide +kernel) (by decide +kernel)

set_option maxRecDepth 8192 in
theorem eq_main_v173 (V : Valuation τ sig (Elt F)) :
    finV V (main_v173 : DevRef τ sig) = shapeCast S128 (finV V (main_v172 : DevRef τ sig)) shapeCasts_S1x128_S128 :=
  win_reshape win3 20 (finV_split3 V) main_v172 main_v173 _ _ _ _ rfl (by decide +kernel) (by decide +kernel)

set_option maxRecDepth 8192 in
theorem eq_main_c_25 (V : Valuation τ sig (Elt F)) :
    finV V (main_c_25 : DevRef τ sig) = (constantI S_ 32 0#32) :=
  win_nullary win3 21 (finV_split3 V) main_c_25 _ _ rfl (by decide +kernel)

set_option maxRecDepth 8192 in
theorem eq_main_v174 (V : Valuation τ sig (Elt F)) :
    finV V (main_v174 : DevRef τ sig) = (broadcastInDim S600000 ![] bcast_S_S600000 : (⟨S_, .i32⟩ : BufTy).Contents (Elt F) → (⟨S600000, .i32⟩ : BufTy).Contents (Elt F)) (finV V (main_c_25 : DevRef τ sig)) :=
  win_unary win3 22 (finV_split3 V) main_c_25 main_v174 _ _ _ rfl (by decide +kernel) (by decide +kernel)

set_option maxRecDepth 8192 in
theorem eq_main_v175 (V : Valuation τ sig (Elt F)) :
    finV V (main_v175 : DevRef τ sig) = (cmpi .slt : (⟨S600000, .i32⟩ : BufTy).Contents (Elt F) → (⟨S600000, .i32⟩ : BufTy).Contents (Elt F) → (⟨S600000, .i1⟩ : BufTy).Contents (Elt F)) (finV V (main_v1 : DevRef τ sig)) (finV V (main_v174 : DevRef τ sig)) :=
  win_binary win3 23 (finV_split3 V) main_v1 main_v174 main_v175 _ _ _ _ rfl (by decide +kernel) (by decide +kernel) (by decide +kernel)

set_option maxRecDepth 8192 in
theorem eq_main_c_26 (V : Valuation τ sig (Elt F)) :
    finV V (main_c_26 : DevRef τ sig) = (constantI S_ 32 50000#32) :=
  win_nullary win3 24 (finV_split3 V) main_c_26 _ _ rfl (by decide +kernel)

set_option maxRecDepth 8192 in
theorem eq_main_v176 (V : Valuation τ sig (Elt F)) :
    finV V (main_v176 : DevRef τ sig) = (broadcastInDim S600000 ![] bcast_S_S600000 : (⟨S_, .i32⟩ : BufTy).Contents (Elt F) → (⟨S600000, .i32⟩ : BufTy).Contents (Elt F)) (finV V (main_c_26 : DevRef τ sig)) :=
  win_unary win3 25 (finV_split3 V) main_c_26 main_v176 _ _ _ rfl (by decide +kernel) (by decide +kernel)

set_option maxRecDepth 8192 in
theorem eq_main_v177 (V : Valuation τ sig (Elt F)) :
    finV V (main_v177 : DevRef τ sig) = (addi : (⟨S600000, .i32⟩ : BufTy).Contents (Elt F) → (⟨S600000, .i32⟩ : BufTy).Contents (Elt F) → (⟨S600000, .i32⟩ : BufTy).Contents (Elt F)) (finV V (main_v1 : DevRef τ sig)) (finV V (main_v176 : DevRef τ sig)) :=
  win_binary win3 26 (finV_split3 V) main_v1 main_v176 main_v177 _ _ _ _ rfl (by decide +kernel) (by decide +kernel) (by decide +kernel)

set_option maxRecDepth 8192 in
theorem eq_main_v178 (V : Valuation τ sig (Elt F)) :
    finV V (main_v178 : DevRef τ sig) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (finV V (main_v175 : DevRef τ sig)) (finV V (main_v177 : DevRef τ sig)) (finV V (main_v1 : DevRef τ sig)) :=
  win_ternary win3 27 (finV_split3 V) main_v175 main_v177 main_v1 main_v178 _ _ _ _ _ rfl (by decide +kernel) (by decide +kernel) (by decide +kernel) (by decide +kernel)

set_option maxRecDepth 8192 in
theorem eq_main_v179 (V : Valuation τ sig (Elt F)) :
    finV V (main_v179 : DevRef τ sig) = (broadcastInDim S600000x1 ![0] bcast_S600000_S600000x1_0 : (⟨S600000, .i32⟩ : BufTy).Contents (Elt F) → (⟨S600000x1, .i32⟩ : BufTy).Contents (Elt F)) (finV V (main_v178 : DevRef τ sig)) :=
  win_unary win3 28 (finV_split3 V) main_v178 main_v179 _ _ _ rfl (by decide +kernel) (by decide +kernel)

set_option maxRecDepth 8192 in
theorem eq_main_v180 (V : Valuation τ sig (Elt F)) :
    finV V (main_v180 : DevRef τ sig) = ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) (finV V (main_v165 : DevRef τ sig)) (finV V (main_v179 : DevRef τ sig)) :=
  win_binary win3 29 (finV_split3 V) main_v165 main_v179 main_v180 _ _ _ _ rfl (by decide +kernel) (by decide +kernel) (by decide +kernel)

set_option maxRecDepth 8192 in
theorem eq_main_cst_27 (V : Valuation τ sig (Elt F)) :
    finV V (main_cst_27 : DevRef τ sig) = (constant S_ .f32 0x00000000#32) :=
  win_nullary win3 30 (finV_split3 V) main_cst_27 _ _ rfl (by decide +kernel)

set_option maxRecDepth 8192 in
theorem eq_main_v181 (V : Valuation τ sig (Elt F)) :
    finV V (main_v181 : DevRef τ sig) = (broadcastInDim S50000x128 ![] bcast_S_S50000x128 : (⟨S_, .f32⟩ : BufTy).Contents (Elt F) → (⟨S50000x128, .f32⟩ : BufTy).Contents (Elt F)) (finV V (main_cst_27 : DevRef τ sig)) :=
  win_unary win3 31 (finV_split3 V) main_cst_27 main_v181 _ _ _ rfl (by decide +kernel) (by decide +kernel)

set_option maxRecDepth 8192 in
theorem eq_main_v182 (V : Valuation τ sig (Elt F)) :
    finV V (main_v182 : DevRef τ sig) = (broadcastInDim S600000x1 ![0] bcast_S600000_S600000x1_0 : (⟨S600000, .i32⟩ : BufTy).Contents (Elt F) → (⟨S600000x1, .i32⟩ : BufTy).Contents (Elt F)) (finV V (main_v3 : DevRef τ sig)) :=
  win_unary win3 32 (finV_split3 V) main_v3 main_v182 _ _ _ rfl (by decide +kernel) (by decide +kernel)

set_option maxRecDepth 8192 in
theorem eq_main_v183 (V : Valuation τ sig (Elt F)) :
    finV V (main_v183 : DevRef τ sig) = ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) (finV V (main_v181 : DevRef τ sig)) (finV V (main_v182 : DevRef τ sig)) (finV V (main_v180 : DevRef τ sig)) :=
  win_ternary win3 33 (finV_split3 V) main_v181 main_v182 main_v180 main_v183 _ _ _ _ _ rfl (by decide +kernel) (by decide +kernel) (by decide +kernel) (by decide +kernel)

set_option maxRecDepth 8192 in
theorem eq_main_v184 (V : Valuation τ sig (Elt F)) :
    finV V (main_v184 : DevRef τ sig) = (addf : (⟨S50000x128, .f32⟩ : BufTy).Contents (Elt F) → (⟨S50000x128, .f32⟩ : BufTy).Contents (Elt F) → (⟨S50000x128, .f32⟩ : BufTy).Contents (Elt F)) (finV V (main_v165 : DevRef τ sig)) (finV V (main_v183 : DevRef τ sig)) :=
  win_binary win3 34 (finV_split3 V) main_v165 main_v183 main_v184 _ _ _ _ rfl (by decide +kernel) (by decide +kernel) (by decide +kernel)

set_option maxRecDepth 8192 in
theorem eq_main_v185 (V : Valuation τ sig (Elt F)) :
    finV V (main_v185 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v184 : DevRef τ sig)) (finV V (main_v167 : DevRef τ sig)) :=
  win_binary win3 35 (finV_split3 V) main_v184 main_v167 main_v185 _ _ _ _ rfl (by decide +kernel) (by decide +kernel) (by decide +kernel)

set_option maxRecDepth 8192 in
theorem eq_main_v186 (V : Valuation τ sig (Elt F)) :
    finV V (main_v186 : DevRef τ sig) = (broadcastInDim S1x128 ![1] bcast_S128_S1x128_1 : (⟨S128, .f32⟩ : BufTy).Contents (Elt F) → (⟨S1x128, .f32⟩ : BufTy).Contents (Elt F)) (finV V (main_v169 : DevRef τ sig)) :=
  win_unary win3 36 (finV_split3 V) main_v169 main_v186 _ _ _ rfl (by decide +kernel) (by decide +kernel)

set_option maxRecDepth 8192 in
theorem eq_main_v187 (V : Valuation τ sig (Elt F)) :
    finV V (main_v187 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v186 : DevRef τ sig)) :=
  win_unary win3 37 (finV_split3 V) main_v186 main_v187 _ _ _ rfl (by decide +kernel) (by decide +kernel)

set_option maxRecDepth 8192 in
theorem eq_main_v188 (V : Valuation τ sig (Elt F)) :
    finV V (main_v188 : DevRef τ sig) = (addf : (⟨S50000x128, .f32⟩ : BufTy).Contents (Elt F) → (⟨S50000x128, .f32⟩ : BufTy).Contents (Elt F) → (⟨S50000x128, .f32⟩ : BufTy).Contents (Elt F)) (finV V (main_v185 : DevRef τ sig)) (finV V (main_v187 : DevRef τ sig)) :=
  win_binary win3 38 (finV_split3 V) main_v185 main_v187 main_v188 _ _ _ _ rfl (by decide +kernel) (by decide +kernel) (by decide +kernel)

set_option maxRecDepth 8192 in
theorem eq_main_cst_28 (V : Valuation τ sig (Elt F)) :
    finV V (main_cst_28 : DevRef τ sig) = (constant S_ .f32 0x00000000#32) :=
  win_nullary win3 39 (finV_split3 V) main_cst_28 _ _ rfl (by decide +kernel)

set_option maxRecDepth 8192 in
theorem eq_main_v189 (V : Valuation τ sig (Elt F)) :
    finV V (main_v189 : DevRef τ sig) = (broadcastInDim S50000x128 ![] bcast_S_S50000x128 : (⟨S_, .f32⟩ : BufTy).Contents (Elt F) → (⟨S50000x128, .f32⟩ : BufTy).Contents (Elt F)) (finV V (main_cst_28 : DevRef τ sig)) :=
  win_unary win3 40 (finV_split3 V) main_cst_28 main_v189 _ _ _ rfl (by decide +kernel) (by decide +kernel)

set_option maxRecDepth 8192 in
theorem eq_main_v190 (V : Valuation τ sig (Elt F)) :
    finV V (main_v190 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v188 : DevRef τ sig)) (finV V (main_v189 : DevRef τ sig)) :=
  win_binary win3 41 (finV_split3 V) main_v188 main_v189 main_v190 _ _ _ _ rfl (by decide +kernel) (by decide +kernel) (by decide +kernel)

set_option maxRecDepth 8192 in
theorem eq_main_v191 (V : Valuation τ sig (Elt F)) :
    finV V (main_v191 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v190 : DevRef τ sig)) (finV V (main_v171 : DevRef τ sig)) :=
  win_binary win3 42 (finV_split3 V) main_v190 main_v171 main_v191 _ _ _ _ rfl (by decide +kernel) (by decide +kernel) (by decide +kernel)

set_option maxRecDepth 8192 in
theorem eq_main_v192 (V : Valuation τ sig (Elt F)) :
    finV V (main_v192 : DevRef τ sig) = (broadcastInDim S1x128 ![1] bcast_S128_S1x128_1 : (⟨S128, .f32⟩ : BufTy).Contents (Elt F) → (⟨S1x128, .f32⟩ : BufTy).Contents (Elt F)) (finV V (main_v173 : DevRef τ sig)) :=
  win_unary win3 43 (finV_split3 V) main_v173 main_v192 _ _ _ rfl (by decide +kernel) (by decide +kernel)

set_option maxRecDepth 8192 in
theorem eq_main_v193 (V : Valuation τ sig (Elt F)) :
    finV V (main_v193 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v192 : DevRef τ sig)) :=
  win_unary win3 44 (finV_split3 V) main_v192 main_v193 _ _ _ rfl (by decide +kernel) (by decide +kernel)

set_option maxRecDepth 8192 in
theorem eq_main_v194 (V : Valuation τ sig (Elt F)) :
    finV V (main_v194 : DevRef τ sig) = (addf : (⟨S50000x128, .f32⟩ : BufTy).Contents (Elt F) → (⟨S50000x128, .f32⟩ : BufTy).Contents (Elt F) → (⟨S50000x128, .f32⟩ : BufTy).Contents (Elt F)) (finV V (main_v191 : DevRef τ sig)) (finV V (main_v193 : DevRef τ sig)) :=
  win_binary win3 45 (finV_split3 V) main_v191 main_v193 main_v194 _ _ _ _ rfl (by decide +kernel) (by decide +kernel) (by decide +kernel)

set_option maxRecDepth 8192 in
theorem eq_main_v195 (V : Valuation τ sig (Elt F)) :
    finV V (main_v195 : DevRef τ sig) = (Host.tanh : (⟨S50000x128, .f32⟩ : BufTy).Contents (Elt F) → (⟨S50000x128, .f32⟩ : BufTy).Contents (Elt F)) (finV V (main_v194 : DevRef τ sig)) :=
  win_unary win3 46 (finV_split3 V) main_v194 main_v195 _ _ _ rfl (by decide +kernel) (by decide +kernel)

set_option maxRecDepth 8192 in
theorem eq_main_v196 (V : Valuation τ sig (Elt F)) :
    finV V (main_v196 : DevRef τ sig) = ((extractStridedSlice S1x128 ![3, 0] · slices_S7x128_S1x128_3_0) : (⟨S7x128, .f32⟩ : BufTy).Contents (Elt F) → (⟨S1x128, .f32⟩ : BufTy).Contents (Elt F)) (finV V (main_arg7 : DevRef τ sig)) :=
  win_unary win3 47 (finV_split3 V) main_arg7 main_v196 _ _ _ rfl (by decide +kernel) (by decide +kernel)

set_option maxRecDepth 8192 in
theorem eq_main_v197 (V : Valuation τ sig (Elt F)) :
    finV V (main_v197 : DevRef τ sig) = shapeCast S128 (finV V (main_v196 : DevRef τ sig)) shapeCasts_S1x128_S128 :=
  win_reshape win3 48 (finV_split3 V) main_v196 main_v197 _ _ _ _ rfl (by decide +kernel) (by decide +kernel)

set_option maxRecDepth 8192 in
theorem eq_main_v198 (V : Valuation τ sig (Elt F)) :
    finV V (main_v198 : DevRef τ sig) = ((extractStridedSlice S1x128 ![3, 0] · slices_S7x128_S1x128_3_0) : (⟨S7x128, .f32⟩ : BufTy).Contents (Elt F) → (⟨S1x128, .f32⟩ : BufTy).Contents (Elt F)) (finV V (main_arg8 : DevRef τ sig)) :=
  win_unary win3 49 (finV_split3 V) main_arg8 main_v198 _ _ _ rfl (by decide +kernel) (by decide +kernel)

set_option maxRecDepth 8192 in
theorem eq_main_v199 (V : Valuation τ sig (Elt F)) :
    finV V (main_v199 : DevRef τ sig) = shapeCast S128 (finV V (main_v198 : DevRef τ sig)) shapeCasts_S1x128_S128 :=
  win_reshape win3 50 (finV_split3 V) main_v198 main_v199 _ _ _ _ rfl (by decide +kernel) (by decide +kernel)

set_option maxRecDepth 8192 in
theorem eq_main_cst_29 (V : Valuation τ sig (Elt F)) :
    finV V (main_cst_29 : DevRef τ sig) = (constant S_ .f32 0x00000000#32) :=
  win_nullary win3 51 (finV_split3 V) main_cst_29 _ _ rfl (by decide +kernel)

set_option maxRecDepth 8192 in
theorem eq_main_v200 (V : Valuation τ sig (Elt F)) :
    finV V (main_v200 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v195 : DevRef τ sig)) (finV V (main_cst_29 : DevRef τ sig)) :=
  win_binary win3 52 (finV_split3 V) main_v195 main_cst_29 main_v200 _ _ _ _ rfl (by decide +kernel) (by decide +kernel) (by decide +kernel)

set_option maxRecDepth 8192 in
theorem eq_main_cst_30 (V : Valuation τ sig (Elt F)) :
    finV V (main_cst_30 : DevRef τ sig) = (constant S_ .f32 0x47435000#32) :=
  win_nullary win3 53 (finV_split3 V) main_cst_30 _ _ rfl (by decide +kernel)

set_option maxRecDepth 8192 in
theorem eq_main_v201 (V : Valuation τ sig (Elt F)) :
    finV V (main_v201 : DevRef τ sig) = (broadcastInDim S128 ![] bcast_S_S128 : (⟨S_, .f32⟩ : BufTy).Contents (Elt F) → (⟨S128, .f32⟩ : BufTy).Contents (Elt F)) (finV V (main_cst_30 : DevRef τ sig)) :=
  win_unary win3 54 (finV_split3 V) main_cst_30 main_v201 _ _ _ rfl (by decide +kernel) (by decide +kernel)

set_option maxRecDepth 8192 in
theorem eq_main_v202 (V : Valuation τ sig (Elt F)) :
    finV V (main_v202 : DevRef τ sig) = (Host.divf : (⟨S128, .f32⟩ : BufTy).Contents (Elt F) → (⟨S128, .f32⟩ : BufTy).Contents (Elt F) → (⟨S128, .f32⟩ : BufTy).Contents (Elt F)) (finV V (main_v200 : DevRef τ sig)) (finV V (main_v201 : DevRef τ sig)) :=
  win_binary win3 55 (finV_split3 V) main_v200 main_v201 main_v202 _ _ _ _ rfl (by decide +kernel) (by decide +kernel) (by decide +kernel)

set_option maxRecDepth 8192 in
theorem eq_main_c_31 (V : Valuation τ sig (Elt F)) :
    finV V (main_c_31 : DevRef τ sig) = (constantI S_ 32 0#32) :=
  win_nullary win3 56 (finV_split3 V) main_c_31 _ _ rfl (by decide +kernel)

set_option maxRecDepth 8192 in
theorem eq_main_call3_cst (V : Valuation τ sig (Elt F)) :
    finV V (main_call3_cst : DevRef τ sig) = (constant S_ .f32 0x00000000#32) :=
  win_nullary win3 57 (finV_split3 V) main_call3_cst _ _ rfl (by decide +kernel)

set_option maxRecDepth 8192 in
theorem eq_main_call3_v0 (V : Valuation τ sig (Elt F)) :
    finV V (main_call3_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v195 : DevRef τ sig)) (finV V (main_call3_cst : DevRef τ sig)) :=
  win_binary win3 58 (finV_split3 V) main_v195 main_call3_cst main_call3_v0 _ _ _ _ rfl (by decide +kernel) (by decide +kernel) (by decide +kernel)

set_option maxRecDepth 8192 in
theorem eq_main_call3_v1 (V : Valuation τ sig (Elt F)) :
    finV V (main_call3_v1 : DevRef τ sig) = ((broadcastInDim S1x128 ![1] bcast_S128_S1x128_1) : (⟨S128, .f32⟩ : BufTy).Contents (Elt F) → (⟨S1x128, .f32⟩ : BufTy).Contents (Elt F)) (finV V (main_call3_v0 : DevRef τ sig)) :=
  win_unary win3 59 (finV_split3 V) main_call3_v0 main_call3_v1 _ _ _ rfl (by decide +kernel) (by decide +kernel)

set_option maxRecDepth 8192 in
theorem eq_main_call3_cst_0 (V : Valuation τ sig (Elt F)) :
    finV V (main_call3_cst_0 : DevRef τ sig) = (constant S_ .f32 0x47435000#32) :=
  win_nullary win3 60 (finV_split3 V) main_call3_cst_0 _ _ rfl (by decide +kernel)

set_option maxRecDepth 8192 in
theorem eq_main_call3_v2 (V : Valuation τ sig (Elt F)) :
    finV V (main_call3_v2 : DevRef τ sig) = ((broadcastInDim S1x128 ![] bcast_S_S1x128) : (⟨S_, .f32⟩ : BufTy).Contents (Elt F) → (⟨S1x128, .f32⟩ : BufTy).Contents (Elt F)) (finV V (main_call3_cst_0 : DevRef τ sig)) :=
  win_unary win3 61 (finV_split3 V) main_call3_cst_0 main_call3_v2 _ _ _ rfl (by decide +kernel) (by decide +kernel)

set_option maxRecDepth 8192 in
theorem eq_main_call3_v3 (V : Valuation τ sig (Elt F)) :
    finV V (main_call3_v3 : DevRef τ sig) = (Host.divf : (⟨S1x128, .f32⟩ : BufTy).Contents (Elt F) → (⟨S1x128, .f32⟩ : BufTy).Contents (Elt F) → (⟨S1x128, .f32⟩ : BufTy).Contents (Elt F)) (finV V (main_call3_v1 : DevRef τ sig)) (finV V (main_call3_v2 : DevRef τ sig)) :=
  win_binary win3 62 (finV_split3 V) main_call3_v1 main_call3_v2 main_call3_v3 _ _ _ _ rfl (by decide +kernel) (by decide +kernel) (by decide +kernel)

set_option maxRecDepth 8192 in
theorem eq_main_call3_v4 (V : Valuation τ sig (Elt F)) :
    finV V (main_call3_v4 : DevRef τ sig) = ((broadcastInDim S50000x128 ![0, 1] bcast_S1x128_S50000x128_0_1) : (⟨S1x128, .f32⟩ : BufTy).Contents (Elt F) → (⟨S50000x128, .f32⟩ : BufTy).Contents (Elt F)) (finV V (main_call3_v3 : DevRef τ sig)) :=
  win_unary win3 63 (finV_split3 V) main_call3_v3 main_call3_v4 _ _ _ rfl (by decide +kernel) (by decide +kernel)

set_option maxRecDepth 8192 in
theorem eq_main_call3_v5 (V : Valuation τ sig (Elt F)) :
    finV V (main_call3_v5 : DevRef τ sig) = (subf : (⟨S50000x128, .f32⟩ : BufTy).Contents (Elt F) → (⟨S50000x128, .f32⟩ : BufTy).Contents (Elt F) → (⟨S50000x128, .f32⟩ : BufTy).Contents (Elt F)) (finV V (main_v195 : DevRef τ sig)) (finV V (main_call3_v4 : DevRef τ sig)) :=
  win_binary win3 64 (finV_split3 V) main_v195 main_call3_v4 main_call3_v5 _ _ _ _ rfl (by decide +kernel) (by decide +kernel) (by decide +kernel)

set_option maxRecDepth 8192 in
theorem eq_main_call3_v6 (V : Valuation τ sig (Elt F)) :
    finV V (main_call3_v6 : DevRef τ sig) = (mulf : (⟨S50000x128, .f32⟩ : BufTy).Contents (Elt F) → (⟨S50000x128, .f32⟩ : BufTy).Contents (Elt F) → (⟨S50000x128, .f32⟩ : BufTy).Contents (Elt F)) (finV V (main_call3_v5 : DevRef τ sig)) (finV V (main_call3_v5 : DevRef τ sig)) :=
  win_binary win3 65 (finV_split3 V) main_call3_v5 main_call3_v5 main_call3_v6 _ _ _ _ rfl (by decide +kernel) (by decide +kernel) (by decide +kernel)

set_option maxRecDepth 8192 in
theorem eq_main_call3_v7 (V : Valuation τ sig (Elt F)) :
    finV V (main_call3_v7 : DevRef τ sig) = ((sitofp .f32) : (⟨S_, .i32⟩ : BufTy).Contents (Elt F) → (⟨S_, .f32⟩ : BufTy).Contents (Elt F)) (finV V (main_c_31 : DevRef τ sig)) :=
  win_unary win3 66 (finV_split3 V) main_c_31 main_call3_v7 _ _ _ rfl (by decide +kernel) (by decide +kernel)

set_option maxRecDepth 8192 in
theorem eq_main_call3_cst_1 (V : Valuation τ sig (Elt F)) :
    finV V (main_call3_cst_1 : DevRef τ sig) = (constant S_ .f32 0x47435000#32) :=
  win_nullary win3 67 (finV_split3 V) main_call3_cst_1 _ _ rfl (by decide +kernel)

set_option maxRecDepth 8192 in
theorem eq_main_call3_v8 (V : Valuation τ sig (Elt F)) :
    finV V (main_call3_v8 : DevRef τ sig) = (subf : (⟨S_, .f32⟩ : BufTy).Contents (Elt F) → (⟨S_, .f32⟩ : BufTy).Contents (Elt F) → (⟨S_, .f32⟩ : BufTy).Contents (Elt F)) (finV V (main_call3_cst_1 : DevRef τ sig)) (finV V (main_call3_v7 : DevRef τ sig)) :=
  win_binary win3 68 (finV_split3 V) main_call3_cst_1 main_call3_v7 main_call3_v8 _ _ _ _ rfl (by decide +kernel) (by decide +kernel) (by decide +kernel)

set_option maxRecDepth 8192 in
theorem eq_main_call3_cst_2 (V : Valuation τ sig (Elt F)) :
    finV V (main_call3_cst_2 : DevRef τ sig) = (constant S_ .f32 0x00000000#32) :=
  win_nullary win3 69 (finV_split3 V) main_call3_cst_2 _ _ rfl (by decide +kernel)

set_option maxRecDepth 8192 in
theorem eq_main_call3_v9 (V : Valuation τ sig (Elt F)) :
    finV V (main_call3_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_call3_v6 : DevRef τ sig)) (finV V (main_call3_cst_2 : DevRef τ sig)) :=
  win_binary win3 70 (finV_split3 V) main_call3_v6 main_call3_cst_2 main_call3_v9 _ _ _ _ rfl (by decide +kernel) (by decide +kernel) (by decide +kernel)

set_option maxRecDepth 8192 in
theorem eq_main_call3_v10 (V : Valuation τ sig (Elt F)) :
    finV V (main_call3_v10 : DevRef τ sig) = ((broadcastInDim S128 ![] bcast_S_S128) : (⟨S_, .f32⟩ : BufTy).Contents (Elt F) → (⟨S128, .f32⟩ : BufTy).Contents (Elt F)) (finV V (main_call3_v8 : DevRef τ sig)) :=
  win_unary win3 71 (finV_split3 V) main_call3_v8 main_call3_v10 _ _ _ rfl (by decide +kernel) (by decide +kernel)

set_option maxRecDepth 8192 in
theorem eq_main_call3_v11 (V : Valuation τ sig (Elt F)) :
    finV V (main_call3_v11 : DevRef τ sig) = (Host.divf : (⟨S128, .f32⟩ : BufTy).Contents (Elt F) → (⟨S128, .f32⟩ : BufTy).Contents (Elt F) → (⟨S128, .f32⟩ : BufTy).Contents (Elt F)) (finV V (main_call3_v9 : DevRef τ sig)) (finV V (main_call3_v10 : DevRef τ sig)) :=
  win_binary win3 72 (finV_split3 V) main_call3_v9 main_call3_v10 main_call3_v11 _ _ _ _ rfl (by decide +kernel) (by decide +kernel) (by decide +kernel)

set_option maxRecDepth 8192 in
theorem eq_main_call3_cst_3 (V : Valuation τ sig (Elt F)) :
    finV V (main_call3_cst_3 : DevRef τ sig) = (constant S_ .f32 0x00000000#32) :=
  win_nullary win3 73 (finV_split3 V) main_call3_cst_3 _ _ rfl (by decide +kernel)

set_option maxRecDepth 8192 in
theorem eq_main_call3_v12 (V : Valuation τ sig (Elt F)) :
    finV V (main_call3_v12 : DevRef τ sig) = ((cmpf .ogt) : (⟨S_, .f32⟩ : BufTy).Contents (Elt F) → (⟨S_, .f32⟩ : BufTy).Contents (Elt F) → (⟨S_, .i1⟩ : BufTy).Contents (Elt F)) (finV V (main_call3_v8 : DevRef τ sig)) (finV V (main_call3_cst_3 : DevRef τ sig)) :=
  win_binary win3 74 (finV_split3 V) main_call3_v8 main_call3_cst_3 main_call3_v12 _ _ _ _ rfl (by decide +kernel) (by decide +kernel) (by decide +kernel)

set_option maxRecDepth 8192 in
theorem eq_main_call3_cst_4 (V : Valuation τ sig (Elt F)) :
    finV V (main_call3_cst_4 : DevRef τ sig) = (constant S_ .f32 0x7FC00000#32) :=
  win_nullary win3 75 (finV_split3 V) main_call3_cst_4 _ _ rfl (by decide +kernel)

set_option maxRecDepth 8192 in
theorem eq_main_call3_call0_v0 (V : Valuation τ sig (Elt F)) :
    finV V (main_call3_call0_v0 : DevRef τ sig) = (id : (⟨S_, .f32⟩ : BufTy).Contents (Elt F) → (⟨S_, .f32⟩ : BufTy).Contents (Elt F)) (finV V (main_call3_cst_4 : DevRef τ sig)) :=
  win_unary win3 76 (finV_split3 V) main_call3_cst_4 main_call3_call0_v0 _ _ _ rfl (by decide +kernel) (by decide +kernel)

set_option maxRecDepth 8192 in
theorem eq_main_call3_call0_v1 (V : Valuation τ sig (Elt F)) :
    finV V (main_call3_call0_v1 : DevRef τ sig) = ((broadcastInDim S128 ![] bcast_S_S128) : (⟨S_, .f32⟩ : BufTy).Contents (Elt F) → (⟨S128, .f32⟩ : BufTy).Contents (Elt F)) (finV V (main_call3_call0_v0 : DevRef τ sig)) :=
  win_unary win3 77 (finV_split3 V) main_call3_call0_v0 main_call3_call0_v1 _ _ _ rfl (by decide +kernel) (by decide +kernel)

set_option maxHeartbeats 4000000 in
set_option maxRecDepth 8192 in
theorem eq_main_v203 (V : Valuation τ sig (Elt F)) :
    finV V (main_v203 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (finV V (main_call3_v12 : DevRef τ sig)) (finV V (main_call3_v11 : DevRef τ sig)) (finV V (main_call3_call0_v1 : DevRef τ sig)) :=
  win_ternary win3 78 (finV_split3 V) main_call3_v12 main_call3_v11 main_call3_call0_v1 main_v203 _ _ _ _ _ rfl (by decide +kernel) (by decide +kernel) (by decide +kernel) (by decide +kernel)

set_option maxRecDepth 8192 in
theorem eq_main_v204 (V : Valuation τ sig (Elt F)) :
    finV V (main_v204 : DevRef τ sig) = (broadcastInDim S1x128 ![1] bcast_S128_S1x128_1 : (⟨S128, .f32⟩ : BufTy).Contents (Elt F) → (⟨S1x128, .f32⟩ : BufTy).Contents (Elt F)) (finV V (main_v202 : DevRef τ sig)) :=
  win_unary win3 79 (finV_split3 V) main_v202 main_v204 _ _ _ rfl (by decide +kernel) (by decide +kernel)

set_option maxRecDepth 8192 in
theorem eq_main_v205 (V : Valuation τ sig (Elt F)) :
    finV V (main_v205 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v204 : DevRef τ sig)) :=
  win_unary win3 80 (finV_split3 V) main_v204 main_v205 _ _ _ rfl (by decide +kernel) (by decide +kernel)

/-! ## Window `main_part4` -/

set_option maxRecDepth 8192 in
theorem eq_main_v206 (V : Valuation τ sig (Elt F)) :
    finV V (main_v206 : DevRef τ sig) = (subf : (⟨S50000x128, .f32⟩ : BufTy).Contents (Elt F) → (⟨S50000x128, .f32⟩ : BufTy).Contents (Elt F) → (⟨S50000x128, .f32⟩ : BufTy).Contents (Elt F)) (finV V (main_v195 : DevRef τ sig)) (finV V (main_v205 : DevRef τ sig)) :=
  win_binary win4 0 (finV_split4 V) main_v195 main_v205 main_v206 _ _ _ _ rfl (by decide +kernel) (by decide +kernel) (by decide +kernel)

set_option maxRecDepth 8192 in
theorem eq_main_cst_32 (V : Valuation τ sig (Elt F)) :
    finV V (main_cst_32 : DevRef τ sig) = (constant S_ .f32 0x3727C5AC#32) :=
  win_nullary win4 1 (finV_split4 V) main_cst_32 _ _ rfl (by decide +kernel)

set_option maxRecDepth 8192 in
theorem eq_main_v207 (V : Valuation τ sig (Elt F)) :
    finV V (main_v207 : DevRef τ sig) = (broadcastInDim S128 ![] bcast_S_S128 : (⟨S_, .f32⟩ : BufTy).Contents (Elt F) → (⟨S128, .f32⟩ : BufTy).Contents (Elt F)) (finV V (main_cst_32 : DevRef τ sig)) :=
  win_unary win4 2 (finV_split4 V) main_cst_32 main_v207 _ _ _ rfl (by decide +kernel) (by decide +kernel)

set_option maxRecDepth 8192 in
theorem eq_main_v208 (V : Valuation τ sig (Elt F)) :
    finV V (main_v208 : DevRef τ sig) = (addf : (⟨S128, .f32⟩ : BufTy).Contents (Elt F) → (⟨S128, .f32⟩ : BufTy).Contents (Elt F) → (⟨S128, .f32⟩ : BufTy).Contents (Elt F)) (finV V (main_v203 : DevRef τ sig)) (finV V (main_v207 : DevRef τ sig)) :=
  win_binary win4 3 (finV_split4 V) main_v203 main_v207 main_v208 _ _ _ _ rfl (by decide +kernel) (by decide +kernel) (by decide +kernel)

set_option maxRecDepth 8192 in
theorem eq_main_v209 (V : Valuation τ sig (Elt F)) :
    finV V (main_v209 : DevRef τ sig) = (Host.rsqrt : (⟨S128, .f32⟩ : BufTy).Contents (Elt F) → (⟨S128, .f32⟩ : BufTy).Contents (Elt F)) (finV V (main_v208 : DevRef τ sig)) :=
  win_unary win4 4 (finV_split4 V) main_v208 main_v209 _ _ _ rfl (by decide +kernel) (by decide +kernel)

set_option maxRecDepth 8192 in
theorem eq_main_v210 (V : Valuation τ sig (Elt F)) :
    finV V (main_v210 : DevRef τ sig) = (broadcastInDim S1x128 ![1] bcast_S128_S1x128_1 : (⟨S128, .f32⟩ : BufTy).Contents (Elt F) → (⟨S1x128, .f32⟩ : BufTy).Contents (Elt F)) (finV V (main_v209 : DevRef τ sig)) :=
  win_unary win4 5 (finV_split4 V) main_v209 main_v210 _ _ _ rfl (by decide +kernel) (by decide +kernel)

set_option maxRecDepth 8192 in
theorem eq_main_v211 (V : Valuation τ sig (Elt F)) :
    finV V (main_v211 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v210 : DevRef τ sig)) :=
  win_unary win4 6 (finV_split4 V) main_v210 main_v211 _ _ _ rfl (by decide +kernel) (by decide +kernel)

set_option maxRecDepth 8192 in
theorem eq_main_v212 (V : Valuation τ sig (Elt F)) :
    finV V (main_v212 : DevRef τ sig) = (mulf : (⟨S50000x128, .f32⟩ : BufTy).Contents (Elt F) → (⟨S50000x128, .f32⟩ : BufTy).Contents (Elt F) → (⟨S50000x128, .f32⟩ : BufTy).Contents (Elt F)) (finV V (main_v206 : DevRef τ sig)) (finV V (main_v211 : DevRef τ sig)) :=
  win_binary win4 7 (finV_split4 V) main_v206 main_v211 main_v212 _ _ _ _ rfl (by decide +kernel) (by decide +kernel) (by decide +kernel)

set_option maxRecDepth 8192 in
theorem eq_main_v213 (V : Valuation τ sig (Elt F)) :
    finV V (main_v213 : DevRef τ sig) = (broadcastInDim S1x128 ![1] bcast_S128_S1x128_1 : (⟨S128, .f32⟩ : BufTy).Contents (Elt F) → (⟨S1x128, .f32⟩ : BufTy).Contents (Elt F)) (finV V (main_v197 : DevRef τ sig)) :=
  win_unary win4 8 (finV_split4 V) main_v197 main_v213 _ _ _ rfl (by decide +kernel) (by decide +kernel)

set_option maxRecDepth 8192 in
theorem eq_main_v214 (V : Valuation τ sig (Elt F)) :
    finV V (main_v214 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v213 : DevRef τ sig)) :=
  win_unary win4 9 (finV_split4 V) main_v213 main_v214 _ _ _ rfl (by decide +kernel) (by decide +kernel)

set_option maxRecDepth 8192 in
theorem eq_main_v215 (V : Valuation τ sig (Elt F)) :
    finV V (main_v215 : DevRef τ sig) = (mulf : (⟨S50000x128, .f32⟩ : BufTy).Contents (Elt F) → (⟨S50000x128, .f32⟩ : BufTy).Contents (Elt F) → (⟨S50000x128, .f32⟩ : BufTy).Contents (Elt F)) (finV V (main_v212 : DevRef τ sig)) (finV V (main_v214 : DevRef τ sig)) :=
  win_binary win4 10 (finV_split4 V) main_v212 main_v214 main_v215 _ _ _ _ rfl (by decide +kernel) (by decide +kernel) (by decide +kernel)

set_option maxRecDepth 8192 in
theorem eq_main_v216 (V : Valuation τ sig (Elt F)) :
    finV V (main_v216 : DevRef τ sig) = (broadcastInDim S1x128 ![1] bcast_S128_S1x128_1 : (⟨S128, .f32⟩ : BufTy).Contents (Elt F) → (⟨S1x128, .f32⟩ : BufTy).Contents (Elt F)) (finV V (main_v199 : DevRef τ sig)) :=
  win_unary win4 11 (finV_split4 V) main_v199 main_v216 _ _ _ rfl (by decide +kernel) (by decide +kernel)

set_option maxRecDepth 8192 in
theorem eq_main_v217 (V : Valuation τ sig (Elt F)) :
    finV V (main_v217 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v216 : DevRef τ sig)) :=
  win_unary win4 12 (finV_split4 V) main_v216 main_v217 _ _ _ rfl (by decide +kernel) (by decide +kernel)

set_option maxRecDepth 8192 in
theorem eq_main_v218 (V : Valuation τ sig (Elt F)) :
    finV V (main_v218 : DevRef τ sig) = (addf : (⟨S50000x128, .f32⟩ : BufTy).Contents (Elt F) → (⟨S50000x128, .f32⟩ : BufTy).Contents (Elt F) → (⟨S50000x128, .f32⟩ : BufTy).Contents (Elt F)) (finV V (main_v215 : DevRef τ sig)) (finV V (main_v217 : DevRef τ sig)) :=
  win_binary win4 13 (finV_split4 V) main_v215 main_v217 main_v218 _ _ _ _ rfl (by decide +kernel) (by decide +kernel) (by decide +kernel)

set_option maxRecDepth 8192 in
theorem eq_main_v219 (V : Valuation τ sig (Elt F)) :
    finV V (main_v219 : DevRef τ sig) = ((extractStridedSlice S1x128x128 ![4, 0, 0] · slices_S7x128x128_S1x128x128_4_0_0) : (⟨S7x128x128, .f32⟩ : BufTy).Contents (Elt F) → (⟨S1x128x128, .f32⟩ : BufTy).Contents (Elt F)) (finV V (main_arg3 : DevRef τ sig)) :=
  win_unary win4 14 (finV_split4 V) main_arg3 main_v219 _ _ _ rfl (by decide +kernel) (by decide +kernel)

set_option maxRecDepth 8192 in
theorem eq_main_v220 (V : Valuation τ sig (Elt F)) :
    finV V (main_v220 : DevRef τ sig) = shapeCast S128x128 (finV V (main_v219 : DevRef τ sig)) shapeCasts_S1x128x128_S128x128 :=
  win_reshape win4 15 (finV_split4 V) main_v219 main_v220 _ _ _ _ rfl (by decide +kernel) (by decide +kernel)

set_option maxRecDepth 8192 in
theorem eq_main_v221 (V : Valuation τ sig (Elt F)) :
    finV V (main_v221 : DevRef τ sig) = ((extractStridedSlice S1x128 ![4, 0] · slices_S7x128_S1x128_4_0) : (⟨S7x128, .f32⟩ : BufTy).Contents (Elt F) → (⟨S1x128, .f32⟩ : BufTy).Contents (Elt F)) (finV V (main_arg4 : DevRef τ sig)) :=
  win_unary win4 16 (finV_split4 V) main_arg4 main_v221 _ _ _ rfl (by decide +kernel) (by decide +kernel)

set_option maxRecDepth 8192 in
theorem eq_main_v222 (V : Valuation τ sig (Elt F)) :
    finV V (main_v222 : DevRef τ sig) = shapeCast S128 (finV V (main_v221 : DevRef τ sig)) shapeCasts_S1x128_S128 :=
  win_reshape win4 17 (finV_split4 V) main_v221 main_v222 _ _ _ _ rfl (by decide +kernel) (by decide +kernel)

set_option maxRecDepth 8192 in
theorem eq_main_v223 (V : Valuation τ sig (Elt F)) :
    finV V (main_v223 : DevRef τ sig) = ((extractStridedSlice S1x128x128 ![4, 0, 0] · slices_S7x128x128_S1x128x128_4_0_0) : (⟨S7x128x128, .f32⟩ : BufTy).Contents (Elt F) → (⟨S1x128x128, .f32⟩ : BufTy).Contents (Elt F)) (finV V (main_arg5 : DevRef τ sig)) :=
  win_unary win4 18 (finV_split4 V) main_arg5 main_v223 _ _ _ rfl (by decide +kernel) (by decide +kernel)

set_option maxRecDepth 8192 in
theorem eq_main_v224 (V : Valuation τ sig (Elt F)) :
    finV V (main_v224 : DevRef τ sig) = shapeCast S128x128 (finV V (main_v223 : DevRef τ sig)) shapeCasts_S1x128x128_S128x128 :=
  win_reshape win4 19 (finV_split4 V) main_v223 main_v224 _ _ _ _ rfl (by decide +kernel) (by decide +kernel)

set_option maxRecDepth 8192 in
theorem eq_main_v225 (V : Valuation τ sig (Elt F)) :
    finV V (main_v225 : DevRef τ sig) = ((extractStridedSlice S1x128 ![4, 0] · slices_S7x128_S1x128_4_0) : (⟨S7x128, .f32⟩ : BufTy).Contents (Elt F) → (⟨S1x128, .f32⟩ : BufTy).Contents (Elt F)) (finV V (main_arg6 : DevRef τ sig)) :=
  win_unary win4 20 (finV_split4 V) main_arg6 main_v225 _ _ _ rfl (by decide +kernel) (by decide +kernel)

set_option maxRecDepth 8192 in
theorem eq_main_v226 (V : Valuation τ sig (Elt F)) :
    finV V (main_v226 : DevRef τ sig) = shapeCast S128 (finV V (main_v225 : DevRef τ sig)) shapeCasts_S1x128_S128 :=
  win_reshape win4 21 (finV_split4 V) main_v225 main_v226 _ _ _ _ rfl (by decide +kernel) (by decide +kernel)

set_option maxRecDepth 8192 in
theorem eq_main_c_33 (V : Valuation τ sig (Elt F)) :
    finV V (main_c_33 : DevRef τ sig) = (constantI S_ 32 0#32) :=
  win_nullary win4 22 (finV_split4 V) main_c_33 _ _ rfl (by decide +kernel)

set_option maxRecDepth 8192 in
theorem eq_main_v227 (V : Valuation τ sig (Elt F)) :
    finV V (main_v227 : DevRef τ sig) = (broadcastInDim S600000 ![] bcast_S_S600000 : (⟨S_, .i32⟩ : BufTy).Contents (Elt F) → (⟨S600000, .i32⟩ : BufTy).Contents (Elt F)) (finV V (main_c_33 : DevRef τ sig)) :=
  win_unary win4 23 (finV_split4 V) main_c_33 main_v227 _ _ _ rfl (by decide +kernel) (by decide +kernel)

set_option maxRecDepth 8192 in
theorem eq_main_v228 (V : Valuation τ sig (Elt F)) :
    finV V (main_v228 : DevRef τ sig) = (cmpi .slt : (⟨S600000, .i32⟩ : BufTy).Contents (Elt F) → (⟨S600000, .i32⟩ : BufTy).Contents (Elt F) → (⟨S600000, .i1⟩ : BufTy).Contents (Elt F)) (finV V (main_v1 : DevRef τ sig)) (finV V (main_v227 : DevRef τ sig)) :=
  win_binary win4 24 (finV_split4 V) main_v1 main_v227 main_v228 _ _ _ _ rfl (by decide +kernel) (by decide +kernel) (by decide +kernel)

set_option maxRecDepth 8192 in
theorem eq_main_c_34 (V : Valuation τ sig (Elt F)) :
    finV V (main_c_34 : DevRef τ sig) = (constantI S_ 32 50000#32) :=
  win_nullary win4 25 (finV_split4 V) main_c_34 _ _ rfl (by decide +kernel)

set_option maxRecDepth 8192 in
theorem eq_main_v229 (V : Valuation τ sig (Elt F)) :
    finV V (main_v229 : DevRef τ sig) = (broadcastInDim S600000 ![] bcast_S_S600000 : (⟨S_, .i32⟩ : BufTy).Contents (Elt F) → (⟨S600000, .i32⟩ : BufTy).Contents (Elt F)) (finV V (main_c_34 : DevRef τ sig)) :=
  win_unary win4 26 (finV_split4 V) main_c_34 main_v229 _ _ _ rfl (by decide +kernel) (by decide +kernel)

set_option maxRecDepth 8192 in
theorem eq_main_v230 (V : Valuation τ sig (Elt F)) :
    finV V (main_v230 : DevRef τ sig) = (addi : (⟨S600000, .i32⟩ : BufTy).Contents (Elt F) → (⟨S600000, .i32⟩ : BufTy).Contents (Elt F) → (⟨S600000, .i32⟩ : BufTy).Contents (Elt F)) (finV V (main_v1 : DevRef τ sig)) (finV V (main_v229 : DevRef τ sig)) :=
  win_binary win4 27 (finV_split4 V) main_v1 main_v229 main_v230 _ _ _ _ rfl (by decide +kernel) (by decide +kernel) (by decide +kernel)

set_option maxRecDepth 8192 in
theorem eq_main_v231 (V : Valuation τ sig (Elt F)) :
    finV V (main_v231 : DevRef τ sig) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (finV V (main_v228 : DevRef τ sig)) (finV V (main_v230 : DevRef τ sig)) (finV V (main_v1 : DevRef τ sig)) :=
  win_ternary win4 28 (finV_split4 V) main_v228 main_v230 main_v1 main_v231 _ _ _ _ _ rfl (by decide +kernel) (by decide +kernel) (by decide +kernel) (by decide +kernel)

set_option maxRecDepth 8192 in
theorem eq_main_v232 (V : Valuation τ sig (Elt F)) :
    finV V (main_v232 : DevRef τ sig) = (broadcastInDim S600000x1 ![0] bcast_S600000_S600000x1_0 : (⟨S600000, .i32⟩ : BufTy).Contents (Elt F) → (⟨S600000x1, .i32⟩ : BufTy).Contents (Elt F)) (finV V (main_v231 : DevRef τ sig)) :=
  win_unary win4 29 (finV_split4 V) main_v231 main_v232 _ _ _ rfl (by decide +kernel) (by decide +kernel)

set_option maxRecDepth 8192 in
theorem eq_main_v233 (V : Valuation τ sig (Elt F)) :
    finV V (main_v233 : DevRef τ sig) = ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) (finV V (main_v165 : DevRef τ sig)) (finV V (main_v232 : DevRef τ sig)) :=
  win_binary win4 30 (finV_split4 V) main_v165 main_v232 main_v233 _ _ _ _ rfl (by decide +kernel) (by decide +kernel) (by decide +kernel)

set_option maxRecDepth 8192 in
theorem eq_main_cst_35 (V : Valuation τ sig (Elt F)) :
    finV V (main_cst_35 : DevRef τ sig) = (constant S_ .f32 0x00000000#32) :=
  win_nullary win4 31 (finV_split4 V) main_cst_35 _ _ rfl (by decide +kernel)

set_option maxRecDepth 8192 in
theorem eq_main_v234 (V : Valuation τ sig (Elt F)) :
    finV V (main_v234 : DevRef τ sig) = (broadcastInDim S50000x128 ![] bcast_S_S50000x128 : (⟨S_, .f32⟩ : BufTy).Contents (Elt F) → (⟨S50000x128, .f32⟩ : BufTy).Contents (Elt F)) (finV V (main_cst_35 : DevRef τ sig)) :=
  win_unary win4 32 (finV_split4 V) main_cst_35 main_v234 _ _ _ rfl (by decide +kernel) (by decide +kernel)

set_option maxRecDepth 8192 in
theorem eq_main_v235 (V : Valuation τ sig (Elt F)) :
    finV V (main_v235 : DevRef τ sig) = (broadcastInDim S600000x1 ![0] bcast_S600000_S600000x1_0 : (⟨S600000, .i32⟩ : BufTy).Contents (Elt F) → (⟨S600000x1, .i32⟩ : BufTy).Contents (Elt F)) (finV V (main_v3 : DevRef τ sig)) :=
  win_unary win4 33 (finV_split4 V) main_v3 main_v235 _ _ _ rfl (by decide +kernel) (by decide +kernel)

set_option maxRecDepth 8192 in
theorem eq_main_v236 (V : Valuation τ sig (Elt F)) :
    finV V (main_v236 : DevRef τ sig) = ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) (finV V (main_v234 : DevRef τ sig)) (finV V (main_v235 : DevRef τ sig)) (finV V (main_v233 : DevRef τ sig)) :=
  win_ternary win4 34 (finV_split4 V) main_v234 main_v235 main_v233 main_v236 _ _ _ _ _ rfl (by decide +kernel) (by decide +kernel) (by decide +kernel) (by decide +kernel)

set_option maxRecDepth 8192 in
theorem eq_main_v237 (V : Valuation τ sig (Elt F)) :
    finV V (main_v237 : DevRef τ sig) = (addf : (⟨S50000x128, .f32⟩ : BufTy).Contents (Elt F) → (⟨S50000x128, .f32⟩ : BufTy).Contents (Elt F) → (⟨S50000x128, .f32⟩ : BufTy).Contents (Elt F)) (finV V (main_v165 : DevRef τ sig)) (finV V (main_v236 : DevRef τ sig)) :=
  win_binary win4 35 (finV_split4 V) main_v165 main_v236 main_v237 _ _ _ _ rfl (by decide +kernel) (by decide +kernel) (by decide +kernel)

set_option maxRecDepth 8192 in
theorem eq_main_v238 (V : Valuation τ sig (Elt F)) :
    finV V (main_v238 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v237 : DevRef τ sig)) (finV V (main_v220 : DevRef τ sig)) :=
  win_binary win4 36 (finV_split4 V) main_v237 main_v220 main_v238 _ _ _ _ rfl (by decide +kernel) (by decide +kernel) (by decide +kernel)

set_option maxRecDepth 8192 in
theorem eq_main_v239 (V : Valuation τ sig (Elt F)) :
    finV V (main_v239 : DevRef τ sig) = (broadcastInDim S1x128 ![1] bcast_S128_S1x128_1 : (⟨S128, .f32⟩ : BufTy).Contents (Elt F) → (⟨S1x128, .f32⟩ : BufTy).Contents (Elt F)) (finV V (main_v222 : DevRef τ sig)) :=
  win_unary win4 37 (finV_split4 V) main_v222 main_v239 _ _ _ rfl (by decide +kernel) (by decide +kernel)

set_option maxRecDepth 8192 in
theorem eq_main_v240 (V : Valuation τ sig (Elt F)) :
    finV V (main_v240 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v239 : DevRef τ sig)) :=
  win_unary win4 38 (finV_split4 V) main_v239 main_v240 _ _ _ rfl (by decide +kernel) (by decide +kernel)

set_option maxRecDepth 8192 in
theorem eq_main_v241 (V : Valuation τ sig (Elt F)) :
    finV V (main_v241 : DevRef τ sig) = (addf : (⟨S50000x128, .f32⟩ : BufTy).Contents (Elt F) → (⟨S50000x128, .f32⟩ : BufTy).Contents (Elt F) → (⟨S50000x128, .f32⟩ : BufTy).Contents (Elt F)) (finV V (main_v238 : DevRef τ sig)) (finV V (main_v240 : DevRef τ sig)) :=
  win_binary win4 39 (finV_split4 V) main_v238 main_v240 main_v241 _ _ _ _ rfl (by decide +kernel) (by decide +kernel) (by decide +kernel)

set_option maxRecDepth 8192 in
theorem eq_main_cst_36 (V : Valuation τ sig (Elt F)) :
    finV V (main_cst_36 : DevRef τ sig) = (constant S_ .f32 0x00000000#32) :=
  win_nullary win4 40 (finV_split4 V) main_cst_36 _ _ rfl (by decide +kernel)

set_option maxRecDepth 8192 in
theorem eq_main_v242 (V : Valuation τ sig (Elt F)) :
    finV V (main_v242 : DevRef τ sig) = (broadcastInDim S50000x128 ![] bcast_S_S50000x128 : (⟨S_, .f32⟩ : BufTy).Contents (Elt F) → (⟨S50000x128, .f32⟩ : BufTy).Contents (Elt F)) (finV V (main_cst_36 : DevRef τ sig)) :=
  win_unary win4 41 (finV_split4 V) main_cst_36 main_v242 _ _ _ rfl (by decide +kernel) (by decide +kernel)

set_option maxRecDepth 8192 in
theorem eq_main_v243 (V : Valuation τ sig (Elt F)) :
    finV V (main_v243 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v241 : DevRef τ sig)) (finV V (main_v242 : DevRef τ sig)) :=
  win_binary win4 42 (finV_split4 V) main_v241 main_v242 main_v243 _ _ _ _ rfl (by decide +kernel) (by decide +kernel) (by decide +kernel)

set_option maxRecDepth 8192 in
theorem eq_main_v244 (V : Valuation τ sig (Elt F)) :
    finV V (main_v244 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v243 : DevRef τ sig)) (finV V (main_v224 : DevRef τ sig)) :=
  win_binary win4 43 (finV_split4 V) main_v243 main_v224 main_v244 _ _ _ _ rfl (by decide +kernel) (by decide +kernel) (by decide +kernel)

set_option maxRecDepth 8192 in
theorem eq_main_v245 (V : Valuation τ sig (Elt F)) :
    finV V (main_v245 : DevRef τ sig) = (broadcastInDim S1x128 ![1] bcast_S128_S1x128_1 : (⟨S128, .f32⟩ : BufTy).Contents (Elt F) → (⟨S1x128, .f32⟩ : BufTy).Contents (Elt F)) (finV V (main_v226 : DevRef τ sig)) :=
  win_unary win4 44 (finV_split4 V) main_v226 main_v245 _ _ _ rfl (by decide +kernel) (by decide +kernel)

set_option maxRecDepth 8192 in
theorem eq_main_v246 (V : Valuation τ sig (Elt F)) :
    finV V (main_v246 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v245 : DevRef τ sig)) :=
  win_unary win4 45 (finV_split4 V) main_v245 main_v246 _ _ _ rfl (by decide +kernel) (by decide +kernel)

set_option maxRecDepth 8192 in
theorem eq_main_v247 (V : Valuation τ sig (Elt F)) :
    finV V (main_v247 : DevRef τ sig) = (addf : (⟨S50000x128, .f32⟩ : BufTy).Contents (Elt F) → (⟨S50000x128, .f32⟩ : BufTy).Contents (Elt F) → (⟨S50000x128, .f32⟩ : BufTy).Contents (Elt F)) (finV V (main_v244 : DevRef τ sig)) (finV V (main_v246 : DevRef τ sig)) :=
  win_binary win4 46 (finV_split4 V) main_v244 main_v246 main_v247 _ _ _ _ rfl (by decide +kernel) (by decide +kernel) (by decide +kernel)

set_option maxRecDepth 8192 in
theorem eq_main_v248 (V : Valuation τ sig (Elt F)) :
    finV V (main_v248 : DevRef τ sig) = (Host.tanh : (⟨S50000x128, .f32⟩ : BufTy).Contents (Elt F) → (⟨S50000x128, .f32⟩ : BufTy).Contents (Elt F)) (finV V (main_v247 : DevRef τ sig)) :=
  win_unary win4 47 (finV_split4 V) main_v247 main_v248 _ _ _ rfl (by decide +kernel) (by decide +kernel)

set_option maxRecDepth 8192 in
theorem eq_main_v249 (V : Valuation τ sig (Elt F)) :
    finV V (main_v249 : DevRef τ sig) = ((extractStridedSlice S1x128 ![4, 0] · slices_S7x128_S1x128_4_0) : (⟨S7x128, .f32⟩ : BufTy).Contents (Elt F) → (⟨S1x128, .f32⟩ : BufTy).Contents (Elt F)) (finV V (main_arg7 : DevRef τ sig)) :=
  win_unary win4 48 (finV_split4 V) main_arg7 main_v249 _ _ _ rfl (by decide +kernel) (by decide +kernel)

set_option maxRecDepth 8192 in
theorem eq_main_v250 (V : Valuation τ sig (Elt F)) :
    finV V (main_v250 : DevRef τ sig) = shapeCast S128 (finV V (main_v249 : DevRef τ sig)) shapeCasts_S1x128_S128 :=
  win_reshape win4 49 (finV_split4 V) main_v249 main_v250 _ _ _ _ rfl (by decide +kernel) (by decide +kernel)

set_option maxRecDepth 8192 in
theorem eq_main_v251 (V : Valuation τ sig (Elt F)) :
    finV V (main_v251 : DevRef τ sig) = ((extractStridedSlice S1x128 ![4, 0] · slices_S7x128_S1x128_4_0) : (⟨S7x128, .f32⟩ : BufTy).Contents (Elt F) → (⟨S1x128, .f32⟩ : BufTy).Contents (Elt F)) (finV V (main_arg8 : DevRef τ sig)) :=
  win_unary win4 50 (finV_split4 V) main_arg8 main_v251 _ _ _ rfl (by decide +kernel) (by decide +kernel)

set_option maxRecDepth 8192 in
theorem eq_main_v252 (V : Valuation τ sig (Elt F)) :
    finV V (main_v252 : DevRef τ sig) = shapeCast S128 (finV V (main_v251 : DevRef τ sig)) shapeCasts_S1x128_S128 :=
  win_reshape win4 51 (finV_split4 V) main_v251 main_v252 _ _ _ _ rfl (by decide +kernel) (by decide +kernel)

set_option maxRecDepth 8192 in
theorem eq_main_cst_37 (V : Valuation τ sig (Elt F)) :
    finV V (main_cst_37 : DevRef τ sig) = (constant S_ .f32 0x00000000#32) :=
  win_nullary win4 52 (finV_split4 V) main_cst_37 _ _ rfl (by decide +kernel)

set_option maxRecDepth 8192 in
theorem eq_main_v253 (V : Valuation τ sig (Elt F)) :
    finV V (main_v253 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v248 : DevRef τ sig)) (finV V (main_cst_37 : DevRef τ sig)) :=
  win_binary win4 53 (finV_split4 V) main_v248 main_cst_37 main_v253 _ _ _ _ rfl (by decide +kernel) (by decide +kernel) (by decide +kernel)

set_option maxRecDepth 8192 in
theorem eq_main_cst_38 (V : Valuation τ sig (Elt F)) :
    finV V (main_cst_38 : DevRef τ sig) = (constant S_ .f32 0x47435000#32) :=
  win_nullary win4 54 (finV_split4 V) main_cst_38 _ _ rfl (by decide +kernel)

set_option maxRecDepth 8192 in
theorem eq_main_v254 (V : Valuation τ sig (Elt F)) :
    finV V (main_v254 : DevRef τ sig) = (broadcastInDim S128 ![] bcast_S_S128 : (⟨S_, .f32⟩ : BufTy).Contents (Elt F) → (⟨S128, .f32⟩ : BufTy).Contents (Elt F)) (finV V (main_cst_38 : DevRef τ sig)) :=
  win_unary win4 55 (finV_split4 V) main_cst_38 main_v254 _ _ _ rfl (by decide +kernel) (by decide +kernel)

set_option maxRecDepth 8192 in
theorem eq_main_v255 (V : Valuation τ sig (Elt F)) :
    finV V (main_v255 : DevRef τ sig) = (Host.divf : (⟨S128, .f32⟩ : BufTy).Contents (Elt F) → (⟨S128, .f32⟩ : BufTy).Contents (Elt F) → (⟨S128, .f32⟩ : BufTy).Contents (Elt F)) (finV V (main_v253 : DevRef τ sig)) (finV V (main_v254 : DevRef τ sig)) :=
  win_binary win4 56 (finV_split4 V) main_v253 main_v254 main_v255 _ _ _ _ rfl (by decide +kernel) (by decide +kernel) (by decide +kernel)

set_option maxRecDepth 8192 in
theorem eq_main_c_39 (V : Valuation τ sig (Elt F)) :
    finV V (main_c_39 : DevRef τ sig) = (constantI S_ 32 0#32) :=
  win_nullary win4 57 (finV_split4 V) main_c_39 _ _ rfl (by decide +kernel)

set_option maxRecDepth 8192 in
theorem eq_main_call4_cst (V : Valuation τ sig (Elt F)) :
    finV V (main_call4_cst : DevRef τ sig) = (constant S_ .f32 0x00000000#32) :=
  win_nullary win4 58 (finV_split4 V) main_call4_cst _ _ rfl (by decide +kernel)

set_option maxRecDepth 8192 in
theorem eq_main_call4_v0 (V : Valuation τ sig (Elt F)) :
    finV V (main_call4_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v248 : DevRef τ sig)) (finV V (main_call4_cst : DevRef τ sig)) :=
  win_binary win4 59 (finV_split4 V) main_v248 main_call4_cst main_call4_v0 _ _ _ _ rfl (by decide +kernel) (by decide +kernel) (by decide +kernel)

set_option maxRecDepth 8192 in
theorem eq_main_call4_v1 (V : Valuation τ sig (Elt F)) :
    finV V (main_call4_v1 : DevRef τ sig) = ((broadcastInDim S1x128 ![1] bcast_S128_S1x128_1) : (⟨S128, .f32⟩ : BufTy).Contents (Elt F) → (⟨S1x128, .f32⟩ : BufTy).Contents (Elt F)) (finV V (main_call4_v0 : DevRef τ sig)) :=
  win_unary win4 60 (finV_split4 V) main_call4_v0 main_call4_v1 _ _ _ rfl (by decide +kernel) (by decide +kernel)

set_option maxRecDepth 8192 in
theorem eq_main_call4_cst_0 (V : Valuation τ sig (Elt F)) :
    finV V (main_call4_cst_0 : DevRef τ sig) = (constant S_ .f32 0x47435000#32) :=
  win_nullary win4 61 (finV_split4 V) main_call4_cst_0 _ _ rfl (by decide +kernel)

set_option maxRecDepth 8192 in
theorem eq_main_call4_v2 (V : Valuation τ sig (Elt F)) :
    finV V (main_call4_v2 : DevRef τ sig) = ((broadcastInDim S1x128 ![] bcast_S_S1x128) : (⟨S_, .f32⟩ : BufTy).Contents (Elt F) → (⟨S1x128, .f32⟩ : BufTy).Contents (Elt F)) (finV V (main_call4_cst_0 : DevRef τ sig)) :=
  win_unary win4 62 (finV_split4 V) main_call4_cst_0 main_call4_v2 _ _ _ rfl (by decide +kernel) (by decide +kernel)

set_option maxRecDepth 8192 in
theorem eq_main_call4_v3 (V : Valuation τ sig (Elt F)) :
    finV V (main_call4_v3 : DevRef τ sig) = (Host.divf : (⟨S1x128, .f32⟩ : BufTy).Contents (Elt F) → (⟨S1x128, .f32⟩ : BufTy).Contents (Elt F) → (⟨S1x128, .f32⟩ : BufTy).Contents (Elt F)) (finV V (main_call4_v1 : DevRef τ sig)) (finV V (main_call4_v2 : DevRef τ sig)) :=
  win_binary win4 63 (finV_split4 V) main_call4_v1 main_call4_v2 main_call4_v3 _ _ _ _ rfl (by decide +kernel) (by decide +kernel) (by decide +kernel)

set_option maxRecDepth 8192 in
theorem eq_main_call4_v4 (V : Valuation τ sig (Elt F)) :
    finV V (main_call4_v4 : DevRef τ sig) = ((broadcastInDim S50000x128 ![0, 1] bcast_S1x128_S50000x128_0_1) : (⟨S1x128, .f32⟩ : BufTy).Contents (Elt F) → (⟨S50000x128, .f32⟩ : BufTy).Contents (Elt F)) (finV V (main_call4_v3 : DevRef τ sig)) :=
  win_unary win4 64 (finV_split4 V) main_call4_v3 main_call4_v4 _ _ _ rfl (by decide +kernel) (by decide +kernel)

set_option maxRecDepth 8192 in
theorem eq_main_call4_v5 (V : Valuation τ sig (Elt F)) :
    finV V (main_call4_v5 : DevRef τ sig) = (subf : (⟨S50000x128, .f32⟩ : BufTy).Contents (Elt F) → (⟨S50000x128, .f32⟩ : BufTy).Contents (Elt F) → (⟨S50000x128, .f32⟩ : BufTy).Contents (Elt F)) (finV V (main_v248 : DevRef τ sig)) (finV V (main_call4_v4 : DevRef τ sig)) :=
  win_binary win4 65 (finV_split4 V) main_v248 main_call4_v4 main_call4_v5 _ _ _ _ rfl (by decide +kernel) (by decide +kernel) (by decide +kernel)

set_option maxRecDepth 8192 in
theorem eq_main_call4_v6 (V : Valuation τ sig (Elt F)) :
    finV V (main_call4_v6 : DevRef τ sig) = (mulf : (⟨S50000x128, .f32⟩ : BufTy).Contents (Elt F) → (⟨S50000x128, .f32⟩ : BufTy).Contents (Elt F) → (⟨S50000x128, .f32⟩ : BufTy).Contents (Elt F)) (finV V (main_call4_v5 : DevRef τ sig)) (finV V (main_call4_v5 : DevRef τ sig)) :=
  win_binary win4 66 (finV_split4 V) main_call4_v5 main_call4_v5 main_call4_v6 _ _ _ _ rfl (by decide +kernel) (by decide +kernel) (by decide +kernel)

set_option maxRecDepth 8192 in
theorem eq_main_call4_v7 (V : Valuation τ sig (Elt F)) :
    finV V (main_call4_v7 : DevRef τ sig) = ((sitofp .f32) : (⟨S_, .i32⟩ : BufTy).Contents (Elt F) → (⟨S_, .f32⟩ : BufTy).Contents (Elt F)) (finV V (main_c_39 : DevRef τ sig)) :=
  win_unary win4 67 (finV_split4 V) main_c_39 main_call4_v7 _ _ _ rfl (by decide +kernel) (by decide +kernel)

set_option maxRecDepth 8192 in
theorem eq_main_call4_cst_1 (V : Valuation τ sig (Elt F)) :
    finV V (main_call4_cst_1 : DevRef τ sig) = (constant S_ .f32 0x47435000#32) :=
  win_nullary win4 68 (finV_split4 V) main_call4_cst_1 _ _ rfl (by decide +kernel)

set_option maxRecDepth 8192 in
theorem eq_main_call4_v8 (V : Valuation τ sig (Elt F)) :
    finV V (main_call4_v8 : DevRef τ sig) = (subf : (⟨S_, .f32⟩ : BufTy).Contents (Elt F) → (⟨S_, .f32⟩ : BufTy).Contents (Elt F) → (⟨S_, .f32⟩ : BufTy).Contents (Elt F)) (finV V (main_call4_cst_1 : DevRef τ sig)) (finV V (main_call4_v7 : DevRef τ sig)) :=
  win_binary win4 69 (finV_split4 V) main_call4_cst_1 main_call4_v7 main_call4_v8 _ _ _ _ rfl (by decide +kernel) (by decide +kernel) (by decide +kernel)

set_option maxRecDepth 8192 in
theorem eq_main_call4_cst_2 (V : Valuation τ sig (Elt F)) :
    finV V (main_call4_cst_2 : DevRef τ sig) = (constant S_ .f32 0x00000000#32) :=
  win_nullary win4 70 (finV_split4 V) main_call4_cst_2 _ _ rfl (by decide +kernel)

set_option maxRecDepth 8192 in
theorem eq_main_call4_v9 (V : Valuation τ sig (Elt F)) :
    finV V (main_call4_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_call4_v6 : DevRef τ sig)) (finV V (main_call4_cst_2 : DevRef τ sig)) :=
  win_binary win4 71 (finV_split4 V) main_call4_v6 main_call4_cst_2 main_call4_v9 _ _ _ _ rfl (by decide +kernel) (by decide +kernel) (by decide +kernel)

set_option maxRecDepth 8192 in
theorem eq_main_call4_v10 (V : Valuation τ sig (Elt F)) :
    finV V (main_call4_v10 : DevRef τ sig) = ((broadcastInDim S128 ![] bcast_S_S128) : (⟨S_, .f32⟩ : BufTy).Contents (Elt F) → (⟨S128, .f32⟩ : BufTy).Contents (Elt F)) (finV V (main_call4_v8 : DevRef τ sig)) :=
  win_unary win4 72 (finV_split4 V) main_call4_v8 main_call4_v10 _ _ _ rfl (by decide +kernel) (by decide +kernel)

set_option maxRecDepth 8192 in
theorem eq_main_call4_v11 (V : Valuation τ sig (Elt F)) :
    finV V (main_call4_v11 : DevRef τ sig) = (Host.divf : (⟨S128, .f32⟩ : BufTy).Contents (Elt F) → (⟨S128, .f32⟩ : BufTy).Contents (Elt F) → (⟨S128, .f32⟩ : BufTy).Contents (Elt F)) (finV V (main_call4_v9 : DevRef τ sig)) (finV V (main_call4_v10 : DevRef τ sig)) :=
  win_binary win4 73 (finV_split4 V) main_call4_v9 main_call4_v10 main_call4_v11 _ _ _ _ rfl (by decide +kernel) (by decide +kernel) (by decide +kernel)

set_option maxRecDepth 8192 in
theorem eq_main_call4_cst_3 (V : Valuation τ sig (Elt F)) :
    finV V (main_call4_cst_3 : DevRef τ sig) = (constant S_ .f32 0x00000000#32) :=
  win_nullary win4 74 (finV_split4 V) main_call4_cst_3 _ _ rfl (by decide +kernel)

set_option maxRecDepth 8192 in
theorem eq_main_call4_v12 (V : Valuation τ sig (Elt F)) :
    finV V (main_call4_v12 : DevRef τ sig) = ((cmpf .ogt) : (⟨S_, .f32⟩ : BufTy).Contents (Elt F) → (⟨S_, .f32⟩ : BufTy).Contents (Elt F) → (⟨S_, .i1⟩ : BufTy).Contents (Elt F)) (finV V (main_call4_v8 : DevRef τ sig)) (finV V (main_call4_cst_3 : DevRef τ sig)) :=
  win_binary win4 75 (finV_split4 V) main_call4_v8 main_call4_cst_3 main_call4_v12 _ _ _ _ rfl (by decide +kernel) (by decide +kernel) (by decide +kernel)

set_option maxRecDepth 8192 in
theorem eq_main_call4_cst_4 (V : Valuation τ sig (Elt F)) :
    finV V (main_call4_cst_4 : DevRef τ sig) = (constant S_ .f32 0x7FC00000#32) :=
  win_nullary win4 76 (finV_split4 V) main_call4_cst_4 _ _ rfl (by decide +kernel)

set_option maxRecDepth 8192 in
theorem eq_main_call4_call0_v0 (V : Valuation τ sig (Elt F)) :
    finV V (main_call4_call0_v0 : DevRef τ sig) = (id : (⟨S_, .f32⟩ : BufTy).Contents (Elt F) → (⟨S_, .f32⟩ : BufTy).Contents (Elt F)) (finV V (main_call4_cst_4 : DevRef τ sig)) :=
  win_unary win4 77 (finV_split4 V) main_call4_cst_4 main_call4_call0_v0 _ _ _ rfl (by decide +kernel) (by decide +kernel)

set_option maxRecDepth 8192 in
theorem eq_main_call4_call0_v1 (V : Valuation τ sig (Elt F)) :
    finV V (main_call4_call0_v1 : DevRef τ sig) = ((broadcastInDim S128 ![] bcast_S_S128) : (⟨S_, .f32⟩ : BufTy).Contents (Elt F) → (⟨S128, .f32⟩ : BufTy).Contents (Elt F)) (finV V (main_call4_call0_v0 : DevRef τ sig)) :=
  win_unary win4 78 (finV_split4 V) main_call4_call0_v0 main_call4_call0_v1 _ _ _ rfl (by decide +kernel) (by decide +kernel)

set_option maxHeartbeats 4000000 in
set_option maxRecDepth 8192 in
theorem eq_main_v256 (V : Valuation τ sig (Elt F)) :
    finV V (main_v256 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (finV V (main_call4_v12 : DevRef τ sig)) (finV V (main_call4_v11 : DevRef τ sig)) (finV V (main_call4_call0_v1 : DevRef τ sig)) :=
  win_ternary win4 79 (finV_split4 V) main_call4_v12 main_call4_v11 main_call4_call0_v1 main_v256 _ _ _ _ _ rfl (by decide +kernel) (by decide +kernel) (by decide +kernel) (by decide +kernel)

set_option maxRecDepth 8192 in
theorem eq_main_v257 (V : Valuation τ sig (Elt F)) :
    finV V (main_v257 : DevRef τ sig) = (broadcastInDim S1x128 ![1] bcast_S128_S1x128_1 : (⟨S128, .f32⟩ : BufTy).Contents (Elt F) → (⟨S1x128, .f32⟩ : BufTy).Contents (Elt F)) (finV V (main_v255 : DevRef τ sig)) :=
  win_unary win4 80 (finV_split4 V) main_v255 main_v257 _ _ _ rfl (by decide +kernel) (by decide +kernel)

/-! ## Window `main_part5` -/

set_option maxRecDepth 8192 in
theorem eq_main_v258 (V : Valuation τ sig (Elt F)) :
    finV V (main_v258 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v257 : DevRef τ sig)) :=
  win_unary win5 0 (finV_split5 V) main_v257 main_v258 _ _ _ rfl (by decide +kernel) (by decide +kernel)

set_option maxRecDepth 8192 in
theorem eq_main_v259 (V : Valuation τ sig (Elt F)) :
    finV V (main_v259 : DevRef τ sig) = (subf : (⟨S50000x128, .f32⟩ : BufTy).Contents (Elt F) → (⟨S50000x128, .f32⟩ : BufTy).Contents (Elt F) → (⟨S50000x128, .f32⟩ : BufTy).Contents (Elt F)) (finV V (main_v248 : DevRef τ sig)) (finV V (main_v258 : DevRef τ sig)) :=
  win_binary win5 1 (finV_split5 V) main_v248 main_v258 main_v259 _ _ _ _ rfl (by decide +kernel) (by decide +kernel) (by decide +kernel)

set_option maxRecDepth 8192 in
theorem eq_main_cst_40 (V : Valuation τ sig (Elt F)) :
    finV V (main_cst_40 : DevRef τ sig) = (constant S_ .f32 0x3727C5AC#32) :=
  win_nullary win5 2 (finV_split5 V) main_cst_40 _ _ rfl (by decide +kernel)

set_option maxRecDepth 8192 in
theorem eq_main_v260 (V : Valuation τ sig (Elt F)) :
    finV V (main_v260 : DevRef τ sig) = (broadcastInDim S128 ![] bcast_S_S128 : (⟨S_, .f32⟩ : BufTy).Contents (Elt F) → (⟨S128, .f32⟩ : BufTy).Contents (Elt F)) (finV V (main_cst_40 : DevRef τ sig)) :=
  win_unary win5 3 (finV_split5 V) main_cst_40 main_v260 _ _ _ rfl (by decide +kernel) (by decide +kernel)

set_option maxRecDepth 8192 in
theorem eq_main_v261 (V : Valuation τ sig (Elt F)) :
    finV V (main_v261 : DevRef τ sig) = (addf : (⟨S128, .f32⟩ : BufTy).Contents (Elt F) → (⟨S128, .f32⟩ : BufTy).Contents (Elt F) → (⟨S128, .f32⟩ : BufTy).Contents (Elt F)) (finV V (main_v256 : DevRef τ sig)) (finV V (main_v260 : DevRef τ sig)) :=
  win_binary win5 4 (finV_split5 V) main_v256 main_v260 main_v261 _ _ _ _ rfl (by decide +kernel) (by decide +kernel) (by decide +kernel)

set_option maxRecDepth 8192 in
theorem eq_main_v262 (V : Valuation τ sig (Elt F)) :
    finV V (main_v262 : DevRef τ sig) = (Host.rsqrt : (⟨S128, .f32⟩ : BufTy).Contents (Elt F) → (⟨S128, .f32⟩ : BufTy).Contents (Elt F)) (finV V (main_v261 : DevRef τ sig)) :=
  win_unary win5 5 (finV_split5 V) main_v261 main_v262 _ _ _ rfl (by decide +kernel) (by decide +kernel)

set_option maxRecDepth 8192 in
theorem eq_main_v263 (V : Valuation τ sig (Elt F)) :
    finV V (main_v263 : DevRef τ sig) = (broadcastInDim S1x128 ![1] bcast_S128_S1x128_1 : (⟨S128, .f32⟩ : BufTy).Contents (Elt F) → (⟨S1x128, .f32⟩ : BufTy).Contents (Elt F)) (finV V (main_v262 : DevRef τ sig)) :=
  win_unary win5 6 (finV_split5 V) main_v262 main_v263 _ _ _ rfl (by decide +kernel) (by decide +kernel)

set_option maxRecDepth 8192 in
theorem eq_main_v264 (V : Valuation τ sig (Elt F)) :
    finV V (main_v264 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v263 : DevRef τ sig)) :=
  win_unary win5 7 (finV_split5 V) main_v263 main_v264 _ _ _ rfl (by decide +kernel) (by decide +kernel)

set_option maxRecDepth 8192 in
theorem eq_main_v265 (V : Valuation τ sig (Elt F)) :
    finV V (main_v265 : DevRef τ sig) = (mulf : (⟨S50000x128, .f32⟩ : BufTy).Contents (Elt F) → (⟨S50000x128, .f32⟩ : BufTy).Contents (Elt F) → (⟨S50000x128, .f32⟩ : BufTy).Contents (Elt F)) (finV V (main_v259 : DevRef τ sig)) (finV V (main_v264 : DevRef τ sig)) :=
  win_binary win5 8 (finV_split5 V) main_v259 main_v264 main_v265 _ _ _ _ rfl (by decide +kernel) (by decide +kernel) (by decide +kernel)

set_option maxRecDepth 8192 in
theorem eq_main_v266 (V : Valuation τ sig (Elt F)) :
    finV V (main_v266 : DevRef τ sig) = (broadcastInDim S1x128 ![1] bcast_S128_S1x128_1 : (⟨S128, .f32⟩ : BufTy).Contents (Elt F) → (⟨S1x128, .f32⟩ : BufTy).Contents (Elt F)) (finV V (main_v250 : DevRef τ sig)) :=
  win_unary win5 9 (finV_split5 V) main_v250 main_v266 _ _ _ rfl (by decide +kernel) (by decide +kernel)

set_option maxRecDepth 8192 in
theorem eq_main_v267 (V : Valuation τ sig (Elt F)) :
    finV V (main_v267 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v266 : DevRef τ sig)) :=
  win_unary win5 10 (finV_split5 V) main_v266 main_v267 _ _ _ rfl (by decide +kernel) (by decide +kernel)

set_option maxRecDepth 8192 in
theorem eq_main_v268 (V : Valuation τ sig (Elt F)) :
    finV V (main_v268 : DevRef τ sig) = (mulf : (⟨S50000x128, .f32⟩ : BufTy).Contents (Elt F) → (⟨S50000x128, .f32⟩ : BufTy).Contents (Elt F) → (⟨S50000x128, .f32⟩ : BufTy).Contents (Elt F)) (finV V (main_v265 : DevRef τ sig)) (finV V (main_v267 : DevRef τ sig)) :=
  win_binary win5 11 (finV_split5 V) main_v265 main_v267 main_v268 _ _ _ _ rfl (by decide +kernel) (by decide +kernel) (by decide +kernel)

set_option maxRecDepth 8192 in
theorem eq_main_v269 (V : Valuation τ sig (Elt F)) :
    finV V (main_v269 : DevRef τ sig) = (broadcastInDim S1x128 ![1] bcast_S128_S1x128_1 : (⟨S128, .f32⟩ : BufTy).Contents (Elt F) → (⟨S1x128, .f32⟩ : BufTy).Contents (Elt F)) (finV V (main_v252 : DevRef τ sig)) :=
  win_unary win5 12 (finV_split5 V) main_v252 main_v269 _ _ _ rfl (by decide +kernel) (by decide +kernel)

set_option maxRecDepth 8192 in
theorem eq_main_v270 (V : Valuation τ sig (Elt F)) :
    finV V (main_v270 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v269 : DevRef τ sig)) :=
  win_unary win5 13 (finV_split5 V) main_v269 main_v270 _ _ _ rfl (by decide +kernel) (by decide +kernel)

set_option maxRecDepth 8192 in
theorem eq_main_v271 (V : Valuation τ sig (Elt F)) :
    finV V (main_v271 : DevRef τ sig) = (addf : (⟨S50000x128, .f32⟩ : BufTy).Contents (Elt F) → (⟨S50000x128, .f32⟩ : BufTy).Contents (Elt F) → (⟨S50000x128, .f32⟩ : BufTy).Contents (Elt F)) (finV V (main_v268 : DevRef τ sig)) (finV V (main_v270 : DevRef τ sig)) :=
  win_binary win5 14 (finV_split5 V) main_v268 main_v270 main_v271 _ _ _ _ rfl (by decide +kernel) (by decide +kernel) (by decide +kernel)

set_option maxRecDepth 8192 in
theorem eq_main_v272 (V : Valuation τ sig (Elt F)) :
    finV V (main_v272 : DevRef τ sig) = ((extractStridedSlice S1x128x128 ![5, 0, 0] · slices_S7x128x128_S1x128x128_5_0_0) : (⟨S7x128x128, .f32⟩ : BufTy).Contents (Elt F) → (⟨S1x128x128, .f32⟩ : BufTy).Contents (Elt F)) (finV V (main_arg3 : DevRef τ sig)) :=
  win_unary win5 15 (finV_split5 V) main_arg3 main_v272 _ _ _ rfl (by decide +kernel) (by decide +kernel)

set_option maxRecDepth 8192 in
theorem eq_main_v273 (V : Valuation τ sig (Elt F)) :
    finV V (main_v273 : DevRef τ sig) = shapeCast S128x128 (finV V (main_v272 : DevRef τ sig)) shapeCasts_S1x128x128_S128x128 :=
  win_reshape win5 16 (finV_split5 V) main_v272 main_v273 _ _ _ _ rfl (by decide +kernel) (by decide +kernel)

set_option maxRecDepth 8192 in
theorem eq_main_v274 (V : Valuation τ sig (Elt F)) :
    finV V (main_v274 : DevRef τ sig) = ((extractStridedSlice S1x128 ![5, 0] · slices_S7x128_S1x128_5_0) : (⟨S7x128, .f32⟩ : BufTy).Contents (Elt F) → (⟨S1x128, .f32⟩ : BufTy).Contents (Elt F)) (finV V (main_arg4 : DevRef τ sig)) :=
  win_unary win5 17 (finV_split5 V) main_arg4 main_v274 _ _ _ rfl (by decide +kernel) (by decide +kernel)

set_option maxRecDepth 8192 in
theorem eq_main_v275 (V : Valuation τ sig (Elt F)) :
    finV V (main_v275 : DevRef τ sig) = shapeCast S128 (finV V (main_v274 : DevRef τ sig)) shapeCasts_S1x128_S128 :=
  win_reshape win5 18 (finV_split5 V) main_v274 main_v275 _ _ _ _ rfl (by decide +kernel) (by decide +kernel)

set_option maxRecDepth 8192 in
theorem eq_main_v276 (V : Valuation τ sig (Elt F)) :
    finV V (main_v276 : DevRef τ sig) = ((extractStridedSlice S1x128x128 ![5, 0, 0] · slices_S7x128x128_S1x128x128_5_0_0) : (⟨S7x128x128, .f32⟩ : BufTy).Contents (Elt F) → (⟨S1x128x128, .f32⟩ : BufTy).Contents (Elt F)) (finV V (main_arg5 : DevRef τ sig)) :=
  win_unary win5 19 (finV_split5 V) main_arg5 main_v276 _ _ _ rfl (by decide +kernel) (by decide +kernel)

set_option maxRecDepth 8192 in
theorem eq_main_v277 (V : Valuation τ sig (Elt F)) :
    finV V (main_v277 : DevRef τ sig) = shapeCast S128x128 (finV V (main_v276 : DevRef τ sig)) shapeCasts_S1x128x128_S128x128 :=
  win_reshape win5 20 (finV_split5 V) main_v276 main_v277 _ _ _ _ rfl (by decide +kernel) (by decide +kernel)

set_option maxRecDepth 8192 in
theorem eq_main_v278 (V : Valuation τ sig (Elt F)) :
    finV V (main_v278 : DevRef τ sig) = ((extractStridedSlice S1x128 ![5, 0] · slices_S7x128_S1x128_5_0) : (⟨S7x128, .f32⟩ : BufTy).Contents (Elt F) → (⟨S1x128, .f32⟩ : BufTy).Contents (Elt F)) (finV V (main_arg6 : DevRef τ sig)) :=
  win_unary win5 21 (finV_split5 V) main_arg6 main_v278 _ _ _ rfl (by decide +kernel) (by decide +kernel)

set_option maxRecDepth 8192 in
theorem eq_main_v279 (V : Valuation τ sig (Elt F)) :
    finV V (main_v279 : DevRef τ sig) = shapeCast S128 (finV V (main_v278 : DevRef τ sig)) shapeCasts_S1x128_S128 :=
  win_reshape win5 22 (finV_split5 V) main_v278 main_v279 _ _ _ _ rfl (by decide +kernel) (by decide +kernel)

set_option maxRecDepth 8192 in
theorem eq_main_c_41 (V : Valuation τ sig (Elt F)) :
    finV V (main_c_41 : DevRef τ sig) = (constantI S_ 32 0#32) :=
  win_nullary win5 23 (finV_split5 V) main_c_41 _ _ rfl (by decide +kernel)

set_option maxRecDepth 8192 in
theorem eq_main_v280 (V : Valuation τ sig (Elt F)) :
    finV V (main_v280 : DevRef τ sig) = (broadcastInDim S600000 ![] bcast_S_S600000 : (⟨S_, .i32⟩ : BufTy).Contents (Elt F) → (⟨S600000, .i32⟩ : BufTy).Contents (Elt F)) (finV V (main_c_41 : DevRef τ sig)) :=
  win_unary win5 24 (finV_split5 V) main_c_41 main_v280 _ _ _ rfl (by decide +kernel) (by decide +kernel)

set_option maxRecDepth 8192 in
theorem eq_main_v281 (V : Valuation τ sig (Elt F)) :
    finV V (main_v281 : DevRef τ sig) = (cmpi .slt : (⟨S600000, .i32⟩ : BufTy).Contents (Elt F) → (⟨S600000, .i32⟩ : BufTy).Contents (Elt F) → (⟨S600000, .i1⟩ : BufTy).Contents (Elt F)) (finV V (main_v1 : DevRef τ sig)) (finV V (main_v280 : DevRef τ sig)) :=
  win_binary win5 25 (finV_split5 V) main_v1 main_v280 main_v281 _ _ _ _ rfl (by decide +kernel) (by decide +kernel) (by decide +kernel)

set_option maxRecDepth 8192 in
theorem eq_main_c_42 (V : Valuation τ sig (Elt F)) :
    finV V (main_c_42 : DevRef τ sig) = (constantI S_ 32 50000#32) :=
  win_nullary win5 26 (finV_split5 V) main_c_42 _ _ rfl (by decide +kernel)

set_option maxRecDepth 8192 in
theorem eq_main_v282 (V : Valuation τ sig (Elt F)) :
    finV V (main_v282 : DevRef τ sig) = (broadcastInDim S600000 ![] bcast_S_S600000 : (⟨S_, .i32⟩ : BufTy).Contents (Elt F) → (⟨S600000, .i32⟩ : BufTy).Contents (Elt F)) (finV V (main_c_42 : DevRef τ sig)) :=
  win_unary win5 27 (finV_split5 V) main_c_42 main_v282 _ _ _ rfl (by decide +kernel) (by decide +kernel)

set_option maxRecDepth 8192 in
theorem eq_main_v283 (V : Valuation τ sig (Elt F)) :
    finV V (main_v283 : DevRef τ sig) = (addi : (⟨S600000, .i32⟩ : BufTy).Contents (Elt F) → (⟨S600000, .i32⟩ : BufTy).Contents (Elt F) → (⟨S600000, .i32⟩ : BufTy).Contents (Elt F)) (finV V (main_v1 : DevRef τ sig)) (finV V (main_v282 : DevRef τ sig)) :=
  win_binary win5 28 (finV_split5 V) main_v1 main_v282 main_v283 _ _ _ _ rfl (by decide +kernel) (by decide +kernel) (by decide +kernel)

set_option maxRecDepth 8192 in
theorem eq_main_v284 (V : Valuation τ sig (Elt F)) :
    finV V (main_v284 : DevRef τ sig) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (finV V (main_v281 : DevRef τ sig)) (finV V (main_v283 : DevRef τ sig)) (finV V (main_v1 : DevRef τ sig)) :=
  win_ternary win5 29 (finV_split5 V) main_v281 main_v283 main_v1 main_v284 _ _ _ _ _ rfl (by decide +kernel) (by decide +kernel) (by decide +kernel) (by decide +kernel)

set_option maxRecDepth 8192 in
theorem eq_main_v285 (V : Valuation τ sig (Elt F)) :
    finV V (main_v285 : DevRef τ sig) = (broadcastInDim S600000x1 ![0] bcast_S600000_S600000x1_0 : (⟨S600000, .i32⟩ : BufTy).Contents (Elt F) → (⟨S600000x1, .i32⟩ : BufTy).Contents (Elt F)) (finV V (main_v284 : DevRef τ sig)) :=
  win_unary win5 30 (finV_split5 V) main_v284 main_v285 _ _ _ rfl (by decide +kernel) (by decide +kernel)

set_option maxRecDepth 8192 in
theorem eq_main_v286 (V : Valuation τ sig (Elt F)) :
    finV V (main_v286 : DevRef τ sig) = ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) (finV V (main_v165 : DevRef τ sig)) (finV V (main_v285 : DevRef τ sig)) :=
  win_binary win5 31 (finV_split5 V) main_v165 main_v285 main_v286 _ _ _ _ rfl (by decide +kernel) (by decide +kernel) (by decide +kernel)

set_option maxRecDepth 8192 in
theorem eq_main_cst_43 (V : Valuation τ sig (Elt F)) :
    finV V (main_cst_43 : DevRef τ sig) = (constant S_ .f32 0x00000000#32) :=
  win_nullary win5 32 (finV_split5 V) main_cst_43 _ _ rfl (by decide +kernel)

set_option maxRecDepth 8192 in
theorem eq_main_v287 (V : Valuation τ sig (Elt F)) :
    finV V (main_v287 : DevRef τ sig) = (broadcastInDim S50000x128 ![] bcast_S_S50000x128 : (⟨S_, .f32⟩ : BufTy).Contents (Elt F) → (⟨S50000x128, .f32⟩ : BufTy).Contents (Elt F)) (finV V (main_cst_43 : DevRef τ sig)) :=
  win_unary win5 33 (finV_split5 V) main_cst_43 main_v287 _ _ _ rfl (by decide +kernel) (by decide +kernel)

set_option maxRecDepth 8192 in
theorem eq_main_v288 (V : Valuation τ sig (Elt F)) :
    finV V (main_v288 : DevRef τ sig) = (broadcastInDim S600000x1 ![0] bcast_S600000_S600000x1_0 : (⟨S600000, .i32⟩ : BufTy).Contents (Elt F) → (⟨S600000x1, .i32⟩ : BufTy).Contents (Elt F)) (finV V (main_v3 : DevRef τ sig)) :=
  win_unary win5 34 (finV_split5 V) main_v3 main_v288 _ _ _ rfl (by decide +kernel) (by decide +kernel)

set_option maxRecDepth 8192 in
theorem eq_main_v289 (V : Valuation τ sig (Elt F)) :
    finV V (main_v289 : DevRef τ sig) = ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) (finV V (main_v287 : DevRef τ sig)) (finV V (main_v288 : DevRef τ sig)) (finV V (main_v286 : DevRef τ sig)) :=
  win_ternary win5 35 (finV_split5 V) main_v287 main_v288 main_v286 main_v289 _ _ _ _ _ rfl (by decide +kernel) (by decide +kernel) (by decide +kernel) (by decide +kernel)

set_option maxRecDepth 8192 in
theorem eq_main_v290 (V : Valuation τ sig (Elt F)) :
    finV V (main_v290 : DevRef τ sig) = (addf : (⟨S50000x128, .f32⟩ : BufTy).Contents (Elt F) → (⟨S50000x128, .f32⟩ : BufTy).Contents (Elt F) → (⟨S50000x128, .f32⟩ : BufTy).Contents (Elt F)) (finV V (main_v165 : DevRef τ sig)) (finV V (main_v289 : DevRef τ sig)) :=
  win_binary win5 36 (finV_split5 V) main_v165 main_v289 main_v290 _ _ _ _ rfl (by decide +kernel) (by decide +kernel) (by decide +kernel)

set_option maxRecDepth 8192 in
theorem eq_main_v291 (V : Valuation τ sig (Elt F)) :
    finV V (main_v291 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v290 : DevRef τ sig)) (finV V (main_v273 : DevRef τ sig)) :=
  win_binary win5 37 (finV_split5 V) main_v290 main_v273 main_v291 _ _ _ _ rfl (by decide +kernel) (by decide +kernel) (by decide +kernel)

set_option maxRecDepth 8192 in
theorem eq_main_v292 (V : Valuation τ sig (Elt F)) :
    finV V (main_v292 : DevRef τ sig) = (broadcastInDim S1x128 ![1] bcast_S128_S1x128_1 : (⟨S128, .f32⟩ : BufTy).Contents (Elt F) → (⟨S1x128, .f32⟩ : BufTy).Contents (Elt F)) (finV V (main_v275 : DevRef τ sig)) :=
  win_unary win5 38 (finV_split5 V) main_v275 main_v292 _ _ _ rfl (by decide +kernel) (by decide +kernel)

set_option maxRecDepth 8192 in
theorem eq_main_v293 (V : Valuation τ sig (Elt F)) :
    finV V (main_v293 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v292 : DevRef τ sig)) :=
  win_unary win5 39 (finV_split5 V) main_v292 main_v293 _ _ _ rfl (by decide +kernel) (by decide +kernel)

set_option maxRecDepth 8192 in
theorem eq_main_v294 (V : Valuation τ sig (Elt F)) :
    finV V (main_v294 : DevRef τ sig) = (addf : (⟨S50000x128, .f32⟩ : BufTy).Contents (Elt F) → (⟨S50000x128, .f32⟩ : BufTy).Contents (Elt F) → (⟨S50000x128, .f32⟩ : BufTy).Contents (Elt F)) (finV V (main_v291 : DevRef τ sig)) (finV V (main_v293 : DevRef τ sig)) :=
  win_binary win5 40 (finV_split5 V) main_v291 main_v293 main_v294 _ _ _ _ rfl (by decide +kernel) (by decide +kernel) (by decide +kernel)

set_option maxRecDepth 8192 in
theorem eq_main_cst_44 (V : Valuation τ sig (Elt F)) :
    finV V (main_cst_44 : DevRef τ sig) = (constant S_ .f32 0x00000000#32) :=
  win_nullary win5 41 (finV_split5 V) main_cst_44 _ _ rfl (by decide +kernel)

set_option maxRecDepth 8192 in
theorem eq_main_v295 (V : Valuation τ sig (Elt F)) :
    finV V (main_v295 : DevRef τ sig) = (broadcastInDim S50000x128 ![] bcast_S_S50000x128 : (⟨S_, .f32⟩ : BufTy).Contents (Elt F) → (⟨S50000x128, .f32⟩ : BufTy).Contents (Elt F)) (finV V (main_cst_44 : DevRef τ sig)) :=
  win_unary win5 42 (finV_split5 V) main_cst_44 main_v295 _ _ _ rfl (by decide +kernel) (by decide +kernel)

set_option maxRecDepth 8192 in
theorem eq_main_v296 (V : Valuation τ sig (Elt F)) :
    finV V (main_v296 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v294 : DevRef τ sig)) (finV V (main_v295 : DevRef τ sig)) :=
  win_binary win5 43 (finV_split5 V) main_v294 main_v295 main_v296 _ _ _ _ rfl (by decide +kernel) (by decide +kernel) (by decide +kernel)

set_option maxRecDepth 8192 in
theorem eq_main_v297 (V : Valuation τ sig (Elt F)) :
    finV V (main_v297 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v296 : DevRef τ sig)) (finV V (main_v277 : DevRef τ sig)) :=
  win_binary win5 44 (finV_split5 V) main_v296 main_v277 main_v297 _ _ _ _ rfl (by decide +kernel) (by decide +kernel) (by decide +kernel)

set_option maxRecDepth 8192 in
theorem eq_main_v298 (V : Valuation τ sig (Elt F)) :
    finV V (main_v298 : DevRef τ sig) = (broadcastInDim S1x128 ![1] bcast_S128_S1x128_1 : (⟨S128, .f32⟩ : BufTy).Contents (Elt F) → (⟨S1x128, .f32⟩ : BufTy).Contents (Elt F)) (finV V (main_v279 : DevRef τ sig)) :=
  win_unary win5 45 (finV_split5 V) main_v279 main_v298 _ _ _ rfl (by decide +kernel) (by decide +kernel)

set_option maxRecDepth 8192 in
theorem eq_main_v299 (V : Valuation τ sig (Elt F)) :
    finV V (main_v299 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v298 : DevRef τ sig)) :=
  win_unary win5 46 (finV_split5 V) main_v298 main_v299 _ _ _ rfl (by decide +kernel) (by decide +kernel)

set_option maxRecDepth 8192 in
theorem eq_main_v300 (V : Valuation τ sig (Elt F)) :
    finV V (main_v300 : DevRef τ sig) = (addf : (⟨S50000x128, .f32⟩ : BufTy).Contents (Elt F) → (⟨S50000x128, .f32⟩ : BufTy).Contents (Elt F) → (⟨S50000x128, .f32⟩ : BufTy).Contents (Elt F)) (finV V (main_v297 : DevRef τ sig)) (finV V (main_v299 : DevRef τ sig)) :=
  win_binary win5 47 (finV_split5 V) main_v297 main_v299 main_v300 _ _ _ _ rfl (by decide +kernel) (by decide +kernel) (by decide +kernel)

set_option maxRecDepth 8192 in
theorem eq_main_v301 (V : Valuation τ sig (Elt F)) :
    finV V (main_v301 : DevRef τ sig) = (Host.tanh : (⟨S50000x128, .f32⟩ : BufTy).Contents (Elt F) → (⟨S50000x128, .f32⟩ : BufTy).Contents (Elt F)) (finV V (main_v300 : DevRef τ sig)) :=
  win_unary win5 48 (finV_split5 V) main_v300 main_v301 _ _ _ rfl (by decide +kernel) (by decide +kernel)

set_option maxRecDepth 8192 in
theorem eq_main_v302 (V : Valuation τ sig (Elt F)) :
    finV V (main_v302 : DevRef τ sig) = ((extractStridedSlice S1x128 ![5, 0] · slices_S7x128_S1x128_5_0) : (⟨S7x128, .f32⟩ : BufTy).Contents (Elt F) → (⟨S1x128, .f32⟩ : BufTy).Contents (Elt F)) (finV V (main_arg7 : DevRef τ sig)) :=
  win_unary win5 49 (finV_split5 V) main_arg7 main_v302 _ _ _ rfl (by decide +kernel) (by decide +kernel)

set_option maxRecDepth 8192 in
theorem eq_main_v303 (V : Valuation τ sig (Elt F)) :
    finV V (main_v303 : DevRef τ sig) = shapeCast S128 (finV V (main_v302 : DevRef τ sig)) shapeCasts_S1x128_S128 :=
  win_reshape win5 50 (finV_split5 V) main_v302 main_v303 _ _ _ _ rfl (by decide +kernel) (by decide +kernel)

set_option maxRecDepth 8192 in
theorem eq_main_v304 (V : Valuation τ sig (Elt F)) :
    finV V (main_v304 : DevRef τ sig) = ((extractStridedSlice S1x128 ![5, 0] · slices_S7x128_S1x128_5_0) : (⟨S7x128, .f32⟩ : BufTy).Contents (Elt F) → (⟨S1x128, .f32⟩ : BufTy).Contents (Elt F)) (finV V (main_arg8 : DevRef τ sig)) :=
  win_unary win5 51 (finV_split5 V) main_arg8 main_v304 _ _ _ rfl (by decide +kernel) (by decide +kernel)

set_option maxRecDepth 8192 in
theorem eq_main_v305 (V : Valuation τ sig (Elt F)) :
    finV V (main_v305 : DevRef τ sig) = shapeCast S128 (finV V (main_v304 : DevRef τ sig)) shapeCasts_S1x128_S128 :=
  win_reshape win5 52 (finV_split5 V) main_v304 main_v305 _ _ _ _ rfl (by decide +kernel) (by decide +kernel)

set_option maxRecDepth 8192 in
theorem eq_main_cst_45 (V : Valuation τ sig (Elt F)) :
    finV V (main_cst_45 : DevRef τ sig) = (constant S_ .f32 0x00000000#32) :=
  win_nullary win5 53 (finV_split5 V) main_cst_45 _ _ rfl (by decide +kernel)

set_option maxRecDepth 8192 in
theorem eq_main_v306 (V : Valuation τ sig (Elt F)) :
    finV V (main_v306 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v301 : DevRef τ sig)) (finV V (main_cst_45 : DevRef τ sig)) :=
  win_binary win5 54 (finV_split5 V) main_v301 main_cst_45 main_v306 _ _ _ _ rfl (by decide +kernel) (by decide +kernel) (by decide +kernel)

set_option maxRecDepth 8192 in
theorem eq_main_cst_46 (V : Valuation τ sig (Elt F)) :
    finV V (main_cst_46 : DevRef τ sig) = (constant S_ .f32 0x47435000#32) :=
  win_nullary win5 55 (finV_split5 V) main_cst_46 _ _ rfl (by decide +kernel)

set_option maxRecDepth 8192 in
theorem eq_main_v307 (V : Valuation τ sig (Elt F)) :
    finV V (main_v307 : DevRef τ sig) = (broadcastInDim S128 ![] bcast_S_S128 : (⟨S_, .f32⟩ : BufTy).Contents (Elt F) → (⟨S128, .f32⟩ : BufTy).Contents (Elt F)) (finV V (main_cst_46 : DevRef τ sig)) :=
  win_unary win5 56 (finV_split5 V) main_cst_46 main_v307 _ _ _ rfl (by decide +kernel) (by decide +kernel)

set_option maxRecDepth 8192 in
theorem eq_main_v308 (V : Valuation τ sig (Elt F)) :
    finV V (main_v308 : DevRef τ sig) = (Host.divf : (⟨S128, .f32⟩ : BufTy).Contents (Elt F) → (⟨S128, .f32⟩ : BufTy).Contents (Elt F) → (⟨S128, .f32⟩ : BufTy).Contents (Elt F)) (finV V (main_v306 : DevRef τ sig)) (finV V (main_v307 : DevRef τ sig)) :=
  win_binary win5 57 (finV_split5 V) main_v306 main_v307 main_v308 _ _ _ _ rfl (by decide +kernel) (by decide +kernel) (by decide +kernel)

set_option maxRecDepth 8192 in
theorem eq_main_c_47 (V : Valuation τ sig (Elt F)) :
    finV V (main_c_47 : DevRef τ sig) = (constantI S_ 32 0#32) :=
  win_nullary win5 58 (finV_split5 V) main_c_47 _ _ rfl (by decide +kernel)

set_option maxRecDepth 8192 in
theorem eq_main_call5_cst (V : Valuation τ sig (Elt F)) :
    finV V (main_call5_cst : DevRef τ sig) = (constant S_ .f32 0x00000000#32) :=
  win_nullary win5 59 (finV_split5 V) main_call5_cst _ _ rfl (by decide +kernel)

set_option maxRecDepth 8192 in
theorem eq_main_call5_v0 (V : Valuation τ sig (Elt F)) :
    finV V (main_call5_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v301 : DevRef τ sig)) (finV V (main_call5_cst : DevRef τ sig)) :=
  win_binary win5 60 (finV_split5 V) main_v301 main_call5_cst main_call5_v0 _ _ _ _ rfl (by decide +kernel) (by decide +kernel) (by decide +kernel)

set_option maxRecDepth 8192 in
theorem eq_main_call5_v1 (V : Valuation τ sig (Elt F)) :
    finV V (main_call5_v1 : DevRef τ sig) = ((broadcastInDim S1x128 ![1] bcast_S128_S1x128_1) : (⟨S128, .f32⟩ : BufTy).Contents (Elt F) → (⟨S1x128, .f32⟩ : BufTy).Contents (Elt F)) (finV V (main_call5_v0 : DevRef τ sig)) :=
  win_unary win5 61 (finV_split5 V) main_call5_v0 main_call5_v1 _ _ _ rfl (by decide +kernel) (by decide +kernel)

set_option maxRecDepth 8192 in
theorem eq_main_call5_cst_0 (V : Valuation τ sig (Elt F)) :
    finV V (main_call5_cst_0 : DevRef τ sig) = (constant S_ .f32 0x47435000#32) :=
  win_nullary win5 62 (finV_split5 V) main_call5_cst_0 _ _ rfl (by decide +kernel)

set_option maxRecDepth 8192 in
theorem eq_main_call5_v2 (V : Valuation τ sig (Elt F)) :
    finV V (main_call5_v2 : DevRef τ sig) = ((broadcastInDim S1x128 ![] bcast_S_S1x128) : (⟨S_, .f32⟩ : BufTy).Contents (Elt F) → (⟨S1x128, .f32⟩ : BufTy).Contents (Elt F)) (finV V (main_call5_cst_0 : DevRef τ sig)) :=
  win_unary win5 63 (finV_split5 V) main_call5_cst_0 main_call5_v2 _ _ _ rfl (by decide +kernel) (by decide +kernel)

set_option maxRecDepth 8192 in
theorem eq_main_call5_v3 (V : Valuation τ sig (Elt F)) :
    finV V (main_call5_v3 : DevRef τ sig) = (Host.divf : (⟨S1x128, .f32⟩ : BufTy).Contents (Elt F) → (⟨S1x128, .f32⟩ : BufTy).Contents (Elt F) → (⟨S1x128, .f32⟩ : BufTy).Contents (Elt F)) (finV V (main_call5_v1 : DevRef τ sig)) (finV V (main_call5_v2 : DevRef τ sig)) :=
  win_binary win5 64 (finV_split5 V) main_call5_v1 main_call5_v2 main_call5_v3 _ _ _ _ rfl (by decide +kernel) (by decide +kernel) (by decide +kernel)

set_option maxRecDepth 8192 in
theorem eq_main_call5_v4 (V : Valuation τ sig (Elt F)) :
    finV V (main_call5_v4 : DevRef τ sig) = ((broadcastInDim S50000x128 ![0, 1] bcast_S1x128_S50000x128_0_1) : (⟨S1x128, .f32⟩ : BufTy).Contents (Elt F) → (⟨S50000x128, .f32⟩ : BufTy).Contents (Elt F)) (finV V (main_call5_v3 : DevRef τ sig)) :=
  win_unary win5 65 (finV_split5 V) main_call5_v3 main_call5_v4 _ _ _ rfl (by decide +kernel) (by decide +kernel)

set_option maxRecDepth 8192 in
theorem eq_main_call5_v5 (V : Valuation τ sig (Elt F)) :
    finV V (main_call5_v5 : DevRef τ sig) = (subf : (⟨S50000x128, .f32⟩ : BufTy).Contents (Elt F) → (⟨S50000x128, .f32⟩ : BufTy).Contents (Elt F) → (⟨S50000x128, .f32⟩ : BufTy).Contents (Elt F)) (finV V (main_v301 : DevRef τ sig)) (finV V (main_call5_v4 : DevRef τ sig)) :=
  win_binary win5 66 (finV_split5 V) main_v301 main_call5_v4 main_call5_v5 _ _ _ _ rfl (by decide +kernel) (by decide +kernel) (by decide +kernel)

set_option maxRecDepth 8192 in
theorem eq_main_call5_v6 (V : Valuation τ sig (Elt F)) :
    finV V (main_call5_v6 : DevRef τ sig) = (mulf : (⟨S50000x128, .f32⟩ : BufTy).Contents (Elt F) → (⟨S50000x128, .f32⟩ : BufTy).Contents (Elt F) → (⟨S50000x128, .f32⟩ : BufTy).Contents (Elt F)) (finV V (main_call5_v5 : DevRef τ sig)) (finV V (main_call5_v5 : DevRef τ sig)) :=
  win_binary win5 67 (finV_split5 V) main_call5_v5 main_call5_v5 main_call5_v6 _ _ _ _ rfl (by decide +kernel) (by decide +kernel) (by decide +kernel)

set_option maxRecDepth 8192 in
theorem eq_main_call5_v7 (V : Valuation τ sig (Elt F)) :
    finV V (main_call5_v7 : DevRef τ sig) = ((sitofp .f32) : (⟨S_, .i32⟩ : BufTy).Contents (Elt F) → (⟨S_, .f32⟩ : BufTy).Contents (Elt F)) (finV V (main_c_47 : DevRef τ sig)) :=
  win_unary win5 68 (finV_split5 V) main_c_47 main_call5_v7 _ _ _ rfl (by decide +kernel) (by decide +kernel)

set_option maxRecDepth 8192 in
theorem eq_main_call5_cst_1 (V : Valuation τ sig (Elt F)) :
    finV V (main_call5_cst_1 : DevRef τ sig) = (constant S_ .f32 0x47435000#32) :=
  win_nullary win5 69 (finV_split5 V) main_call5_cst_1 _ _ rfl (by decide +kernel)

set_option maxRecDepth 8192 in
theorem eq_main_call5_v8 (V : Valuation τ sig (Elt F)) :
    finV V (main_call5_v8 : DevRef τ sig) = (subf : (⟨S_, .f32⟩ : BufTy).Contents (Elt F) → (⟨S_, .f32⟩ : BufTy).Contents (Elt F) → (⟨S_, .f32⟩ : BufTy).Contents (Elt F)) (finV V (main_call5_cst_1 : DevRef τ sig)) (finV V (main_call5_v7 : DevRef τ sig)) :=
  win_binary win5 70 (finV_split5 V) main_call5_cst_1 main_call5_v7 main_call5_v8 _ _ _ _ rfl (by decide +kernel) (by decide +kernel) (by decide +kernel)

set_option maxRecDepth 8192 in
theorem eq_main_call5_cst_2 (V : Valuation τ sig (Elt F)) :
    finV V (main_call5_cst_2 : DevRef τ sig) = (constant S_ .f32 0x00000000#32) :=
  win_nullary win5 71 (finV_split5 V) main_call5_cst_2 _ _ rfl (by decide +kernel)

set_option maxRecDepth 8192 in
theorem eq_main_call5_v9 (V : Valuation τ sig (Elt F)) :
    finV V (main_call5_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_call5_v6 : DevRef τ sig)) (finV V (main_call5_cst_2 : DevRef τ sig)) :=
  win_binary win5 72 (finV_split5 V) main_call5_v6 main_call5_cst_2 main_call5_v9 _ _ _ _ rfl (by decide +kernel) (by decide +kernel) (by decide +kernel)

set_option maxRecDepth 8192 in
theorem eq_main_call5_v10 (V : Valuation τ sig (Elt F)) :
    finV V (main_call5_v10 : DevRef τ sig) = ((broadcastInDim S128 ![] bcast_S_S128) : (⟨S_, .f32⟩ : BufTy).Contents (Elt F) → (⟨S128, .f32⟩ : BufTy).Contents (Elt F)) (finV V (main_call5_v8 : DevRef τ sig)) :=
  win_unary win5 73 (finV_split5 V) main_call5_v8 main_call5_v10 _ _ _ rfl (by decide +kernel) (by decide +kernel)

set_option maxRecDepth 8192 in
theorem eq_main_call5_v11 (V : Valuation τ sig (Elt F)) :
    finV V (main_call5_v11 : DevRef τ sig) = (Host.divf : (⟨S128, .f32⟩ : BufTy).Contents (Elt F) → (⟨S128, .f32⟩ : BufTy).Contents (Elt F) → (⟨S128, .f32⟩ : BufTy).Contents (Elt F)) (finV V (main_call5_v9 : DevRef τ sig)) (finV V (main_call5_v10 : DevRef τ sig)) :=
  win_binary win5 74 (finV_split5 V) main_call5_v9 main_call5_v10 main_call5_v11 _ _ _ _ rfl (by decide +kernel) (by decide +kernel) (by decide +kernel)

set_option maxRecDepth 8192 in
theorem eq_main_call5_cst_3 (V : Valuation τ sig (Elt F)) :
    finV V (main_call5_cst_3 : DevRef τ sig) = (constant S_ .f32 0x00000000#32) :=
  win_nullary win5 75 (finV_split5 V) main_call5_cst_3 _ _ rfl (by decide +kernel)

set_option maxRecDepth 8192 in
theorem eq_main_call5_v12 (V : Valuation τ sig (Elt F)) :
    finV V (main_call5_v12 : DevRef τ sig) = ((cmpf .ogt) : (⟨S_, .f32⟩ : BufTy).Contents (Elt F) → (⟨S_, .f32⟩ : BufTy).Contents (Elt F) → (⟨S_, .i1⟩ : BufTy).Contents (Elt F)) (finV V (main_call5_v8 : DevRef τ sig)) (finV V (main_call5_cst_3 : DevRef τ sig)) :=
  win_binary win5 76 (finV_split5 V) main_call5_v8 main_call5_cst_3 main_call5_v12 _ _ _ _ rfl (by decide +kernel) (by decide +kernel) (by decide +kernel)

set_option maxRecDepth 8192 in
theorem eq_main_call5_cst_4 (V : Valuation τ sig (Elt F)) :
    finV V (main_call5_cst_4 : DevRef τ sig) = (constant S_ .f32 0x7FC00000#32) :=
  win_nullary win5 77 (finV_split5 V) main_call5_cst_4 _ _ rfl (by decide +kernel)

set_option maxRecDepth 8192 in
theorem eq_main_call5_call0_v0 (V : Valuation τ sig (Elt F)) :
    finV V (main_call5_call0_v0 : DevRef τ sig) = (id : (⟨S_, .f32⟩ : BufTy).Contents (Elt F) → (⟨S_, .f32⟩ : BufTy).Contents (Elt F)) (finV V (main_call5_cst_4 : DevRef τ sig)) :=
  win_unary win5 78 (finV_split5 V) main_call5_cst_4 main_call5_call0_v0 _ _ _ rfl (by decide +kernel) (by decide +kernel)

set_option maxRecDepth 8192 in
theorem eq_main_call5_call0_v1 (V : Valuation τ sig (Elt F)) :
    finV V (main_call5_call0_v1 : DevRef τ sig) = ((broadcastInDim S128 ![] bcast_S_S128) : (⟨S_, .f32⟩ : BufTy).Contents (Elt F) → (⟨S128, .f32⟩ : BufTy).Contents (Elt F)) (finV V (main_call5_call0_v0 : DevRef τ sig)) :=
  win_unary win5 79 (finV_split5 V) main_call5_call0_v0 main_call5_call0_v1 _ _ _ rfl (by decide +kernel) (by decide +kernel)

set_option maxHeartbeats 4000000 in
set_option maxRecDepth 8192 in
theorem eq_main_v309 (V : Valuation τ sig (Elt F)) :
    finV V (main_v309 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (finV V (main_call5_v12 : DevRef τ sig)) (finV V (main_call5_v11 : DevRef τ sig)) (finV V (main_call5_call0_v1 : DevRef τ sig)) :=
  win_ternary win5 80 (finV_split5 V) main_call5_v12 main_call5_v11 main_call5_call0_v1 main_v309 _ _ _ _ _ rfl (by decide +kernel) (by decide +kernel) (by decide +kernel) (by decide +kernel)

/-! ## Window `main_part6` -/

set_option maxRecDepth 8192 in
theorem eq_main_v310 (V : Valuation τ sig (Elt F)) :
    finV V (main_v310 : DevRef τ sig) = (broadcastInDim S1x128 ![1] bcast_S128_S1x128_1 : (⟨S128, .f32⟩ : BufTy).Contents (Elt F) → (⟨S1x128, .f32⟩ : BufTy).Contents (Elt F)) (finV V (main_v308 : DevRef τ sig)) :=
  win_unary win6 0 (finV_split6 V) main_v308 main_v310 _ _ _ rfl (by decide +kernel) (by decide +kernel)

set_option maxRecDepth 8192 in
theorem eq_main_v311 (V : Valuation τ sig (Elt F)) :
    finV V (main_v311 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v310 : DevRef τ sig)) :=
  win_unary win6 1 (finV_split6 V) main_v310 main_v311 _ _ _ rfl (by decide +kernel) (by decide +kernel)

set_option maxRecDepth 8192 in
theorem eq_main_v312 (V : Valuation τ sig (Elt F)) :
    finV V (main_v312 : DevRef τ sig) = (subf : (⟨S50000x128, .f32⟩ : BufTy).Contents (Elt F) → (⟨S50000x128, .f32⟩ : BufTy).Contents (Elt F) → (⟨S50000x128, .f32⟩ : BufTy).Contents (Elt F)) (finV V (main_v301 : DevRef τ sig)) (finV V (main_v311 : DevRef τ sig)) :=
  win_binary win6 2 (finV_split6 V) main_v301 main_v311 main_v312 _ _ _ _ rfl (by decide +kernel) (by decide +kernel) (by decide +kernel)

set_option maxRecDepth 8192 in
theorem eq_main_cst_48 (V : Valuation τ sig (Elt F)) :
    finV V (main_cst_48 : DevRef τ sig) = (constant S_ .f32 0x3727C5AC#32) :=
  win_nullary win6 3 (finV_split6 V) main_cst_48 _ _ rfl (by decide +kernel)

set_option maxRecDepth 8192 in
theorem eq_main_v313 (V : Valuation τ sig (Elt F)) :
    finV V (main_v313 : DevRef τ sig) = (broadcastInDim S128 ![] bcast_S_S128 : (⟨S_, .f32⟩ : BufTy).Contents (Elt F) → (⟨S128, .f32⟩ : BufTy).Contents (Elt F)) (finV V (main_cst_48 : DevRef τ sig)) :=
  win_unary win6 4 (finV_split6 V) main_cst_48 main_v313 _ _ _ rfl (by decide +kernel) (by decide +kernel)

set_option maxRecDepth 8192 in
theorem eq_main_v314 (V : Valuation τ sig (Elt F)) :
    finV V (main_v314 : DevRef τ sig) = (addf : (⟨S128, .f32⟩ : BufTy).Contents (Elt F) → (⟨S128, .f32⟩ : BufTy).Contents (Elt F) → (⟨S128, .f32⟩ : BufTy).Contents (Elt F)) (finV V (main_v309 : DevRef τ sig)) (finV V (main_v313 : DevRef τ sig)) :=
  win_binary win6 5 (finV_split6 V) main_v309 main_v313 main_v314 _ _ _ _ rfl (by decide +kernel) (by decide +kernel) (by decide +kernel)

set_option maxRecDepth 8192 in
theorem eq_main_v315 (V : Valuation τ sig (Elt F)) :
    finV V (main_v315 : DevRef τ sig) = (Host.rsqrt : (⟨S128, .f32⟩ : BufTy).Contents (Elt F) → (⟨S128, .f32⟩ : BufTy).Contents (Elt F)) (finV V (main_v314 : DevRef τ sig)) :=
  win_unary win6 6 (finV_split6 V) main_v314 main_v315 _ _ _ rfl (by decide +kernel) (by decide +kernel)

set_option maxRecDepth 8192 in
theorem eq_main_v316 (V : Valuation τ sig (Elt F)) :
    finV V (main_v316 : DevRef τ sig) = (broadcastInDim S1x128 ![1] bcast_S128_S1x128_1 : (⟨S128, .f32⟩ : BufTy).Contents (Elt F) → (⟨S1x128, .f32⟩ : BufTy).Contents (Elt F)) (finV V (main_v315 : DevRef τ sig)) :=
  win_unary win6 7 (finV_split6 V) main_v315 main_v316 _ _ _ rfl (by decide +kernel) (by decide +kernel)

set_option maxRecDepth 8192 in
theorem eq_main_v317 (V : Valuation τ sig (Elt F)) :
    finV V (main_v317 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v316 : DevRef τ sig)) :=
  win_unary win6 8 (finV_split6 V) main_v316 main_v317 _ _ _ rfl (by decide +kernel) (by decide +kernel)

set_option maxRecDepth 8192 in
theorem eq_main_v318 (V : Valuation τ sig (Elt F)) :
    finV V (main_v318 : DevRef τ sig) = (mulf : (⟨S50000x128, .f32⟩ : BufTy).Contents (Elt F) → (⟨S50000x128, .f32⟩ : BufTy).Contents (Elt F) → (⟨S50000x128, .f32⟩ : BufTy).Contents (Elt F)) (finV V (main_v312 : DevRef τ sig)) (finV V (main_v317 : DevRef τ sig)) :=
  win_binary win6 9 (finV_split6 V) main_v312 main_v317 main_v318 _ _ _ _ rfl (by decide +kernel) (by decide +kernel) (by decide +kernel)

set_option maxRecDepth 8192 in
theorem eq_main_v319 (V : Valuation τ sig (Elt F)) :
    finV V (main_v319 : DevRef τ sig) = (broadcastInDim S1x128 ![1] bcast_S128_S1x128_1 : (⟨S128, .f32⟩ : BufTy).Contents (Elt F) → (⟨S1x128, .f32⟩ : BufTy).Contents (Elt F)) (finV V (main_v303 : DevRef τ sig)) :=
  win_unary win6 10 (finV_split6 V) main_v303 main_v319 _ _ _ rfl (by decide +kernel) (by decide +kernel)

set_option maxRecDepth 8192 in
theorem eq_main_v320 (V : Valuation τ sig (Elt F)) :
    finV V (main_v320 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v319 : DevRef τ sig)) :=
  win_unary win6 11 (finV_split6 V) main_v319 main_v320 _ _ _ rfl (by decide +kernel) (by decide +kernel)

set_option maxRecDepth 8192 in
theorem eq_main_v321 (V : Valuation τ sig (Elt F)) :
    finV V (main_v321 : DevRef τ sig) = (mulf : (⟨S50000x128, .f32⟩ : BufTy).Contents (Elt F) → (⟨S50000x128, .f32⟩ : BufTy).Contents (Elt F) → (⟨S50000x128, .f32⟩ : BufTy).Contents (Elt F)) (finV V (main_v318 : DevRef τ sig)) (finV V (main_v320 : DevRef τ sig)) :=
  win_binary win6 12 (finV_split6 V) main_v318 main_v320 main_v321 _ _ _ _ rfl (by decide +kernel) (by decide +kernel) (by decide +kernel)

set_option maxRecDepth 8192 in
theorem eq_main_v322 (V : Valuation τ sig (Elt F)) :
    finV V (main_v322 : DevRef τ sig) = (broadcastInDim S1x128 ![1] bcast_S128_S1x128_1 : (⟨S128, .f32⟩ : BufTy).Contents (Elt F) → (⟨S1x128, .f32⟩ : BufTy).Contents (Elt F)) (finV V (main_v305 : DevRef τ sig)) :=
  win_unary win6 13 (finV_split6 V) main_v305 main_v322 _ _ _ rfl (by decide +kernel) (by decide +kernel)

set_option maxRecDepth 8192 in
theorem eq_main_v323 (V : Valuation τ sig (Elt F)) :
    finV V (main_v323 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v322 : DevRef τ sig)) :=
  win_unary win6 14 (finV_split6 V) main_v322 main_v323 _ _ _ rfl (by decide +kernel) (by decide +kernel)

set_option maxRecDepth 8192 in
theorem eq_main_v324 (V : Valuation τ sig (Elt F)) :
    finV V (main_v324 : DevRef τ sig) = (addf : (⟨S50000x128, .f32⟩ : BufTy).Contents (Elt F) → (⟨S50000x128, .f32⟩ : BufTy).Contents (Elt F) → (⟨S50000x128, .f32⟩ : BufTy).Contents (Elt F)) (finV V (main_v321 : DevRef τ sig)) (finV V (main_v323 : DevRef τ sig)) :=
  win_binary win6 15 (finV_split6 V) main_v321 main_v323 main_v324 _ _ _ _ rfl (by decide +kernel) (by decide +kernel) (by decide +kernel)

set_option maxRecDepth 8192 in
theorem eq_main_v325 (V : Valuation τ sig (Elt F)) :
    finV V (main_v325 : DevRef τ sig) = ((extractStridedSlice S1x128x128 ![6, 0, 0] · slices_S7x128x128_S1x128x128_6_0_0) : (⟨S7x128x128, .f32⟩ : BufTy).Contents (Elt F) → (⟨S1x128x128, .f32⟩ : BufTy).Contents (Elt F)) (finV V (main_arg3 : DevRef τ sig)) :=
  win_unary win6 16 (finV_split6 V) main_arg3 main_v325 _ _ _ rfl (by decide +kernel) (by decide +kernel)

set_option maxRecDepth 8192 in
theorem eq_main_v326 (V : Valuation τ sig (Elt F)) :
    finV V (main_v326 : DevRef τ sig) = shapeCast S128x128 (finV V (main_v325 : DevRef τ sig)) shapeCasts_S1x128x128_S128x128 :=
  win_reshape win6 17 (finV_split6 V) main_v325 main_v326 _ _ _ _ rfl (by decide +kernel) (by decide +kernel)

set_option maxRecDepth 8192 in
theorem eq_main_v327 (V : Valuation τ sig (Elt F)) :
    finV V (main_v327 : DevRef τ sig) = ((extractStridedSlice S1x128 ![6, 0] · slices_S7x128_S1x128_6_0) : (⟨S7x128, .f32⟩ : BufTy).Contents (Elt F) → (⟨S1x128, .f32⟩ : BufTy).Contents (Elt F)) (finV V (main_arg4 : DevRef τ sig)) :=
  win_unary win6 18 (finV_split6 V) main_arg4 main_v327 _ _ _ rfl (by decide +kernel) (by decide +kernel)

set_option maxRecDepth 8192 in
theorem eq_main_v328 (V : Valuation τ sig (Elt F)) :
    finV V (main_v328 : DevRef τ sig) = shapeCast S128 (finV V (main_v327 : DevRef τ sig)) shapeCasts_S1x128_S128 :=
  win_reshape win6 19 (finV_split6 V) main_v327 main_v328 _ _ _ _ rfl (by decide +kernel) (by decide +kernel)

set_option maxRecDepth 8192 in
theorem eq_main_v329 (V : Valuation τ sig (Elt F)) :
    finV V (main_v329 : DevRef τ sig) = ((extractStridedSlice S1x128x128 ![6, 0, 0] · slices_S7x128x128_S1x128x128_6_0_0) : (⟨S7x128x128, .f32⟩ : BufTy).Contents (Elt F) → (⟨S1x128x128, .f32⟩ : BufTy).Contents (Elt F)) (finV V (main_arg5 : DevRef τ sig)) :=
  win_unary win6 20 (finV_split6 V) main_arg5 main_v329 _ _ _ rfl (by decide +kernel) (by decide +kernel)

set_option maxRecDepth 8192 in
theorem eq_main_v330 (V : Valuation τ sig (Elt F)) :
    finV V (main_v330 : DevRef τ sig) = shapeCast S128x128 (finV V (main_v329 : DevRef τ sig)) shapeCasts_S1x128x128_S128x128 :=
  win_reshape win6 21 (finV_split6 V) main_v329 main_v330 _ _ _ _ rfl (by decide +kernel) (by decide +kernel)

set_option maxRecDepth 8192 in
theorem eq_main_v331 (V : Valuation τ sig (Elt F)) :
    finV V (main_v331 : DevRef τ sig) = ((extractStridedSlice S1x128 ![6, 0] · slices_S7x128_S1x128_6_0) : (⟨S7x128, .f32⟩ : BufTy).Contents (Elt F) → (⟨S1x128, .f32⟩ : BufTy).Contents (Elt F)) (finV V (main_arg6 : DevRef τ sig)) :=
  win_unary win6 22 (finV_split6 V) main_arg6 main_v331 _ _ _ rfl (by decide +kernel) (by decide +kernel)

set_option maxRecDepth 8192 in
theorem eq_main_v332 (V : Valuation τ sig (Elt F)) :
    finV V (main_v332 : DevRef τ sig) = shapeCast S128 (finV V (main_v331 : DevRef τ sig)) shapeCasts_S1x128_S128 :=
  win_reshape win6 23 (finV_split6 V) main_v331 main_v332 _ _ _ _ rfl (by decide +kernel) (by decide +kernel)

set_option maxRecDepth 8192 in
theorem eq_main_c_49 (V : Valuation τ sig (Elt F)) :
    finV V (main_c_49 : DevRef τ sig) = (constantI S_ 32 0#32) :=
  win_nullary win6 24 (finV_split6 V) main_c_49 _ _ rfl (by decide +kernel)

set_option maxRecDepth 8192 in
theorem eq_main_v333 (V : Valuation τ sig (Elt F)) :
    finV V (main_v333 : DevRef τ sig) = (broadcastInDim S600000 ![] bcast_S_S600000 : (⟨S_, .i32⟩ : BufTy).Contents (Elt F) → (⟨S600000, .i32⟩ : BufTy).Contents (Elt F)) (finV V (main_c_49 : DevRef τ sig)) :=
  win_unary win6 25 (finV_split6 V) main_c_49 main_v333 _ _ _ rfl (by decide +kernel) (by decide +kernel)

set_option maxRecDepth 8192 in
theorem eq_main_v334 (V : Valuation τ sig (Elt F)) :
    finV V (main_v334 : DevRef τ sig) = (cmpi .slt : (⟨S600000, .i32⟩ : BufTy).Contents (Elt F) → (⟨S600000, .i32⟩ : BufTy).Contents (Elt F) → (⟨S600000, .i1⟩ : BufTy).Contents (Elt F)) (finV V (main_v1 : DevRef τ sig)) (finV V (main_v333 : DevRef τ sig)) :=
  win_binary win6 26 (finV_split6 V) main_v1 main_v333 main_v334 _ _ _ _ rfl (by decide +kernel) (by decide +kernel) (by decide +kernel)

set_option maxRecDepth 8192 in
theorem eq_main_c_50 (V : Valuation τ sig (Elt F)) :
    finV V (main_c_50 : DevRef τ sig) = (constantI S_ 32 50000#32) :=
  win_nullary win6 27 (finV_split6 V) main_c_50 _ _ rfl (by decide +kernel)

set_option maxRecDepth 8192 in
theorem eq_main_v335 (V : Valuation τ sig (Elt F)) :
    finV V (main_v335 : DevRef τ sig) = (broadcastInDim S600000 ![] bcast_S_S600000 : (⟨S_, .i32⟩ : BufTy).Contents (Elt F) → (⟨S600000, .i32⟩ : BufTy).Contents (Elt F)) (finV V (main_c_50 : DevRef τ sig)) :=
  win_unary win6 28 (finV_split6 V) main_c_50 main_v335 _ _ _ rfl (by decide +kernel) (by decide +kernel)

set_option maxRecDepth 8192 in
theorem eq_main_v336 (V : Valuation τ sig (Elt F)) :
    finV V (main_v336 : DevRef τ sig) = (addi : (⟨S600000, .i32⟩ : BufTy).Contents (Elt F) → (⟨S600000, .i32⟩ : BufTy).Contents (Elt F) → (⟨S600000, .i32⟩ : BufTy).Contents (Elt F)) (finV V (main_v1 : DevRef τ sig)) (finV V (main_v335 : DevRef τ sig)) :=
  win_binary win6 29 (finV_split6 V) main_v1 main_v335 main_v336 _ _ _ _ rfl (by decide +kernel) (by decide +kernel) (by decide +kernel)

set_option maxRecDepth 8192 in
theorem eq_main_v337 (V : Valuation τ sig (Elt F)) :
    finV V (main_v337 : DevRef τ sig) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (finV V (main_v334 : DevRef τ sig)) (finV V (main_v336 : DevRef τ sig)) (finV V (main_v1 : DevRef τ sig)) :=
  win_ternary win6 30 (finV_split6 V) main_v334 main_v336 main_v1 main_v337 _ _ _ _ _ rfl (by decide +kernel) (by decide +kernel) (by decide +kernel) (by decide +kernel)

set_option maxRecDepth 8192 in
theorem eq_main_v338 (V : Valuation τ sig (Elt F)) :
    finV V (main_v338 : DevRef τ sig) = (broadcastInDim S600000x1 ![0] bcast_S600000_S600000x1_0 : (⟨S600000, .i32⟩ : BufTy).Contents (Elt F) → (⟨S600000x1, .i32⟩ : BufTy).Contents (Elt F)) (finV V (main_v337 : DevRef τ sig)) :=
  win_unary win6 31 (finV_split6 V) main_v337 main_v338 _ _ _ rfl (by decide +kernel) (by decide +kernel)

set_option maxRecDepth 8192 in
theorem eq_main_v339 (V : Valuation τ sig (Elt F)) :
    finV V (main_v339 : DevRef τ sig) = ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) (finV V (main_v165 : DevRef τ sig)) (finV V (main_v338 : DevRef τ sig)) :=
  win_binary win6 32 (finV_split6 V) main_v165 main_v338 main_v339 _ _ _ _ rfl (by decide +kernel) (by decide +kernel) (by decide +kernel)

set_option maxRecDepth 8192 in
theorem eq_main_cst_51 (V : Valuation τ sig (Elt F)) :
    finV V (main_cst_51 : DevRef τ sig) = (constant S_ .f32 0x00000000#32) :=
  win_nullary win6 33 (finV_split6 V) main_cst_51 _ _ rfl (by decide +kernel)

set_option maxRecDepth 8192 in
theorem eq_main_v340 (V : Valuation τ sig (Elt F)) :
    finV V (main_v340 : DevRef τ sig) = (broadcastInDim S50000x128 ![] bcast_S_S50000x128 : (⟨S_, .f32⟩ : BufTy).Contents (Elt F) → (⟨S50000x128, .f32⟩ : BufTy).Contents (Elt F)) (finV V (main_cst_51 : DevRef τ sig)) :=
  win_unary win6 34 (finV_split6 V) main_cst_51 main_v340 _ _ _ rfl (by decide +kernel) (by decide +kernel)

set_option maxRecDepth 8192 in
theorem eq_main_v341 (V : Valuation τ sig (Elt F)) :
    finV V (main_v341 : DevRef τ sig) = (broadcastInDim S600000x1 ![0] bcast_S600000_S600000x1_0 : (⟨S600000, .i32⟩ : BufTy).Contents (Elt F) → (⟨S600000x1, .i32⟩ : BufTy).Contents (Elt F)) (finV V (main_v3 : DevRef τ sig)) :=
  win_unary win6 35 (finV_split6 V) main_v3 main_v341 _ _ _ rfl (by decide +kernel) (by decide +kernel)

set_option maxRecDepth 8192 in
theorem eq_main_v342 (V : Valuation τ sig (Elt F)) :
    finV V (main_v342 : DevRef τ sig) = ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) (finV V (main_v340 : DevRef τ sig)) (finV V (main_v341 : DevRef τ sig)) (finV V (main_v339 : DevRef τ sig)) :=
  win_ternary win6 36 (finV_split6 V) main_v340 main_v341 main_v339 main_v342 _ _ _ _ _ rfl (by decide +kernel) (by decide +kernel) (by decide +kernel) (by decide +kernel)

set_option maxRecDepth 8192 in
theorem eq_main_v343 (V : Valuation τ sig (Elt F)) :
    finV V (main_v343 : DevRef τ sig) = (addf : (⟨S50000x128, .f32⟩ : BufTy).Contents (Elt F) → (⟨S50000x128, .f32⟩ : BufTy).Contents (Elt F) → (⟨S50000x128, .f32⟩ : BufTy).Contents (Elt F)) (finV V (main_v165 : DevRef τ sig)) (finV V (main_v342 : DevRef τ sig)) :=
  win_binary win6 37 (finV_split6 V) main_v165 main_v342 main_v343 _ _ _ _ rfl (by decide +kernel) (by decide +kernel) (by decide +kernel)

set_option maxRecDepth 8192 in
theorem eq_main_v344 (V : Valuation τ sig (Elt F)) :
    finV V (main_v344 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v343 : DevRef τ sig)) (finV V (main_v326 : DevRef τ sig)) :=
  win_binary win6 38 (finV_split6 V) main_v343 main_v326 main_v344 _ _ _ _ rfl (by decide +kernel) (by decide +kernel) (by decide +kernel)

set_option maxRecDepth 8192 in
theorem eq_main_v345 (V : Valuation τ sig (Elt F)) :
    finV V (main_v345 : DevRef τ sig) = (broadcastInDim S1x128 ![1] bcast_S128_S1x128_1 : (⟨S128, .f32⟩ : BufTy).Contents (Elt F) → (⟨S1x128, .f32⟩ : BufTy).Contents (Elt F)) (finV V (main_v328 : DevRef τ sig)) :=
  win_unary win6 39 (finV_split6 V) main_v328 main_v345 _ _ _ rfl (by decide +kernel) (by decide +kernel)

set_option maxRecDepth 8192 in
theorem eq_main_v346 (V : Valuation τ sig (Elt F)) :
    finV V (main_v346 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v345 : DevRef τ sig)) :=
  win_unary win6 40 (finV_split6 V) main_v345 main_v346 _ _ _ rfl (by decide +kernel) (by decide +kernel)

set_option maxRecDepth 8192 in
theorem eq_main_v347 (V : Valuation τ sig (Elt F)) :
    finV V (main_v347 : DevRef τ sig) = (addf : (⟨S50000x128, .f32⟩ : BufTy).Contents (Elt F) → (⟨S50000x128, .f32⟩ : BufTy).Contents (Elt F) → (⟨S50000x128, .f32⟩ : BufTy).Contents (Elt F)) (finV V (main_v344 : DevRef τ sig)) (finV V (main_v346 : DevRef τ sig)) :=
  win_binary win6 41 (finV_split6 V) main_v344 main_v346 main_v347 _ _ _ _ rfl (by decide +kernel) (by decide +kernel) (by decide +kernel)

set_option maxRecDepth 8192 in
theorem eq_main_cst_52 (V : Valuation τ sig (Elt F)) :
    finV V (main_cst_52 : DevRef τ sig) = (constant S_ .f32 0x00000000#32) :=
  win_nullary win6 42 (finV_split6 V) main_cst_52 _ _ rfl (by decide +kernel)

set_option maxRecDepth 8192 in
theorem eq_main_v348 (V : Valuation τ sig (Elt F)) :
    finV V (main_v348 : DevRef τ sig) = (broadcastInDim S50000x128 ![] bcast_S_S50000x128 : (⟨S_, .f32⟩ : BufTy).Contents (Elt F) → (⟨S50000x128, .f32⟩ : BufTy).Contents (Elt F)) (finV V (main_cst_52 : DevRef τ sig)) :=
  win_unary win6 43 (finV_split6 V) main_cst_52 main_v348 _ _ _ rfl (by decide +kernel) (by decide +kernel)

set_option maxRecDepth 8192 in
theorem eq_main_v349 (V : Valuation τ sig (Elt F)) :
    finV V (main_v349 : DevRef τ sig) = (maximumf : (⟨S50000x128, .f32⟩ : BufTy).Contents (Elt F) → (⟨S50000x128, .f32⟩ : BufTy).Contents (Elt F) → (⟨S50000x128, .f32⟩ : BufTy).Contents (Elt F)) (finV V (main_v347 : DevRef τ sig)) (finV V (main_v348 : DevRef τ sig)) :=
  win_binary win6 44 (finV_split6 V) main_v347 main_v348 main_v349 _ _ _ _ rfl (by decide +kernel) (by decide +kernel) (by decide +kernel)

set_option maxRecDepth 8192 in
theorem eq_main_v350 (V : Valuation τ sig (Elt F)) :
    finV V (main_v350 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (finV V (main_v349 : DevRef τ sig)) (finV V (main_v330 : DevRef τ sig)) :=
  win_binary win6 45 (finV_split6 V) main_v349 main_v330 main_v350 _ _ _ _ rfl (by decide +kernel) (by decide +kernel) (by decide +kernel)

set_option maxRecDepth 8192 in
theorem eq_main_v351 (V : Valuation τ sig (Elt F)) :
    finV V (main_v351 : DevRef τ sig) = (broadcastInDim S1x128 ![1] bcast_S128_S1x128_1 : (⟨S128, .f32⟩ : BufTy).Contents (Elt F) → (⟨S1x128, .f32⟩ : BufTy).Contents (Elt F)) (finV V (main_v332 : DevRef τ sig)) :=
  win_unary win6 46 (finV_split6 V) main_v332 main_v351 _ _ _ rfl (by decide +kernel) (by decide +kernel)

set_option maxRecDepth 8192 in
theorem eq_main_v352 (V : Valuation τ sig (Elt F)) :
    finV V (main_v352 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v351 : DevRef τ sig)) :=
  win_unary win6 47 (finV_split6 V) main_v351 main_v352 _ _ _ rfl (by decide +kernel) (by decide +kernel)

set_option maxRecDepth 8192 in
theorem eq_main_v353 (V : Valuation τ sig (Elt F)) :
    finV V (main_v353 : DevRef τ sig) = (addf : (⟨S50000x128, .f32⟩ : BufTy).Contents (Elt F) → (⟨S50000x128, .f32⟩ : BufTy).Contents (Elt F) → (⟨S50000x128, .f32⟩ : BufTy).Contents (Elt F)) (finV V (main_v350 : DevRef τ sig)) (finV V (main_v352 : DevRef τ sig)) :=
  win_binary win6 48 (finV_split6 V) main_v350 main_v352 main_v353 _ _ _ _ rfl (by decide +kernel) (by decide +kernel) (by decide +kernel)

set_option maxRecDepth 8192 in
theorem eq_main_v354 (V : Valuation τ sig (Elt F)) :
    finV V (main_v354 : DevRef τ sig) = (Host.tanh : (⟨S50000x128, .f32⟩ : BufTy).Contents (Elt F) → (⟨S50000x128, .f32⟩ : BufTy).Contents (Elt F)) (finV V (main_v353 : DevRef τ sig)) :=
  win_unary win6 49 (finV_split6 V) main_v353 main_v354 _ _ _ rfl (by decide +kernel) (by decide +kernel)

set_option maxRecDepth 8192 in
theorem eq_main_v355 (V : Valuation τ sig (Elt F)) :
    finV V (main_v355 : DevRef τ sig) = ((extractStridedSlice S1x128 ![6, 0] · slices_S7x128_S1x128_6_0) : (⟨S7x128, .f32⟩ : BufTy).Contents (Elt F) → (⟨S1x128, .f32⟩ : BufTy).Contents (Elt F)) (finV V (main_arg7 : DevRef τ sig)) :=
  win_unary win6 50 (finV_split6 V) main_arg7 main_v355 _ _ _ rfl (by decide +kernel) (by decide +kernel)

set_option maxRecDepth 8192 in
theorem eq_main_v356 (V : Valuation τ sig (Elt F)) :
    finV V (main_v356 : DevRef τ sig) = shapeCast S128 (finV V (main_v355 : DevRef τ sig)) shapeCasts_S1x128_S128 :=
  win_reshape win6 51 (finV_split6 V) main_v355 main_v356 _ _ _ _ rfl (by decide +kernel) (by decide +kernel)

set_option maxRecDepth 8192 in
theorem eq_main_v357 (V : Valuation τ sig (Elt F)) :
    finV V (main_v357 : DevRef τ sig) = ((extractStridedSlice S1x128 ![6, 0] · slices_S7x128_S1x128_6_0) : (⟨S7x128, .f32⟩ : BufTy).Contents (Elt F) → (⟨S1x128, .f32⟩ : BufTy).Contents (Elt F)) (finV V (main_arg8 : DevRef τ sig)) :=
  win_unary win6 52 (finV_split6 V) main_arg8 main_v357 _ _ _ rfl (by decide +kernel) (by decide +kernel)

set_option maxRecDepth 8192 in
theorem eq_main_v358 (V : Valuation τ sig (Elt F)) :
    finV V (main_v358 : DevRef τ sig) = shapeCast S128 (finV V (main_v357 : DevRef τ sig)) shapeCasts_S1x128_S128 :=
  win_reshape win6 53 (finV_split6 V) main_v357 main_v358 _ _ _ _ rfl (by decide +kernel) (by decide +kernel)

set_option maxRecDepth 8192 in
theorem eq_main_cst_53 (V : Valuation τ sig (Elt F)) :
    finV V (main_cst_53 : DevRef τ sig) = (constant S_ .f32 0x00000000#32) :=
  win_nullary win6 54 (finV_split6 V) main_cst_53 _ _ rfl (by decide +kernel)

set_option maxRecDepth 8192 in
theorem eq_main_v359 (V : Valuation τ sig (Elt F)) :
    finV V (main_v359 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v354 : DevRef τ sig)) (finV V (main_cst_53 : DevRef τ sig)) :=
  win_binary win6 55 (finV_split6 V) main_v354 main_cst_53 main_v359 _ _ _ _ rfl (by decide +kernel) (by decide +kernel) (by decide +kernel)

set_option maxRecDepth 8192 in
theorem eq_main_cst_54 (V : Valuation τ sig (Elt F)) :
    finV V (main_cst_54 : DevRef τ sig) = (constant S_ .f32 0x47435000#32) :=
  win_nullary win6 56 (finV_split6 V) main_cst_54 _ _ rfl (by decide +kernel)

set_option maxRecDepth 8192 in
theorem eq_main_v360 (V : Valuation τ sig (Elt F)) :
    finV V (main_v360 : DevRef τ sig) = (broadcastInDim S128 ![] bcast_S_S128 : (⟨S_, .f32⟩ : BufTy).Contents (Elt F) → (⟨S128, .f32⟩ : BufTy).Contents (Elt F)) (finV V (main_cst_54 : DevRef τ sig)) :=
  win_unary win6 57 (finV_split6 V) main_cst_54 main_v360 _ _ _ rfl (by decide +kernel) (by decide +kernel)

set_option maxRecDepth 8192 in
theorem eq_main_v361 (V : Valuation τ sig (Elt F)) :
    finV V (main_v361 : DevRef τ sig) = (Host.divf : (⟨S128, .f32⟩ : BufTy).Contents (Elt F) → (⟨S128, .f32⟩ : BufTy).Contents (Elt F) → (⟨S128, .f32⟩ : BufTy).Contents (Elt F)) (finV V (main_v359 : DevRef τ sig)) (finV V (main_v360 : DevRef τ sig)) :=
  win_binary win6 58 (finV_split6 V) main_v359 main_v360 main_v361 _ _ _ _ rfl (by decide +kernel) (by decide +kernel) (by decide +kernel)

set_option maxRecDepth 8192 in
theorem eq_main_c_55 (V : Valuation τ sig (Elt F)) :
    finV V (main_c_55 : DevRef τ sig) = (constantI S_ 32 0#32) :=
  win_nullary win6 59 (finV_split6 V) main_c_55 _ _ rfl (by decide +kernel)

/-! ## Window `main_part7` -/

set_option maxRecDepth 8192 in
theorem eq_main_call6_cst (V : Valuation τ sig (Elt F)) :
    finV V (main_call6_cst : DevRef τ sig) = (constant S_ .f32 0x00000000#32) :=
  win_nullary win7 0 (finV_split7 V) main_call6_cst _ _ rfl (by decide +kernel)

set_option maxRecDepth 8192 in
theorem eq_main_call6_v0 (V : Valuation τ sig (Elt F)) :
    finV V (main_call6_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_v354 : DevRef τ sig)) (finV V (main_call6_cst : DevRef τ sig)) :=
  win_binary win7 1 (finV_split7 V) main_v354 main_call6_cst main_call6_v0 _ _ _ _ rfl (by decide +kernel) (by decide +kernel) (by decide +kernel)

set_option maxRecDepth 8192 in
theorem eq_main_call6_v1 (V : Valuation τ sig (Elt F)) :
    finV V (main_call6_v1 : DevRef τ sig) = ((broadcastInDim S1x128 ![1] bcast_S128_S1x128_1) : (⟨S128, .f32⟩ : BufTy).Contents (Elt F) → (⟨S1x128, .f32⟩ : BufTy).Contents (Elt F)) (finV V (main_call6_v0 : DevRef τ sig)) :=
  win_unary win7 2 (finV_split7 V) main_call6_v0 main_call6_v1 _ _ _ rfl (by decide +kernel) (by decide +kernel)

set_option maxRecDepth 8192 in
theorem eq_main_call6_cst_0 (V : Valuation τ sig (Elt F)) :
    finV V (main_call6_cst_0 : DevRef τ sig) = (constant S_ .f32 0x47435000#32) :=
  win_nullary win7 3 (finV_split7 V) main_call6_cst_0 _ _ rfl (by decide +kernel)

set_option maxRecDepth 8192 in
theorem eq_main_call6_v2 (V : Valuation τ sig (Elt F)) :
    finV V (main_call6_v2 : DevRef τ sig) = ((broadcastInDim S1x128 ![] bcast_S_S1x128) : (⟨S_, .f32⟩ : BufTy).Contents (Elt F) → (⟨S1x128, .f32⟩ : BufTy).Contents (Elt F)) (finV V (main_call6_cst_0 : DevRef τ sig)) :=
  win_unary win7 4 (finV_split7 V) main_call6_cst_0 main_call6_v2 _ _ _ rfl (by decide +kernel) (by decide +kernel)

set_option maxRecDepth 8192 in
theorem eq_main_call6_v3 (V : Valuation τ sig (Elt F)) :
    finV V (main_call6_v3 : DevRef τ sig) = (Host.divf : (⟨S1x128, .f32⟩ : BufTy).Contents (Elt F) → (⟨S1x128, .f32⟩ : BufTy).Contents (Elt F) → (⟨S1x128, .f32⟩ : BufTy).Contents (Elt F)) (finV V (main_call6_v1 : DevRef τ sig)) (finV V (main_call6_v2 : DevRef τ sig)) :=
  win_binary win7 5 (finV_split7 V) main_call6_v1 main_call6_v2 main_call6_v3 _ _ _ _ rfl (by decide +kernel) (by decide +kernel) (by decide +kernel)

set_option maxRecDepth 8192 in
theorem eq_main_call6_v4 (V : Valuation τ sig (Elt F)) :
    finV V (main_call6_v4 : DevRef τ sig) = ((broadcastInDim S50000x128 ![0, 1] bcast_S1x128_S50000x128_0_1) : (⟨S1x128, .f32⟩ : BufTy).Contents (Elt F) → (⟨S50000x128, .f32⟩ : BufTy).Contents (Elt F)) (finV V (main_call6_v3 : DevRef τ sig)) :=
  win_unary win7 6 (finV_split7 V) main_call6_v3 main_call6_v4 _ _ _ rfl (by decide +kernel) (by decide +kernel)

set_option maxRecDepth 8192 in
theorem eq_main_call6_v5 (V : Valuation τ sig (Elt F)) :
    finV V (main_call6_v5 : DevRef τ sig) = (subf : (⟨S50000x128, .f32⟩ : BufTy).Contents (Elt F) → (⟨S50000x128, .f32⟩ : BufTy).Contents (Elt F) → (⟨S50000x128, .f32⟩ : BufTy).Contents (Elt F)) (finV V (main_v354 : DevRef τ sig)) (finV V (main_call6_v4 : DevRef τ sig)) :=
  win_binary win7 7 (finV_split7 V) main_v354 main_call6_v4 main_call6_v5 _ _ _ _ rfl (by decide +kernel) (by decide +kernel) (by decide +kernel)

set_option maxRecDepth 8192 in
theorem eq_main_call6_v6 (V : Valuation τ sig (Elt F)) :
    finV V (main_call6_v6 : DevRef τ sig) = (mulf : (⟨S50000x128, .f32⟩ : BufTy).Contents (Elt F) → (⟨S50000x128, .f32⟩ : BufTy).Contents (Elt F) → (⟨S50000x128, .f32⟩ : BufTy).Contents (Elt F)) (finV V (main_call6_v5 : DevRef τ sig)) (finV V (main_call6_v5 : DevRef τ sig)) :=
  win_binary win7 8 (finV_split7 V) main_call6_v5 main_call6_v5 main_call6_v6 _ _ _ _ rfl (by decide +kernel) (by decide +kernel) (by decide +kernel)

set_option maxRecDepth 8192 in
theorem eq_main_call6_v7 (V : Valuation τ sig (Elt F)) :
    finV V (main_call6_v7 : DevRef τ sig) = ((sitofp .f32) : (⟨S_, .i32⟩ : BufTy).Contents (Elt F) → (⟨S_, .f32⟩ : BufTy).Contents (Elt F)) (finV V (main_c_55 : DevRef τ sig)) :=
  win_unary win7 9 (finV_split7 V) main_c_55 main_call6_v7 _ _ _ rfl (by decide +kernel) (by decide +kernel)

set_option maxRecDepth 8192 in
theorem eq_main_call6_cst_1 (V : Valuation τ sig (Elt F)) :
    finV V (main_call6_cst_1 : DevRef τ sig) = (constant S_ .f32 0x47435000#32) :=
  win_nullary win7 10 (finV_split7 V) main_call6_cst_1 _ _ rfl (by decide +kernel)

set_option maxRecDepth 8192 in
theorem eq_main_call6_v8 (V : Valuation τ sig (Elt F)) :
    finV V (main_call6_v8 : DevRef τ sig) = (subf : (⟨S_, .f32⟩ : BufTy).Contents (Elt F) → (⟨S_, .f32⟩ : BufTy).Contents (Elt F) → (⟨S_, .f32⟩ : BufTy).Contents (Elt F)) (finV V (main_call6_cst_1 : DevRef τ sig)) (finV V (main_call6_v7 : DevRef τ sig)) :=
  win_binary win7 11 (finV_split7 V) main_call6_cst_1 main_call6_v7 main_call6_v8 _ _ _ _ rfl (by decide +kernel) (by decide +kernel) (by decide +kernel)

set_option maxRecDepth 8192 in
theorem eq_main_call6_cst_2 (V : Valuation τ sig (Elt F)) :
    finV V (main_call6_cst_2 : DevRef τ sig) = (constant S_ .f32 0x00000000#32) :=
  win_nullary win7 12 (finV_split7 V) main_call6_cst_2 _ _ rfl (by decide +kernel)

set_option maxRecDepth 8192 in
theorem eq_main_call6_v9 (V : Valuation τ sig (Elt F)) :
    finV V (main_call6_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (finV V (main_call6_v6 : DevRef τ sig)) (finV V (main_call6_cst_2 : DevRef τ sig)) :=
  win_binary win7 13 (finV_split7 V) main_call6_v6 main_call6_cst_2 main_call6_v9 _ _ _ _ rfl (by decide +kernel) (by decide +kernel) (by decide +kernel)

set_option maxRecDepth 8192 in
theorem eq_main_call6_v10 (V : Valuation τ sig (Elt F)) :
    finV V (main_call6_v10 : DevRef τ sig) = ((broadcastInDim S128 ![] bcast_S_S128) : (⟨S_, .f32⟩ : BufTy).Contents (Elt F) → (⟨S128, .f32⟩ : BufTy).Contents (Elt F)) (finV V (main_call6_v8 : DevRef τ sig)) :=
  win_unary win7 14 (finV_split7 V) main_call6_v8 main_call6_v10 _ _ _ rfl (by decide +kernel) (by decide +kernel)

set_option maxRecDepth 8192 in
theorem eq_main_call6_v11 (V : Valuation τ sig (Elt F)) :
    finV V (main_call6_v11 : DevRef τ sig) = (Host.divf : (⟨S128, .f32⟩ : BufTy).Contents (Elt F) → (⟨S128, .f32⟩ : BufTy).Contents (Elt F) → (⟨S128, .f32⟩ : BufTy).Contents (Elt F)) (finV V (main_call6_v9 : DevRef τ sig)) (finV V (main_call6_v10 : DevRef τ sig)) :=
  win_binary win7 15 (finV_split7 V) main_call6_v9 main_call6_v10 main_call6_v11 _ _ _ _ rfl (by decide +kernel) (by decide +kernel) (by decide +kernel)

set_option maxRecDepth 8192 in
theorem eq_main_call6_cst_3 (V : Valuation τ sig (Elt F)) :
    finV V (main_call6_cst_3 : DevRef τ sig) = (constant S_ .f32 0x00000000#32) :=
  win_nullary win7 16 (finV_split7 V) main_call6_cst_3 _ _ rfl (by decide +kernel)

set_option maxRecDepth 8192 in
theorem eq_main_call6_v12 (V : Valuation τ sig (Elt F)) :
    finV V (main_call6_v12 : DevRef τ sig) = ((cmpf .ogt) : (⟨S_, .f32⟩ : BufTy).Contents (Elt F) → (⟨S_, .f32⟩ : BufTy).Contents (Elt F) → (⟨S_, .i1⟩ : BufTy).Contents (Elt F)) (finV V (main_call6_v8 : DevRef τ sig)) (finV V (main_call6_cst_3 : DevRef τ sig)) :=
  win_binary win7 17 (finV_split7 V) main_call6_v8 main_call6_cst_3 main_call6_v12 _ _ _ _ rfl (by decide +kernel) (by decide +kernel) (by decide +kernel)

set_option maxRecDepth 8192 in
theorem eq_main_call6_cst_4 (V : Valuation τ sig (Elt F)) :
    finV V (main_call6_cst_4 : DevRef τ sig) = (constant S_ .f32 0x7FC00000#32) :=
  win_nullary win7 18 (finV_split7 V) main_call6_cst_4 _ _ rfl (by decide +kernel)

set_option maxRecDepth 8192 in
theorem eq_main_call6_call0_v0 (V : Valuation τ sig (Elt F)) :
    finV V (main_call6_call0_v0 : DevRef τ sig) = (id : (⟨S_, .f32⟩ : BufTy).Contents (Elt F) → (⟨S_, .f32⟩ : BufTy).Contents (Elt F)) (finV V (main_call6_cst_4 : DevRef τ sig)) :=
  win_unary win7 19 (finV_split7 V) main_call6_cst_4 main_call6_call0_v0 _ _ _ rfl (by decide +kernel) (by decide +kernel)

set_option maxRecDepth 8192 in
theorem eq_main_call6_call0_v1 (V : Valuation τ sig (Elt F)) :
    finV V (main_call6_call0_v1 : DevRef τ sig) = ((broadcastInDim S128 ![] bcast_S_S128) : (⟨S_, .f32⟩ : BufTy).Contents (Elt F) → (⟨S128, .f32⟩ : BufTy).Contents (Elt F)) (finV V (main_call6_call0_v0 : DevRef τ sig)) :=
  win_unary win7 20 (finV_split7 V) main_call6_call0_v0 main_call6_call0_v1 _ _ _ rfl (by decide +kernel) (by decide +kernel)

set_option maxHeartbeats 4000000 in
set_option maxRecDepth 8192 in
theorem eq_main_v362 (V : Valuation τ sig (Elt F)) :
    finV V (main_v362 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (finV V (main_call6_v12 : DevRef τ sig)) (finV V (main_call6_v11 : DevRef τ sig)) (finV V (main_call6_call0_v1 : DevRef τ sig)) :=
  win_ternary win7 21 (finV_split7 V) main_call6_v12 main_call6_v11 main_call6_call0_v1 main_v362 _ _ _ _ _ rfl (by decide +kernel) (by decide +kernel) (by decide +kernel) (by decide +kernel)

set_option maxRecDepth 8192 in
theorem eq_main_v363 (V : Valuation τ sig (Elt F)) :
    finV V (main_v363 : DevRef τ sig) = (broadcastInDim S1x128 ![1] bcast_S128_S1x128_1 : (⟨S128, .f32⟩ : BufTy).Contents (Elt F) → (⟨S1x128, .f32⟩ : BufTy).Contents (Elt F)) (finV V (main_v361 : DevRef τ sig)) :=
  win_unary win7 22 (finV_split7 V) main_v361 main_v363 _ _ _ rfl (by decide +kernel) (by decide +kernel)

set_option maxRecDepth 8192 in
theorem eq_main_v364 (V : Valuation τ sig (Elt F)) :
    finV V (main_v364 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v363 : DevRef τ sig)) :=
  win_unary win7 23 (finV_split7 V) main_v363 main_v364 _ _ _ rfl (by decide +kernel) (by decide +kernel)

set_option maxRecDepth 8192 in
theorem eq_main_v365 (V : Valuation τ sig (Elt F)) :
    finV V (main_v365 : DevRef τ sig) = (subf : (⟨S50000x128, .f32⟩ : BufTy).Contents (Elt F) → (⟨S50000x128, .f32⟩ : BufTy).Contents (Elt F) → (⟨S50000x128, .f32⟩ : BufTy).Contents (Elt F)) (finV V (main_v354 : DevRef τ sig)) (finV V (main_v364 : DevRef τ sig)) :=
  win_binary win7 24 (finV_split7 V) main_v354 main_v364 main_v365 _ _ _ _ rfl (by decide +kernel) (by decide +kernel) (by decide +kernel)

set_option maxRecDepth 8192 in
theorem eq_main_cst_56 (V : Valuation τ sig (Elt F)) :
    finV V (main_cst_56 : DevRef τ sig) = (constant S_ .f32 0x3727C5AC#32) :=
  win_nullary win7 25 (finV_split7 V) main_cst_56 _ _ rfl (by decide +kernel)

set_option maxRecDepth 8192 in
theorem eq_main_v366 (V : Valuation τ sig (Elt F)) :
    finV V (main_v366 : DevRef τ sig) = (broadcastInDim S128 ![] bcast_S_S128 : (⟨S_, .f32⟩ : BufTy).Contents (Elt F) → (⟨S128, .f32⟩ : BufTy).Contents (Elt F)) (finV V (main_cst_56 : DevRef τ sig)) :=
  win_unary win7 26 (finV_split7 V) main_cst_56 main_v366 _ _ _ rfl (by decide +kernel) (by decide +kernel)

set_option maxRecDepth 8192 in
theorem eq_main_v367 (V : Valuation τ sig (Elt F)) :
    finV V (main_v367 : DevRef τ sig) = (addf : (⟨S128, .f32⟩ : BufTy).Contents (Elt F) → (⟨S128, .f32⟩ : BufTy).Contents (Elt F) → (⟨S128, .f32⟩ : BufTy).Contents (Elt F)) (finV V (main_v362 : DevRef τ sig)) (finV V (main_v366 : DevRef τ sig)) :=
  win_binary win7 27 (finV_split7 V) main_v362 main_v366 main_v367 _ _ _ _ rfl (by decide +kernel) (by decide +kernel) (by decide +kernel)

set_option maxRecDepth 8192 in
theorem eq_main_v368 (V : Valuation τ sig (Elt F)) :
    finV V (main_v368 : DevRef τ sig) = (Host.rsqrt : (⟨S128, .f32⟩ : BufTy).Contents (Elt F) → (⟨S128, .f32⟩ : BufTy).Contents (Elt F)) (finV V (main_v367 : DevRef τ sig)) :=
  win_unary win7 28 (finV_split7 V) main_v367 main_v368 _ _ _ rfl (by decide +kernel) (by decide +kernel)

set_option maxRecDepth 8192 in
theorem eq_main_v369 (V : Valuation τ sig (Elt F)) :
    finV V (main_v369 : DevRef τ sig) = (broadcastInDim S1x128 ![1] bcast_S128_S1x128_1 : (⟨S128, .f32⟩ : BufTy).Contents (Elt F) → (⟨S1x128, .f32⟩ : BufTy).Contents (Elt F)) (finV V (main_v368 : DevRef τ sig)) :=
  win_unary win7 29 (finV_split7 V) main_v368 main_v369 _ _ _ rfl (by decide +kernel) (by decide +kernel)

set_option maxRecDepth 8192 in
theorem eq_main_v370 (V : Valuation τ sig (Elt F)) :
    finV V (main_v370 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v369 : DevRef τ sig)) :=
  win_unary win7 30 (finV_split7 V) main_v369 main_v370 _ _ _ rfl (by decide +kernel) (by decide +kernel)

set_option maxRecDepth 8192 in
theorem eq_main_v371 (V : Valuation τ sig (Elt F)) :
    finV V (main_v371 : DevRef τ sig) = (mulf : (⟨S50000x128, .f32⟩ : BufTy).Contents (Elt F) → (⟨S50000x128, .f32⟩ : BufTy).Contents (Elt F) → (⟨S50000x128, .f32⟩ : BufTy).Contents (Elt F)) (finV V (main_v365 : DevRef τ sig)) (finV V (main_v370 : DevRef τ sig)) :=
  win_binary win7 31 (finV_split7 V) main_v365 main_v370 main_v371 _ _ _ _ rfl (by decide +kernel) (by decide +kernel) (by decide +kernel)

set_option maxRecDepth 8192 in
theorem eq_main_v372 (V : Valuation τ sig (Elt F)) :
    finV V (main_v372 : DevRef τ sig) = (broadcastInDim S1x128 ![1] bcast_S128_S1x128_1 : (⟨S128, .f32⟩ : BufTy).Contents (Elt F) → (⟨S1x128, .f32⟩ : BufTy).Contents (Elt F)) (finV V (main_v356 : DevRef τ sig)) :=
  win_unary win7 32 (finV_split7 V) main_v356 main_v372 _ _ _ rfl (by decide +kernel) (by decide +kernel)

set_option maxRecDepth 8192 in
theorem eq_main_v373 (V : Valuation τ sig (Elt F)) :
    finV V (main_v373 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v372 : DevRef τ sig)) :=
  win_unary win7 33 (finV_split7 V) main_v372 main_v373 _ _ _ rfl (by decide +kernel) (by decide +kernel)

set_option maxRecDepth 8192 in
theorem eq_main_v374 (V : Valuation τ sig (Elt F)) :
    finV V (main_v374 : DevRef τ sig) = (mulf : (⟨S50000x128, .f32⟩ : BufTy).Contents (Elt F) → (⟨S50000x128, .f32⟩ : BufTy).Contents (Elt F) → (⟨S50000x128, .f32⟩ : BufTy).Contents (Elt F)) (finV V (main_v371 : DevRef τ sig)) (finV V (main_v373 : DevRef τ sig)) :=
  win_binary win7 34 (finV_split7 V) main_v371 main_v373 main_v374 _ _ _ _ rfl (by decide +kernel) (by decide +kernel) (by decide +kernel)

set_option maxRecDepth 8192 in
theorem eq_main_v375 (V : Valuation τ sig (Elt F)) :
    finV V (main_v375 : DevRef τ sig) = (broadcastInDim S1x128 ![1] bcast_S128_S1x128_1 : (⟨S128, .f32⟩ : BufTy).Contents (Elt F) → (⟨S1x128, .f32⟩ : BufTy).Contents (Elt F)) (finV V (main_v358 : DevRef τ sig)) :=
  win_unary win7 35 (finV_split7 V) main_v358 main_v375 _ _ _ rfl (by decide +kernel) (by decide +kernel)

set_option maxRecDepth 8192 in
theorem eq_main_v376 (V : Valuation τ sig (Elt F)) :
    finV V (main_v376 : DevRef τ sig) = (broadcastInDim S50000x128 ![0, 1] bcast_S1x128_S50000x128_0_1 : (⟨S1x128, .f32⟩ : BufTy).Contents (Elt F) → (⟨S50000x128, .f32⟩ : BufTy).Contents (Elt F)) (finV V (main_v375 : DevRef τ sig)) :=
  win_unary win7 36 (finV_split7 V) main_v375 main_v376 _ _ _ rfl (by decide +kernel) (by decide +kernel)

set_option maxRecDepth 8192 in
theorem eq_main_v377 (V : Valuation τ sig (Elt F)) :
    finV V (main_v377 : DevRef τ sig) = (addf : (⟨S50000x128, .f32⟩ : BufTy).Contents (Elt F) → (⟨S50000x128, .f32⟩ : BufTy).Contents (Elt F) → (⟨S50000x128, .f32⟩ : BufTy).Contents (Elt F)) (finV V (main_v374 : DevRef τ sig)) (finV V (main_v376 : DevRef τ sig)) :=
  win_binary win7 37 (finV_split7 V) main_v374 main_v376 main_v377 _ _ _ _ rfl (by decide +kernel) (by decide +kernel) (by decide +kernel)

end Cert.ReferenceIdeal.RefRun

end
-- ==== Proof.RefRead.lean ====
/- The reference's run read layer by layer: each layer's result buffer holds, at the end, the layer's composed term
   (its dense layers, activation and normalisation over the neighbourhood sums of its input) of the previous layer's
   result, the edge list, and the layer's slices of the six parameter arrays. Each equation is the chain of the
   operations' own equations over the final contents, from the layer's last operation back to its inputs. -/
import proofs.«121838_j70282844831870_1_alg».proof.Proof.RefEqs
import proofs.«121838_j70282844831870_1_alg».proof.Proof.RefLayer

noncomputable section

namespace Cert.ReferenceIdeal.RefRead

open Cert.ReferenceIdeal Cert.ReferenceIdeal.Gen Idealize.ShloMosaic Idealize.ShloMosaic.TcCoe Idealize.SL.Sem Idealize.ShloMosaic.StableHlo
open Cert.ReferenceIdeal.RefRun

/-! ## The aggregation and the parameter slices, as the run composes them -/

/-- One matrix of the stacked weights, as a 128 × 128 array. -/
def matOf (off : Fin 3 → Nat) (h : S7x128x128.Slices off S1x128x128) (w : FVec Ideal S7x128x128 .f32) : Wt :=
  fun i => shapeCast S128x128 (extractStridedSlice S1x128x128 off w h) shapeCasts_S1x128x128_S128x128 i

/-- One row of the stacked vectors, as a vector of 128. -/
def vecOf (off : Fin 2 → Nat) (h : S7x128.Slices off S1x128) (v : FVec Ideal S7x128 .f32) : Rw :=
  fun i => shapeCast S128 (extractStridedSlice S1x128 off v h) shapeCasts_S1x128_S128 i

/-- The edges' source nodes and target nodes: the two rows of the edge list, as vectors of 600000. -/
def srcOf (ei : IVec S2x600000 32) : IVec S600000 32 :=
  fun i => shapeCast S600000 (extractStridedSlice S1x600000 ![0, 0] ei slices_S2x600000_S1x600000_0_0) shapeCasts_S1x600000_S600000 i

def dstOf (ei : IVec S2x600000 32) : IVec S600000 32 :=
  fun i => shapeCast S600000 (extractStridedSlice S1x600000 ![1, 0] ei slices_S2x600000_S1x600000_1_0) shapeCasts_S1x600000_S600000 i

/-- The neighbourhood sums: row `src e` of `x` (a negative index wrapped by 50000) added into row `dst e`, over the edges. -/
def aggOf (x : Mx) (src dst : IVec S600000 32) : Mx :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- Layer `k` on the input `X`: its neighbourhood sums over the edge list `V` holds, its parameters the `k`-th slices of the
    six parameter arrays `V` holds. -/
def layerOf (tanhLayer : Bool) (k : Nat) (hM : S7x128x128.Slices ![k, 0, 0] S1x128x128) (hV : S7x128.Slices ![k, 0] S1x128)
    (X : Mx) (V : Valuation τ sig (Elt Ideal)) : Mx :=
  refLayer tanhLayer X (aggOf X (srcOf (V (main_arg1 : DevRef τ sig))) (dstOf (V (main_arg1 : DevRef τ sig))))
    (matOf ![k, 0, 0] hM (V (main_arg3 : DevRef τ sig))) (vecOf ![k, 0] hV (V (main_arg4 : DevRef τ sig)))
    (matOf ![k, 0, 0] hM (V (main_arg5 : DevRef τ sig))) (vecOf ![k, 0] hV (V (main_arg6 : DevRef τ sig)))
    (vecOf ![k, 0] hV (V (main_arg7 : DevRef τ sig))) (vecOf ![k, 0] hV (V (main_arg8 : DevRef τ sig)))

/-- The seven layers' results: three rectifier layers in a chain, then four hyperbolic-tangent layers, each on the third
    layer's result. -/
def out0 (V : Valuation τ sig (Elt Ideal)) : Mx :=
  layerOf false 0 slices_S7x128x128_S1x128x128_0_0_0 slices_S7x128_S1x128_0_0 (V (main_arg0 : DevRef τ sig)) V
def out1 (V : Valuation τ sig (Elt Ideal)) : Mx :=
  layerOf false 1 slices_S7x128x128_S1x128x128_1_0_0 slices_S7x128_S1x128_1_0 (out0 V) V
def out2 (V : Valuation τ sig (Elt Ideal)) : Mx :=
  layerOf false 2 slices_S7x128x128_S1x128x128_2_0_0 slices_S7x128_S1x128_2_0 (out1 V) V
def out3 (V : Valuation τ sig (Elt Ideal)) : Mx :=
  layerOf true 3 slices_S7x128x128_S1x128x128_3_0_0 slices_S7x128_S1x128_3_0 (out2 V) V
def out4 (V : Valuation τ sig (Elt Ideal)) : Mx :=
  layerOf true 4 slices_S7x128x128_S1x128x128_4_0_0 slices_S7x128_S1x128_4_0 (out2 V) V
def out5 (V : Valuation τ sig (Elt Ideal)) : Mx :=
  layerOf true 5 slices_S7x128x128_S1x128x128_5_0_0 slices_S7x128_S1x128_5_0 (out2 V) V
def out6 (V : Valuation τ sig (Elt Ideal)) : Mx :=
  layerOf true 6 slices_S7x128x128_S1x128x128_6_0_0 slices_S7x128_S1x128_6_0 (out2 V) V

/-! ## The run, layer by layer -/

set_option maxRecDepth 16384 in
set_option maxHeartbeats 4000000 in
theorem out0_fin (V : Valuation τ sig (Elt Ideal)) : finV V (main_v57 : DevRef τ sig) = out0 V := by
  simp only [eq_main_v0 V, eq_main_v1 V, eq_main_v2 V, eq_main_v3 V, eq_main_v4 V, eq_main_v5 V, eq_main_v6 V, eq_main_v7 V, eq_main_v8 V,
    eq_main_v9 V, eq_main_v10 V, eq_main_v11 V, eq_main_c V, eq_main_v12 V, eq_main_v13 V, eq_main_c_0 V, eq_main_v14 V, eq_main_v15 V,
    eq_main_v16 V, eq_main_v17 V, eq_main_v18 V, eq_main_cst V, eq_main_v19 V, eq_main_v20 V, eq_main_v21 V, eq_main_v22 V,
    eq_main_v23 V, eq_main_v24 V, eq_main_v25 V, eq_main_v26 V, eq_main_cst_1 V, eq_main_v27 V, eq_main_v28 V, eq_main_v29 V,
    eq_main_v30 V, eq_main_v31 V, eq_main_v32 V, eq_main_cst_2 V, eq_main_v33 V, eq_main_v34 V, eq_main_v35 V, eq_main_v36 V,
    eq_main_v37 V, eq_main_v38 V, eq_main_cst_3 V, eq_main_v39 V, eq_main_cst_4 V, eq_main_v40 V, eq_main_v41 V, eq_main_c_5 V,
    eq_main_call0_cst V, eq_main_call0_v0 V, eq_main_call0_v1 V, eq_main_call0_cst_0 V, eq_main_call0_v2 V, eq_main_call0_v3 V,
    eq_main_call0_v4 V, eq_main_call0_v5 V, eq_main_call0_v6 V, eq_main_call0_v7 V, eq_main_call0_cst_1 V, eq_main_call0_v8 V,
    eq_main_call0_cst_2 V, eq_main_call0_v9 V, eq_main_call0_v10 V, eq_main_call0_v11 V, eq_main_call0_cst_3 V,
    eq_main_call0_v12 V, eq_main_call0_cst_4 V, eq_main_call0_call0_v0 V, eq_main_call0_call0_v1 V, eq_main_v42 V, eq_main_v43 V,
    eq_main_v44 V, eq_main_v45 V, eq_main_cst_6 V, eq_main_v46 V, eq_main_v47 V, eq_main_v48 V, eq_main_v49 V, eq_main_v50 V,
    eq_main_v51 V, eq_main_v52 V, eq_main_v53 V, eq_main_v54 V, eq_main_v55 V, eq_main_v56 V, eq_main_v57 V, finV_arg0 V, finV_arg1 V,
    finV_arg3 V, finV_arg4 V, finV_arg5 V, finV_arg6 V, finV_arg7 V, finV_arg8 V]
  rfl

/-- Layer 0's result after the run is the layer's composed term of the first argument. -/
theorem out0_eq (V : Valuation τ sig (Elt Ideal)) : after ops V (main_v57 : DevRef τ sig) = out0 V := out0_fin V

set_option maxRecDepth 16384 in
set_option maxHeartbeats 4000000 in
theorem out1_fin (V : Valuation τ sig (Elt Ideal)) : finV V (main_v111 : DevRef τ sig) = out1 V := by
  simp only [eq_main_v58 V, eq_main_v59 V, eq_main_v60 V, eq_main_v61 V, eq_main_v62 V, eq_main_v63 V, eq_main_v64 V, eq_main_v65 V,
    eq_main_c_7 V, eq_main_v66 V, eq_main_v67 V, eq_main_c_8 V, eq_main_v68 V, eq_main_v69 V, eq_main_v70 V, eq_main_v71 V,
    eq_main_v72 V, eq_main_cst_9 V, eq_main_v73 V, eq_main_v74 V, eq_main_v75 V, eq_main_v76 V, eq_main_v77 V, eq_main_v78 V,
    eq_main_v79 V, eq_main_v80 V, eq_main_cst_10 V, eq_main_v81 V, eq_main_v82 V, eq_main_v83 V, eq_main_v84 V, eq_main_v85 V,
    eq_main_v86 V, eq_main_cst_11 V, eq_main_v87 V, eq_main_v88 V, eq_main_v89 V, eq_main_v90 V, eq_main_v91 V, eq_main_v92 V,
    eq_main_cst_12 V, eq_main_v93 V, eq_main_cst_13 V, eq_main_v94 V, eq_main_v95 V, eq_main_c_14 V, eq_main_call1_cst V,
    eq_main_call1_v0 V, eq_main_call1_v1 V, eq_main_call1_cst_0 V, eq_main_call1_v2 V, eq_main_call1_v3 V, eq_main_call1_v4 V,
    eq_main_call1_v5 V, eq_main_call1_v6 V, eq_main_call1_v7 V, eq_main_call1_cst_1 V, eq_main_call1_v8 V, eq_main_call1_cst_2 V,
    eq_main_call1_v9 V, eq_main_call1_v10 V, eq_main_call1_v11 V, eq_main_call1_cst_3 V, eq_main_call1_v12 V,
    eq_main_call1_cst_4 V, eq_main_call1_call0_v0 V, eq_main_call1_call0_v1 V, eq_main_v96 V, eq_main_v97 V, eq_main_v98 V,
    eq_main_v99 V, eq_main_cst_15 V, eq_main_v100 V, eq_main_v101 V, eq_main_v102 V, eq_main_v103 V, eq_main_v104 V, eq_main_v105 V,
    eq_main_v106 V, eq_main_v107 V, eq_main_v108 V, eq_main_v109 V, eq_main_v110 V, eq_main_v111 V, eq_main_v0 V, eq_main_v1 V,
    eq_main_v2 V, eq_main_v3 V, finV_arg0 V, finV_arg1 V, finV_arg3 V, finV_arg4 V, finV_arg5 V, finV_arg6 V, finV_arg7 V, finV_arg8 V,
    out0_fin V]
  rfl

/-- Layer 1's result after the run is the layer's composed term of layer 0's. -/
theorem out1_eq (V : Valuation τ sig (Elt Ideal)) : after ops V (main_v111 : DevRef τ sig) = out1 V := out1_fin V

set_option maxRecDepth 16384 in
set_option maxHeartbeats 4000000 in
theorem out2_fin (V : Valuation τ sig (Elt Ideal)) : finV V (main_v165 : DevRef τ sig) = out2 V := by
  simp only [eq_main_v112 V, eq_main_v113 V, eq_main_v114 V, eq_main_v115 V, eq_main_v116 V, eq_main_v117 V, eq_main_v118 V, eq_main_v119 V,
    eq_main_c_16 V, eq_main_v120 V, eq_main_v121 V, eq_main_c_17 V, eq_main_v122 V, eq_main_v123 V, eq_main_v124 V, eq_main_v125 V,
    eq_main_v126 V, eq_main_cst_18 V, eq_main_v127 V, eq_main_v128 V, eq_main_v129 V, eq_main_v130 V, eq_main_v131 V, eq_main_v132 V,
    eq_main_v133 V, eq_main_v134 V, eq_main_cst_19 V, eq_main_v135 V, eq_main_v136 V, eq_main_v137 V, eq_main_v138 V, eq_main_v139 V,
    eq_main_v140 V, eq_main_cst_20 V, eq_main_v141 V, eq_main_v142 V, eq_main_v143 V, eq_main_v144 V, eq_main_v145 V, eq_main_v146 V,
    eq_main_cst_21 V, eq_main_v147 V, eq_main_cst_22 V, eq_main_v148 V, eq_main_v149 V, eq_main_c_23 V, eq_main_call2_cst V,
    eq_main_call2_v0 V, eq_main_call2_v1 V, eq_main_call2_cst_0 V, eq_main_call2_v2 V, eq_main_call2_v3 V, eq_main_call2_v4 V,
    eq_main_call2_v5 V, eq_main_call2_v6 V, eq_main_call2_v7 V, eq_main_call2_cst_1 V, eq_main_call2_v8 V, eq_main_call2_cst_2 V,
    eq_main_call2_v9 V, eq_main_call2_v10 V, eq_main_call2_v11 V, eq_main_call2_cst_3 V, eq_main_call2_v12 V,
    eq_main_call2_cst_4 V, eq_main_call2_call0_v0 V, eq_main_call2_call0_v1 V, eq_main_v150 V, eq_main_v151 V, eq_main_v152 V,
    eq_main_v153 V, eq_main_cst_24 V, eq_main_v154 V, eq_main_v155 V, eq_main_v156 V, eq_main_v157 V, eq_main_v158 V, eq_main_v159 V,
    eq_main_v160 V, eq_main_v161 V, eq_main_v162 V, eq_main_v163 V, eq_main_v164 V, eq_main_v165 V, eq_main_v0 V, eq_main_v1 V,
    eq_main_v2 V, eq_main_v3 V, finV_arg0 V, finV_arg1 V, finV_arg3 V, finV_arg4 V, finV_arg5 V, finV_arg6 V, finV_arg7 V, finV_arg8 V,
    out1_fin V]
  rfl

/-- Layer 2's result after the run is the layer's composed term of layer 1's. -/
theorem out2_eq (V : Valuation τ sig (Elt Ideal)) : after ops V (main_v165 : DevRef τ sig) = out2 V := out2_fin V

set_option maxRecDepth 16384 in
set_option maxHeartbeats 4000000 in
theorem out3_fin (V : Valuation τ sig (Elt Ideal)) : finV V (main_v218 : DevRef τ sig) = out3 V := by
  simp only [eq_main_v166 V, eq_main_v167 V, eq_main_v168 V, eq_main_v169 V, eq_main_v170 V, eq_main_v171 V, eq_main_v172 V, eq_main_v173 V,
    eq_main_c_25 V, eq_main_v174 V, eq_main_v175 V, eq_main_c_26 V, eq_main_v176 V, eq_main_v177 V, eq_main_v178 V, eq_main_v179 V,
    eq_main_v180 V, eq_main_cst_27 V, eq_main_v181 V, eq_main_v182 V, eq_main_v183 V, eq_main_v184 V, eq_main_v185 V, eq_main_v186 V,
    eq_main_v187 V, eq_main_v188 V, eq_main_cst_28 V, eq_main_v189 V, eq_main_v190 V, eq_main_v191 V, eq_main_v192 V, eq_main_v193 V,
    eq_main_v194 V, eq_main_v195 V, eq_main_v196 V, eq_main_v197 V, eq_main_v198 V, eq_main_v199 V, eq_main_cst_29 V, eq_main_v200 V,
    eq_main_cst_30 V, eq_main_v201 V, eq_main_v202 V, eq_main_c_31 V, eq_main_call3_cst V, eq_main_call3_v0 V, eq_main_call3_v1 V,
    eq_main_call3_cst_0 V, eq_main_call3_v2 V, eq_main_call3_v3 V, eq_main_call3_v4 V, eq_main_call3_v5 V, eq_main_call3_v6 V,
    eq_main_call3_v7 V, eq_main_call3_cst_1 V, eq_main_call3_v8 V, eq_main_call3_cst_2 V, eq_main_call3_v9 V,
    eq_main_call3_v10 V, eq_main_call3_v11 V, eq_main_call3_cst_3 V, eq_main_call3_v12 V, eq_main_call3_cst_4 V,
    eq_main_call3_call0_v0 V, eq_main_call3_call0_v1 V, eq_main_v203 V, eq_main_v204 V, eq_main_v205 V, eq_main_v206 V,
    eq_main_cst_32 V, eq_main_v207 V, eq_main_v208 V, eq_main_v209 V, eq_main_v210 V, eq_main_v211 V, eq_main_v212 V, eq_main_v213 V,
    eq_main_v214 V, eq_main_v215 V, eq_main_v216 V, eq_main_v217 V, eq_main_v218 V, eq_main_v0 V, eq_main_v1 V, eq_main_v2 V,
    eq_main_v3 V, finV_arg0 V, finV_arg1 V, finV_arg3 V, finV_arg4 V, finV_arg5 V, finV_arg6 V, finV_arg7 V, finV_arg8 V, out2_fin V]
  rfl

/-- Layer 3's result after the run is the layer's composed term of layer 2's. -/
theorem out3_eq (V : Valuation τ sig (Elt Ideal)) : after ops V (main_v218 : DevRef τ sig) = out3 V := out3_fin V

set_option maxRecDepth 16384 in
set_option maxHeartbeats 4000000 in
theorem out4_fin (V : Valuation τ sig (Elt Ideal)) : finV V (main_v271 : DevRef τ sig) = out4 V := by
  simp only [eq_main_v219 V, eq_main_v220 V, eq_main_v221 V, eq_main_v222 V, eq_main_v223 V, eq_main_v224 V, eq_main_v225 V, eq_main_v226 V,
    eq_main_c_33 V, eq_main_v227 V, eq_main_v228 V, eq_main_c_34 V, eq_main_v229 V, eq_main_v230 V, eq_main_v231 V, eq_main_v232 V,
    eq_main_v233 V, eq_main_cst_35 V, eq_main_v234 V, eq_main_v235 V, eq_main_v236 V, eq_main_v237 V, eq_main_v238 V, eq_main_v239 V,
    eq_main_v240 V, eq_main_v241 V, eq_main_cst_36 V, eq_main_v242 V, eq_main_v243 V, eq_main_v244 V, eq_main_v245 V, eq_main_v246 V,
    eq_main_v247 V, eq_main_v248 V, eq_main_v249 V, eq_main_v250 V, eq_main_v251 V, eq_main_v252 V, eq_main_cst_37 V, eq_main_v253 V,
    eq_main_cst_38 V, eq_main_v254 V, eq_main_v255 V, eq_main_c_39 V, eq_main_call4_cst V, eq_main_call4_v0 V, eq_main_call4_v1 V,
    eq_main_call4_cst_0 V, eq_main_call4_v2 V, eq_main_call4_v3 V, eq_main_call4_v4 V, eq_main_call4_v5 V, eq_main_call4_v6 V,
    eq_main_call4_v7 V, eq_main_call4_cst_1 V, eq_main_call4_v8 V, eq_main_call4_cst_2 V, eq_main_call4_v9 V,
    eq_main_call4_v10 V, eq_main_call4_v11 V, eq_main_call4_cst_3 V, eq_main_call4_v12 V, eq_main_call4_cst_4 V,
    eq_main_call4_call0_v0 V, eq_main_call4_call0_v1 V, eq_main_v256 V, eq_main_v257 V, eq_main_v258 V, eq_main_v259 V,
    eq_main_cst_40 V, eq_main_v260 V, eq_main_v261 V, eq_main_v262 V, eq_main_v263 V, eq_main_v264 V, eq_main_v265 V, eq_main_v266 V,
    eq_main_v267 V, eq_main_v268 V, eq_main_v269 V, eq_main_v270 V, eq_main_v271 V, eq_main_v0 V, eq_main_v1 V, eq_main_v2 V,
    eq_main_v3 V, finV_arg0 V, finV_arg1 V, finV_arg3 V, finV_arg4 V, finV_arg5 V, finV_arg6 V, finV_arg7 V, finV_arg8 V, out2_fin V]
  rfl

/-- Layer 4's result after the run is the layer's composed term of layer 2's. -/
theorem out4_eq (V : Valuation τ sig (Elt Ideal)) : after ops V (main_v271 : DevRef τ sig) = out4 V := out4_fin V

set_option maxRecDepth 16384 in
set_option maxHeartbeats 4000000 in
theorem out5_fin (V : Valuation τ sig (Elt Ideal)) : finV V (main_v324 : DevRef τ sig) = out5 V := by
  simp only [eq_main_v272 V, eq_main_v273 V, eq_main_v274 V, eq_main_v275 V, eq_main_v276 V, eq_main_v277 V, eq_main_v278 V, eq_main_v279 V,
    eq_main_c_41 V, eq_main_v280 V, eq_main_v281 V, eq_main_c_42 V, eq_main_v282 V, eq_main_v283 V, eq_main_v284 V, eq_main_v285 V,
    eq_main_v286 V, eq_main_cst_43 V, eq_main_v287 V, eq_main_v288 V, eq_main_v289 V, eq_main_v290 V, eq_main_v291 V, eq_main_v292 V,
    eq_main_v293 V, eq_main_v294 V, eq_main_cst_44 V, eq_main_v295 V, eq_main_v296 V, eq_main_v297 V, eq_main_v298 V, eq_main_v299 V,
    eq_main_v300 V, eq_main_v301 V, eq_main_v302 V, eq_main_v303 V, eq_main_v304 V, eq_main_v305 V, eq_main_cst_45 V, eq_main_v306 V,
    eq_main_cst_46 V, eq_main_v307 V, eq_main_v308 V, eq_main_c_47 V, eq_main_call5_cst V, eq_main_call5_v0 V, eq_main_call5_v1 V,
    eq_main_call5_cst_0 V, eq_main_call5_v2 V, eq_main_call5_v3 V, eq_main_call5_v4 V, eq_main_call5_v5 V, eq_main_call5_v6 V,
    eq_main_call5_v7 V, eq_main_call5_cst_1 V, eq_main_call5_v8 V, eq_main_call5_cst_2 V, eq_main_call5_v9 V,
    eq_main_call5_v10 V, eq_main_call5_v11 V, eq_main_call5_cst_3 V, eq_main_call5_v12 V, eq_main_call5_cst_4 V,
    eq_main_call5_call0_v0 V, eq_main_call5_call0_v1 V, eq_main_v309 V, eq_main_v310 V, eq_main_v311 V, eq_main_v312 V,
    eq_main_cst_48 V, eq_main_v313 V, eq_main_v314 V, eq_main_v315 V, eq_main_v316 V, eq_main_v317 V, eq_main_v318 V, eq_main_v319 V,
    eq_main_v320 V, eq_main_v321 V, eq_main_v322 V, eq_main_v323 V, eq_main_v324 V, eq_main_v0 V, eq_main_v1 V, eq_main_v2 V,
    eq_main_v3 V, finV_arg0 V, finV_arg1 V, finV_arg3 V, finV_arg4 V, finV_arg5 V, finV_arg6 V, finV_arg7 V, finV_arg8 V, out2_fin V]
  rfl

/-- Layer 5's result after the run is the layer's composed term of layer 2's. -/
theorem out5_eq (V : Valuation τ sig (Elt Ideal)) : after ops V (main_v324 : DevRef τ sig) = out5 V := out5_fin V

set_option maxRecDepth 16384 in
set_option maxHeartbeats 4000000 in
theorem out6_fin (V : Valuation τ sig (Elt Ideal)) : finV V (main_v377 : DevRef τ sig) = out6 V := by
  simp only [eq_main_v325 V, eq_main_v326 V, eq_main_v327 V, eq_main_v328 V, eq_main_v329 V, eq_main_v330 V, eq_main_v331 V, eq_main_v332 V,
    eq_main_c_49 V, eq_main_v333 V, eq_main_v334 V, eq_main_c_50 V, eq_main_v335 V, eq_main_v336 V, eq_main_v337 V, eq_main_v338 V,
    eq_main_v339 V, eq_main_cst_51 V, eq_main_v340 V, eq_main_v341 V, eq_main_v342 V, eq_main_v343 V, eq_main_v344 V, eq_main_v345 V,
    eq_main_v346 V, eq_main_v347 V, eq_main_cst_52 V, eq_main_v348 V, eq_main_v349 V, eq_main_v350 V, eq_main_v351 V, eq_main_v352 V,
    eq_main_v353 V, eq_main_v354 V, eq_main_v355 V, eq_main_v356 V, eq_main_v357 V, eq_main_v358 V, eq_main_cst_53 V, eq_main_v359 V,
    eq_main_cst_54 V, eq_main_v360 V, eq_main_v361 V, eq_main_c_55 V, eq_main_call6_cst V, eq_main_call6_v0 V, eq_main_call6_v1 V,
    eq_main_call6_cst_0 V, eq_main_call6_v2 V, eq_main_call6_v3 V, eq_main_call6_v4 V, eq_main_call6_v5 V, eq_main_call6_v6 V,
    eq_main_call6_v7 V, eq_main_call6_cst_1 V, eq_main_call6_v8 V, eq_main_call6_cst_2 V, eq_main_call6_v9 V,
    eq_main_call6_v10 V, eq_main_call6_v11 V, eq_main_call6_cst_3 V, eq_main_call6_v12 V, eq_main_call6_cst_4 V,
    eq_main_call6_call0_v0 V, eq_main_call6_call0_v1 V, eq_main_v362 V, eq_main_v363 V, eq_main_v364 V, eq_main_v365 V,
    eq_main_cst_56 V, eq_main_v366 V, eq_main_v367 V, eq_main_v368 V, eq_main_v369 V, eq_main_v370 V, eq_main_v371 V, eq_main_v372 V,
    eq_main_v373 V, eq_main_v374 V, eq_main_v375 V, eq_main_v376 V, eq_main_v377 V, eq_main_v0 V, eq_main_v1 V, eq_main_v2 V,
    eq_main_v3 V, finV_arg0 V, finV_arg1 V, finV_arg3 V, finV_arg4 V, finV_arg5 V, finV_arg6 V, finV_arg7 V, finV_arg8 V, out2_fin V]
  rfl

/-- Layer 6's result after the run is the layer's composed term of layer 2's. -/
theorem out6_eq (V : Valuation τ sig (Elt Ideal)) : after ops V (main_v377 : DevRef τ sig) = out6 V := out6_fin V

end Cert.ReferenceIdeal.RefRead

end
-- ==== Proof.Final.lean ====
/-
  The value claim. Under the precondition the idealized kernel and the idealized reference, run from memories agreeing on
  the arguments, both terminate with the same four results.

  The kernel's run ends with each result buffer at the last boundary's contents, which is the kernel's stack of seven
  layers of the launch memory. The reference's run ends with each result at the fold of its operations, which is the
  reference's stack of seven layers of ITS launch memory — the same arguments by hypothesis. The precondition makes every
  entry of the seven float arguments a real number; on real data the two stacks agree layer by layer (the affine
  normalisation from the raw moments is the centred one, and every layer keeps real data real).
-/
import proofs.«121838_j70282844831870_1_alg».proof.Defs
import proofs.«121838_j70282844831870_1_alg».proof.Proof.KerRun
import proofs.«121838_j70282844831870_1_alg».proof.Proof.KerChain
import proofs.«121838_j70282844831870_1_alg».proof.Proof.KerRefChain
import proofs.«121838_j70282844831870_1_alg».proof.Proof.PreReal
import proofs.«121838_j70282844831870_1_alg».proof.Proof.RefRun
import proofs.«121838_j70282844831870_1_alg».proof.Proof.RefRead

set_option maxRecDepth 16384
set_option maxHeartbeats 4000000

noncomputable section

namespace Cert.Proof.Final

open Idealize.ShloMosaic Idealize.ShloMosaic.TcCoe Idealize.SL.Sem
open Cert.Proof.Spec

/-- The kernel's half: its run names the four results as the kernel's stack of layers of the launch memory. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v171) = Cert.KernelIdeal.Chain.Y3 m c
        ∧ r.2.mem ((c.tc : Thread Cert.KernelIdeal.nD Cert.KernelIdeal.τ).loc Cert.KernelIdeal.main_v203) = Cert.KernelIdeal.Chain.Y4 m c
        ∧ r.2.mem ((c.tc : Thread Cert.KernelIdeal.nD Cert.KernelIdeal.τ).loc Cert.KernelIdeal.main_v235) = Cert.KernelIdeal.Chain.Y5 m c
        ∧ r.2.mem ((c.tc : Thread Cert.KernelIdeal.nD Cert.KernelIdeal.τ).loc Cert.KernelIdeal.main_v267) = Cert.KernelIdeal.Chain.Y6 m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono (fun r h c => by
      obtain ⟨h0, h1, h2, h3, rest⟩ := h c
      exact ⟨h0.trans (Cert.KernelIdeal.Chain.res0 m ρ c), h1.trans (Cert.KernelIdeal.Chain.res1 m ρ c),
        h2.trans (Cert.KernelIdeal.Chain.res2 m ρ c), h3.trans (Cert.KernelIdeal.Chain.res3 m ρ c), rest⟩)
    (Cert.KernelIdeal.KerRun.run_results (F := Ideal) m ρ)

/-- The reference's stack of layers of ITS launch memory is the stack spelt over the kernel's slices of the kernel's
    memory, when the two memories agree on the arguments: the two spellings use the same operations on the same data. -/
theorem ident (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefRead.out3 (StableHlo.launchContents m' c) = Cert.Bridge.RY3 m c
      ∧ Cert.ReferenceIdeal.RefRead.out4 (StableHlo.launchContents m' c) = Cert.Bridge.RY4 m c
      ∧ Cert.ReferenceIdeal.RefRead.out5 (StableHlo.launchContents m' c) = Cert.Bridge.RY5 m c
      ∧ Cert.ReferenceIdeal.RefRead.out6 (StableHlo.launchContents m' c) = Cert.Bridge.RY6 m c := by
  have e0 : StableHlo.launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := g0
  have e1 : StableHlo.launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := g1
  have e3 : StableHlo.launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := g3
  have e4 : StableHlo.launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := g4
  have e5 : StableHlo.launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := g5
  have e6 : StableHlo.launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) := g6
  have e7 : StableHlo.launchContents m' c (Cert.ReferenceIdeal.main_arg7 : DevRef Cert.ReferenceIdeal.τ Cert.ReferenceIdeal.sig) = m ((c.tc : Thread Cert.KernelIdeal.nD Cert.KernelIdeal.τ).loc Cert.KernelIdeal.main_arg7) := g7
  have e8 : StableHlo.launchContents m' c (Cert.ReferenceIdeal.main_arg8 : DevRef Cert.ReferenceIdeal.τ Cert.ReferenceIdeal.sig) = m ((c.tc : Thread Cert.KernelIdeal.nD Cert.KernelIdeal.τ).loc Cert.KernelIdeal.main_arg8) := g8
  have o0 : Cert.ReferenceIdeal.RefRead.out0 (StableHlo.launchContents m' c) = Cert.Bridge.RX0 m c := by
    unfold Cert.ReferenceIdeal.RefRead.out0 Cert.ReferenceIdeal.RefRead.layerOf Cert.Bridge.RX0
    rw [e0, e1, e3, e4, e5, e6, e7, e8]; rfl
  have o1 : Cert.ReferenceIdeal.RefRead.out1 (StableHlo.launchContents m' c) = Cert.Bridge.RX1 m c := by
    unfold Cert.ReferenceIdeal.RefRead.out1 Cert.ReferenceIdeal.RefRead.layerOf Cert.Bridge.RX1
    rw [o0, e1, e3, e4, e5, e6, e7, e8]; rfl
  have o2 : Cert.ReferenceIdeal.RefRead.out2 (StableHlo.launchContents m' c) = Cert.Bridge.RX2 m c := by
    unfold Cert.ReferenceIdeal.RefRead.out2 Cert.ReferenceIdeal.RefRead.layerOf Cert.Bridge.RX2
    rw [o1, e1, e3, e4, e5, e6, e7, e8]; rfl
  refine ⟨?_, ?_, ?_, ?_⟩
  · unfold Cert.ReferenceIdeal.RefRead.out3 Cert.ReferenceIdeal.RefRead.layerOf Cert.Bridge.RY3
    rw [o2, e1, e3, e4, e5, e6, e7, e8]; rfl
  · unfold Cert.ReferenceIdeal.RefRead.out4 Cert.ReferenceIdeal.RefRead.layerOf Cert.Bridge.RY4
    rw [o2, e1, e3, e4, e5, e6, e7, e8]; rfl
  · unfold Cert.ReferenceIdeal.RefRead.out5 Cert.ReferenceIdeal.RefRead.layerOf Cert.Bridge.RY5
    rw [o2, e1, e3, e4, e5, e6, e7, e8]; rfl
  · unfold Cert.ReferenceIdeal.RefRead.out6 Cert.ReferenceIdeal.RefRead.layerOf Cert.Bridge.RY6
    rw [o2, e1, e3, e4, e5, e6, e7, e8]; rfl

/-- THE VALUE CLAIM. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Chain.Y3 m c, fun c => Cert.KernelIdeal.Chain.Y4 m c, fun c => Cert.KernelIdeal.Chain.Y5 m c,
    fun c => Cert.KernelIdeal.Chain.Y6 m c, kernel_run m ρ, ?_⟩
  refine (θ_run (Cert.ReferenceIdeal.defs (F := Ideal)) _ _).mono (fun r h c => ?_) (Cert.ReferenceIdeal.RefRun.run_main (F := Ideal) m' ρ')
  obtain ⟨g0, g1, g2, g3, g4, g5, g6, g7, g8⟩ := hagree c
  obtain ⟨a0, a3, a4, a5, a6, a7, a8⟩ := Cert.PreReal.all_real _ _ _ _ _ _ _ _ _ (hpre c)
  obtain ⟨i3, i4, i5, i6⟩ := ident m m' c g0 g1 g3 g4 g5 g6 g7 g8
  refine ⟨?_, ?_, ?_, ?_, (h c _).trans (Cert.ReferenceIdeal.RefRun.arg0_eq _), (h c _).trans (Cert.ReferenceIdeal.RefRun.arg1_eq _),
    (h c _).trans (Cert.ReferenceIdeal.RefRun.arg2_eq _), (h c _).trans (Cert.ReferenceIdeal.RefRun.arg3_eq _), (h c _).trans (Cert.ReferenceIdeal.RefRun.arg4_eq _),
    (h c _).trans (Cert.ReferenceIdeal.RefRun.arg5_eq _), (h c _).trans (Cert.ReferenceIdeal.RefRun.arg6_eq _), (h c _).trans (Cert.ReferenceIdeal.RefRun.arg7_eq _),
    (h c _).trans (Cert.ReferenceIdeal.RefRun.arg8_eq _)⟩
  · exact (h c _).trans ((Cert.ReferenceIdeal.RefRead.out3_eq _).trans (i3.trans (Cert.Bridge.y3 m c a0 a3 a4 a5 a6 a7 a8).symm))
  · exact (h c _).trans ((Cert.ReferenceIdeal.RefRead.out4_eq _).trans (i4.trans (Cert.Bridge.y4 m c a0 a3 a4 a5 a6 a7 a8).symm))
  · exact (h c _).trans ((Cert.ReferenceIdeal.RefRead.out5_eq _).trans (i5.trans (Cert.Bridge.y5 m c a0 a3 a4 a5 a6 a7 a8).symm))
  · exact (h c _).trans ((Cert.ReferenceIdeal.RefRead.out6_eq _).trans (i6.trans (Cert.Bridge.y6 m c a0 a3 a4 a5 a6 a7 a8).symm))

end Cert.Proof.Final

end
-- ==== Proof.lean ====
/-
  The certificate's claim: the kernel (as printed, and idealized) and the idealized reference each run to the end from any
  memory of finite float arguments without faulting and leave the arguments unchanged; the idealized kernel is the
  printed kernel's own text read on the extended reals (the ideal pass rewrote nothing); and the idealized kernel and
  the idealized reference, from memories agreeing on the arguments, end with the same four results.

  The kernel is seven graph-convolution layers: neighbourhood sums on the host, two dense layers with a rectifier between
  and an activation, batch statistics accumulated over ten row tiles, and the normalisation as an affine map whose scale
  and shift the host forms from the raw moments. The reference normalises by the centred form. The two agree on real
  data — the mean of the squares minus the squared mean is the mean squared deviation — and every layer keeps real data
  real, so the agreement is carried through the stack of layers from the precondition.
-/
import proofs.«121838_j70282844831870_1_alg».proof.Defs
import proofs.«121838_j70282844831870_1_alg».proof.Proof.Gen.Kernel
import proofs.«121838_j70282844831870_1_alg».proof.Proof.Gen.Kernel.Frame
import proofs.«121838_j70282844831870_1_alg».proof.Proof.Gen.KernelIdeal
import proofs.«121838_j70282844831870_1_alg».proof.Proof.Gen.KernelIdeal.Frame
import proofs.«121838_j70282844831870_1_alg».proof.Proof.Gen.ReferenceIdeal
import proofs.«121838_j70282844831870_1_alg».proof.Proof.Gen.Pre_finite_inputs
import proofs.«121838_j70282844831870_1_alg».proof.Proof.RefRun
import proofs.«121838_j70282844831870_1_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefRun.frame_ri,
    trivial,
    Cert.Proof.Final.algebraic⟩

end Cert.Proof

end
